-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v18_1)) (v2 : (c : Dev Cert.KernelIdeal.nD) → Buf (Elt Ideal) ((c.tc : Thread Cert.KernelIdeal.nD Cert.KernelIdeal.τ).loc Cert.KernelIdeal.main_v18_2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_v18_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v5_5) = v1 c
          ∧ r.2.mem ((c.tc : Thread Cert.ReferenceIdeal.nD Cert.ReferenceIdeal.τ).loc Cert.ReferenceIdeal.main_v5_6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x20 : Shape := ⟨2, ![4096, 20]⟩
abbrev S1000000x64 : Shape := ⟨2, ![1000000, 64]⟩
abbrev S64x256 : Shape := ⟨2, ![64, 256]⟩
abbrev S256 : Shape := ⟨1, ![256]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S4096x20 : S_.BroadcastsInDim S4096x20 (![] : Fin 0 → Fin S4096x20.rank)
  reducesTo_S4096x20_S_d0_1 : S4096x20.ReducesTo [0, 1] S_

variable [Facts]

def fn_part1 {F : FTy → Type} [FloatOps F] (main_arg0 : IVec S4096x20 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_c_6 : IVec S_ 32 := constantI S_ 32 0#32
  let main_v19 : IVec S4096x20 32 := broadcastInDim S4096x20 ![] bcast_S_S4096x20 main_c_6
  let main_v20 : IVec S4096x20 1 := cmpi .sge main_arg0 main_v19
  let main_c_7 : IVec S_ 32 := constantI S_ 32 999999#32
  let main_v21 : IVec S4096x20 32 := broadcastInDim S4096x20 ![] bcast_S_S4096x20 main_c_7
  let main_v22 : IVec S4096x20 1 := cmpi .sle main_arg0 main_v21
  let main_v23 : IVec S4096x20 1 := andi main_v20 main_v22
  let main_c_8 : IVec S_ 1 := constantI S_ 1 1#1
  let main_v24 : IVec S_ 1 := (fun x v => Host.reduce IntOp.andi x v reducesTo_S4096x20_S_d0_1 h_S_) main_v23 main_c_8
  let main_v25 : IVec S_ 1 := andi main_v18 main_v24
  main_v25

def fn {F : FTy → Type} [FloatOps F] (main_arg0 : IVec S4096x20 32) (main_arg1 : FVec F S1000000x64 .f32) (main_arg2 : FVec F S64x256 .f32) (main_arg3 : FVec F S64x256 .f32) (main_arg4 : FVec F S256 .f32) : IVec S_ 1 :=
  let main_v0 : FVec F S1000000x64 .f32 := Host.absf main_arg1
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg0 main_v13 main_v16
-- ==== Kernel.lean ====
abbrev S4096x20 : Shape := ⟨2, ![4096, 20]⟩
abbrev S1000000x64 : Shape := ⟨2, ![1000000, 64]⟩
abbrev S64x256 : Shape := ⟨2, ![64, 256]⟩
abbrev S256 : Shape := ⟨1, ![256]⟩
abbrev S64x1000000 : Shape := ⟨2, ![64, 1000000]⟩
abbrev S64x16384 : Shape := ⟨2, ![64, 16384]⟩
abbrev S540672x128 : Shape := ⟨2, ![540672, 128]⟩
abbrev S16384x128 : Shape := ⟨2, ![16384, 128]⟩
abbrev S16384x64 : Shape := ⟨2, ![16384, 64]⟩
abbrev S20x4096 : Shape := ⟨2, ![20, 4096]⟩
abbrev S81920 : Shape := ⟨1, ![81920]⟩
abbrev S_ : Shape := ⟨0, ![]⟩
abbrev S81920x128 : Shape := ⟨2, ![81920, 128]⟩
abbrev S2560 : Shape := ⟨1, ![2560]⟩
abbrev S320x128 : Shape := ⟨2, ![320, 128]⟩
abbrev S320 : Shape := ⟨1, ![320]⟩
abbrev S20x4096x128 : Shape := ⟨3, ![20, 4096, 128]⟩
abbrev S1x256 : Shape := ⟨2, ![1, 256]⟩
abbrev S20x4096x64 : Shape := ⟨3, ![20, 4096, 64]⟩
abbrev S4096x64 : Shape := ⟨2, ![4096, 64]⟩
abbrev S20x512x128 : Shape := ⟨3, ![20, 512, 128]⟩
abbrev S512x20 : Shape := ⟨2, ![512, 20]⟩
abbrev S20x512x64 : Shape := ⟨3, ![20, 512, 64]⟩
abbrev S512x64 : Shape := ⟨2, ![512, 64]⟩
abbrev S1x512x128 : Shape := ⟨3, ![1, 512, 128]⟩
abbrev S512x128 : Shape := ⟨2, ![512, 128]⟩
abbrev S512x1 : Shape := ⟨2, ![512, 1]⟩
abbrev S512x256 : Shape := ⟨2, ![512, 256]⟩
abbrev S1x512x64 : Shape := ⟨3, ![1, 512, 64]⟩
abbrev S4096x20x64 : Shape := ⟨3, ![4096, 20, 64]⟩

abbrev nBuf : Table → Nat
  | .hbm => 37
  | .local .tc .vmem => 20
  | .local .scVector .vmem => 2
  | _ => 0

abbrev bufTy : (tb : Table) → Fin (nBuf tb) → BufTy
  | .hbm, ⟨0, _⟩ => ⟨S4096x20, .i32⟩
  | .hbm, ⟨1, _⟩ => ⟨S1000000x64, .f32⟩
  | .hbm, ⟨2, _⟩ => ⟨S64x256, .f32⟩
  | .hbm, ⟨3, _⟩ => ⟨S64x256, .f32⟩
  | .hbm, ⟨4, _⟩ => ⟨S256, .f32⟩
  | .hbm, ⟨5, _⟩ => ⟨S64x1000000, .f32⟩
  | .hbm, ⟨6, _⟩ => ⟨S64x16384, .f32⟩
  | .hbm, ⟨7, _⟩ => ⟨S540672x128, .f32⟩
  | .hbm, ⟨8, _⟩ => ⟨S20x4096, .i32⟩
  | .hbm, ⟨9, _⟩ => ⟨S81920, .i32⟩
  | .hbm, ⟨10, _⟩ => ⟨S_, .i32⟩
  | .hbm, ⟨11, _⟩ => ⟨S81920, .i32⟩
  | .hbm, ⟨12, _⟩ => ⟨S81920, .i1⟩
  | .hbm, ⟨13, _⟩ => ⟨S_, .i32⟩
  | .hbm, ⟨14, _⟩ => ⟨S_, .i32⟩
  | .hbm, ⟨15, _⟩ => ⟨S81920, .i32⟩
  | .hbm, ⟨16, _⟩ => ⟨S81920, .i32⟩
  | .hbm, ⟨17, _⟩ => ⟨S81920, .i32⟩
  | .hbm, ⟨18, _⟩ => ⟨S81920, .i32⟩
  | .hbm, ⟨19, _⟩ => ⟨S81920, .i32⟩
  | .hbm, ⟨20, _⟩ => ⟨S_, .i32⟩
  | .hbm, ⟨21, _⟩ => ⟨S81920, .i32⟩
  | .hbm, ⟨22, _⟩ => ⟨S81920, .i1⟩
  | .hbm, ⟨23, _⟩ => ⟨S_, .i32⟩
  | .hbm, ⟨24, _⟩ => ⟨S_, .i32⟩
  | .hbm, ⟨25, _⟩ => ⟨S81920, .i32⟩
  | .hbm, ⟨26, _⟩ => ⟨S81920, .i32⟩
  | .hbm, ⟨27, _⟩ => ⟨S81920, .i32⟩
  | .hbm, ⟨28, _⟩ => ⟨S81920, .i32⟩
  | .hbm, ⟨29, _⟩ => ⟨S81920, .i32⟩
  | .hbm, ⟨30, _⟩ => ⟨S81920x128, .f32⟩
  | .hbm, ⟨31, _⟩ => ⟨S20x4096x128, .f32⟩
  | .hbm, ⟨32, _⟩ => ⟨S1x256, .f32⟩
  | .hbm, ⟨33, _⟩ => ⟨S20x4096x64, .f32⟩
  | .hbm, ⟨34, _⟩ => ⟨S4096x64, .f32⟩
  | .hbm, ⟨35, _⟩ => ⟨S4096x64, .f32⟩
  | .hbm, ⟨36, _⟩ => ⟨S4096x20x64, .f32⟩
  | .local .tc .vmem, ⟨0, _⟩ => ⟨S64x16384, .f32⟩
  | .local .tc .vmem, ⟨1, _⟩ => ⟨S64x16384, .f32⟩
  | .local .tc .vmem, ⟨2, _⟩ => ⟨S64x16384, .f32⟩
  | .local .tc .vmem, ⟨3, _⟩ => ⟨S64x16384, .f32⟩
  | .local .tc .vmem, ⟨4, _⟩ => ⟨S64x16384, .f32⟩
  | .local .tc .vmem, ⟨5, _⟩ => ⟨S16384x128, .f32⟩
  | .local .tc .vmem, ⟨6, _⟩ => ⟨S16384x128, .f32⟩
  | .local .tc .vmem, ⟨7, _⟩ => ⟨S20x512x128, .f32⟩
  | .local .tc .vmem, ⟨8, _⟩ => ⟨S20x512x128, .f32⟩
  | .local .tc .vmem, ⟨9, _⟩ => ⟨S512x20, .i32⟩
  | .local .tc .vmem, ⟨10, _⟩ => ⟨S512x20, .i32⟩
  | .local .tc .vmem, ⟨11, _⟩ => ⟨S64x256, .f32⟩
  | .local .tc .vmem, ⟨12, _⟩ => ⟨S64x256, .f32⟩
  | .local .tc .vmem, ⟨13, _⟩ => ⟨S1x256, .f32⟩
  | .local .tc .vmem, ⟨14, _⟩ => ⟨S20x512x64, .f32⟩
  | .local .tc .vmem, ⟨15, _⟩ => ⟨S20x512x64, .f32⟩
  | .local .tc .vmem, ⟨16, _⟩ => ⟨S512x64, .f32⟩
  | .local .tc .vmem, ⟨17, _⟩ => ⟨S512x64, .f32⟩
  | .local .tc .vmem, ⟨18, _⟩ => ⟨S512x64, .f32⟩
  | .local .tc .vmem, ⟨19, _⟩ => ⟨S512x64, .f32⟩
  | .local .scVector .vmem, ⟨0, _⟩ => ⟨S2560, .i32⟩
  | .local .scVector .vmem, ⟨1, _⟩ => ⟨S320x128, .f32⟩
  | _, _ => ⟨S4096x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTables nBuf rfl bufTy 4 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_c_4 : Ref sig .tc := ⟨.hbm, 24, rfl⟩
abbrev main_call1_v0 : Ref sig .tc := ⟨.hbm, 25, rfl⟩
abbrev main_call1_v1 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18_0 : Ref sig .tc := ⟨.hbm, 33, rfl⟩
abbrev main_v18_1 : Ref sig .tc := ⟨.hbm, 34, rfl⟩
abbrev main_v18_2 : Ref sig .tc := ⟨.hbm, 35, rfl⟩
abbrev main_v19 : Ref sig .tc := ⟨.hbm, 36, rfl⟩
abbrev main_v14_scv : Ref sig .scVector := ⟨.hbm, 29, rfl⟩
abbrev main_v2_scv : Ref sig .scVector := ⟨.hbm, 7, rfl⟩
abbrev main_v15_scv : Ref sig .scVector := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc2_stg0_0 : Ref sig .tc := ⟨.vmem, 7, rfl⟩
abbrev cc2_stg0_1 : Ref sig .tc := ⟨.vmem, 8, rfl⟩
abbrev cc2_stg1_0 : Ref sig .tc := ⟨.vmem, 9, rfl⟩
abbrev cc2_stg1_1 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg4_0 : Ref sig .tc := ⟨.vmem, 13, rfl⟩
abbrev cc2_stg5_0 : Ref sig .tc := ⟨.vmem, 14, rfl⟩
abbrev cc2_stg5_1 : Ref sig .tc := ⟨.vmem, 15, rfl⟩
abbrev cc2_stg6_0 : Ref sig .tc := ⟨.vmem, 16, rfl⟩
abbrev cc2_stg6_1 : Ref sig .tc := ⟨.vmem, 17, rfl⟩
abbrev cc2_stg7_0 : Ref sig .tc := ⟨.vmem, 18, rfl⟩
abbrev cc2_stg7_1 : Ref sig .tc := ⟨.vmem, 19, rfl⟩
abbrev cc1_scratch0 : Ref sig .scVector := ⟨.vmem, 0, rfl⟩
abbrev cc1_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem5_1 : DmaSem sig := 25
abbrev cc2_sem6_0 : DmaSem sig := 26
abbrev cc2_sem6_1 : DmaSem sig := 27
abbrev cc2_sem7_0 : DmaSem sig := 28
abbrev cc2_sem7_1 : DmaSem sig := 29
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c32_i32 : BitVec 32 := 32#32
  let v0 : BitVec 32 := Scalar.addi arg0 c32_i32
  let c60_i32 : BitVec 32 := 60#32
  let v1 : BitVec 32 := Scalar.minsi v0 c60_i32
  let c0_i32 : BitVec 32 := 0#32
  let c0_i32_0 : BitVec 32 := 0#32
  ![c0_i32.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  ![v2.toNat]
def k1_off2 (i : grid1.Coords) (c0_i32_5 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2560_i32 : BitVec 32 := 2560#32
  let v2 : BitVec 32 := Scalar.muli v1 c2560_i32
  let v7 : BitVec 32 := Scalar.addi v2 c0_i32_5
  let c0_i32_48_r1 : BitVec 32 := 0#32
  ![v7.toNat, 0]
abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20x512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x20 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S20x512x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S512x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S512x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S1000000x64_S64x1000000_1_0 : S1000000x64.Transposes [1, 0] S64x1000000
  slices_S64x1000000_S64x16384_0_983616 : S64x1000000.Slices ![0, 983616] S64x16384
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  transposes_S64x16384_p1_0_S16384x64 : S64x16384.Transposes [1, 0] S16384x64
  inb_S16384x128_S16384x64_0_0 : ∀ a, (![0, 0] : Fin 2 → Nat) a + S16384x64.size a ≤ S16384x128.size a
  h_S16384x64 : 0 < S16384x64.numel
  inb_S16384x128_S16384x64_0_64 : ∀ a, (![0, 64] : Fin 2 → Nat) a + S16384x64.size a ≤ S16384x128.size a
  transposes_S4096x20_S20x4096_1_0 : S4096x20.Transposes [1, 0] S20x4096
  shapeCasts_S20x4096_S81920 : S20x4096.ShapeCasts S81920
  bcast_S_S81920 : S_.BroadcastsInDim S81920 (![] : Fin 0 → Fin S81920.rank)
  inb_S2560_S320_0 : ∀ a, (![0] : Fin 1 → Nat) a + S320.size a ≤ S2560.size a
  inb_S540672x128_S540672x128_0_0 : ∀ a, (![0, 0] : Fin 2 → Nat) a + S540672x128.size a ≤ S540672x128.size a
  gathers_S540672x128_S320x128 : S540672x128.Gathers 0 S320x128
  inb_S2560_S320_320 : ∀ a, (![320] : Fin 1 → Nat) a + S320.size a ≤ S2560.size a
  inb_S2560_S320_640 : ∀ a, (![640] : Fin 1 → Nat) a + S320.size a ≤ S2560.size a
  inb_S2560_S320_960 : ∀ a, (![960] : Fin 1 → Nat) a + S320.size a ≤ S2560.size a
  inb_S2560_S320_1280 : ∀ a, (![1280] : Fin 1 → Nat) a + S320.size a ≤ S2560.size a
  inb_S2560_S320_1600 : ∀ a, (![1600] : Fin 1 → Nat) a + S320.size a ≤ S2560.size a
  inb_S2560_S320_1920 : ∀ a, (![1920] : Fin 1 → Nat) a + S320.size a ≤ S2560.size a
  inb_S2560_S320_2240 : ∀ a, (![2240] : Fin 1 → Nat) a + S320.size a ≤ S2560.size a
  shapeCasts_S81920x128_S20x4096x128 : S81920x128.ShapeCasts S20x4096x128
  shapeCasts_S256_S1x256 : S256.ShapeCasts S1x256
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S20x512x128_S1x512x128_0_0_0 : ∀ a, (![0, 0, 0] : Fin 3 → Nat) a + S1x512x128.size a ≤ S20x512x128.size a
  h_S1x512x128 : 0 < S1x512x128.numel
  shapeCasts_S1x512x128_S512x128 : S1x512x128.ShapeCasts S512x128
  inb_S512x20_S512x1_0_0 : ∀ a, (![0, 0] : Fin 2 → Nat) a + S512x1.size a ≤ S512x20.size a
  h_S512x1 : 0 < S512x1.numel
  slices_S512x128_o0_64_S512x64 : S512x128.Slices ![0, 64] S512x64
  slices_S512x128_o0_0_S512x64 : S512x128.Slices ![0, 0] S512x64
  shapeCasts_S512x1_S512x1 : S512x1.ShapeCasts S512x1
  broadcasts_S512x1_S512x64 : S512x1.Broadcasts S512x64
  broadcasts_S1x256_S512x256 : S1x256.Broadcasts S512x256
  slices_S512x256_o0_0_S512x64 : S512x256.Slices ![0, 0] S512x64
  slices_S512x256_o0_64_S512x64 : S512x256.Slices ![0, 64] S512x64
  slices_S512x256_o0_128_S512x64 : S512x256.Slices ![0, 128] S512x64
  slices_S512x256_o0_192_S512x64 : S512x256.Slices ![0, 192] S512x64
  inb_S20x512x64_S1x512x64_0_0_0 : ∀ a, (![0, 0, 0] : Fin 3 → Nat) a + S1x512x64.size a ≤ S20x512x64.size a
  h_S1x512x64 : 0 < S1x512x64.numel
  shapeCasts_S1x512x64_S512x64 : S1x512x64.ShapeCasts S512x64
  shapeCasts_S512x64_S1x512x64 : S512x64.ShapeCasts S1x512x64
  inb_S20x512x128_S1x512x128_1_0_0 : ∀ a, (![1, 0, 0] : Fin 3 → Nat) a + S1x512x128.size a ≤ S20x512x128.size a
  inb_S512x20_S512x1_0_1 : ∀ a, (![0, 1] : Fin 2 → Nat) a + S512x1.size a ≤ S512x20.size a
  inb_S20x512x64_S1x512x64_1_0_0 : ∀ a, (![1, 0, 0] : Fin 3 → Nat) a + S1x512x64.size a ≤ S20x512x64.size a
  inb_S20x512x128_S1x512x128_2_0_0 : ∀ a, (![2, 0, 0] : Fin 3 → Nat) a + S1x512x128.size a ≤ S20x512x128.size a
  inb_S512x20_S512x1_0_2 : ∀ a, (![0, 2] : Fin 2 → Nat) a + S512x1.size a ≤ S512x20.size a
  inb_S20x512x64_S1x512x64_2_0_0 : ∀ a, (![2, 0, 0] : Fin 3 → Nat) a + S1x512x64.size a ≤ S20x512x64.size a
  inb_S20x512x128_S1x512x128_3_0_0 : ∀ a, (![3, 0, 0] : Fin 3 → Nat) a + S1x512x128.size a ≤ S20x512x128.size a
  inb_S512x20_S512x1_0_3 : ∀ a, (![0, 3] : Fin 2 → Nat) a + S512x1.size a ≤ S512x20.size a
  inb_S20x512x64_S1x512x64_3_0_0 : ∀ a, (![3, 0, 0] : Fin 3 → Nat) a + S1x512x64.size a ≤ S20x512x64.size a
  inb_S20x512x128_S1x512x128_4_0_0 : ∀ a, (![4, 0, 0] : Fin 3 → Nat) a + S1x512x128.size a ≤ S20x512x128.size a
  inb_S512x20_S512x1_0_4 : ∀ a, (![0, 4] : Fin 2 → Nat) a + S512x1.size a ≤ S512x20.size a
  inb_S20x512x64_S1x512x64_4_0_0 : ∀ a, (![4, 0, 0] : Fin 3 → Nat) a + S1x512x64.size a ≤ S20x512x64.size a
  inb_S20x512x128_S1x512x128_5_0_0 : ∀ a, (![5, 0, 0] : Fin 3 → Nat) a + S1x512x128.size a ≤ S20x512x128.size a
  inb_S512x20_S512x1_0_5 : ∀ a, (![0, 5] : Fin 2 → Nat) a + S512x1.size a ≤ S512x20.size a
  inb_S20x512x64_S1x512x64_5_0_0 : ∀ a, (![5, 0, 0] : Fin 3 → Nat) a + S1x512x64.size a ≤ S20x512x64.size a
  inb_S20x512x128_S1x512x128_6_0_0 : ∀ a, (![6, 0, 0] : Fin 3 → Nat) a + S1x512x128.size a ≤ S20x512x128.size a
  inb_S512x20_S512x1_0_6 : ∀ a, (![0, 6] : Fin 2 → Nat) a + S512x1.size a ≤ S512x20.size a
  inb_S20x512x64_S1x512x64_6_0_0 : ∀ a, (![6, 0, 0] : Fin 3 → Nat) a + S1x512x64.size a ≤ S20x512x64.size a
  inb_S20x512x128_S1x512x128_7_0_0 : ∀ a, (![7, 0, 0] : Fin 3 → Nat) a + S1x512x128.size a ≤ S20x512x128.size a
  inb_S512x20_S512x1_0_7 : ∀ a, (![0, 7] : Fin 2 → Nat) a + S512x1.size a ≤ S512x20.size a
  inb_S20x512x64_S1x512x64_7_0_0 : ∀ a, (![7, 0, 0] : Fin 3 → Nat) a + S1x512x64.size a ≤ S20x512x64.size a
  inb_S20x512x128_S1x512x128_8_0_0 : ∀ a, (![8, 0, 0] : Fin 3 → Nat) a + S1x512x128.size a ≤ S20x512x128.size a
  inb_S512x20_S512x1_0_8 : ∀ a, (![0, 8] : Fin 2 → Nat) a + S512x1.size a ≤ S512x20.size a
  inb_S20x512x64_S1x512x64_8_0_0 : ∀ a, (![8, 0, 0] : Fin 3 → Nat) a + S1x512x64.size a ≤ S20x512x64.size a
  inb_S20x512x128_S1x512x128_9_0_0 : ∀ a, (![9, 0, 0] : Fin 3 → Nat) a + S1x512x128.size a ≤ S20x512x128.size a
  inb_S512x20_S512x1_0_9 : ∀ a, (![0, 9] : Fin 2 → Nat) a + S512x1.size a ≤ S512x20.size a
  inb_S20x512x64_S1x512x64_9_0_0 : ∀ a, (![9, 0, 0] : Fin 3 → Nat) a + S1x512x64.size a ≤ S20x512x64.size a
  inb_S20x512x128_S1x512x128_10_0_0 : ∀ a, (![10, 0, 0] : Fin 3 → Nat) a + S1x512x128.size a ≤ S20x512x128.size a
  inb_S512x20_S512x1_0_10 : ∀ a, (![0, 10] : Fin 2 → Nat) a + S512x1.size a ≤ S512x20.size a
  inb_S20x512x64_S1x512x64_10_0_0 : ∀ a, (![10, 0, 0] : Fin 3 → Nat) a + S1x512x64.size a ≤ S20x512x64.size a
  inb_S20x512x128_S1x512x128_11_0_0 : ∀ a, (![11, 0, 0] : Fin 3 → Nat) a + S1x512x128.size a ≤ S20x512x128.size a
  inb_S512x20_S512x1_0_11 : ∀ a, (![0, 11] : Fin 2 → Nat) a + S512x1.size a ≤ S512x20.size a
  inb_S20x512x64_S1x512x64_11_0_0 : ∀ a, (![11, 0, 0] : Fin 3 → Nat) a + S1x512x64.size a ≤ S20x512x64.size a
  inb_S20x512x128_S1x512x128_12_0_0 : ∀ a, (![12, 0, 0] : Fin 3 → Nat) a + S1x512x128.size a ≤ S20x512x128.size a
  inb_S512x20_S512x1_0_12 : ∀ a, (![0, 12] : Fin 2 → Nat) a + S512x1.size a ≤ S512x20.size a
  inb_S20x512x64_S1x512x64_12_0_0 : ∀ a, (![12, 0, 0] : Fin 3 → Nat) a + S1x512x64.size a ≤ S20x512x64.size a
  inb_S20x512x128_S1x512x128_13_0_0 : ∀ a, (![13, 0, 0] : Fin 3 → Nat) a + S1x512x128.size a ≤ S20x512x128.size a
  inb_S512x20_S512x1_0_13 : ∀ a, (![0, 13] : Fin 2 → Nat) a + S512x1.size a ≤ S512x20.size a
  inb_S20x512x64_S1x512x64_13_0_0 : ∀ a, (![13, 0, 0] : Fin 3 → Nat) a + S1x512x64.size a ≤ S20x512x64.size a
  inb_S20x512x128_S1x512x128_14_0_0 : ∀ a, (![14, 0, 0] : Fin 3 → Nat) a + S1x512x128.size a ≤ S20x512x128.size a
  inb_S512x20_S512x1_0_14 : ∀ a, (![0, 14] : Fin 2 → Nat) a + S512x1.size a ≤ S512x20.size a
  inb_S20x512x64_S1x512x64_14_0_0 : ∀ a, (![14, 0, 0] : Fin 3 → Nat) a + S1x512x64.size a ≤ S20x512x64.size a
  inb_S20x512x128_S1x512x128_15_0_0 : ∀ a, (![15, 0, 0] : Fin 3 → Nat) a + S1x512x128.size a ≤ S20x512x128.size a
  inb_S512x20_S512x1_0_15 : ∀ a, (![0, 15] : Fin 2 → Nat) a + S512x1.size a ≤ S512x20.size a
  inb_S20x512x64_S1x512x64_15_0_0 : ∀ a, (![15, 0, 0] : Fin 3 → Nat) a + S1x512x64.size a ≤ S20x512x64.size a
  inb_S20x512x128_S1x512x128_16_0_0 : ∀ a, (![16, 0, 0] : Fin 3 → Nat) a + S1x512x128.size a ≤ S20x512x128.size a
  inb_S512x20_S512x1_0_16 : ∀ a, (![0, 16] : Fin 2 → Nat) a + S512x1.size a ≤ S512x20.size a
  inb_S20x512x64_S1x512x64_16_0_0 : ∀ a, (![16, 0, 0] : Fin 3 → Nat) a + S1x512x64.size a ≤ S20x512x64.size a
  inb_S20x512x128_S1x512x128_17_0_0 : ∀ a, (![17, 0, 0] : Fin 3 → Nat) a + S1x512x128.size a ≤ S20x512x128.size a
  inb_S512x20_S512x1_0_17 : ∀ a, (![0, 17] : Fin 2 → Nat) a + S512x1.size a ≤ S512x20.size a
  inb_S20x512x64_S1x512x64_17_0_0 : ∀ a, (![17, 0, 0] : Fin 3 → Nat) a + S1x512x64.size a ≤ S20x512x64.size a
  inb_S20x512x128_S1x512x128_18_0_0 : ∀ a, (![18, 0, 0] : Fin 3 → Nat) a + S1x512x128.size a ≤ S20x512x128.size a
  inb_S512x20_S512x1_0_18 : ∀ a, (![0, 18] : Fin 2 → Nat) a + S512x1.size a ≤ S512x20.size a
  inb_S20x512x64_S1x512x64_18_0_0 : ∀ a, (![18, 0, 0] : Fin 3 → Nat) a + S1x512x64.size a ≤ S20x512x64.size a
  inb_S20x512x128_S1x512x128_19_0_0 : ∀ a, (![19, 0, 0] : Fin 3 → Nat) a + S1x512x128.size a ≤ S20x512x128.size a
  inb_S512x20_S512x1_0_19 : ∀ a, (![0, 19] : Fin 2 → Nat) a + S512x1.size a ≤ S512x20.size a
  inb_S20x512x64_S1x512x64_19_0_0 : ∀ a, (![19, 0, 0] : Fin 3 → Nat) a + S1x512x64.size a ≤ S20x512x64.size a
  inb_S512x64_S512x64_0_0 : ∀ a, (![0, 0] : Fin 2 → Nat) a + S512x64.size a ≤ S512x64.size a
  h_S512x64 : 0 < S512x64.numel
  transposes_S20x4096x64_S4096x20x64_1_0_2 : S20x4096x64.Transposes [1, 0, 2] S4096x20x64
  dot_S512x64_S64x256_S512x256_1_0_0_1_n_n_wf : DotDims.WF S512x64 S64x256 S512x256 [1] [0] [0] [1] [] []
  hcc1_scratch2 : 7 + S_.numel ≤ 30
  hcc1_scoped0 : 8 + S_.numel ≤ 30
  hcc1_scoped1 : 9 + S_.numel ≤ 30
  hcc1_scoped2 : 10 + S_.numel ≤ 30
  hcc1_scoped3 : 11 + S_.numel ≤ 30
  hcc1_scoped4 : 12 + S_.numel ≤ 30
  hcc1_scoped5 : 13 + S_.numel ≤ 30
  hcc1_scoped6 : 14 + S_.numel ≤ 30
  hcc1_scoped7 : 15 + S_.numel ≤ 30
  hcc1_scoped8 : 16 + S_.numel ≤ 30
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S64x16384.size a < S64x1000000.size a
  hwx0_0 : ∀ i : grid0.Coords, EltTy.bits .f32 = 32 ∨ (Rect.unit (s := S64x1000000) (fun a => cc0_transform_0 i a * S64x16384.size a) (fun a => (Pipeline.Clip.of (cc0_transform_0 i a) (S64x16384.size a) (S64x1000000.size a)).extent (S64x16384.size a)) fun a => Pipeline.Clip.inb (Pipeline.Clip.ok_of (hstart0_0 i a))).WholeWords (EltTy.packing .f32)
  hwxs0_0 : ∀ i : grid0.Coords, EltTy.bits .f32 = 32 ∨ (Rect.unit (s := S64x16384) (fun _ => 0) (fun a => (Pipeline.Clip.of (cc0_transform_0 i a) (S64x16384.size a) (S64x1000000.size a)).extent (S64x16384.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S64x16384.size a < S64x1000000.size a
  hwx0_1 : ∀ i : grid0.Coords, EltTy.bits .f32 = 32 ∨ (Rect.unit (s := S64x1000000) (fun a => cc0_transform_1 i a * S64x16384.size a) (fun a => (Pipeline.Clip.of (cc0_transform_1 i a) (S64x16384.size a) (S64x1000000.size a)).extent (S64x16384.size a)) fun a => Pipeline.Clip.inb (Pipeline.Clip.ok_of (hstart0_1 i a))).WholeWords (EltTy.packing .f32)
  hwxs0_1 : ∀ i : grid0.Coords, EltTy.bits .f32 = 32 ∨ (Rect.unit (s := S64x16384) (fun _ => 0) (fun a => (Pipeline.Clip.of (cc0_transform_1 i a) (S64x16384.size a) (S64x1000000.size a)).extent (S64x16384.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16384.size a ≤ S64x16384.size a
  hwx0_2 : ∀ i : grid0.Coords, EltTy.bits .f32 = 32 ∨ (Rect.block (s := S64x16384) S64x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x128.size a ≤ S540672x128.size a
  hwx0_3 : ∀ i : grid0.Coords, EltTy.bits .f32 = 32 ∨ (Rect.block (s := S540672x128) S16384x128.size (cc0_transform_3 i) (hinb0_3 i)).WholeWords (EltTy.packing .f32)
  hcore1 : grid1.bound 0 ≤ τ.nSC
  hsub1 : grid1.bound 1 ≤ τ.nSub
  k1_off1_inb : ∀ i : grid1.Coords, ∀ a, (k1_off1 i) a + S2560.size a ≤ S81920.size a
  k1_off2_inb : ∀ i : grid1.Coords, ∀ (r : Fin 8), ∀ a, (k1_off2 i (BitVec.ofNat 32 (320 * r.val))) a + S320x128.size a ≤ S81920x128.size a
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20x512x128.size a ≤ S20x4096x128.size a
  hwx2_0 : ∀ i : grid2.Coords, EltTy.bits .f32 = 32 ∨ (Rect.block (s := S20x4096x128) S20x512x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x20.size a ≤ S4096x20.size a
  hwx2_1 : ∀ i : grid2.Coords, EltTy.bits .i32 = 32 ∨ (Rect.block (s := S4096x20) S512x20.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x256.size a ≤ S64x256.size a
  hwx2_2 : ∀ i : grid2.Coords, EltTy.bits .f32 = 32 ∨ (Rect.block (s := S64x256) S64x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x256.size a ≤ S64x256.size a
  hwx2_3 : ∀ i : grid2.Coords, EltTy.bits .f32 = 32 ∨ (Rect.block (s := S64x256) S64x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S20x512x64.size a ≤ S20x4096x64.size a
  hwx2_5 : ∀ i : grid2.Coords, EltTy.bits .f32 = 32 ∨ (Rect.block (s := S20x4096x64) S20x512x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x64.size a ≤ S4096x64.size a
  hwx2_6 : ∀ i : grid2.Coords, EltTy.bits .f32 = 32 ∨ (Rect.block (s := S4096x64) S512x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S512x64.size a ≤ S4096x64.size a
  hwx2_7 : ∀ i : grid2.Coords, EltTy.bits .f32 = 32 ∨ (Rect.block (s := S4096x64) S512x64.size (cc2_transform_7 i) (hinb2_7 i)).WholeWords (EltTy.packing .f32)

variable [Facts₀]

abbrev cc1_scratch2 : DmaSems sig S_ := SemArray.consecutive 7 S_ hcc1_scratch2
abbrev cc1_scoped0 : DmaSems sig S_ := SemArray.consecutive 8 S_ hcc1_scoped0
abbrev cc1_scoped1 : DmaSems sig S_ := SemArray.consecutive 9 S_ hcc1_scoped1
abbrev cc1_scoped2 : DmaSems sig S_ := SemArray.consecutive 10 S_ hcc1_scoped2
abbrev cc1_scoped3 : DmaSems sig S_ := SemArray.consecutive 11 S_ hcc1_scoped3
abbrev cc1_scoped4 : DmaSems sig S_ := SemArray.consecutive 12 S_ hcc1_scoped4
abbrev cc1_scoped5 : DmaSems sig S_ := SemArray.consecutive 13 S_ hcc1_scoped5
abbrev cc1_scoped6 : DmaSems sig S_ := SemArray.consecutive 14 S_ hcc1_scoped6
abbrev cc1_scoped7 : DmaSems sig S_ := SemArray.consecutive 15 S_ hcc1_scoped7
abbrev cc1_scoped8 : DmaSems sig S_ := SemArray.consecutive 16 S_ hcc1_scoped8
def dot_S512x64_S64x256_S512x256_1_0_0_1_n_n : DotDims S512x64 S64x256 S512x256 where
  lhsContracting := [1]
  rhsContracting := [0]
  lhsNonContracting := [0]
  rhsNonContracting := [1]
  lhsBatch := []
  rhsBatch := []
  wf := dot_S512x64_S64x256_S512x256_1_0_0_1_n_n_wf

abbrev win0_0 : Pipeline.Window sig grid0 :=
  Pipeline.Window.ofSpecClip (Memref.whole main_v0) S64x16384.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v0) S64x16384.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v1) S64x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16384x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win2_0 : Pipeline.Window sig grid2 :=
  Pipeline.Window.ofSpec (Memref.whole main_v16) S20x512x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S512x20.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S64x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg3) S64x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v18_0) S20x512x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v18_1) S512x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v18_2) S512x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S4096x20 : Shape := ⟨2, ![4096, 20]⟩
abbrev S1000000x64 : Shape := ⟨2, ![1000000, 64]⟩
abbrev S64x256 : Shape := ⟨2, ![64, 256]⟩
abbrev S256 : Shape := ⟨1, ![256]⟩
abbrev S_ : Shape := ⟨0, ![]⟩
abbrev S4096x20x1 : Shape := ⟨3, ![4096, 20, 1]⟩
abbrev S1 : Shape := ⟨1, ![1]⟩
abbrev S1x1x1 : Shape := ⟨3, ![1, 1, 1]⟩
abbrev S4096x20x64 : Shape := ⟨3, ![4096, 20, 64]⟩
abbrev S4096x64 : Shape := ⟨2, ![4096, 64]⟩
abbrev S20x4096x64 : Shape := ⟨3, ![20, 4096, 64]⟩
abbrev S1x4096x64 : Shape := ⟨3, ![1, 4096, 64]⟩
abbrev S4096x256 : Shape := ⟨2, ![4096, 256]⟩
abbrev S1x256 : Shape := ⟨2, ![1, 256]⟩

abbrev nBuf : Space → Nat
  | .hbm => 97
  | .vmem => 0
  | .smem => 0
  | _ => 0

abbrev bufTy : (tb : Table) → Fin (tcTables nBuf tb) → BufTy
  | .hbm, ⟨0, _⟩ => ⟨S4096x20, .i32⟩
  | .hbm, ⟨1, _⟩ => ⟨S1000000x64, .f32⟩
  | .hbm, ⟨2, _⟩ => ⟨S64x256, .f32⟩
  | .hbm, ⟨3, _⟩ => ⟨S64x256, .f32⟩
  | .hbm, ⟨4, _⟩ => ⟨S256, .f32⟩
  | .hbm, ⟨5, _⟩ => ⟨S_, .i32⟩
  | .hbm, ⟨6, _⟩ => ⟨S4096x20, .i32⟩
  | .hbm, ⟨7, _⟩ => ⟨S4096x20, .i1⟩
  | .hbm, ⟨8, _⟩ => ⟨S_, .i32⟩
  | .hbm, ⟨9, _⟩ => ⟨S4096x20, .i32⟩
  | .hbm, ⟨10, _⟩ => ⟨S4096x20, .i32⟩
  | .hbm, ⟨11, _⟩ => ⟨S4096x20, .i32⟩
  | .hbm, ⟨12, _⟩ => ⟨S4096x20x1, .i32⟩
  | .hbm, ⟨13, _⟩ => ⟨S1, .i32⟩
  | .hbm, ⟨14, _⟩ => ⟨S_, .i32⟩
  | .hbm, ⟨15, _⟩ => ⟨S4096x20x1, .i32⟩
  | .hbm, ⟨16, _⟩ => ⟨S4096x20x1, .i1⟩
  | .hbm, ⟨17, _⟩ => ⟨S1x1x1, .i32⟩
  | .hbm, ⟨18, _⟩ => ⟨S4096x20x1, .i32⟩
  | .hbm, ⟨19, _⟩ => ⟨S4096x20x1, .i1⟩
  | .hbm, ⟨20, _⟩ => ⟨S4096x20x1, .i1⟩
  | .hbm, ⟨21, _⟩ => ⟨S_, .i1⟩
  | .hbm, ⟨22, _⟩ => ⟨S4096x20, .i1⟩
  | .hbm, ⟨23, _⟩ => ⟨S4096x20x64, .f32⟩
  | .hbm, ⟨24, _⟩ => ⟨S4096x20x64, .i1⟩
  | .hbm, ⟨25, _⟩ => ⟨S_, .f32⟩
  | .hbm, ⟨26, _⟩ => ⟨S4096x20x64, .f32⟩
  | .hbm, ⟨27, _⟩ => ⟨S4096x20x64, .f32⟩
  | .hbm, ⟨28, _⟩ => ⟨S_, .f32⟩
  | .hbm, ⟨29, _⟩ => ⟨S4096x64, .f32⟩
  | .hbm, ⟨30, _⟩ => ⟨S_, .f32⟩
  | .hbm, ⟨31, _⟩ => ⟨S4096x64, .f32⟩
  | .hbm, ⟨32, _⟩ => ⟨S20x4096x64, .f32⟩
  | .hbm, ⟨33, _⟩ => ⟨S_, .f32⟩
  | .hbm, ⟨34, _⟩ => ⟨S20x4096x64, .f32⟩
  | .hbm, ⟨35, _⟩ => ⟨S_, .i32⟩
  | .hbm, ⟨36, _⟩ => ⟨S20x4096x64, .f32⟩
  | .hbm, ⟨37, _⟩ => ⟨S64x256, .f32⟩
  | .hbm, ⟨38, _⟩ => ⟨S64x256, .f32⟩
  | .hbm, ⟨39, _⟩ => ⟨S256, .f32⟩
  | .hbm, ⟨40, _⟩ => ⟨S_, .i32⟩
  | .hbm, ⟨41, _⟩ => ⟨S4096x64, .f32⟩
  | .hbm, ⟨42, _⟩ => ⟨S4096x64, .f32⟩
  | .hbm, ⟨43, _⟩ => ⟨S20x4096x64, .f32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S1x4096x64, .f32⟩
  | .hbm, ⟨49, _⟩ => ⟨S4096x64, .f32⟩
  | .hbm, ⟨50, _⟩ => ⟨S4096x256, .f32⟩
  | .hbm, ⟨51, _⟩ => ⟨S4096x256, .f32⟩
  | .hbm, ⟨52, _⟩ => ⟨S4096x256, .f32⟩
  | .hbm, ⟨53, _⟩ => ⟨S1x256, .f32⟩
  | .hbm, ⟨54, _⟩ => ⟨S4096x256, .f32⟩
  | .hbm, ⟨55, _⟩ => ⟨S4096x256, .f32⟩
  | .hbm, ⟨56, _⟩ => ⟨S4096x64, .f32⟩
  | .hbm, ⟨57, _⟩ => ⟨S4096x64, .f32⟩
  | .hbm, ⟨58, _⟩ => ⟨S4096x64, .f32⟩
  | .hbm, ⟨59, _⟩ => ⟨S_, .f32⟩
  | .hbm, ⟨60, _⟩ => ⟨S4096x64, .f32⟩
  | .hbm, ⟨61, _⟩ => ⟨S4096x64, .f32⟩
  | .hbm, ⟨62, _⟩ => ⟨S_, .f32⟩
  | .hbm, ⟨63, _⟩ => ⟨S4096x64, .f32⟩
  | .hbm, ⟨64, _⟩ => ⟨S4096x64, .f32⟩
  | .hbm, ⟨65, _⟩ => ⟨S4096x64, .f32⟩
  | .hbm, ⟨66, _⟩ => ⟨S4096x64, .f32⟩
  | .hbm, ⟨67, _⟩ => ⟨S4096x64, .f32⟩
  | .hbm, ⟨68, _⟩ => ⟨S_, .f32⟩
  | .hbm, ⟨69, _⟩ => ⟨S4096x64, .f32⟩
  | .hbm, ⟨70, _⟩ => ⟨S4096x64, .f32⟩
  | .hbm, ⟨71, _⟩ => ⟨S_, .f32⟩
  | .hbm, ⟨72, _⟩ => ⟨S4096x64, .f32⟩
  | .hbm, ⟨73, _⟩ => ⟨S4096x64, .f32⟩
  | .hbm, ⟨74, _⟩ => ⟨S4096x64, .f32⟩
  | .hbm, ⟨75, _⟩ => ⟨S4096x64, .f32⟩
  | .hbm, ⟨76, _⟩ => ⟨S4096x64, .f32⟩
  | .hbm, ⟨77, _⟩ => ⟨S4096x64, .f32⟩
  | .hbm, ⟨78, _⟩ => ⟨S4096x64, .f32⟩
  | .hbm, ⟨79, _⟩ => ⟨S_, .f32⟩
  | .hbm, ⟨80, _⟩ => ⟨S4096x64, .f32⟩
  | .hbm, ⟨81, _⟩ => ⟨S4096x64, .f32⟩
  | .hbm, ⟨82, _⟩ => ⟨S_, .f32⟩
  | .hbm, ⟨83, _⟩ => ⟨S4096x64, .f32⟩
  | .hbm, ⟨84, _⟩ => ⟨S4096x64, .f32⟩
  | .hbm, ⟨85, _⟩ => ⟨S4096x64, .f32⟩
  | .hbm, ⟨86, _⟩ => ⟨S4096x64, .f32⟩
  | .hbm, ⟨87, _⟩ => ⟨S4096x64, .f32⟩
  | .hbm, ⟨88, _⟩ => ⟨S4096x64, .f32⟩
  | .hbm, ⟨89, _⟩ => ⟨S4096x64, .f32⟩
  | .hbm, ⟨90, _⟩ => ⟨S1x4096x64, .f32⟩
  | .hbm, ⟨91, _⟩ => ⟨S_, .i32⟩
  | .hbm, ⟨92, _⟩ => ⟨S_, .i32⟩
  | .hbm, ⟨93, _⟩ => ⟨S20x4096x64, .f32⟩
  | .hbm, ⟨94, _⟩ => ⟨S_, .i32⟩
  | .hbm, ⟨95, _⟩ => ⟨S_, .i32⟩
  | .hbm, ⟨96, _⟩ => ⟨S4096x20x64, .f32⟩
  | _, _ => ⟨S4096x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_cst_0 : Ref sig .tc := ⟨.hbm, 30, rfl⟩
abbrev main_v2 : Ref sig .tc := ⟨.hbm, 31, rfl⟩
abbrev main_v3 : Ref sig .tc := ⟨.hbm, 32, rfl⟩
abbrev main_cst_1 : Ref sig .tc := ⟨.hbm, 33, rfl⟩
abbrev main_v4 : Ref sig .tc := ⟨.hbm, 34, rfl⟩
abbrev main_c : Ref sig .tc := ⟨.hbm, 35, rfl⟩
abbrev main_v5_0 : Ref sig .tc := ⟨.hbm, 36, rfl⟩
abbrev main_v5_1 : Ref sig .tc := ⟨.hbm, 37, rfl⟩
abbrev main_v5_2 : Ref sig .tc := ⟨.hbm, 38, rfl⟩
abbrev main_v5_3 : Ref sig .tc := ⟨.hbm, 39, rfl⟩
abbrev main_v5_4 : Ref sig .tc := ⟨.hbm, 40, rfl⟩
abbrev main_v5_5 : Ref sig .tc := ⟨.hbm, 41, rfl⟩
abbrev main_v5_6 : Ref sig .tc := ⟨.hbm, 42, rfl⟩
abbrev main_v5_7 : Ref sig .tc := ⟨.hbm, 43, rfl⟩
abbrev main_while0c_c_9 : Ref sig .tc := ⟨.hbm, 44, rfl⟩
abbrev main_while0c_v7 : Ref sig .tc := ⟨.hbm, 45, rfl⟩
abbrev main_while0b_call1_c : Ref sig .tc := ⟨.hbm, 46, rfl⟩
abbrev main_while0b_call1_c_0 : Ref sig .tc := ⟨.hbm, 47, rfl⟩
abbrev main_while0b_call1_v0 : Ref sig .tc := ⟨.hbm, 48, rfl⟩
abbrev main_while0b_v7 : Ref sig .tc := ⟨.hbm, 49, rfl⟩
abbrev main_while0b_call2_v0 : Ref sig .tc := ⟨.hbm, 50, rfl⟩
abbrev main_while0b_call2_v1 : Ref sig .tc := ⟨.hbm, 51, rfl⟩
abbrev main_while0b_call2_v2 : Ref sig .tc := ⟨.hbm, 52, rfl⟩
abbrev main_while0b_call2_v3 : Ref sig .tc := ⟨.hbm, 53, rfl⟩
abbrev main_while0b_call2_v4 : Ref sig .tc := ⟨.hbm, 54, rfl⟩
abbrev main_while0b_call2_v5 : Ref sig .tc := ⟨.hbm, 55, rfl⟩
abbrev main_while0b_call2_v6 : Ref sig .tc := ⟨.hbm, 56, rfl⟩
abbrev main_while0b_call2_v7 : Ref sig .tc := ⟨.hbm, 57, rfl⟩
abbrev main_while0b_call2_v8 : Ref sig .tc := ⟨.hbm, 58, rfl⟩
abbrev main_while0b_call2_cst : Ref sig .tc := ⟨.hbm, 59, rfl⟩
abbrev main_while0b_call2_v9 : Ref sig .tc := ⟨.hbm, 60, rfl⟩
abbrev main_while0b_call2_v10 : Ref sig .tc := ⟨.hbm, 61, rfl⟩
abbrev main_while0b_call2_cst_0 : Ref sig .tc := ⟨.hbm, 62, rfl⟩
abbrev main_while0b_call2_v11 : Ref sig .tc := ⟨.hbm, 63, rfl⟩
abbrev main_while0b_call2_v12 : Ref sig .tc := ⟨.hbm, 64, rfl⟩
abbrev main_while0b_call2_v13 : Ref sig .tc := ⟨.hbm, 65, rfl⟩
abbrev main_while0b_call2_v14 : Ref sig .tc := ⟨.hbm, 66, rfl⟩
abbrev main_while0b_call2_v15 : Ref sig .tc := ⟨.hbm, 67, rfl⟩
abbrev main_while0b_call2_cst_1 : Ref sig .tc := ⟨.hbm, 68, rfl⟩
abbrev main_while0b_call2_v16 : Ref sig .tc := ⟨.hbm, 69, rfl⟩
abbrev main_while0b_call2_v17 : Ref sig .tc := ⟨.hbm, 70, rfl⟩
abbrev main_while0b_call2_cst_2 : Ref sig .tc := ⟨.hbm, 71, rfl⟩
abbrev main_while0b_call2_v18 : Ref sig .tc := ⟨.hbm, 72, rfl⟩
abbrev main_while0b_call2_v19 : Ref sig .tc := ⟨.hbm, 73, rfl⟩
abbrev main_while0b_call2_v20 : Ref sig .tc := ⟨.hbm, 74, rfl⟩
abbrev main_while0b_call2_v21 : Ref sig .tc := ⟨.hbm, 75, rfl⟩
abbrev main_while0b_call2_v22 : Ref sig .tc := ⟨.hbm, 76, rfl⟩
abbrev main_while0b_call2_v23 : Ref sig .tc := ⟨.hbm, 77, rfl⟩
abbrev main_while0b_call2_v24 : Ref sig .tc := ⟨.hbm, 78, rfl⟩
abbrev main_while0b_call2_cst_3 : Ref sig .tc := ⟨.hbm, 79, rfl⟩
abbrev main_while0b_call2_v25 : Ref sig .tc := ⟨.hbm, 80, rfl⟩
abbrev main_while0b_call2_v26 : Ref sig .tc := ⟨.hbm, 81, rfl⟩
abbrev main_while0b_call2_cst_4 : Ref sig .tc := ⟨.hbm, 82, rfl⟩
abbrev main_while0b_call2_v27 : Ref sig .tc := ⟨.hbm, 83, rfl⟩
abbrev main_while0b_call2_v28 : Ref sig .tc := ⟨.hbm, 84, rfl⟩
abbrev main_while0b_call2_v29 : Ref sig .tc := ⟨.hbm, 85, rfl⟩
abbrev main_while0b_call2_v30 : Ref sig .tc := ⟨.hbm, 86, rfl⟩
abbrev main_while0b_v8_1 : Ref sig .tc := ⟨.hbm, 87, rfl⟩
abbrev main_while0b_call2_v32 : Ref sig .tc := ⟨.hbm, 88, rfl⟩
abbrev main_while0b_v8_0 : Ref sig .tc := ⟨.hbm, 89, rfl⟩
abbrev main_while0b_call3_v0 : Ref sig .tc := ⟨.hbm, 90, rfl⟩
abbrev main_while0b_call3_c : Ref sig .tc := ⟨.hbm, 91, rfl⟩
abbrev main_while0b_call3_c_0 : Ref sig .tc := ⟨.hbm, 92, rfl⟩
abbrev main_while0b_v9 : Ref sig .tc := ⟨.hbm, 93, rfl⟩
abbrev main_while0b_c_9 : Ref sig .tc := ⟨.hbm, 94, rfl⟩
abbrev main_while0b_v10 : Ref sig .tc := ⟨.hbm, 95, rfl⟩
abbrev main_v6 : Ref sig .tc := ⟨.hbm, 96, rfl⟩

abbrev nD : Nat := 1
abbrev τ : Topo := Topo.v7x

variable {F : FTy → Type} [FloatOps F]

abbrev main_while0_count : Scf.Loop 32 := ⟨0#32, 20#32, 1#32⟩

class Facts₀ : Prop where
  bcast_S_S4096x20 : S_.BroadcastsInDim S4096x20 (![] : Fin 0 → Fin S4096x20.rank)
  bcast_S4096x20_S4096x20x1_0_1 : S4096x20.BroadcastsInDim S4096x20x1 (![0, 1] : Fin 2 → Fin S4096x20x1.rank)
  bcast_S_S4096x20x1 : S_.BroadcastsInDim S4096x20x1 (![] : Fin 0 → Fin S4096x20x1.rank)
  bcast_S1_S1x1x1_2 : S1.BroadcastsInDim S1x1x1 (![2] : Fin 1 → Fin S1x1x1.rank)
  bcast_S1x1x1_S4096x20x1_0_1_2 : S1x1x1.BroadcastsInDim S4096x20x1 (![0, 1, 2] : Fin 3 → Fin S4096x20x1.rank)
  reducesTo_S4096x20x1_S4096x20_d2 : S4096x20x1.ReducesTo [2] S4096x20
  h_S_ : 0 < S_.numel
  bcast_S4096x20_S4096x20x64_0_1 : S4096x20.BroadcastsInDim S4096x20x64 (![0, 1] : Fin 2 → Fin S4096x20x64.rank)
  bcast_S_S4096x20x64 : S_.BroadcastsInDim S4096x20x64 (![] : Fin 0 → Fin S4096x20x64.rank)
  bcast_S_S4096x64 : S_.BroadcastsInDim S4096x64 (![] : Fin 0 → Fin S4096x64.rank)
  transposes_S4096x20x64_S20x4096x64_1_0_2 : S4096x20x64.Transposes [1, 0, 2] S20x4096x64
  bcast_S_S20x4096x64 : S_.BroadcastsInDim S20x4096x64 (![] : Fin 0 → Fin S20x4096x64.rank)
  sliceFits_S20x4096x64_S1x4096x64 : S20x4096x64.Slices (fun _ => 0) S1x4096x64
  shapeCasts_S1x4096x64_S4096x64 : S1x4096x64.ShapeCasts S4096x64
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  slices_S4096x256_S4096x64_0_0 : S4096x256.Slices ![0, 0] S4096x64
  slices_S4096x256_S4096x64_0_64 : S4096x256.Slices ![0, 64] S4096x64
  slices_S4096x256_S4096x64_0_128 : S4096x256.Slices ![0, 128] S4096x64
  slices_S4096x256_S4096x64_0_192 : S4096x256.Slices ![0, 192] S4096x64
  bcast_S4096x64_S1x4096x64_1_2 : S4096x64.BroadcastsInDim S1x4096x64 (![1, 2] : Fin 2 → Fin S1x4096x64.rank)
  updateFits_S20x4096x64_S1x4096x64 : S20x4096x64.Slices (fun _ => 0) S1x4096x64
  transposes_S20x4096x64_S4096x20x64_1_0_2 : S20x4096x64.Transposes [1, 0, 2] S4096x20x64
  gather_S1000000x64_S4096x20x1_S4096x20x64_2_0_n_n_0_2_164_wf : GatherDims.WF S1000000x64 S4096x20x1 S4096x20x64 [2] [0] [] [0] [] 2 ![1, 64]
  dot_S4096x64_S64x256_S4096x256_1_0_0_1_n_n_wf : DotDims.WF S4096x64 S64x256 S4096x256 [1] [0] [0] [1] [] []
  main_while0_ok : main_while0_count.OK

variable [Facts₀]

def gather_S1000000x64_S4096x20x1_S4096x20x64_2_0_n_n_0_2_164 : GatherDims S1000000x64 S4096x20x1 S4096x20x64 where
  offsetDims := [2]
  collapsedSliceDims := [0]
  operandBatchingDims := []
  startIndicesBatchingDims := []
  startIndexMap := [0]
  indexVectorDim := 2
  sliceSizes := ![1, 64]
  wf := gather_S1000000x64_S4096x20x1_S4096x20x64_2_0_n_n_0_2_164_wf
def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf

class Facts : Prop extends Facts₀ where

variable [Facts]
-- ==== Proof.Common.lean ====
/-
  The idealized kernel program as the SparseCore launch theorem reads it: the one vector-subcore call (the row gather)
  on both SparseCores × sixteen tiles, the ghost state (the launch handshakes' rounds, the two TensorCore pipelines'
  rounds, the transfers' counters), and the arrays the gather touches.

  Tile (c, s) works on worker number w = 2·s + c: rows [2560·w, 2560·w + 2560) of the index array (its eight chunks of
  320 indices), all of the packed table (read only, one read share per tile), and rows [2560·w + 320·r, +320) of the
  gathered array for r = 0..7.
-/
import proofs.«206902_g37847251812778_fold_wed_m_929_15_alg».proof.KernelIdeal
import proofs.«206902_g37847251812778_fold_wed_m_929_15_alg».proof.Proof.Gen.KernelIdeal
import proofs.«206902_g37847251812778_fold_wed_m_929_15_alg».proof.Proof.Gen.KernelIdeal.Skeleton
import Idealize.ShloMosaic.Lib.SparseCore.Launch
import Idealize.ShloMosaic.Lib.SparseCore.Stream
import Idealize.ShloMosaic.Lib.StableHlo.Run
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays of the gather -/

/-- The index array (`%14`), the packed table (`%2`) and the gathered rows (`%15`), as locations of device `d`. -/
abbrev iLoc (d : Dev nD) : Loc nD τ sig := (SparseCore.T d).loc main_v14
abbrev xLoc (d : Dev nD) : Loc nD τ sig := (SparseCore.T d).loc main_v2
abbrev oLoc (d : Dev nD) : Loc nD τ sig := (SparseCore.T d).loc main_v15

abbrev iV : Memref sig .scVector .hbm S81920 .i32 := Memref.whole main_v14_scv
abbrev xV : Memref sig .scVector .hbm S540672x128 .f32 := Memref.whole main_v2_scv
abbrev oV : Memref sig .scVector .hbm S81920x128 .f32 := Memref.whole main_v15_scv
/-- A tile's scratch: its 2560 indices, one chunk of 320 gathered rows. -/
abbrev sI : Memref sig .scVector .vmem S2560 .i32 := Memref.whole cc1_scratch0
abbrev sR : Memref sig .scVector .vmem S320x128 .f32 := Memref.whole cc1_scratch1

section Tile

variable (L : grid1.Coords)

abbrev cV (L : grid1.Coords) : Fin τ.nSC := (L 0).castLE hcore1
abbrev jV (L : grid1.Coords) : Fin τ.nSub := (L 1).castLE hsub1

/-- The tile's 2560 indices, as it slices them out of the index array. -/
abbrev iRowK (L : grid1.Coords) : Memref sig .scVector .hbm S2560 .i32 :=
  (iV).slice (Rect.unit (s := S81920) (k1_off1 L) S2560.size (k1_off1_inb L)) (fun _ => rfl)
/-- The whole table, as the tile slices it (the full rectangle). -/
abbrev xAllK : Memref sig .scVector .hbm S540672x128 .f32 :=
  (xV).slice (Rect.unit (s := S540672x128) ![0, 0] S540672x128.size inb_S540672x128_S540672x128_0_0) (fun _ => rfl)
/-- Chunk `r` of the tile's rows of the gathered array. -/
abbrev oCh0 (L : grid1.Coords) : Memref sig .scVector .hbm S320x128 .f32 := (oV).slice (Rect.unit (s := S81920x128) (k1_off2 L 0#32) S320x128.size (k1_off2_inb L 0)) (fun _ => rfl)
abbrev oCh1 (L : grid1.Coords) : Memref sig .scVector .hbm S320x128 .f32 := (oV).slice (Rect.unit (s := S81920x128) (k1_off2 L 320#32) S320x128.size (k1_off2_inb L 1)) (fun _ => rfl)
abbrev oCh2 (L : grid1.Coords) : Memref sig .scVector .hbm S320x128 .f32 := (oV).slice (Rect.unit (s := S81920x128) (k1_off2 L 640#32) S320x128.size (k1_off2_inb L 2)) (fun _ => rfl)
abbrev oCh3 (L : grid1.Coords) : Memref sig .scVector .hbm S320x128 .f32 := (oV).slice (Rect.unit (s := S81920x128) (k1_off2 L 960#32) S320x128.size (k1_off2_inb L 3)) (fun _ => rfl)
abbrev oCh4 (L : grid1.Coords) : Memref sig .scVector .hbm S320x128 .f32 := (oV).slice (Rect.unit (s := S81920x128) (k1_off2 L 1280#32) S320x128.size (k1_off2_inb L 4)) (fun _ => rfl)
abbrev oCh5 (L : grid1.Coords) : Memref sig .scVector .hbm S320x128 .f32 := (oV).slice (Rect.unit (s := S81920x128) (k1_off2 L 1600#32) S320x128.size (k1_off2_inb L 5)) (fun _ => rfl)
abbrev oCh6 (L : grid1.Coords) : Memref sig .scVector .hbm S320x128 .f32 := (oV).slice (Rect.unit (s := S81920x128) (k1_off2 L 1920#32) S320x128.size (k1_off2_inb L 6)) (fun _ => rfl)
abbrev oCh7 (L : grid1.Coords) : Memref sig .scVector .hbm S320x128 .f32 := (oV).slice (Rect.unit (s := S81920x128) (k1_off2 L 2240#32) S320x128.size (k1_off2_inb L 7)) (fun _ => rfl)

end Tile

end Cert.KernelIdeal.Hand

end
-- ==== Proof.RegionsCommon.lean ====
/-
  What the two TensorCore pipelines of the program share inside the SparseCore launch: where their staging cells' ghost
  state lives in the launch's resource algebra, the (empty) prefetched tables, and the bound the TensorCore's recorded
  waits keep: a pipeline's waits are on its own staging semaphores at no call's index, the lowest level.
-/
import proofs.«206902_g37847251812778_fold_wed_m_929_15_alg».proof.Proof.Common
import proofs.«206902_g37847251812778_fold_wed_m_929_15_alg».proof.Proof.Gen.KernelIdeal.Launch
import proofs.«206902_g37847251812778_fold_wed_m_929_15_alg».proof.Proof.Gen.KernelIdeal.Points
import Idealize.ShloMosaic.Lib.Pipeline.FrameBody
import Idealize.ShloMosaic.Lib.Pipeline.Regions
import Idealize.ShloMosaic.Lib.Pipeline.RegionsLoop

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type}

local notation "𝕄" => MT nD τ sig (HIx 1) (Elt F) ℕ UU ℕ

/-- The pipelines' rounds library inside the launch's algebra `UH × (UP × Counters)`: the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-- The prefetched tables' admissible contents: no pallas_call has a table. -/
abbrev adm : (p : Fin 2) → (pcfgs (F := F) p).Adm := fun p => (cfgs p).toPCfg_adm

/-- The pairs (own semaphore, index) at or below level `b` for the TensorCore of `d`. -/
def belowSet (d : Dev nD) (b : ℕ) : Set (SemLoc sig × HIx 1) := {p | (K (F := F)).lev (SparseCore.T d, p.1) p.2 ≤ b}

end Cert.KernelIdeal.Hand

end
-- ==== Proof.TransposeBody.lean ====
/-
  The transposing kernel's body at one grid point. It loads the 64 × 16384 block of the transposed table that its
  first window stages, transposes it and stores it as columns 0..63 of the 16384 × 128 output block; then, at grid
  points below 32, it does the same with the second window's block into columns 64..127, and at grid point 32 with
  the third window's block (the table's last 16384 columns) instead. The two stores tile the output block, so after
  the body the block is the canon of the two pieces.
-/
import proofs.«206902_g37847251812778_fold_wed_m_929_15_alg».proof.Proof.Common
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ UU ℕ

/-! ## The body's branch conditions -/

/-- "The grid coordinate is below 32", as the body computes it. -/
abbrev cond0_0 (i : grid0.Coords) : Prop := (Scalar.cmpi .ne (Scalar.extui (Scalar.cmpi .slt (BitVec.ofNat 32 (i 0).val) 32#32)) 0#32) = 1#1
/-- "The grid coordinate is 32", as the body computes it. -/
abbrev cond0_1 (i : grid0.Coords) : Prop := (Scalar.cmpi .ne (Scalar.extui (Scalar.cmpi .eq (BitVec.ofNat 32 (i 0).val) 32#32)) 0#32) = 1#1

theorem hcond0_0 : ∀ t : Fin cfg0.N, cond0_0 (grid0.coords t) ↔ t.val < 32 :=
  (by decide +kernel : ∀ t : Fin grid0.N, cond0_0 (grid0.coords t) ↔ t.val < 32)
theorem hcond0_1 : ∀ t : Fin cfg0.N, cond0_1 (grid0.coords t) ↔ t.val = 32 :=
  (by decide +kernel : ∀ t : Fin grid0.N, cond0_1 (grid0.coords t) ↔ t.val = 32)

/-! ## The body's accesses -/

abbrev rIn : Rect S64x16384 := Rect.unit (s := S64x16384) ![0, 0] S64x16384.size inb_S64x16384_S64x16384_0_0
abbrev rLo : Rect S16384x128 := Rect.unit (s := S16384x128) ![0, 0] S16384x64.size inb_S16384x128_S16384x64_0_0
abbrev rHi : Rect S16384x128 := Rect.unit (s := S16384x128) ![0, 64] S16384x64.size inb_S16384x128_S16384x64_0_64

/-! ## What the body leaves in the output block -/

/-- Below grid point 32: columns 0..63 from the first window's block, columns 64..127 from the second's (the later
    store first). -/
def out0_A (x0 x1 : Vec F S64x16384 .f32) : Vec F S16384x128 .f32 :=
  View.canon [⟨rHi, k0_pay2 (View.ld x1 rIn)⟩, ⟨rLo, k0_pay1 (View.ld x0 rIn)⟩]
/-- At grid point 32: columns 64..127 from the third window's block. -/
def out0_B (x0 x2 : Vec F S64x16384 .f32) : Vec F S16384x128 .f32 :=
  View.canon [⟨rHi, k0_pay3 (View.ld x2 rIn)⟩, ⟨rLo, k0_pay1 (View.ld x0 rIn)⟩]

/-- The two stores tile the block, so they cover it. -/
theorem cover0 (p0 p1 : Vec F S16384x64 .f32) (y : S16384x128.Idx) :
    ∃ pc ∈ ([⟨rHi, p0⟩, ⟨rLo, p1⟩] : List (View.Piece (Elt F) S16384x128 .f32)), y ∈ pc.1.set :=
  View.cover_of_tiled [⟨rHi, p0⟩, ⟨rLo, p1⟩] S16384x64.size (by rfl) y

/-! ## The body's triple, per case -/

set_option maxHeartbeats 1000000 in
/-- Below grid point 32. -/
theorem sound_kernel0_A (c : Dev nD) (E : Set ℕ) (i : grid0.Coords) (hc0 : cond0_0 i) (hc1 : ¬ cond0_1 i)
    (arg1 : Memref sig .tc .vmem S64x16384 .f32) (harg1 : arg1.IsWhole) (arg2 : Memref sig .tc .vmem S64x16384 .f32) (harg2 : arg2.IsWhole)
    (arg3 : Memref sig .tc .vmem S64x16384 .f32) (harg3 : arg3.IsWhole) (arg4 : Memref sig .tc .vmem S16384x128 .f32) (harg4 : arg4.IsWhole)
    (x0 x1 x2 : Vec F S64x16384 .f32) (Kp : PUnit → sProp 𝕄) :
    iprop((owns (c : Thread nD τ) arg1 fullShare x0 : sProp 𝕄) ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_A x0 x1)) -∗ Kp ⟨⟩))
      ⊢ wp frame (wpE (defs₀ (F := F)) 𝒱₀ (c : Thread nD τ) none) E (cc0_body i arg1 harg1 arg2 harg2 arg3 harg3 arg4 harg4) Kp := by
  rw [cc0_body_eq_skeleton]; unfold cc0_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _ _)

set_option maxHeartbeats 1000000 in
/-- At grid point 32. -/
theorem sound_kernel0_B (c : Dev nD) (E : Set ℕ) (i : grid0.Coords) (hc0 : ¬ cond0_0 i) (hc1 : cond0_1 i)
    (arg1 : Memref sig .tc .vmem S64x16384 .f32) (harg1 : arg1.IsWhole) (arg2 : Memref sig .tc .vmem S64x16384 .f32) (harg2 : arg2.IsWhole)
    (arg3 : Memref sig .tc .vmem S64x16384 .f32) (harg3 : arg3.IsWhole) (arg4 : Memref sig .tc .vmem S16384x128 .f32) (harg4 : arg4.IsWhole)
    (x0 x1 x2 : Vec F S64x16384 .f32) (Kp : PUnit → sProp 𝕄) :
    iprop((owns (c : Thread nD τ) arg1 fullShare x0 : sProp 𝕄) ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_B x0 x2)) -∗ Kp ⟨⟩))
      ⊢ wp frame (wpE (defs₀ (F := F)) 𝒱₀ (c : Thread nD τ) none) E (cc0_body i arg1 harg1 arg2 harg2 arg3 harg3 arg4 harg4) Kp := by
  rw [cc0_body_eq_skeleton]; unfold cc0_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _ _)

end Cert.KernelIdeal.Hand

end
-- ==== Proof.Region0.lean ====
/-
  The transposing pipeline (the program's first TensorCore call) as the pipeline rule takes it. Its first two windows
  stage 64 × 16384 blocks of ONE array, the transposed table (64 × 1000000: the last block of such a tiling would
  overhang, but the 33 grid points visit only blocks 0..32 and 32..60, all inside the array, so no fetch is cut);
  the third stages the table's last 16384 columns whole; the fourth is the output, 16384 rows per point. At every
  point the inputs' buffers hold their blocks and the output's holds the body's two transposed halves — the second
  half from the second window below point 32 and from the third window at point 32.

  The call runs before the program's one SparseCore call: the TensorCore owes the call's start signals (`O`) all
  through it; its recorded waits stay within a bound `B`.
-/
import proofs.«206902_g37847251812778_fold_wed_m_929_15_alg».proof.Proof.RegionsCommon
import proofs.«206902_g37847251812778_fold_wed_m_929_15_alg».proof.Proof.TransposeBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type} [FloatOps F]

local notation "𝕄" => MT nD τ sig (HIx 1) (Elt F) ℕ UU ℕ

/-! ## No fetch of the two block windows is cut -/

theorem clip0_0 : ∀ t : Fin cfg0.N, ∀ a, (cfg0.win 0).clip (cfg0.grid.coords t) a = none :=
  (by decide +kernel : ∀ t : Fin grid0.N, ∀ a, win0_0.clip (grid0.coords t) a = none)
theorem clip0_1 : ∀ t : Fin cfg0.N, ∀ a, (cfg0.win 1).clip (cfg0.grid.coords t) a = none :=
  (by decide +kernel : ∀ t : Fin grid0.N, ∀ a, win0_1.clip (grid0.coords t) a = none)

section Region0

-- the arrays as the region finds them
variable (V : (c : Dev nD) → (b : Ref sig .tc) → Buf (Elt F) ((c : Thread nD τ).loc b))
-- what the TensorCore owes throughout, and the bound on its recorded waits
variable (O : Dev nD → CellTallies nD τ sig (HIx 1)) (B : Set (SemLoc sig × HIx 1))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first window's staging buffer when the body runs: its block (the whole buffer: the filler is nowhere read). -/
def X0 (c : Dev nD) (t : Fin cfg0.N) : Vec F S64x16384 .f32 :=
  win0_0.fill (grid0.coords t) (fun _ => Scalar.ofBits .f32 0#32) (iblk0 V c 0 t)
/-- The second window's. -/
def X1 (c : Dev nD) (t : Fin cfg0.N) : Vec F S64x16384 .f32 :=
  win0_1.fill (grid0.coords t) (fun _ => Scalar.ofBits .f32 0#32) (iblk0 V c 1 t)
/-- The third window's: the table's last 16384 columns. -/
def X2 (c : Dev nD) (t : Fin cfg0.N) : Vec F S64x16384 .f32 := iblk0 V c 2 t

/-- The region's invariant: the TensorCore's scoped buffers that are no staging buffer of this call, each at some
    contents, and its generator register at some state. -/
def Φ0 (c : Dev nD) : sProp 𝕄 :=
  iprop(Pipeline.scopedRest (Ix := HIx 1) (Name := ℕ) (U := UU) (Lvl := ℕ) (Val := Elt F) spec0 c ∗ ∃ r, prngReg c r)

/-! ## The pipeline's proof data -/

def dat0 (c : Dev nD) : Dat τ (Elt F) (HIx 1) ℕ UU ℕ cfg0 c where
  A w := V c (Pipeline.arrRef spec0 w)
  after w t := match w with
    | ⟨0, _⟩ => X0 V c t
    | ⟨1, _⟩ => X1 V c t
    | ⟨2, _⟩ => X2 V c t
    | ⟨3, _⟩ => if t.val < 32 then out0_A (X0 V c t) (X1 V c t) else out0_B (X0 V c t) (X2 V c t)
  Φ _ := Φ0 c
  q w := match w with
    | ⟨0, _⟩ => fullShare.left
    | ⟨1, _⟩ => fullShare.right
    | ⟨2, _⟩ => fullShare
    | ⟨3, _⟩ => fullShare
  owed _ := O c
  recorded _ := B

theorem A_eq0 (c : Dev nD) (w : Fin cfg0.W) : (dat0 V O B c).A w = V c (Pipeline.arrRef spec0 w) := by
  dsimp only [dat0]

theorem after0_0 (c : Dev nD) (t : Fin cfg0.N) : (dat0 V O B c).after 0 t = X0 V c t := by dsimp only [dat0]
theorem after0_1 (c : Dev nD) (t : Fin cfg0.N) : (dat0 V O B c).after 1 t = X1 V c t := by dsimp only [dat0]
theorem after0_2 (c : Dev nD) (t : Fin cfg0.N) : (dat0 V O B c).after 2 t = X2 V c t := by dsimp only [dat0]
theorem after0_3 (c : Dev nD) (t : Fin cfg0.N) : (dat0 V O B c).after 3 t
    = if t.val < 32 then out0_A (X0 V c t) (X1 V c t) else out0_B (X0 V c t) (X2 V c t) := by dsimp only [dat0]

/-- The first window's buffer holds its block at every point, whatever was there before the fetch. -/
theorem before0_0 (c : Dev nD) (t : Fin cfg0.N) (d) : (dat0 V O B c).before 0 t d = X0 V c t :=
  ((dat0 V O B c).before_in_eq_fetched 0 rfl (fun _ => rfl)
      (fun t t' _ => funext fun a => (clip0_0 t a).trans (clip0_0 t' a).symm)
      (fun t => by rw [after0_0]; unfold X0; rw [show (cfg0.win 0).cut (cfg0.grid.coords t) = win0_0.cut (grid0.coords t) from rfl, Window.cut_fill]; unfold Dat.blockOf iblk0; rw [A_eq0]; try rfl) t d).trans
    (((dat0 V O B c).fetched_of_clip_none 0 t (clip0_0 t) d (fun _ => Scalar.ofBits .f32 0#32)).trans
      (by unfold Dat.fetched Dat.blockOf X0 iblk0; rw [A_eq0]; try rfl))
/-- The second window's likewise (over its last points it is not refetched: its block index does not move). -/
theorem before0_1 (c : Dev nD) (t : Fin cfg0.N) (d) : (dat0 V O B c).before 1 t d = X1 V c t :=
  ((dat0 V O B c).before_in_eq_fetched 1 rfl (fun _ => rfl)
      (fun t t' _ => funext fun a => (clip0_1 t a).trans (clip0_1 t' a).symm)
      (fun t => by rw [after0_1]; unfold X1; rw [show (cfg0.win 1).cut (cfg0.grid.coords t) = win0_1.cut (grid0.coords t) from rfl, Window.cut_fill]; unfold Dat.blockOf iblk0; rw [A_eq0]; try rfl) t d).trans
    (((dat0 V O B c).fetched_of_clip_none 1 t (clip0_1 t) d (fun _ => Scalar.ofBits .f32 0#32)).trans
      (by unfold Dat.fetched Dat.blockOf X1 iblk0; rw [A_eq0]; try rfl))
/-- The third window's: fetched once, kept. -/
theorem before0_2 (c : Dev nD) (t : Fin cfg0.N) (d) : (dat0 V O B c).before 2 t d = X2 V c t :=
  ((dat0 V O B c).before_in_eq_fetched 2 rfl (fun _ => rfl) (fun _ _ _ => rfl)
      (fun t => by rw [after0_2]; unfold Dat.blockOf X2 iblk0; rw [A_eq0]; try rfl) t d).trans
    (by unfold Dat.fetched Dat.blockOf X2 iblk0; rw [A_eq0]; try rfl)

/-! ## The body obligation -/

set_option maxHeartbeats 1000000 in
/-- The library's (loose) body obligation at every point: the three inputs' buffers arrive holding their blocks
    (`before0_W`), the output's holding anything; by the case's triple the inputs leave as they came and the output
    holds the case's two transposed halves. For the two block windows the obligation asks only the part the
    transfers move, which here is all of the buffer. -/
theorem body_obligation0 (c : Dev nD) : BodyObligationLoose (dat0 (F := F) V O B c) (defs₀ (F := F)) 𝒱₀ none Set.univ := fun t => by
  rw [bigSep_W0, bigSep_W0]
  simp only
  rw [show (dat0 V O B c).Φ t.succ = (dat0 V O B c).Φ t.castSucc from rfl,
    show (dat0 V O B c).owesAt none t.succ = (dat0 V O B c).owesAt none t.castSucc from rfl]
  change _ ⊢ wp frame (wpE (defs₀ (F := F)) 𝒱₀ (c : Thread nD τ) none) Set.univ (bodyAt0 t) _
  unfold bodyAt0
  iintro ⟨HΦ, Ho, ⟨%d0, H0⟩, ⟨%d1, H1⟩, ⟨%d2, H2⟩, ⟨%d3, H3⟩⟩
  rw [before0_0 V O B c t d0, before0_1 V O B c t d1, before0_2 V O B c t d2]
  by_cases ht : t.val < 32
  · have hc0 : cond0_0 (grid0.coords t) := (hcond0_0 t).mpr ht
    have hc1 : ¬ cond0_1 (grid0.coords t) := fun h => by have := (hcond0_1 t).mp h; omega
    iapply (sound_kernel0_A (F := F) c Set.univ (grid0.coords t) hc0 hc1 _ _ _ _ _ _ _ _ (X0 V c t) (X1 V c t) (X2 V c t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]
    · iexists (fun _ => Scalar.ofBits .f32 0#32)
      rw [after0_0]; unfold X0; rw [Window.cut_fill]; iexact H0
    isplitl [H1]
    · iexists (fun _ => Scalar.ofBits .f32 0#32)
      rw [after0_1]; unfold X1; rw [Window.cut_fill]; iexact H1
    isplitl [H2]
    · rw [after0_2]; iexact H2
    · rw [after0_3, if_pos ht]; iexact H3
  · have ht' : t.val = 32 := by have h1 := t.isLt; have h2 : cfg0.N = 33 := N_0; omega
    have hc0 : ¬ cond0_0 (grid0.coords t) := fun h => ht ((hcond0_0 t).mp h)
    have hc1 : cond0_1 (grid0.coords t) := (hcond0_1 t).mpr ht'
    iapply (sound_kernel0_B (F := F) c Set.univ (grid0.coords t) hc0 hc1 _ _ _ _ _ _ _ _ (X0 V c t) (X1 V c t) (X2 V c t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]
    · iexists (fun _ => Scalar.ofBits .f32 0#32)
      rw [after0_0]; unfold X0; rw [Window.cut_fill]; iexact H0
    isplitl [H1]
    · iexists (fun _ => Scalar.ofBits .f32 0#32)
      rw [after0_1]; unfold X1; rw [Window.cut_fill]; iexact H1
    isplitl [H2]
    · rw [after0_2]; iexact H2
    · rw [after0_3, if_neg ht]; iexact H3

end Region0

end Cert.KernelIdeal.Hand

end
-- ==== Proof.Region2.lean ====
/-
  The LSTM pipeline (the program's second TensorCore call) as the pipeline rule takes it: the proof data — at every
  grid point the five input windows' staging buffers hold their blocks and the three output windows' hold what the body
  computes from those blocks — and the body obligation, from the body's triple. The call runs after the program's one
  SparseCore call, when the TensorCore owes nothing; its recorded waits stay within a bound `B`.

  The body's three output functions and its triple are parameters here (they are proved in the body's own module).
-/
import proofs.«206902_g37847251812778_fold_wed_m_929_15_alg».proof.Proof.RegionsCommon

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type} [FloatOps F]

local notation "𝕄" => MT nD τ sig (HIx 1) (Elt F) ℕ UU ℕ

section Region2

-- what the body leaves in the three output windows' buffers, from the five input blocks
variable (o5 : Vec F S20x512x128 .f32 → Vec F S512x20 .i32 → Vec F S64x256 .f32 → Vec F S64x256 .f32 → Vec F S1x256 .f32 → Vec F S20x512x64 .f32)
  (o6 o7 : Vec F S20x512x128 .f32 → Vec F S512x20 .i32 → Vec F S64x256 .f32 → Vec F S64x256 .f32 → Vec F S1x256 .f32 → Vec F S512x64 .f32)

/-- The body's triple, as its module proves it. -/
def Sound2 : Prop :=
  ∀ (c : Dev nD) (E : Set ℕ) (i : grid2.Coords)
    (arg1 : Memref sig .tc .vmem S20x512x128 .f32) (harg1 : arg1.IsWhole) (arg2 : Memref sig .tc .vmem S512x20 .i32) (harg2 : arg2.IsWhole)
    (arg3 : Memref sig .tc .vmem S64x256 .f32) (harg3 : arg3.IsWhole) (arg4 : Memref sig .tc .vmem S64x256 .f32) (harg4 : arg4.IsWhole)
    (arg5 : Memref sig .tc .vmem S1x256 .f32) (harg5 : arg5.IsWhole) (arg6 : Memref sig .tc .vmem S20x512x64 .f32) (harg6 : arg6.IsWhole)
    (arg7 : Memref sig .tc .vmem S512x64 .f32) (harg7 : arg7.IsWhole) (arg8 : Memref sig .tc .vmem S512x64 .f32) (harg8 : arg8.IsWhole)
    (x0 : Vec F S20x512x128 .f32) (x1 : Vec F S512x20 .i32) (x2 : Vec F S64x256 .f32) (x3 : Vec F S64x256 .f32) (x4 : Vec F S1x256 .f32)
    (Kp : PUnit → sProp 𝕄),
    iprop((owns (c : Thread nD τ) arg1 fullShare x0 : sProp 𝕄) ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (o5 x0 x1 x2 x3 x4) ∗ owns (c : Thread nD τ) arg7 fullShare (o6 x0 x1 x2 x3 x4)
            ∗ owns (c : Thread nD τ) arg8 fullShare (o7 x0 x1 x2 x3 x4)) -∗ Kp ⟨⟩))
      ⊢ wp frame (wpE (defs₀ (F := F)) 𝒱₀ (c : Thread nD τ) none) E
          (cc2_body i arg1 harg1 arg2 harg2 arg3 harg3 arg4 harg4 arg5 harg5 arg6 harg6 arg7 harg7 arg8 harg8) Kp

-- the arrays as the region finds them
variable (V : (c : Dev nD) → (b : Ref sig .tc) → Buf (Elt F) ((c : Thread nD τ).loc b))
-- the bound on the TensorCore's recorded waits
variable (B : Set (SemLoc sig × HIx 1))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) (HIx 1) ℕ UU ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The region's invariant: the TensorCore's scoped buffers that are no staging buffer of this call, each at some
    contents, and its generator register at some state — nothing the body reads. -/
def Φ2 (c : Dev nD) : sProp 𝕄 :=
  iprop(Pipeline.scopedRest (Ix := HIx 1) (Name := ℕ) (U := UU) (Lvl := ℕ) (Val := Elt F) spec2 c ∗ ∃ r, prngReg c r)

/-- The proof data on core `c`: the arrays as the region finds them; after the body at point `t` each input's buffer at
    its block and each output's at the body's function of the input blocks; nothing owed; full shares. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => o5 (iblk2 V c 0 t) (iblk2 V c 1 t) (iblk2 V c 2 t) (iblk2 V c 3 t) (iblk2 V c 4 t)
    | ⟨6, _⟩ => o6 (iblk2 V c 0 t) (iblk2 V c 1 t) (iblk2 V c 2 t) (iblk2 V c 3 t) (iblk2 V c 4 t)
    | ⟨7, _⟩ => o7 (iblk2 V c 0 t) (iblk2 V c 1 t) (iblk2 V c 2 t) (iblk2 V c 3 t) (iblk2 V c 4 t)
  Φ _ := Φ2 c
  q _ := fullShare
  owed _ := 0
  recorded _ := B

theorem A_eq2 (c : Dev nD) (w : Fin cfg2.W) : (dat2 o5 o6 o7 V B c).A w = V c (Pipeline.arrRef spec2 w) := by
  dsimp only [dat2]

theorem after2_0 (c : Dev nD) (t : Fin cfg2.N) : (dat2 o5 o6 o7 V B c).after 0 t = iblk2 V c 0 t := by dsimp only [dat2]
theorem after2_1 (c : Dev nD) (t : Fin cfg2.N) : (dat2 o5 o6 o7 V B c).after 1 t = iblk2 V c 1 t := by dsimp only [dat2]
theorem after2_2 (c : Dev nD) (t : Fin cfg2.N) : (dat2 o5 o6 o7 V B c).after 2 t = iblk2 V c 2 t := by dsimp only [dat2]
theorem after2_3 (c : Dev nD) (t : Fin cfg2.N) : (dat2 o5 o6 o7 V B c).after 3 t = iblk2 V c 3 t := by dsimp only [dat2]
theorem after2_4 (c : Dev nD) (t : Fin cfg2.N) : (dat2 o5 o6 o7 V B c).after 4 t = iblk2 V c 4 t := by dsimp only [dat2]
theorem after2_5 (c : Dev nD) (t : Fin cfg2.N) : (dat2 o5 o6 o7 V B c).after 5 t
    = o5 (iblk2 V c 0 t) (iblk2 V c 1 t) (iblk2 V c 2 t) (iblk2 V c 3 t) (iblk2 V c 4 t) := by dsimp only [dat2]
theorem after2_6 (c : Dev nD) (t : Fin cfg2.N) : (dat2 o5 o6 o7 V B c).after 6 t
    = o6 (iblk2 V c 0 t) (iblk2 V c 1 t) (iblk2 V c 2 t) (iblk2 V c 3 t) (iblk2 V c 4 t) := by dsimp only [dat2]
theorem after2_7 (c : Dev nD) (t : Fin cfg2.N) : (dat2 o5 o6 o7 V B c).after 7 t
    = o7 (iblk2 V c 0 t) (iblk2 V c 1 t) (iblk2 V c 2 t) (iblk2 V c 3 t) (iblk2 V c 4 t) := by dsimp only [dat2]

theorem before2_0 (c : Dev nD) (t : Fin cfg2.N) (d) : (dat2 o5 o6 o7 V B c).before 0 t d = iblk2 V c 0 t :=
  before2_0_of V (dat2 o5 o6 o7 V B c) (A_eq2 o5 o6 o7 V B c 0) (after2_0 o5 o6 o7 V B c) t d
theorem before2_1 (c : Dev nD) (t : Fin cfg2.N) (d) : (dat2 o5 o6 o7 V B c).before 1 t d = iblk2 V c 1 t :=
  before2_1_of V (dat2 o5 o6 o7 V B c) (A_eq2 o5 o6 o7 V B c 1) (after2_1 o5 o6 o7 V B c) t d
theorem before2_2 (c : Dev nD) (t : Fin cfg2.N) (d) : (dat2 o5 o6 o7 V B c).before 2 t d = iblk2 V c 2 t :=
  before2_2_of V (dat2 o5 o6 o7 V B c) (A_eq2 o5 o6 o7 V B c 2) (after2_2 o5 o6 o7 V B c) t d
theorem before2_3 (c : Dev nD) (t : Fin cfg2.N) (d) : (dat2 o5 o6 o7 V B c).before 3 t d = iblk2 V c 3 t :=
  before2_3_of V (dat2 o5 o6 o7 V B c) (A_eq2 o5 o6 o7 V B c 3) (after2_3 o5 o6 o7 V B c) t d
theorem before2_4 (c : Dev nD) (t : Fin cfg2.N) (d) : (dat2 o5 o6 o7 V B c).before 4 t d = iblk2 V c 4 t :=
  before2_4_of V (dat2 o5 o6 o7 V B c) (A_eq2 o5 o6 o7 V B c 4) (after2_4 o5 o6 o7 V B c) t d

/-! ## The body obligation, at a generic point -/

/-- What the body is called with at point `t`, the windows one by one, -/
def bodyPre2 (c : Dev nD) (t : Fin cfg2.N) : sProp 𝕄 :=
  iprop((dat2 o5 o6 o7 V B c).Φ t.castSucc ∗ (dat2 o5 o6 o7 V B c).owesAt none t.castSucc
    ∗ (∃ d, owns (c : Thread nD τ) (st2_0 t) fullShare ((dat2 o5 o6 o7 V B c).before 0 t d))
    ∗ (∃ d, owns (c : Thread nD τ) (st2_1 t) fullShare ((dat2 o5 o6 o7 V B c).before 1 t d))
    ∗ (∃ d, owns (c : Thread nD τ) (st2_2 t) fullShare ((dat2 o5 o6 o7 V B c).before 2 t d))
    ∗ (∃ d, owns (c : Thread nD τ) (st2_3 t) fullShare ((dat2 o5 o6 o7 V B c).before 3 t d))
    ∗ (∃ d, owns (c : Thread nD τ) (st2_4 t) fullShare ((dat2 o5 o6 o7 V B c).before 4 t d))
    ∗ (∃ d, owns (c : Thread nD τ) (st2_5 t) fullShare ((dat2 o5 o6 o7 V B c).before 5 t d))
    ∗ (∃ d, owns (c : Thread nD τ) (st2_6 t) fullShare ((dat2 o5 o6 o7 V B c).before 6 t d))
    ∗ (∃ d, owns (c : Thread nD τ) (st2_7 t) fullShare ((dat2 o5 o6 o7 V B c).before 7 t d)))

/-- and what it returns. -/
def bodyPost2 (c : Dev nD) (t : Fin cfg2.N) : sProp 𝕄 :=
  iprop((dat2 o5 o6 o7 V B c).Φ t.succ ∗ (dat2 o5 o6 o7 V B c).owesAt none t.succ
    ∗ owns (c : Thread nD τ) (st2_0 t) fullShare ((dat2 o5 o6 o7 V B c).after 0 t)
    ∗ owns (c : Thread nD τ) (st2_1 t) fullShare ((dat2 o5 o6 o7 V B c).after 1 t)
    ∗ owns (c : Thread nD τ) (st2_2 t) fullShare ((dat2 o5 o6 o7 V B c).after 2 t)
    ∗ owns (c : Thread nD τ) (st2_3 t) fullShare ((dat2 o5 o6 o7 V B c).after 3 t)
    ∗ owns (c : Thread nD τ) (st2_4 t) fullShare ((dat2 o5 o6 o7 V B c).after 4 t)
    ∗ owns (c : Thread nD τ) (st2_5 t) fullShare ((dat2 o5 o6 o7 V B c).after 5 t)
    ∗ owns (c : Thread nD τ) (st2_6 t) fullShare ((dat2 o5 o6 o7 V B c).after 6 t)
    ∗ owns (c : Thread nD τ) (st2_7 t) fullShare ((dat2 o5 o6 o7 V B c).after 7 t))

/-- The body at any point: the inputs' memrefs hold their blocks, so the triple applies; the invariant and the
    core's `owes` pass through unread. -/
theorem sound_body2 (hs : Sound2 o5 o6 o7) (c : Dev nD) (t : Fin cfg2.N) :
    bodyPre2 o5 o6 o7 V B c t ⊢ wp frame (wpE (defs₀ (F := F)) 𝒱₀ (c : Thread nD τ) none) Set.univ (bodyAt2 t) (fun _ => bodyPost2 o5 o6 o7 V B c t) := by
  unfold bodyPre2 bodyPost2 bodyAt2
  simp only [before2_0, before2_1, before2_2, before2_3, before2_4]
  rw [show (dat2 o5 o6 o7 V B c).Φ t.succ = (dat2 o5 o6 o7 V B c).Φ t.castSucc from rfl,
    show (dat2 o5 o6 o7 V B c).owesAt none t.succ = (dat2 o5 o6 o7 V B c).owesAt none t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (hs c Set.univ (grid2.coords t) _ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (hs : Sound2 o5 o6 o7) (c : Dev nD) :
    BodyObligation (dat2 (F := F) o5 o6 o7 V B c) (defs₀ (F := F)) 𝒱₀ none Set.univ := fun t => by
  rw [bigSep_W2, bigSep_W2]
  exact sound_body2 o5 o6 o7 V B hs c t

end Region2

end Cert.KernelIdeal.Hand

end
-- ==== Proof.MainOps.lean ====
/-
  @main of the idealized kernel program, cut at its three calls: the host operations before the transposing call (the
  table transposed, its last 16384 columns sliced off), between it and the gather (the indices laid out time-major
  and remapped into the packed table's rows), between the gather and the LSTM call (two reshapes), and after it (the
  outputs back to batch-major).
-/
import proofs.«206902_g37847251812778_fold_wed_m_929_15_alg».proof.Proof.Common

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- Before the transposing call. -/
abbrev opsA : List (HloOp τ sig (Elt F)) :=
  [ StableHlo.unary main_arg1 main_v0 ((transpose S64x1000000 [1, 0] · transposes_S1000000x64_S64x1000000_1_0) : (⟨S1000000x64, .f32⟩ : BufTy).Contents (Elt F) → (⟨S64x1000000, .f32⟩ : BufTy).Contents (Elt F)),
    StableHlo.unary main_v0 main_v1 ((extractStridedSlice S64x16384 ![0, 983616] · slices_S64x1000000_S64x16384_0_983616) : (⟨S64x1000000, .f32⟩ : BufTy).Contents (Elt F) → (⟨S64x16384, .f32⟩ : BufTy).Contents (Elt F)) ]

/-- Between the transposing call and the gather: 22 operations. -/
abbrev opsB : List (HloOp τ sig (Elt F)) :=
  [ StableHlo.unary main_arg0 main_v3 ((transpose S20x4096 [1, 0] · transposes_S4096x20_S20x4096_1_0) : (⟨S4096x20, .i32⟩ : BufTy).Contents (Elt F) → (⟨S20x4096, .i32⟩ : BufTy).Contents (Elt F)),
    StableHlo.reshape main_v3 main_v4 rfl shapeCasts_S20x4096_S81920,
    StableHlo.nullary main_c (constantI S_ 32 524288#32),
    StableHlo.unary main_c main_v5 (broadcastInDim S81920 ![] bcast_S_S81920 : (⟨S_, .i32⟩ : BufTy).Contents (Elt F) → (⟨S81920, .i32⟩ : BufTy).Contents (Elt F)),
    StableHlo.binary main_v4 main_v5 main_v6 (cmpi .sge : (⟨S81920, .i32⟩ : BufTy).Contents (Elt F) → (⟨S81920, .i32⟩ : BufTy).Contents (Elt F) → (⟨S81920, .i1⟩ : BufTy).Contents (Elt F)),
    StableHlo.nullary main_c_0 (constantI S_ 32 524288#32),
    StableHlo.nullary main_c_1 (constantI S_ 32 0#32),
    StableHlo.TRef.unary (.of main_c_0 : StableHlo.TRef sig ⟨S_, .i32⟩) main_call0.v0 (broadcastInDim S81920 ![] bcast_S_S81920),
    StableHlo.TRef.unary (.of main_c_1 : StableHlo.TRef sig ⟨S_, .i32⟩) main_call0.v1 (broadcastInDim S81920 ![] bcast_S_S81920),
    StableHlo.TRef.ternary (.of main_v6 : StableHlo.TRef sig ⟨S81920, .i1⟩) main_call0.v0 main_call0.v1 main_call0.v2 select,
    StableHlo.unary main_v7 main_v8 (id : (⟨S81920, .i32⟩ : BufTy).Contents (Elt F) → (⟨S81920, .i32⟩ : BufTy).Contents (Elt F)),
    StableHlo.binary main_v4 main_v8 main_v9 (subi : (⟨S81920, .i32⟩ : BufTy).Contents (Elt F) → (⟨S81920, .i32⟩ : BufTy).Contents (Elt F) → (⟨S81920, .i32⟩ : BufTy).Contents (Elt F)),
    StableHlo.nullary main_c_2 (constantI S_ 32 999424#32),
    StableHlo.unary main_c_2 main_v10 (broadcastInDim S81920 ![] bcast_S_S81920 : (⟨S_, .i32⟩ : BufTy).Contents (Elt F) → (⟨S81920, .i32⟩ : BufTy).Contents (Elt F)),
    StableHlo.binary main_v4 main_v10 main_v11 (cmpi .sge : (⟨S81920, .i32⟩ : BufTy).Contents (Elt F) → (⟨S81920, .i32⟩ : BufTy).Contents (Elt F) → (⟨S81920, .i1⟩ : BufTy).Contents (Elt F)),
    StableHlo.nullary main_c_3 (constantI S_ 32 64960#32),
    StableHlo.nullary main_c_4 (constantI S_ 32 0#32),
    StableHlo.TRef.unary (.of main_c_3 : StableHlo.TRef sig ⟨S_, .i32⟩) main_call1.v0 (broadcastInDim S81920 ![] bcast_S_S81920),
    StableHlo.TRef.unary (.of main_c_4 : StableHlo.TRef sig ⟨S_, .i32⟩) main_call1.v1 (broadcastInDim S81920 ![] bcast_S_S81920),
    StableHlo.TRef.ternary (.of main_v11 : StableHlo.TRef sig ⟨S81920, .i1⟩) main_call1.v0 main_call1.v1 main_call1.v2 select,
    StableHlo.unary main_v12 main_v13 (id : (⟨S81920, .i32⟩ : BufTy).Contents (Elt F) → (⟨S81920, .i32⟩ : BufTy).Contents (Elt F)),
    StableHlo.binary main_v9 main_v13 main_v14 (addi : (⟨S81920, .i32⟩ : BufTy).Contents (Elt F) → (⟨S81920, .i32⟩ : BufTy).Contents (Elt F) → (⟨S81920, .i32⟩ : BufTy).Contents (Elt F)) ]

/-- Between the gather and the LSTM call. -/
abbrev opsC : List (HloOp τ sig (Elt F)) :=
  [ StableHlo.reshape main_v15 main_v16 rfl shapeCasts_S81920x128_S20x4096x128,
    StableHlo.reshape main_arg4 main_v17 rfl shapeCasts_S256_S1x256 ]

/-- After the LSTM call. -/
abbrev opsE : List (HloOp τ sig (Elt F)) :=
  [ StableHlo.unary main_v18_0 main_v19 ((transpose S4096x20x64 [1, 0, 2] · transposes_S20x4096x64_S4096x20x64_1_0_2) : (⟨S20x4096x64, .f32⟩ : BufTy).Contents (Elt F) → (⟨S4096x20x64, .f32⟩ : BufTy).Contents (Elt F)) ]

/-! ## Every operation of the stretches touches TensorCore references only, and none allocates -/

theorem opsA_sub : (opsA : List (HloOp τ sig (Elt F))).Forall fun op => op.bufs ⊆ StableHlo.tcRefs τ sig :=
  ⟨StableHlo.unary_bufs_sub .., StableHlo.unary_bufs_sub ..⟩
theorem opsA_fresh : (opsA : List (HloOp τ sig (Elt F))).Forall fun op => op.fresh = ∅ := by
  simp only [List.Forall]; repeat' constructor
theorem opsB_sub : (opsB : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.ternary_bufs_sub .., StableHlo.unary_bufs_sub .., StableHlo.binary_bufs_sub ..⟩
theorem opsB_fresh : (opsB : List (HloOp τ sig (Elt F))).Forall fun op => op.fresh = ∅ := by
  simp only [List.Forall]; repeat' constructor
theorem opsC_sub : (opsC : List (HloOp τ sig (Elt F))).Forall fun op => op.bufs ⊆ StableHlo.tcRefs τ sig :=
  ⟨StableHlo.reshape_bufs_sub .., StableHlo.reshape_bufs_sub ..⟩
theorem opsC_fresh : (opsC : List (HloOp τ sig (Elt F))).Forall fun op => op.fresh = ∅ := by
  simp only [List.Forall]; repeat' constructor
theorem opsE_sub : (opsE : List (HloOp τ sig (Elt F))).Forall fun op => op.bufs ⊆ StableHlo.tcRefs τ sig :=
  StableHlo.unary_bufs_sub ..
theorem opsE_fresh : (opsE : List (HloOp τ sig (Elt F))).Forall fun op => op.fresh = ∅ := by
  simp only [List.Forall]; repeat' constructor

set_option maxRecDepth 65536 in
/-- @main is these stretches and the three calls, in order. -/
theorem main_eq (d : Dev nD) : main (F := F) d =
    (StableHlo.seq opsA >>= fun _ => Prog.lift (.customCall (SparseCore.inner (Pipeline.entry 0)) ()) >>= fun _ =>
      StableHlo.seq opsB >>= fun _ => sc.run d 0 >>= fun _ => StableHlo.seq opsC >>= fun _ =>
      Prog.lift (.customCall (SparseCore.inner (Pipeline.entry 1)) ()) >>= fun _ => StableHlo.seq opsE >>= fun _ => pure ⟨⟩) := by
  rfl

end Cert.KernelIdeal.Hand

end
-- ==== Proof.Regs.lean ====
/-
  @main's buffer contents at each boundary between its stretches and calls, the two pipelines' proof data as one family,
  and each TensorCore call as a region of the pipeline rule: entered from all the unscoped buffers at the boundary's
  contents (beside the generator register and the TensorCore's ledger of what it owes), left at the next boundary's.
-/
import proofs.«206902_g37847251812778_fold_wed_m_929_15_alg».proof.Proof.Region0
import proofs.«206902_g37847251812778_fold_wed_m_929_15_alg».proof.Proof.Region2
import proofs.«206902_g37847251812778_fold_wed_m_929_15_alg».proof.Proof.MainOps
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type} [FloatOps F]

local notation "𝕄" => MT nD τ sig (HIx 1) (Elt F) ℕ UU ℕ

/-- The TensorCore owes nothing at no call's index. -/
theorem Otc_none (d : Dev nD) (n : ℕ) (g : GSem nD τ sig) : (K (F := F)).Otc d n g none = 0 := by
  by_contra h
  have := SparseCore.Cfg.lev_of_Otc_pos (K := K (F := F)) (Nat.pos_of_ne_zero h); rw [SparseCore.Cfg.lev_none] at this; omega

section Regs

variable (o5 : Vec F S20x512x128 .f32 → Vec F S512x20 .i32 → Vec F S64x256 .f32 → Vec F S64x256 .f32 → Vec F S1x256 .f32 → Vec F S20x512x64 .f32)
  (o6 o7 : Vec F S20x512x128 .f32 → Vec F S512x20 .i32 → Vec F S64x256 .f32 → Vec F S64x256 .f32 → Vec F S1x256 .f32 → Vec F S512x64 .f32)
variable (m : (ℓ : Loc nD τ sig) → Buf (Elt F) ℓ)
-- what the gather leaves in the gathered array
variable (fo : (c : Dev nD) → Buf (Elt F) ((c : Thread nD τ).loc main_v15))

/-! ## The buffer contents at each boundary: a fold through @main -/

abbrev W0 (c : Dev nD) : Valuation τ sig (Elt F) := fun b => m (c, b)
/-- After the first host stretch (the transposing call's entry). -/
abbrev W1 (c : Dev nD) : Valuation τ sig (Elt F) := StableHlo.after opsA (W0 m c)
abbrev V1 : (c : Dev nD) → (b : Ref sig .tc) → Buf (Elt F) ((c : Thread nD τ).loc b) := fun c b => W1 m c b

/-- What the TensorCore owes before the one SparseCore call, and the bounds on its recorded waits before and after it. -/
abbrev O0 (c : Dev nD) : CellTallies nD τ sig (HIx 1) := (K (F := F)).Otc c 0
abbrev B0 (c : Dev nD) : Set (SemLoc sig × HIx 1) := belowSet (F := F) c 0
abbrev B1 (c : Dev nD) : Set (SemLoc sig × HIx 1) := belowSet (F := F) c 8

/-- At the transposing call's exit: the packed table at what the pipeline leaves, everything else as entered. -/
def W2 (c : Dev nD) : Valuation τ sig (Elt F) :=
  Function.update (W1 m c) (Proc.devRef .tc main_v2) ((dat0 (V1 m) (O0 (F := F)) (B0 (F := F) c) c).arrAt 3 cfg0.N)
/-- After the second host stretch (the gather's entry). -/
abbrev W3 (c : Dev nD) : Valuation τ sig (Elt F) := StableHlo.after opsB (W2 m c)
/-- After the gather: the gathered array at what the tiles left. -/
def W4 (c : Dev nD) : Valuation τ sig (Elt F) := Function.update (W3 m c) (Proc.devRef .tc main_v15) (fo c)
/-- After the third host stretch (the LSTM call's entry). -/
abbrev W5 (c : Dev nD) : Valuation τ sig (Elt F) := StableHlo.after opsC (W4 m fo c)
abbrev V5 : (c : Dev nD) → (b : Ref sig .tc) → Buf (Elt F) ((c : Thread nD τ).loc b) := fun c b => W5 m fo c b
/-- At the LSTM call's exit: its arrays at what the pipeline leaves. -/
def W6 (c : Dev nD) : Valuation τ sig (Elt F) :=
  Pipeline.withArrays spec2 c (W5 m fo c) fun w => (dat2 o5 o6 o7 (V5 m fo) (B1 (F := F) c) c).arrAt w cfg2.N
abbrev V6 : (c : Dev nD) → (b : Ref sig .tc) → Buf (Elt F) ((c : Thread nD τ).loc b) := fun c b => W6 o5 o6 o7 m fo c b
/-- After the last host stretch. -/
abbrev W7 (c : Dev nD) : Valuation τ sig (Elt F) := StableHlo.after opsE (W6 o5 o6 o7 m fo c)

theorem W6_arr (c : Dev nD) (w : Fin cfg2.W) :
    W6 o5 o6 o7 m fo c (Proc.devRef .tc (Pipeline.arrRef spec2 w)) = (dat2 o5 o6 o7 (V5 m fo) (B1 (F := F) c) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 o5 o6 o7 m fo c (Proc.devRef .tc b) = W5 m fo c (Proc.devRef .tc b) := by
  unfold W6; exact Pipeline.withArrays_of_ne spec2 c _ _ b hb
theorem hF2 (c : Dev nD) (w : Fin cfg2.W) :
    (dat2 o5 o6 o7 (V5 m fo) (B1 (F := F) c) c).arrAt w cfg2.N = V6 o5 o6 o7 m fo c (Pipeline.arrRef spec2 w) :=
  (W6_arr o5 o6 o7 m fo c w).symm
theorem hrest2 (c : Dev nD) : ∀ b, b ∉ Finset.univ.image (Pipeline.arrRef spec2) → V6 o5 o6 o7 m fo c b = V5 m fo c b :=
  fun b hb => W6_of_ne o5 o6 o7 m fo c b fun w e => hb (Finset.mem_image.mpr ⟨w, Finset.mem_univ _, e⟩)

/-! ## The proof data family and what rides beside the buffers -/

/-- Both pipelines' proof data, each at its call's entry contents — a literal `match`, so that the rule's pinned
    configuration at a numeral reduces to the printed one. -/
def pdats : (p : Fin 2) → (c : Dev nD) → Dat τ (Elt F) (HIx 1) ℕ UU ℕ (Pipeline.pin (pcfgs (F := F)) adm p) c
  | ⟨0, _⟩ => fun c => dat0 (V1 m) (O0 (F := F)) (B0 (F := F) c) c
  | ⟨1, _⟩ => fun c => dat2 o5 o6 o7 (V5 m fo) (B1 (F := F) c) c

abbrev LL : GSem nD τ sig → Finset (HIx 1) := (K (F := F)).L
abbrev lvv : GSem nD τ sig → HIx 1 → ℕ := (K (F := F)).lev

/-- The generator register at some state and the TensorCore's ledger: it owes `O`, its recorded waits within `B`. -/
abbrev Rr (O : CellTallies nD τ sig (HIx 1)) (B : Set (SemLoc sig × HIx 1)) (c : Dev nD) : sProp 𝕄 :=
  iprop((∃ r, prngReg c r) ∗ ∃ W : Waits sig (HIx 1), ⌜(↑W : Set (SemLoc sig × HIx 1)) ⊆ B⌝ ∗ owes (c : Thread nD τ) O W)

/-- A pipeline's waits are at no call's index, the lowest level: within any bound. -/
theorem waitPairs_sub (cfg : Pipeline.Cfg sig Λ₀) (c : Dev nD) (b : ℕ) : cfg.waitPairs (none : HIx 1) ⊆ belowSet (F := F) c b := by
  rintro p ⟨w, s, rfl⟩
  show (K (F := F)).lev _ none ≤ b
  rw [SparseCore.Cfg.lev_none]; exact Nat.zero_le _

end Regs

end Cert.KernelIdeal.Hand

end
-- ==== Proof.RegionSegs.lean ====
/-
  The two TensorCore calls as regions of the pipeline rule (the records the rule's region step takes).
-/
import proofs.«206902_g37847251812778_fold_wed_m_929_15_alg».proof.Proof.Regs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type} [FloatOps F]

local notation "𝕄" => MT nD τ sig (HIx 1) (Elt F) ℕ UU ℕ

section RegionSegs

variable (o5 : Vec F S20x512x128 .f32 → Vec F S512x20 .i32 → Vec F S64x256 .f32 → Vec F S64x256 .f32 → Vec F S1x256 .f32 → Vec F S20x512x64 .f32)
  (o6 o7 : Vec F S20x512x128 .f32 → Vec F S512x20 .i32 → Vec F S64x256 .f32 → Vec F S64x256 .f32 → Vec F S1x256 .f32 → Vec F S512x64 .f32)
variable (m : (ℓ : Loc nD τ sig) → Buf (Elt F) ℓ)
variable (fo : (c : Dev nD) → Buf (Elt F) ((c : Thread nD τ).loc main_v15))

-- a library lemma stated over the rule's pinned configuration unifies with the printed one only when unification may
-- unfold plain definitions in a metavariable's type
set_option backward.isDefEq.respectTransparency.types false in
/-- The LSTM call: entered from every unscoped buffer at the contents after the third host stretch, left with its three
    output arrays at what the pipeline leaves. Its arrays are split out of the unscoped buffers and put back; the
    generator register goes into the invariant and comes out; the TensorCore owes nothing; no semaphore of the kernel's own. -/
def reg2 (hs : Sound2 o5 o6 o7) :
    Pipeline.RegionSeg (pcfgs (F := F)) adm (pdats o5 o6 o7 m fo) (none : HIx 1) defs₀ 𝒱₀ (LL (F := F)) (lvv (F := F)) 1 where
  win := launch2.win.to₀
  block_pos := launch2.block_pos
  stage_whole := launch2.stage_whole
  K := PEmpty
  osem k := k.elim
  ho := Pipeline.OwnSemFacts.none _
  hbody c := (body_obligation2 o5 o6 o7 (V5 m fo) (B1 (F := F) c) hs c).loose
  hwaits := Pipeline.hwaits_of_owed_zero _ _ _ _ (LL (F := F)) (lvv (F := F)) 1 fun _ _ => rfl
  pre c := iprop(StableHlo.held (c : Thread nD τ) (Pipeline.ucRefs τ sig) (W5 m fo c) ∗ Rr (F := F) 0 (B1 (F := F) c) c)
  post c := iprop(StableHlo.held (c : Thread nD τ) (Pipeline.ucRefs τ sig) (W6 o5 o6 o7 m fo c) ∗ Rr (F := F) 0 (B1 (F := F) c) c)
  X c := iprop(∃ r, prngReg c r)
  Y c := iprop(∃ r, prngReg c r)
  Z c := Pipeline.unscopedRest (Ix := HIx 1) (Name := ℕ) (U := UU) (Lvl := ℕ) spec2 c (V5 m fo c)
  hentry c := by
    rw [Pipeline.ownSems0_none]
    have hsplit := Pipeline.arrays_of_unscopedBufs (p := 1) (pcfgs (F := F)) adm (pdats o5 o6 o7 m fo) launch2.win launch2.arr_whole c
      ((pdats o5 o6 o7 m fo 1 c).share_full fun _ => rfl) (V5 m fo c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitl [Hp]; · iexact Hp
    iexact Hrest
  hin c := by
    rw [show (pdats o5 o6 o7 m fo 1 c).Φ 0 = Φ2 c from rfl]; unfold Φ2
    iintro ⟨Hp, -, Hr⟩
    isplitl [Hr]; · iexact Hr
    iexact Hp
  hout c := by
    rw [Pipeline.ownSems0_none, show (pdats o5 o6 o7 m fo 1 c).Φ (Fin.last _) = Φ2 c from rfl]; unfold Φ2
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats o5 o6 o7 m fo) ((pdats o5 o6 o7 m fo 1 c).share_full fun _ => rfl)
      (V5 m fo c) (V6 o5 o6 o7 m fo c) ((pdats o5 o6 o7 m fo 1 c).arrAt · cfg2.N) (hF2 o5 o6 o7 m fo c) (hrest2 o5 o6 o7 m fo c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact fun p hp => (hW hp).elim id fun h => waitPairs_sub (F := F) _ c 8 h
    iexact HO

/-! ## The transposing call -/

/-- The transposing call's three arrays: the transposed table (staged by two windows), its last 16384 columns, the
    packed table. -/
abbrev T0 : Finset (DevRef τ sig) := {Proc.devRef .tc main_v0, Proc.devRef .tc main_v1, Proc.devRef .tc main_v2}

omit [FloatOps F] in
theorem T0_sub : T0 ⊆ Pipeline.ucRefs τ sig := by
  intro b hb
  simp only [T0, Finset.mem_insert, Finset.mem_singleton] at hb
  rcases hb with rfl | rfl | rfl <;> exact Finset.mem_filter.mpr ⟨StableHlo.devRef_mem_tcRefs _, by decide⟩

omit [FloatOps F] in
theorem held_T0 (c : Dev nD) (V : Valuation τ sig (Elt F)) :
    (StableHlo.held (c : Thread nD τ) T0 V : sProp 𝕄)
      = iprop((((c, Proc.devRef .tc main_v0) : Loc nD τ sig) ↦{fullShare} V (Proc.devRef .tc main_v0))
          ∗ (((c, Proc.devRef .tc main_v1) : Loc nD τ sig) ↦{fullShare} V (Proc.devRef .tc main_v1))
          ∗ (((c, Proc.devRef .tc main_v2) : Loc nD τ sig) ↦{fullShare} V (Proc.devRef .tc main_v2))) := by
  unfold StableHlo.held T0
  rw [SparseCore.bigSep_insert' (by decide), SparseCore.bigSep_insert' (by decide), bigSep_singleton]

/-- The transposing call's windowed arrays, one by one: the transposed table at the two halves of the full share. -/
theorem arrays0 (c : Dev nD) (A4 : (w : Fin cfg0.W) → Buf (Elt F) ((cfg0.win w).arr.view.loc (c : Thread nD τ))) :
    ((pdats o5 o6 o7 m fo 0 c).arrays A4 : sProp 𝕄)
      = iprop((((c, Proc.devRef .tc main_v0) : Loc nD τ sig) ↦{fullShare.left} A4 0)
          ∗ (((c, Proc.devRef .tc main_v0) : Loc nD τ sig) ↦{fullShare.right} A4 1)
          ∗ (((c, Proc.devRef .tc main_v1) : Loc nD τ sig) ↦{fullShare} A4 2)
          ∗ (((c, Proc.devRef .tc main_v2) : Loc nD τ sig) ↦{fullShare} A4 3)) := by
  unfold Pipeline.Dat.arrays
  refine (bigSep_congr (fun w _ => by rw [show ((Pipeline.pin (pcfgs (F := F)) adm 0).win w).arr.view.set = Finset.univ from (arr_whole0 w).set_eq_univ]; rfl) : _ = bigSep Finset.univ fun w : Fin 4 =>
    ((cfg0.win w).arr.view.loc (c : Thread nD τ) ↦{(pdats o5 o6 o7 m fo 0 c).share w} A4 w : sProp 𝕄)).trans ?_
  rw [bigSep_W0]
  rfl

/-- The unscoped buffers at the transposing call's exit: its arrays — the inputs as entered, the packed table as the
    pipeline leaves it — and the rest as entered. -/
theorem held_W2 (c : Dev nD) :
    (StableHlo.held (c : Thread nD τ) (Pipeline.ucRefs τ sig) (W2 m c) : sProp 𝕄)
      = iprop(((((c, Proc.devRef .tc main_v0) : Loc nD τ sig) ↦{fullShare} W1 m c (Proc.devRef .tc main_v0))
          ∗ (((c, Proc.devRef .tc main_v1) : Loc nD τ sig) ↦{fullShare} W1 m c (Proc.devRef .tc main_v1))
          ∗ (((c, Proc.devRef .tc main_v2) : Loc nD τ sig) ↦{fullShare} (dat0 (V1 m) (O0 (F := F)) (B0 (F := F) c) c).arrAt 3 cfg0.N))
          ∗ StableHlo.held (c : Thread nD τ) (Pipeline.ucRefs τ sig \ T0) (W1 m c)) := by
  rw [StableHlo.held_sub_split (c : Thread nD τ) T0_sub (W2 m c), held_T0,
    StableHlo.held_congr (c : Thread nD τ) (V := W2 m c) (V' := W1 m c) (S := Pipeline.ucRefs τ sig \ T0) fun b hb => by
      unfold W2
      exact Function.update_of_ne (fun e => (Finset.mem_sdiff.mp hb).2 (by rw [e]; simp [T0])) _ _]
  unfold W2
  rw [Function.update_of_ne (show (Proc.devRef .tc main_v0 : DevRef τ sig) ≠ Proc.devRef .tc main_v2 by decide),
    Function.update_of_ne (show (Proc.devRef .tc main_v1 : DevRef τ sig) ≠ Proc.devRef .tc main_v2 by decide), Function.update_self]

set_option backward.isDefEq.respectTransparency.types false in
/-- The transposing call: entered from every unscoped buffer at the contents after the first host stretch, left with
    the packed table at what the pipeline leaves. The TensorCore owes the coming call's start signals throughout; its
    waits on the staging semaphores are below them. -/
def reg0 : Pipeline.RegionSeg (pcfgs (F := F)) adm (pdats o5 o6 o7 m fo) (none : HIx 1) defs₀ 𝒱₀ (LL (F := F)) (lvv (F := F)) 0 where
  win := winFacts₀0
  block_pos := block_pos0
  stage_whole := stage_whole0
  K := PEmpty
  osem k := k.elim
  ho := Pipeline.OwnSemFacts.none _
  hbody c := body_obligation0 (V1 m) (O0 (F := F)) (B0 (F := F) c) c
  hwaits c := Pipeline.cellsWaits_intro (Pipeline.pin (pcfgs (F := F)) adm) (pdats o5 o6 o7 m fo) (none : HIx 1) 0 c
    fun w s t => (K (F := F)).mayWait_none _ (Otc_none (F := F) c 0)
  pre c := iprop(StableHlo.held (c : Thread nD τ) (Pipeline.ucRefs τ sig) (W1 m c) ∗ Rr (F := F) (O0 (F := F) c) (B0 (F := F) c) c)
  post c := iprop(StableHlo.held (c : Thread nD τ) (Pipeline.ucRefs τ sig) (W2 m c) ∗ Rr (F := F) (O0 (F := F) c) (B0 (F := F) c) c)
  X c := iprop(∃ r, prngReg c r)
  Y c := iprop(∃ r, prngReg c r)
  Z c := StableHlo.held (c : Thread nD τ) (Pipeline.ucRefs τ sig \ T0) (W1 m c)
  hentry c := by
    rw [Pipeline.ownSems0_none, StableHlo.held_sub_split (c : Thread nD τ) T0_sub (W1 m c), held_T0, arrays0]
    have hsp : ((((c, Proc.devRef .tc main_v0) : Loc nD τ sig) ↦{fullShare} W1 m c (Proc.devRef .tc main_v0)) : sProp 𝕄)
        ⊢ iprop((((c, Proc.devRef .tc main_v0) : Loc nD τ sig) ↦{fullShare.left} W1 m c (Proc.devRef .tc main_v0))
          ∗ (((c, Proc.devRef .tc main_v0) : Loc nD τ sig) ↦{fullShare.right} W1 m c (Proc.devRef .tc main_v0))) :=
      (pointsTo_share (PosShare.mem_left_op_right fullShare)).1
    iintro ⟨⟨⟨⟨H0, H1, H2⟩, Hrest⟩, Hp, HO⟩, -, -⟩
    ihave H0' := hsp $$ H0
    icases H0' with ⟨H0l, H0r⟩
    imodintro
    isplitl [H0l H0r H1 H2]
    · isplitl [H0l]; · iexact H0l
      isplitl [H0r]; · iexact H0r
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitl [Hp]; · iexact Hp
    iexact Hrest
  hin c := by
    rw [show (pdats o5 o6 o7 m fo 0 c).Φ 0 = Φ0 c from rfl]; unfold Φ0
    iintro ⟨Hp, -, Hr⟩
    isplitl [Hr]; · iexact Hr
    iexact Hp
  hout c := by
    rw [Pipeline.ownSems0_none, show (pdats o5 o6 o7 m fo 0 c).Φ (Fin.last _) = Φ0 c from rfl]; unfold Φ0
    iintro ⟨Hr, Hp⟩
    isplitl [Hp]; · iexact Hp
    isplitr; · iempintro
    iexact Hr
  hexit c := by
    rw [arrays0, held_W2, (pdats o5 o6 o7 m fo 0 c).arrAt_in 0 rfl, (pdats o5 o6 o7 m fo 0 c).arrAt_in 1 rfl,
      (pdats o5 o6 o7 m fo 0 c).arrAt_in 2 rfl]
    have hjn : iprop((((c, Proc.devRef .tc main_v0) : Loc nD τ sig) ↦{fullShare.left} W1 m c (Proc.devRef .tc main_v0))
          ∗ (((c, Proc.devRef .tc main_v0) : Loc nD τ sig) ↦{fullShare.right} W1 m c (Proc.devRef .tc main_v0)))
        ⊢ ((((c, Proc.devRef .tc main_v0) : Loc nD τ sig) ↦{fullShare} W1 m c (Proc.devRef .tc main_v0)) : sProp 𝕄) :=
      (pointsTo_share (PosShare.mem_left_op_right fullShare)).2
    iintro ⟨⟨H0l, H0r, H1, H2⟩, HO, HY, Hrest⟩
    ihave H0 := hjn $$ [H0l H0r]
    · isplitl [H0l]; · iexact H0l
      iexact H0r
    imodintro
    isplitl [H0 H1 H2 Hrest]
    · isplitl [H0 H1 H2]
      · isplitl [H0]; · iexact H0
        isplitl [H1]; · iexact H1
        iexact H2
      iexact Hrest
    isplitl [HY]; · iexact HY
    unfold Pipeline.Dat.owesAt Pipeline.owesWithin
    icases HO with ⟨%W, %hW, HO⟩; iexists W; isplitr
    · ipureintro; exact fun p hp => (hW hp).elim id fun h => waitPairs_sub (F := F) _ c 0 h
    iexact HO

end RegionSegs

end Cert.KernelIdeal.Hand

end
-- ==== Proof.GSpec.lean ====
/-
  What the gather computes. Row `n` of the gathered array is the row of the packed table that word `n` of the index
  array names: gathered[n, k] = table[idx[n], k]. (Stated totally: a word past the table's end would name its last row;
  the program's words are all in range.)
-/
import proofs.«206902_g37847251812778_fold_wed_m_929_15_alg».proof.Proof.Common
import Idealize.ShloMosaic.Lib.ValueIdx

noncomputable section

namespace Cert.KernelIdeal.Hand

open Cert.KernelIdeal Cert.KernelIdeal.Gen
open Idealize.ShloMosaic
open Idealize.ShloMosaic.ValueIdx

variable {F : FTy → Type}

/-- The row of the packed table a word names. -/
def rowOfT (w : BitVec 32) : Fin 540672 := ⟨min w.toNat 540671, by omega⟩

theorem rowOfT_val (w : BitVec 32) (h : w.toNat < 540672) : (rowOfT w).val = w.toNat := by
  unfold rowOfT; exact Nat.min_eq_left (by omega)

/-- The gathered array, from the index array's and the packed table's contents. -/
def gspecOf (d : Dev nD) (fi : Buf (Elt F) (iLoc d)) (ft : Buf (Elt F) (xLoc d)) : Buf (Elt F) (oLoc d) :=
  (fun y : S81920x128.Idx => (ft : S540672x128.Idx → Elt F .f32) (ix2 (rowOfT ((fi : S81920.Idx → Elt F .i32) (ix1 (y 0)))) (y 1)) :
    S81920x128.Idx → Elt F .f32)

/-- A tile's chunk `r` of the gathered array, by number: rows [320·r, 320·r + 320) of the tile's rows. -/
def oChN (L : grid1.Coords) (r : Fin 8) : Memref sig .scVector .hbm S320x128 .f32 :=
  (oV).slice (Rect.unit (s := S81920x128) (k1_off2 L (BitVec.ofNat 32 (320 * r.val))) S320x128.size (k1_off2_inb L r)) (fun _ => rfl)

theorem sIslN_inb (r : Fin 8) : ∀ a : Fin S2560.rank, (![320 * r.val] : Fin 1 → ℕ) a + S320.size a ≤ S2560.size a := by
  intro a
  have ha : a = 0 := Subsingleton.elim _ _
  subst ha
  show 320 * r.val + 320 ≤ 2560
  have := r.isLt; omega

/-- Slice `r` of a tile's index scratch, by number: words [320·r, 320·r + 320). -/
def sIslN (r : Fin 8) : Memref sig .scVector .vmem S320 .i32 :=
  (sI).slice (Rect.unit (s := S2560) ![320 * r.val] S320.size (sIslN_inb r)) (fun _ => rfl)

end Cert.KernelIdeal.Hand

end
-- ==== Proof.Tile.lean ====
/-
  One tile's task of the row gather. Tile (c, s) fetches its 2560 indices into its index scratch, then eight times:
  gathers the 320 table rows its next 320 indices name into its row scratch (an indirect gather, waited for before
  anything else touches the scratch) and copies the scratch out to its next 320 rows of the gathered array (waited for
  before the scratch is gathered into again). Every copy has its own wait before the next copy on the same semaphore
  starts, and nothing reads or writes a copy's source or destination while it is pending.

  The indices are in range of the table (`hfi`), so every gather finds its rows.
-/
import proofs.«206902_g37847251812778_fold_wed_m_929_15_alg».proof.Proof.GSpec
import Idealize.ShloMosaic.Lib.SparseCore.Stream

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The thread of tile `L` on device `d`. -/
abbrev thrV (d : Dev nD) (L : grid1.Coords) : Thread nD τ := V d (cV L) (jV L)

/-- Whatever the index scratch held before, after the tile's index fetch every slice of it reads words of the index
    array, and those are in range of the table. -/
theorem idx_inb (d : Dev nD) (L : grid1.Coords) (fi : Buf (Elt F) (iLoc d)) (hfi : ∀ j, (fi j).toNat < 540672) :
    ∀ (fs : Buf (Elt F) ((sI).view.loc (thrV d L))) (r : Rect S2560) h (x : r.shape.Idx),
      BitVec.toNat (View.read (Elt F) (sI.slice r h).view
        (View.write (Elt F) sI.view fs (ReadAs.same.apply (View.read (Elt F) (iRowK L).view fi)) Finset.univ) x) < 540672 := by
  intro fs r h x
  have e : View.write (Elt F) sI.view fs (ReadAs.same.apply (View.read (Elt F) (iRowK L).view fi)) Finset.univ
      = View.read (Elt F) (iRowK L).view fi := View.write_whole_univ _ _ _
  rw [e]
  exact hfi _

omit [FloatOps F] in
/-- One more wait on a semaphore of the tile's own, recorded at no call's index, keeps the recorded waits within the
    given ones and those at no index. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-- What a tile's run leaves in its chunk `r` of the gathered array — the row scratch copied out, the row scratch holding
    the gather of the rows its slice `r` of the index scratch names — agrees, on the chunk, with the gather's specified
    result. (Proved in the chunk's own module; a hypothesis of the tile's run here.) -/
def ChunkVal (d : Dev nD) (L : grid1.Coords) (fi : Buf (Elt F) (iLoc d)) (ft : Buf (Elt F) (xLoc d)) : Prop :=
  ∀ (r : Fin 8) (fo : Buf (Elt F) ((oChN L r).view.loc (thrV d L))) (fsR : Buf (Elt F) ((sR).view.loc (thrV d L)))
    (fsI : Buf (Elt F) ((sI).view.loc (thrV d L))) (rest : List (View.Piece (Elt F) S320x128 .f32))
    (hn : S320.numel = S320x128.size gathers_S540672x128_S320x128.axis')
    (hin : ∀ x, (View.read (Elt F) (sIslN r).view (View.write (Elt F) sI.view fsI (ReadAs.same.apply (View.read (Elt F) (iRowK L).view fi)) Finset.univ) x).toNat
      < S540672x128.size gathers_S540672x128_S320x128.axis),
    ∀ i ∈ (oChN L r).view.set,
      (oChN L r).view.writes (Elt F) fo [⟨Rect.whole S320x128, ReadAs.same.apply (View.read (Elt F) sR.view (sR.view.writes (Elt F) fsR
        (⟨Rect.whole S320x128, SparseCore.gatherPayload gathers_S540672x128_S320x128 (View.read (Elt F) xAllK.view ft)
          (SparseCore.rows (View.read (Elt F) (sIslN r).view (View.write (Elt F) sI.view fsI (ReadAs.same.apply (View.read (Elt F) (iRowK L).view fi)) Finset.univ)) hn hin)⟩ :: rest)))⟩] i
      = gspecOf d fi ft i

/-- `ChunkVal` at each chunk, stated over the chunk and the index slice as the program spells them. -/
theorem ChunkVal.at0 {d : Dev nD} {L : grid1.Coords} {fi : Buf (Elt F) (iLoc d)} {ft : Buf (Elt F) (xLoc d)} (h : ChunkVal d L fi ft)
    (fo : Buf (Elt F) ((oCh0 L).view.loc (thrV d L))) (fsR : Buf (Elt F) ((sR).view.loc (thrV d L)))
    (fsI : Buf (Elt F) ((sI).view.loc (thrV d L))) (rest : List (View.Piece (Elt F) S320x128 .f32))
    (hn : S320.numel = S320x128.size gathers_S540672x128_S320x128.axis')
    (hin : ∀ x, (View.read (Elt F) (sI.slice (Rect.unit (s := S2560) ![0] S320.size inb_S2560_S320_0) (fun _ => rfl)).view (View.write (Elt F) sI.view fsI (ReadAs.same.apply (View.read (Elt F) (iRowK L).view fi)) Finset.univ) x).toNat
      < S540672x128.size gathers_S540672x128_S320x128.axis) :
    ∀ i ∈ (oCh0 L).view.set,
      (oCh0 L).view.writes (Elt F) fo [⟨Rect.whole S320x128, ReadAs.same.apply (View.read (Elt F) sR.view (sR.view.writes (Elt F) fsR
        (⟨Rect.whole S320x128, SparseCore.gatherPayload gathers_S540672x128_S320x128 (View.read (Elt F) xAllK.view ft)
          (SparseCore.rows (View.read (Elt F) (sI.slice (Rect.unit (s := S2560) ![0] S320.size inb_S2560_S320_0) (fun _ => rfl)).view (View.write (Elt F) sI.view fsI (ReadAs.same.apply (View.read (Elt F) (iRowK L).view fi)) Finset.univ)) hn hin)⟩ :: rest)))⟩] i
      = gspecOf d fi ft i :=
  h 0 fo fsR fsI rest hn hin

theorem ChunkVal.at1 {d : Dev nD} {L : grid1.Coords} {fi : Buf (Elt F) (iLoc d)} {ft : Buf (Elt F) (xLoc d)} (h : ChunkVal d L fi ft)
    (fo : Buf (Elt F) ((oCh1 L).view.loc (thrV d L))) (fsR : Buf (Elt F) ((sR).view.loc (thrV d L)))
    (fsI : Buf (Elt F) ((sI).view.loc (thrV d L))) (rest : List (View.Piece (Elt F) S320x128 .f32))
    (hn : S320.numel = S320x128.size gathers_S540672x128_S320x128.axis')
    (hin : ∀ x, (View.read (Elt F) (sI.slice (Rect.unit (s := S2560) ![320] S320.size inb_S2560_S320_320) (fun _ => rfl)).view (View.write (Elt F) sI.view fsI (ReadAs.same.apply (View.read (Elt F) (iRowK L).view fi)) Finset.univ) x).toNat
      < S540672x128.size gathers_S540672x128_S320x128.axis) :
    ∀ i ∈ (oCh1 L).view.set,
      (oCh1 L).view.writes (Elt F) fo [⟨Rect.whole S320x128, ReadAs.same.apply (View.read (Elt F) sR.view (sR.view.writes (Elt F) fsR
        (⟨Rect.whole S320x128, SparseCore.gatherPayload gathers_S540672x128_S320x128 (View.read (Elt F) xAllK.view ft)
          (SparseCore.rows (View.read (Elt F) (sI.slice (Rect.unit (s := S2560) ![320] S320.size inb_S2560_S320_320) (fun _ => rfl)).view (View.write (Elt F) sI.view fsI (ReadAs.same.apply (View.read (Elt F) (iRowK L).view fi)) Finset.univ)) hn hin)⟩ :: rest)))⟩] i
      = gspecOf d fi ft i :=
  h 1 fo fsR fsI rest hn hin

theorem ChunkVal.at2 {d : Dev nD} {L : grid1.Coords} {fi : Buf (Elt F) (iLoc d)} {ft : Buf (Elt F) (xLoc d)} (h : ChunkVal d L fi ft)
    (fo : Buf (Elt F) ((oCh2 L).view.loc (thrV d L))) (fsR : Buf (Elt F) ((sR).view.loc (thrV d L)))
    (fsI : Buf (Elt F) ((sI).view.loc (thrV d L))) (rest : List (View.Piece (Elt F) S320x128 .f32))
    (hn : S320.numel = S320x128.size gathers_S540672x128_S320x128.axis')
    (hin : ∀ x, (View.read (Elt F) (sI.slice (Rect.unit (s := S2560) ![640] S320.size inb_S2560_S320_640) (fun _ => rfl)).view (View.write (Elt F) sI.view fsI (ReadAs.same.apply (View.read (Elt F) (iRowK L).view fi)) Finset.univ) x).toNat
      < S540672x128.size gathers_S540672x128_S320x128.axis) :
    ∀ i ∈ (oCh2 L).view.set,
      (oCh2 L).view.writes (Elt F) fo [⟨Rect.whole S320x128, ReadAs.same.apply (View.read (Elt F) sR.view (sR.view.writes (Elt F) fsR
        (⟨Rect.whole S320x128, SparseCore.gatherPayload gathers_S540672x128_S320x128 (View.read (Elt F) xAllK.view ft)
          (SparseCore.rows (View.read (Elt F) (sI.slice (Rect.unit (s := S2560) ![640] S320.size inb_S2560_S320_640) (fun _ => rfl)).view (View.write (Elt F) sI.view fsI (ReadAs.same.apply (View.read (Elt F) (iRowK L).view fi)) Finset.univ)) hn hin)⟩ :: rest)))⟩] i
      = gspecOf d fi ft i :=
  h 2 fo fsR fsI rest hn hin

theorem ChunkVal.at3 {d : Dev nD} {L : grid1.Coords} {fi : Buf (Elt F) (iLoc d)} {ft : Buf (Elt F) (xLoc d)} (h : ChunkVal d L fi ft)
    (fo : Buf (Elt F) ((oCh3 L).view.loc (thrV d L))) (fsR : Buf (Elt F) ((sR).view.loc (thrV d L)))
    (fsI : Buf (Elt F) ((sI).view.loc (thrV d L))) (rest : List (View.Piece (Elt F) S320x128 .f32))
    (hn : S320.numel = S320x128.size gathers_S540672x128_S320x128.axis')
    (hin : ∀ x, (View.read (Elt F) (sI.slice (Rect.unit (s := S2560) ![960] S320.size inb_S2560_S320_960) (fun _ => rfl)).view (View.write (Elt F) sI.view fsI (ReadAs.same.apply (View.read (Elt F) (iRowK L).view fi)) Finset.univ) x).toNat
      < S540672x128.size gathers_S540672x128_S320x128.axis) :
    ∀ i ∈ (oCh3 L).view.set,
      (oCh3 L).view.writes (Elt F) fo [⟨Rect.whole S320x128, ReadAs.same.apply (View.read (Elt F) sR.view (sR.view.writes (Elt F) fsR
        (⟨Rect.whole S320x128, SparseCore.gatherPayload gathers_S540672x128_S320x128 (View.read (Elt F) xAllK.view ft)
          (SparseCore.rows (View.read (Elt F) (sI.slice (Rect.unit (s := S2560) ![960] S320.size inb_S2560_S320_960) (fun _ => rfl)).view (View.write (Elt F) sI.view fsI (ReadAs.same.apply (View.read (Elt F) (iRowK L).view fi)) Finset.univ)) hn hin)⟩ :: rest)))⟩] i
      = gspecOf d fi ft i :=
  h 3 fo fsR fsI rest hn hin

theorem ChunkVal.at4 {d : Dev nD} {L : grid1.Coords} {fi : Buf (Elt F) (iLoc d)} {ft : Buf (Elt F) (xLoc d)} (h : ChunkVal d L fi ft)
    (fo : Buf (Elt F) ((oCh4 L).view.loc (thrV d L))) (fsR : Buf (Elt F) ((sR).view.loc (thrV d L)))
    (fsI : Buf (Elt F) ((sI).view.loc (thrV d L))) (rest : List (View.Piece (Elt F) S320x128 .f32))
    (hn : S320.numel = S320x128.size gathers_S540672x128_S320x128.axis')
    (hin : ∀ x, (View.read (Elt F) (sI.slice (Rect.unit (s := S2560) ![1280] S320.size inb_S2560_S320_1280) (fun _ => rfl)).view (View.write (Elt F) sI.view fsI (ReadAs.same.apply (View.read (Elt F) (iRowK L).view fi)) Finset.univ) x).toNat
      < S540672x128.size gathers_S540672x128_S320x128.axis) :
    ∀ i ∈ (oCh4 L).view.set,
      (oCh4 L).view.writes (Elt F) fo [⟨Rect.whole S320x128, ReadAs.same.apply (View.read (Elt F) sR.view (sR.view.writes (Elt F) fsR
        (⟨Rect.whole S320x128, SparseCore.gatherPayload gathers_S540672x128_S320x128 (View.read (Elt F) xAllK.view ft)
          (SparseCore.rows (View.read (Elt F) (sI.slice (Rect.unit (s := S2560) ![1280] S320.size inb_S2560_S320_1280) (fun _ => rfl)).view (View.write (Elt F) sI.view fsI (ReadAs.same.apply (View.read (Elt F) (iRowK L).view fi)) Finset.univ)) hn hin)⟩ :: rest)))⟩] i
      = gspecOf d fi ft i :=
  h 4 fo fsR fsI rest hn hin

theorem ChunkVal.at5 {d : Dev nD} {L : grid1.Coords} {fi : Buf (Elt F) (iLoc d)} {ft : Buf (Elt F) (xLoc d)} (h : ChunkVal d L fi ft)
    (fo : Buf (Elt F) ((oCh5 L).view.loc (thrV d L))) (fsR : Buf (Elt F) ((sR).view.loc (thrV d L)))
    (fsI : Buf (Elt F) ((sI).view.loc (thrV d L))) (rest : List (View.Piece (Elt F) S320x128 .f32))
    (hn : S320.numel = S320x128.size gathers_S540672x128_S320x128.axis')
    (hin : ∀ x, (View.read (Elt F) (sI.slice (Rect.unit (s := S2560) ![1600] S320.size inb_S2560_S320_1600) (fun _ => rfl)).view (View.write (Elt F) sI.view fsI (ReadAs.same.apply (View.read (Elt F) (iRowK L).view fi)) Finset.univ) x).toNat
      < S540672x128.size gathers_S540672x128_S320x128.axis) :
    ∀ i ∈ (oCh5 L).view.set,
      (oCh5 L).view.writes (Elt F) fo [⟨Rect.whole S320x128, ReadAs.same.apply (View.read (Elt F) sR.view (sR.view.writes (Elt F) fsR
        (⟨Rect.whole S320x128, SparseCore.gatherPayload gathers_S540672x128_S320x128 (View.read (Elt F) xAllK.view ft)
          (SparseCore.rows (View.read (Elt F) (sI.slice (Rect.unit (s := S2560) ![1600] S320.size inb_S2560_S320_1600) (fun _ => rfl)).view (View.write (Elt F) sI.view fsI (ReadAs.same.apply (View.read (Elt F) (iRowK L).view fi)) Finset.univ)) hn hin)⟩ :: rest)))⟩] i
      = gspecOf d fi ft i :=
  h 5 fo fsR fsI rest hn hin

theorem ChunkVal.at6 {d : Dev nD} {L : grid1.Coords} {fi : Buf (Elt F) (iLoc d)} {ft : Buf (Elt F) (xLoc d)} (h : ChunkVal d L fi ft)
    (fo : Buf (Elt F) ((oCh6 L).view.loc (thrV d L))) (fsR : Buf (Elt F) ((sR).view.loc (thrV d L)))
    (fsI : Buf (Elt F) ((sI).view.loc (thrV d L))) (rest : List (View.Piece (Elt F) S320x128 .f32))
    (hn : S320.numel = S320x128.size gathers_S540672x128_S320x128.axis')
    (hin : ∀ x, (View.read (Elt F) (sI.slice (Rect.unit (s := S2560) ![1920] S320.size inb_S2560_S320_1920) (fun _ => rfl)).view (View.write (Elt F) sI.view fsI (ReadAs.same.apply (View.read (Elt F) (iRowK L).view fi)) Finset.univ) x).toNat
      < S540672x128.size gathers_S540672x128_S320x128.axis) :
    ∀ i ∈ (oCh6 L).view.set,
      (oCh6 L).view.writes (Elt F) fo [⟨Rect.whole S320x128, ReadAs.same.apply (View.read (Elt F) sR.view (sR.view.writes (Elt F) fsR
        (⟨Rect.whole S320x128, SparseCore.gatherPayload gathers_S540672x128_S320x128 (View.read (Elt F) xAllK.view ft)
          (SparseCore.rows (View.read (Elt F) (sI.slice (Rect.unit (s := S2560) ![1920] S320.size inb_S2560_S320_1920) (fun _ => rfl)).view (View.write (Elt F) sI.view fsI (ReadAs.same.apply (View.read (Elt F) (iRowK L).view fi)) Finset.univ)) hn hin)⟩ :: rest)))⟩] i
      = gspecOf d fi ft i :=
  h 6 fo fsR fsI rest hn hin

theorem ChunkVal.at7 {d : Dev nD} {L : grid1.Coords} {fi : Buf (Elt F) (iLoc d)} {ft : Buf (Elt F) (xLoc d)} (h : ChunkVal d L fi ft)
    (fo : Buf (Elt F) ((oCh7 L).view.loc (thrV d L))) (fsR : Buf (Elt F) ((sR).view.loc (thrV d L)))
    (fsI : Buf (Elt F) ((sI).view.loc (thrV d L))) (rest : List (View.Piece (Elt F) S320x128 .f32))
    (hn : S320.numel = S320x128.size gathers_S540672x128_S320x128.axis')
    (hin : ∀ x, (View.read (Elt F) (sI.slice (Rect.unit (s := S2560) ![2240] S320.size inb_S2560_S320_2240) (fun _ => rfl)).view (View.write (Elt F) sI.view fsI (ReadAs.same.apply (View.read (Elt F) (iRowK L).view fi)) Finset.univ) x).toNat
      < S540672x128.size gathers_S540672x128_S320x128.axis) :
    ∀ i ∈ (oCh7 L).view.set,
      (oCh7 L).view.writes (Elt F) fo [⟨Rect.whole S320x128, ReadAs.same.apply (View.read (Elt F) sR.view (sR.view.writes (Elt F) fsR
        (⟨Rect.whole S320x128, SparseCore.gatherPayload gathers_S540672x128_S320x128 (View.read (Elt F) xAllK.view ft)
          (SparseCore.rows (View.read (Elt F) (sI.slice (Rect.unit (s := S2560) ![2240] S320.size inb_S2560_S320_2240) (fun _ => rfl)).view (View.write (Elt F) sI.view fsI (ReadAs.same.apply (View.read (Elt F) (iRowK L).view fi)) Finset.univ)) hn hin)⟩ :: rest)))⟩] i
      = gspecOf d fi ft i :=
  h 7 fo fsR fsI rest hn hin

/-- A tile's eight chunks of the gathered array, all at contents `g`. -/
def outChunksV (d : Dev nD) (L : grid1.Coords) (g : Buf (Elt F) (oLoc d)) : sProp 𝕄 :=
  iprop(((oCh0 L).view.loc (thrV d L) ↦[(oCh0 L).view.set]{fullShare} g)
    ∗ ((oCh1 L).view.loc (thrV d L) ↦[(oCh1 L).view.set]{fullShare} g)
    ∗ ((oCh2 L).view.loc (thrV d L) ↦[(oCh2 L).view.set]{fullShare} g)
    ∗ ((oCh3 L).view.loc (thrV d L) ↦[(oCh3 L).view.set]{fullShare} g)
    ∗ ((oCh4 L).view.loc (thrV d L) ↦[(oCh4 L).view.set]{fullShare} g)
    ∗ ((oCh5 L).view.loc (thrV d L) ↦[(oCh5 L).view.set]{fullShare} g)
    ∗ ((oCh6 L).view.loc (thrV d L) ↦[(oCh6 L).view.set]{fullShare} g)
    ∗ ((oCh7 L).view.loc (thrV d L) ↦[(oCh7 L).view.set]{fullShare} g))

/-- A tile's eight chunks of the gathered array, each at some contents. -/
def outChunks (d : Dev nD) (L : grid1.Coords) : sProp 𝕄 :=
  iprop((∃ f, (oCh0 L).view.loc (thrV d L) ↦[(oCh0 L).view.set]{fullShare} f)
    ∗ (∃ f, (oCh1 L).view.loc (thrV d L) ↦[(oCh1 L).view.set]{fullShare} f)
    ∗ (∃ f, (oCh2 L).view.loc (thrV d L) ↦[(oCh2 L).view.set]{fullShare} f)
    ∗ (∃ f, (oCh3 L).view.loc (thrV d L) ↦[(oCh3 L).view.set]{fullShare} f)
    ∗ (∃ f, (oCh4 L).view.loc (thrV d L) ↦[(oCh4 L).view.set]{fullShare} f)
    ∗ (∃ f, (oCh5 L).view.loc (thrV d L) ↦[(oCh5 L).view.set]{fullShare} f)
    ∗ (∃ f, (oCh6 L).view.loc (thrV d L) ↦[(oCh6 L).view.set]{fullShare} f)
    ∗ (∃ f, (oCh7 L).view.loc (thrV d L) ↦[(oCh7 L).view.set]{fullShare} f))

/-- The tile's own scratch and semaphores, idle: both scratch buffers at some contents, the ten DMA semaphores at zero. -/
def tileIdle (d : Dev nD) (L : grid1.Coords) : sProp 𝕄 :=
  iprop((∃ f, (sI).view.loc (thrV d L) ↦{fullShare} f)
    ∗ (∃ f, (sR).view.loc (thrV d L) ↦{fullShare} f)
    ∗ semVal (thrV d L, SemLoc.dma cc1_scratch2.sem) 0
    ∗ semVal (thrV d L, SemLoc.dma cc1_scoped0.sem) 0
    ∗ semVal (thrV d L, SemLoc.dma cc1_scoped1.sem) 0
    ∗ semVal (thrV d L, SemLoc.dma cc1_scoped2.sem) 0
    ∗ semVal (thrV d L, SemLoc.dma cc1_scoped3.sem) 0
    ∗ semVal (thrV d L, SemLoc.dma cc1_scoped4.sem) 0
    ∗ semVal (thrV d L, SemLoc.dma cc1_scoped5.sem) 0
    ∗ semVal (thrV d L, SemLoc.dma cc1_scoped6.sem) 0
    ∗ semVal (thrV d L, SemLoc.dma cc1_scoped7.sem) 0
    ∗ semVal (thrV d L, SemLoc.dma cc1_scoped8.sem) 0)

/-- The task on tile `L` of device `d`: from its 2560 indices (in range), a read share of the table, its eight chunks
    of the gathered array and its idle scratch and semaphores, it runs to its end and gives all of them back, the
    semaphores at zero again, having recorded only waits on its own semaphores. -/
theorem tile_run (d : Dev nD) (L : grid1.Coords) (q : PosShare TreeShare)
    (fi : Buf (Elt F) (iLoc d)) (ft : Buf (Elt F) (xLoc d)) (hfi : ∀ j, (fi j).toNat < 540672) (hcv : ChunkVal d L fi ft)
    (O : CellTallies nD τ sig (HIx 1)) (W : Waits sig (HIx 1)) (hO : ∀ g, O g none = 0) :
    iprop((levAts (K (F := F)).L (K (F := F)).lev : sProp 𝕄)
        ∗ ((iRowK L).view.loc (thrV d L) ↦[(iRowK L).view.set]{fullShare} fi)
        ∗ ((xV).view.loc (thrV d L) ↦{q} ft)
        ∗ outChunks d L ∗ tileIdle d L ∗ owes (thrV d L) O W)
      ⊢ wp frame (wpE (defs₀ (F := F)) 𝒱₀ (thrV d L) none) Set.univ
          (cc1_gather_kernel L iV (Memref.isWhole_whole _) xV (Memref.isWhole_whole _) oV (Memref.isWhole_whole _) sI (Memref.isWhole_whole _) sR (Memref.isWhole_whole _)
            cc1_scratch2 cc1_scoped0 cc1_scoped1 cc1_scoped2 cc1_scoped3 cc1_scoped4 cc1_scoped5 cc1_scoped6 cc1_scoped7 cc1_scoped8)
          fun _ => iprop(((iRowK L).view.loc (thrV d L) ↦[(iRowK L).view.set]{fullShare} fi)
            ∗ ((xV).view.loc (thrV d L) ↦{q} ft)
            ∗ outChunksV d L (gspecOf d fi ft) ∗ tileIdle d L
            ∗ ∃ W', ⌜∀ p ∈ W', p ∈ W ∨ p.2 = none⌝ ∗ owes (thrV d L) O W') := by
  rw [cc1_gather_kernel_eq_skeleton]; unfold cc1_gather_kernel_skel
  unfold outChunks outChunksV tileIdle
  iintro ⟨#Hlv, Hi, Hx, ⟨⟨%f0, Ho0⟩, ⟨%f1, Ho1⟩, ⟨%f2, Ho2⟩, ⟨%f3, Ho3⟩, ⟨%f4, Ho4⟩, ⟨%f5, Ho5⟩, ⟨%f6, Ho6⟩, ⟨%f7, Ho7⟩⟩,
    ⟨⟨%fsI, HsI⟩, ⟨%fsR, HsR⟩, Hsem, Hs0, Hs1, Hs2, Hs3, Hs4, Hs5, Hs6, Hs7, Hs8⟩, HO⟩
  ihave Hmw := ((K (F := F)).mayWaits_none (thr := thrV d L) hO) $$ Hlv
  have hin := idx_inb d L fi hfi
  sl_exec
  sl_step
  sl_unfold_run_names
  isplitl [Hi]; · iexact Hi
  isplitl [Hx]; · iexact Hx
  isplitl [Ho0 Ho1 Ho2 Ho3 Ho4 Ho5 Ho6 Ho7]
  · -- each chunk holds the gather's specified result on its rows
    isplitl [Ho0]
    · refine BI.Entails.trans ?main0 (Entails.of_eq (pointsTo_congr (ℓ := (oCh0 L).view.loc (thrV d L)) (q := fullShare) (f := ?f0) (g := gspecOf d fi ft) ?h0))
      case main0 => show (_ : sProp 𝕄) ⊢ _; iintro ⟨-, H⟩; iexact H
      case h0 => exact hcv.at0 _ _ _ _ _ _
    isplitl [Ho1]
    · refine BI.Entails.trans ?main1 (Entails.of_eq (pointsTo_congr (ℓ := (oCh1 L).view.loc (thrV d L)) (q := fullShare) (f := ?f1) (g := gspecOf d fi ft) ?h1))
      case main1 => show (_ : sProp 𝕄) ⊢ _; iintro ⟨-, H⟩; iexact H
      case h1 => exact hcv.at1 _ _ _ _ _ _
    isplitl [Ho2]
    · refine BI.Entails.trans ?main2 (Entails.of_eq (pointsTo_congr (ℓ := (oCh2 L).view.loc (thrV d L)) (q := fullShare) (f := ?f2) (g := gspecOf d fi ft) ?h2))
      case main2 => show (_ : sProp 𝕄) ⊢ _; iintro ⟨-, H⟩; iexact H
      case h2 => exact hcv.at2 _ _ _ _ _ _
    isplitl [Ho3]
    · refine BI.Entails.trans ?main3 (Entails.of_eq (pointsTo_congr (ℓ := (oCh3 L).view.loc (thrV d L)) (q := fullShare) (f := ?f3) (g := gspecOf d fi ft) ?h3))
      case main3 => show (_ : sProp 𝕄) ⊢ _; iintro ⟨-, H⟩; iexact H
      case h3 => exact hcv.at3 _ _ _ _ _ _
    isplitl [Ho4]
    · refine BI.Entails.trans ?main4 (Entails.of_eq (pointsTo_congr (ℓ := (oCh4 L).view.loc (thrV d L)) (q := fullShare) (f := ?f4) (g := gspecOf d fi ft) ?h4))
      case main4 => show (_ : sProp 𝕄) ⊢ _; iintro ⟨-, H⟩; iexact H
      case h4 => exact hcv.at4 _ _ _ _ _ _
    isplitl [Ho5]
    · refine BI.Entails.trans ?main5 (Entails.of_eq (pointsTo_congr (ℓ := (oCh5 L).view.loc (thrV d L)) (q := fullShare) (f := ?f5) (g := gspecOf d fi ft) ?h5))
      case main5 => show (_ : sProp 𝕄) ⊢ _; iintro ⟨-, H⟩; iexact H
      case h5 => exact hcv.at5 _ _ _ _ _ _
    isplitl [Ho6]
    · refine BI.Entails.trans ?main6 (Entails.of_eq (pointsTo_congr (ℓ := (oCh6 L).view.loc (thrV d L)) (q := fullShare) (f := ?f6) (g := gspecOf d fi ft) ?h6))
      case main6 => show (_ : sProp 𝕄) ⊢ _; iintro ⟨-, H⟩; iexact H
      case h6 => exact hcv.at6 _ _ _ _ _ _
    refine BI.Entails.trans ?main7 (Entails.of_eq (pointsTo_congr (ℓ := (oCh7 L).view.loc (thrV d L)) (q := fullShare) (f := ?f7) (g := gspecOf d fi ft) ?h7))
    case main7 => show (_ : sProp 𝕄) ⊢ _; iintro ⟨-, H⟩; iexact H
    case h7 => exact hcv.at7 _ _ _ _ _ _
  isplitl [HsI HsR Hsem Hs0 Hs1 Hs2 Hs3 Hs4 Hs5 Hs6 Hs7 Hs8]
  · isplitl [HsI]; · iexists _; iexact HsI
    isplitl [HsR]; · iexists _; iexact HsR
    isplitl [Hsem]; · iexact Hsem
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    iexact Hs8
  iexists _; isplitr
  rotate_left
  · iexact HO
  · ipureintro
    repeat' apply waits_insert
    exact fun p hp => .inl hp

end Cert.KernelIdeal.Hand

end
-- ==== Proof.TileObl.lean ====
/-
  The gather's call as the launch theorem takes it: what the call hands each SparseCore and each tile and takes back
  (the payloads), the tile's obligation (its task from its scoped storage, `tile_run`), and the split of a SparseCore's
  operands among its sixteen tiles.

  The call hands SparseCore `c` one read share of the table and, per tile, the tile's 2560 indices and its eight chunks
  of the gathered array; a tile gets a sixteenth read share of its SparseCore's; every share comes back. The index and gathered arrays are cut
  into the tiles' pieces by the TensorCore before the call, so a SparseCore's payload is the product over its tiles.
-/
import proofs.«206902_g37847251812778_fold_wed_m_929_15_alg».proof.Proof.Tile

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A listed part of a product -/

/-- The factors of a product over a set at the members a duplicate-free list names, as a chain, and the rest. -/
theorem bigSep_take {M : Type} [URA M] {α : Type} [DecidableEq α] (s : Finset α) (l : List α) (hl : l.Nodup) (hs : l.toFinset ⊆ s)
    (Φ : α → sProp M) : bigSep s Φ = iprop(bigSepL l Φ ∗ bigSep (s \ l.toFinset) Φ) := by
  conv_lhs => rw [← Finset.union_sdiff_of_subset hs]
  rw [bigSep_union Finset.disjoint_sdiff, bigSep_eq_bigSepL l hl]
  rfl

/-! ## The tile's own storage -/

/-- The tile kernel's ten DMA semaphores: the gather's, and one per copy (the index fetch, the eight copies out). -/
abbrev tileSems : List (DmaSem sig) :=
  [cc1_scratch2.sem, cc1_scoped0.sem, cc1_scoped1.sem, cc1_scoped2.sem, cc1_scoped3.sem, cc1_scoped4.sem, cc1_scoped5.sem,
    cc1_scoped6.sem, cc1_scoped7.sem, cc1_scoped8.sem]
theorem tileSems_nodup : tileSems.Nodup := by decide
theorem tileSems_scoped : ∀ sm ∈ tileSems, (SemLoc.dma sm : SemLoc sig).isScoped .scVector = true := by decide

abbrev tileCells (thr : Thread nD τ) : List (GSem nD τ sig) := tileSems.map fun sm => (thr, SemLoc.dma sm)
theorem tileCells_nodup (thr : Thread nD τ) : (tileCells thr).Nodup :=
  tileSems_nodup.map fun _ _ e => SemLoc.dma.inj (Prod.mk.inj e).2

theorem tileCells_sub (d : Dev nD) (L : grid1.Coords) : (tileCells (thrV d L)).toFinset ⊆ ownCells (thrV d L) := by
  intro g hg
  obtain ⟨sm, hsm, rfl⟩ := List.mem_map.mp (List.mem_toFinset.mp hg)
  exact mem_ownCells.mpr ⟨rfl, tileSems_scoped sm hsm⟩

/-- The tile's scoped semaphores at zero: the kernel's ten, one by one, and the rest. -/
theorem ownSems0_tile (d : Dev nD) (L : grid1.Coords) :
    (ownSems0 (thrV d L) : sProp 𝕄)
      = iprop(bigSepL (tileCells (thrV d L)) (fun g => semVal g 0)
          ∗ bigSep (ownCells (thrV d L) \ (tileCells (thrV d L)).toFinset) fun g => semVal g 0) := by
  unfold SparseCore.Cfg.ownSems0
  exact bigSep_take _ _ (tileCells_nodup _) (tileCells_sub d L) _

/-- The tile's two scratch buffers. -/
abbrev tileRefs (L : grid1.Coords) : List (DevRef τ sig) :=
  [(Proc.scVector (cV L) (jV L)).devRef cc1_scratch0, (Proc.scVector (cV L) (jV L)).devRef cc1_scratch1]
theorem tileRefs_nodup (L : grid1.Coords) : (tileRefs L).Nodup :=
  List.nodup_cons.mpr ⟨fun h => absurd (Proc.devRef_injective _ (List.mem_singleton.mp h)) (show (cc1_scratch0 : Ref sig .scVector) ≠ cc1_scratch1 by decide),
    List.nodup_singleton _⟩
theorem tileRefs_sub (L : grid1.Coords) : (tileRefs L).toFinset ⊆ ownRefs (τ := τ) (sig := sig) (.scVector (cV L) (jV L)) := by
  intro b hb
  rcases List.mem_toFinset.mp hb with _ | ⟨_, hb⟩
  · exact SparseCore.Cfg.mem_ownRefs_of_owner rfl
  · rcases hb with _ | ⟨_, hb⟩
    · exact SparseCore.Cfg.mem_ownRefs_of_owner rfl
    · cases hb

/-- The tile's scoped buffers: the two scratch buffers, each at some contents, and the rest. -/
theorem ownBufs_tile (d : Dev nD) (L : grid1.Coords) :
    (ownBufs (thrV d L) : sProp 𝕄)
      = iprop(bigSepL (tileRefs L) (fun b => iprop(∃ f, ((d, b) : Loc nD τ sig) ↦{fullShare} f))
          ∗ bigSep (ownRefs (τ := τ) (sig := sig) (.scVector (cV L) (jV L)) \ (tileRefs L).toFinset) fun b => iprop(∃ f, ((d, b) : Loc nD τ sig) ↦{fullShare} f)) := by
  unfold SparseCore.Cfg.ownBufs
  exact bigSep_take _ _ (tileRefs_nodup L) (tileRefs_sub L) _

/-! ## What the handshakes carry -/

variable (fi : (d : Dev nD) → Buf (Elt F) (iLoc d)) (ft : (d : Dev nD) → Buf (Elt F) (xLoc d))

def coordsV (c : Fin (grid1.bound 0)) (s : Fin (grid1.bound 1)) : grid1.Coords :=
  fun | 0 => c | 1 => s | ⟨_ + 2, h⟩ => absurd h (Nat.not_lt.2 (Nat.le_add_left _ _))

theorem bound0 : grid1.bound 0 = 2 := rfl
theorem bound1 : grid1.bound 1 = 16 := rfl
/-- The coordinates of tile `i` of SparseCore `c`. -/
abbrev coordsP (c : Fin 2) (i : Fin 16) : grid1.Coords := coordsV (Fin.cast bound0.symm c) (Fin.cast bound1.symm i)

/-- SparseCore `c`'s read share of the table, and tile `i`'s of it. -/
abbrev coreShare (c : Fin 2) : PosShare TreeShare := Transfers.shareTok fullShare 2 c
abbrev tileShare (c : Fin 2) (i : Fin 16) : PosShare TreeShare := Transfers.shareTok (coreShare c) 16 i

/-- A tile's eight chunks of the gathered array, each at some contents, as the TensorCore names the array. -/
def outChunksT (d : Dev nD) (L : grid1.Coords) : sProp 𝕄 :=
  iprop((∃ f : Buf (Elt F) (oLoc d), oLoc d ↦[(oCh0 L).view.set]{fullShare} f)
    ∗ (∃ f : Buf (Elt F) (oLoc d), oLoc d ↦[(oCh1 L).view.set]{fullShare} f)
    ∗ (∃ f : Buf (Elt F) (oLoc d), oLoc d ↦[(oCh2 L).view.set]{fullShare} f)
    ∗ (∃ f : Buf (Elt F) (oLoc d), oLoc d ↦[(oCh3 L).view.set]{fullShare} f)
    ∗ (∃ f : Buf (Elt F) (oLoc d), oLoc d ↦[(oCh4 L).view.set]{fullShare} f)
    ∗ (∃ f : Buf (Elt F) (oLoc d), oLoc d ↦[(oCh5 L).view.set]{fullShare} f)
    ∗ (∃ f : Buf (Elt F) (oLoc d), oLoc d ↦[(oCh6 L).view.set]{fullShare} f)
    ∗ (∃ f : Buf (Elt F) (oLoc d), oLoc d ↦[(oCh7 L).view.set]{fullShare} f))

omit [FloatOps F] in
/-- The tile addresses the same chunks through its own memrefs. -/
theorem outChunksT_eq (d : Dev nD) (L : grid1.Coords) : (outChunksT d L : sProp 𝕄) = outChunks d L := rfl

/-- A tile's eight chunks of the gathered array, all at contents `f`, as the TensorCore names the array. -/
def outChunksAt (d : Dev nD) (L : grid1.Coords) (f : Buf (Elt F) (oLoc d)) : sProp 𝕄 :=
  iprop((oLoc d ↦[(oCh0 L).view.set]{fullShare} f)
    ∗ (oLoc d ↦[(oCh1 L).view.set]{fullShare} f)
    ∗ (oLoc d ↦[(oCh2 L).view.set]{fullShare} f)
    ∗ (oLoc d ↦[(oCh3 L).view.set]{fullShare} f)
    ∗ (oLoc d ↦[(oCh4 L).view.set]{fullShare} f)
    ∗ (oLoc d ↦[(oCh5 L).view.set]{fullShare} f)
    ∗ (oLoc d ↦[(oCh6 L).view.set]{fullShare} f)
    ∗ (oLoc d ↦[(oCh7 L).view.set]{fullShare} f))

omit [FloatOps F] in
/-- The tile addresses the same chunks through its own memrefs. -/
theorem outChunksAt_eq (d : Dev nD) (L : grid1.Coords) (f : Buf (Elt F) (oLoc d)) : (outChunksAt d L f : sProp 𝕄) = outChunksV d L f := rfl

/-- Tile `L`'s pieces of the index array (at its launch-time contents `fi`) and of the gathered array (at any). -/
def tilePieces (d : Dev nD) (L : grid1.Coords) : sProp 𝕄 :=
  iprop((iLoc d ↦[(iRowK L).view.set]{fullShare} fi d) ∗ outChunksT d L)

/-- What tile `L` hands back: its index piece as it was, its chunks of the gathered array at the gather's specified result. -/
def tileDone (d : Dev nD) (L : grid1.Coords) : sProp 𝕄 :=
  iprop((iLoc d ↦[(iRowK L).view.set]{fullShare} fi d) ∗ outChunksAt d L (gspecOf d (fi d) (ft d)))

def P : (K (F := F)).Pay (nD := nD) (Val := Elt F) (Name := ℕ) (U := UU) where
  st := fun q d c => match q with
    | 0 => iprop((xLoc d ↦{coreShare (Fin.cast nCore_zero c)} ft d) ∗ bigSep Finset.univ fun i : Fin 16 => tilePieces fi d (coordsP (Fin.cast nCore_zero c) i))
  dn := fun q d c => match q with
    | 0 => iprop((xLoc d ↦{coreShare (Fin.cast nCore_zero c)} ft d) ∗ bigSep Finset.univ fun i : Fin 16 => tileDone fi ft d (coordsP (Fin.cast nCore_zero c) i))
  go := fun q d c i => match q with
    | 0 => iprop((xLoc d ↦{tileShare (Fin.cast nCore_zero c) (Fin.cast nSub_zero i)} ft d) ∗ tilePieces fi d (coordsP (Fin.cast nCore_zero c) (Fin.cast nSub_zero i)))
  td := fun q d c i => match q with
    | 0 => iprop((xLoc d ↦{tileShare (Fin.cast nCore_zero c) (Fin.cast nSub_zero i)} ft d) ∗ tileDone fi ft d (coordsP (Fin.cast nCore_zero c) (Fin.cast nSub_zero i)))
  x := fun _ _ => iprop(emp)

omit [FloatOps F] in
set_option synthInstance.maxHeartbeats 400000 in
instance outChunksT_storable (d : Dev nD) (L : grid1.Coords) : BI.Storable (upEmb : UEmb _ 𝕄) (outChunksT (F := F) d L) := by
  unfold outChunksT; infer_instance

omit [FloatOps F] in
set_option synthInstance.maxHeartbeats 400000 in
instance tilePieces_storable (d : Dev nD) (L : grid1.Coords) : BI.Storable (upEmb : UEmb _ 𝕄) (tilePieces fi d L) := by
  unfold tilePieces; infer_instance

omit [FloatOps F] in
set_option synthInstance.maxHeartbeats 400000 in
instance outChunksAt_storable (d : Dev nD) (L : grid1.Coords) (f : Buf (Elt F) (oLoc d)) : BI.Storable (upEmb : UEmb _ 𝕄) (outChunksAt (F := F) d L f) := by
  unfold outChunksAt; infer_instance

omit [FloatOps F] in
set_option synthInstance.maxHeartbeats 400000 in
instance tileDone_storable (d : Dev nD) (L : grid1.Coords) : BI.Storable (upEmb : UEmb _ 𝕄) (tileDone fi ft d L) := by
  unfold tileDone; infer_instance

set_option synthInstance.maxHeartbeats 400000 in
instance P_storable : (P (F := F) fi ft).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

end Cert.KernelIdeal.Hand

end
-- ==== Proof.GatherCall.lean ====
/-
  The gather's call, proved: a tile's obligation from its scoped storage as the launch hands it over, and the split of
  a SparseCore's payload among its tiles (its read share of the table cut in sixteen).
-/
import proofs.«206902_g37847251812778_fold_wed_m_929_15_alg».proof.Proof.TileObl

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (fi : (d : Dev nD) → Buf (Elt F) (iLoc d)) (ft : (d : Dev nD) → Buf (Elt F) (xLoc d))

/-- The tile's scoped buffers with the two scratch buffers spelt as the tile addresses them. -/
theorem ownBufs_tile' (d : Dev nD) (L : grid1.Coords) :
    (ownBufs (thrV d L) : sProp 𝕄)
      = iprop(((∃ f, (sI).view.loc (thrV d L) ↦{fullShare} f) ∗ (∃ f, (sR).view.loc (thrV d L) ↦{fullShare} f))
          ∗ bigSep (ownRefs (τ := τ) (sig := sig) (.scVector (cV L) (jV L)) \ (tileRefs L).toFinset) fun b => iprop(∃ f, ((d, b) : Loc nD τ sig) ↦{fullShare} f)) :=
  ownBufs_tile d L

/-- The tile's scoped semaphores at zero with the kernel's ten written out. -/
theorem ownSems0_tile' (d : Dev nD) (L : grid1.Coords) :
    (ownSems0 (thrV d L) : sProp 𝕄)
      = iprop((semVal (thrV d L, SemLoc.dma cc1_scratch2.sem) 0
            ∗ semVal (thrV d L, SemLoc.dma cc1_scoped0.sem) 0
            ∗ semVal (thrV d L, SemLoc.dma cc1_scoped1.sem) 0
            ∗ semVal (thrV d L, SemLoc.dma cc1_scoped2.sem) 0
            ∗ semVal (thrV d L, SemLoc.dma cc1_scoped3.sem) 0
            ∗ semVal (thrV d L, SemLoc.dma cc1_scoped4.sem) 0
            ∗ semVal (thrV d L, SemLoc.dma cc1_scoped5.sem) 0
            ∗ semVal (thrV d L, SemLoc.dma cc1_scoped6.sem) 0
            ∗ semVal (thrV d L, SemLoc.dma cc1_scoped7.sem) 0
            ∗ semVal (thrV d L, SemLoc.dma cc1_scoped8.sem) 0)
          ∗ bigSep (ownCells (thrV d L) \ (tileCells (thrV d L)).toFinset) fun g => semVal g 0) :=
  ownSems0_tile d L

/-- The task of tile `L` from what the launch hands it: its read share of the table, its pieces of the index and
    gathered arrays, its scoped storage. -/
theorem tile_body (hF : (K (F := F)).Facts) (d : Dev nD) (L : grid1.Coords) (q : PosShare TreeShare)
    (hfi : ∀ j, (fi d j).toNat < 540672) (hcv : ChunkVal d L (fi d) (ft d))
    (O : CellTallies nD τ sig (HIx 1)) (W : Waits sig (HIx 1)) (hO : ∀ g, O g none = 0) :
    iprop((levAts (K (F := F)).L (K (F := F)).lev : sProp 𝕄) ∗ emp
        ∗ ((xLoc d ↦{q} ft d) ∗ tilePieces fi d L)
        ∗ scopedBufs (thrV d L) ∗ scopedSems0 (thrV d L) ∗ owes (thrV d L) O W)
      ⊢ wp frame (wpE (defs₀ (F := F)) 𝒱₀ (thrV d L) none) Set.univ
          (cc1_gather_kernel L iV (Memref.isWhole_whole _) xV (Memref.isWhole_whole _) oV (Memref.isWhole_whole _) sI (Memref.isWhole_whole _) sR (Memref.isWhole_whole _)
            cc1_scratch2 cc1_scoped0 cc1_scoped1 cc1_scoped2 cc1_scoped3 cc1_scoped4 cc1_scoped5 cc1_scoped6 cc1_scoped7 cc1_scoped8)
          fun _ => iprop(((xLoc d ↦{q} ft d) ∗ tileDone fi ft d L) ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cV L) (jV L), SparseCore.Cfg.scopedSems0_V (Val := Elt F) d (cV L) (jV L), ownSems0_tile', ownBufs_tile']
  unfold tilePieces tileDone
  rw [outChunksT_eq, outChunksAt_eq]
  iintro ⟨#Hlv, -, ⟨Hx, Hi, Hoc⟩, ⟨⟨Hb0, Hb1⟩, Hbrest⟩, ⟨Hs, Hsrest⟩, HO⟩
  iapply (wp_wand_r frame _ _)
  isplitl [Hx Hi Hoc Hb0 Hb1 Hs HO]
  · iapply (tile_run d L q (fi d) (ft d) hfi hcv O W hO)
    isplitr; · iexact Hlv
    isplitl [Hi]; · iexact Hi
    isplitl [Hx]; · iexact Hx
    isplitl [Hoc]; · iexact Hoc
    isplitl [Hb0 Hb1 Hs]
    · unfold tileIdle
      isplitl [Hb0]; · iexact Hb0
      isplitl [Hb1]; · iexact Hb1
      iexact Hs
    iexact HO
  · iintro %_ ⟨Hi, Hx, Hoc, Hidle, HW⟩
    unfold tileIdle
    icases Hidle with ⟨Hb0, Hb1, Hs⟩
    isplitl [Hx Hi Hoc]
    · isplitl [Hx]; · iexact Hx
      isplitl [Hi]; · iexact Hi
      iexact Hoc
    isplitl [Hb0 Hb1 Hbrest]
    · isplitl [Hb0 Hb1]
      · isplitl [Hb0]; · iexact Hb0
        iexact Hb1
      iexact Hbrest
    isplitl [Hs Hsrest]
    · isplitl [Hs]; · iexact Hs
      iexact Hsrest
    iexact HW

/-! ## The launch theorem's obligations -/

theorem defs₀_vector (c : Fin τ.nSC) (s : Fin τ.nSub) :
    defs₀ (F := F) (.scVector c s) 1 ()
      = SparseCore.onTile hcore1 hsub1 (fun c s => cc1_gather_kernel (coordsV c s)
          iV (Memref.isWhole_whole _) xV (Memref.isWhole_whole _) oV (Memref.isWhole_whole _) sI (Memref.isWhole_whole _) sR (Memref.isWhole_whole _)
          cc1_scratch2 cc1_scoped0 cc1_scoped1 cc1_scoped2 cc1_scoped3 cc1_scoped4 cc1_scoped5 cc1_scoped6 cc1_scoped7 cc1_scoped8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hfi : ∀ d j, (fi d j).toNat < 540672) (hcv : ∀ d L, ChunkVal d L (fi d) (ft d)) :
    (K (F := F)).TileObl (D (F := F)) 𝒱 (P fi ft) v₀ 0 := by
  intro d c i O W hO _ _
  -- this kernel owes nothing for a protocol of its own
  simp only [show (P fi ft).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body fi ft hF d (coordsV ⟨_, hc.1⟩ ⟨_, hc.2⟩) _ (hfi d) (hcv d _) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's payload among its tiles: its read share of the table cut in sixteen (what is left of it kept aside),
    the tiles' pieces as they are; back, the sixteen shares rejoined with what was kept, and what the tiles finished with. -/
theorem vecSplit : (K (F := F)).VecSplit' (P fi ft) 0 := by
  intro d c
  show iprop((xLoc d ↦{coreShare (Fin.cast nCore_zero c)} ft d) ∗ bigSep Finset.univ fun i : Fin 16 => tilePieces fi d (coordsP (Fin.cast nCore_zero c) i))
    ⊢ |={Set.univ}=> iprop(
      (bigSep Finset.univ fun i : Fin ((K (F := F)).nSub 0) =>
        iprop((xLoc d ↦{tileShare (Fin.cast nCore_zero c) (Fin.cast nSub_zero i)} ft d) ∗ tilePieces fi d (coordsP (Fin.cast nCore_zero c) (Fin.cast nSub_zero i))))
      ∗ ((bigSep Finset.univ fun i : Fin ((K (F := F)).nSub 0) =>
            iprop((xLoc d ↦{tileShare (Fin.cast nCore_zero c) (Fin.cast nSub_zero i)} ft d) ∗ tileDone fi ft d (coordsP (Fin.cast nCore_zero c) (Fin.cast nSub_zero i))))
          -∗ iprop((xLoc d ↦{coreShare (Fin.cast nCore_zero c)} ft d) ∗ bigSep Finset.univ fun i : Fin 16 => tileDone fi ft d (coordsP (Fin.cast nCore_zero c) i))))
  rw [bigSep_tasks (F := F) (fun i => iprop((xLoc d ↦{tileShare (Fin.cast nCore_zero c) i} ft d) ∗ tilePieces fi d (coordsP (Fin.cast nCore_zero c) i))), bigSep_sep',
    bigSep_tasks (F := F) (fun i => iprop((xLoc d ↦{tileShare (Fin.cast nCore_zero c) i} ft d) ∗ tileDone fi ft d (coordsP (Fin.cast nCore_zero c) i))), bigSep_sep']
  iintro ⟨Hx, Hp⟩
  ihave Hx' := (Transfers.pointsTo_toks_split (coreShare (Fin.cast nCore_zero c)) 16) $$ Hx
  icases Hx' with ⟨Hd, Hx⟩
  imodintro
  isplitl [Hx Hp]
  · isplitl [Hx]; · iexact Hx
    iexact Hp
  · iintro ⟨Hx, Hp⟩
    isplitl [Hd Hx]
    · iapply (Transfers.pointsTo_toks_join (coreShare (Fin.cast nCore_zero c)) 16)
      isplitl [Hd]; · iexact Hd
      iexact Hx
    iexact Hp

end Cert.KernelIdeal.Hand

end
-- ==== Proof.GatherSpec.lean ====
/-
  The gather's operands and specified result as functions of the launch memory: the index array and the packed table
  as the gather finds them (the contents after the second host stretch), and the gathered array it must leave.
-/
import proofs.«206902_g37847251812778_fold_wed_m_929_15_alg».proof.Proof.Regs
import proofs.«206902_g37847251812778_fold_wed_m_929_15_alg».proof.Proof.GSpec

noncomputable section

namespace Cert.KernelIdeal.Hand

open Cert.KernelIdeal Cert.KernelIdeal.Gen
open Idealize.ShloMosaic Idealize.ShloMosaic.TcCoe

variable {F : FTy → Type} [FloatOps F]

variable (m : (ℓ : Loc nD τ sig) → Buf (Elt F) ℓ)

/-- The index array and the packed table as the gather finds them: the contents after the second host stretch. -/
abbrev fiOf (c : Dev nD) : Buf (Elt F) (iLoc c) := W3 m c (Proc.devRef .tc main_v14)
abbrev ftOf (c : Dev nD) : Buf (Elt F) (xLoc c) := W3 m c (Proc.devRef .tc main_v2)

/-- The gathered array the gather must leave. -/
def gspec (c : Dev nD) : Buf (Elt F) ((c : Thread nD τ).loc main_v15) := gspecOf c (fiOf m c) (ftOf m c)

end Cert.KernelIdeal.Hand

end
-- ==== Proof.GatherRun.lean ====
/-
  The gather as @main's TensorCore sees it. Before the call the TensorCore cuts the index array and the gathered array
  into the tiles' pieces and the packed table into one read share per SparseCore (keeping what is left of it); the call
  hands them out and takes them back; after it the index array is whole again at its contents, the table whole at
  its contents, and the gathered array whole at what the tiles left.

  The facts of how the two arrays are cut (`hidx`, `hos`, `hoj`) are taken as hypotheses here.
-/
import proofs.«206902_g37847251812778_fold_wed_m_929_15_alg».proof.Proof.RegionSegs
import proofs.«206902_g37847251812778_fold_wed_m_929_15_alg».proof.Proof.GatherCall
import proofs.«206902_g37847251812778_fold_wed_m_929_15_alg».proof.Proof.GatherSpec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)

variable {F : FTy → Type} [FloatOps F]

local notation "𝕄" => MT nD τ sig (HIx 1) (Elt F) ℕ UU ℕ

section GatherRun

variable (m : (ℓ : Loc nD τ sig) → Buf (Elt F) ℓ)

/-- The gather's payloads at the index array and the packed table as it finds them. -/
abbrev PP : (K (F := F)).Pay (nD := nD) (Val := Elt F) (Name := ℕ) (U := UU) := P (F := F) (fiOf m) (ftOf m)

/-- How the index array is cut among the tiles. -/
def IdxSplit : Prop := ∀ (d : Dev nD) (f : Buf (Elt F) (iLoc d)),
  (iLoc d ↦{fullShare} f : sProp 𝕄) = bigSep Finset.univ fun c : Fin 2 => bigSep Finset.univ fun i : Fin 16 => (iLoc d ↦[(iRowK (coordsP c i)).view.set]{fullShare} f : sProp 𝕄)
/-- How the gathered array is cut among the tiles, and joined again. -/
def OutSplit : Prop := ∀ (d : Dev nD) (f : Buf (Elt F) (oLoc d)),
  (oLoc d ↦{fullShare} f : sProp 𝕄) ⊢ bigSep Finset.univ fun c : Fin 2 => bigSep Finset.univ fun i : Fin 16 => outChunksT (F := F) d (coordsP c i)
def OutJoin : Prop := ∀ (d : Dev nD) (f : Buf (Elt F) (oLoc d)),
  (oLoc d ↦{fullShare} f : sProp 𝕄) = bigSep Finset.univ fun c : Fin 2 => bigSep Finset.univ fun i : Fin 16 => outChunksAt (F := F) d (coordsP c i) f

/-- The gather's three arrays. -/
abbrev T1 : Finset (DevRef τ sig) := {Proc.devRef .tc main_v14, Proc.devRef .tc main_v2, Proc.devRef .tc main_v15}

omit [FloatOps F] in
theorem T1_sub : T1 ⊆ Pipeline.ucRefs τ sig := by
  intro b hb
  simp only [T1, Finset.mem_insert, Finset.mem_singleton] at hb
  rcases hb with rfl | rfl | rfl <;> exact Finset.mem_filter.mpr ⟨StableHlo.devRef_mem_tcRefs _, by decide⟩

omit [FloatOps F] in
theorem held_T1 (c : Dev nD) (V : Valuation τ sig (Elt F)) :
    (StableHlo.held (c : Thread nD τ) T1 V : sProp 𝕄)
      = iprop((iLoc c ↦{fullShare} V (Proc.devRef .tc main_v14)) ∗ (xLoc c ↦{fullShare} V (Proc.devRef .tc main_v2))
          ∗ (oLoc c ↦{fullShare} V (Proc.devRef .tc main_v15))) := by
  unfold StableHlo.held T1
  rw [SparseCore.bigSep_insert' (by decide), SparseCore.bigSep_insert' (by decide), bigSep_singleton]

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call hands the SparseCores, as three products: the table's read shares, the tiles' index pieces, the
    tiles' chunks of the gathered array. -/
theorem st_eq (d : Dev nD) :
    (bigSep Finset.univ fun c : Fin ((K (F := F)).nCore 0) => (PP m).st 0 d c)
      = iprop((bigSep Finset.univ fun c : Fin 2 => (xLoc d ↦{coreShare c} ftOf m d : sProp 𝕄))
          ∗ (bigSep Finset.univ fun c : Fin 2 => bigSep Finset.univ fun i : Fin 16 => (iLoc d ↦[(iRowK (coordsP c i)).view.set]{fullShare} fiOf m d : sProp 𝕄))
          ∗ (bigSep Finset.univ fun c : Fin 2 => bigSep Finset.univ fun i : Fin 16 => outChunksT (F := F) d (coordsP c i))) := by
  show (bigSep Finset.univ fun c : Fin ((K (F := F)).nCore 0) =>
      iprop((xLoc d ↦{coreShare (Fin.cast nCore_zero c)} ftOf m d)
        ∗ bigSep Finset.univ fun i : Fin 16 => tilePieces (fiOf m) d (coordsP (Fin.cast nCore_zero c) i))) = _
  rw [bigSep_cores (F := F) (fun c => iprop((xLoc d ↦{coreShare c} ftOf m d) ∗ bigSep Finset.univ fun i : Fin 16 => tilePieces (fiOf m) d (coordsP c i))),
    bigSep_sep']
  congr 1
  unfold tilePieces
  rw [← bigSep_sep']
  exact bigSep_congr fun c _ => bigSep_sep' _ _ _

/-- What the call takes back: the shares, the index pieces as they were, the chunks at the gather's specified result. -/
theorem dn_eq (d : Dev nD) :
    (bigSep Finset.univ fun c : Fin ((K (F := F)).nCore 0) => (PP m).dn 0 d c)
      = iprop((bigSep Finset.univ fun c : Fin 2 => (xLoc d ↦{coreShare c} ftOf m d : sProp 𝕄))
          ∗ (bigSep Finset.univ fun c : Fin 2 => bigSep Finset.univ fun i : Fin 16 => (iLoc d ↦[(iRowK (coordsP c i)).view.set]{fullShare} fiOf m d : sProp 𝕄))
          ∗ (bigSep Finset.univ fun c : Fin 2 => bigSep Finset.univ fun i : Fin 16 => outChunksAt (F := F) d (coordsP c i) (gspec m d))) := by
  show (bigSep Finset.univ fun c : Fin ((K (F := F)).nCore 0) =>
      iprop((xLoc d ↦{coreShare (Fin.cast nCore_zero c)} ftOf m d)
        ∗ bigSep Finset.univ fun i : Fin 16 => tileDone (fiOf m) (ftOf m) d (coordsP (Fin.cast nCore_zero c) i))) = _
  rw [bigSep_cores (F := F) (fun c => iprop((xLoc d ↦{coreShare c} ftOf m d) ∗ bigSep Finset.univ fun i : Fin 16 => tileDone (fiOf m) (ftOf m) d (coordsP c i))),
    bigSep_sep']
  congr 1
  unfold tileDone
  rw [← bigSep_sep']
  exact bigSep_congr fun c _ => bigSep_sep' _ _ _

/-- The gather: from the call's handshake state and every unscoped buffer at the contents after the second host
    stretch, the call runs; after it the handshake state is the next call's and the unscoped buffers are as before but
    for the gathered array, at some contents. -/
theorem run_gather (hidx : IdxSplit (F := F)) (hos : OutSplit (F := F)) (hoj : OutJoin (F := F))
    (κ : GSem nD τ sig → ℕ) (d : Dev nD) (Φ : PUnit → sProp 𝕄) :
    iprop((K (F := F)).ctx EH (PP m) κ ∗ (K (F := F)).tcSt EH d 0 ∗ StableHlo.held (d : Thread nD τ) (Pipeline.ucRefs τ sig) (W3 m d)
        ∗ (iprop((K (F := F)).tcSt EH d 1
              ∗ StableHlo.held (d : Thread nD τ) (Pipeline.ucRefs τ sig) (W4 m (gspec m) d)) -∗ Φ ⟨⟩))
      ⊢ wp frame (wpE ((K (F := F)).defs (D (F := F))) 𝒱 (SparseCore.T d) none) Set.univ (sc.run d 0) Φ := by
  rw [StableHlo.held_sub_split (d : Thread nD τ) T1_sub (W3 m d), held_T1]
  iintro ⟨#Hctx, Hst, ⟨⟨Hi, Hx, Ho⟩, Hrest⟩, Hk⟩
  ihave Hi' := (Entails.of_eq (hidx d (fiOf m d))) $$ Hi
  ihave Ho' := (hos d _) $$ Ho
  ihave Hx' := (Transfers.pointsTo_toks_split (ℓ := xLoc d) (f := ftOf m d) fullShare 2) $$ Hx
  icases Hx' with ⟨Hxd, Hxs⟩
  iapply ((K (F := F)).wp_run (D (F := F)) 𝒱 (EH := EH) (P := PP m) κ d 0) $$ [Hst Hi' Ho' Hxs Hxd Hrest Hk]
  isplitr; · iexact Hctx
  isplitl [Hst]; · iexact Hst
  isplitl [Hi' Ho' Hxs]
  · rw [st_eq]
    isplitl [Hxs]; · iexact Hxs
    isplitl [Hi']; · iexact Hi'
    iexact Ho'
  rw [dn_eq]
  iintro ⟨Hst, Hxs, Hi', Ho'⟩
  ihave Hi := (Entails.of_eq (hidx d (fiOf m d)).symm) $$ Hi'
  ihave Ho := (Entails.of_eq (hoj d (gspec m d)).symm) $$ Ho'
  ihave Hx := (Transfers.pointsTo_toks_join (ℓ := xLoc d) (f := ftOf m d) fullShare 2) $$ [Hxd Hxs]
  · isplitl [Hxd]; · iexact Hxd
    iexact Hxs
  iapply Hk
  isplitl [Hst]; · iexact Hst
  rw [StableHlo.held_sub_split (d : Thread nD τ) T1_sub (W4 m _ d), held_T1,
    StableHlo.held_congr (d : Thread nD τ) (V := W4 m _ d) (V' := W3 m d) (S := Pipeline.ucRefs τ sig \ T1) fun b hb => by
      unfold W4
      exact Function.update_of_ne (fun e => (Finset.mem_sdiff.mp hb).2 (by rw [e]; simp [T1])) _ _]
  isplitl [Hi Hx Ho]
  · unfold W4
    rw [Function.update_of_ne (show (Proc.devRef .tc main_v14 : DevRef τ sig) ≠ Proc.devRef .tc main_v15 by decide),
      Function.update_of_ne (show (Proc.devRef .tc main_v2 : DevRef τ sig) ≠ Proc.devRef .tc main_v15 by decide), Function.update_self]
    isplitl [Hi]; · iexact Hi
    isplitl [Hx]; · iexact Hx
    iexact Ho
  iexact Hrest

end GatherRun

end Cert.KernelIdeal.Hand

end
-- ==== Proof.Main.lean ====
/-
  @main on the TensorCore inside the SparseCore launch: the host stretches by the straight-line rule over the held
  unscoped buffers, the two TensorCore calls by the pipeline rule's region step (entered through the lifting of the
  pipelines' programs into the launch's body table), the gather by the launch's call rule.
-/
import proofs.«206902_g37847251812778_fold_wed_m_929_15_alg».proof.Proof.GatherRun

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx Pay)
open Idealize.ShloMosaic.StableHlo (held)

variable {F : FTy → Type} [FloatOps F]

local notation "𝕄" => MT nD τ sig (HIx 1) (Elt F) ℕ UU ℕ

section Main

variable (o5 : Vec F S20x512x128 .f32 → Vec F S512x20 .i32 → Vec F S64x256 .f32 → Vec F S64x256 .f32 → Vec F S1x256 .f32 → Vec F S20x512x64 .f32)
  (o6 o7 : Vec F S20x512x128 .f32 → Vec F S512x20 .i32 → Vec F S64x256 .f32 → Vec F S64x256 .f32 → Vec F S1x256 .f32 → Vec F S512x64 .f32)
variable (m : (ℓ : Loc nD τ sig) → Buf (Elt F) ℓ) (ρ : Dev nD → PrngReg)

/-- The two pipelines' launch ghost state on device `d`: their staging cells' and duty tokens. -/
def G0 (d : Dev nD) : sProp 𝕄 :=
  iprop(Pipeline.cellsGhost (Pipeline.pin (pcfgs (F := F)) adm) EP 0 d ∗ Pipeline.toksInit (Pipeline.pin (pcfgs (F := F)) adm) EP 0 d
    ∗ Pipeline.cellsGhost (Pipeline.pin (pcfgs (F := F)) adm) EP 1 d ∗ Pipeline.toksInit (Pipeline.pin (pcfgs (F := F)) adm) EP 1 d)

/-- What @main leaves: every unscoped buffer at the last boundary's contents, the gathered array having held the
    gather's specified result. -/
def FIN (d : Dev nD) : sProp 𝕄 :=
  StableHlo.held (d : Thread nD τ) (Pipeline.ucRefs τ sig) (W7 o5 o6 o7 m (gspec m) d)

section Proj
variable (fo : (c : Dev nD) → Buf (Elt F) ((c : Thread nD τ).loc main_v15))

theorem reg0_pre (c : Dev nD) : (reg0 o5 o6 o7 m fo).pre c
    = iprop(StableHlo.held (c : Thread nD τ) (Pipeline.ucRefs τ sig) (W1 m c) ∗ Rr (F := F) (O0 (F := F) c) (B0 (F := F) c) c) := rfl
theorem reg0_post (c : Dev nD) : (reg0 o5 o6 o7 m fo).post c
    = iprop(StableHlo.held (c : Thread nD τ) (Pipeline.ucRefs τ sig) (W2 m c) ∗ Rr (F := F) (O0 (F := F) c) (B0 (F := F) c) c) := rfl
theorem reg2_pre (hs : Sound2 o5 o6 o7) (c : Dev nD) : (reg2 o5 o6 o7 m fo hs).pre c
    = iprop(StableHlo.held (c : Thread nD τ) (Pipeline.ucRefs τ sig) (W5 m fo c) ∗ Rr (F := F) 0 (B1 (F := F) c) c) := rfl
theorem reg2_post (hs : Sound2 o5 o6 o7) (c : Dev nD) : (reg2 o5 o6 o7 m fo hs).post c
    = iprop(StableHlo.held (c : Thread nD τ) (Pipeline.ucRefs τ sig) (W6 o5 o6 o7 m fo c) ∗ Rr (F := F) 0 (B1 (F := F) c) c) := rfl
end Proj

/-- @main on the TensorCore of `d`: from the launch's context, its handshake state before the one SparseCore call, what
    the launch deals it and the pipelines' ghost state, it runs to its end with the handshake state after the call and
    every unscoped buffer at the last boundary's contents. -/
theorem hmain (hs : Sound2 o5 o6 o7) (hidx : IdxSplit (F := F)) (hos : OutSplit (F := F)) (hoj : OutJoin (F := F))
    (κ : GSem nD τ sig → ℕ) (d : Dev nD) :
    iprop((K (F := F)).ctx EH (PP m) κ ∗ (K (F := F)).tcSt EH d 0 ∗ (K (F := F)).tcRes m ρ d ∗ G0 (F := F) d)
      ⊢ wp frame (wpE ((K (F := F)).defs (D (F := F))) 𝒱 (SparseCore.T d) none) Set.univ (main d)
          fun _ => iprop((K (F := F)).tcSt EH d 1 ∗ FIN o5 o6 o7 m d) := by
  rw [main_eq]
  unfold SparseCore.Cfg.tcRes G0
  rw [show (unscopedBufs d (fun b => m ((SparseCore.T d).loc b)) : sProp 𝕄)
      = StableHlo.held (d : Thread nD τ) (Pipeline.ucRefs τ sig) (W0 m d) from Pipeline.unscopedBufs_held d (W0 m d)]
  unfold SparseCore.Cfg.tcSt
  iintro ⟨#Hctx, ⟨⟨%W0', %hW0, HO⟩, Hst2⟩, ⟨Hb, Hheld, Hsems, Hprng⟩, ⟨Hg0, Ht0, Hg1, Ht1⟩⟩
  ihave #Hlev := ((K (F := F)).ctx_levAts (EH := EH) (P := PP m) κ) $$ Hctx
  iapply (StableHlo.wp_seq 𝒱 none Set.univ d (Pipeline.ucRefs τ sig) _ opsA
      (fun op h => Pipeline.sub_ucRefs op ((List.forall_iff_forall_mem.mp opsA_sub) op h))
      (fun op h => (List.forall_iff_forall_mem.mp opsA_fresh) op h) (W0 m d)) $$ [Hb Hheld]
  · isplitl [Hb]; · iexact Hb
    iexact Hheld
  iintro ⟨Hb, Hheld⟩
  -- the transposing call
  rw [wp_bind]
  iapply ((K (F := F)).wp_liftProg (D (F := F)) 𝒱 (SparseCore.T d) Set.univ none (Prog.lift (.customCall (Pipeline.entry (0 : Fin 2)) ())) _)
  iapply (Pipeline.RegionSeg.wp (pcfgs (F := F)) adm (pdats o5 o6 o7 m (fun c => m ((c : Thread nD τ).loc main_v15))) (none : HIx 1) cellOf_inj EP defs₀ 𝒱₀
      (LL (F := F)) (lvv (F := F)) (reg0 o5 o6 o7 m (fun c => m ((c : Thread nD τ).loc main_v15))) d none (fun u hu => nomatch hu) (fun x => .ret x) _) $$ [Hb Hheld Hprng HO Hg0 Ht0 Hst2 Hsems Hg1 Ht1]
  isplitr [Hb Hheld Hprng HO Hg0 Ht0]
  rotate_left
  · isplitl [Hb]; · iexact Hb
    isplitl [Hheld Hprng HO]
    · rw [reg0_pre]
      isplitl [Hheld]; · iexact Hheld
      isplitl [Hprng]; · iexists _; iexact Hprng
      iexists W0'; isplitr
      · ipureintro; exact fun p hp => hW0 p (Finset.mem_coe.mp hp)
      · iexact HO
    isplitr; · iexact Hlev
    isplitl [Hg0]; · iexact Hg0
    iexact Ht0
  rw [reg0_post]
  iintro ⟨Hb, ⟨Hheld, ⟨%r1, Hprng⟩, %W1', %hW1, HO⟩⟩
  rw [wp_ret]; imodintro
  -- the second host stretch
  iapply (StableHlo.wp_seq 𝒱 none Set.univ d (Pipeline.ucRefs τ sig) _ opsB
      (fun op h => Pipeline.sub_ucRefs op ((List.forall_iff_forall_mem.mp opsB_sub) op h))
      (fun op h => (List.forall_iff_forall_mem.mp opsB_fresh) op h) (W2 m d)) $$ [Hb Hheld]
  · isplitl [Hb]; · iexact Hb
    iexact Hheld
  iintro ⟨Hb, Hheld⟩
  -- the gather
  rw [wp_bind]
  iapply (run_gather m hidx hos hoj κ d _) $$ [Hst2 HO Hheld Hb Hsems Hg1 Ht1 Hprng]
  isplitr; · iexact Hctx
  isplitl [Hst2 HO]
  · unfold SparseCore.Cfg.tcSt
    isplitl [HO]
    · iexists W1'; isplitr
      · ipureintro; exact fun p hp => hW1 (Finset.mem_coe.mpr hp)
      · iexact HO
    iexact Hst2
  isplitl [Hheld]; · iexact Hheld
  iintro ⟨Hst, Hheld⟩
  -- the third host stretch
  iapply (StableHlo.wp_seq 𝒱 none Set.univ d (Pipeline.ucRefs τ sig) _ opsC
      (fun op h => Pipeline.sub_ucRefs op ((List.forall_iff_forall_mem.mp opsC_sub) op h))
      (fun op h => (List.forall_iff_forall_mem.mp opsC_fresh) op h) (W4 m (gspec m) d)) $$ [Hb Hheld]
  · isplitl [Hb]; · iexact Hb
    iexact Hheld
  iintro ⟨Hb, Hheld⟩
  -- the LSTM call
  unfold SparseCore.Cfg.tcSt
  icases Hst with ⟨⟨%W2', %hW2, HO⟩, Hst2⟩
  rw [wp_bind]
  iapply ((K (F := F)).wp_liftProg (D (F := F)) 𝒱 (SparseCore.T d) Set.univ none (Prog.lift (.customCall (Pipeline.entry (1 : Fin 2)) ())) _)
  iapply (Pipeline.RegionSeg.wp (pcfgs (F := F)) adm (pdats o5 o6 o7 m (gspec m)) (none : HIx 1) cellOf_inj EP defs₀ 𝒱₀
      (LL (F := F)) (lvv (F := F)) (reg2 o5 o6 o7 m (gspec m) hs) d none (fun u hu => nomatch hu) (fun x => .ret x) _) $$ [Hb Hheld Hprng HO Hg1 Ht1 Hst2 Hsems]
  isplitr [Hb Hheld Hprng HO Hg1 Ht1]
  rotate_left
  · isplitl [Hb]; · iexact Hb
    isplitl [Hheld Hprng HO]
    · rw [reg2_pre]
      isplitl [Hheld]; · iexact Hheld
      isplitl [Hprng]; · iexists _; iexact Hprng
      iexists W2'; isplitr
      · ipureintro; exact fun p hp => hW2 p (Finset.mem_coe.mp hp)
      · have hO1 : (K (F := F)).Otc d 1 = 0 := by
          unfold SparseCore.Cfg.Otc; simp
        rw [hO1]; iexact HO
    isplitr; · iexact Hlev
    isplitl [Hg1]; · iexact Hg1
    iexact Ht1
  rw [reg2_post]
  iintro ⟨Hb, ⟨Hheld, ⟨%r2, Hprng⟩, %W3', %hW3, HO⟩⟩
  rw [wp_ret]; imodintro
  -- the last host stretch
  iapply (StableHlo.wp_seq 𝒱 none Set.univ d (Pipeline.ucRefs τ sig) _ opsE
      (fun op h => Pipeline.sub_ucRefs op ((List.forall_iff_forall_mem.mp opsE_sub) op h))
      (fun op h => (List.forall_iff_forall_mem.mp opsE_fresh) op h) (W6 o5 o6 o7 m (gspec m) d)) $$ [Hb Hheld]
  · isplitl [Hb]; · iexact Hb
    iexact Hheld
  iintro ⟨Hb, Hheld⟩
  -- the return
  rw [wp_pure]
  imodintro
  isplitl [HO Hst2]
  · isplitl [HO]
    · iexists W3'; isplitr
      · ipureintro; exact fun p hp => hW3 (Finset.mem_coe.mpr hp)
      · have hO1 : (K (F := F)).Otc d 1 = 0 := by
          unfold SparseCore.Cfg.Otc; simp
        rw [hO1]; iexact HO
    iexact Hst2
  unfold FIN
  iexact Hheld

end Main

end Cert.KernelIdeal.Hand

end
-- ==== Proof.LstmBody.lean ====
/-
  The LSTM body of the idealized kernel program at one grid point, as a triple over its eight staging buffers.

  The body reads the input weights W (64×256), the recurrent weights U (64×256) and the bias row b (1×256), starts from
  h = c = 0 (512×64), and runs twenty unrolled steps: at step t it reads slab t of the packed rows (512×128) and
  column t of the selector words (512×1), takes per row the upper or the lower half of the slab row according to
  whether the selector word is at least 524288, forms z = xt·W + h·U + b, splits z into the four gates, updates
  c = f*c + i*g and h = o*tanh c, and stores h into slab t of the hidden-state output. At the end it stores h and c
  whole into the two state outputs. So the five input buffers are only read, the twenty slab stores tile the
  hidden-state output, and each state output gets one whole store.

  This module names the values the body threads from step to step (`Lstm.vN`), states what each output buffer holds
  after the body as a function of the five input blocks (`out2_5`, `out2_6`, `out2_7`: the canonical contents of the
  stores' pieces), and proves the body's triple (`sound_kernel2`) by running the skeleton of memory operations.
-/
import proofs.«206902_g37847251812778_fold_wed_m_929_15_alg».proof.Proof.Common
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

namespace Lstm

/-! ## The body's accesses -/

/-- The whole of a weight matrix, of the bias row, and of a state block. -/
abbrev rW : Rect S64x256 := Rect.unit (s := S64x256) ![0, 0] S64x256.size inb_S64x256_S64x256_0_0
abbrev rB : Rect S1x256 := Rect.unit (s := S1x256) ![0, 0] S1x256.size inb_S1x256_S1x256_0_0
abbrev rH : Rect S512x64 := Rect.unit (s := S512x64) ![0, 0] S512x64.size inb_S512x64_S512x64_0_0
/-- Step `t`'s slab of the packed rows, its column of the selector words, and its slab of the hidden-state output. -/
abbrev rX0 : Rect S20x512x128 := Rect.unit (s := S20x512x128) ![0, 0, 0] S1x512x128.size inb_S20x512x128_S1x512x128_0_0_0
abbrev rX1 : Rect S20x512x128 := Rect.unit (s := S20x512x128) ![1, 0, 0] S1x512x128.size inb_S20x512x128_S1x512x128_1_0_0
abbrev rX2 : Rect S20x512x128 := Rect.unit (s := S20x512x128) ![2, 0, 0] S1x512x128.size inb_S20x512x128_S1x512x128_2_0_0
abbrev rX3 : Rect S20x512x128 := Rect.unit (s := S20x512x128) ![3, 0, 0] S1x512x128.size inb_S20x512x128_S1x512x128_3_0_0
abbrev rX4 : Rect S20x512x128 := Rect.unit (s := S20x512x128) ![4, 0, 0] S1x512x128.size inb_S20x512x128_S1x512x128_4_0_0
abbrev rX5 : Rect S20x512x128 := Rect.unit (s := S20x512x128) ![5, 0, 0] S1x512x128.size inb_S20x512x128_S1x512x128_5_0_0
abbrev rX6 : Rect S20x512x128 := Rect.unit (s := S20x512x128) ![6, 0, 0] S1x512x128.size inb_S20x512x128_S1x512x128_6_0_0
abbrev rX7 : Rect S20x512x128 := Rect.unit (s := S20x512x128) ![7, 0, 0] S1x512x128.size inb_S20x512x128_S1x512x128_7_0_0
abbrev rX8 : Rect S20x512x128 := Rect.unit (s := S20x512x128) ![8, 0, 0] S1x512x128.size inb_S20x512x128_S1x512x128_8_0_0
abbrev rX9 : Rect S20x512x128 := Rect.unit (s := S20x512x128) ![9, 0, 0] S1x512x128.size inb_S20x512x128_S1x512x128_9_0_0
abbrev rX10 : Rect S20x512x128 := Rect.unit (s := S20x512x128) ![10, 0, 0] S1x512x128.size inb_S20x512x128_S1x512x128_10_0_0
abbrev rX11 : Rect S20x512x128 := Rect.unit (s := S20x512x128) ![11, 0, 0] S1x512x128.size inb_S20x512x128_S1x512x128_11_0_0
abbrev rX12 : Rect S20x512x128 := Rect.unit (s := S20x512x128) ![12, 0, 0] S1x512x128.size inb_S20x512x128_S1x512x128_12_0_0
abbrev rX13 : Rect S20x512x128 := Rect.unit (s := S20x512x128) ![13, 0, 0] S1x512x128.size inb_S20x512x128_S1x512x128_13_0_0
abbrev rX14 : Rect S20x512x128 := Rect.unit (s := S20x512x128) ![14, 0, 0] S1x512x128.size inb_S20x512x128_S1x512x128_14_0_0
abbrev rX15 : Rect S20x512x128 := Rect.unit (s := S20x512x128) ![15, 0, 0] S1x512x128.size inb_S20x512x128_S1x512x128_15_0_0
abbrev rX16 : Rect S20x512x128 := Rect.unit (s := S20x512x128) ![16, 0, 0] S1x512x128.size inb_S20x512x128_S1x512x128_16_0_0
abbrev rX17 : Rect S20x512x128 := Rect.unit (s := S20x512x128) ![17, 0, 0] S1x512x128.size inb_S20x512x128_S1x512x128_17_0_0
abbrev rX18 : Rect S20x512x128 := Rect.unit (s := S20x512x128) ![18, 0, 0] S1x512x128.size inb_S20x512x128_S1x512x128_18_0_0
abbrev rX19 : Rect S20x512x128 := Rect.unit (s := S20x512x128) ![19, 0, 0] S1x512x128.size inb_S20x512x128_S1x512x128_19_0_0
abbrev rP0 : Rect S512x20 := Rect.unit (s := S512x20) ![0, 0] S512x1.size inb_S512x20_S512x1_0_0
abbrev rP1 : Rect S512x20 := Rect.unit (s := S512x20) ![0, 1] S512x1.size inb_S512x20_S512x1_0_1
abbrev rP2 : Rect S512x20 := Rect.unit (s := S512x20) ![0, 2] S512x1.size inb_S512x20_S512x1_0_2
abbrev rP3 : Rect S512x20 := Rect.unit (s := S512x20) ![0, 3] S512x1.size inb_S512x20_S512x1_0_3
abbrev rP4 : Rect S512x20 := Rect.unit (s := S512x20) ![0, 4] S512x1.size inb_S512x20_S512x1_0_4
abbrev rP5 : Rect S512x20 := Rect.unit (s := S512x20) ![0, 5] S512x1.size inb_S512x20_S512x1_0_5
abbrev rP6 : Rect S512x20 := Rect.unit (s := S512x20) ![0, 6] S512x1.size inb_S512x20_S512x1_0_6
abbrev rP7 : Rect S512x20 := Rect.unit (s := S512x20) ![0, 7] S512x1.size inb_S512x20_S512x1_0_7
abbrev rP8 : Rect S512x20 := Rect.unit (s := S512x20) ![0, 8] S512x1.size inb_S512x20_S512x1_0_8
abbrev rP9 : Rect S512x20 := Rect.unit (s := S512x20) ![0, 9] S512x1.size inb_S512x20_S512x1_0_9
abbrev rP10 : Rect S512x20 := Rect.unit (s := S512x20) ![0, 10] S512x1.size inb_S512x20_S512x1_0_10
abbrev rP11 : Rect S512x20 := Rect.unit (s := S512x20) ![0, 11] S512x1.size inb_S512x20_S512x1_0_11
abbrev rP12 : Rect S512x20 := Rect.unit (s := S512x20) ![0, 12] S512x1.size inb_S512x20_S512x1_0_12
abbrev rP13 : Rect S512x20 := Rect.unit (s := S512x20) ![0, 13] S512x1.size inb_S512x20_S512x1_0_13
abbrev rP14 : Rect S512x20 := Rect.unit (s := S512x20) ![0, 14] S512x1.size inb_S512x20_S512x1_0_14
abbrev rP15 : Rect S512x20 := Rect.unit (s := S512x20) ![0, 15] S512x1.size inb_S512x20_S512x1_0_15
abbrev rP16 : Rect S512x20 := Rect.unit (s := S512x20) ![0, 16] S512x1.size inb_S512x20_S512x1_0_16
abbrev rP17 : Rect S512x20 := Rect.unit (s := S512x20) ![0, 17] S512x1.size inb_S512x20_S512x1_0_17
abbrev rP18 : Rect S512x20 := Rect.unit (s := S512x20) ![0, 18] S512x1.size inb_S512x20_S512x1_0_18
abbrev rP19 : Rect S512x20 := Rect.unit (s := S512x20) ![0, 19] S512x1.size inb_S512x20_S512x1_0_19
abbrev rO0 : Rect S20x512x64 := Rect.unit (s := S20x512x64) ![0, 0, 0] S1x512x64.size inb_S20x512x64_S1x512x64_0_0_0
abbrev rO1 : Rect S20x512x64 := Rect.unit (s := S20x512x64) ![1, 0, 0] S1x512x64.size inb_S20x512x64_S1x512x64_1_0_0
abbrev rO2 : Rect S20x512x64 := Rect.unit (s := S20x512x64) ![2, 0, 0] S1x512x64.size inb_S20x512x64_S1x512x64_2_0_0
abbrev rO3 : Rect S20x512x64 := Rect.unit (s := S20x512x64) ![3, 0, 0] S1x512x64.size inb_S20x512x64_S1x512x64_3_0_0
abbrev rO4 : Rect S20x512x64 := Rect.unit (s := S20x512x64) ![4, 0, 0] S1x512x64.size inb_S20x512x64_S1x512x64_4_0_0
abbrev rO5 : Rect S20x512x64 := Rect.unit (s := S20x512x64) ![5, 0, 0] S1x512x64.size inb_S20x512x64_S1x512x64_5_0_0
abbrev rO6 : Rect S20x512x64 := Rect.unit (s := S20x512x64) ![6, 0, 0] S1x512x64.size inb_S20x512x64_S1x512x64_6_0_0
abbrev rO7 : Rect S20x512x64 := Rect.unit (s := S20x512x64) ![7, 0, 0] S1x512x64.size inb_S20x512x64_S1x512x64_7_0_0
abbrev rO8 : Rect S20x512x64 := Rect.unit (s := S20x512x64) ![8, 0, 0] S1x512x64.size inb_S20x512x64_S1x512x64_8_0_0
abbrev rO9 : Rect S20x512x64 := Rect.unit (s := S20x512x64) ![9, 0, 0] S1x512x64.size inb_S20x512x64_S1x512x64_9_0_0
abbrev rO10 : Rect S20x512x64 := Rect.unit (s := S20x512x64) ![10, 0, 0] S1x512x64.size inb_S20x512x64_S1x512x64_10_0_0
abbrev rO11 : Rect S20x512x64 := Rect.unit (s := S20x512x64) ![11, 0, 0] S1x512x64.size inb_S20x512x64_S1x512x64_11_0_0
abbrev rO12 : Rect S20x512x64 := Rect.unit (s := S20x512x64) ![12, 0, 0] S1x512x64.size inb_S20x512x64_S1x512x64_12_0_0
abbrev rO13 : Rect S20x512x64 := Rect.unit (s := S20x512x64) ![13, 0, 0] S1x512x64.size inb_S20x512x64_S1x512x64_13_0_0
abbrev rO14 : Rect S20x512x64 := Rect.unit (s := S20x512x64) ![14, 0, 0] S1x512x64.size inb_S20x512x64_S1x512x64_14_0_0
abbrev rO15 : Rect S20x512x64 := Rect.unit (s := S20x512x64) ![15, 0, 0] S1x512x64.size inb_S20x512x64_S1x512x64_15_0_0
abbrev rO16 : Rect S20x512x64 := Rect.unit (s := S20x512x64) ![16, 0, 0] S1x512x64.size inb_S20x512x64_S1x512x64_16_0_0
abbrev rO17 : Rect S20x512x64 := Rect.unit (s := S20x512x64) ![17, 0, 0] S1x512x64.size inb_S20x512x64_S1x512x64_17_0_0
abbrev rO18 : Rect S20x512x64 := Rect.unit (s := S20x512x64) ![18, 0, 0] S1x512x64.size inb_S20x512x64_S1x512x64_18_0_0
abbrev rO19 : Rect S20x512x64 := Rect.unit (s := S20x512x64) ![19, 0, 0] S1x512x64.size inb_S20x512x64_S1x512x64_19_0_0

/-! ## The values the body threads from step to step

The body is twenty unrolled steps of one recurrence, printed as fourteen consecutive windows of statements; a window
hands the next the values still live at the cut. `vN` below is the value of `%N` of the printed body as a function of
the five input blocks: the payload the skeleton names for it, at the earlier values and at what the body loads of the
inputs (the whole of `x2`, `x3`, `x4`; slab `t` of `x0` and column `t` of `x1` at step `t`). -/

/-- `%0`: the input weights, as loaded. -/
def v0 (x0 : Vec F S20x512x128 .f32) (x1 : Vec F S512x20 .i32) (x2 : Vec F S64x256 .f32) (x3 : Vec F S64x256 .f32) (x4 : Vec F S1x256 .f32) : Vec F S64x256 .f32 := View.ld x2 rW
/-- `%1`: the recurrent weights, as loaded. -/
def v1 (x0 : Vec F S20x512x128 .f32) (x1 : Vec F S512x20 .i32) (x2 : Vec F S64x256 .f32) (x3 : Vec F S64x256 .f32) (x4 : Vec F S1x256 .f32) : Vec F S64x256 .f32 := View.ld x3 rW
def v3 (x0 : Vec F S20x512x128 .f32) (x1 : Vec F S512x20 .i32) (x2 : Vec F S64x256 .f32) (x3 : Vec F S64x256 .f32) (x4 : Vec F S1x256 .f32) : FVec F S1x256 .f32 :=
  k2_pay5 (View.ld x4 rB)
def v31 (x0 : Vec F S20x512x128 .f32) (x1 : Vec F S512x20 .i32) (x2 : Vec F S64x256 .f32) (x3 : Vec F S64x256 .f32) (x4 : Vec F S1x256 .f32) : FVec F S512x64 .f32 :=
  k2_pay7 (View.ld x2 rW) (View.ld x3 rW) (View.ld x4 rB) (View.ld x0 rX0) (View.ld x1 rP0)
def v33 (x0 : Vec F S20x512x128 .f32) (x1 : Vec F S512x20 .i32) (x2 : Vec F S64x256 .f32) (x3 : Vec F S64x256 .f32) (x4 : Vec F S1x256 .f32) : FVec F S512x64 .f32 :=
  k2_pay8 (View.ld x2 rW) (View.ld x3 rW) (View.ld x4 rB) (View.ld x0 rX0) (View.ld x1 rP0)
def v62 (x0 : Vec F S20x512x128 .f32) (x1 : Vec F S512x20 .i32) (x2 : Vec F S64x256 .f32) (x3 : Vec F S64x256 .f32) (x4 : Vec F S1x256 .f32) : FVec F S512x64 .f32 :=
  k2_pay11 (v0 x0 x1 x2 x3 x4) (v1 x0 x1 x2 x3 x4) (v3 x0 x1 x2 x3 x4) (v31 x0 x1 x2 x3 x4) (v33 x0 x1 x2 x3 x4) (View.ld x0 rX1) (View.ld x1 rP1)
def v64 (x0 : Vec F S20x512x128 .f32) (x1 : Vec F S512x20 .i32) (x2 : Vec F S64x256 .f32) (x3 : Vec F S64x256 .f32) (x4 : Vec F S1x256 .f32) : FVec F S512x64 .f32 :=
  k2_pay12 (v0 x0 x1 x2 x3 x4) (v1 x0 x1 x2 x3 x4) (v3 x0 x1 x2 x3 x4) (v31 x0 x1 x2 x3 x4) (v33 x0 x1 x2 x3 x4) (View.ld x0 rX1) (View.ld x1 rP1)
def v78 (x0 : Vec F S20x512x128 .f32) (x1 : Vec F S512x20 .i32) (x2 : Vec F S64x256 .f32) (x3 : Vec F S64x256 .f32) (x4 : Vec F S1x256 .f32) : FVec F S512x256 .f32 :=
  k2_pay14 (v0 x0 x1 x2 x3 x4) (View.ld x0 rX2) (View.ld x1 rP2)
def v124 (x0 : Vec F S20x512x128 .f32) (x1 : Vec F S512x20 .i32) (x2 : Vec F S64x256 .f32) (x3 : Vec F S64x256 .f32) (x4 : Vec F S1x256 .f32) : FVec F S512x64 .f32 :=
  k2_pay20 (v0 x0 x1 x2 x3 x4) (v1 x0 x1 x2 x3 x4) (v3 x0 x1 x2 x3 x4) (v62 x0 x1 x2 x3 x4) (v64 x0 x1 x2 x3 x4) (v78 x0 x1 x2 x3 x4) (constant S512x256 .f32 0x00000000#32) (View.ld x0 rX3) (View.ld x1 rP3)
def v126 (x0 : Vec F S20x512x128 .f32) (x1 : Vec F S512x20 .i32) (x2 : Vec F S64x256 .f32) (x3 : Vec F S64x256 .f32) (x4 : Vec F S1x256 .f32) : FVec F S512x64 .f32 :=
  k2_pay21 (v0 x0 x1 x2 x3 x4) (v1 x0 x1 x2 x3 x4) (v3 x0 x1 x2 x3 x4) (v62 x0 x1 x2 x3 x4) (v64 x0 x1 x2 x3 x4) (v78 x0 x1 x2 x3 x4) (constant S512x256 .f32 0x00000000#32) (View.ld x0 rX3) (View.ld x1 rP3)
def v155 (x0 : Vec F S20x512x128 .f32) (x1 : Vec F S512x20 .i32) (x2 : Vec F S64x256 .f32) (x3 : Vec F S64x256 .f32) (x4 : Vec F S1x256 .f32) : FVec F S512x64 .f32 :=
  k2_pay24 (v0 x0 x1 x2 x3 x4) (v1 x0 x1 x2 x3 x4) (v3 x0 x1 x2 x3 x4) (v124 x0 x1 x2 x3 x4) (v126 x0 x1 x2 x3 x4) (View.ld x0 rX4) (View.ld x1 rP4)
def v157 (x0 : Vec F S20x512x128 .f32) (x1 : Vec F S512x20 .i32) (x2 : Vec F S64x256 .f32) (x3 : Vec F S64x256 .f32) (x4 : Vec F S1x256 .f32) : FVec F S512x64 .f32 :=
  k2_pay25 (v0 x0 x1 x2 x3 x4) (v1 x0 x1 x2 x3 x4) (v3 x0 x1 x2 x3 x4) (v124 x0 x1 x2 x3 x4) (v126 x0 x1 x2 x3 x4) (View.ld x0 rX4) (View.ld x1 rP4)
def v162 (x0 : Vec F S20x512x128 .f32) (x1 : Vec F S512x20 .i32) (x2 : Vec F S64x256 .f32) (x3 : Vec F S64x256 .f32) (x4 : Vec F S1x256 .f32) : FVec F S512x128 .f32 :=
  k2_pay27 (View.ld x0 rX5)
/-- `%163`: step 5's selector words, as loaded. -/
def v163 (x0 : Vec F S20x512x128 .f32) (x1 : Vec F S512x20 .i32) (x2 : Vec F S64x256 .f32) (x3 : Vec F S64x256 .f32) (x4 : Vec F S1x256 .f32) : Vec F S512x1 .i32 := View.ld x1 rP5
def v186 (x0 : Vec F S20x512x128 .f32) (x1 : Vec F S512x20 .i32) (x2 : Vec F S64x256 .f32) (x3 : Vec F S64x256 .f32) (x4 : Vec F S1x256 .f32) : FVec F S512x64 .f32 :=
  k2_pay30 (v0 x0 x1 x2 x3 x4) (v1 x0 x1 x2 x3 x4) (v3 x0 x1 x2 x3 x4) (v155 x0 x1 x2 x3 x4) (v157 x0 x1 x2 x3 x4) (v162 x0 x1 x2 x3 x4) (v163 x0 x1 x2 x3 x4) k2_pay28
def v206 (x0 : Vec F S20x512x128 .f32) (x1 : Vec F S512x20 .i32) (x2 : Vec F S64x256 .f32) (x3 : Vec F S64x256 .f32) (x4 : Vec F S1x256 .f32) : FVec F S512x256 .f32 :=
  k2_pay33 (v0 x0 x1 x2 x3 x4) (v1 x0 x1 x2 x3 x4) (v3 x0 x1 x2 x3 x4) (v155 x0 x1 x2 x3 x4) (v157 x0 x1 x2 x3 x4) (v162 x0 x1 x2 x3 x4) (v163 x0 x1 x2 x3 x4) k2_pay28 (View.ld x0 rX6) (View.ld x1 rP6)
def v208 (x0 : Vec F S20x512x128 .f32) (x1 : Vec F S512x20 .i32) (x2 : Vec F S64x256 .f32) (x3 : Vec F S64x256 .f32) (x4 : Vec F S1x256 .f32) : FVec F S512x64 .f32 :=
  k2_pay34 (v0 x0 x1 x2 x3 x4) (v1 x0 x1 x2 x3 x4) (v3 x0 x1 x2 x3 x4) (v155 x0 x1 x2 x3 x4) (v157 x0 x1 x2 x3 x4) (v162 x0 x1 x2 x3 x4) (v163 x0 x1 x2 x3 x4) k2_pay28 (View.ld x0 rX6) (View.ld x1 rP6)
def v210 (x0 : Vec F S20x512x128 .f32) (x1 : Vec F S512x20 .i32) (x2 : Vec F S64x256 .f32) (x3 : Vec F S64x256 .f32) (x4 : Vec F S1x256 .f32) : FVec F S512x64 .f32 :=
  k2_pay35 (v0 x0 x1 x2 x3 x4) (v1 x0 x1 x2 x3 x4) (v3 x0 x1 x2 x3 x4) (v155 x0 x1 x2 x3 x4) (v157 x0 x1 x2 x3 x4) (v162 x0 x1 x2 x3 x4) (v163 x0 x1 x2 x3 x4) k2_pay28 (View.ld x0 rX6) (View.ld x1 rP6)
def v248 (x0 : Vec F S20x512x128 .f32) (x1 : Vec F S512x20 .i32) (x2 : Vec F S64x256 .f32) (x3 : Vec F S64x256 .f32) (x4 : Vec F S1x256 .f32) : FVec F S512x64 .f32 :=
  k2_pay40 (v0 x0 x1 x2 x3 x4) (v1 x0 x1 x2 x3 x4) (v3 x0 x1 x2 x3 x4) (v186 x0 x1 x2 x3 x4) (v206 x0 x1 x2 x3 x4) (v208 x0 x1 x2 x3 x4) (v210 x0 x1 x2 x3 x4) (View.ld x0 rX7) (View.ld x1 rP7)
def v250 (x0 : Vec F S20x512x128 .f32) (x1 : Vec F S512x20 .i32) (x2 : Vec F S64x256 .f32) (x3 : Vec F S64x256 .f32) (x4 : Vec F S1x256 .f32) : FVec F S512x64 .f32 :=
  k2_pay41 (v0 x0 x1 x2 x3 x4) (v1 x0 x1 x2 x3 x4) (v3 x0 x1 x2 x3 x4) (v186 x0 x1 x2 x3 x4) (v206 x0 x1 x2 x3 x4) (v208 x0 x1 x2 x3 x4) (v210 x0 x1 x2 x3 x4) (View.ld x0 rX7) (View.ld x1 rP7)
def v279 (x0 : Vec F S20x512x128 .f32) (x1 : Vec F S512x20 .i32) (x2 : Vec F S64x256 .f32) (x3 : Vec F S64x256 .f32) (x4 : Vec F S1x256 .f32) : FVec F S512x64 .f32 :=
  k2_pay44 (v0 x0 x1 x2 x3 x4) (v1 x0 x1 x2 x3 x4) (v3 x0 x1 x2 x3 x4) (v248 x0 x1 x2 x3 x4) (v250 x0 x1 x2 x3 x4) (View.ld x0 rX8) (View.ld x1 rP8)
def v281 (x0 : Vec F S20x512x128 .f32) (x1 : Vec F S512x20 .i32) (x2 : Vec F S64x256 .f32) (x3 : Vec F S64x256 .f32) (x4 : Vec F S1x256 .f32) : FVec F S512x64 .f32 :=
  k2_pay45 (v0 x0 x1 x2 x3 x4) (v1 x0 x1 x2 x3 x4) (v3 x0 x1 x2 x3 x4) (v248 x0 x1 x2 x3 x4) (v250 x0 x1 x2 x3 x4) (View.ld x0 rX8) (View.ld x1 rP8)
def v295 (x0 : Vec F S20x512x128 .f32) (x1 : Vec F S512x20 .i32) (x2 : Vec F S64x256 .f32) (x3 : Vec F S64x256 .f32) (x4 : Vec F S1x256 .f32) : FVec F S512x256 .f32 :=
  k2_pay47 (v0 x0 x1 x2 x3 x4) (View.ld x0 rX9) (View.ld x1 rP9)
def v338 (x0 : Vec F S20x512x128 .f32) (x1 : Vec F S512x20 .i32) (x2 : Vec F S64x256 .f32) (x3 : Vec F S64x256 .f32) (x4 : Vec F S1x256 .f32) : FVec F S512x64 .f32 :=
  k2_pay53 (v0 x0 x1 x2 x3 x4) (v1 x0 x1 x2 x3 x4) (v3 x0 x1 x2 x3 x4) (v279 x0 x1 x2 x3 x4) (v281 x0 x1 x2 x3 x4) (v295 x0 x1 x2 x3 x4) (View.ld x0 rX10) (View.ld x1 rP10)
def v341 (x0 : Vec F S20x512x128 .f32) (x1 : Vec F S512x20 .i32) (x2 : Vec F S64x256 .f32) (x3 : Vec F S64x256 .f32) (x4 : Vec F S1x256 .f32) : FVec F S512x64 .f32 :=
  k2_pay54 (v0 x0 x1 x2 x3 x4) (v1 x0 x1 x2 x3 x4) (v3 x0 x1 x2 x3 x4) (v279 x0 x1 x2 x3 x4) (v281 x0 x1 x2 x3 x4) (v295 x0 x1 x2 x3 x4) (View.ld x0 rX10) (View.ld x1 rP10)
def v342 (x0 : Vec F S20x512x128 .f32) (x1 : Vec F S512x20 .i32) (x2 : Vec F S64x256 .f32) (x3 : Vec F S64x256 .f32) (x4 : Vec F S1x256 .f32) : FVec F S512x64 .f32 :=
  k2_pay55 (v0 x0 x1 x2 x3 x4) (v1 x0 x1 x2 x3 x4) (v3 x0 x1 x2 x3 x4) (v279 x0 x1 x2 x3 x4) (v281 x0 x1 x2 x3 x4) (v295 x0 x1 x2 x3 x4) (View.ld x0 rX10) (View.ld x1 rP10)
def v372 (x0 : Vec F S20x512x128 .f32) (x1 : Vec F S512x20 .i32) (x2 : Vec F S64x256 .f32) (x3 : Vec F S64x256 .f32) (x4 : Vec F S1x256 .f32) : FVec F S512x64 .f32 :=
  k2_pay59 (v0 x0 x1 x2 x3 x4) (v1 x0 x1 x2 x3 x4) (v3 x0 x1 x2 x3 x4) (v338 x0 x1 x2 x3 x4) (v341 x0 x1 x2 x3 x4) (v342 x0 x1 x2 x3 x4) (View.ld x0 rX11) (View.ld x1 rP11)
def v374 (x0 : Vec F S20x512x128 .f32) (x1 : Vec F S512x20 .i32) (x2 : Vec F S64x256 .f32) (x3 : Vec F S64x256 .f32) (x4 : Vec F S1x256 .f32) : FVec F S512x64 .f32 :=
  k2_pay60 (v0 x0 x1 x2 x3 x4) (v1 x0 x1 x2 x3 x4) (v3 x0 x1 x2 x3 x4) (v338 x0 x1 x2 x3 x4) (v341 x0 x1 x2 x3 x4) (v342 x0 x1 x2 x3 x4) (View.ld x0 rX11) (View.ld x1 rP11)
def v379 (x0 : Vec F S20x512x128 .f32) (x1 : Vec F S512x20 .i32) (x2 : Vec F S64x256 .f32) (x3 : Vec F S64x256 .f32) (x4 : Vec F S1x256 .f32) : FVec F S512x128 .f32 :=
  k2_pay62 (View.ld x0 rX12)
/-- `%380`: step 12's selector words, as loaded. -/
def v380 (x0 : Vec F S20x512x128 .f32) (x1 : Vec F S512x20 .i32) (x2 : Vec F S64x256 .f32) (x3 : Vec F S64x256 .f32) (x4 : Vec F S1x256 .f32) : Vec F S512x1 .i32 := View.ld x1 rP12
def v403 (x0 : Vec F S20x512x128 .f32) (x1 : Vec F S512x20 .i32) (x2 : Vec F S64x256 .f32) (x3 : Vec F S64x256 .f32) (x4 : Vec F S1x256 .f32) : FVec F S512x64 .f32 :=
  k2_pay64 (v0 x0 x1 x2 x3 x4) (v1 x0 x1 x2 x3 x4) (v3 x0 x1 x2 x3 x4) (v372 x0 x1 x2 x3 x4) (v374 x0 x1 x2 x3 x4) (v379 x0 x1 x2 x3 x4) (v380 x0 x1 x2 x3 x4) 524288#32
def v423 (x0 : Vec F S20x512x128 .f32) (x1 : Vec F S512x20 .i32) (x2 : Vec F S64x256 .f32) (x3 : Vec F S64x256 .f32) (x4 : Vec F S1x256 .f32) : FVec F S512x256 .f32 :=
  k2_pay67 (v0 x0 x1 x2 x3 x4) (v1 x0 x1 x2 x3 x4) (v3 x0 x1 x2 x3 x4) (v372 x0 x1 x2 x3 x4) (v374 x0 x1 x2 x3 x4) (v379 x0 x1 x2 x3 x4) (v380 x0 x1 x2 x3 x4) 524288#32 (View.ld x0 rX13) (View.ld x1 rP13)
def v425 (x0 : Vec F S20x512x128 .f32) (x1 : Vec F S512x20 .i32) (x2 : Vec F S64x256 .f32) (x3 : Vec F S64x256 .f32) (x4 : Vec F S1x256 .f32) : FVec F S512x64 .f32 :=
  k2_pay68 (v0 x0 x1 x2 x3 x4) (v1 x0 x1 x2 x3 x4) (v3 x0 x1 x2 x3 x4) (v372 x0 x1 x2 x3 x4) (v374 x0 x1 x2 x3 x4) (v379 x0 x1 x2 x3 x4) (v380 x0 x1 x2 x3 x4) 524288#32 (View.ld x0 rX13) (View.ld x1 rP13)
def v426 (x0 : Vec F S20x512x128 .f32) (x1 : Vec F S512x20 .i32) (x2 : Vec F S64x256 .f32) (x3 : Vec F S64x256 .f32) (x4 : Vec F S1x256 .f32) : FVec F S512x64 .f32 :=
  k2_pay69 (v0 x0 x1 x2 x3 x4) (v1 x0 x1 x2 x3 x4) (v3 x0 x1 x2 x3 x4) (v372 x0 x1 x2 x3 x4) (v374 x0 x1 x2 x3 x4) (v379 x0 x1 x2 x3 x4) (v380 x0 x1 x2 x3 x4) 524288#32 (View.ld x0 rX13) (View.ld x1 rP13)
def v465 (x0 : Vec F S20x512x128 .f32) (x1 : Vec F S512x20 .i32) (x2 : Vec F S64x256 .f32) (x3 : Vec F S64x256 .f32) (x4 : Vec F S1x256 .f32) : FVec F S512x64 .f32 :=
  k2_pay74 (v0 x0 x1 x2 x3 x4) (v1 x0 x1 x2 x3 x4) (v3 x0 x1 x2 x3 x4) (v403 x0 x1 x2 x3 x4) (v423 x0 x1 x2 x3 x4) (v425 x0 x1 x2 x3 x4) (v426 x0 x1 x2 x3 x4) (View.ld x0 rX14) (View.ld x1 rP14)
def v467 (x0 : Vec F S20x512x128 .f32) (x1 : Vec F S512x20 .i32) (x2 : Vec F S64x256 .f32) (x3 : Vec F S64x256 .f32) (x4 : Vec F S1x256 .f32) : FVec F S512x64 .f32 :=
  k2_pay75 (v0 x0 x1 x2 x3 x4) (v1 x0 x1 x2 x3 x4) (v3 x0 x1 x2 x3 x4) (v403 x0 x1 x2 x3 x4) (v423 x0 x1 x2 x3 x4) (v425 x0 x1 x2 x3 x4) (v426 x0 x1 x2 x3 x4) (View.ld x0 rX14) (View.ld x1 rP14)
def v496 (x0 : Vec F S20x512x128 .f32) (x1 : Vec F S512x20 .i32) (x2 : Vec F S64x256 .f32) (x3 : Vec F S64x256 .f32) (x4 : Vec F S1x256 .f32) : FVec F S512x64 .f32 :=
  k2_pay78 (v0 x0 x1 x2 x3 x4) (v1 x0 x1 x2 x3 x4) (v3 x0 x1 x2 x3 x4) (v465 x0 x1 x2 x3 x4) (v467 x0 x1 x2 x3 x4) (View.ld x0 rX15) (View.ld x1 rP15)
def v498 (x0 : Vec F S20x512x128 .f32) (x1 : Vec F S512x20 .i32) (x2 : Vec F S64x256 .f32) (x3 : Vec F S64x256 .f32) (x4 : Vec F S1x256 .f32) : FVec F S512x64 .f32 :=
  k2_pay79 (v0 x0 x1 x2 x3 x4) (v1 x0 x1 x2 x3 x4) (v3 x0 x1 x2 x3 x4) (v465 x0 x1 x2 x3 x4) (v467 x0 x1 x2 x3 x4) (View.ld x0 rX15) (View.ld x1 rP15)
def v511 (x0 : Vec F S20x512x128 .f32) (x1 : Vec F S512x20 .i32) (x2 : Vec F S64x256 .f32) (x3 : Vec F S64x256 .f32) (x4 : Vec F S1x256 .f32) : FVec F S512x64 .f32 :=
  k2_pay81 (View.ld x0 rX16) (View.ld x1 rP16)
def v555 (x0 : Vec F S20x512x128 .f32) (x1 : Vec F S512x20 .i32) (x2 : Vec F S64x256 .f32) (x3 : Vec F S64x256 .f32) (x4 : Vec F S1x256 .f32) : FVec F S512x64 .f32 :=
  k2_pay87 (v0 x0 x1 x2 x3 x4) (v1 x0 x1 x2 x3 x4) (v3 x0 x1 x2 x3 x4) (v496 x0 x1 x2 x3 x4) (v498 x0 x1 x2 x3 x4) (v511 x0 x1 x2 x3 x4) (constant S512x256 .f32 0x00000000#32) (View.ld x0 rX17) (View.ld x1 rP17)
def v558 (x0 : Vec F S20x512x128 .f32) (x1 : Vec F S512x20 .i32) (x2 : Vec F S64x256 .f32) (x3 : Vec F S64x256 .f32) (x4 : Vec F S1x256 .f32) : FVec F S512x64 .f32 :=
  k2_pay88 (v0 x0 x1 x2 x3 x4) (v1 x0 x1 x2 x3 x4) (v3 x0 x1 x2 x3 x4) (v496 x0 x1 x2 x3 x4) (v498 x0 x1 x2 x3 x4) (v511 x0 x1 x2 x3 x4) (constant S512x256 .f32 0x00000000#32) (View.ld x0 rX17) (View.ld x1 rP17)
def v589 (x0 : Vec F S20x512x128 .f32) (x1 : Vec F S512x20 .i32) (x2 : Vec F S64x256 .f32) (x3 : Vec F S64x256 .f32) (x4 : Vec F S1x256 .f32) : FVec F S512x64 .f32 :=
  k2_pay92 (v0 x0 x1 x2 x3 x4) (v1 x0 x1 x2 x3 x4) (v3 x0 x1 x2 x3 x4) (v555 x0 x1 x2 x3 x4) (v558 x0 x1 x2 x3 x4) (View.ld x0 rX18) (View.ld x1 rP18)
def v591 (x0 : Vec F S20x512x128 .f32) (x1 : Vec F S512x20 .i32) (x2 : Vec F S64x256 .f32) (x3 : Vec F S64x256 .f32) (x4 : Vec F S1x256 .f32) : FVec F S512x64 .f32 :=
  k2_pay93 (v0 x0 x1 x2 x3 x4) (v1 x0 x1 x2 x3 x4) (v3 x0 x1 x2 x3 x4) (v555 x0 x1 x2 x3 x4) (v558 x0 x1 x2 x3 x4) (View.ld x0 rX18) (View.ld x1 rP18)
def v596 (x0 : Vec F S20x512x128 .f32) (x1 : Vec F S512x20 .i32) (x2 : Vec F S64x256 .f32) (x3 : Vec F S64x256 .f32) (x4 : Vec F S1x256 .f32) : FVec F S512x128 .f32 :=
  k2_pay95 (View.ld x0 rX19)
/-- `%597`: step 19's selector words, as loaded. -/
def v597 (x0 : Vec F S20x512x128 .f32) (x1 : Vec F S512x20 .i32) (x2 : Vec F S64x256 .f32) (x3 : Vec F S64x256 .f32) (x4 : Vec F S1x256 .f32) : Vec F S512x1 .i32 := View.ld x1 rP19

end Lstm

open Lstm

/-! ## What the body leaves in each output window's buffer -/

/-- The hidden-state output's buffer after the body, from the input blocks: its twenty slab stores as pieces, last
    first — slab `t` holds step `t`'s hidden state. -/
def out2_5 (x0 : Vec F S20x512x128 .f32) (x1 : Vec F S512x20 .i32) (x2 : Vec F S64x256 .f32) (x3 : Vec F S64x256 .f32) (x4 : Vec F S1x256 .f32) : Vec F S20x512x64 .f32 :=
  View.canon [
    ⟨rO19, k2_pay4 (v0 x0 x1 x2 x3 x4) (v1 x0 x1 x2 x3 x4) (v3 x0 x1 x2 x3 x4) (v589 x0 x1 x2 x3 x4) (v591 x0 x1 x2 x3 x4) (v596 x0 x1 x2 x3 x4) (v597 x0 x1 x2 x3 x4)⟩,
    ⟨rO18, k2_pay94 (v0 x0 x1 x2 x3 x4) (v1 x0 x1 x2 x3 x4) (v3 x0 x1 x2 x3 x4) (v555 x0 x1 x2 x3 x4) (v558 x0 x1 x2 x3 x4) (View.ld x0 rX18) (View.ld x1 rP18)⟩,
    ⟨rO17, k2_pay90 (v555 x0 x1 x2 x3 x4) (v558 x0 x1 x2 x3 x4)⟩,
    ⟨rO16, k2_pay85 (v0 x0 x1 x2 x3 x4) (v1 x0 x1 x2 x3 x4) (v3 x0 x1 x2 x3 x4) (v496 x0 x1 x2 x3 x4) (v498 x0 x1 x2 x3 x4) (v511 x0 x1 x2 x3 x4) (constant S512x256 .f32 0x00000000#32)⟩,
    ⟨rO15, k2_pay80 (v0 x0 x1 x2 x3 x4) (v1 x0 x1 x2 x3 x4) (v3 x0 x1 x2 x3 x4) (v465 x0 x1 x2 x3 x4) (v467 x0 x1 x2 x3 x4) (View.ld x0 rX15) (View.ld x1 rP15)⟩,
    ⟨rO14, k2_pay76 (v0 x0 x1 x2 x3 x4) (v1 x0 x1 x2 x3 x4) (v3 x0 x1 x2 x3 x4) (v403 x0 x1 x2 x3 x4) (v423 x0 x1 x2 x3 x4) (v425 x0 x1 x2 x3 x4) (v426 x0 x1 x2 x3 x4) (View.ld x0 rX14) (View.ld x1 rP14)⟩,
    ⟨rO13, k2_pay72 (v403 x0 x1 x2 x3 x4) (v423 x0 x1 x2 x3 x4) (v425 x0 x1 x2 x3 x4) (v426 x0 x1 x2 x3 x4)⟩,
    ⟨rO12, k2_pay66 (v0 x0 x1 x2 x3 x4) (v1 x0 x1 x2 x3 x4) (v3 x0 x1 x2 x3 x4) (v372 x0 x1 x2 x3 x4) (v374 x0 x1 x2 x3 x4) (v379 x0 x1 x2 x3 x4) (v380 x0 x1 x2 x3 x4) 524288#32⟩,
    ⟨rO11, k2_pay61 (v0 x0 x1 x2 x3 x4) (v1 x0 x1 x2 x3 x4) (v3 x0 x1 x2 x3 x4) (v338 x0 x1 x2 x3 x4) (v341 x0 x1 x2 x3 x4) (v342 x0 x1 x2 x3 x4) (View.ld x0 rX11) (View.ld x1 rP11)⟩,
    ⟨rO10, k2_pay57 (v338 x0 x1 x2 x3 x4) (v342 x0 x1 x2 x3 x4)⟩,
    ⟨rO9, k2_pay51 (v1 x0 x1 x2 x3 x4) (v3 x0 x1 x2 x3 x4) (v279 x0 x1 x2 x3 x4) (v281 x0 x1 x2 x3 x4) (v295 x0 x1 x2 x3 x4)⟩,
    ⟨rO8, k2_pay46 (v0 x0 x1 x2 x3 x4) (v1 x0 x1 x2 x3 x4) (v3 x0 x1 x2 x3 x4) (v248 x0 x1 x2 x3 x4) (v250 x0 x1 x2 x3 x4) (View.ld x0 rX8) (View.ld x1 rP8)⟩,
    ⟨rO7, k2_pay42 (v0 x0 x1 x2 x3 x4) (v1 x0 x1 x2 x3 x4) (v3 x0 x1 x2 x3 x4) (v186 x0 x1 x2 x3 x4) (v206 x0 x1 x2 x3 x4) (v208 x0 x1 x2 x3 x4) (v210 x0 x1 x2 x3 x4) (View.ld x0 rX7) (View.ld x1 rP7)⟩,
    ⟨rO6, k2_pay38 (v186 x0 x1 x2 x3 x4) (v206 x0 x1 x2 x3 x4) (v208 x0 x1 x2 x3 x4) (v210 x0 x1 x2 x3 x4)⟩,
    ⟨rO5, k2_pay32 (v0 x0 x1 x2 x3 x4) (v1 x0 x1 x2 x3 x4) (v3 x0 x1 x2 x3 x4) (v155 x0 x1 x2 x3 x4) (v157 x0 x1 x2 x3 x4) (v162 x0 x1 x2 x3 x4) (v163 x0 x1 x2 x3 x4) k2_pay28⟩,
    ⟨rO4, k2_pay26 (v0 x0 x1 x2 x3 x4) (v1 x0 x1 x2 x3 x4) (v3 x0 x1 x2 x3 x4) (v124 x0 x1 x2 x3 x4) (v126 x0 x1 x2 x3 x4) (View.ld x0 rX4) (View.ld x1 rP4)⟩,
    ⟨rO3, k2_pay22 (v126 x0 x1 x2 x3 x4)⟩,
    ⟨rO2, k2_pay18 (v1 x0 x1 x2 x3 x4) (v3 x0 x1 x2 x3 x4) (v62 x0 x1 x2 x3 x4) (v64 x0 x1 x2 x3 x4) (v78 x0 x1 x2 x3 x4) (constant S512x256 .f32 0x00000000#32)⟩,
    ⟨rO1, k2_pay13 (v0 x0 x1 x2 x3 x4) (v1 x0 x1 x2 x3 x4) (v3 x0 x1 x2 x3 x4) (v31 x0 x1 x2 x3 x4) (v33 x0 x1 x2 x3 x4) (View.ld x0 rX1) (View.ld x1 rP1)⟩,
    ⟨rO0, k2_pay9 (View.ld x2 rW) (View.ld x3 rW) (View.ld x4 rB) (View.ld x0 rX0) (View.ld x1 rP0)⟩]

/-- The final hidden state's buffer after the body: its one whole store. -/
def out2_6 (x0 : Vec F S20x512x128 .f32) (x1 : Vec F S512x20 .i32) (x2 : Vec F S64x256 .f32) (x3 : Vec F S64x256 .f32) (x4 : Vec F S1x256 .f32) : Vec F S512x64 .f32 :=
  View.canon [⟨rH, k2_pay3 (v0 x0 x1 x2 x3 x4) (v1 x0 x1 x2 x3 x4) (v3 x0 x1 x2 x3 x4) (v589 x0 x1 x2 x3 x4) (v591 x0 x1 x2 x3 x4) (v596 x0 x1 x2 x3 x4) (v597 x0 x1 x2 x3 x4)⟩]

/-- The final cell state's buffer after the body: its one whole store. -/
def out2_7 (x0 : Vec F S20x512x128 .f32) (x1 : Vec F S512x20 .i32) (x2 : Vec F S64x256 .f32) (x3 : Vec F S64x256 .f32) (x4 : Vec F S1x256 .f32) : Vec F S512x64 .f32 :=
  View.canon [⟨rH, k2_pay2 (v0 x0 x1 x2 x3 x4) (v1 x0 x1 x2 x3 x4) (v3 x0 x1 x2 x3 x4) (v589 x0 x1 x2 x3 x4) (v591 x0 x1 x2 x3 x4) (v596 x0 x1 x2 x3 x4) (v597 x0 x1 x2 x3 x4)⟩]

/-- The twenty slab stores tile the hidden-state buffer (checked by evaluation), so they cover it. -/
theorem cover2_5 (p19 : Vec F S1x512x64 .f32) (p18 : Vec F S1x512x64 .f32) (p17 : Vec F S1x512x64 .f32) (p16 : Vec F S1x512x64 .f32) (p15 : Vec F S1x512x64 .f32) (p14 : Vec F S1x512x64 .f32) (p13 : Vec F S1x512x64 .f32) (p12 : Vec F S1x512x64 .f32) (p11 : Vec F S1x512x64 .f32) (p10 : Vec F S1x512x64 .f32) (p9 : Vec F S1x512x64 .f32) (p8 : Vec F S1x512x64 .f32) (p7 : Vec F S1x512x64 .f32) (p6 : Vec F S1x512x64 .f32) (p5 : Vec F S1x512x64 .f32) (p4 : Vec F S1x512x64 .f32) (p3 : Vec F S1x512x64 .f32) (p2 : Vec F S1x512x64 .f32) (p1 : Vec F S1x512x64 .f32) (p0 : Vec F S1x512x64 .f32) (y : S20x512x64.Idx) :
    ∃ pc ∈ ([⟨rO19, p19⟩, ⟨rO18, p18⟩, ⟨rO17, p17⟩, ⟨rO16, p16⟩, ⟨rO15, p15⟩, ⟨rO14, p14⟩, ⟨rO13, p13⟩, ⟨rO12, p12⟩, ⟨rO11, p11⟩, ⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S20x512x64 .f32)), y ∈ pc.1.set :=
  View.cover_of_tiled [⟨rO19, p19⟩, ⟨rO18, p18⟩, ⟨rO17, p17⟩, ⟨rO16, p16⟩, ⟨rO15, p15⟩, ⟨rO14, p14⟩, ⟨rO13, p13⟩, ⟨rO12, p12⟩, ⟨rO11, p11⟩, ⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] S1x512x64.size (by rfl) y

/-- A whole store covers a state buffer. -/
theorem cover2_6 (p0 : Vec F S512x64 .f32) (y : S512x64.Idx) :
    ∃ pc ∈ ([⟨rH, p0⟩] : List (View.Piece (Elt F) S512x64 .f32)), y ∈ pc.1.set :=
  View.cover_of_tiled [⟨rH, p0⟩] S512x64.size (by rfl) y

/-! ## The body's triple -/

set_option maxHeartbeats 4000000 in
/-- The body on whole staging memrefs, the inputs' at read contents `xW` and the outputs' at anything, runs to the
    continuation holding the inputs' as they were and each output's at `out2_W` of the inputs': the printed functions
    are their skeletons of memory operations, run through every part call; each output's stores cover its buffer, so
    what it reads afterwards is the canonical contents of its pieces, and the values the run threads are `Lstm.vN` by
    unfolding. -/
theorem sound_kernel2 (c : Dev nD) (E : Set ℕ) (i : grid2.Coords) (arg1 : Memref sig .tc .vmem S20x512x128 .f32) (harg1 : arg1.IsWhole) (arg2 : Memref sig .tc .vmem S512x20 .i32) (harg2 : arg2.IsWhole) (arg3 : Memref sig .tc .vmem S64x256 .f32) (harg3 : arg3.IsWhole) (arg4 : Memref sig .tc .vmem S64x256 .f32) (harg4 : arg4.IsWhole) (arg5 : Memref sig .tc .vmem S1x256 .f32) (harg5 : arg5.IsWhole) (arg6 : Memref sig .tc .vmem S20x512x64 .f32) (harg6 : arg6.IsWhole) (arg7 : Memref sig .tc .vmem S512x64 .f32) (harg7 : arg7.IsWhole) (arg8 : Memref sig .tc .vmem S512x64 .f32) (harg8 : arg8.IsWhole) (x0 : Vec F S20x512x128 .f32) (x1 : Vec F S512x20 .i32) (x2 : Vec F S64x256 .f32) (x3 : Vec F S64x256 .f32) (x4 : Vec F S1x256 .f32) (Kp : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out2_5 x0 x1 x2 x3 x4) ∗ owns (c : Thread nD τ) arg7 fullShare (out2_6 x0 x1 x2 x3 x4) ∗ owns (c : Thread nD τ) arg8 fullShare (out2_7 x0 x1 x2 x3 x4)) -∗ Kp ⟨⟩))
      ⊢ wp frame (wpE (defs₀ (F := F)) 𝒱₀ (c : Thread nD τ) none) E (cc2_body i arg1 harg1 arg2 harg2 arg3 harg3 arg4 harg4 arg5 harg5 arg6 harg6 arg7 harg7 arg8 harg8) Kp := by
  rw [cc2_body_eq_skeleton]; unfold cc2_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _ _ _ _ _ _ _ _ _ _ _ _ _ _ _ _ _ _ _ _)
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_6 _)

end Cert.KernelIdeal.Hand

end
-- ==== Proof.IdxRange.lean ====
/-
  The gather's indices stay inside the packed table. The second host stretch lays the index argument x : i32[4096, 20]
  out time-major and flat (entry t * 4096 + b is x[b, t]) and remaps every word w to
  w - (if w ≥ 524288 then 524288 else 0) + (if w ≥ 999424 then 64960 else 0), signed comparisons and wrapping 32-bit
  arithmetic. For 0 ≤ w ≤ 999999 the result is below 540672: w itself below 524288; w - 524288 ≤ 475135 from there
  up to 999423; w - 459328, between 540096 and 540671, from 999424 on. The precondition's last conjunct says every
  entry of x lies in [0, 999999].
-/
import proofs.«206902_g37847251812778_fold_wed_m_929_15_alg».proof.Proof.Regs
import Idealize.ShloMosaic.Lib.WordArith
import Idealize.ShloMosaic.Lib.ValueLayout
import Idealize.ShloMosaic.Lib.IdealHost
import Idealize.ShloMosaic.Lib.ReduceAll
import proofs.«206902_g37847251812778_fold_wed_m_929_15_alg».proof.Defs
import proofs.«206902_g37847251812778_fold_wed_m_929_15_alg».proof.Proof.Gen.Pre_input_domain

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx

variable {F : FTy → Type} [FloatOps F]

/-- The remap on one word. -/
def remap (x : BitVec 32) : BitVec 32 :=
  IntOp.addi (IntOp.subi x (Scalar.select (IntOp.cmpi .sge x 524288#32) 524288#32 0#32))
    (Scalar.select (IntOp.cmpi .sge x 999424#32) 64960#32 0#32)

theorem remap_lt (x : BitVec 32) (h0 : 0 ≤ x.toInt) (h1 : x.toInt ≤ 999999) : (remap x).toNat < 540672 := by
  have e := BitVec.toInt_eq_toNat_cond x
  have hx := x.isLt
  have hlt : x.toNat ≤ 999999 := by omega
  have hxi : x.toInt = (x.toNat : Int) := by omega
  have k1 : (524288#32 : BitVec 32).toInt = 524288 := by decide
  have k2 : (999424#32 : BitVec 32).toInt = 999424 := by decide
  unfold remap
  by_cases c1 : (524288 : Int) ≤ x.toInt
  · have s1 : IntOp.cmpi .sge x 524288#32 = 1#1 := IntOp.cmpi_sge.2 (by rw [k1]; exact c1)
    rw [s1, select_one]
    by_cases c2 : (999424 : Int) ≤ x.toInt
    · have s2 : IntOp.cmpi .sge x 999424#32 = 1#1 := IntOp.cmpi_sge.2 (by rw [k2]; exact c2)
      rw [s2, select_one]
      show (x - 524288#32 + 64960#32).toNat < 540672
      rw [BitVec.toNat_add, BitVec.toNat_sub]; simp only [BitVec.toNat_ofNat]; omega
    · have s2 : IntOp.cmpi .sge x 999424#32 = 0#1 :=
        eq_zero_of_ne_one fun h => c2 (by have := IntOp.cmpi_sge.1 h; rwa [k2] at this)
      rw [s2, select_zero]
      show (x - 524288#32 + 0#32).toNat < 540672
      rw [BitVec.toNat_add, BitVec.toNat_sub]; simp only [BitVec.toNat_ofNat]; omega
  · have s1 : IntOp.cmpi .sge x 524288#32 = 0#1 :=
      eq_zero_of_ne_one fun h => c1 (by have := IntOp.cmpi_sge.1 h; rwa [k1] at this)
    have c2 : ¬ (999424 : Int) ≤ x.toInt := by omega
    have s2 : IntOp.cmpi .sge x 999424#32 = 0#1 :=
      eq_zero_of_ne_one fun h => c2 (by have := IntOp.cmpi_sge.1 h; rwa [k2] at this)
    rw [s1, s2, select_zero, select_zero]
    show (x - 0#32 + 0#32).toNat < 540672
    rw [BitVec.toNat_add, BitVec.toNat_sub]; simp only [BitVec.toNat_ofNat]; omega

variable (m : (ℓ : Loc nD τ sig) → Buf (Elt F) ℓ)

/-- The indices as the second host stretch reads them: the argument itself. -/
theorem W2_arg0 (c : Dev nD) : W2 m c (Proc.devRef .tc main_arg0) = m ((c.tc : Thread nD τ).loc main_arg0) := by
  unfold W2
  rw [Function.update_of_ne (by decide)]
  show StableHlo.after opsA (W0 m c) (Proc.devRef .tc main_arg0) = _
  after_results

/-- The remapped index array read at a position: the remap of some entry of the index argument. -/
theorem W3_v14_apply (c : Dev nD) (j : S81920.Idx) :
    ∃ i : S4096x20.Idx, (W3 m c (Proc.devRef .tc main_v14) : IVec S81920 32) j = remap (m ((c.tc : Thread nD τ).loc main_arg0) i) := by
  show ∃ i : S4096x20.Idx, StableHlo.after opsB (W2 m c) (Proc.devRef .tc main_v14) j = _
  after_results
  dsimp only [StableHlo.TRef.toBuf, StableHlo.TRef.ofBuf, StableHlo.TRef.of, cast_eq, id_eq]
  rw [W2_arg0]
  simp only [addi, subi, select, cmpi, broadcastInDim_scalar_apply, constantI_apply]
  exact ⟨_, rfl⟩

theorem idx_in_range
    (hx : ∀ (c : Dev nD) (i : S4096x20.Idx), 0 ≤ (m ((c.tc : Thread nD τ).loc main_arg0) i).toInt ∧ (m ((c.tc : Thread nD τ).loc main_arg0) i).toInt ≤ 999999)
    (c : Dev nD) (j : S81920.Idx) : (W3 m c (Proc.devRef .tc main_v14) j).toNat < 540672 := by
  obtain ⟨i, e⟩ := W3_v14_apply m c j
  show ((W3 m c (Proc.devRef .tc main_v14) : IVec S81920 32) j).toNat < 540672
  rw [e]
  exact remap_lt _ (hx c i).1 (hx c i).2

/-! ## The remapped index array at a position, explicitly -/

/-- The time-major flat layout of the index argument: position t * 4096 + b holds x[b, t]. -/
theorem idxTm_apply (x : IVec S4096x20 32) (t : Fin 20) (b : Fin 4096) (h : t.val * 4096 + b.val < 81920) :
    shapeCast S81920 (transpose S20x4096 [1, 0] x transposes_S4096x20_S20x4096_1_0) shapeCasts_S20x4096_S81920
      (ix1 ⟨t.val * 4096 + b.val, h⟩) = x (ix2 b t) := by
  rw [shapeCast_apply _ _ _ (ix2 t b) (by rw [Shape.rowMajor_val_two, Shape.rowMajor_val_one]; rfl)]
  exact transpose_ix2_apply _ _ t b

/-- The remapped index array at position t * 4096 + b: the remap of x[b, t]. -/
theorem W3_v14_at (c : Dev nD) (t : Fin 20) (b : Fin 4096) (h : t.val * 4096 + b.val < 81920) :
    (W3 m c (Proc.devRef .tc main_v14) : IVec S81920 32) (ix1 ⟨t.val * 4096 + b.val, h⟩)
      = remap (m ((c.tc : Thread nD τ).loc main_arg0) (ix2 b t)) := by
  show StableHlo.after opsB (W2 m c) (Proc.devRef .tc main_v14) _ = _
  after_results
  dsimp only [StableHlo.TRef.toBuf, StableHlo.TRef.ofBuf, StableHlo.TRef.of, cast_eq, id_eq]
  rw [W2_arg0]
  show remap (shapeCast S81920 (transpose S20x4096 [1, 0] (m ((c.tc : Thread nD τ).loc main_arg0)) transposes_S4096x20_S20x4096_1_0)
    shapeCasts_S20x4096_S81920 (ix1 ⟨t.val * 4096 + b.val, h⟩)) = _
  rw [idxTm_apply]

/-- The remapped index array at any position j: the remap of x[j mod 4096, j div 4096]. -/
theorem W3_v14_idx (c : Dev nD) (j : S81920.Idx) (hb : (j 0).val % 4096 < 4096) (ht : (j 0).val / 4096 < 20) :
    (W3 m c (Proc.devRef .tc main_v14) : IVec S81920 32) j
      = remap (m ((c.tc : Thread nD τ).loc main_arg0) (ix2 (⟨(j 0).val % 4096, hb⟩ : Fin 4096) (⟨(j 0).val / 4096, ht⟩ : Fin 20))) := by
  have hj : (j 0).val < 81920 := (j 0).isLt
  have e : j = ix1 (⟨(⟨(j 0).val / 4096, ht⟩ : Fin 20).val * 4096 + (⟨(j 0).val % 4096, hb⟩ : Fin 4096).val, by
      show (j 0).val / 4096 * 4096 + (j 0).val % 4096 < 81920; omega⟩ : Fin 81920) := by
    refine (eq_ix1 j).trans (congrArg ix1 (Fin.ext ?_))
    show (j 0).val = (j 0).val / 4096 * 4096 + (j 0).val % 4096
    omega
  exact (congrArg (W3 m c (Proc.devRef .tc main_v14) : IVec S81920 32) e).trans
    (W3_v14_at m c ⟨(j 0).val / 4096, ht⟩ ⟨(j 0).val % 4096, hb⟩ _)

/-! ## The precondition's last conjunct, decoded -/

/-- Every entry of the index argument lies in [0, 999999], signed: the last conjunct of the precondition, an
    all-reduction of the two comparisons' conjunction that came out 1. -/
theorem pre_range_fn (x : IVec Cert.Pre_input_domain.S4096x20 32) (E : FVec F Cert.Pre_input_domain.S1000000x64 .f32)
    (W U : FVec F Cert.Pre_input_domain.S64x256 .f32) (b : FVec F Cert.Pre_input_domain.S256 .f32)
    (h : Cert.Pre_input_domain.fn (F := F) x E W U b = fun _ => 1#1) (i : Cert.Pre_input_domain.S4096x20.Idx) :
    0 ≤ (x i).toInt ∧ (x i).toInt ≤ 999999 := by
  haveI : Subsingleton Cert.Pre_input_domain.S_.Idx := ⟨fun a b => funext fun d => d.elim0⟩
  have h0 : Cert.Pre_input_domain.fn (F := F) x E W U b ix0 = 1#1 := congrFun h ix0
  dsimp only [Cert.Pre_input_domain.fn, Cert.Pre_input_domain.fn_part1, andi] at h0
  have h24 := (IntOp.andi_eq_one.1 h0).2
  have hi := Host.reduce_andi_all _ _ _ _ _ h24 i
  obtain ⟨hge, hle⟩ := IntOp.andi_eq_one.1 hi
  exact ⟨IntOp.cmpi_sge.1 hge, IntOp.cmpi_sle.1 hle⟩

/-- The same of the launch memory, on every device, from the precondition as the claim states it (at any float
    instance). -/
theorem pre_range (m : (ℓ : Loc nD τ sig) → Buf (Elt F) ℓ)
    (hpre : ∀ c : Dev nD, Cert.Pre_input_domain.fn (F := F) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4)) = fun _ => 1#1)
    (c : Dev nD) (i : S4096x20.Idx) :
    0 ≤ (m ((c.tc : Thread nD τ).loc main_arg0) i).toInt ∧ (m ((c.tc : Thread nD τ).loc main_arg0) i).toInt ≤ 999999 :=
  pre_range_fn _ _ _ _ _ (hpre c) i

/-- At the ideal floats: from the certificate's precondition. -/
theorem pre_range_ideal (m : (ℓ : Loc nD τ sig) → Buf (Elt Ideal) ℓ) (hpre : Cert.Pre_KernelIdeal m)
    (c : Dev nD) (i : S4096x20.Idx) :
    0 ≤ (m ((c.tc : Thread nD τ).loc main_arg0) i).toInt ∧ (m ((c.tc : Thread nD τ).loc main_arg0) i).toInt ≤ 999999 :=
  pre_range m hpre c i

/-- The gather's indices are rows of the packed table, under the certificate's precondition. -/
theorem idx_in_range_of_pre (m : (ℓ : Loc nD τ sig) → Buf (Elt Ideal) ℓ) (hpre : Cert.Pre_KernelIdeal m)
    (c : Dev nD) (j : S81920.Idx) : (W3 m c (Proc.devRef .tc main_v14) j).toNat < 540672 :=
  idx_in_range m (pre_range_ideal m hpre) c j

end Cert.KernelIdeal.Hand
end
-- ==== Proof.Chunks.lean ====
/-
  How the index array and the gathered array are cut into the tiles' pieces. Tile i of SparseCore c owns rows
  [5120·i + 2560·c, +2560) of the 81920 indices, and, of the gathered array's 81920 rows of 128 columns, the eight
  chunks of rows [5120·i + 2560·c + 320·r, +320), r = 0..7, all columns. The 32 index pieces partition the index
  array; the 256 chunks partition the gathered array. So a points-to assertion over a whole array is the product of
  the pieces'.
-/
import proofs.«206902_g37847251812778_fold_wed_m_929_15_alg».proof.Proof.TileObl

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The index array -/

omit [FloatOps F] in
/-- The set of tile `L`'s index piece is its rectangle's. -/
theorem set_iRowK (L : grid1.Coords) :
    (iRowK L).view.set = (Rect.unit (s := S81920) (k1_off1 L) S2560.size (k1_off1_inb L)).set := by
  show ((View.whole (main_v14_scv : Ref sig .scVector)).slice _).set = _
  rw [View.set_slice]; exact Finset.map_refl

omit [FloatOps F] in
/-- Tile i of SparseCore c owns the indices at rows [5120·i + 2560·c, +2560). -/
theorem mem_iSet (c : Fin 2) (i : Fin 16) (x : S81920.Idx) :
    x ∈ (iRowK (coordsP c i)).view.set
      ↔ 5120 * i.val + 2560 * c.val ≤ (x 0).val ∧ (x 0).val < 5120 * i.val + 2560 * c.val + 2560 := by
  rw [set_iRowK, Rect.mem_set_unit, k1_off1_eq]
  exact Fin.forall_fin_one

/-- The index piece of tile `p.2` of SparseCore `p.1`. -/
abbrev iSet (p : Fin 2 × Fin 16) : Finset S81920.Idx := (iRowK (coordsP p.1 p.2)).view.set

omit [FloatOps F] in
/-- Different tiles' index pieces are disjoint: their row intervals are. -/
theorem iSet_disjoint : ∀ p ∈ (Finset.univ : Finset (Fin 2 × Fin 16)), ∀ p' ∈ (Finset.univ : Finset (Fin 2 × Fin 16)),
    p ≠ p' → Disjoint (iSet p) (iSet p') := by
  rintro ⟨c, i⟩ - ⟨c', i'⟩ - h
  rw [Finset.disjoint_left]
  intro x hx hx'
  have h1 := (mem_iSet c i x).mp hx
  have h2 := (mem_iSet c' i' x).mp hx'
  have hc := c.isLt
  have hc' := c'.isLt
  have e : i.val = i'.val ∧ c.val = c'.val := by omega
  exact h (Prod.ext (Fin.ext e.2) (Fin.ext e.1))

omit [FloatOps F] in
/-- The index pieces cover the index array: row x lies in the piece of tile x / 5120 of SparseCore (x mod 5120) / 2560. -/
theorem iSet_cover : (Finset.univ : Finset (Fin 2 × Fin 16)).biUnion iSet = Finset.univ := by
  ext x
  simp only [Finset.mem_biUnion, Finset.mem_univ, true_and, iff_true]
  have hx : (x 0).val < 81920 := (x 0).isLt
  refine ⟨(⟨(x 0).val % 5120 / 2560, by omega⟩, ⟨(x 0).val / 5120, by omega⟩), (mem_iSet _ _ x).mpr ?_⟩
  show 5120 * ((x 0).val / 5120) + 2560 * ((x 0).val % 5120 / 2560) ≤ (x 0).val
    ∧ (x 0).val < 5120 * ((x 0).val / 5120) + 2560 * ((x 0).val % 5120 / 2560) + 2560
  omega

omit [FloatOps F] in
/-- The index array at contents `f` is the product of the thirty-two tiles' pieces at `f`. -/
theorem idx_split (d : Dev nD) (f : Buf (Elt F) (iLoc d)) :
    (iLoc d ↦{fullShare} f : sProp 𝕄)
      = bigSep Finset.univ fun c : Fin 2 => bigSep Finset.univ fun i : Fin 16 =>
          (iLoc d ↦[(iRowK (coordsP c i)).view.set]{fullShare} f : sProp 𝕄) :=
  calc (iLoc d ↦{fullShare} f : sProp 𝕄)
      = (iLoc d ↦[(Finset.univ : Finset (Fin 2 × Fin 16)).biUnion iSet]{fullShare} f) := by rw [iSet_cover]
    _ = bigSep Finset.univ fun p : Fin 2 × Fin 16 => (iLoc d ↦[iSet p]{fullShare} f : sProp 𝕄) :=
        pointsTo_biUnion Finset.univ (ℓ := iLoc d) iSet iSet_disjoint
    _ = _ := bigSep_univ_prod _

/-! ## The gathered array -/

/-- Chunk `r` of tile `L`'s rows of the gathered array, as a rectangle. -/
abbrev oRect (L : grid1.Coords) (r : Fin 8) : Rect S81920x128 :=
  Rect.unit (s := S81920x128) (k1_off2 L (BitVec.ofNat 32 (320 * r.val))) S320x128.size (k1_off2_inb L r)

omit [FloatOps F] in
/-- The set of a slice of the whole gathered array is the rectangle's. -/
theorem set_oSlice (r : Rect S81920x128) (h) : ((oV).slice r h).view.set = r.set := by
  show ((View.whole (main_v15_scv : Ref sig .scVector)).slice _).set = _
  rw [View.set_slice]; exact Finset.map_refl

omit [FloatOps F] in
theorem set_oCh0 (L : grid1.Coords) : (oCh0 L).view.set = (oRect L 0).set := set_oSlice _ _
omit [FloatOps F] in
theorem set_oCh1 (L : grid1.Coords) : (oCh1 L).view.set = (oRect L 1).set := set_oSlice _ _
omit [FloatOps F] in
theorem set_oCh2 (L : grid1.Coords) : (oCh2 L).view.set = (oRect L 2).set := set_oSlice _ _
omit [FloatOps F] in
theorem set_oCh3 (L : grid1.Coords) : (oCh3 L).view.set = (oRect L 3).set := set_oSlice _ _
omit [FloatOps F] in
theorem set_oCh4 (L : grid1.Coords) : (oCh4 L).view.set = (oRect L 4).set := set_oSlice _ _
omit [FloatOps F] in
theorem set_oCh5 (L : grid1.Coords) : (oCh5 L).view.set = (oRect L 5).set := set_oSlice _ _
omit [FloatOps F] in
theorem set_oCh6 (L : grid1.Coords) : (oCh6 L).view.set = (oRect L 6).set := set_oSlice _ _
omit [FloatOps F] in
theorem set_oCh7 (L : grid1.Coords) : (oCh7 L).view.set = (oRect L 7).set := set_oSlice _ _

omit [FloatOps F] in
/-- Chunk r of tile i of SparseCore c is rows [5120·i + 2560·c + 320·r, +320), all columns. -/
theorem mem_oRect (c : Fin 2) (i : Fin 16) (r : Fin 8) (x : S81920x128.Idx) :
    x ∈ (oRect (coordsP c i) r).set
      ↔ 5120 * i.val + 2560 * c.val + 320 * r.val ≤ (x 0).val ∧ (x 0).val < 5120 * i.val + 2560 * c.val + 320 * r.val + 320 := by
  rw [Rect.mem_set_unit, k1_off2_eq, Fin.forall_fin_two]
  have h1 : (x 1).val < 128 := (x 1).isLt
  constructor
  · intro h; exact h.1
  · intro h; exact ⟨h, Nat.zero_le _, by show (x 1).val < 0 + 128; omega⟩

/-- Chunk `p.2.2` of tile `p.2.1` of SparseCore `p.1`. -/
abbrev oSet (p : Fin 2 × Fin 16 × Fin 8) : Finset S81920x128.Idx := (oRect (coordsP p.1 p.2.1) p.2.2).set

omit [FloatOps F] in
/-- Different chunks are disjoint: their row intervals are. -/
theorem oSet_disjoint : ∀ p ∈ (Finset.univ : Finset (Fin 2 × Fin 16 × Fin 8)), ∀ p' ∈ (Finset.univ : Finset (Fin 2 × Fin 16 × Fin 8)),
    p ≠ p' → Disjoint (oSet p) (oSet p') := by
  rintro ⟨c, i, r⟩ - ⟨c', i', r'⟩ - h
  rw [Finset.disjoint_left]
  intro x hx hx'
  have h1 := (mem_oRect c i r x).mp hx
  have h2 := (mem_oRect c' i' r' x).mp hx'
  have hc := c.isLt
  have hc' := c'.isLt
  have hr := r.isLt
  have hr' := r'.isLt
  have e : i.val = i'.val ∧ c.val = c'.val ∧ r.val = r'.val := by omega
  exact h (Prod.ext (Fin.ext e.2.1) (Prod.ext (Fin.ext e.1) (Fin.ext e.2.2)))

omit [FloatOps F] in
/-- The chunks cover the gathered array: row x lies in chunk (x mod 2560) / 320 of tile x / 5120 of SparseCore
    (x mod 5120) / 2560. -/
theorem oSet_cover : (Finset.univ : Finset (Fin 2 × Fin 16 × Fin 8)).biUnion oSet = Finset.univ := by
  ext x
  simp only [Finset.mem_biUnion, Finset.mem_univ, true_and, iff_true]
  have hx : (x 0).val < 81920 := (x 0).isLt
  refine ⟨(⟨(x 0).val % 5120 / 2560, by omega⟩, ⟨(x 0).val / 5120, by omega⟩, ⟨(x 0).val % 2560 / 320, by omega⟩),
    (mem_oRect _ _ _ x).mpr ?_⟩
  show 5120 * ((x 0).val / 5120) + 2560 * ((x 0).val % 5120 / 2560) + 320 * ((x 0).val % 2560 / 320) ≤ (x 0).val
    ∧ (x 0).val < 5120 * ((x 0).val / 5120) + 2560 * ((x 0).val % 5120 / 2560) + 320 * ((x 0).val % 2560 / 320) + 320
  omega

omit [FloatOps F] in
/-- The gathered array at contents `f` is the product of the 256 chunks at `f`, grouped by SparseCore, tile, chunk. -/
theorem out_split_big (d : Dev nD) (f : Buf (Elt F) (oLoc d)) :
    (oLoc d ↦{fullShare} f : sProp 𝕄)
      = bigSep Finset.univ fun c : Fin 2 => bigSep Finset.univ fun i : Fin 16 => bigSep Finset.univ fun r : Fin 8 =>
          (oLoc d ↦[(oRect (coordsP c i) r).set]{fullShare} f : sProp 𝕄) :=
  calc (oLoc d ↦{fullShare} f : sProp 𝕄)
      = (oLoc d ↦[(Finset.univ : Finset (Fin 2 × Fin 16 × Fin 8)).biUnion oSet]{fullShare} f) := by rw [oSet_cover]
    _ = bigSep Finset.univ fun p : Fin 2 × Fin 16 × Fin 8 => (oLoc d ↦[oSet p]{fullShare} f : sProp 𝕄) :=
        pointsTo_biUnion Finset.univ (ℓ := oLoc d) oSet oSet_disjoint
    _ = bigSep Finset.univ fun c : Fin 2 => bigSep Finset.univ fun q : Fin 16 × Fin 8 =>
          (oLoc d ↦[oSet (c, q)]{fullShare} f : sProp 𝕄) := bigSep_univ_prod _
    _ = _ := bigSep_congr fun c _ => bigSep_univ_prod (fun q : Fin 16 × Fin 8 => (oLoc d ↦[oSet (c, q)]{fullShare} f : sProp 𝕄))

/-- A tile's eight chunks, each at some contents, as a product over the chunk number. -/
theorem outChunksT_eq_big (d : Dev nD) (L : grid1.Coords) :
    (outChunksT d L : sProp 𝕄)
      = bigSep Finset.univ fun r : Fin 8 => iprop(∃ f : Buf (Elt F) (oLoc d), oLoc d ↦[(oRect L r).set]{fullShare} f) := by
  rw [bigSep_univ_eq_bigSepL [0, 1, 2, 3, 4, 5, 6, 7] (by decide) (by decide)]
  unfold outChunksT
  rw [set_oCh0, set_oCh1, set_oCh2, set_oCh3, set_oCh4, set_oCh5, set_oCh6, set_oCh7]
  rfl

omit [FloatOps F] in
/-- A piece of the gathered array at contents `f` is that piece at some contents. -/
theorem oPts_exists (d : Dev nD) (I : Finset S81920x128.Idx) (f : Buf (Elt F) (oLoc d)) :
    (oLoc d ↦[I]{fullShare} f : sProp 𝕄) ⊢ iprop(∃ f : Buf (Elt F) (oLoc d), oLoc d ↦[I]{fullShare} f) := by
  iintro H; iexists f; iexact H

/-- The gathered array at contents `f` gives every tile its eight chunks, each at some contents. -/
theorem out_split (d : Dev nD) (f : Buf (Elt F) (oLoc d)) :
    (oLoc d ↦{fullShare} f : sProp 𝕄)
      ⊢ bigSep Finset.univ fun c : Fin 2 => bigSep Finset.univ fun i : Fin 16 => outChunksT (F := F) d (coordsP c i) := by
  rw [out_split_big]
  refine bigSep_mono fun c _ => bigSep_mono fun i _ => ?_
  rw [outChunksT_eq_big]
  exact bigSep_mono fun r _ => oPts_exists d _ f

/-- All the tiles' chunks, each at some contents, as one product over the 256 chunks. -/
theorem outChunksT_all (d : Dev nD) :
    (bigSep Finset.univ fun c : Fin 2 => bigSep Finset.univ fun i : Fin 16 => outChunksT (F := F) d (coordsP c i))
      = bigSep Finset.univ fun p : Fin 2 × Fin 16 × Fin 8 =>
          (iprop(∃ f : Buf (Elt F) (oLoc d), oLoc d ↦[oSet p]{fullShare} f) : sProp 𝕄) :=
  Eq.symm <|
  calc (bigSep Finset.univ fun p : Fin 2 × Fin 16 × Fin 8 =>
          (iprop(∃ f : Buf (Elt F) (oLoc d), oLoc d ↦[oSet p]{fullShare} f) : sProp 𝕄))
      = bigSep Finset.univ fun c : Fin 2 => bigSep Finset.univ fun q : Fin 16 × Fin 8 =>
          (iprop(∃ f : Buf (Elt F) (oLoc d), oLoc d ↦[oSet (c, q)]{fullShare} f) : sProp 𝕄) := bigSep_univ_prod _
    _ = bigSep Finset.univ fun c : Fin 2 => bigSep Finset.univ fun i : Fin 16 => bigSep Finset.univ fun r : Fin 8 =>
          (iprop(∃ f : Buf (Elt F) (oLoc d), oLoc d ↦[oSet (c, i, r)]{fullShare} f) : sProp 𝕄) :=
        bigSep_congr fun c _ => bigSep_univ_prod
          (fun q : Fin 16 × Fin 8 => (iprop(∃ f : Buf (Elt F) (oLoc d), oLoc d ↦[oSet (c, q)]{fullShare} f) : sProp 𝕄))
    _ = _ := bigSep_congr fun c _ => bigSep_congr fun i _ => (outChunksT_eq_big d (coordsP c i)).symm

/-- All the tiles' chunks, each at some contents, join to the gathered array at some contents. -/
theorem out_join (d : Dev nD) :
    (bigSep Finset.univ fun c : Fin 2 => bigSep Finset.univ fun i : Fin 16 => outChunksT (F := F) d (coordsP c i))
      ⊢ (iprop(∃ f, oLoc d ↦{fullShare} f) : sProp 𝕄) := by
  rw [outChunksT_all]
  refine (bigSep_exists_pi Finset.univ
    (fun (p : Fin 2 × Fin 16 × Fin 8) (f : Buf (Elt F) (oLoc d)) => (oLoc d ↦[oSet p]{fullShare} f : sProp 𝕄))).trans ?_
  iintro ⟨%fs, H⟩
  ihave H' := (pointsTo_biUnion_join Finset.univ oSet fs (fs (0, 0, 0)) oSet_disjoint) $$ H
  icases H' with ⟨%g, -, Hg⟩
  rw [oSet_cover]
  iexists g; iexact Hg

/-! ## The tiles' chunks at one common contents -/

omit [FloatOps F] in
/-- A tile's eight chunks at one contents, as a product over the chunk number. -/
theorem outChunksAt_eq_big (d : Dev nD) (L : grid1.Coords) (f : Buf (Elt F) (oLoc d)) :
    (outChunksAt d L f : sProp 𝕄) = bigSep Finset.univ fun r : Fin 8 => (oLoc d ↦[(oRect L r).set]{fullShare} f : sProp 𝕄) := by
  rw [bigSep_univ_eq_bigSepL [0, 1, 2, 3, 4, 5, 6, 7] (by decide) (by decide)]
  unfold outChunksAt
  rw [set_oCh0, set_oCh1, set_oCh2, set_oCh3, set_oCh4, set_oCh5, set_oCh6, set_oCh7]
  rfl

omit [FloatOps F] in
/-- The gathered array at contents `f` is the product of the tiles' eight chunks at `f`. -/
theorem out_split_eq (d : Dev nD) (f : Buf (Elt F) (oLoc d)) :
    (oLoc d ↦{fullShare} f : sProp 𝕄)
      = bigSep Finset.univ fun c : Fin 2 => bigSep Finset.univ fun i : Fin 16 => outChunksAt (F := F) d (coordsP c i) f :=
  (out_split_big d f).trans (bigSep_congr fun c _ => bigSep_congr fun i _ => (outChunksAt_eq_big d (coordsP c i) f).symm)

omit [FloatOps F] in
/-- The tile's chunks at one contents are, in particular, its chunks each at some contents. -/
theorem outChunksAt_T (d : Dev nD) (L : grid1.Coords) (f : Buf (Elt F) (oLoc d)) :
    (outChunksAt d L f : sProp 𝕄) ⊢ outChunksT d L := by
  unfold outChunksAt outChunksT
  iintro ⟨H0, H1, H2, H3, H4, H5, H6, H7⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7

end Cert.KernelIdeal.Hand

end
-- ==== Proof.ChunkValue.lean ====
/-
  What a tile's chunk of the gathered array holds after its gather and copy-out.

  Chunk `r` of tile (c, s) (worker w = 2·s + c) is rows [2560·w + 320·r, +320) of the gathered array. The copy-out
  writes the whole row scratch over it; the row scratch was last written, whole, by the indirect gather of the table
  rows that words [320·r, +320) of the index scratch name; and the index scratch holds words [2560·w, +2560) of the
  index array. So element (k, c) of the chunk is the table's element (idx[2560·w + 320·r + k], c) — the specification's
  value at row 2560·w + 320·r + k, column c (the words being in range of the table, the specification's clamp is the
  identity). What the chunk, the row scratch and the index scratch held before, and what the earlier gathers wrote to
  the row scratch, does not matter.

  The proof chases one index through the views; no contents term is unfolded.
-/
import proofs.«206902_g37847251812778_fold_wed_m_929_15_alg».proof.Proof.Tile
import Idealize.ShloMosaic.Lib.SparseCore.Stream

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

/-! ## Indices by their coordinates, contents by what a view reads -/

/-- Two contents that read the same through a view at an index agree at the element under it. -/
theorem apply_emb_eq_of_read_eq {sig : RefSig} {κ : Kind} {sp : Space} {s : Shape} {e : EltTy} {Val : EltTy → Type}
    (v : View sig κ sp s e) {f g : v.ty.Contents Val} {y : s.Idx}
    (h : v.read Val f y = v.read Val g y) : f (v.emb y) = g (v.emb y) := by
  rw [View.read_apply, View.read_apply] at h
  exact (cast_inj _).mp h

/-- A rank-one index is the one with its coordinate. -/
theorem ix1_of_val {n : Nat} (j : (⟨1, ![n]⟩ : Shape).Idx) (p : Fin n) (h : (j 0).val = p.val) : j = ix1 p := by
  rw [eq_ix1 j]; exact congrArg ix1 (Fin.ext h)

/-- A rank-two index is the one with its coordinates. -/
theorem ix2_of_val {n0 n1 : Nat} (j : (⟨2, ![n0, n1]⟩ : Shape).Idx) (p : Fin n0) (q : Fin n1)
    (h0 : (j 0).val = p.val) (h1 : (j 1).val = q.val) : j = ix2 p q := by
  obtain rfl : j 0 = p := Fin.ext h0
  obtain rfl : j 1 = q := Fin.ext h1
  exact eq_ix2 j

/-! ## Reading through the tile's views: the element under the index -/

theorem oChN_read (L : grid1.Coords) (r : Fin 8) (g : (oChN L r).view.ty.Contents (Elt F)) (y : S320x128.Idx) :
    (oChN L r).view.read (Elt F) g y = g ((oChN L r).view.emb y) := rfl
theorem xAllK_read (g : (xAllK).view.ty.Contents (Elt F)) (z : S540672x128.Idx) :
    (xAllK).view.read (Elt F) g z = g ((xAllK).view.emb z) := rfl
theorem sIslN_read (r : Fin 8) (g : (sIslN r).view.ty.Contents (Elt F)) (x : S320.Idx) :
    (sIslN r).view.read (Elt F) g x = g ((sIslN r).view.emb x) := rfl
theorem iRowK_read (L : grid1.Coords) (g : (iRowK L).view.ty.Contents (Elt F)) (x : S2560.Idx) :
    (iRowK L).view.read (Elt F) g x = g ((iRowK L).view.emb x) := rfl

/-! ## Where the tile's views place their indices -/

theorem oChN_emb_val (L : grid1.Coords) (r : Fin 8) (y : S320x128.Idx) (a : Fin 2) :
    (((oChN L r).view.emb y : S81920x128.Idx) a).val = k1_off2 L (BitVec.ofNat 32 (320 * r.val)) a + 1 * (y a).val := rfl
theorem xAllK_emb (z : S540672x128.Idx) : ((xAllK).view.emb z : S540672x128.Idx) = z := by
  funext a; apply Fin.ext
  show (![0, 0] : Fin 2 → Nat) a + 1 * (z a).val = (z a).val
  match a with
  | ⟨0, _⟩ => show 0 + 1 * _ = _; omega
  | ⟨1, _⟩ => show 0 + 1 * _ = _; omega
theorem sIslN_emb_val (r : Fin 8) (x : S320.Idx) :
    (((sIslN r).view.emb x : S2560.Idx) (0 : Fin 1)).val = 320 * r.val + 1 * (x 0).val := rfl
theorem iRowK_emb_val (L : grid1.Coords) (x : S2560.Idx) :
    (((iRowK L).view.emb x : S81920.Idx) (0 : Fin 1)).val = k1_off1 L 0 + 1 * (x 0).val := rfl

/-! ## The chunk's contents -/

/-- After the tile's run, chunk `r` of its rows of the gathered array holds the specification's values: whatever the
    chunk (`fo`), the row scratch (`fsR`) and the index scratch (`fsI`) held before and whatever the earlier gathers
    left in the row scratch (`rest`), the copy-out of the row scratch, gathered whole from the table at the words of
    slice `r` of the index scratch (the tile's words of the index array), agrees on the chunk with
    gathered[n, c] = table[idx[n], c]. -/
theorem chunk_val (d : Dev nD) (L : grid1.Coords) (fi : Buf (Elt F) (iLoc d)) (ft : Buf (Elt F) (xLoc d))
    (hfi : ∀ j, (fi j).toNat < 540672) : ChunkVal d L fi ft := by
  unfold ChunkVal
  intro r fo fsR fsI rest hn hin i hi
  obtain ⟨y, -, rfl⟩ := Finset.mem_map.mp hi
  apply apply_emb_eq_of_read_eq
  -- the chunk holds the copy's payload, which is the row scratch's contents, which is the gather's payload
  refine Eq.trans (Eq.trans (congrArg _ (Rect.emb_whole_apply S320x128 y).symm)
    (View.read_writes_cons_emb (oChN L r).view fo (Rect.whole S320x128) _ [] y)) ?_
  rw [ReadAs.apply_same]
  refine Eq.trans (Eq.trans (congrArg _ (Rect.emb_whole_apply S320x128 y).symm)
    (View.read_writes_cons_emb sR.view fsR (Rect.whole S320x128) _ rest y)) ?_
  refine Eq.trans ?_ (oChN_read L r (gspecOf d fi ft) y).symm
  -- the index scratch holds the tile's words of the index array
  have e : View.write (Elt F) sI.view fsI (ReadAs.same.apply (View.read (Elt F) (iRowK L).view fi)) Finset.univ
      = View.read (Elt F) (iRowK L).view fi := View.write_whole_univ _ _ _
  -- the gather's payload at `y`: the table at the row the scratch's word names, at `y`'s column
  unfold SparseCore.gatherPayload
  rw [xAllK_read, xAllK_emb]
  unfold gspecOf
  generalize hidx : View.read (Elt F) (sIslN r).view
    (View.write (Elt F) sI.view fsI (ReadAs.same.apply (View.read (Elt F) (iRowK L).view fi)) Finset.univ) = idxf at hin ⊢
  rw [e] at hidx
  -- the word at entry `k` of the scratch's slice is the index array's word at the chunk's row `k`
  have hword : ∀ k : Fin 320, idxf (S320.rowMajor.symm (k.cast hn.symm))
      = fi (ix1 ⟨5120 * (L 1).val + 2560 * (L 0).val + 320 * r.val + k.val, by
        have h1 : (L 1).val < 16 := (L 1).isLt
        have h0 : (L 0).val < 2 := (L 0).isLt
        have := r.isLt; omega⟩) := by
    intro k
    have hx : ((S320.rowMajor.symm (k.cast hn.symm)) 0).val = k.val := by
      have h := Shape.rowMajor_val_one (S320.rowMajor.symm (k.cast hn.symm))
      rw [Equiv.apply_symm_apply] at h
      exact h.symm
    rw [← hidx]
    refine Eq.trans (sIslN_read r _ _) (Eq.trans (iRowK_read L fi _) ?_)
    refine congrArg fi (ix1_of_val _ _ ?_)
    refine Eq.trans (iRowK_emb_val L _) ?_
    refine Eq.trans (congrArg (fun t => k1_off1 L 0 + 1 * t) (Eq.trans (sIslN_emb_val r _) (congrArg (fun t => 320 * r.val + 1 * t) hx))) ?_
    rw [congrFun (k1_off1_eq L) 0]
    show 5120 * (L 1).val + 2560 * (L 0).val + 1 * (320 * r.val + 1 * k.val) = 5120 * (L 1).val + 2560 * (L 0).val + 320 * r.val + k.val
    omega
  refine congrArg _ (ix2_of_val _ _ _ ?_ ?_)
  · -- the row: the word's value, which is in range of the table
    rw [rowOfT_val _ (hfi _)]
    refine Eq.trans (congrArg Fin.val (Shape.Gathers.idx_axis gathers_S540672x128_S320x128 (SparseCore.rows idxf hn hin) y)) ?_
    show (idxf (S320.rowMajor.symm ((y 0).cast hn.symm))).toNat = _
    refine Eq.trans (congrArg BitVec.toNat (hword (y 0))) ?_
    refine congrArg (fun j => (fi j).toNat) (congrArg ix1 (Fin.ext ?_))
    refine Eq.trans ?_ (oChN_emb_val L r y 0).symm
    rw [congrFun (k1_off2_eq L r) 0]
    show 5120 * (L 1).val + 2560 * (L 0).val + 320 * r.val + (y 0).val = 5120 * (L 1).val + 2560 * (L 0).val + 320 * r.val + 1 * (y 0).val
    omega
  · -- the column: the chunk's own
    refine Eq.trans (Shape.Gathers.idx_of_ne gathers_S540672x128_S320x128 (SparseCore.rows idxf hn hin) y 1 (by decide)) ?_
    refine Eq.trans ?_ (oChN_emb_val L r y 1).symm
    rw [congrFun (k1_off2_eq L r) 1]
    show (y 1).val = _
    show _ = 0 + 1 * (y 1).val
    omega

end Cert.KernelIdeal.Hand

end
-- ==== Proof.LaunchKI.lean ====
/-
  The launch of the idealized kernel program, assembled: what the launch theorem asks beside @main's run.
  The launch element is the handshakes' rounds at their launch state beside the two TensorCore pipelines' rounds at
  theirs (no transfer counted); split along the product it funds, per device, the ghost state each pipeline's region is
  later entered with. At the end every unscoped buffer is held at the last boundary's contents; read against the final
  memory, the five argument buffers hold what the launch gave them: no host stretch writes one, none is the packed table
  or the gathered array, and the LSTM call's pipeline has three of them (the index array and the two weight matrices) as
  input windows, whose arrays are never written, and the other two not at all.
  Assembled (`run_full`): the launch theorem at the one vector-subcore call — the tiles' obligation, the call's split of
  its payloads, @main's run on the TensorCore, the launch element, the final read-off — gives that every weakly fair
  execution terminates, nothing faulting, with every unscoped buffer at the last boundary's contents, the gathered
  array having held the gather's specified result. The frame (`run_main`, `frame_ki`) is that at the five argument
  buffers. How the index array and the gathered array are cut among the tiles, and that each tile's chunk holds the
  specified rows, are the facts of their own modules; the indices are rows of the packed table under the precondition.
-/
import proofs.«206902_g37847251812778_fold_wed_m_929_15_alg».proof.Proof.Main
import proofs.«206902_g37847251812778_fold_wed_m_929_15_alg».proof.Proof.LstmBody
import proofs.«206902_g37847251812778_fold_wed_m_929_15_alg».proof.Proof.IdxRange
import proofs.«206902_g37847251812778_fold_wed_m_929_15_alg».proof.Proof.Chunks
import proofs.«206902_g37847251812778_fold_wed_m_929_15_alg».proof.Proof.ChunkValue
import proofs.«206902_g37847251812778_fold_wed_m_929_15_alg».proof.Proof.Gen.KernelIdeal.Launch
import proofs.«206902_g37847251812778_fold_wed_m_929_15_alg».proof.Proof.Gen.Pre_input_domain
import Idealize.ShloMosaic.Lib.Pipeline.Sound
import Idealize.ShloMosaic.Lib.Pipeline.Launch

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx Pay)
open Idealize.ShloMosaic.StableHlo (held devRef_ne_of_ne after_of_forall_not_mem)

variable {F : FTy → Type} [FloatOps F]

local notation "𝕄" => MT nD τ sig (HIx 1) (Elt F) ℕ UU ℕ

/-! ## The launch element -/

/-- The two pipelines' launch ghost state on device `d`: their staging cells' and duty tokens (pipeline 0's, then
    pipeline 1's). -/
def G0u (d : Dev nD) : sProp 𝕄 :=
  iprop(Pipeline.cellsGhost (Pipeline.pin (pcfgs (F := F)) adm) EP 0 d ∗ Pipeline.toksInit (Pipeline.pin (pcfgs (F := F)) adm) EP 0 d
    ∗ Pipeline.cellsGhost (Pipeline.pin (pcfgs (F := F)) adm) EP 1 d ∗ Pipeline.toksInit (Pipeline.pin (pcfgs (F := F)) adm) EP 1 d)

/-- The launch element: the handshakes' rounds at their launch state, the two pipelines' rounds at theirs, no transfer
    counted. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- The pipelines' ghost state, dealt per device: each device's two pipelines' cells and tokens. -/
theorem ghost_regroup :
    iprop((bigSep Finset.univ fun c : Dev nD => bigSep Finset.univ fun p : Fin 2 => Pipeline.cellsGhost (Pipeline.pin (pcfgs (F := F)) adm) EP p c)
        ∗ (bigSep Finset.univ fun c : Dev nD => bigSep Finset.univ fun p : Fin 2 =>
            (Pipeline.toksInit (Pipeline.pin (pcfgs (F := F)) adm) EP p c : sProp 𝕄)))
      ⊢ bigSep Finset.univ (G0u (F := F)) := by
  rw [← bigSep_sep']
  refine bigSep_mono fun c _ => ?_
  show iprop((bigSep Finset.univ fun p : Fin 2 => Pipeline.cellsGhost (Pipeline.pin (pcfgs (F := F)) adm) EP p c)
      ∗ (bigSep Finset.univ fun p : Fin 2 => (Pipeline.toksInit (Pipeline.pin (pcfgs (F := F)) adm) EP p c : sProp 𝕄)))
    ⊢ G0u (F := F) c
  rw [bigSep_univ_two, bigSep_univ_two]
  unfold G0u
  iintro ⟨⟨Hc0, Hc1⟩, Ht0, Ht1⟩
  isplitl [Hc0]; · iexact Hc0
  isplitl [Ht0]; · iexact Ht0
  isplitl [Hc1]; · iexact Hc1
  iexact Ht1

/-- The launch element split between the handshakes' library and the pipelines': a pair owned is each half owned
    through its embedding, and the counters' half is dropped. -/
theorem own_u₀ : (ownU (u₀ (F := F)) : sProp 𝕄)
    ⊢ iprop(BI.own (EH (initOf (K (F := F)).hsCells (K (F := F)).hsToks))
        ∗ BI.own (EP (initOf (Pipeline.cells (Pipeline.pin (pcfgs (F := F)) adm) cellOf_inj)
            (Pipeline.launchToks (Pipeline.pin (pcfgs (F := F)) adm) cellOf_inj)))) := by
  have h1 := ownU_pair (nD := nD) (τ := τ) (sig := sig) (Ix := HIx 1) (Val := Elt F) (Name := ℕ) (Lvl := ℕ)
    (initOf (K (F := F)).hsCells (K (F := F)).hsToks : UH)
    ((initOf (Pipeline.cells (Pipeline.pin (pcfgs (F := F)) adm) cellOf_inj)
        (Pipeline.launchToks (Pipeline.pin (pcfgs (F := F)) adm) cellOf_inj), 1) : UP × Counters)
  have h2 := own_pair_emb (embR : Emb (UP × Counters) 𝕄)
    (initOf (Pipeline.cells (Pipeline.pin (pcfgs (F := F)) adm) cellOf_inj)
        (Pipeline.launchToks (Pipeline.pin (pcfgs (F := F)) adm) cellOf_inj) : UP) (1 : Counters)
  exact h1.trans (sep_mono .rfl (h2.trans sep_elim_left))

/-- THE LAUNCH ELEMENT'S GHOST HALF, dealt: the handshakes' rounds, and each device's two pipelines' cells and tokens. -/
theorem hu₀_ghost : (ownU (u₀ (F := F)) : sProp 𝕄)
    ⊢ |={Set.univ}=> iprop(BI.own (EH (initOf (K (F := F)).hsCells (K (F := F)).hsToks)) ∗ bigSep Finset.univ (G0u (F := F))) := by
  iintro Hu
  ihave H := own_u₀ $$ Hu
  icases H with ⟨HH, HP⟩
  imod (Pipeline.fund_ghost (Pipeline.pin (pcfgs (F := F)) adm) EP cellOf_inj) $$ HP with ⟨Hg, Ht⟩
  ihave HG := ghost_regroup $$ [Hg Ht]
  · isplitl [Hg] <;> iassumption
  imodintro
  isplitl [HH]; · iexact HH
  iexact HG

/-! ## The five argument buffers reach the last boundary unchanged -/

/-- The five argument buffers. -/
abbrev argRefs : List (Ref sig .tc) := [main_arg0, main_arg1, main_arg2, main_arg3, main_arg4]

/-- No host stretch of @main writes an argument buffer. -/
theorem keepA : ∀ b ∈ argRefs, ∀ op ∈ (opsA : List (HloOp τ sig (Elt F))), Proc.devRef .tc b ∉ op.writes := by
  intro b hb op hop
  fin_cases hb <;> fin_cases hop <;> exact fun h => devRef_ne_of_ne (by decide) (Finset.mem_singleton.mp h)
theorem keepB : ∀ b ∈ argRefs, ∀ op ∈ (opsB : List (HloOp τ sig (Elt F))), Proc.devRef .tc b ∉ op.writes := by
  intro b hb op hop
  fin_cases hb <;> fin_cases hop <;> exact fun h => devRef_ne_of_ne (by decide) (Finset.mem_singleton.mp h)
theorem keepC : ∀ b ∈ argRefs, ∀ op ∈ (opsC : List (HloOp τ sig (Elt F))), Proc.devRef .tc b ∉ op.writes := by
  intro b hb op hop
  fin_cases hb <;> fin_cases hop <;> exact fun h => devRef_ne_of_ne (by decide) (Finset.mem_singleton.mp h)
theorem keepE : ∀ b ∈ argRefs, ∀ op ∈ (opsE : List (HloOp τ sig (Elt F))), Proc.devRef .tc b ∉ op.writes := by
  intro b hb op hop
  fin_cases hb <;> fin_cases hop <;> exact fun h => devRef_ne_of_ne (by decide) (Finset.mem_singleton.mp h)

section
variable (o5 : Vec F S20x512x128 .f32 → Vec F S512x20 .i32 → Vec F S64x256 .f32 → Vec F S64x256 .f32 → Vec F S1x256 .f32 → Vec F S20x512x64 .f32)
  (o6 o7 : Vec F S20x512x128 .f32 → Vec F S512x20 .i32 → Vec F S64x256 .f32 → Vec F S64x256 .f32 → Vec F S1x256 .f32 → Vec F S512x64 .f32)
variable (m : (ℓ : Loc nD τ sig) → Buf (Elt F) ℓ)
variable (fo : (c : Dev nD) → Buf (Elt F) ((c : Thread nD τ).loc main_v15))

/-- Up to the LSTM call's entry an argument buffer holds what the launch gave it: the stretches do not write it, and it
    is neither the packed table nor the gathered array. -/
theorem W5_arg (b : Ref sig .tc) (hb : b ∈ argRefs) (c : Dev nD) :
    W5 m fo c (Proc.devRef .tc b) = m ((c : Thread nD τ).loc b) := by
  have h15 : (Proc.devRef .tc b : DevRef τ sig) ≠ Proc.devRef .tc main_v15 := by
    fin_cases hb <;> exact devRef_ne_of_ne (by decide)
  have h2 : (Proc.devRef .tc b : DevRef τ sig) ≠ Proc.devRef .tc main_v2 := by
    fin_cases hb <;> exact devRef_ne_of_ne (by decide)
  show StableHlo.after opsC (W4 m fo c) (Proc.devRef .tc b) = _
  rw [after_of_forall_not_mem _ _ (keepC b hb)]
  unfold W4
  rw [Function.update_of_ne h15]
  show StableHlo.after opsB (W2 m c) (Proc.devRef .tc b) = _
  rw [after_of_forall_not_mem _ _ (keepB b hb)]
  unfold W2
  rw [Function.update_of_ne h2]
  show StableHlo.after opsA (W0 m c) (Proc.devRef .tc b) = _
  rw [after_of_forall_not_mem _ _ (keepA b hb)]

/-- The LSTM call leaves an argument buffer as it found it: the index array and the two weight matrices are input
    windows of its pipeline, whose arrays are never written; the other two arguments are not among its arrays. -/
theorem W6_arg (b : Ref sig .tc) (hb : b ∈ argRefs) (c : Dev nD) :
    W6 o5 o6 o7 m fo c (Proc.devRef .tc b) = W5 m fo c (Proc.devRef .tc b) := by
  have hin : ∀ w : Fin cfg2.W, (cfg2.win w).isOut = false →
      W6 o5 o6 o7 m fo c (Proc.devRef .tc (Pipeline.arrRef spec2 w)) = W5 m fo c (Proc.devRef .tc (Pipeline.arrRef spec2 w)) := fun w hw => by
    rw [W6_arr, Pipeline.Dat.arrAt_in _ w hw, A_eq2]
  fin_cases hb
  · exact hin 1 rfl
  · exact W6_of_ne o5 o6 o7 m fo c _ (by decide)
  · exact hin 2 rfl
  · exact hin 3 rfl
  · exact W6_of_ne o5 o6 o7 m fo c _ (by decide)

/-- AT THE LAST BOUNDARY every argument buffer holds what the launch gave it, whatever the gather left. -/
theorem W7_arg (b : Ref sig .tc) (hb : b ∈ argRefs) (c : Dev nD) :
    W7 o5 o6 o7 m fo c (Proc.devRef .tc b) = m ((c : Thread nD τ).loc b) := by
  show StableHlo.after opsE (W6 o5 o6 o7 m fo c) (Proc.devRef .tc b) = _
  rw [after_of_forall_not_mem _ _ (keepE b hb), W6_arg o5 o6 o7 m fo b hb c, W5_arg m fo b hb c]

/-- What the frame asks of the final memory of device `d`: each argument buffer holds what the launch gave it. -/
def fq (d : Dev nD) (s' : Phys nD τ sig (Elt F)) : Prop :=
  ∀ b ∈ argRefs, s'.mem.mem ((d : Thread nD τ).loc b) = m ((d : Thread nD τ).loc b)

/-- Every unscoped buffer held at the last boundary's contents, read against the final memory: the argument buffers
    hold what the launch gave them — whatever the gather left. -/
theorem held_args (d : Dev nD) (s' : Phys nD τ sig (Elt F)) :
    iprop(StableHlo.held (d : Thread nD τ) (Pipeline.ucRefs τ sig) (W7 o5 o6 o7 m fo d) ∗ SI s') ⊢ (⌜fq m d s'⌝ : sProp 𝕄) := by
  unfold StableHlo.held
  iintro ⟨Hh, HSI⟩
  ihave Hr := (pointsTo_read_all (Pipeline.ucRefs τ sig) (fun b => ((d : Thread nD τ).1, b)) (W7 o5 o6 o7 m fo d) s') $$ [Hh HSI]
  · isplitl [Hh] <;> iassumption
  icases Hr with ⟨%h, -⟩
  ipureintro
  intro b hb
  refine (h (Proc.devRef .tc b) (Finset.mem_filter.mpr ⟨StableHlo.devRef_mem_tcRefs b, ?_⟩)).trans (W7_arg o5 o6 o7 m fo b hb d)
  fin_cases hb <;> decide

/-- Every unscoped buffer held at the last boundary's contents, read against the final memory: the memory holds those
    contents, buffer by buffer — whatever the gather left. -/
theorem held_all (d : Dev nD) (s' : Phys nD τ sig (Elt F)) :
    iprop(StableHlo.held (d : Thread nD τ) (Pipeline.ucRefs τ sig) (W7 o5 o6 o7 m fo d) ∗ SI s')
      ⊢ (⌜∀ b ∈ Pipeline.ucRefs τ sig, s'.mem.mem (((d : Thread nD τ).1, b) : Loc nD τ sig) = W7 o5 o6 o7 m fo d b⌝ : sProp 𝕄) := by
  unfold StableHlo.held
  iintro ⟨Hh, HSI⟩
  ihave Hr := (pointsTo_read_all (Pipeline.ucRefs τ sig) (fun b => ((d : Thread nD τ).1, b)) (W7 o5 o6 o7 m fo d) s') $$ [Hh HSI]
  · isplitl [Hh] <;> iassumption
  icases Hr with ⟨%h, -⟩
  ipureintro
  exact h

/-- From a memory that holds the last boundary's contents on every unscoped buffer: the argument buffers hold what the
    launch gave them. -/
theorem args_of_all (d : Dev nD) (mem : (ℓ : Loc nD τ sig) → Buf (Elt F) ℓ)
    (h : ∀ b ∈ Pipeline.ucRefs τ sig, mem (((d : Thread nD τ).1, b) : Loc nD τ sig) = W7 o5 o6 o7 m fo d b) :
    ∀ b ∈ argRefs, mem ((d : Thread nD τ).loc b) = m ((d : Thread nD τ).loc b) := by
  intro b hb
  refine (h (Proc.devRef .tc b) (Finset.mem_filter.mpr ⟨StableHlo.devRef_mem_tcRefs b, ?_⟩)).trans (W7_arg o5 o6 o7 m fo b hb d)
  fin_cases hb <;> decide

end

/-! ## The launch, assembled -/

section Assemble
variable (m : (ℓ : Loc nD τ sig) → Buf (Elt F) ℓ) (ρ : Dev nD → PrngReg)

omit [FloatOps F] in
theorem bigSep_emp' {I : Type} (s : Finset I) : (bigSep s fun _ => iprop(emp)) = (iprop(emp) : sProp 𝕄) := bigSep_emp_const s

/-- The gather's payloads keep nothing of their own beside the call's. -/
theorem x_emp : (bigSep Finset.univ fun thr : Thread nD τ => bigSep Finset.univ fun q : Fin 1 => (PP m).x q thr) = (iprop(emp) : sProp 𝕄) := by
  show (bigSep Finset.univ fun _ : Thread nD τ => bigSep Finset.univ fun _ : Fin 1 => (iprop(emp) : sProp 𝕄)) = _
  rw [bigSep_congr fun _ _ => bigSep_emp' _, bigSep_emp']

/-- THE LAUNCH ELEMENT, dealt: the handshakes' rounds, each device's pipelines' ghost state, nothing for the payloads. -/
theorem hu₀ : iprop((ownU (u₀ (F := F)) : sProp 𝕄) ∗ (PP m).oxCred ∗ (K (F := F)).freeSems0)
    ⊢ |={Set.univ}=> iprop(BI.own (EH (initOf (K (F := F)).hsCells (K (F := F)).hsToks)) ∗ bigSep Finset.univ (G0 (F := F))
        ∗ bigSep Finset.univ fun thr : Thread nD τ => bigSep Finset.univ fun q : Fin 1 => (PP m).x q thr) := by
  iintro ⟨Hu, -, -⟩
  imod hu₀_ghost $$ Hu with ⟨HH, HG⟩
  imodintro
  isplitl [HH]; · iexact HH
  isplitl [HG]; · iexact HG
  rw [x_emp]
  iempintro

/-- What the run leaves in the final memory of device `d`: every unscoped buffer at the last boundary's contents, the
    gathered array having held the gather's specified result. -/
def fqAll (d : Dev nD) (s' : Phys nD τ sig (Elt F)) : Prop :=
  ∀ b ∈ Pipeline.ucRefs τ sig, s'.mem.mem ((d, b) : Loc nD τ sig) = W7 out2_5 out2_6 out2_7 m (gspec m) d b

/-- At @main's end the final memory holds the last boundary's contents on every unscoped buffer. -/
theorem hfin (d : Dev nD) (s' : Phys nD τ sig (Elt F)) :
    iprop(FIN out2_5 out2_6 out2_7 m d ∗ SI s') ⊢ (⌜fqAll m d s'⌝ : sProp 𝕄) := by
  unfold FIN
  exact held_all out2_5 out2_6 out2_7 m (gspec m) d s'

/-- The run's conclusion: on every device every unscoped buffer at the last boundary's contents. -/
def QF : PUnit × MemSt nD τ sig (Elt F) → Prop := fun r => ∀ c : Dev nD, ∀ b ∈ Pipeline.ucRefs τ sig,
  r.2.mem ((c, b) : Loc nD τ sig) = W7 out2_5 out2_6 out2_7 m (gspec m) c b

/-- The frame's conclusion: on every device the five argument arrays as the launch gave them. -/
def QC : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

/-- THE PROGRAM'S RUN, from a launch whose indices are in range: every weakly fair execution of the device's threads
    terminates, nothing faulting, with every unscoped buffer at the last boundary's contents — the launch theorem at the
    one vector-subcore call. -/
theorem run_full [∀ e, Nonempty (Elt F e)]
    (hx : ∀ (c : Dev nD) (i : S4096x20.Idx), 0 ≤ (m ((c.tc : Thread nD τ).loc main_arg0) i).toInt ∧ (m ((c.tc : Thread nD τ).loc main_arg0) i).toInt ≤ 999999) :
    θ_run (Cert.KernelIdeal.defs (F := F)) (Cert.KernelIdeal.threads (F := F)) ⟨m, fun _ => 0, ρ⟩ (QF m) :=
  SparseCore.Cfg.θ_run_sc (K := K (F := F)) (D := D (F := F)) (𝒱 := 𝒱) (EH := EH) (P := PP m) facts v₀
    (fun q hq => match q with | 0 => nomatch hq)
    (fun q _ => match q with
      | 0 => tileObl (fiOf m) (ftOf m) facts (fun d j => idx_in_range m hx d j)
          (fun d L => chunk_val d L (fiOf m d) (ftOf m d) (fun j => idx_in_range m hx d j)))
    (fun q _ => match q with | 0 => SparseCore.Cfg.VecSplit.of_plain (vecSplit (fiOf m) (ftOf m)))
    m ρ main (G0 (F := F)) (FIN out2_5 out2_6 out2_7 m) (u₀ (F := F)) (hu₀ m)
    (hmain out2_5 out2_6 out2_7 m ρ
      (fun c E i a1 h1 a2 h2 a3 h3 a4 h4 a5 h5 a6 h6 a7 h7 a8 h8 x0 x1 x2 x3 x4 Kp =>
        sound_kernel2 c E i a1 h1 a2 h2 a3 h3 a4 h4 a5 h5 a6 h6 a7 h7 a8 h8 x0 x1 x2 x3 x4 Kp)
      (fun d f => idx_split d f) (fun d f => out_split d f) (fun d f => out_split_eq d f))
    (fqAll m) (hfin m) (QF m) (fun s' h c => h c)

/-- The frame's run: the same, read at the five argument buffers. -/
theorem run_main [∀ e, Nonempty (Elt F e)]
    (hx : ∀ (c : Dev nD) (i : S4096x20.Idx), 0 ≤ (m ((c.tc : Thread nD τ).loc main_arg0) i).toInt ∧ (m ((c.tc : Thread nD τ).loc main_arg0) i).toInt ≤ 999999) :
    θ_run (Cert.KernelIdeal.defs (F := F)) (Cert.KernelIdeal.threads (F := F)) ⟨m, fun _ => 0, ρ⟩ (QC m) :=
  (θ_run (Cert.KernelIdeal.defs (F := F)) _ _).mono (fun r h c => by
    have ha := args_of_all out2_5 out2_6 out2_7 m (gspec m) c r.2.mem (h c)
    exact ⟨ha main_arg0 (by simp [argRefs]), ha main_arg1 (by simp [argRefs]), ha main_arg2 (by simp [argRefs]),
      ha main_arg3 (by simp [argRefs]), ha main_arg4 (by simp [argRefs])⟩) (run_full m ρ hx)

end Assemble

/-- The idealized kernel program runs and its five argument arrays end unchanged, under the certificate's
    precondition (which bounds the indices, so that every gathered row is a row of the packed table). -/
theorem frame_ki :
    Cert.frame_KernelIdeal (hKernelIdeal := Cert.KernelIdeal.Gen.facts) (hPre_input_domain := Cert.Pre_input_domain.Gen.facts) :=
  fun m ρ hpre => (θ_run Cert.KernelIdeal.defs _ _).mono (fun _ h c => h c) (run_main (F := Ideal) m ρ (pre_range_ideal m hpre))

end Cert.KernelIdeal.Hand

end
-- ==== Proof.Region2Value.lean ====
/-
  The LSTM pipeline's arrays after all eight grid points, read at an index.

  The pipeline's grid has eight points; point p works on batch rows 512·p … 512·p + 511. Its three output windows tile
  their arrays — the hidden-state stack [20, 4096, 64] in blocks [20, 512, 64] at block index (0, p, 0), the two state
  arrays [4096, 64] in blocks [512, 64] at (p, 0) — and every point writes its block back, so distinct points' blocks
  are disjoint and each element of an output array ends at what the point that covers it left in the window's buffer:
  the body's output function of that point's five input blocks. The input blocks are read off the arrays as the call
  finds them: the packed rows and the selector words in the same row range, the two weight matrices and the bias row
  whole.
-/
import proofs.«206902_g37847251812778_fold_wed_m_929_15_alg».proof.Proof.Region2
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.SparseCore.Cfg (HIx)
open Idealize.ShloMosaic.ValueIdx

variable {F : FTy → Type} [FloatOps F]

/-! ## The grid's points and the windows' index maps -/

/-- A point of the grid is one of eight. -/
theorem point_lt (p : Fin cfg2.N) : p.val < 8 := Nat.lt_of_lt_of_eq p.isLt N_2

/-- The batch row of block row `r'` at point `p`. -/
def grow (p : Fin cfg2.N) (r' : Fin 512) : Fin 4096 := ⟨512 * p.val + r'.val, by have := point_lt p; have := r'.isLt; omega⟩

/-- The printed index maps, decided over the grid: the row-blocked windows sit at block index `p` on the row axis and
    0 elsewhere, the whole-array windows at 0. -/
theorem idx2_0 : ∀ t : Fin cfg2.N, win2_0.index t (0 : Fin 3) = 0 ∧ win2_0.index t (1 : Fin 3) = t.val ∧ win2_0.index t (2 : Fin 3) = 0 :=
  (by decide +kernel : ∀ t : Fin grid2.N, _)
theorem idx2_1 : ∀ t : Fin cfg2.N, win2_1.index t (0 : Fin 2) = t.val ∧ win2_1.index t (1 : Fin 2) = 0 :=
  (by decide +kernel : ∀ t : Fin grid2.N, _)
theorem idx2_2 : ∀ t : Fin cfg2.N, win2_2.index t (0 : Fin 2) = 0 ∧ win2_2.index t (1 : Fin 2) = 0 :=
  (by decide +kernel : ∀ t : Fin grid2.N, _)
theorem idx2_3 : ∀ t : Fin cfg2.N, win2_3.index t (0 : Fin 2) = 0 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 3) = 0 ∧ win2_5.index t (1 : Fin 3) = t.val ∧ win2_5.index t (2 : Fin 3) = 0 :=
  (by decide +kernel : ∀ t : Fin grid2.N, _)
theorem idx2_6 : ∀ t : Fin cfg2.N, win2_6.index t (0 : Fin 2) = t.val ∧ win2_6.index t (1 : Fin 2) = 0 :=
  (by decide +kernel : ∀ t : Fin grid2.N, _)
theorem idx2_7 : ∀ t : Fin cfg2.N, win2_7.index t (0 : Fin 2) = t.val ∧ win2_7.index t (1 : Fin 2) = 0 :=
  (by decide +kernel : ∀ t : Fin grid2.N, _)

/-- The output windows' index maps send distinct points to distinct block indices (decided over the eight points), -/
theorem idx_inj2_5 : ∀ t t' : Fin cfg2.N, win2_5.index t = win2_5.index t' → t = t' :=
  (by decide +kernel : ∀ t t' : Fin grid2.N, win2_5.index t = win2_5.index t' → t = t')
theorem idx_inj2_6 : ∀ t t' : Fin cfg2.N, win2_6.index t = win2_6.index t' → t = t' :=
  (by decide +kernel : ∀ t t' : Fin grid2.N, win2_6.index t = win2_6.index t' → t = t')
theorem idx_inj2_7 : ∀ t t' : Fin cfg2.N, win2_7.index t = win2_7.index t' → t = t' :=
  (by decide +kernel : ∀ t t' : Fin grid2.N, win2_7.index t = win2_7.index t' → t = t')

/-- so two points' blocks of an output array share no element. -/
theorem disjoint2_5 : ∀ t t' : Fin cfg2.N, (cfg2.win 5).flush t = true → (cfg2.win 5).flush t' = true → t ≠ t' →
    Disjoint ((cfg2.win 5).blk t).view.set ((cfg2.win 5).blk t').view.set :=
  fun t t' _ _ hne => (cfg2.win 5).disjoint_blk fun h => hne (idx_inj2_5 t t' h)
theorem disjoint2_6 : ∀ t t' : Fin cfg2.N, (cfg2.win 6).flush t = true → (cfg2.win 6).flush t' = true → t ≠ t' →
    Disjoint ((cfg2.win 6).blk t).view.set ((cfg2.win 6).blk t').view.set :=
  fun t t' _ _ hne => (cfg2.win 6).disjoint_blk fun h => hne (idx_inj2_6 t t' h)
theorem disjoint2_7 : ∀ t t' : Fin cfg2.N, (cfg2.win 7).flush t = true → (cfg2.win 7).flush t' = true → t ≠ t' →
    Disjoint ((cfg2.win 7).blk t).view.set ((cfg2.win 7).blk t').view.set :=
  fun t t' _ _ hne => (cfg2.win 7).disjoint_blk fun h => hne (idx_inj2_7 t t' h)

/-! ## Where a block's element sits in its array -/

/-- Element (t, r', j) of point `p`'s block of the hidden-state stack is element (t, 512·p + r', j) of the stack; -/
theorem emb2_5 (p : Fin cfg2.N) (t : Fin 20) (r' : Fin 512) (j : Fin 64) :
    ((cfg2.win 5).blk p).view.emb (ix3 t r' j : S20x512x64.Idx) = (ix3 t (grow p r') j : S20x4096x64.Idx) := by
  obtain ⟨e0, e1, e2⟩ := idx2_5 p
  funext a; apply Fin.ext
  match a with
  | ⟨0, _⟩ => show win2_5.index p (0 : Fin 3) * 20 + 1 * t.val = t.val; omega
  | ⟨1, _⟩ => show win2_5.index p (1 : Fin 3) * 512 + 1 * r'.val = 512 * p.val + r'.val; omega
  | ⟨2, _⟩ => show win2_5.index p (2 : Fin 3) * 64 + 1 * j.val = j.val; omega
/-- element (r', j) of its block of a state array is element (512·p + r', j) of the array; -/
theorem emb2_6 (p : Fin cfg2.N) (r' : Fin 512) (j : Fin 64) :
    ((cfg2.win 6).blk p).view.emb (ix2 r' j : S512x64.Idx) = (ix2 (grow p r') j : S4096x64.Idx) := by
  obtain ⟨e0, e1⟩ := idx2_6 p
  funext a; apply Fin.ext
  match a with
  | ⟨0, _⟩ => show win2_6.index p (0 : Fin 2) * 512 + 1 * r'.val = 512 * p.val + r'.val; omega
  | ⟨1, _⟩ => show win2_6.index p (1 : Fin 2) * 64 + 1 * j.val = j.val; omega
theorem emb2_7 (p : Fin cfg2.N) (r' : Fin 512) (j : Fin 64) :
    ((cfg2.win 7).blk p).view.emb (ix2 r' j : S512x64.Idx) = (ix2 (grow p r') j : S4096x64.Idx) := by
  obtain ⟨e0, e1⟩ := idx2_7 p
  funext a; apply Fin.ext
  match a with
  | ⟨0, _⟩ => show win2_7.index p (0 : Fin 2) * 512 + 1 * r'.val = 512 * p.val + r'.val; omega
  | ⟨1, _⟩ => show win2_7.index p (1 : Fin 2) * 64 + 1 * j.val = j.val; omega
/-- element (t, r', k) of its block of the packed rows is element (t, 512·p + r', k) of the rows; -/
theorem emb2_0 (p : Fin cfg2.N) (t : Fin 20) (r' : Fin 512) (k : Fin 128) :
    ((cfg2.win 0).blk p).view.emb (ix3 t r' k : S20x512x128.Idx) = (ix3 t (grow p r') k : S20x4096x128.Idx) := by
  obtain ⟨e0, e1, e2⟩ := idx2_0 p
  funext a; apply Fin.ext
  match a with
  | ⟨0, _⟩ => show win2_0.index p (0 : Fin 3) * 20 + 1 * t.val = t.val; omega
  | ⟨1, _⟩ => show win2_0.index p (1 : Fin 3) * 512 + 1 * r'.val = 512 * p.val + r'.val; omega
  | ⟨2, _⟩ => show win2_0.index p (2 : Fin 3) * 128 + 1 * k.val = k.val; omega
/-- element (r', t) of its block of the selector words is element (512·p + r', t) of the words. -/
theorem emb2_1 (p : Fin cfg2.N) (r' : Fin 512) (t : Fin 20) :
    ((cfg2.win 1).blk p).view.emb (ix2 r' t : S512x20.Idx) = (ix2 (grow p r') t : S4096x20.Idx) := by
  obtain ⟨e0, e1⟩ := idx2_1 p
  funext a; apply Fin.ext
  match a with
  | ⟨0, _⟩ => show win2_1.index p (0 : Fin 2) * 512 + 1 * r'.val = 512 * p.val + r'.val; omega
  | ⟨1, _⟩ => show win2_1.index p (1 : Fin 2) * 20 + 1 * t.val = t.val; omega

section Region2Value

variable (o5 : Vec F S20x512x128 .f32 → Vec F S512x20 .i32 → Vec F S64x256 .f32 → Vec F S64x256 .f32 → Vec F S1x256 .f32 → Vec F S20x512x64 .f32)
  (o6 o7 : Vec F S20x512x128 .f32 → Vec F S512x20 .i32 → Vec F S64x256 .f32 → Vec F S64x256 .f32 → Vec F S1x256 .f32 → Vec F S512x64 .f32)
variable (V : (c : Dev nD) → (b : Ref sig .tc) → Buf (Elt F) ((c : Thread nD τ).loc b))
variable (B : Set (SemLoc sig × HIx 1))

/-! ## The five input blocks, read off the arrays as the call finds them -/

/-- Point `p`'s block of the packed rows at (t, r', k) is the rows at (t, 512·p + r', k). -/
theorem iblk2_0_apply (c : Dev nD) (p : Fin cfg2.N) (t : Fin 20) (r' : Fin 512) (k : Fin 128) :
    iblk2 V c 0 p (ix3 t r' k : S20x512x128.Idx) = V c main_v16 (ix3 t (grow p r') k : S20x4096x128.Idx) := by
  show V c main_v16 (((cfg2.win 0).blk p).view.emb (ix3 t r' k : S20x512x128.Idx)) = _
  rw [emb2_0]

/-- Point `p`'s block of the selector words at (r', t) is the words at (512·p + r', t). -/
theorem iblk2_1_apply (c : Dev nD) (p : Fin cfg2.N) (r' : Fin 512) (t : Fin 20) :
    iblk2 V c 1 p (ix2 r' t : S512x20.Idx) = V c main_arg0 (ix2 (grow p r') t : S4096x20.Idx) := by
  show V c main_arg0 (((cfg2.win 1).blk p).view.emb (ix2 r' t : S512x20.Idx)) = _
  rw [emb2_1]

/-- Every point's block of a weight matrix, and of the bias row, is the whole array. -/
theorem iblk2_2_eq (c : Dev nD) (p : Fin cfg2.N) : iblk2 V c 2 p = V c main_arg2 := by
  obtain ⟨e0, e1⟩ := idx2_2 p
  funext y
  show V c main_arg2 (((cfg2.win 2).blk p).view.emb y) = V c main_arg2 y
  refine congrArg (V c main_arg2) (funext fun a => Fin.ext ?_)
  match a with
  | ⟨0, _⟩ => show win2_2.index p (0 : Fin 2) * 64 + 1 * (y 0).val = (y 0).val; omega
  | ⟨1, _⟩ => show win2_2.index p (1 : Fin 2) * 256 + 1 * (y 1).val = (y 1).val; omega
theorem iblk2_3_eq (c : Dev nD) (p : Fin cfg2.N) : iblk2 V c 3 p = V c main_arg3 := by
  obtain ⟨e0, e1⟩ := idx2_3 p
  funext y
  show V c main_arg3 (((cfg2.win 3).blk p).view.emb y) = V c main_arg3 y
  refine congrArg (V c main_arg3) (funext fun a => Fin.ext ?_)
  match a with
  | ⟨0, _⟩ => show win2_3.index p (0 : Fin 2) * 64 + 1 * (y 0).val = (y 0).val; omega
  | ⟨1, _⟩ => show win2_3.index p (1 : Fin 2) * 256 + 1 * (y 1).val = (y 1).val; omega
theorem iblk2_4_eq (c : Dev nD) (p : Fin cfg2.N) : iblk2 V c 4 p = V c main_v17 := by
  obtain ⟨e0, e1⟩ := idx2_4 p
  funext y
  show V c main_v17 (((cfg2.win 4).blk p).view.emb y) = V c main_v17 y
  refine congrArg (V c main_v17) (funext fun a => Fin.ext ?_)
  match a with
  | ⟨0, _⟩ => show win2_4.index p (0 : Fin 2) * 1 + 1 * (y 0).val = (y 0).val; omega
  | ⟨1, _⟩ => show win2_4.index p (1 : Fin 2) * 256 + 1 * (y 1).val = (y 1).val; omega

/-! ## The three output arrays after all eight points -/

/-- The hidden-state stack at (t, 512·p + r', j): what the body leaves in the window's buffer at point `p`, at (t, r', j). -/
theorem arr2_5_apply (c : Dev nD) (p : Fin cfg2.N) (t : Fin 20) (r' : Fin 512) (j : Fin 64) :
    (dat2 o5 o6 o7 V B c).arrAt 5 cfg2.N (ix3 t (grow p r') j : S20x4096x64.Idx)
      = o5 (iblk2 V c 0 p) (iblk2 V c 1 p) (iblk2 V c 2 p) (iblk2 V c 3 p) (iblk2 V c 4 p) (ix3 t r' j : S20x512x64.Idx) := by
  have h := (dat2 o5 o6 o7 V B c).arrAt_emb_eq_flushed 5 disjoint2_5 p (flush2_5 p) (ix3 t r' j : S20x512x64.Idx)
  rw [emb2_5] at h
  rw [h]
  show (cfg2.win 5).cut (grid2.coords p) ((dat2 o5 o6 o7 V B c).after 5 p) (ix3 t r' j : S20x512x64.Idx) = _
  rw [after2_5]
  rfl

/-- The final hidden state's array at (512·p + r', j). -/
theorem arr2_6_apply (c : Dev nD) (p : Fin cfg2.N) (r' : Fin 512) (j : Fin 64) :
    (dat2 o5 o6 o7 V B c).arrAt 6 cfg2.N (ix2 (grow p r') j : S4096x64.Idx)
      = o6 (iblk2 V c 0 p) (iblk2 V c 1 p) (iblk2 V c 2 p) (iblk2 V c 3 p) (iblk2 V c 4 p) (ix2 r' j : S512x64.Idx) := by
  have h := (dat2 o5 o6 o7 V B c).arrAt_emb_eq_flushed 6 disjoint2_6 p (flush2_6 p) (ix2 r' j : S512x64.Idx)
  rw [emb2_6] at h
  rw [h]
  show (cfg2.win 6).cut (grid2.coords p) ((dat2 o5 o6 o7 V B c).after 6 p) (ix2 r' j : S512x64.Idx) = _
  rw [after2_6]
  rfl

/-- The final cell state's array at (512·p + r', j). -/
theorem arr2_7_apply (c : Dev nD) (p : Fin cfg2.N) (r' : Fin 512) (j : Fin 64) :
    (dat2 o5 o6 o7 V B c).arrAt 7 cfg2.N (ix2 (grow p r') j : S4096x64.Idx)
      = o7 (iblk2 V c 0 p) (iblk2 V c 1 p) (iblk2 V c 2 p) (iblk2 V c 3 p) (iblk2 V c 4 p) (ix2 r' j : S512x64.Idx) := by
  have h := (dat2 o5 o6 o7 V B c).arrAt_emb_eq_flushed 7 disjoint2_7 p (flush2_7 p) (ix2 r' j : S512x64.Idx)
  rw [emb2_7] at h
  rw [h]
  show (cfg2.win 7).cut (grid2.coords p) ((dat2 o5 o6 o7 V B c).after 7 p) (ix2 r' j : S512x64.Idx) = _
  rw [after2_7]
  rfl

end Region2Value

end Cert.KernelIdeal.Hand

end
-- ==== Proof.LstmValue.lean ====
/-
  What the LSTM body leaves in its three output buffers, as the iterates of one step function.

  One step of the recurrence takes the cell state c and the hidden state h (512×64 each) to
      z  = xt·W + h·U + b            (512×256; xt the step's selected half rows, 512×64)
      c' = σ(z[:, 64:128])·c + σ(z[:, 0:64])·tanh(z[:, 128:192])
      h' = σ(z[:, 192:256])·tanh(c')
  and the body runs it twenty times from c = h = 0, step t on slab t of the packed rows and column t of the selector
  words. The printed body cuts the twenty steps into fourteen windows at arbitrary statements; here every step's c and h
  are named by the payloads that compute them (`Lstm.cS t`, `Lstm.hS t`), each pair is shown to be the step function of
  the pair before (by unfolding), and so the outputs `out2_5`, `out2_6`, `out2_7` are read off the iterates
  `Lstm.state`: slab t of the hidden-state output is h after step t, and the two state outputs are h and c after
  step 19.

  The last part reads one step at an index at the ideal values (the extended reals): the two matrix products are sums
  over the contracted coordinate, the selection is an `if` on the row's selector word, the activations are the logistic
  function and the hyperbolic tangent — so that each iterate's element is the textbook recurrence over elements of the
  five input blocks.
-/
import proofs.«206902_g37847251812778_fold_wed_m_929_15_alg».proof.Proof.LstmBody
import Idealize.ShloMosaic.Lib.Pipeline.FrameBody
import Idealize.ShloMosaic.Lib.Tactic
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

open Idealize.ShloMosaic.ValueIdx

namespace Lstm

/-- The zero block both states start from. -/
def zeroS : FVec F S512x64 .f32 := broadcast S512x64 (Scalar.ofBits .f32 0x00000000#32)

/-- The step's input rows: per row the upper half of the packed row where the selector word is at least 524288, the
    lower half elsewhere. -/
def xsel (row : Vec F S1x512x128 .f32) (sel : Vec F S512x1 .i32) : FVec F S512x64 .f32 :=
  select (broadcastTo S512x64 (shapeCast S512x1 (cmpi .sge sel (broadcast S512x1 524288#32)) shapeCasts_S512x1_S512x1) broadcasts_S512x1_S512x64)
    (extractStridedSlice S512x64 ![0, 64] (shapeCast S512x128 row shapeCasts_S1x512x128_S512x128) slices_S512x128_o0_64_S512x64)
    (extractStridedSlice S512x64 ![0, 0] (shapeCast S512x128 row shapeCasts_S1x512x128_S512x128) slices_S512x128_o0_0_S512x64)

/-- The pre-activations z = xt·W + h·U + b. -/
def gates (W U : Vec F S64x256 .f32) (b : FVec F S1x256 .f32) (xt h : FVec F S512x64 .f32) : FVec F S512x256 .f32 :=
  addf (addf (matmul dot_S512x64_S64x256_S512x256_1_0_0_1_n_n none xt W (constant S512x256 .f32 0x00000000#32))
      (matmul dot_S512x64_S64x256_S512x256_1_0_0_1_n_n none h U (constant S512x256 .f32 0x00000000#32)))
    (broadcastTo S512x256 b broadcasts_S1x256_S512x256)

/-- The new cell state c' = σ(z_f)·c + σ(z_i)·tanh(z_g). -/
def cNext (z : FVec F S512x256 .f32) (c : FVec F S512x64 .f32) : FVec F S512x64 .f32 :=
  addf (mulf (logistic (extractStridedSlice S512x64 ![0, 64] z slices_S512x256_o0_64_S512x64)) c)
    (mulf (logistic (extractStridedSlice S512x64 ![0, 0] z slices_S512x256_o0_0_S512x64))
      (tanh (extractStridedSlice S512x64 ![0, 128] z slices_S512x256_o0_128_S512x64)))

/-- The new hidden state h' = σ(z_o)·tanh(c'). -/
def hNext (z : FVec F S512x256 .f32) (c' : FVec F S512x64 .f32) : FVec F S512x64 .f32 :=
  mulf (logistic (extractStridedSlice S512x64 ![0, 192] z slices_S512x256_o0_192_S512x64)) (tanh c')

/-- One step of the recurrence on whole blocks: from (c, h) to (c', h'). -/
def step (W U : Vec F S64x256 .f32) (b : FVec F S1x256 .f32) (row : Vec F S1x512x128 .f32) (sel : Vec F S512x1 .i32)
    (s : FVec F S512x64 .f32 × FVec F S512x64 .f32) : FVec F S512x64 .f32 × FVec F S512x64 .f32 :=
  (cNext (gates W U b (xsel row sel) s.2) s.1, hNext (gates W U b (xsel row sel) s.2) (cNext (gates W U b (xsel row sel) s.2) s.1))

/-! ## Each step's states, as the payloads name them -/

/-- The cell state and the hidden state after step 0. -/
def cS0 (x0 : Vec F S20x512x128 .f32) (x1 : Vec F S512x20 .i32) (x2 : Vec F S64x256 .f32) (x3 : Vec F S64x256 .f32) (x4 : Vec F S1x256 .f32) : FVec F S512x64 .f32 :=
  k2_pay7 (v0 x0 x1 x2 x3 x4) (v1 x0 x1 x2 x3 x4) (View.ld x4 rB) (View.ld x0 rX0) (View.ld x1 rP0)
def hS0 (x0 : Vec F S20x512x128 .f32) (x1 : Vec F S512x20 .i32) (x2 : Vec F S64x256 .f32) (x3 : Vec F S64x256 .f32) (x4 : Vec F S1x256 .f32) : FVec F S512x64 .f32 :=
  k2_pay8 (v0 x0 x1 x2 x3 x4) (v1 x0 x1 x2 x3 x4) (View.ld x4 rB) (View.ld x0 rX0) (View.ld x1 rP0)
/-- The cell state and the hidden state after step 1. -/
def cS1 (x0 : Vec F S20x512x128 .f32) (x1 : Vec F S512x20 .i32) (x2 : Vec F S64x256 .f32) (x3 : Vec F S64x256 .f32) (x4 : Vec F S1x256 .f32) : FVec F S512x64 .f32 :=
  k2_pay11 (v0 x0 x1 x2 x3 x4) (v1 x0 x1 x2 x3 x4) (v3 x0 x1 x2 x3 x4) (v31 x0 x1 x2 x3 x4) (v33 x0 x1 x2 x3 x4) (View.ld x0 rX1) (View.ld x1 rP1)
def hS1 (x0 : Vec F S20x512x128 .f32) (x1 : Vec F S512x20 .i32) (x2 : Vec F S64x256 .f32) (x3 : Vec F S64x256 .f32) (x4 : Vec F S1x256 .f32) : FVec F S512x64 .f32 :=
  k2_pay12 (v0 x0 x1 x2 x3 x4) (v1 x0 x1 x2 x3 x4) (v3 x0 x1 x2 x3 x4) (v31 x0 x1 x2 x3 x4) (v33 x0 x1 x2 x3 x4) (View.ld x0 rX1) (View.ld x1 rP1)
/-- The cell state and the hidden state after step 2. -/
def cS2 (x0 : Vec F S20x512x128 .f32) (x1 : Vec F S512x20 .i32) (x2 : Vec F S64x256 .f32) (x3 : Vec F S64x256 .f32) (x4 : Vec F S1x256 .f32) : FVec F S512x64 .f32 :=
  k2_pay16 (v1 x0 x1 x2 x3 x4) (v3 x0 x1 x2 x3 x4) (v62 x0 x1 x2 x3 x4) (v64 x0 x1 x2 x3 x4) (v78 x0 x1 x2 x3 x4) (constant S512x256 .f32 0x00000000#32)
def hS2 (x0 : Vec F S20x512x128 .f32) (x1 : Vec F S512x20 .i32) (x2 : Vec F S64x256 .f32) (x3 : Vec F S64x256 .f32) (x4 : Vec F S1x256 .f32) : FVec F S512x64 .f32 :=
  k2_pay17 (v1 x0 x1 x2 x3 x4) (v3 x0 x1 x2 x3 x4) (v62 x0 x1 x2 x3 x4) (v64 x0 x1 x2 x3 x4) (v78 x0 x1 x2 x3 x4) (constant S512x256 .f32 0x00000000#32)
/-- The cell state and the hidden state after step 3. -/
def cS3 (x0 : Vec F S20x512x128 .f32) (x1 : Vec F S512x20 .i32) (x2 : Vec F S64x256 .f32) (x3 : Vec F S64x256 .f32) (x4 : Vec F S1x256 .f32) : FVec F S512x64 .f32 :=
  k2_pay20 (v0 x0 x1 x2 x3 x4) (v1 x0 x1 x2 x3 x4) (v3 x0 x1 x2 x3 x4) (v62 x0 x1 x2 x3 x4) (v64 x0 x1 x2 x3 x4) (v78 x0 x1 x2 x3 x4) (constant S512x256 .f32 0x00000000#32) (View.ld x0 rX3) (View.ld x1 rP3)
def hS3 (x0 : Vec F S20x512x128 .f32) (x1 : Vec F S512x20 .i32) (x2 : Vec F S64x256 .f32) (x3 : Vec F S64x256 .f32) (x4 : Vec F S1x256 .f32) : FVec F S512x64 .f32 :=
  k2_pay21 (v0 x0 x1 x2 x3 x4) (v1 x0 x1 x2 x3 x4) (v3 x0 x1 x2 x3 x4) (v62 x0 x1 x2 x3 x4) (v64 x0 x1 x2 x3 x4) (v78 x0 x1 x2 x3 x4) (constant S512x256 .f32 0x00000000#32) (View.ld x0 rX3) (View.ld x1 rP3)
/-- The cell state and the hidden state after step 4. -/
def cS4 (x0 : Vec F S20x512x128 .f32) (x1 : Vec F S512x20 .i32) (x2 : Vec F S64x256 .f32) (x3 : Vec F S64x256 .f32) (x4 : Vec F S1x256 .f32) : FVec F S512x64 .f32 :=
  k2_pay24 (v0 x0 x1 x2 x3 x4) (v1 x0 x1 x2 x3 x4) (v3 x0 x1 x2 x3 x4) (v124 x0 x1 x2 x3 x4) (v126 x0 x1 x2 x3 x4) (View.ld x0 rX4) (View.ld x1 rP4)
def hS4 (x0 : Vec F S20x512x128 .f32) (x1 : Vec F S512x20 .i32) (x2 : Vec F S64x256 .f32) (x3 : Vec F S64x256 .f32) (x4 : Vec F S1x256 .f32) : FVec F S512x64 .f32 :=
  k2_pay25 (v0 x0 x1 x2 x3 x4) (v1 x0 x1 x2 x3 x4) (v3 x0 x1 x2 x3 x4) (v124 x0 x1 x2 x3 x4) (v126 x0 x1 x2 x3 x4) (View.ld x0 rX4) (View.ld x1 rP4)
/-- The cell state and the hidden state after step 5. -/
def cS5 (x0 : Vec F S20x512x128 .f32) (x1 : Vec F S512x20 .i32) (x2 : Vec F S64x256 .f32) (x3 : Vec F S64x256 .f32) (x4 : Vec F S1x256 .f32) : FVec F S512x64 .f32 :=
  k2_pay30 (v0 x0 x1 x2 x3 x4) (v1 x0 x1 x2 x3 x4) (v3 x0 x1 x2 x3 x4) (v155 x0 x1 x2 x3 x4) (v157 x0 x1 x2 x3 x4) (v162 x0 x1 x2 x3 x4) (v163 x0 x1 x2 x3 x4) k2_pay28
def hS5 (x0 : Vec F S20x512x128 .f32) (x1 : Vec F S512x20 .i32) (x2 : Vec F S64x256 .f32) (x3 : Vec F S64x256 .f32) (x4 : Vec F S1x256 .f32) : FVec F S512x64 .f32 :=
  k2_pay31 (v0 x0 x1 x2 x3 x4) (v1 x0 x1 x2 x3 x4) (v3 x0 x1 x2 x3 x4) (v155 x0 x1 x2 x3 x4) (v157 x0 x1 x2 x3 x4) (v162 x0 x1 x2 x3 x4) (v163 x0 x1 x2 x3 x4) k2_pay28
/-- The cell state and the hidden state after step 6. -/
def cS6 (x0 : Vec F S20x512x128 .f32) (x1 : Vec F S512x20 .i32) (x2 : Vec F S64x256 .f32) (x3 : Vec F S64x256 .f32) (x4 : Vec F S1x256 .f32) : FVec F S512x64 .f32 :=
  k2_pay36 (v186 x0 x1 x2 x3 x4) (v206 x0 x1 x2 x3 x4) (v208 x0 x1 x2 x3 x4) (v210 x0 x1 x2 x3 x4)
def hS6 (x0 : Vec F S20x512x128 .f32) (x1 : Vec F S512x20 .i32) (x2 : Vec F S64x256 .f32) (x3 : Vec F S64x256 .f32) (x4 : Vec F S1x256 .f32) : FVec F S512x64 .f32 :=
  k2_pay37 (v186 x0 x1 x2 x3 x4) (v206 x0 x1 x2 x3 x4) (v208 x0 x1 x2 x3 x4) (v210 x0 x1 x2 x3 x4)
/-- The cell state and the hidden state after step 7. -/
def cS7 (x0 : Vec F S20x512x128 .f32) (x1 : Vec F S512x20 .i32) (x2 : Vec F S64x256 .f32) (x3 : Vec F S64x256 .f32) (x4 : Vec F S1x256 .f32) : FVec F S512x64 .f32 :=
  k2_pay40 (v0 x0 x1 x2 x3 x4) (v1 x0 x1 x2 x3 x4) (v3 x0 x1 x2 x3 x4) (v186 x0 x1 x2 x3 x4) (v206 x0 x1 x2 x3 x4) (v208 x0 x1 x2 x3 x4) (v210 x0 x1 x2 x3 x4) (View.ld x0 rX7) (View.ld x1 rP7)
def hS7 (x0 : Vec F S20x512x128 .f32) (x1 : Vec F S512x20 .i32) (x2 : Vec F S64x256 .f32) (x3 : Vec F S64x256 .f32) (x4 : Vec F S1x256 .f32) : FVec F S512x64 .f32 :=
  k2_pay41 (v0 x0 x1 x2 x3 x4) (v1 x0 x1 x2 x3 x4) (v3 x0 x1 x2 x3 x4) (v186 x0 x1 x2 x3 x4) (v206 x0 x1 x2 x3 x4) (v208 x0 x1 x2 x3 x4) (v210 x0 x1 x2 x3 x4) (View.ld x0 rX7) (View.ld x1 rP7)
/-- The cell state and the hidden state after step 8. -/
def cS8 (x0 : Vec F S20x512x128 .f32) (x1 : Vec F S512x20 .i32) (x2 : Vec F S64x256 .f32) (x3 : Vec F S64x256 .f32) (x4 : Vec F S1x256 .f32) : FVec F S512x64 .f32 :=
  k2_pay44 (v0 x0 x1 x2 x3 x4) (v1 x0 x1 x2 x3 x4) (v3 x0 x1 x2 x3 x4) (v248 x0 x1 x2 x3 x4) (v250 x0 x1 x2 x3 x4) (View.ld x0 rX8) (View.ld x1 rP8)
def hS8 (x0 : Vec F S20x512x128 .f32) (x1 : Vec F S512x20 .i32) (x2 : Vec F S64x256 .f32) (x3 : Vec F S64x256 .f32) (x4 : Vec F S1x256 .f32) : FVec F S512x64 .f32 :=
  k2_pay45 (v0 x0 x1 x2 x3 x4) (v1 x0 x1 x2 x3 x4) (v3 x0 x1 x2 x3 x4) (v248 x0 x1 x2 x3 x4) (v250 x0 x1 x2 x3 x4) (View.ld x0 rX8) (View.ld x1 rP8)
/-- The cell state and the hidden state after step 9. -/
def cS9 (x0 : Vec F S20x512x128 .f32) (x1 : Vec F S512x20 .i32) (x2 : Vec F S64x256 .f32) (x3 : Vec F S64x256 .f32) (x4 : Vec F S1x256 .f32) : FVec F S512x64 .f32 :=
  k2_pay49 (v1 x0 x1 x2 x3 x4) (v3 x0 x1 x2 x3 x4) (v279 x0 x1 x2 x3 x4) (v281 x0 x1 x2 x3 x4) (v295 x0 x1 x2 x3 x4)
def hS9 (x0 : Vec F S20x512x128 .f32) (x1 : Vec F S512x20 .i32) (x2 : Vec F S64x256 .f32) (x3 : Vec F S64x256 .f32) (x4 : Vec F S1x256 .f32) : FVec F S512x64 .f32 :=
  k2_pay50 (v1 x0 x1 x2 x3 x4) (v3 x0 x1 x2 x3 x4) (v279 x0 x1 x2 x3 x4) (v281 x0 x1 x2 x3 x4) (v295 x0 x1 x2 x3 x4)
/-- The cell state and the hidden state after step 10. -/
def cS10 (x0 : Vec F S20x512x128 .f32) (x1 : Vec F S512x20 .i32) (x2 : Vec F S64x256 .f32) (x3 : Vec F S64x256 .f32) (x4 : Vec F S1x256 .f32) : FVec F S512x64 .f32 :=
  k2_pay54 (v0 x0 x1 x2 x3 x4) (v1 x0 x1 x2 x3 x4) (v3 x0 x1 x2 x3 x4) (v279 x0 x1 x2 x3 x4) (v281 x0 x1 x2 x3 x4) (v295 x0 x1 x2 x3 x4) (View.ld x0 rX10) (View.ld x1 rP10)
def hS10 (x0 : Vec F S20x512x128 .f32) (x1 : Vec F S512x20 .i32) (x2 : Vec F S64x256 .f32) (x3 : Vec F S64x256 .f32) (x4 : Vec F S1x256 .f32) : FVec F S512x64 .f32 :=
  k2_pay56 (v338 x0 x1 x2 x3 x4) (v342 x0 x1 x2 x3 x4)
/-- The cell state and the hidden state after step 11. -/
def cS11 (x0 : Vec F S20x512x128 .f32) (x1 : Vec F S512x20 .i32) (x2 : Vec F S64x256 .f32) (x3 : Vec F S64x256 .f32) (x4 : Vec F S1x256 .f32) : FVec F S512x64 .f32 :=
  k2_pay59 (v0 x0 x1 x2 x3 x4) (v1 x0 x1 x2 x3 x4) (v3 x0 x1 x2 x3 x4) (v338 x0 x1 x2 x3 x4) (v341 x0 x1 x2 x3 x4) (v342 x0 x1 x2 x3 x4) (View.ld x0 rX11) (View.ld x1 rP11)
def hS11 (x0 : Vec F S20x512x128 .f32) (x1 : Vec F S512x20 .i32) (x2 : Vec F S64x256 .f32) (x3 : Vec F S64x256 .f32) (x4 : Vec F S1x256 .f32) : FVec F S512x64 .f32 :=
  k2_pay60 (v0 x0 x1 x2 x3 x4) (v1 x0 x1 x2 x3 x4) (v3 x0 x1 x2 x3 x4) (v338 x0 x1 x2 x3 x4) (v341 x0 x1 x2 x3 x4) (v342 x0 x1 x2 x3 x4) (View.ld x0 rX11) (View.ld x1 rP11)
/-- The cell state and the hidden state after step 12. -/
def cS12 (x0 : Vec F S20x512x128 .f32) (x1 : Vec F S512x20 .i32) (x2 : Vec F S64x256 .f32) (x3 : Vec F S64x256 .f32) (x4 : Vec F S1x256 .f32) : FVec F S512x64 .f32 :=
  k2_pay64 (v0 x0 x1 x2 x3 x4) (v1 x0 x1 x2 x3 x4) (v3 x0 x1 x2 x3 x4) (v372 x0 x1 x2 x3 x4) (v374 x0 x1 x2 x3 x4) (v379 x0 x1 x2 x3 x4) (v380 x0 x1 x2 x3 x4) 524288#32
def hS12 (x0 : Vec F S20x512x128 .f32) (x1 : Vec F S512x20 .i32) (x2 : Vec F S64x256 .f32) (x3 : Vec F S64x256 .f32) (x4 : Vec F S1x256 .f32) : FVec F S512x64 .f32 :=
  k2_pay65 (v0 x0 x1 x2 x3 x4) (v1 x0 x1 x2 x3 x4) (v3 x0 x1 x2 x3 x4) (v372 x0 x1 x2 x3 x4) (v374 x0 x1 x2 x3 x4) (v379 x0 x1 x2 x3 x4) (v380 x0 x1 x2 x3 x4) 524288#32
/-- The cell state and the hidden state after step 13. -/
def cS13 (x0 : Vec F S20x512x128 .f32) (x1 : Vec F S512x20 .i32) (x2 : Vec F S64x256 .f32) (x3 : Vec F S64x256 .f32) (x4 : Vec F S1x256 .f32) : FVec F S512x64 .f32 :=
  k2_pay70 (v403 x0 x1 x2 x3 x4) (v423 x0 x1 x2 x3 x4) (v425 x0 x1 x2 x3 x4) (v426 x0 x1 x2 x3 x4)
def hS13 (x0 : Vec F S20x512x128 .f32) (x1 : Vec F S512x20 .i32) (x2 : Vec F S64x256 .f32) (x3 : Vec F S64x256 .f32) (x4 : Vec F S1x256 .f32) : FVec F S512x64 .f32 :=
  k2_pay71 (v403 x0 x1 x2 x3 x4) (v423 x0 x1 x2 x3 x4) (v425 x0 x1 x2 x3 x4) (v426 x0 x1 x2 x3 x4)
/-- The cell state and the hidden state after step 14. -/
def cS14 (x0 : Vec F S20x512x128 .f32) (x1 : Vec F S512x20 .i32) (x2 : Vec F S64x256 .f32) (x3 : Vec F S64x256 .f32) (x4 : Vec F S1x256 .f32) : FVec F S512x64 .f32 :=
  k2_pay74 (v0 x0 x1 x2 x3 x4) (v1 x0 x1 x2 x3 x4) (v3 x0 x1 x2 x3 x4) (v403 x0 x1 x2 x3 x4) (v423 x0 x1 x2 x3 x4) (v425 x0 x1 x2 x3 x4) (v426 x0 x1 x2 x3 x4) (View.ld x0 rX14) (View.ld x1 rP14)
def hS14 (x0 : Vec F S20x512x128 .f32) (x1 : Vec F S512x20 .i32) (x2 : Vec F S64x256 .f32) (x3 : Vec F S64x256 .f32) (x4 : Vec F S1x256 .f32) : FVec F S512x64 .f32 :=
  k2_pay75 (v0 x0 x1 x2 x3 x4) (v1 x0 x1 x2 x3 x4) (v3 x0 x1 x2 x3 x4) (v403 x0 x1 x2 x3 x4) (v423 x0 x1 x2 x3 x4) (v425 x0 x1 x2 x3 x4) (v426 x0 x1 x2 x3 x4) (View.ld x0 rX14) (View.ld x1 rP14)
/-- The cell state and the hidden state after step 15. -/
def cS15 (x0 : Vec F S20x512x128 .f32) (x1 : Vec F S512x20 .i32) (x2 : Vec F S64x256 .f32) (x3 : Vec F S64x256 .f32) (x4 : Vec F S1x256 .f32) : FVec F S512x64 .f32 :=
  k2_pay78 (v0 x0 x1 x2 x3 x4) (v1 x0 x1 x2 x3 x4) (v3 x0 x1 x2 x3 x4) (v465 x0 x1 x2 x3 x4) (v467 x0 x1 x2 x3 x4) (View.ld x0 rX15) (View.ld x1 rP15)
def hS15 (x0 : Vec F S20x512x128 .f32) (x1 : Vec F S512x20 .i32) (x2 : Vec F S64x256 .f32) (x3 : Vec F S64x256 .f32) (x4 : Vec F S1x256 .f32) : FVec F S512x64 .f32 :=
  k2_pay79 (v0 x0 x1 x2 x3 x4) (v1 x0 x1 x2 x3 x4) (v3 x0 x1 x2 x3 x4) (v465 x0 x1 x2 x3 x4) (v467 x0 x1 x2 x3 x4) (View.ld x0 rX15) (View.ld x1 rP15)
/-- The cell state and the hidden state after step 16. -/
def cS16 (x0 : Vec F S20x512x128 .f32) (x1 : Vec F S512x20 .i32) (x2 : Vec F S64x256 .f32) (x3 : Vec F S64x256 .f32) (x4 : Vec F S1x256 .f32) : FVec F S512x64 .f32 :=
  k2_pay83 (v0 x0 x1 x2 x3 x4) (v1 x0 x1 x2 x3 x4) (v3 x0 x1 x2 x3 x4) (v496 x0 x1 x2 x3 x4) (v498 x0 x1 x2 x3 x4) (v511 x0 x1 x2 x3 x4) (constant S512x256 .f32 0x00000000#32)
def hS16 (x0 : Vec F S20x512x128 .f32) (x1 : Vec F S512x20 .i32) (x2 : Vec F S64x256 .f32) (x3 : Vec F S64x256 .f32) (x4 : Vec F S1x256 .f32) : FVec F S512x64 .f32 :=
  k2_pay84 (v0 x0 x1 x2 x3 x4) (v1 x0 x1 x2 x3 x4) (v3 x0 x1 x2 x3 x4) (v496 x0 x1 x2 x3 x4) (v498 x0 x1 x2 x3 x4) (v511 x0 x1 x2 x3 x4) (constant S512x256 .f32 0x00000000#32)
/-- The cell state and the hidden state after step 17. -/
def cS17 (x0 : Vec F S20x512x128 .f32) (x1 : Vec F S512x20 .i32) (x2 : Vec F S64x256 .f32) (x3 : Vec F S64x256 .f32) (x4 : Vec F S1x256 .f32) : FVec F S512x64 .f32 :=
  k2_pay88 (v0 x0 x1 x2 x3 x4) (v1 x0 x1 x2 x3 x4) (v3 x0 x1 x2 x3 x4) (v496 x0 x1 x2 x3 x4) (v498 x0 x1 x2 x3 x4) (v511 x0 x1 x2 x3 x4) (constant S512x256 .f32 0x00000000#32) (View.ld x0 rX17) (View.ld x1 rP17)
def hS17 (x0 : Vec F S20x512x128 .f32) (x1 : Vec F S512x20 .i32) (x2 : Vec F S64x256 .f32) (x3 : Vec F S64x256 .f32) (x4 : Vec F S1x256 .f32) : FVec F S512x64 .f32 :=
  k2_pay89 (v555 x0 x1 x2 x3 x4) (v558 x0 x1 x2 x3 x4)
/-- The cell state and the hidden state after step 18. -/
def cS18 (x0 : Vec F S20x512x128 .f32) (x1 : Vec F S512x20 .i32) (x2 : Vec F S64x256 .f32) (x3 : Vec F S64x256 .f32) (x4 : Vec F S1x256 .f32) : FVec F S512x64 .f32 :=
  k2_pay92 (v0 x0 x1 x2 x3 x4) (v1 x0 x1 x2 x3 x4) (v3 x0 x1 x2 x3 x4) (v555 x0 x1 x2 x3 x4) (v558 x0 x1 x2 x3 x4) (View.ld x0 rX18) (View.ld x1 rP18)
def hS18 (x0 : Vec F S20x512x128 .f32) (x1 : Vec F S512x20 .i32) (x2 : Vec F S64x256 .f32) (x3 : Vec F S64x256 .f32) (x4 : Vec F S1x256 .f32) : FVec F S512x64 .f32 :=
  k2_pay93 (v0 x0 x1 x2 x3 x4) (v1 x0 x1 x2 x3 x4) (v3 x0 x1 x2 x3 x4) (v555 x0 x1 x2 x3 x4) (v558 x0 x1 x2 x3 x4) (View.ld x0 rX18) (View.ld x1 rP18)
/-- The cell state and the hidden state after step 19. -/
def cS19 (x0 : Vec F S20x512x128 .f32) (x1 : Vec F S512x20 .i32) (x2 : Vec F S64x256 .f32) (x3 : Vec F S64x256 .f32) (x4 : Vec F S1x256 .f32) : FVec F S512x64 .f32 :=
  k2_pay2 (v0 x0 x1 x2 x3 x4) (v1 x0 x1 x2 x3 x4) (v3 x0 x1 x2 x3 x4) (v589 x0 x1 x2 x3 x4) (v591 x0 x1 x2 x3 x4) (v596 x0 x1 x2 x3 x4) (v597 x0 x1 x2 x3 x4)
def hS19 (x0 : Vec F S20x512x128 .f32) (x1 : Vec F S512x20 .i32) (x2 : Vec F S64x256 .f32) (x3 : Vec F S64x256 .f32) (x4 : Vec F S1x256 .f32) : FVec F S512x64 .f32 :=
  k2_pay3 (v0 x0 x1 x2 x3 x4) (v1 x0 x1 x2 x3 x4) (v3 x0 x1 x2 x3 x4) (v589 x0 x1 x2 x3 x4) (v591 x0 x1 x2 x3 x4) (v596 x0 x1 x2 x3 x4) (v597 x0 x1 x2 x3 x4)

/-! ## Each pair of states is the step function of the pair before -/

theorem step_0 (x0 : Vec F S20x512x128 .f32) (x1 : Vec F S512x20 .i32) (x2 : Vec F S64x256 .f32) (x3 : Vec F S64x256 .f32) (x4 : Vec F S1x256 .f32) :
    (cS0 x0 x1 x2 x3 x4, hS0 x0 x1 x2 x3 x4) = step (v0 x0 x1 x2 x3 x4) (v1 x0 x1 x2 x3 x4) (v3 x0 x1 x2 x3 x4) (View.ld x0 rX0) (View.ld x1 rP0) (zeroS, zeroS) := rfl
theorem step_1 (x0 : Vec F S20x512x128 .f32) (x1 : Vec F S512x20 .i32) (x2 : Vec F S64x256 .f32) (x3 : Vec F S64x256 .f32) (x4 : Vec F S1x256 .f32) :
    (cS1 x0 x1 x2 x3 x4, hS1 x0 x1 x2 x3 x4) = step (v0 x0 x1 x2 x3 x4) (v1 x0 x1 x2 x3 x4) (v3 x0 x1 x2 x3 x4) (View.ld x0 rX1) (View.ld x1 rP1) (cS0 x0 x1 x2 x3 x4, hS0 x0 x1 x2 x3 x4) := rfl
theorem step_2 (x0 : Vec F S20x512x128 .f32) (x1 : Vec F S512x20 .i32) (x2 : Vec F S64x256 .f32) (x3 : Vec F S64x256 .f32) (x4 : Vec F S1x256 .f32) :
    (cS2 x0 x1 x2 x3 x4, hS2 x0 x1 x2 x3 x4) = step (v0 x0 x1 x2 x3 x4) (v1 x0 x1 x2 x3 x4) (v3 x0 x1 x2 x3 x4) (View.ld x0 rX2) (View.ld x1 rP2) (cS1 x0 x1 x2 x3 x4, hS1 x0 x1 x2 x3 x4) := rfl
theorem step_3 (x0 : Vec F S20x512x128 .f32) (x1 : Vec F S512x20 .i32) (x2 : Vec F S64x256 .f32) (x3 : Vec F S64x256 .f32) (x4 : Vec F S1x256 .f32) :
    (cS3 x0 x1 x2 x3 x4, hS3 x0 x1 x2 x3 x4) = step (v0 x0 x1 x2 x3 x4) (v1 x0 x1 x2 x3 x4) (v3 x0 x1 x2 x3 x4) (View.ld x0 rX3) (View.ld x1 rP3) (cS2 x0 x1 x2 x3 x4, hS2 x0 x1 x2 x3 x4) := rfl
theorem step_4 (x0 : Vec F S20x512x128 .f32) (x1 : Vec F S512x20 .i32) (x2 : Vec F S64x256 .f32) (x3 : Vec F S64x256 .f32) (x4 : Vec F S1x256 .f32) :
    (cS4 x0 x1 x2 x3 x4, hS4 x0 x1 x2 x3 x4) = step (v0 x0 x1 x2 x3 x4) (v1 x0 x1 x2 x3 x4) (v3 x0 x1 x2 x3 x4) (View.ld x0 rX4) (View.ld x1 rP4) (cS3 x0 x1 x2 x3 x4, hS3 x0 x1 x2 x3 x4) := rfl
theorem step_5 (x0 : Vec F S20x512x128 .f32) (x1 : Vec F S512x20 .i32) (x2 : Vec F S64x256 .f32) (x3 : Vec F S64x256 .f32) (x4 : Vec F S1x256 .f32) :
    (cS5 x0 x1 x2 x3 x4, hS5 x0 x1 x2 x3 x4) = step (v0 x0 x1 x2 x3 x4) (v1 x0 x1 x2 x3 x4) (v3 x0 x1 x2 x3 x4) (View.ld x0 rX5) (View.ld x1 rP5) (cS4 x0 x1 x2 x3 x4, hS4 x0 x1 x2 x3 x4) := rfl
theorem step_6 (x0 : Vec F S20x512x128 .f32) (x1 : Vec F S512x20 .i32) (x2 : Vec F S64x256 .f32) (x3 : Vec F S64x256 .f32) (x4 : Vec F S1x256 .f32) :
    (cS6 x0 x1 x2 x3 x4, hS6 x0 x1 x2 x3 x4) = step (v0 x0 x1 x2 x3 x4) (v1 x0 x1 x2 x3 x4) (v3 x0 x1 x2 x3 x4) (View.ld x0 rX6) (View.ld x1 rP6) (cS5 x0 x1 x2 x3 x4, hS5 x0 x1 x2 x3 x4) := rfl
theorem step_7 (x0 : Vec F S20x512x128 .f32) (x1 : Vec F S512x20 .i32) (x2 : Vec F S64x256 .f32) (x3 : Vec F S64x256 .f32) (x4 : Vec F S1x256 .f32) :
    (cS7 x0 x1 x2 x3 x4, hS7 x0 x1 x2 x3 x4) = step (v0 x0 x1 x2 x3 x4) (v1 x0 x1 x2 x3 x4) (v3 x0 x1 x2 x3 x4) (View.ld x0 rX7) (View.ld x1 rP7) (cS6 x0 x1 x2 x3 x4, hS6 x0 x1 x2 x3 x4) := rfl
theorem step_8 (x0 : Vec F S20x512x128 .f32) (x1 : Vec F S512x20 .i32) (x2 : Vec F S64x256 .f32) (x3 : Vec F S64x256 .f32) (x4 : Vec F S1x256 .f32) :
    (cS8 x0 x1 x2 x3 x4, hS8 x0 x1 x2 x3 x4) = step (v0 x0 x1 x2 x3 x4) (v1 x0 x1 x2 x3 x4) (v3 x0 x1 x2 x3 x4) (View.ld x0 rX8) (View.ld x1 rP8) (cS7 x0 x1 x2 x3 x4, hS7 x0 x1 x2 x3 x4) := rfl
theorem step_9 (x0 : Vec F S20x512x128 .f32) (x1 : Vec F S512x20 .i32) (x2 : Vec F S64x256 .f32) (x3 : Vec F S64x256 .f32) (x4 : Vec F S1x256 .f32) :
    (cS9 x0 x1 x2 x3 x4, hS9 x0 x1 x2 x3 x4) = step (v0 x0 x1 x2 x3 x4) (v1 x0 x1 x2 x3 x4) (v3 x0 x1 x2 x3 x4) (View.ld x0 rX9) (View.ld x1 rP9) (cS8 x0 x1 x2 x3 x4, hS8 x0 x1 x2 x3 x4) := rfl
theorem step_10 (x0 : Vec F S20x512x128 .f32) (x1 : Vec F S512x20 .i32) (x2 : Vec F S64x256 .f32) (x3 : Vec F S64x256 .f32) (x4 : Vec F S1x256 .f32) :
    (cS10 x0 x1 x2 x3 x4, hS10 x0 x1 x2 x3 x4) = step (v0 x0 x1 x2 x3 x4) (v1 x0 x1 x2 x3 x4) (v3 x0 x1 x2 x3 x4) (View.ld x0 rX10) (View.ld x1 rP10) (cS9 x0 x1 x2 x3 x4, hS9 x0 x1 x2 x3 x4) := rfl
theorem step_11 (x0 : Vec F S20x512x128 .f32) (x1 : Vec F S512x20 .i32) (x2 : Vec F S64x256 .f32) (x3 : Vec F S64x256 .f32) (x4 : Vec F S1x256 .f32) :
    (cS11 x0 x1 x2 x3 x4, hS11 x0 x1 x2 x3 x4) = step (v0 x0 x1 x2 x3 x4) (v1 x0 x1 x2 x3 x4) (v3 x0 x1 x2 x3 x4) (View.ld x0 rX11) (View.ld x1 rP11) (cS10 x0 x1 x2 x3 x4, hS10 x0 x1 x2 x3 x4) := rfl
theorem step_12 (x0 : Vec F S20x512x128 .f32) (x1 : Vec F S512x20 .i32) (x2 : Vec F S64x256 .f32) (x3 : Vec F S64x256 .f32) (x4 : Vec F S1x256 .f32) :
    (cS12 x0 x1 x2 x3 x4, hS12 x0 x1 x2 x3 x4) = step (v0 x0 x1 x2 x3 x4) (v1 x0 x1 x2 x3 x4) (v3 x0 x1 x2 x3 x4) (View.ld x0 rX12) (View.ld x1 rP12) (cS11 x0 x1 x2 x3 x4, hS11 x0 x1 x2 x3 x4) := rfl
theorem step_13 (x0 : Vec F S20x512x128 .f32) (x1 : Vec F S512x20 .i32) (x2 : Vec F S64x256 .f32) (x3 : Vec F S64x256 .f32) (x4 : Vec F S1x256 .f32) :
    (cS13 x0 x1 x2 x3 x4, hS13 x0 x1 x2 x3 x4) = step (v0 x0 x1 x2 x3 x4) (v1 x0 x1 x2 x3 x4) (v3 x0 x1 x2 x3 x4) (View.ld x0 rX13) (View.ld x1 rP13) (cS12 x0 x1 x2 x3 x4, hS12 x0 x1 x2 x3 x4) := rfl
theorem step_14 (x0 : Vec F S20x512x128 .f32) (x1 : Vec F S512x20 .i32) (x2 : Vec F S64x256 .f32) (x3 : Vec F S64x256 .f32) (x4 : Vec F S1x256 .f32) :
    (cS14 x0 x1 x2 x3 x4, hS14 x0 x1 x2 x3 x4) = step (v0 x0 x1 x2 x3 x4) (v1 x0 x1 x2 x3 x4) (v3 x0 x1 x2 x3 x4) (View.ld x0 rX14) (View.ld x1 rP14) (cS13 x0 x1 x2 x3 x4, hS13 x0 x1 x2 x3 x4) := rfl
theorem step_15 (x0 : Vec F S20x512x128 .f32) (x1 : Vec F S512x20 .i32) (x2 : Vec F S64x256 .f32) (x3 : Vec F S64x256 .f32) (x4 : Vec F S1x256 .f32) :
    (cS15 x0 x1 x2 x3 x4, hS15 x0 x1 x2 x3 x4) = step (v0 x0 x1 x2 x3 x4) (v1 x0 x1 x2 x3 x4) (v3 x0 x1 x2 x3 x4) (View.ld x0 rX15) (View.ld x1 rP15) (cS14 x0 x1 x2 x3 x4, hS14 x0 x1 x2 x3 x4) := rfl
theorem step_16 (x0 : Vec F S20x512x128 .f32) (x1 : Vec F S512x20 .i32) (x2 : Vec F S64x256 .f32) (x3 : Vec F S64x256 .f32) (x4 : Vec F S1x256 .f32) :
    (cS16 x0 x1 x2 x3 x4, hS16 x0 x1 x2 x3 x4) = step (v0 x0 x1 x2 x3 x4) (v1 x0 x1 x2 x3 x4) (v3 x0 x1 x2 x3 x4) (View.ld x0 rX16) (View.ld x1 rP16) (cS15 x0 x1 x2 x3 x4, hS15 x0 x1 x2 x3 x4) := rfl
theorem step_17 (x0 : Vec F S20x512x128 .f32) (x1 : Vec F S512x20 .i32) (x2 : Vec F S64x256 .f32) (x3 : Vec F S64x256 .f32) (x4 : Vec F S1x256 .f32) :
    (cS17 x0 x1 x2 x3 x4, hS17 x0 x1 x2 x3 x4) = step (v0 x0 x1 x2 x3 x4) (v1 x0 x1 x2 x3 x4) (v3 x0 x1 x2 x3 x4) (View.ld x0 rX17) (View.ld x1 rP17) (cS16 x0 x1 x2 x3 x4, hS16 x0 x1 x2 x3 x4) := rfl
theorem step_18 (x0 : Vec F S20x512x128 .f32) (x1 : Vec F S512x20 .i32) (x2 : Vec F S64x256 .f32) (x3 : Vec F S64x256 .f32) (x4 : Vec F S1x256 .f32) :
    (cS18 x0 x1 x2 x3 x4, hS18 x0 x1 x2 x3 x4) = step (v0 x0 x1 x2 x3 x4) (v1 x0 x1 x2 x3 x4) (v3 x0 x1 x2 x3 x4) (View.ld x0 rX18) (View.ld x1 rP18) (cS17 x0 x1 x2 x3 x4, hS17 x0 x1 x2 x3 x4) := rfl
theorem step_19 (x0 : Vec F S20x512x128 .f32) (x1 : Vec F S512x20 .i32) (x2 : Vec F S64x256 .f32) (x3 : Vec F S64x256 .f32) (x4 : Vec F S1x256 .f32) :
    (cS19 x0 x1 x2 x3 x4, hS19 x0 x1 x2 x3 x4) = step (v0 x0 x1 x2 x3 x4) (v1 x0 x1 x2 x3 x4) (v3 x0 x1 x2 x3 x4) (View.ld x0 rX19) (View.ld x1 rP19) (cS18 x0 x1 x2 x3 x4, hS18 x0 x1 x2 x3 x4) := rfl

/-! ## The iterates, uniformly in the step -/

/-- Slab `t` of the packed rows and column `t` of the selector words are in range. -/
theorem slab_inb (t : Fin 20) : ∀ a, (![t.val, 0, 0] : Fin 3 → ℕ) a + S1x512x128.size a ≤ S20x512x128.size a := by
  have := t.isLt
  intro a
  match a with
  | ⟨0, _⟩ => show t.val + 1 ≤ 20; omega
  | ⟨1, _⟩ => show 0 + 512 ≤ 512; omega
  | ⟨2, _⟩ => show 0 + 128 ≤ 128; omega
theorem col_inb (t : Fin 20) : ∀ a, (![0, t.val] : Fin 2 → ℕ) a + S512x1.size a ≤ S512x20.size a := by
  have := t.isLt
  intro a
  match a with
  | ⟨0, _⟩ => show 0 + 512 ≤ 512; omega
  | ⟨1, _⟩ => show t.val + 1 ≤ 20; omega

/-- Slab `t` of the packed rows. -/
def slab (t : Fin 20) : Rect S20x512x128 := Rect.unit (s := S20x512x128) ![t.val, 0, 0] S1x512x128.size (slab_inb t)
/-- Column `t` of the selector words. -/
def col (t : Fin 20) : Rect S512x20 := Rect.unit (s := S512x20) ![0, t.val] S512x1.size (col_inb t)
/-- A step number as one of the twenty. -/
def fin20 (t : ℕ) : Fin 20 := ⟨t % 20, Nat.mod_lt t (by decide)⟩

/-- The states (c, h) after step `t`: the step function iterated from zero states, step `t` on slab `t` and column `t`. -/
def state (x0 : Vec F S20x512x128 .f32) (x1 : Vec F S512x20 .i32) (x2 : Vec F S64x256 .f32) (x3 : Vec F S64x256 .f32) (x4 : Vec F S1x256 .f32) : ℕ → FVec F S512x64 .f32 × FVec F S512x64 .f32
  | 0 => step (v0 x0 x1 x2 x3 x4) (v1 x0 x1 x2 x3 x4) (v3 x0 x1 x2 x3 x4) (View.ld x0 (slab (fin20 0))) (View.ld x1 (col (fin20 0))) (zeroS, zeroS)
  | t + 1 => step (v0 x0 x1 x2 x3 x4) (v1 x0 x1 x2 x3 x4) (v3 x0 x1 x2 x3 x4) (View.ld x0 (slab (fin20 (t + 1)))) (View.ld x1 (col (fin20 (t + 1)))) (state x0 x1 x2 x3 x4 t)

theorem state_0 (x0 : Vec F S20x512x128 .f32) (x1 : Vec F S512x20 .i32) (x2 : Vec F S64x256 .f32) (x3 : Vec F S64x256 .f32) (x4 : Vec F S1x256 .f32) : state x0 x1 x2 x3 x4 0 = (cS0 x0 x1 x2 x3 x4, hS0 x0 x1 x2 x3 x4) := by
  rw [step_0]; rfl
theorem state_1 (x0 : Vec F S20x512x128 .f32) (x1 : Vec F S512x20 .i32) (x2 : Vec F S64x256 .f32) (x3 : Vec F S64x256 .f32) (x4 : Vec F S1x256 .f32) : state x0 x1 x2 x3 x4 1 = (cS1 x0 x1 x2 x3 x4, hS1 x0 x1 x2 x3 x4) := by
  rw [step_1, ← state_0]; rfl
theorem state_2 (x0 : Vec F S20x512x128 .f32) (x1 : Vec F S512x20 .i32) (x2 : Vec F S64x256 .f32) (x3 : Vec F S64x256 .f32) (x4 : Vec F S1x256 .f32) : state x0 x1 x2 x3 x4 2 = (cS2 x0 x1 x2 x3 x4, hS2 x0 x1 x2 x3 x4) := by
  rw [step_2, ← state_1]; rfl
theorem state_3 (x0 : Vec F S20x512x128 .f32) (x1 : Vec F S512x20 .i32) (x2 : Vec F S64x256 .f32) (x3 : Vec F S64x256 .f32) (x4 : Vec F S1x256 .f32) : state x0 x1 x2 x3 x4 3 = (cS3 x0 x1 x2 x3 x4, hS3 x0 x1 x2 x3 x4) := by
  rw [step_3, ← state_2]; rfl
theorem state_4 (x0 : Vec F S20x512x128 .f32) (x1 : Vec F S512x20 .i32) (x2 : Vec F S64x256 .f32) (x3 : Vec F S64x256 .f32) (x4 : Vec F S1x256 .f32) : state x0 x1 x2 x3 x4 4 = (cS4 x0 x1 x2 x3 x4, hS4 x0 x1 x2 x3 x4) := by
  rw [step_4, ← state_3]; rfl
theorem state_5 (x0 : Vec F S20x512x128 .f32) (x1 : Vec F S512x20 .i32) (x2 : Vec F S64x256 .f32) (x3 : Vec F S64x256 .f32) (x4 : Vec F S1x256 .f32) : state x0 x1 x2 x3 x4 5 = (cS5 x0 x1 x2 x3 x4, hS5 x0 x1 x2 x3 x4) := by
  rw [step_5, ← state_4]; rfl
theorem state_6 (x0 : Vec F S20x512x128 .f32) (x1 : Vec F S512x20 .i32) (x2 : Vec F S64x256 .f32) (x3 : Vec F S64x256 .f32) (x4 : Vec F S1x256 .f32) : state x0 x1 x2 x3 x4 6 = (cS6 x0 x1 x2 x3 x4, hS6 x0 x1 x2 x3 x4) := by
  rw [step_6, ← state_5]; rfl
theorem state_7 (x0 : Vec F S20x512x128 .f32) (x1 : Vec F S512x20 .i32) (x2 : Vec F S64x256 .f32) (x3 : Vec F S64x256 .f32) (x4 : Vec F S1x256 .f32) : state x0 x1 x2 x3 x4 7 = (cS7 x0 x1 x2 x3 x4, hS7 x0 x1 x2 x3 x4) := by
  rw [step_7, ← state_6]; rfl
theorem state_8 (x0 : Vec F S20x512x128 .f32) (x1 : Vec F S512x20 .i32) (x2 : Vec F S64x256 .f32) (x3 : Vec F S64x256 .f32) (x4 : Vec F S1x256 .f32) : state x0 x1 x2 x3 x4 8 = (cS8 x0 x1 x2 x3 x4, hS8 x0 x1 x2 x3 x4) := by
  rw [step_8, ← state_7]; rfl
theorem state_9 (x0 : Vec F S20x512x128 .f32) (x1 : Vec F S512x20 .i32) (x2 : Vec F S64x256 .f32) (x3 : Vec F S64x256 .f32) (x4 : Vec F S1x256 .f32) : state x0 x1 x2 x3 x4 9 = (cS9 x0 x1 x2 x3 x4, hS9 x0 x1 x2 x3 x4) := by
  rw [step_9, ← state_8]; rfl
theorem state_10 (x0 : Vec F S20x512x128 .f32) (x1 : Vec F S512x20 .i32) (x2 : Vec F S64x256 .f32) (x3 : Vec F S64x256 .f32) (x4 : Vec F S1x256 .f32) : state x0 x1 x2 x3 x4 10 = (cS10 x0 x1 x2 x3 x4, hS10 x0 x1 x2 x3 x4) := by
  rw [step_10, ← state_9]; rfl
theorem state_11 (x0 : Vec F S20x512x128 .f32) (x1 : Vec F S512x20 .i32) (x2 : Vec F S64x256 .f32) (x3 : Vec F S64x256 .f32) (x4 : Vec F S1x256 .f32) : state x0 x1 x2 x3 x4 11 = (cS11 x0 x1 x2 x3 x4, hS11 x0 x1 x2 x3 x4) := by
  rw [step_11, ← state_10]; rfl
theorem state_12 (x0 : Vec F S20x512x128 .f32) (x1 : Vec F S512x20 .i32) (x2 : Vec F S64x256 .f32) (x3 : Vec F S64x256 .f32) (x4 : Vec F S1x256 .f32) : state x0 x1 x2 x3 x4 12 = (cS12 x0 x1 x2 x3 x4, hS12 x0 x1 x2 x3 x4) := by
  rw [step_12, ← state_11]; rfl
theorem state_13 (x0 : Vec F S20x512x128 .f32) (x1 : Vec F S512x20 .i32) (x2 : Vec F S64x256 .f32) (x3 : Vec F S64x256 .f32) (x4 : Vec F S1x256 .f32) : state x0 x1 x2 x3 x4 13 = (cS13 x0 x1 x2 x3 x4, hS13 x0 x1 x2 x3 x4) := by
  rw [step_13, ← state_12]; rfl
theorem state_14 (x0 : Vec F S20x512x128 .f32) (x1 : Vec F S512x20 .i32) (x2 : Vec F S64x256 .f32) (x3 : Vec F S64x256 .f32) (x4 : Vec F S1x256 .f32) : state x0 x1 x2 x3 x4 14 = (cS14 x0 x1 x2 x3 x4, hS14 x0 x1 x2 x3 x4) := by
  rw [step_14, ← state_13]; rfl
theorem state_15 (x0 : Vec F S20x512x128 .f32) (x1 : Vec F S512x20 .i32) (x2 : Vec F S64x256 .f32) (x3 : Vec F S64x256 .f32) (x4 : Vec F S1x256 .f32) : state x0 x1 x2 x3 x4 15 = (cS15 x0 x1 x2 x3 x4, hS15 x0 x1 x2 x3 x4) := by
  rw [step_15, ← state_14]; rfl
theorem state_16 (x0 : Vec F S20x512x128 .f32) (x1 : Vec F S512x20 .i32) (x2 : Vec F S64x256 .f32) (x3 : Vec F S64x256 .f32) (x4 : Vec F S1x256 .f32) : state x0 x1 x2 x3 x4 16 = (cS16 x0 x1 x2 x3 x4, hS16 x0 x1 x2 x3 x4) := by
  rw [step_16, ← state_15]; rfl
theorem state_17 (x0 : Vec F S20x512x128 .f32) (x1 : Vec F S512x20 .i32) (x2 : Vec F S64x256 .f32) (x3 : Vec F S64x256 .f32) (x4 : Vec F S1x256 .f32) : state x0 x1 x2 x3 x4 17 = (cS17 x0 x1 x2 x3 x4, hS17 x0 x1 x2 x3 x4) := by
  rw [step_17, ← state_16]; rfl
theorem state_18 (x0 : Vec F S20x512x128 .f32) (x1 : Vec F S512x20 .i32) (x2 : Vec F S64x256 .f32) (x3 : Vec F S64x256 .f32) (x4 : Vec F S1x256 .f32) : state x0 x1 x2 x3 x4 18 = (cS18 x0 x1 x2 x3 x4, hS18 x0 x1 x2 x3 x4) := by
  rw [step_18, ← state_17]; rfl
theorem state_19 (x0 : Vec F S20x512x128 .f32) (x1 : Vec F S512x20 .i32) (x2 : Vec F S64x256 .f32) (x3 : Vec F S64x256 .f32) (x4 : Vec F S1x256 .f32) : state x0 x1 x2 x3 x4 19 = (cS19 x0 x1 x2 x3 x4, hS19 x0 x1 x2 x3 x4) := by
  rw [step_19, ← state_18]; rfl

end Lstm

open Lstm

/-! ## The outputs, read off the iterates -/

/-- The zero offsets of a whole state block. -/
theorem off_rH : (![0, 0] : Fin 2 → ℕ) = fun _ => 0 := by
  funext a
  match a with
  | ⟨0, _⟩ => rfl
  | ⟨1, _⟩ => rfl

/-- The final hidden state's buffer holds h after step 19. -/
theorem out2_6_eq (x0 : Vec F S20x512x128 .f32) (x1 : Vec F S512x20 .i32) (x2 : Vec F S64x256 .f32) (x3 : Vec F S64x256 .f32) (x4 : Vec F S1x256 .f32) : out2_6 x0 x1 x2 x3 x4 = (state x0 x1 x2 x3 x4 19).2 := by
  rw [state_19]
  exact View.canon_unit_zero off_rH _ _

/-- The final cell state's buffer holds c after step 19. -/
theorem out2_7_eq (x0 : Vec F S20x512x128 .f32) (x1 : Vec F S512x20 .i32) (x2 : Vec F S64x256 .f32) (x3 : Vec F S64x256 .f32) (x4 : Vec F S1x256 .f32) : out2_7 x0 x1 x2 x3 x4 = (state x0 x1 x2 x3 x4 19).1 := by
  rw [state_19]
  exact View.canon_unit_zero off_rH _ _

/-- A hidden state stored as slab `t` of the output, read at the slab's local index: the state at the index's last two
    coordinates, and the index sits in slab `t`. -/
theorem slab_piece (H : ℕ → FVec F S512x64 .f32) (t : ℕ) (inb : ∀ a, (![t, 0, 0] : Fin 3 → ℕ) a + S1x512x64.size a ≤ S20x512x64.size a)
    (x : (Rect.unit (s := S20x512x64) ![t, 0, 0] S1x512x64.size inb).shape.Idx) :
    shapeCast S1x512x64 (H t) shapeCasts_S512x64_S1x512x64 x
      = H (((Rect.unit (s := S20x512x64) ![t, 0, 0] S1x512x64.size inb).emb x) 0).val
          (ix2 (((Rect.unit (s := S20x512x64) ![t, 0, 0] S1x512x64.size inb).emb x) 1) (((Rect.unit (s := S20x512x64) ![t, 0, 0] S1x512x64.size inb).emb x) 2)) := by
  have h0 : (x 0).val = 0 := by
    have hlt : (x 0).val < 1 := (x 0).isLt
    omega
  have e0 : (((Rect.unit (s := S20x512x64) ![t, 0, 0] S1x512x64.size inb).emb x) 0).val = t := by
    rw [Rect.emb_apply]; show t + 1 * (x 0).val = t; omega
  rw [e0]
  refine (shapeCast_addUnit_apply ![512, 64] (H t) shapeCasts_S512x64_S1x512x64 x).trans ?_
  refine congrArg (H t) (funext fun a => ?_)
  match a with
  | ⟨0, _⟩ => exact Fin.ext (by rw [Rect.emb_apply]; show (x 1).val = 0 + 1 * (x 1).val; omega)
  | ⟨1, _⟩ => exact Fin.ext (by rw [Rect.emb_apply]; show (x 2).val = 0 + 1 * (x 2).val; omega)

/-- Slab `t` of the hidden-state output holds h after step `t`. -/
theorem out2_5_apply (x0 : Vec F S20x512x128 .f32) (x1 : Vec F S512x20 .i32) (x2 : Vec F S64x256 .f32) (x3 : Vec F S64x256 .f32) (x4 : Vec F S1x256 .f32) (t : Fin 20) (r : Fin 512) (j : Fin 64) :
    out2_5 x0 x1 x2 x3 x4 (ix3 t r j) = (state x0 x1 x2 x3 x4 t.val).2 (ix2 r j) := by
  unfold out2_5
  refine View.canon_apply_of_pieces (fun y : S20x512x64.Idx => (state x0 x1 x2 x3 x4 (y 0).val).2 (ix2 (y 1) (y 2))) _ ?_ (ix3 t r j) (cover2_5 _ _ _ _ _ _ _ _ _ _ _ _ _ _ _ _ _ _ _ _ _)
  intro p hp
  simp only [List.mem_cons, List.mem_nil_iff, or_false] at hp
  rcases hp with rfl | rfl | rfl | rfl | rfl | rfl | rfl | rfl | rfl | rfl | rfl | rfl | rfl | rfl | rfl | rfl | rfl | rfl | rfl | rfl
  · intro x
    have e : (state x0 x1 x2 x3 x4 19).2 = hS19 x0 x1 x2 x3 x4 := by rw [state_19]
    show shapeCast S1x512x64 (hS19 x0 x1 x2 x3 x4) shapeCasts_S512x64_S1x512x64 x = _
    rw [← e]
    exact slab_piece (fun n => (state x0 x1 x2 x3 x4 n).2) 19 inb_S20x512x64_S1x512x64_19_0_0 x
  · intro x
    have e : (state x0 x1 x2 x3 x4 18).2 = hS18 x0 x1 x2 x3 x4 := by rw [state_18]
    show shapeCast S1x512x64 (hS18 x0 x1 x2 x3 x4) shapeCasts_S512x64_S1x512x64 x = _
    rw [← e]
    exact slab_piece (fun n => (state x0 x1 x2 x3 x4 n).2) 18 inb_S20x512x64_S1x512x64_18_0_0 x
  · intro x
    have e : (state x0 x1 x2 x3 x4 17).2 = hS17 x0 x1 x2 x3 x4 := by rw [state_17]
    show shapeCast S1x512x64 (hS17 x0 x1 x2 x3 x4) shapeCasts_S512x64_S1x512x64 x = _
    rw [← e]
    exact slab_piece (fun n => (state x0 x1 x2 x3 x4 n).2) 17 inb_S20x512x64_S1x512x64_17_0_0 x
  · intro x
    have e : (state x0 x1 x2 x3 x4 16).2 = hS16 x0 x1 x2 x3 x4 := by rw [state_16]
    show shapeCast S1x512x64 (hS16 x0 x1 x2 x3 x4) shapeCasts_S512x64_S1x512x64 x = _
    rw [← e]
    exact slab_piece (fun n => (state x0 x1 x2 x3 x4 n).2) 16 inb_S20x512x64_S1x512x64_16_0_0 x
  · intro x
    have e : (state x0 x1 x2 x3 x4 15).2 = hS15 x0 x1 x2 x3 x4 := by rw [state_15]
    show shapeCast S1x512x64 (hS15 x0 x1 x2 x3 x4) shapeCasts_S512x64_S1x512x64 x = _
    rw [← e]
    exact slab_piece (fun n => (state x0 x1 x2 x3 x4 n).2) 15 inb_S20x512x64_S1x512x64_15_0_0 x
  · intro x
    have e : (state x0 x1 x2 x3 x4 14).2 = hS14 x0 x1 x2 x3 x4 := by rw [state_14]
    show shapeCast S1x512x64 (hS14 x0 x1 x2 x3 x4) shapeCasts_S512x64_S1x512x64 x = _
    rw [← e]
    exact slab_piece (fun n => (state x0 x1 x2 x3 x4 n).2) 14 inb_S20x512x64_S1x512x64_14_0_0 x
  · intro x
    have e : (state x0 x1 x2 x3 x4 13).2 = hS13 x0 x1 x2 x3 x4 := by rw [state_13]
    show shapeCast S1x512x64 (hS13 x0 x1 x2 x3 x4) shapeCasts_S512x64_S1x512x64 x = _
    rw [← e]
    exact slab_piece (fun n => (state x0 x1 x2 x3 x4 n).2) 13 inb_S20x512x64_S1x512x64_13_0_0 x
  · intro x
    have e : (state x0 x1 x2 x3 x4 12).2 = hS12 x0 x1 x2 x3 x4 := by rw [state_12]
    show shapeCast S1x512x64 (hS12 x0 x1 x2 x3 x4) shapeCasts_S512x64_S1x512x64 x = _
    rw [← e]
    exact slab_piece (fun n => (state x0 x1 x2 x3 x4 n).2) 12 inb_S20x512x64_S1x512x64_12_0_0 x
  · intro x
    have e : (state x0 x1 x2 x3 x4 11).2 = hS11 x0 x1 x2 x3 x4 := by rw [state_11]
    show shapeCast S1x512x64 (hS11 x0 x1 x2 x3 x4) shapeCasts_S512x64_S1x512x64 x = _
    rw [← e]
    exact slab_piece (fun n => (state x0 x1 x2 x3 x4 n).2) 11 inb_S20x512x64_S1x512x64_11_0_0 x
  · intro x
    have e : (state x0 x1 x2 x3 x4 10).2 = hS10 x0 x1 x2 x3 x4 := by rw [state_10]
    show shapeCast S1x512x64 (hS10 x0 x1 x2 x3 x4) shapeCasts_S512x64_S1x512x64 x = _
    rw [← e]
    exact slab_piece (fun n => (state x0 x1 x2 x3 x4 n).2) 10 inb_S20x512x64_S1x512x64_10_0_0 x
  · intro x
    have e : (state x0 x1 x2 x3 x4 9).2 = hS9 x0 x1 x2 x3 x4 := by rw [state_9]
    show shapeCast S1x512x64 (hS9 x0 x1 x2 x3 x4) shapeCasts_S512x64_S1x512x64 x = _
    rw [← e]
    exact slab_piece (fun n => (state x0 x1 x2 x3 x4 n).2) 9 inb_S20x512x64_S1x512x64_9_0_0 x
  · intro x
    have e : (state x0 x1 x2 x3 x4 8).2 = hS8 x0 x1 x2 x3 x4 := by rw [state_8]
    show shapeCast S1x512x64 (hS8 x0 x1 x2 x3 x4) shapeCasts_S512x64_S1x512x64 x = _
    rw [← e]
    exact slab_piece (fun n => (state x0 x1 x2 x3 x4 n).2) 8 inb_S20x512x64_S1x512x64_8_0_0 x
  · intro x
    have e : (state x0 x1 x2 x3 x4 7).2 = hS7 x0 x1 x2 x3 x4 := by rw [state_7]
    show shapeCast S1x512x64 (hS7 x0 x1 x2 x3 x4) shapeCasts_S512x64_S1x512x64 x = _
    rw [← e]
    exact slab_piece (fun n => (state x0 x1 x2 x3 x4 n).2) 7 inb_S20x512x64_S1x512x64_7_0_0 x
  · intro x
    have e : (state x0 x1 x2 x3 x4 6).2 = hS6 x0 x1 x2 x3 x4 := by rw [state_6]
    show shapeCast S1x512x64 (hS6 x0 x1 x2 x3 x4) shapeCasts_S512x64_S1x512x64 x = _
    rw [← e]
    exact slab_piece (fun n => (state x0 x1 x2 x3 x4 n).2) 6 inb_S20x512x64_S1x512x64_6_0_0 x
  · intro x
    have e : (state x0 x1 x2 x3 x4 5).2 = hS5 x0 x1 x2 x3 x4 := by rw [state_5]
    show shapeCast S1x512x64 (hS5 x0 x1 x2 x3 x4) shapeCasts_S512x64_S1x512x64 x = _
    rw [← e]
    exact slab_piece (fun n => (state x0 x1 x2 x3 x4 n).2) 5 inb_S20x512x64_S1x512x64_5_0_0 x
  · intro x
    have e : (state x0 x1 x2 x3 x4 4).2 = hS4 x0 x1 x2 x3 x4 := by rw [state_4]
    show shapeCast S1x512x64 (hS4 x0 x1 x2 x3 x4) shapeCasts_S512x64_S1x512x64 x = _
    rw [← e]
    exact slab_piece (fun n => (state x0 x1 x2 x3 x4 n).2) 4 inb_S20x512x64_S1x512x64_4_0_0 x
  · intro x
    have e : (state x0 x1 x2 x3 x4 3).2 = hS3 x0 x1 x2 x3 x4 := by rw [state_3]
    show shapeCast S1x512x64 (hS3 x0 x1 x2 x3 x4) shapeCasts_S512x64_S1x512x64 x = _
    rw [← e]
    exact slab_piece (fun n => (state x0 x1 x2 x3 x4 n).2) 3 inb_S20x512x64_S1x512x64_3_0_0 x
  · intro x
    have e : (state x0 x1 x2 x3 x4 2).2 = hS2 x0 x1 x2 x3 x4 := by rw [state_2]
    show shapeCast S1x512x64 (hS2 x0 x1 x2 x3 x4) shapeCasts_S512x64_S1x512x64 x = _
    rw [← e]
    exact slab_piece (fun n => (state x0 x1 x2 x3 x4 n).2) 2 inb_S20x512x64_S1x512x64_2_0_0 x
  · intro x
    have e : (state x0 x1 x2 x3 x4 1).2 = hS1 x0 x1 x2 x3 x4 := by rw [state_1]
    show shapeCast S1x512x64 (hS1 x0 x1 x2 x3 x4) shapeCasts_S512x64_S1x512x64 x = _
    rw [← e]
    exact slab_piece (fun n => (state x0 x1 x2 x3 x4 n).2) 1 inb_S20x512x64_S1x512x64_1_0_0 x
  · intro x
    have e : (state x0 x1 x2 x3 x4 0).2 = hS0 x0 x1 x2 x3 x4 := by rw [state_0]
    show shapeCast S1x512x64 (hS0 x0 x1 x2 x3 x4) shapeCasts_S512x64_S1x512x64 x = _
    rw [← e]
    exact slab_piece (fun n => (state x0 x1 x2 x3 x4 n).2) 0 inb_S20x512x64_S1x512x64_0_0_0 x

/-! ## One step read at an index, at the ideal values

At the extended reals the step function is, element by element, the textbook recurrence: the two matrix products are
sums over the contracted coordinate, the activations are the logistic function and the hyperbolic tangent. -/

namespace Lstm

open scoped BigOperators

/-- The one coordinate of a unit axis. -/
abbrev u0 : Fin 1 := ⟨0, Nat.one_pos⟩

/-- Prefixing a block index (a, b) with the unit axis gives the slab index (0, a, b). -/
theorem cons0_ix2 {m n : ℕ} (a : Fin m) (b : Fin n) :
    (Fin.cons (⟨0, Nat.one_pos⟩ : Fin 1) (ix2 a b) : (⟨3, ![1, m, n]⟩ : Shape).Idx) = ix3 u0 a b := by
  funext c
  match c with
  | ⟨0, _⟩ => rfl
  | ⟨1, _⟩ => rfl
  | ⟨2, _⟩ => rfl

/-- A slab viewed as its one block, read at (a, b), is the slab at (0, a, b). -/
theorem dropUnit_ix2 {α : Type} {m n : ℕ} (v : (⟨3, ![1, m, n]⟩ : Shape).Idx → α)
    (h : (⟨3, ![1, m, n]⟩ : Shape).ShapeCasts ⟨2, ![m, n]⟩) (a : Fin m) (b : Fin n) :
    shapeCast ⟨2, ![m, n]⟩ v h (ix2 a b) = v (ix3 u0 a b) :=
  (shapeCast_dropUnit_apply ![m, n] v h (ix2 a b)).trans (congrArg v (cons0_ix2 a b))

/-- The step's input row at an index: the upper half of the packed row where the row's selector word is at least
    524288 (as a signed word), the lower half elsewhere. -/
theorem xsel_apply (row : Vec F S1x512x128 .f32) (sel : Vec F S512x1 .i32) (r : Fin 512) (k : Fin 64) :
    xsel row sel (ix2 r k)
      = if (524288#32).sle (sel (ix2 r u0)) then row (ix3 u0 r ⟨64 + k.val, by omega⟩) else row (ix3 u0 r ⟨k.val, by omega⟩) := by
  have hk := k.isLt
  unfold xsel
  rw [select_apply, shapeCast_self]
  rw [broadcastTo_apply _ broadcasts_S512x1_S512x64 (ix2 r k) (ix2 r u0) (fun a => by
    match a with
    | ⟨0, _⟩ => show r.val = if (512 : ℕ) = 1 then 0 else r.val; rw [if_neg (by decide)]
    | ⟨1, _⟩ => show (0 : ℕ) = if (1 : ℕ) = 1 then 0 else k.val; rw [if_pos rfl])]
  rw [extractStridedSlice_apply ![0, 64] _ slices_S512x128_o0_64_S512x64 (ix2 r k) (ix2 r ⟨64 + k.val, by omega⟩) (fun a => by
    match a with
    | ⟨0, _⟩ => show r.val = 0 + r.val; omega
    | ⟨1, _⟩ => rfl)]
  rw [extractStridedSlice_apply ![0, 0] _ slices_S512x128_o0_0_S512x64 (ix2 r k) (ix2 r ⟨k.val, by omega⟩) (fun a => by
    match a with
    | ⟨0, _⟩ => show r.val = 0 + r.val; omega
    | ⟨1, _⟩ => show k.val = 0 + k.val; omega)]
  rw [dropUnit_ix2 row shapeCasts_S1x512x128_S512x128, dropUnit_ix2 row shapeCasts_S1x512x128_S512x128]
  show Scalar.select (BitVec.ofBool ((524288#32).sle (sel (ix2 r u0)))) _ _ = _
  unfold Scalar.select
  cases (524288#32).sle (sel (ix2 r u0)) <;> simp

/-- The body's matrix product into a zero accumulator, read at an index: the sum over the contracted coordinate. -/
theorem matmul_zero_apply (A : FVec Ideal S512x64 .f32) (B : FVec Ideal S64x256 .f32) (a : Fin 512) (b : Fin 256) :
    matmul dot_S512x64_S64x256_S512x256_1_0_0_1_n_n none A B (constant S512x256 .f32 0x00000000#32) (ix2 a b)
      = ∑ c : Fin 64, A (ix2 a c) * B (ix2 c b) := by
  show FloatOps.matmul dot_S512x64_S64x256_S512x256_1_0_0_1_n_n none A B (constant S512x256 .f32 0x00000000#32) (ix2 a b) = _
  rw [Ideal.matmul_constant_zero_apply, ← Equiv.sum_comp (contrEquiv1 dot_S512x64_S64x256_S512x256_1_0_0_1_n_n 64 rfl rfl).symm]
  refine Finset.sum_congr rfl fun c _ => ?_
  have c2 := contrEquiv1_symm_val dot_S512x64_S64x256_S512x256_1_0_0_1_n_n 64 rfl rfl c
  have l2 : (dot_S512x64_S64x256_S512x256_1_0_0_1_n_n).lhsIdx (ix2 a b) ((contrEquiv1 _ 64 rfl rfl).symm c) = ix2 a c := by
    funext ax; apply Fin.ext
    match ax with
    | ⟨0, _⟩ => simp [DotDims.lhsIdx, dot_S512x64_S64x256_S512x256_1_0_0_1_n_n]; rfl
    | ⟨1, _⟩ => simp [DotDims.lhsIdx, dot_S512x64_S64x256_S512x256_1_0_0_1_n_n]; exact c2
  have r2 : (dot_S512x64_S64x256_S512x256_1_0_0_1_n_n).rhsIdx (ix2 a b) ((contrEquiv1 _ 64 rfl rfl).symm c) = ix2 c b := by
    funext ax; apply Fin.ext
    match ax with
    | ⟨0, _⟩ => simp [DotDims.rhsIdx, dot_S512x64_S64x256_S512x256_1_0_0_1_n_n]; exact c2
    | ⟨1, _⟩ => simp [DotDims.rhsIdx, dot_S512x64_S64x256_S512x256_1_0_0_1_n_n]; rfl
  rw [l2, r2]

/-- The pre-activations at an index: z = xt·W + h·U + b. -/
theorem gates_apply (W U : Vec Ideal S64x256 .f32) (b : FVec Ideal S1x256 .f32) (xt h : FVec Ideal S512x64 .f32) (r : Fin 512) (n : Fin 256) :
    gates W U b xt h (ix2 r n)
      = (∑ k : Fin 64, xt (ix2 r k) * W (ix2 k n)) + (∑ k : Fin 64, h (ix2 r k) * U (ix2 k n)) + b (ix2 u0 n) := by
  unfold gates
  rw [addf_apply, addf_apply, matmul_zero_apply, matmul_zero_apply]
  rw [broadcastTo_apply b broadcasts_S1x256_S512x256 (ix2 r n) (ix2 u0 n) (fun a => by
    match a with
    | ⟨0, _⟩ => show (0 : ℕ) = if (1 : ℕ) = 1 then 0 else r.val; rw [if_pos rfl]
    | ⟨1, _⟩ => show n.val = if (256 : ℕ) = 1 then 0 else n.val; rw [if_neg (by decide)])]

/-- The new cell state at an index: c' = σ(z_f)·c + σ(z_i)·tanh(z_g), the gates' pre-activations at columns
    64 + j, j and 128 + j of the row. -/
theorem cNext_apply (z : FVec Ideal S512x256 .f32) (c : FVec Ideal S512x64 .f32) (r : Fin 512) (j : Fin 64) :
    cNext z c (ix2 r j)
      = Ideal.logistic (z (ix2 r ⟨64 + j.val, by omega⟩)) * c (ix2 r j)
        + Ideal.logistic (z (ix2 r ⟨j.val, by omega⟩)) * Ideal.tanh (z (ix2 r ⟨128 + j.val, by omega⟩)) := by
  have hj := j.isLt
  unfold cNext
  rw [addf_apply, mulf_apply, mulf_apply]
  show Ideal.logistic (extractStridedSlice S512x64 ![0, 64] z slices_S512x256_o0_64_S512x64 (ix2 r j)) * c (ix2 r j)
      + Ideal.logistic (extractStridedSlice S512x64 ![0, 0] z slices_S512x256_o0_0_S512x64 (ix2 r j))
        * Ideal.tanh (extractStridedSlice S512x64 ![0, 128] z slices_S512x256_o0_128_S512x64 (ix2 r j)) = _
  rw [extractStridedSlice_apply ![0, 64] z slices_S512x256_o0_64_S512x64 (ix2 r j) (ix2 r ⟨64 + j.val, by omega⟩) (fun a => by
    match a with
    | ⟨0, _⟩ => show r.val = 0 + r.val; omega
    | ⟨1, _⟩ => rfl),
    extractStridedSlice_apply ![0, 0] z slices_S512x256_o0_0_S512x64 (ix2 r j) (ix2 r ⟨j.val, by omega⟩) (fun a => by
    match a with
    | ⟨0, _⟩ => show r.val = 0 + r.val; omega
    | ⟨1, _⟩ => show j.val = 0 + j.val; omega),
    extractStridedSlice_apply ![0, 128] z slices_S512x256_o0_128_S512x64 (ix2 r j) (ix2 r ⟨128 + j.val, by omega⟩) (fun a => by
    match a with
    | ⟨0, _⟩ => show r.val = 0 + r.val; omega
    | ⟨1, _⟩ => rfl)]

/-- The new hidden state at an index: h' = σ(z_o)·tanh(c'), the output gate's pre-activation at column 192 + j. -/
theorem hNext_apply (z : FVec Ideal S512x256 .f32) (c' : FVec Ideal S512x64 .f32) (r : Fin 512) (j : Fin 64) :
    hNext z c' (ix2 r j) = Ideal.logistic (z (ix2 r ⟨192 + j.val, by omega⟩)) * Ideal.tanh (c' (ix2 r j)) := by
  have hj := j.isLt
  unfold hNext
  rw [mulf_apply]
  show Ideal.logistic (extractStridedSlice S512x64 ![0, 192] z slices_S512x256_o0_192_S512x64 (ix2 r j)) * Ideal.tanh (c' (ix2 r j)) = _
  rw [extractStridedSlice_apply ![0, 192] z slices_S512x256_o0_192_S512x64 (ix2 r j) (ix2 r ⟨192 + j.val, by omega⟩) (fun a => by
    match a with
    | ⟨0, _⟩ => show r.val = 0 + r.val; omega
    | ⟨1, _⟩ => rfl)]

/-- Row `r`'s input at step coordinates: element `k` of the selected half of the packed row. -/
def xAt (row : Vec Ideal S1x512x128 .f32) (sel : Vec Ideal S512x1 .i32) (r : Fin 512) (k : Fin 64) : EReal :=
  if (524288#32).sle (sel (ix2 r u0)) then row (ix3 u0 r ⟨64 + k.val, by omega⟩) else row (ix3 u0 r ⟨k.val, by omega⟩)

/-- Row `r`'s pre-activation `n`: z = Σₖ xt[r,k]·W[k,n] + Σₖ h[r,k]·U[k,n] + b[n]. -/
def zAt (W U : Vec Ideal S64x256 .f32) (b : FVec Ideal S1x256 .f32) (row : Vec Ideal S1x512x128 .f32) (sel : Vec Ideal S512x1 .i32)
    (h : FVec Ideal S512x64 .f32) (r : Fin 512) (n : Fin 256) : EReal :=
  (∑ k : Fin 64, xAt row sel r k * W (ix2 k n)) + (∑ k : Fin 64, h (ix2 r k) * U (ix2 k n)) + b (ix2 u0 n)

/-- The step's pre-activations at an index. -/
theorem gates_xsel_apply (W U : Vec Ideal S64x256 .f32) (b : FVec Ideal S1x256 .f32) (row : Vec Ideal S1x512x128 .f32)
    (sel : Vec Ideal S512x1 .i32) (h : FVec Ideal S512x64 .f32) (r : Fin 512) (n : Fin 256) :
    gates W U b (xsel row sel) h (ix2 r n) = zAt W U b row sel h r n := by
  rw [gates_apply]
  unfold zAt xAt
  congr 2
  exact Finset.sum_congr rfl fun k _ => by rw [xsel_apply]

/-- ONE STEP AT AN INDEX, the cell state: c'[r,j] = σ(z[r,64+j])·c[r,j] + σ(z[r,j])·tanh(z[r,128+j]). -/
theorem step_fst_apply (W U : Vec Ideal S64x256 .f32) (b : FVec Ideal S1x256 .f32) (row : Vec Ideal S1x512x128 .f32)
    (sel : Vec Ideal S512x1 .i32) (c h : FVec Ideal S512x64 .f32) (r : Fin 512) (j : Fin 64) :
    (step W U b row sel (c, h)).1 (ix2 r j)
      = Ideal.logistic (zAt W U b row sel h r ⟨64 + j.val, by omega⟩) * c (ix2 r j)
        + Ideal.logistic (zAt W U b row sel h r ⟨j.val, by omega⟩) * Ideal.tanh (zAt W U b row sel h r ⟨128 + j.val, by omega⟩) := by
  show cNext (gates W U b (xsel row sel) h) c (ix2 r j) = _
  rw [cNext_apply, gates_xsel_apply, gates_xsel_apply, gates_xsel_apply]

/-- ONE STEP AT AN INDEX, the hidden state: h'[r,j] = σ(z[r,192+j])·tanh(c'[r,j]). -/
theorem step_snd_apply (W U : Vec Ideal S64x256 .f32) (b : FVec Ideal S1x256 .f32) (row : Vec Ideal S1x512x128 .f32)
    (sel : Vec Ideal S512x1 .i32) (c h : FVec Ideal S512x64 .f32) (r : Fin 512) (j : Fin 64) :
    (step W U b row sel (c, h)).2 (ix2 r j)
      = Ideal.logistic (zAt W U b row sel h r ⟨192 + j.val, by omega⟩) * Ideal.tanh ((step W U b row sel (c, h)).1 (ix2 r j)) := by
  show hNext (gates W U b (xsel row sel) h) (cNext (gates W U b (xsel row sel) h) c) (ix2 r j) = _
  rw [hNext_apply, gates_xsel_apply]
  rfl

/-- The states the recurrence starts from are zero. -/
theorem zeroS_apply (i : S512x64.Idx) : zeroS (F := Ideal) i = 0 := by
  show Ideal.ofBits .f32 0x00000000#32 = 0
  exact Ideal.ofBits_zero_f32

/-! ## The step's operands as elements of the input blocks -/

/-- Slab `t` of the packed rows at (0, r, m) is the block at (t, r, m). -/
theorem ld_slab_apply (x0 : Vec F S20x512x128 .f32) (t : Fin 20) (r : Fin 512) (m : Fin 128) :
    View.ld x0 (slab t) (ix3 u0 r m) = x0 (ix3 t r m) := by
  show x0 ((slab t).emb (ix3 u0 r m)) = _
  refine congrArg x0 (funext fun a => Fin.ext ?_)
  match a with
  | ⟨0, _⟩ => show t.val + 1 * (0 : ℕ) = t.val; omega
  | ⟨1, _⟩ => show 0 + 1 * r.val = r.val; omega
  | ⟨2, _⟩ => show 0 + 1 * m.val = m.val; omega

/-- Column `t` of the selector words at (r, 0) is the block at (r, t). -/
theorem ld_col_apply (x1 : Vec F S512x20 .i32) (t : Fin 20) (r : Fin 512) :
    View.ld x1 (col t) (ix2 r u0) = x1 (ix2 r t) := by
  show x1 ((col t).emb (ix2 r u0)) = _
  refine congrArg x1 (funext fun a => Fin.ext ?_)
  match a with
  | ⟨0, _⟩ => show 0 + 1 * r.val = r.val; omega
  | ⟨1, _⟩ => show t.val + 1 * (0 : ℕ) = t.val; omega

/-- The weights and the bias row the steps use are the input blocks themselves. -/
theorem v0_eq (x0 : Vec F S20x512x128 .f32) (x1 : Vec F S512x20 .i32) (x2 : Vec F S64x256 .f32) (x3 : Vec F S64x256 .f32) (x4 : Vec F S1x256 .f32) : v0 x0 x1 x2 x3 x4 = x2 := View.ld_unit_zero off_rH _ x2
theorem v1_eq (x0 : Vec F S20x512x128 .f32) (x1 : Vec F S512x20 .i32) (x2 : Vec F S64x256 .f32) (x3 : Vec F S64x256 .f32) (x4 : Vec F S1x256 .f32) : v1 x0 x1 x2 x3 x4 = x3 := View.ld_unit_zero off_rH _ x3
theorem v3_eq (x0 : Vec F S20x512x128 .f32) (x1 : Vec F S512x20 .i32) (x2 : Vec F S64x256 .f32) (x3 : Vec F S64x256 .f32) (x4 : Vec F S1x256 .f32) : v3 x0 x1 x2 x3 x4 = x4 := by
  have e : View.ld x4 rB = x4 := View.ld_unit_zero off_rH _ x4
  exact (congrArg (fun v => shapeCast S1x256 v shapeCasts_S1x256_S1x256) e).trans (shapeCast_self x4 _)

/-! ## The iterates at an index, at the ideal values -/

/-- Step `t + 1`'s cell state at an index, from step `t`'s states. -/
theorem state_succ_fst_apply (x0 : Vec Ideal S20x512x128 .f32) (x1 : Vec Ideal S512x20 .i32) (x2 x3 : Vec Ideal S64x256 .f32) (x4 : Vec Ideal S1x256 .f32)
    (t : ℕ) (r : Fin 512) (j : Fin 64) :
    (state x0 x1 x2 x3 x4 (t + 1)).1 (ix2 r j)
      = Ideal.logistic (zAt x2 x3 x4 (View.ld x0 (slab (fin20 (t + 1)))) (View.ld x1 (col (fin20 (t + 1)))) (state x0 x1 x2 x3 x4 t).2 r ⟨64 + j.val, by omega⟩) * (state x0 x1 x2 x3 x4 t).1 (ix2 r j)
        + Ideal.logistic (zAt x2 x3 x4 (View.ld x0 (slab (fin20 (t + 1)))) (View.ld x1 (col (fin20 (t + 1)))) (state x0 x1 x2 x3 x4 t).2 r ⟨j.val, by omega⟩)
          * Ideal.tanh (zAt x2 x3 x4 (View.ld x0 (slab (fin20 (t + 1)))) (View.ld x1 (col (fin20 (t + 1)))) (state x0 x1 x2 x3 x4 t).2 r ⟨128 + j.val, by omega⟩) := by
  have hs : state x0 x1 x2 x3 x4 (t + 1) = step (v0 x0 x1 x2 x3 x4) (v1 x0 x1 x2 x3 x4) (v3 x0 x1 x2 x3 x4) (View.ld x0 (slab (fin20 (t + 1)))) (View.ld x1 (col (fin20 (t + 1)))) ((state x0 x1 x2 x3 x4 t).1, (state x0 x1 x2 x3 x4 t).2) := rfl
  rw [hs, v0_eq, v1_eq, v3_eq]
  exact step_fst_apply x2 x3 x4 _ _ _ _ r j

/-- Step `t + 1`'s hidden state at an index, from its cell state and step `t`'s hidden state. -/
theorem state_succ_snd_apply (x0 : Vec Ideal S20x512x128 .f32) (x1 : Vec Ideal S512x20 .i32) (x2 x3 : Vec Ideal S64x256 .f32) (x4 : Vec Ideal S1x256 .f32)
    (t : ℕ) (r : Fin 512) (j : Fin 64) :
    (state x0 x1 x2 x3 x4 (t + 1)).2 (ix2 r j)
      = Ideal.logistic (zAt x2 x3 x4 (View.ld x0 (slab (fin20 (t + 1)))) (View.ld x1 (col (fin20 (t + 1)))) (state x0 x1 x2 x3 x4 t).2 r ⟨192 + j.val, by omega⟩)
        * Ideal.tanh ((state x0 x1 x2 x3 x4 (t + 1)).1 (ix2 r j)) := by
  have hs : state x0 x1 x2 x3 x4 (t + 1) = step (v0 x0 x1 x2 x3 x4) (v1 x0 x1 x2 x3 x4) (v3 x0 x1 x2 x3 x4) (View.ld x0 (slab (fin20 (t + 1)))) (View.ld x1 (col (fin20 (t + 1)))) ((state x0 x1 x2 x3 x4 t).1, (state x0 x1 x2 x3 x4 t).2) := rfl
  rw [hs, v0_eq, v1_eq, v3_eq]
  exact step_snd_apply x2 x3 x4 _ _ _ _ r j

/-- Step 0's states at an index: the same step from zero states. -/
theorem state_zero_fst_apply (x0 : Vec Ideal S20x512x128 .f32) (x1 : Vec Ideal S512x20 .i32) (x2 x3 : Vec Ideal S64x256 .f32) (x4 : Vec Ideal S1x256 .f32)
    (r : Fin 512) (j : Fin 64) :
    (state x0 x1 x2 x3 x4 0).1 (ix2 r j)
      = Ideal.logistic (zAt x2 x3 x4 (View.ld x0 (slab (fin20 0))) (View.ld x1 (col (fin20 0))) zeroS r ⟨64 + j.val, by omega⟩) * zeroS (F := Ideal) (ix2 r j)
        + Ideal.logistic (zAt x2 x3 x4 (View.ld x0 (slab (fin20 0))) (View.ld x1 (col (fin20 0))) zeroS r ⟨j.val, by omega⟩)
          * Ideal.tanh (zAt x2 x3 x4 (View.ld x0 (slab (fin20 0))) (View.ld x1 (col (fin20 0))) zeroS r ⟨128 + j.val, by omega⟩) := by
  have hs : state x0 x1 x2 x3 x4 0 = step (v0 x0 x1 x2 x3 x4) (v1 x0 x1 x2 x3 x4) (v3 x0 x1 x2 x3 x4) (View.ld x0 (slab (fin20 0))) (View.ld x1 (col (fin20 0))) (zeroS, zeroS) := rfl
  rw [hs, v0_eq, v1_eq, v3_eq]
  exact step_fst_apply x2 x3 x4 _ _ _ _ r j

theorem state_zero_snd_apply (x0 : Vec Ideal S20x512x128 .f32) (x1 : Vec Ideal S512x20 .i32) (x2 x3 : Vec Ideal S64x256 .f32) (x4 : Vec Ideal S1x256 .f32)
    (r : Fin 512) (j : Fin 64) :
    (state x0 x1 x2 x3 x4 0).2 (ix2 r j)
      = Ideal.logistic (zAt x2 x3 x4 (View.ld x0 (slab (fin20 0))) (View.ld x1 (col (fin20 0))) zeroS r ⟨192 + j.val, by omega⟩)
        * Ideal.tanh ((state x0 x1 x2 x3 x4 0).1 (ix2 r j)) := by
  have hs : state x0 x1 x2 x3 x4 0 = step (v0 x0 x1 x2 x3 x4) (v1 x0 x1 x2 x3 x4) (v3 x0 x1 x2 x3 x4) (View.ld x0 (slab (fin20 0))) (View.ld x1 (col (fin20 0))) (zeroS, zeroS) := rfl
  rw [hs, v0_eq, v1_eq, v3_eq]
  exact step_snd_apply x2 x3 x4 _ _ _ _ r j

end Lstm

end Cert.KernelIdeal.Hand

end
-- ==== Proof.RefValueStep.lean ====
/- The reference's scan step as mathematics, at the extended reals.
   One trip of the reference's loop takes the carried pair (h, c) of [4096, 64] arrays to
     z      = (x_t · W + h · U) + b                                  ([4096, 256]; x_t the step's [4096, 64] slice of the input)
     c'     = logistic (z[:, 64:128]) * c + logistic (z[:, 0:64]) * tanh (z[:, 128:192])
     h'     = logistic (z[:, 192:256]) * tanh c'
   This module states that recurrence entry by entry (`zOf`, `cNew`, `hNew`, `stepSt`, `after`, `state`) and proves the
   reads that turn the array operations the reference is written with into it: the step's slice of the time-major
   input read at (r, k); a [4096, 64] by [64, 256] product read at (r, n) as a sum over the 64 contracted coordinates;
   the bias broadcast along the rows; a 64-column slice of z; 1 / (1 + exp (-z)) as the logistic function; the write of a
   step's output into row t of the [20, 4096, 64] stack; and the two transposes between time-major and batch-major. Every
   shape relation is a hypothesis of the lemma that uses it, so the lemmas apply to the relations a program states. -/
import proofs.«206902_g37847251812778_fold_wed_m_929_15_alg».proof.ReferenceIdeal
import Idealize.ShloMosaic.Lib.StackMember
import Idealize.ShloMosaic.Lib.Pipeline.Value
import Idealize.ShloMosaic.Lib.ValueIdx
import Idealize.ShloMosaic.PureOps.Ideal.Laws
import Idealize.ShloMosaic.PureOps.IdealRules
import Idealize.ShloMosaic.Lib.Scf.Counter

noncomputable section

open scoped BigOperators

namespace Cert.ReferenceIdeal.RefValue

open Idealize.ShloMosaic Idealize.ShloMosaic.ValueIdx Idealize.ShloMosaic.Pipeline Cert.ReferenceIdeal

/-! ## The recurrence, entry by entry -/

/-- The carried pair: the cell state `c` and the output `h`, each a 4096 by 64 table of extended reals. -/
structure LSt where
  c : Fin 4096 → Fin 64 → EReal
  h : Fin 4096 → Fin 64 → EReal

/-- Column `o + j` of the 256 gate columns, for a gate that starts at column `o`. -/
def col (o : Nat) (ho : o + 64 ≤ 256) (j : Fin 64) : Fin 256 := ⟨o + j.val, by have := j.isLt; omega⟩

section Rec
variable (W U : FVec Ideal S64x256 .f32) (b : FVec Ideal S256 .f32)

/-- The pre-activation at row `r`, gate column `n`: (x_t · W + h · U) + b, in this association. -/
def zOf (xt hp : Fin 4096 → Fin 64 → EReal) (r : Fin 4096) (n : Fin 256) : EReal :=
  ((∑ k : Fin 64, xt r k * W (ix2 k n)) + (∑ k : Fin 64, hp r k * U (ix2 k n))) + b (ix1 n)

/-- The new cell state: forget gate (columns 64 … 127) times the old one, plus input gate (columns 0 … 63) times the
    candidate (columns 128 … 191). -/
def cNew (xt : Fin 4096 → Fin 64 → EReal) (s : LSt) (r : Fin 4096) (j : Fin 64) : EReal :=
  Ideal.logistic (zOf W U b xt s.h r (col 64 (by omega) j)) * s.c r j
    + Ideal.logistic (zOf W U b xt s.h r (col 0 (by omega) j)) * Ideal.tanh (zOf W U b xt s.h r (col 128 (by omega) j))

/-- The new output: output gate (columns 192 … 255) times tanh of the new cell state. -/
def hNew (xt : Fin 4096 → Fin 64 → EReal) (s : LSt) (r : Fin 4096) (j : Fin 64) : EReal :=
  Ideal.logistic (zOf W U b xt s.h r (col 192 (by omega) j)) * Ideal.tanh (cNew W U b xt s r j)

/-- One step of the recurrence on the carried pair, at input slice `xt`. -/
def stepSt (xt : Fin 4096 → Fin 64 → EReal) (s : LSt) : LSt := ⟨cNew W U b xt s, hNew W U b xt s⟩

/-- The carried pair after `k` steps from zeros, step `i` reading input slice `xs i`. -/
def after (xs : ℕ → Fin 4096 → Fin 64 → EReal) : ℕ → LSt
  | 0 => ⟨fun _ _ => 0, fun _ _ => 0⟩
  | k + 1 => stepSt W U b (xs k) (after xs k)

/-- The carried pair produced BY step `t` (counted from 0): `state 0` is one step from zeros at input slice 0. -/
def state (xs : ℕ → Fin 4096 → Fin 64 → EReal) (t : ℕ) : LSt := after W U b xs (t + 1)

theorem state_zero (xs : ℕ → Fin 4096 → Fin 64 → EReal) :
    state W U b xs 0 = stepSt W U b (xs 0) ⟨fun _ _ => 0, fun _ _ => 0⟩ := rfl
theorem state_succ (xs : ℕ → Fin 4096 → Fin 64 → EReal) (t : ℕ) :
    state W U b xs (t + 1) = stepSt W U b (xs (t + 1)) (state W U b xs t) := rfl

end Rec

/-! ## The array operations read at an index -/

/-- The f32 pattern of 1.0 is the extended real 1. -/
theorem one_f32 : Ideal.ofBits .f32 0x3F800000#32 = 1 := IdealRules.sign_bit.ideal_onePat .f32

/-- Step `t`'s slice of the time-major input [20, 4096, 64], viewed [4096, 64], read at (r, k): the input at (t, r, k),
    when the slice starts at (t, 0, 0). -/
theorem slice_apply (xs : FVec Ideal S20x4096x64 .f32) (start : Fin S20x4096x64.rank → Int) (t : Fin 20)
    (h0 : start ⟨0, by decide⟩ = (t.val : Int)) (h1 : start ⟨1, by decide⟩ = 0) (h2 : start ⟨2, by decide⟩ = 0)
    (hf : S20x4096x64.Slices (fun _ => 0) S1x4096x64) (hc : S1x4096x64.ShapeCasts S4096x64) (r : Fin 4096) (k : Fin 64) :
    shapeCast S4096x64 (Host.dynamicSlice S1x4096x64 xs start hf) hc (ix2 r k) = xs (ix3 t r k) := by
  refine (shapeCast_dropUnit_apply ![4096, 64] _ hc (ix2 r k)).trans ?_
  unfold Host.dynamicSlice
  refine extractStridedSlice_apply _ xs _ _ (ix3 t r k) (fun a => ?_)
  have ht := t.isLt
  match a with
  | ⟨0, _⟩ =>
    show t.val = (min (max (start ⟨0, _⟩) 0) ((20 - 1 : Nat) : Int)).toNat + 0
    rw [h0]; omega
  | ⟨1, _⟩ =>
    show r.val = (min (max (start ⟨1, _⟩) 0) ((4096 - 4096 : Nat) : Int)).toNat + r.val
    rw [h1]; omega
  | ⟨2, _⟩ =>
    show k.val = (min (max (start ⟨2, _⟩) 0) ((64 - 64 : Nat) : Int)).toNat + k.val
    rw [h2]; omega

/-- The [4096, 64] by [64, 256] product read at (r, n): the sum over the contracted coordinate. -/
theorem dot_apply (prec : Option ContractPrecision) (A : FVec Ideal S4096x64 .f32) (B : FVec Ideal S64x256 .f32)
    (r : Fin 4096) (n : Fin 256) :
    Host.dotGeneral (DotDims.plain 4096 64 256) prec A B (ix2 r n) = ∑ k : Fin 64, A (ix2 r k) * B (ix2 k n) :=
  StackMember.dotGeneral_plain_apply prec A B r n

/-- The bias [256] broadcast to [1, 256] and then along the 4096 rows, read at (r, n): the bias at n. -/
theorem bias_apply (b : FVec Ideal S256 .f32) (h1 : S256.BroadcastsInDim S1x256 ![1])
    (h2 : S1x256.BroadcastsInDim S4096x256 ![0, 1]) (r : Fin 4096) (n : Fin 256) :
    broadcastInDim S4096x256 ![0, 1] h2 (broadcastInDim S1x256 ![1] h1 b) (ix2 r n) = b (ix1 n) := by
  refine (broadcastInDim_apply ![0, 1] h2 _ (ix2 r n) (ix2 (0 : Fin 1) n) (fun a => ?_)).trans ?_
  · match a with
    | ⟨0, _⟩ => rfl
    | ⟨1, _⟩ => rfl
  · refine broadcastInDim_apply ![1] h1 b (ix2 (0 : Fin 1) n) (ix1 n) (fun a => ?_)
    match a with
    | ⟨0, _⟩ => rfl

/-- A 64-column slice of the [4096, 256] pre-activation starting at column `o`, read at (r, j): column o + j. -/
theorem gate_apply (z : FVec Ideal S4096x256 .f32) (o : Nat) (ho : o + 64 ≤ 256)
    (h : S4096x256.Slices ![0, o] S4096x64) (r : Fin 4096) (j : Fin 64) :
    extractStridedSlice S4096x64 ![0, o] z h (ix2 r j) = z (ix2 r (col o ho j)) := by
  refine extractStridedSlice_apply ![0, o] z h (ix2 r j) (ix2 r (col o ho j)) (fun a => ?_)
  match a with
  | ⟨0, _⟩ => show r.val = 0 + r.val; omega
  | ⟨1, _⟩ => rfl

/-- 1 / (1 + exp (-z)), as the reference writes the sigmoid, is the logistic function at each entry. -/
theorem sigmoid_apply (z : FVec Ideal S4096x64 .f32) (hb : S_.BroadcastsInDim S4096x64 ![]) (i : S4096x64.Idx) :
    Host.divf (broadcastInDim S4096x64 ![] hb (constant (F := Ideal) S_ .f32 0x3F800000#32))
        (addf (broadcastInDim S4096x64 ![] hb (constant (F := Ideal) S_ .f32 0x3F800000#32)) (Host.exp (Host.negf z))) i
      = Ideal.logistic (z i) := by
  show Ideal.div (Ideal.ofBits .f32 0x3F800000#32) (Ideal.ofBits .f32 0x3F800000#32 + Ideal.exp (-(z i))) = _
  rw [one_f32]; rfl

/-- tanh, as the reference writes it, is the extended reals' tanh at each entry. -/
theorem tanh_apply {s : Shape} (z : FVec Ideal s .f32) (i : s.Idx) : Host.tanh z i = Ideal.tanh (z i) := rfl

/-! ## The counter, the stacked outputs and the two transposes -/

/-- The loop counter after `k` trips, read as a signed integer, is `k` (for the 20 trips and the exit test). -/
theorem iv_toInt (k : Nat) (hk : k ≤ 20) : (Scf.iv 0#32 1#32 k).toInt = (k : Int) := by
  interval_cases k <;> rfl

/-- Writing a [1, 4096, 64] update into the [20, 4096, 64] stack at (t, 0, 0), read at (t', r, j): the update's
    (0, r, j) on row t, the stack elsewhere. -/
theorem dus_apply (ys : FVec Ideal S20x4096x64 .f32) (u : FVec Ideal S1x4096x64 .f32)
    (start : Fin S20x4096x64.rank → Int) (t : Fin 20)
    (h0 : start ⟨0, by decide⟩ = (t.val : Int)) (h1 : start ⟨1, by decide⟩ = 0) (h2 : start ⟨2, by decide⟩ = 0)
    (hf : S20x4096x64.Slices (fun _ => 0) S1x4096x64) (t' : Fin 20) (r : Fin 4096) (j : Fin 64) :
    Host.dynamicUpdateSlice ys u start hf (ix3 t' r j) = if t' = t then u (ix3 (0 : Fin 1) r j) else ys (ix3 t' r j) := by
  have ht := t.isLt
  have hadj : ∀ a, (min (max (start a) 0) ((S20x4096x64.size a - S1x4096x64.size (a.cast hf.1.symm) : Nat) : Int)).toNat
      = (![t.val, 0, 0] : Fin 3 → Nat) a := by
    intro a
    match a with
    | ⟨0, _⟩ => show (min (max (start ⟨0, _⟩) 0) ((20 - 1 : Nat) : Int)).toNat = t.val; rw [h0]; omega
    | ⟨1, _⟩ => show (min (max (start ⟨1, _⟩) 0) ((4096 - 4096 : Nat) : Int)).toNat = 0; rw [h1]; omega
    | ⟨2, _⟩ => show (min (max (start ⟨2, _⟩) 0) ((64 - 64 : Nat) : Int)).toNat = 0; rw [h2]; omega
  have h' : S20x4096x64.Slices (![t.val, 0, 0] : Fin 3 → Nat) S1x4096x64 := ⟨hf.1, fun a => by
    match a with
    | ⟨0, _⟩ => show t.val + 1 ≤ 20; omega
    | ⟨1, _⟩ => show 0 + 4096 ≤ 4096; omega
    | ⟨2, _⟩ => show 0 + 64 ≤ 64; omega⟩
  rw [Host.dynamicUpdateSlice_eq_updateSlice ys u start hf _ hadj h']
  unfold updateSlice
  by_cases htt : t' = t
  · subst htt
    rw [if_pos rfl, dif_pos (fun a => by
      match a with
      | ⟨0, _⟩ => exact ⟨le_refl _, by show t'.val < t'.val + 1; omega⟩
      | ⟨1, _⟩ => exact ⟨Nat.zero_le _, by show r.val < 0 + 4096; omega⟩
      | ⟨2, _⟩ => exact ⟨Nat.zero_le _, by show j.val < 0 + 64; omega⟩)]
    congr 1
    funext b
    apply Fin.ext
    match b with
    | ⟨0, _⟩ => show t'.val - t'.val = 0; omega
    | ⟨1, _⟩ => show r.val - 0 = r.val; omega
    | ⟨2, _⟩ => show j.val - 0 = j.val; omega
  · rw [if_neg htt, dif_neg (fun hin => htt (Fin.ext (by
      have h := hin ⟨0, by decide⟩
      have h1' : t.val ≤ t'.val := h.1
      have h2' : t'.val < t.val + 1 := h.2
      omega)))]

/-- A [4096, 64] array broadcast to [1, 4096, 64], read at (0, r, j): the array at (r, j). -/
theorem row_apply (x : FVec Ideal S4096x64 .f32) (h : S4096x64.BroadcastsInDim S1x4096x64 ![1, 2]) (r : Fin 4096) (j : Fin 64) :
    broadcastInDim S1x4096x64 ![1, 2] h x (ix3 (0 : Fin 1) r j) = x (ix2 r j) := by
  refine broadcastInDim_apply ![1, 2] h x (ix3 (0 : Fin 1) r j) (ix2 r j) (fun a => ?_)
  match a with
  | ⟨0, _⟩ => rfl
  | ⟨1, _⟩ => rfl

/-- The time-major [20, 4096, 64] stack transposed to batch-major [4096, 20, 64], read at (r, t, j): the stack at (t, r, j). -/
theorem toBatchMajor_apply (ys : FVec Ideal S20x4096x64 .f32) (h : S20x4096x64.Transposes [1, 0, 2] S4096x20x64)
    (r : Fin 4096) (t : Fin 20) (j : Fin 64) :
    transpose S4096x20x64 [1, 0, 2] ys h (ix3 r t j) = ys (ix3 t r j) := by
  refine transpose_apply [1, 0, 2] ys h (ix3 r t j) (ix3 t r j) (fun b => ?_)
  match b with
  | ⟨0, _⟩ => rfl
  | ⟨1, _⟩ => rfl
  | ⟨2, _⟩ => rfl

/-- The batch-major [4096, 20, 64] array transposed to time-major [20, 4096, 64], read at (t, r, k): the array at (r, t, k). -/
theorem toTimeMajor_apply (e : FVec Ideal S4096x20x64 .f32) (h : S4096x20x64.Transposes [1, 0, 2] S20x4096x64)
    (t : Fin 20) (r : Fin 4096) (k : Fin 64) :
    transpose S20x4096x64 [1, 0, 2] e h (ix3 t r k) = e (ix3 r t k) := by
  refine transpose_apply [1, 0, 2] e h (ix3 t r k) (ix3 r t k) (fun b => ?_)
  match b with
  | ⟨0, _⟩ => rfl
  | ⟨1, _⟩ => rfl
  | ⟨2, _⟩ => rfl

end Cert.ReferenceIdeal.RefValue

end
-- ==== Proof.LstmBridge.lean ====
/-
  The kernel's recurrence and the reference's, joined row by row.

  The LSTM body works on one block of 512 batch rows; the reference's scan carries all 4096. Both recurrences are
  row-wise: the pre-activations of a row read only that row of the step's input and of the hidden state. So once the
  body's weights and bias are the reference's, and the body's selected input at block row r' is the reference's input
  slice at batch row r at every step, the body's states at row r' are the reference's at row r at every step — by
  induction on the step, the two pre-activations agreeing summand by summand. The three output buffers then hold the
  reference's hidden states and final cell state at that row.
-/
import proofs.«206902_g37847251812778_fold_wed_m_929_15_alg».proof.Proof.LstmValue
import proofs.«206902_g37847251812778_fold_wed_m_929_15_alg».proof.Proof.RefValueStep

noncomputable section

namespace Cert.KernelIdeal.Hand

open Cert.KernelIdeal Cert.KernelIdeal.Gen
open Idealize.ShloMosaic
open Idealize.ShloMosaic.ValueIdx
open scoped BigOperators

namespace Lstm

/-- A step number below twenty is itself among the twenty. -/
theorem fin20_of_lt (t : ℕ) (ht : t < 20) : fin20 t = ⟨t, ht⟩ := Fin.ext (Nat.mod_eq_of_lt ht)

/-- The body's pre-activation at block row `r'` is the reference's at batch row `r`, when the weights and the bias are
    the same and the two rows' inputs and hidden states agree. -/
theorem zAt_eq_zOf (x2 x3 : Vec Ideal S64x256 .f32) (x4 : Vec Ideal S1x256 .f32)
    (W U : FVec Ideal S64x256 .f32) (b : FVec Ideal S256 .f32) (r' : Fin 512) (r : Fin 4096)
    (hW : x2 = W) (hU : x3 = U) (hb : ∀ n : Fin 256, x4 (ix2 u0 n) = b (ix1 n))
    (row : Vec Ideal S1x512x128 .f32) (sel : Vec Ideal S512x1 .i32) (xt : Fin 4096 → Fin 64 → EReal)
    (hx : ∀ k : Fin 64, xAt row sel r' k = xt r k)
    (hK : FVec Ideal S512x64 .f32) (hR : Fin 4096 → Fin 64 → EReal) (hh : ∀ k : Fin 64, hK (ix2 r' k) = hR r k) (n : Fin 256) :
    zAt x2 x3 x4 row sel hK r' n = Cert.ReferenceIdeal.RefValue.zOf W U b xt hR r n := by
  subst hW hU
  unfold zAt Cert.ReferenceIdeal.RefValue.zOf
  rw [hb n, Finset.sum_congr rfl (fun k _ => by rw [hx k] : ∀ k ∈ Finset.univ, xAt row sel r' k * x2 (ix2 k n) = xt r k * x2 (ix2 k n)),
    Finset.sum_congr rfl (fun k _ => by rw [hh k] : ∀ k ∈ Finset.univ, hK (ix2 r' k) * x3 (ix2 k n) = hR r k * x3 (ix2 k n))]

/-- The body's selected input at block row `r'`, step `t`, over elements of the input blocks: the upper half of the
    packed row (t, r') where the selector word at (r', t) is at least 524288, the lower half elsewhere. -/
theorem xAt_ld_apply (x0 : Vec Ideal S20x512x128 .f32) (x1 : Vec Ideal S512x20 .i32) (t : Fin 20) (r' : Fin 512) (k : Fin 64) :
    xAt (View.ld x0 (slab t)) (View.ld x1 (col t)) r' k
      = if (524288#32).sle (x1 (ix2 r' t)) then x0 (ix3 t r' ⟨64 + k.val, by omega⟩) else x0 (ix3 t r' ⟨k.val, by omega⟩) := by
  unfold xAt
  rw [ld_col_apply, ld_slab_apply, ld_slab_apply]

/-- THE JOIN: at every step the body's cell and hidden states at block row `r'` are the reference's at batch row `r`. -/
theorem state_join (x0 : Vec Ideal S20x512x128 .f32) (x1 : Vec Ideal S512x20 .i32) (x2 x3 : Vec Ideal S64x256 .f32) (x4 : Vec Ideal S1x256 .f32)
    (W U : FVec Ideal S64x256 .f32) (b : FVec Ideal S256 .f32) (xs : ℕ → Fin 4096 → Fin 64 → EReal) (r' : Fin 512) (r : Fin 4096)
    (hW : x2 = W) (hU : x3 = U) (hb : ∀ n : Fin 256, x4 (ix2 u0 n) = b (ix1 n))
    (hx : ∀ (t : Fin 20) (k : Fin 64), xAt (View.ld x0 (slab t)) (View.ld x1 (col t)) r' k = xs t.val r k) :
    ∀ t : ℕ, t < 20 → ∀ j : Fin 64,
      (state x0 x1 x2 x3 x4 t).1 (ix2 r' j) = (Cert.ReferenceIdeal.RefValue.state W U b xs t).c r j
        ∧ (state x0 x1 x2 x3 x4 t).2 (ix2 r' j) = (Cert.ReferenceIdeal.RefValue.state W U b xs t).h r j := by
  intro t
  induction t with
  | zero =>
    intro _ j
    have hj := j.isLt
    have hz : ∀ n, zAt x2 x3 x4 (View.ld x0 (slab (fin20 0))) (View.ld x1 (col (fin20 0))) zeroS r' n
        = Cert.ReferenceIdeal.RefValue.zOf W U b (xs 0) (fun _ _ => 0) r n := fun n =>
      zAt_eq_zOf x2 x3 x4 W U b r' r hW hU hb _ _ (xs 0) (hx (fin20 0)) zeroS (fun _ _ => 0) (fun k => zeroS_apply _) n
    have hc : (state x0 x1 x2 x3 x4 0).1 (ix2 r' j) = (Cert.ReferenceIdeal.RefValue.state W U b xs 0).c r j := by
      have e0 : (⟨j.val, by omega⟩ : Fin 256) = Cert.ReferenceIdeal.RefValue.col 0 (by omega) j := Fin.ext (Nat.zero_add _).symm
      rw [state_zero_fst_apply, hz, hz, hz, zeroS_apply, e0]; rfl
    refine ⟨hc, ?_⟩
    rw [state_zero_snd_apply, hz, hc]; rfl
  | succ t ih =>
    intro ht j
    have hj := j.isLt
    have ih' := ih (by omega)
    have hT : fin20 (t + 1) = ⟨t + 1, ht⟩ := fin20_of_lt (t + 1) ht
    have hz : ∀ n, zAt x2 x3 x4 (View.ld x0 (slab (fin20 (t + 1)))) (View.ld x1 (col (fin20 (t + 1)))) (state x0 x1 x2 x3 x4 t).2 r' n
        = Cert.ReferenceIdeal.RefValue.zOf W U b (xs (t + 1)) (Cert.ReferenceIdeal.RefValue.state W U b xs t).h r n := fun n => by
      rw [hT]
      exact zAt_eq_zOf x2 x3 x4 W U b r' r hW hU hb _ _ (xs (t + 1)) (hx ⟨t + 1, ht⟩) _ _ (fun k => (ih' k).2) n
    have hc : (state x0 x1 x2 x3 x4 (t + 1)).1 (ix2 r' j) = (Cert.ReferenceIdeal.RefValue.state W U b xs (t + 1)).c r j := by
      have e0 : (⟨j.val, by omega⟩ : Fin 256) = Cert.ReferenceIdeal.RefValue.col 0 (by omega) j := Fin.ext (Nat.zero_add _).symm
      rw [state_succ_fst_apply, hz, hz, hz, (ih' j).1, e0]; rfl
    refine ⟨hc, ?_⟩
    rw [state_succ_snd_apply, hz, hc]; rfl

end Lstm

open Lstm

/-! ## The three output buffers at the row -/

/-- Slab `t` of the hidden-state output at block row `r'` is the reference's hidden state after step `t` at batch row `r`. -/
theorem out2_5_join (x0 : Vec Ideal S20x512x128 .f32) (x1 : Vec Ideal S512x20 .i32) (x2 x3 : Vec Ideal S64x256 .f32) (x4 : Vec Ideal S1x256 .f32)
    (W U : FVec Ideal S64x256 .f32) (b : FVec Ideal S256 .f32) (xs : ℕ → Fin 4096 → Fin 64 → EReal) (r' : Fin 512) (r : Fin 4096)
    (hW : x2 = W) (hU : x3 = U) (hb : ∀ n : Fin 256, x4 (ix2 u0 n) = b (ix1 n))
    (hx : ∀ (t : Fin 20) (k : Fin 64), xAt (View.ld x0 (slab t)) (View.ld x1 (col t)) r' k = xs t.val r k) (t : Fin 20) (j : Fin 64) :
    out2_5 x0 x1 x2 x3 x4 (ix3 t r' j) = (Cert.ReferenceIdeal.RefValue.state W U b xs t.val).h r j := by
  rw [out2_5_apply]
  exact (state_join x0 x1 x2 x3 x4 W U b xs r' r hW hU hb hx t.val t.isLt j).2

/-- The final hidden state's buffer at block row `r'` is the reference's hidden state after step 19 at batch row `r`. -/
theorem out2_6_join (x0 : Vec Ideal S20x512x128 .f32) (x1 : Vec Ideal S512x20 .i32) (x2 x3 : Vec Ideal S64x256 .f32) (x4 : Vec Ideal S1x256 .f32)
    (W U : FVec Ideal S64x256 .f32) (b : FVec Ideal S256 .f32) (xs : ℕ → Fin 4096 → Fin 64 → EReal) (r' : Fin 512) (r : Fin 4096)
    (hW : x2 = W) (hU : x3 = U) (hb : ∀ n : Fin 256, x4 (ix2 u0 n) = b (ix1 n))
    (hx : ∀ (t : Fin 20) (k : Fin 64), xAt (View.ld x0 (slab t)) (View.ld x1 (col t)) r' k = xs t.val r k) (j : Fin 64) :
    out2_6 x0 x1 x2 x3 x4 (ix2 r' j) = (Cert.ReferenceIdeal.RefValue.state W U b xs 19).h r j := by
  rw [out2_6_eq]
  exact (state_join x0 x1 x2 x3 x4 W U b xs r' r hW hU hb hx 19 (by decide) j).2

/-- The final cell state's buffer at block row `r'` is the reference's cell state after step 19 at batch row `r`. -/
theorem out2_7_join (x0 : Vec Ideal S20x512x128 .f32) (x1 : Vec Ideal S512x20 .i32) (x2 x3 : Vec Ideal S64x256 .f32) (x4 : Vec Ideal S1x256 .f32)
    (W U : FVec Ideal S64x256 .f32) (b : FVec Ideal S256 .f32) (xs : ℕ → Fin 4096 → Fin 64 → EReal) (r' : Fin 512) (r : Fin 4096)
    (hW : x2 = W) (hU : x3 = U) (hb : ∀ n : Fin 256, x4 (ix2 u0 n) = b (ix1 n))
    (hx : ∀ (t : Fin 20) (k : Fin 64), xAt (View.ld x0 (slab t)) (View.ld x1 (col t)) r' k = xs t.val r k) (j : Fin 64) :
    out2_7 x0 x1 x2 x3 x4 (ix2 r' j) = (Cert.ReferenceIdeal.RefValue.state W U b xs 19).c r j := by
  rw [out2_7_eq]
  exact (state_join x0 x1 x2 x3 x4 W U b xs r' r hW hU hb hx 19 (by decide) j).1

end Cert.KernelIdeal.Hand

end
-- ==== Proof.KernelResults.lean ====
/-
  The kernel program's three results, element by element, as the reference's recurrence.

  After the LSTM call the program transposes the hidden-state stack to batch-major and returns it with the two final
  states. The call's pipeline leaves each output array holding, at batch row r = 512·p + r', what the body left at
  block row r' at grid point p; the body's outputs at that block row are the reference's recurrence at batch row r
  once the call's weights and bias are the reference's and the selected half rows of the packed input are the
  reference's input slices. So the transposed stack at (r, t, j) is the reference's hidden state after step t at
  (r, j), and the two state arrays hold its hidden and cell states after step 19.
-/
import proofs.«206902_g37847251812778_fold_wed_m_929_15_alg».proof.Proof.Region2Value
import proofs.«206902_g37847251812778_fold_wed_m_929_15_alg».proof.Proof.LstmBridge
import proofs.«206902_g37847251812778_fold_wed_m_929_15_alg».proof.Proof.Regs

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.SparseCore.Cfg (HIx)
open Idealize.ShloMosaic.ValueIdx
open Lstm

/-! ## A batch row as a grid point and a block row -/

/-- The grid point whose block holds batch row `r`, and the row's place in that block. -/
def pointOf (r : Fin 4096) : Fin cfg2.N :=
  ⟨r.val / 512, Nat.lt_of_lt_of_eq (by have := r.isLt; omega : r.val / 512 < 8) N_2.symm⟩
def rowOf (r : Fin 4096) : Fin 512 := ⟨r.val % 512, Nat.mod_lt _ (by decide)⟩

/-- Every batch row is its point's block row. -/
theorem grow_pointOf (r : Fin 4096) : grow (pointOf r) (rowOf r) = r :=
  Fin.ext (by show 512 * (r.val / 512) + r.val % 512 = r.val; exact Nat.div_add_mod r.val 512)

section Results

variable (m : (ℓ : Loc nD τ sig) → Buf (Elt Ideal) ℓ)
variable (fo : (c : Dev nD) → Buf (Elt Ideal) ((c : Thread nD τ).loc main_v15))

/-! ## The last host stretch: one transpose -/

/-- The transposed stack after the last stretch is the transpose of the hidden-state stack the call leaves; -/
theorem W7_v19 (c : Dev nD) :
    W7 out2_5 out2_6 out2_7 m fo c (Proc.devRef .tc main_v19)
      = transpose S4096x20x64 [1, 0, 2] (W6 out2_5 out2_6 out2_7 m fo c (Proc.devRef .tc main_v18_0)) transposes_S20x4096x64_S4096x20x64_1_0_2 := by
  show StableHlo.after opsE (W6 out2_5 out2_6 out2_7 m fo c) (Proc.devRef .tc main_v19) = _
  rw [StableHlo.after_cons, StableHlo.after_nil]
  exact StableHlo.unary_result' (x := main_v18_0) (y := main_v19) _ _ _ (W6 out2_5 out2_6 out2_7 m fo c)

/-- the two state arrays pass through it unchanged. -/
theorem W7_v18_1 (c : Dev nD) :
    W7 out2_5 out2_6 out2_7 m fo c (Proc.devRef .tc main_v18_1) = W6 out2_5 out2_6 out2_7 m fo c (Proc.devRef .tc main_v18_1) := by
  show StableHlo.after opsE (W6 out2_5 out2_6 out2_7 m fo c) (Proc.devRef .tc main_v18_1) = _
  rw [StableHlo.after_cons, StableHlo.after_nil]
  exact StableHlo.unary_result_ne' (x := main_v18_0) (y := main_v19) (r := main_v18_1) _ _ _ (W6 out2_5 out2_6 out2_7 m fo c) (by decide)
theorem W7_v18_2 (c : Dev nD) :
    W7 out2_5 out2_6 out2_7 m fo c (Proc.devRef .tc main_v18_2) = W6 out2_5 out2_6 out2_7 m fo c (Proc.devRef .tc main_v18_2) := by
  show StableHlo.after opsE (W6 out2_5 out2_6 out2_7 m fo c) (Proc.devRef .tc main_v18_2) = _
  rw [StableHlo.after_cons, StableHlo.after_nil]
  exact StableHlo.unary_result_ne' (x := main_v18_0) (y := main_v19) (r := main_v18_2) _ _ _ (W6 out2_5 out2_6 out2_7 m fo c) (by decide)

/-- The batch-major stack at (r, t, j) is the time-major one at (t, r, j). -/
theorem toBatchMajor_apply (ys : S20x4096x64.Idx → EReal) (r : Fin 4096) (t : Fin 20) (j : Fin 64) :
    transpose S4096x20x64 [1, 0, 2] ys transposes_S20x4096x64_S4096x20x64_1_0_2 (ix3 r t j) = ys (ix3 t r j) := by
  refine transpose_apply [1, 0, 2] ys transposes_S20x4096x64_S4096x20x64_1_0_2 (ix3 r t j) (ix3 t r j) (fun a => ?_)
  match a with
  | ⟨0, _⟩ => rfl
  | ⟨1, _⟩ => rfl
  | ⟨2, _⟩ => rfl

/-! ## One batch row of the three output arrays -/

/-- At batch row `r` the call's three output arrays hold the reference's states: the hidden state after each step in the
    stack, the hidden and the cell state after step 19 in the two state arrays. -/
theorem arrays_row (c : Dev nD) (W U : FVec Ideal S64x256 .f32) (b : FVec Ideal S256 .f32) (xs : ℕ → Fin 4096 → Fin 64 → EReal)
    (hW : (V5 (F := Ideal) m fo c main_arg2 : FVec Ideal S64x256 .f32) = W) (hU : (V5 (F := Ideal) m fo c main_arg3 : FVec Ideal S64x256 .f32) = U)
    (hb : ∀ n : Fin 256, (V5 (F := Ideal) m fo c main_v17 : FVec Ideal S1x256 .f32) (ix2 u0 n) = b (ix1 n))
    (hx : ∀ (t : Fin 20) (r : Fin 4096) (k : Fin 64),
      (if (524288#32).sle ((V5 (F := Ideal) m fo c main_arg0 : IVec S4096x20 32) (ix2 r t))
        then (V5 (F := Ideal) m fo c main_v16 : FVec Ideal S20x4096x128 .f32) (ix3 t r ⟨64 + k.val, by omega⟩)
        else (V5 (F := Ideal) m fo c main_v16 : FVec Ideal S20x4096x128 .f32) (ix3 t r ⟨k.val, by omega⟩)) = xs t.val r k) (r : Fin 4096) :
    (∀ (t : Fin 20) (j : Fin 64), (dat2 out2_5 out2_6 out2_7 (V5 (F := Ideal) m fo) (B1 (F := Ideal) c) c).arrAt 5 cfg2.N (ix3 t r j : S20x4096x64.Idx) = (Cert.ReferenceIdeal.RefValue.state W U b xs t.val).h r j)
      ∧ (∀ j : Fin 64, (dat2 out2_5 out2_6 out2_7 (V5 (F := Ideal) m fo) (B1 (F := Ideal) c) c).arrAt 6 cfg2.N (ix2 r j : S4096x64.Idx) = (Cert.ReferenceIdeal.RefValue.state W U b xs 19).h r j)
      ∧ (∀ j : Fin 64, (dat2 out2_5 out2_6 out2_7 (V5 (F := Ideal) m fo) (B1 (F := Ideal) c) c).arrAt 7 cfg2.N (ix2 r j : S4096x64.Idx) = (Cert.ReferenceIdeal.RefValue.state W U b xs 19).c r j) := by
  have hg := grow_pointOf r
  -- the five input blocks at the row's grid point
  have h2 : iblk2 (V5 (F := Ideal) m fo) c 2 (pointOf r) = W := (iblk2_2_eq (V5 (F := Ideal) m fo) c (pointOf r)).trans hW
  have h3 : iblk2 (V5 (F := Ideal) m fo) c 3 (pointOf r) = U := (iblk2_3_eq (V5 (F := Ideal) m fo) c (pointOf r)).trans hU
  have h4 : ∀ n : Fin 256, iblk2 (V5 (F := Ideal) m fo) c 4 (pointOf r) (ix2 u0 n : S1x256.Idx) = b (ix1 n) := fun n => by
    rw [iblk2_4_eq]; exact hb n
  have h01 : ∀ (t : Fin 20) (k : Fin 64),
      xAt (View.ld (iblk2 (V5 (F := Ideal) m fo) c 0 (pointOf r)) (slab t)) (View.ld (iblk2 (V5 (F := Ideal) m fo) c 1 (pointOf r)) (col t)) (rowOf r) k = xs t.val r k := fun t k => by
    rw [xAt_ld_apply, iblk2_1_apply, iblk2_0_apply, iblk2_0_apply, hg]
    exact hx t r k
  refine ⟨fun t j => ?_, fun j => ?_, fun j => ?_⟩
  · have h := arr2_5_apply out2_5 out2_6 out2_7 (V5 (F := Ideal) m fo) (B1 (F := Ideal) c) c (pointOf r) t (rowOf r) j
    rw [hg] at h
    rw [h]
    exact out2_5_join _ _ _ _ _ W U b xs (rowOf r) r h2 h3 h4 h01 t j
  · have h := arr2_6_apply out2_5 out2_6 out2_7 (V5 (F := Ideal) m fo) (B1 (F := Ideal) c) c (pointOf r) (rowOf r) j
    rw [hg] at h
    rw [h]
    exact out2_6_join _ _ _ _ _ W U b xs (rowOf r) r h2 h3 h4 h01 j
  · have h := arr2_7_apply out2_5 out2_6 out2_7 (V5 (F := Ideal) m fo) (B1 (F := Ideal) c) c (pointOf r) (rowOf r) j
    rw [hg] at h
    rw [h]
    exact out2_7_join _ _ _ _ _ W U b xs (rowOf r) r h2 h3 h4 h01 j

/-! ## The program's three results -/

/-- THE KERNEL'S RESULTS: the batch-major stack at (r, t, j) is the reference's hidden state after step `t` at (r, j);
    the two state arrays at (r, j) are its hidden and cell states after step 19. -/
theorem kernel_results (c : Dev nD) (W U : FVec Ideal S64x256 .f32) (b : FVec Ideal S256 .f32) (xs : ℕ → Fin 4096 → Fin 64 → EReal)
    (hW : (V5 (F := Ideal) m fo c main_arg2 : FVec Ideal S64x256 .f32) = W) (hU : (V5 (F := Ideal) m fo c main_arg3 : FVec Ideal S64x256 .f32) = U)
    (hb : ∀ n : Fin 256, (V5 (F := Ideal) m fo c main_v17 : FVec Ideal S1x256 .f32) (ix2 u0 n) = b (ix1 n))
    (hx : ∀ (t : Fin 20) (r : Fin 4096) (k : Fin 64),
      (if (524288#32).sle ((V5 (F := Ideal) m fo c main_arg0 : IVec S4096x20 32) (ix2 r t))
        then (V5 (F := Ideal) m fo c main_v16 : FVec Ideal S20x4096x128 .f32) (ix3 t r ⟨64 + k.val, by omega⟩)
        else (V5 (F := Ideal) m fo c main_v16 : FVec Ideal S20x4096x128 .f32) (ix3 t r ⟨k.val, by omega⟩)) = xs t.val r k) :
    (∀ (r : Fin 4096) (t : Fin 20) (j : Fin 64),
        (W7 out2_5 out2_6 out2_7 m fo c (Proc.devRef .tc main_v19) : S4096x20x64.Idx → EReal) (ix3 r t j) = (Cert.ReferenceIdeal.RefValue.state W U b xs t.val).h r j)
      ∧ (∀ (r : Fin 4096) (j : Fin 64),
        (W7 out2_5 out2_6 out2_7 m fo c (Proc.devRef .tc main_v18_1) : S4096x64.Idx → EReal) (ix2 r j) = (Cert.ReferenceIdeal.RefValue.state W U b xs 19).h r j)
      ∧ (∀ (r : Fin 4096) (j : Fin 64),
        (W7 out2_5 out2_6 out2_7 m fo c (Proc.devRef .tc main_v18_2) : S4096x64.Idx → EReal) (ix2 r j) = (Cert.ReferenceIdeal.RefValue.state W U b xs 19).c r j) := by
  refine ⟨fun r t j => ?_, fun r j => ?_, fun r j => ?_⟩
  · rw [W7_v19]
    refine (toBatchMajor_apply _ r t j).trans ?_
    rw [show W6 out2_5 out2_6 out2_7 m fo c (Proc.devRef .tc main_v18_0) = (dat2 out2_5 out2_6 out2_7 (V5 (F := Ideal) m fo) (B1 (F := Ideal) c) c).arrAt 5 cfg2.N from W6_arr out2_5 out2_6 out2_7 m fo c 5]
    exact (arrays_row m fo c W U b xs hW hU hb hx r).1 t j
  · rw [W7_v18_1, show W6 out2_5 out2_6 out2_7 m fo c (Proc.devRef .tc main_v18_1) = (dat2 out2_5 out2_6 out2_7 (V5 (F := Ideal) m fo) (B1 (F := Ideal) c) c).arrAt 6 cfg2.N from W6_arr out2_5 out2_6 out2_7 m fo c 6]
    exact (arrays_row m fo c W U b xs hW hU hb hx r).2.1 j
  · rw [W7_v18_2, show W6 out2_5 out2_6 out2_7 m fo c (Proc.devRef .tc main_v18_2) = (dat2 out2_5 out2_6 out2_7 (V5 (F := Ideal) m fo) (B1 (F := Ideal) c) c).arrAt 7 cfg2.N from W6_arr out2_5 out2_6 out2_7 m fo c 7]
    exact (arrays_row m fo c W U b xs hW hU hb hx r).2.2 j

end Results

end Cert.KernelIdeal.Hand

end
-- ==== Proof.RefFrame.lean ====
/- The reference program's frame and results, read off its run.
   The run of the reference (`Cert.ReferenceIdeal.Value.run`) says: from any memory with zero counters every weakly fair
   execution of @main terminates, and on every device the three results hold the loop step `STEP` iterated 20 times on
   the loop's entry contents (`main_v6` through the operations after the loop, `out_main_v6`), while the five argument
   arrays hold what they held. Its conclusion is a conjunction: the three results first, then the five arguments.
   `frame_ri` is the tail of that conjunction; `results_ri` is its head, at the extended reals; `run_ri` is the whole
   of it with the three results named (`res_v6`, `res_v5_5`, `res_v5_6`) as functions of the initial memory. -/
import proofs.«206902_g37847251812778_fold_wed_m_929_15_alg».proof.Defs
import proofs.«206902_g37847251812778_fold_wed_m_929_15_alg».proof.Proof.RefRunP2
import proofs.«206902_g37847251812778_fold_wed_m_929_15_alg».proof.Proof.Gen.Pre_input_domain

noncomputable section

namespace Cert.ReferenceIdeal.RefFrame

open Idealize.ShloMosaic Idealize.ShloMosaic.TcCoe Idealize.ShloMosaic.StableHlo Idealize.SL.Sem
open Cert.ReferenceIdeal

/-- The reference runs and its five argument arrays end unchanged: the last five conjuncts of the run's conclusion. -/
theorem frame_ri : Cert.frame_ReferenceIdeal (hReferenceIdeal := Cert.ReferenceIdeal.Gen.facts)
    (hPre_input_domain := Cert.Pre_input_domain.Gen.facts) := fun m ρ _ =>
  (θ_run Cert.ReferenceIdeal.defs _ _).mono (fun _ h c => (h c).2.2.2) (Cert.ReferenceIdeal.Value.run (F := Ideal) m ρ)

variable (m : (ℓ : Loc nD τ sig) → Buf (Elt Ideal) ℓ)

/-- The contents of every buffer after the 20 trips of the loop, on device `c`: the loop step iterated 20 times on the
    contents at the loop's entry (the operations before the loop applied to the initial memory `m`). -/
def final (c : Dev nD) : Valuation τ sig (Elt Ideal) :=
  (Cert.ReferenceIdeal.Value.STEP (F := Ideal))^[20] (entryContents (Cert.ReferenceIdeal.Value.preI (F := Ideal)) m c)

/-- The first result, `main_v6`: what the operations after the loop make of the loop's final contents. -/
def res_v6 (c : Dev nD) : Buf (Elt Ideal) ((c.tc : Thread nD τ).loc main_v6) :=
  Cert.ReferenceIdeal.Value.out_main_v6 (final m c)
/-- The second result: the carried buffer `main_v5_5` after the loop. -/
def res_v5_5 (c : Dev nD) : Buf (Elt Ideal) ((c.tc : Thread nD τ).loc main_v5_5) :=
  final m c (Proc.devRef .tc main_v5_5)
/-- The third result: the carried buffer `main_v5_6` after the loop. -/
def res_v5_6 (c : Dev nD) : Buf (Elt Ideal) ((c.tc : Thread nD τ).loc main_v5_6) :=
  final m c (Proc.devRef .tc main_v5_6)

/-- The reference runs and its three results end at `res_v6`, `res_v5_5`, `res_v5_6`: the first three conjuncts of the
    run's conclusion. -/
theorem results_ri (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = res_v6 m c
      ∧ r.2.mem ((c.tc : Thread nD τ).loc main_v5_5) = res_v5_5 m c
      ∧ r.2.mem ((c.tc : Thread nD τ).loc main_v5_6) = res_v5_6 m c :=
  (θ_run defs _ _).mono (fun _ h c => ⟨(h c).1, (h c).2.1, (h c).2.2.1⟩) (Cert.ReferenceIdeal.Value.run (F := Ideal) m ρ)

/-- The whole of the run's conclusion with the results named: three results, five arguments unchanged. -/
theorem run_ri (ρ : Dev nD → PrngReg) :
    θ_run (defs (F := Ideal)) (onTc (τ := τ) (main (F := Ideal))) ⟨m, fun _ => 0, ρ⟩ fun r => ∀ c : Dev nD,
      r.2.mem ((c.tc : Thread nD τ).loc main_v6) = res_v6 m c
      ∧ r.2.mem ((c.tc : Thread nD τ).loc main_v5_5) = res_v5_5 m c
      ∧ r.2.mem ((c.tc : Thread nD τ).loc main_v5_6) = res_v5_6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

end Cert.ReferenceIdeal.RefFrame

end
-- ==== Proof.RefValue.lean ====
/- The reference's three results as the recurrence, entry by entry.
   The reference's loop carries (h, c) and the stack of outputs; one trip, read at an index, is one step of the
   recurrence of RefValueStep.lean (`z_apply`, `c_apply`, `h_apply`), and so k trips from the loop's entry contents give
   the recurrence's state after k steps (`Inv`, `inv_iterate`): the carried h and c entry by entry, and row t' of the
   stack the output of step t' for t' < k. After the 20 trips the results are read off: the stack transposed to
   batch-major, and the final h and c. -/
import proofs.«206902_g37847251812778_fold_wed_m_929_15_alg».proof.Proof.RefFrame
import proofs.«206902_g37847251812778_fold_wed_m_929_15_alg».proof.Proof.RefValueStep

noncomputable section

open scoped BigOperators

namespace Cert.ReferenceIdeal.RefValue

open Idealize.ShloMosaic Idealize.ShloMosaic.TcCoe Idealize.ShloMosaic.StableHlo Idealize.ShloMosaic.ValueIdx Idealize.SL.Sem
open Cert.ReferenceIdeal Cert.ReferenceIdeal.Gen Cert.ReferenceIdeal.Value

/-- Every buffer's contents on one device, at the extended reals. -/
abbrev Val : Type := Valuation τ sig (Elt Ideal)

/-! ## The carried buffers, each at its array type -/

/-- The time-major input [20, 4096, 64]. -/
def rX (V : Val) : FVec Ideal S20x4096x64 .f32 := V (Proc.devRef .tc main_v5_0)
/-- The input weights [64, 256]. -/
def rW (V : Val) : FVec Ideal S64x256 .f32 := V (Proc.devRef .tc main_v5_1)
/-- The recurrent weights [64, 256]. -/
def rU (V : Val) : FVec Ideal S64x256 .f32 := V (Proc.devRef .tc main_v5_2)
/-- The bias [256]. -/
def rB (V : Val) : FVec Ideal S256 .f32 := V (Proc.devRef .tc main_v5_3)
/-- The carried output h [4096, 64]. -/
def rH (V : Val) : FVec Ideal S4096x64 .f32 := V (Proc.devRef .tc main_v5_5)
/-- The carried cell state c [4096, 64]. -/
def rC (V : Val) : FVec Ideal S4096x64 .f32 := V (Proc.devRef .tc main_v5_6)
/-- The stack of outputs [20, 4096, 64]. -/
def rY (V : Val) : FVec Ideal S20x4096x64 .f32 := V (Proc.devRef .tc main_v5_7)

/-- Input slice `i` of a valuation's time-major input, as the recurrence reads it (zero past the 20 slices). -/
def xsOf (V : Val) (i : ℕ) (r : Fin 4096) (k : Fin 64) : EReal :=
  if h : i < 20 then rX V (ix3 (⟨i, h⟩ : Fin 20) r k) else 0

/-- The carried pair of a valuation, entry by entry. -/
def stOf (V : Val) : LSt := ⟨fun r j => rC V (ix2 r j), fun r j => rH V (ix2 r j)⟩

/-- The program's product record is the plain [4096, 64] by [64, 256] one. -/
theorem dot_apply' (prec : Option ContractPrecision) (A : FVec Ideal S4096x64 .f32) (B : FVec Ideal S64x256 .f32)
    (r : Fin 4096) (n : Fin 256) :
    Host.dotGeneral dot_S4096x64_S64x256_S4096x256_1_0_0_1_n_n prec A B (ix2 r n) = ∑ k : Fin 64, A (ix2 r k) * B (ix2 k n) :=
  dot_apply prec A B r n

/-! ## One trip, read at an index -/

section Trip
variable (V0 : Val) (t : Fin 20) (hctr : V0 (Proc.devRef .tc main_v5_4) = fun _ => Scf.iv 0#32 1#32 t.val)
include hctr

/-- The trip's start indices (t, 0, 0), as the slice and the update read them off the counter. -/
theorem start_eq :
    (fun k => (((![V0 (Proc.devRef .tc main_v5_4), constantI S_ 32 0#32, constantI S_ 32 0#32] :
        Fin 3 → (⟨S_, .i32⟩ : BufTy).Contents (Elt Ideal))) k (Shape.Idx.first h_S_)).toInt) ⟨0, by decide⟩ = (t.val : Int)
    ∧ (fun k => (((![V0 (Proc.devRef .tc main_v5_4), constantI S_ 32 0#32, constantI S_ 32 0#32] :
        Fin 3 → (⟨S_, .i32⟩ : BufTy).Contents (Elt Ideal))) k (Shape.Idx.first h_S_)).toInt) ⟨1, by decide⟩ = 0
    ∧ (fun k => (((![V0 (Proc.devRef .tc main_v5_4), constantI S_ 32 0#32, constantI S_ 32 0#32] :
        Fin 3 → (⟨S_, .i32⟩ : BufTy).Contents (Elt Ideal))) k (Shape.Idx.first h_S_)).toInt) ⟨2, by decide⟩ = 0 := by
  refine ⟨?_, rfl, rfl⟩
  show (V0 (Proc.devRef .tc main_v5_4) (Shape.Idx.first h_S_)).toInt = _
  rw [hctr]
  exact iv_toInt t.val (by have := t.isLt; omega)

/-- The pre-activation of the trip at (r, n). -/
theorem z_apply (r : Fin 4096) (n : Fin 256) :
    res_main_while0b_call2_v5 V0 (ix2 r n) = zOf (rW V0) (rU V0) (rB V0) (xsOf V0 t.val) (stOf V0).h r n := by
  obtain ⟨s0, s1, s2⟩ := start_eq V0 t hctr
  unfold res_main_while0b_call2_v5 zOf
  refine congrArg₂ (· + ·) (congrArg₂ (· + ·) ?_ ?_) ?_
  · refine (dot_apply' _ _ _ r n).trans (Finset.sum_congr rfl fun k _ => ?_)
    refine congrArg₂ (· * ·) ?_ rfl
    refine (slice_apply _ _ t s0 s1 s2 _ _ r k).trans ?_
    unfold xsOf; rw [dif_pos t.isLt]; rfl
  · exact dot_apply' _ _ _ r n
  · exact bias_apply _ _ _ r n

/-- The trip's new cell state at (r, j). -/
theorem c_apply (r : Fin 4096) (j : Fin 64) :
    res_main_while0b_v8_1 V0 (ix2 r j) = cNew (rW V0) (rU V0) (rB V0) (xsOf V0 t.val) (stOf V0) r j := by
  unfold res_main_while0b_v8_1 cNew
  refine congrArg₂ (· + ·) (congrArg₂ (· * ·) ?_ rfl) (congrArg₂ (· * ·) ?_ ?_)
  · exact (sigmoid_apply _ _ _).trans (congrArg Ideal.logistic ((gate_apply _ 64 (by omega) _ r j).trans (z_apply V0 t hctr r _)))
  · exact (sigmoid_apply _ _ _).trans (congrArg Ideal.logistic ((gate_apply _ 0 (by omega) _ r j).trans (z_apply V0 t hctr r _)))
  · exact (tanh_apply _ _).trans (congrArg Ideal.tanh ((gate_apply _ 128 (by omega) _ r j).trans (z_apply V0 t hctr r _)))

/-- The trip's new output at (r, j). -/
theorem h_apply (r : Fin 4096) (j : Fin 64) :
    res_main_while0b_v8_0 V0 (ix2 r j) = hNew (rW V0) (rU V0) (rB V0) (xsOf V0 t.val) (stOf V0) r j := by
  unfold res_main_while0b_v8_0 hNew
  refine congrArg₂ (· * ·) ?_ ?_
  · exact (sigmoid_apply _ _ _).trans (congrArg Ideal.logistic ((gate_apply _ 192 (by omega) _ r j).trans (z_apply V0 t hctr r _)))
  · exact (tanh_apply _ _).trans (congrArg Ideal.tanh (c_apply V0 t hctr r j))

/-- The stack of outputs after the trip, at (t', r, j): the new output on row t, the stack as it was elsewhere. -/
theorem y_apply (t' : Fin 20) (r : Fin 4096) (j : Fin 64) :
    step_main_v5_7 V0 (ix3 t' r j)
      = if t' = t then hNew (rW V0) (rU V0) (rB V0) (xsOf V0 t.val) (stOf V0) r j else rY V0 (ix3 t' r j) := by
  obtain ⟨s0, s1, s2⟩ := start_eq V0 t hctr
  unfold step_main_v5_7
  refine (dus_apply _ _ _ t s0 s1 s2 _ t' r j).trans ?_
  by_cases h : t' = t
  · rw [if_pos h, if_pos h]; exact (row_apply _ _ r j).trans (h_apply V0 t hctr r j)
  · rw [if_neg h, if_neg h]; rfl

end Trip

/-! ## k trips from the loop's entry -/

/-- What `k` trips make of entry contents `E`: the counter at k, the input and the weights as at the entry, the carried
    pair the recurrence's state after k steps, and row t' of the stack the output of step t' for t' < k. -/
structure Inv (E : Val) (k : ℕ) (V : Val) : Prop where
  ctr : V (Proc.devRef .tc main_v5_4) = fun _ => Scf.iv 0#32 1#32 k
  x : rX V = rX E
  w : rW V = rW E
  u : rU V = rU E
  b : rB V = rB E
  st : stOf V = after (rW E) (rU E) (rB E) (xsOf E) k
  y : ∀ (t' : Fin 20) (r : Fin 4096) (j : Fin 64), rY V (ix3 t' r j)
        = if t'.val < k then (after (rW E) (rU E) (rB E) (xsOf E) (t'.val + 1)).h r j else rY E (ix3 t' r j)

/-- At the entry: the counter is 0 and the carried pair is zero. -/
theorem inv_zero (E : Val) (hctr : E (Proc.devRef .tc main_v5_4) = fun _ => (0#32 : BitVec 32))
    (hh : ∀ r j, rH E (ix2 r j) = 0) (hc : ∀ r j, rC E (ix2 r j) = 0) : Inv E 0 E where
  ctr := by rw [hctr, Scf.iv_zero]
  x := rfl
  w := rfl
  u := rfl
  b := rfl
  st := by
    show (⟨fun r j => rC E (ix2 r j), fun r j => rH E (ix2 r j)⟩ : LSt) = ⟨fun _ _ => 0, fun _ _ => 0⟩
    congr 1
    · funext r j; exact hc r j
    · funext r j; exact hh r j
  y := fun t' r j => by rw [if_neg (Nat.not_lt_zero _)]

/-- One more trip. -/
theorem inv_step (E V : Val) (k : ℕ) (hk : k < 20) (h : Inv E k V) : Inv E (k + 1) (STEP V) := by
  have hctr : V (Proc.devRef .tc main_v5_4) = fun _ => Scf.iv 0#32 1#32 (⟨k, hk⟩ : Fin 20).val := h.ctr
  have hxs : xsOf V k = xsOf E k := by unfold xsOf; rw [h.x]
  have hst : stepSt (rW V) (rU V) (rB V) (xsOf V k) (stOf V) = after (rW E) (rU E) (rB E) (xsOf E) (k + 1) := by
    rw [h.w, h.u, h.b, hxs, h.st]; rfl
  refine ⟨?_, ?_, ?_, ?_, ?_, ?_, ?_⟩
  · rw [STEP_main_v5_4]
    funext i
    show IntOp.addi (V (Proc.devRef .tc main_v5_4) i) 1#32 = _
    rw [h.ctr, Scf.iv_succ]; rfl
  · exact (STEP_main_v5_0 V).trans h.x
  · exact (STEP_main_v5_1 V).trans h.w
  · exact (STEP_main_v5_2 V).trans h.u
  · exact (STEP_main_v5_3 V).trans h.b
  · rw [← hst]
    show (⟨fun r j => rC (STEP V) (ix2 r j), fun r j => rH (STEP V) (ix2 r j)⟩ : LSt) = ⟨_, _⟩
    congr 1
    · funext r j
      exact (congrFun (STEP_main_v5_6 V) (ix2 r j)).trans (c_apply V ⟨k, hk⟩ hctr r j)
    · funext r j
      exact (congrFun (STEP_main_v5_5 V) (ix2 r j)).trans (h_apply V ⟨k, hk⟩ hctr r j)
  · intro t' r j
    refine (congrFun (STEP_main_v5_7 V) (ix3 t' r j)).trans ((y_apply V ⟨k, hk⟩ hctr t' r j).trans ?_)
    by_cases htk : t' = ⟨k, hk⟩
    · subst htk
      rw [if_pos rfl, if_pos (Nat.lt_succ_self _)]
      exact congrArg (fun s : LSt => s.h r j) hst
    · have hne : t'.val ≠ k := fun e => htk (Fin.ext e)
      rw [if_neg htk, h.y t' r j]
      by_cases hlt : t'.val < k
      · rw [if_pos hlt, if_pos (by omega)]
      · rw [if_neg hlt, if_neg (by omega)]

/-- `k` trips, for k up to the 20 the loop makes. -/
theorem inv_iterate (E : Val) (hctr : E (Proc.devRef .tc main_v5_4) = fun _ => (0#32 : BitVec 32))
    (hh : ∀ r j, rH E (ix2 r j) = 0) (hc : ∀ r j, rC E (ix2 r j) = 0) :
    ∀ k, k ≤ 20 → Inv E k ((STEP (F := Ideal))^[k] E)
  | 0, _ => inv_zero E hctr hh hc
  | k + 1, hk => by
    rw [Function.iterate_succ_apply']
    exact inv_step E _ k (by omega) (inv_iterate E hctr hh hc k (by omega))

/-- From any contents that 20 trips can have produced, the batch-major output at (r, t, j) is the recurrence's output
    of step t: the transpose read at an index, then row t of the stack. -/
theorem out_of_inv (E V : Val) (h : Inv E 20 V) (r : Fin 4096) (t : Fin 20) (j : Fin 64) :
    out_main_v6 V (ix3 r t j) = (state (rW E) (rU E) (rB E) (xsOf E) t.val).h r j := by
  have hy := h.y t r j
  rw [if_pos t.isLt] at hy
  unfold out_main_v6
  exact (toBatchMajor_apply _ _ r t j).trans hy

/-! ## The three results after the 20 trips -/

section Results
variable (E : Val) (hctr : E (Proc.devRef .tc main_v5_4) = fun _ => (0#32 : BitVec 32))
  (hh : ∀ r j, rH E (ix2 r j) = 0) (hc : ∀ r j, rC E (ix2 r j) = 0)
include hctr hh hc

/-- The final h is the recurrence's output of step 19. -/
theorem final_h (r : Fin 4096) (j : Fin 64) :
    rH ((STEP (F := Ideal))^[20] E) (ix2 r j) = (state (rW E) (rU E) (rB E) (xsOf E) 19).h r j :=
  congrArg (fun s : LSt => s.h r j) (inv_iterate E hctr hh hc 20 (le_refl _)).st

/-- The final c is the recurrence's cell state of step 19. -/
theorem final_c (r : Fin 4096) (j : Fin 64) :
    rC ((STEP (F := Ideal))^[20] E) (ix2 r j) = (state (rW E) (rU E) (rB E) (xsOf E) 19).c r j :=
  congrArg (fun s : LSt => s.c r j) (inv_iterate E hctr hh hc 20 (le_refl _)).st

/-- The batch-major output at (r, t, j) is the recurrence's output of step t. -/
theorem final_out (r : Fin 4096) (t : Fin 20) (j : Fin 64) :
    out_main_v6 ((STEP (F := Ideal))^[20] E) (ix3 r t j) = (state (rW E) (rU E) (rB E) (xsOf E) t.val).h r j :=
  out_of_inv E _ (inv_iterate E hctr hh hc 20 (le_refl _)) r t j

end Results

end Cert.ReferenceIdeal.RefValue

end
-- ==== Proof.RefValueEntry.lean ====
/- The loop's entry contents, read at an index, under the certificate's precondition.
   Before the loop the reference looks up the rows of the table E named by the index array x (jnp.take: negative
   indices wrapped by the table's height, an in-range mask, the row lookup with its start index clamped, and NaN where
   the mask fails), transposes the result to time-major, and starts the carried pair and the stack at zero. Under the
   precondition every index is in [0, 999999], so the wrap does nothing, the mask holds everywhere, the clamp does
   nothing, and entry (t, r, k) of the time-major input is E[x[r, t], k]. -/
import proofs.«206902_g37847251812778_fold_wed_m_929_15_alg».proof.Proof.RefValue
import Idealize.ShloMosaic.Lib.ReduceAll

noncomputable section

open scoped BigOperators

namespace Cert.ReferenceIdeal.RefValue

open Idealize.ShloMosaic Idealize.ShloMosaic.TcCoe Idealize.ShloMosaic.StableHlo Idealize.ShloMosaic.ValueIdx Idealize.ShloMosaic.Pipeline Idealize.SL.Sem
open Cert.ReferenceIdeal Cert.ReferenceIdeal.Gen Cert.ReferenceIdeal.Value

/-! ## General facts -/

/-- Contents carried to a typed reference's buffer and back are the contents. -/
theorem ofBuf_toBuf {sg : RefSig} {T : BufTy} {Val : EltTy → Type} (x : TRef sg T) (v : T.Contents Val) :
    x.ofBuf (x.toBuf v) = v := by
  obtain ⟨r, rfl, _, _⟩ := x
  rfl

/-- A left fold by `and` over words that are all 1, from 1, is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- A reduction by `and` from 1 of an array of ones is 1 at every index. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  exact foldl_andi_one (fun n => x (s.rowMajor.symm n)) (fun n => hx _) _

/-- The dimension numbers of a row lookup `E[idx]`: table [1000000, 64], start indices [4096, 20, 1], result
    [4096, 20, 64]; the table's row axis is collapsed and indexed, its column axis is the result's last axis. -/
abbrev rowsDims (wf : GatherDims.WF S1000000x64 S4096x20x1 S4096x20x64 [2] [0] [] [0] [] 2 ![1, 64]) :
    GatherDims S1000000x64 S4096x20x1 S4096x20x64 where
  offsetDims := [2]
  collapsedSliceDims := [0]
  operandBatchingDims := []
  startIndicesBatchingDims := []
  startIndexMap := [0]
  indexVectorDim := 2
  sliceSizes := ![1, 64]
  wf := wf

/-- THE ROW LOOKUP READ AT (r, t, k): column k of the table's row `idx[r, t, 0]`, read signed and clamped into
    [0, 999999]. -/
theorem rows_apply {α : Type} (wf : GatherDims.WF S1000000x64 S4096x20x1 S4096x20x64 [2] [0] [] [0] [] 2 ![1, 64])
    (E : S1000000x64.Idx → α) (idx : IVec S4096x20x1 32) (r : Fin 4096) (t : Fin 20) (k : Fin 64) :
    Host.gather (rowsDims wf) E idx (ix3 r t k)
      = E (ix2 (⟨min (idx (ix3 r t (0 : Fin 1))).toInt.toNat 999999, by omega⟩ : Fin 1000000) k) := by
  unfold Host.gather
  refine congrArg E ?_
  funext a
  apply Fin.ext
  have h1ne : (1 : Fin 2) ∉ (rowsDims wf).startIndexMap := fun h => absurd (List.mem_singleton.mp h) (by decide)
  have h1k : (1 : Fin 2) ∈ (rowsDims wf).sKept :=
    (GatherDims.mem_sKept _ _).mpr ⟨fun h => absurd (List.mem_singleton.mp h) (by decide), List.not_mem_nil⟩
  match a with
  | ⟨0, _⟩ =>
    show (rowsDims wf).start (ix3 r t k) idx 0 + (rowsDims wf).batchCoord (ix3 r t k) 0 + (rowsDims wf).offCoord (ix3 r t k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims wf).startIndexMap from List.mem_singleton.mpr rfl)]
    have hsi : (rowsDims wf).siIdx (ix3 r t k) ⟨List.idxOf (0 : Fin 2) (rowsDims wf).startIndexMap,
        List.idxOf_lt_length_iff.2 (List.mem_singleton.mpr rfl)⟩ = ix3 r t (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims wf).start (ix3 r t k) idx 1 + (rowsDims wf).batchCoord (ix3 r t k) 1 + (rowsDims wf).offCoord (ix3 r t k) 1 = k.val
    rw [GatherDims.batchCoord_eq_zero _ _ _ List.not_mem_nil]
    unfold GatherDims.start
    rw [dif_neg h1ne]
    simp only [Nat.add_zero, Nat.zero_add]
    unfold GatherDims.offCoord
    rw [dif_pos h1k]
    rfl

/-- A select whose condition is the bit 1 is its first operand. -/
theorem select_of_one {α : Type} (cnd : BitVec 1) (a b : α) (h : cnd = 1#1) : Scalar.select cnd a b = a := by
  rw [h]; exact select_one a b

/-- A 32-bit word that reads signed in [0, 999999] clamps to itself: the clamp into [0, 999999] of its signed reading is
    its unsigned reading. -/
theorem clamp_eq (w : BitVec 32) (h0 : 0 ≤ w.toInt) (h1 : w.toInt ≤ 999999) : min w.toInt.toNat 999999 = w.toNat := by
  have h2 : 2 * w.toNat < 2 ^ 32 := BitVec.toInt_pos_iff.mp h0
  have h3 : w.toInt = (w.toNat : Int) := BitVec.toInt_eq_toNat_of_lt h2
  rw [h3] at h1 ⊢
  omega

/-- The table row a 32-bit index word names: its unsigned reading, kept below the table's height. -/
def rowOf (w : BitVec 32) : Fin 1000000 := ⟨min w.toNat 999999, by omega⟩

/-- A word at most 999999 names the row of its own unsigned reading. -/
theorem rowOf_val (w : BitVec 32) (h : w.toNat ≤ 999999) : (rowOf w).val = w.toNat := by
  show min w.toNat 999999 = w.toNat
  omega

/-! ## The lookup's index arithmetic, over any index array in range -/

section Take
variable (x : IVec S4096x20 32) (hx : ∀ r t, 0 ≤ (x (ix2 r t)).toInt ∧ (x (ix2 r t)).toInt ≤ 999999)
include hx

/-- Wrapping a negative index by the table's height leaves an index in range as it is. -/
theorem wrap_apply (b0 : S_.BroadcastsInDim S4096x20 ![]) (r : Fin 4096) (t : Fin 20) :
    select (cmpi .slt x (broadcastInDim S4096x20 ![] b0 (constantI S_ 32 0#32)))
        (addi x (broadcastInDim S4096x20 ![] b0 (constantI S_ 32 1000000#32))) x (ix2 r t) = x (ix2 r t) := by
  show Scalar.select (IntOp.cmpi .slt (x (ix2 r t)) 0#32) _ _ = _
  have hc : IntOp.cmpi .slt (x (ix2 r t)) 0#32 = 0#1 := eq_zero_of_ne_one (fun h => by
    have h' := IntOp.cmpi_slt.mp h
    have h0 := (hx r t).1
    rw [show (0#32 : BitVec 32).toInt = 0 from by decide] at h'
    omega)
  rw [hc]; exact select_zero _ _

/-- The start indices [4096, 20, 1] at (r, t, z): the index x[r, t]. -/
theorem idx5_apply (b0 : S_.BroadcastsInDim S4096x20 ![]) (b1 : S4096x20.BroadcastsInDim S4096x20x1 ![0, 1])
    (r : Fin 4096) (t : Fin 20) (z : Fin 1) :
    broadcastInDim S4096x20x1 ![0, 1] b1
        (select (cmpi .slt x (broadcastInDim S4096x20 ![] b0 (constantI S_ 32 0#32)))
          (addi x (broadcastInDim S4096x20 ![] b0 (constantI S_ 32 1000000#32))) x) (ix3 r t z) = x (ix2 r t) := by
  have h1 := broadcastInDim_apply ![0, 1] b1
    (select (cmpi .slt x (broadcastInDim S4096x20 ![] b0 (constantI S_ 32 0#32)))
      (addi x (broadcastInDim S4096x20 ![] b0 (constantI S_ 32 1000000#32))) x) (ix3 r t z) (ix2 r t) (fun a => by
      match a with
      | ⟨0, _⟩ => rfl
      | ⟨1, _⟩ => rfl)
  exact h1.trans (wrap_apply x hx b0 r t)

/-- The in-range mask holds at every (r, t). -/
theorem mask_apply (b0 : S_.BroadcastsInDim S4096x20 ![]) (b1 : S4096x20.BroadcastsInDim S4096x20x1 ![0, 1])
    (b2 : S_.BroadcastsInDim S4096x20x1 ![]) (b3 : S1.BroadcastsInDim S1x1x1 ![2])
    (b4 : S1x1x1.BroadcastsInDim S4096x20x1 ![0, 1, 2]) (hr : S4096x20x1.ReducesTo [2] S4096x20) (hS : 0 < S_.numel)
    (j : S4096x20.Idx) :
    Host.reduce IntOp.andi
        (andi
          (cmpi .sge
            (broadcastInDim S4096x20x1 ![0, 1] b1
              (select (cmpi .slt x (broadcastInDim S4096x20 ![] b0 (constantI S_ 32 0#32)))
                (addi x (broadcastInDim S4096x20 ![] b0 (constantI S_ 32 1000000#32))) x))
            (broadcastInDim S4096x20x1 ![] b2 (constantI S_ 32 0#32)))
          (cmpi .sle
            (broadcastInDim S4096x20x1 ![0, 1] b1
              (select (cmpi .slt x (broadcastInDim S4096x20 ![] b0 (constantI S_ 32 0#32)))
                (addi x (broadcastInDim S4096x20 ![] b0 (constantI S_ 32 1000000#32))) x))
            (broadcastInDim S4096x20x1 ![0, 1, 2] b4 (broadcastInDim S1x1x1 ![2] b3 (constantI S1 32 999999#32)))))
        (constantI S_ 1 1#1) hr hS j = 1#1 := by
  refine reduce_andi_of_all _ _ hr hS (fun i => ?_) rfl j
  obtain ⟨r', t', z, rfl⟩ : ∃ (r' : Fin 4096) (t' : Fin 20) (z : Fin 1), i = ix3 r' t' z := ⟨i 0, i 1, i 2, eq_ix3 i⟩
  have hi := idx5_apply x hx b0 b1 r' t' z
  have h01 := hx r' t'
  refine IntOp.andi_eq_one.mpr ⟨?_, ?_⟩
  · show IntOp.cmpi .sge _ 0#32 = 1#1
    rw [hi]; exact IntOp.cmpi_sge.mpr (by rw [show (0#32 : BitVec 32).toInt = 0 from by decide]; exact h01.1)
  · show IntOp.cmpi .sle _ 999999#32 = 1#1
    rw [hi]; exact IntOp.cmpi_sle.mpr (by rw [show (999999#32 : BitVec 32).toInt = 999999 from by decide]; exact h01.2)

end Take

/-! ## The entry contents -/

section Entry
variable (m : (ℓ : Loc nD τ sig) → Buf (Elt Ideal) ℓ) (c : Dev nD)

/-- The index array x, the table E, the weights W and U and the bias b: the five arguments on device `c`. -/
def xA : IVec S4096x20 32 := m ((c.tc : Thread nD τ).loc main_arg0)
def eA : FVec Ideal S1000000x64 .f32 := m ((c.tc : Thread nD τ).loc main_arg1)
def wA : FVec Ideal S64x256 .f32 := m ((c.tc : Thread nD τ).loc main_arg2)
def uA : FVec Ideal S64x256 .f32 := m ((c.tc : Thread nD τ).loc main_arg3)
def bA : FVec Ideal S256 .f32 := m ((c.tc : Thread nD τ).loc main_arg4)

/-- The index array as the lookup's first operation reads it. -/
theorem leaf_x (p1 p2 p3) :
    (TRef.of main_arg0 p1 p2 p3 : TRef sig ⟨S4096x20, .i32⟩).ofBuf (launchContents m c (Proc.devRef .tc main_arg0)) = xA m c :=
  cast_eq _ _
/-- The table as the lookup reads it. -/
theorem leaf_e (p1 p2 p3) :
    (TRef.of main_arg1 p1 p2 p3 : TRef sig ⟨S1000000x64, .f32⟩).ofBuf (launchContents m c (Proc.devRef .tc main_arg1)) = eA m c :=
  cast_eq _ _

set_option maxRecDepth 100000 in
set_option maxHeartbeats 1000000 in
/-- THE TIME-MAJOR INPUT AT THE ENTRY, at (t, r, k): column k of the table's row x[r, t]. -/
theorem entry_x (hx : ∀ r t, 0 ≤ (xA m c (ix2 r t)).toInt ∧ (xA m c (ix2 r t)).toInt ≤ 999999)
    (t : Fin 20) (r : Fin 4096) (k : Fin 64) :
    rX (entryContents (preI (F := Ideal)) m c) (ix3 t r k) = eA m c (ix2 (rowOf (xA m c (ix2 r t))) k) := by
  unfold rX
  simp only [entryContents, afterL_cons, afterL_nil]
  after_results_simp
  simp only [ofBuf_toBuf, leaf_x, leaf_e]
  refine (toTimeMajor_apply _ _ t r k).trans ?_
  refine (congrFun (cast_eq _ _) (ix3 r t k)).trans ?_
  refine (select_of_one _ _ _ ?_).trans ?_
  · refine (broadcastInDim_apply _ _ _ (ix3 r t k) (ix2 r t) (fun a => ?_)).trans (mask_apply (xA m c) hx _ _ _ _ _ _ _ _)
    match a with
    | ⟨0, _⟩ => rfl
    | ⟨1, _⟩ => rfl
  · refine (rows_apply _ _ _ r t k).trans ?_
    refine congrArg (fun q : Fin 1000000 => eA m c (ix2 q k)) (Fin.ext ?_)
    show min (_ : BitVec 32).toInt.toNat 999999 = min (xA m c (ix2 r t)).toNat 999999
    rw [idx5_apply (xA m c) hx _ _ r t 0, clamp_eq _ (hx r t).1 (hx r t).2]
    have h1 := (hx r t).2
    have h2 : 2 * (xA m c (ix2 r t)).toNat < 2 ^ 32 := BitVec.toInt_pos_iff.mp (hx r t).1
    rw [BitVec.toInt_eq_toNat_of_lt h2] at h1
    omega

/-- THE PRECONDITION, DECODED: every index reads signed in [0, 999999]. The precondition's last conjunct is the
    reduction by `and`, over the whole index array, of (0 ≤ x) and (x ≤ 999999). -/
theorem x_range (hpre : Cert.Pre_ReferenceIdeal (hPre_input_domain := Cert.Pre_input_domain.Gen.facts) m)
    (r : Fin 4096) (t : Fin 20) : 0 ≤ (xA m c (ix2 r t)).toInt ∧ (xA m c (ix2 r t)).toInt ≤ 999999 := by
  have e := congrFun (hpre c) ix0
  dsimp only [Cert.Pre_input_domain.fn, Cert.Pre_input_domain.fn_part1] at e
  have e24 := (IntOp.andi_eq_one.mp e).2
  haveI : Subsingleton Cert.Pre_input_domain.S_.Idx := ⟨fun a b => funext fun i => i.elim0⟩
  have hall := Host.reduce_andi_all _ _ _ _ _ e24 (ix2 r t)
  obtain ⟨h0, h1⟩ := IntOp.andi_eq_one.mp hall
  have h0' : (0#32 : BitVec 32).toInt ≤ (xA m c (ix2 r t)).toInt := IntOp.cmpi_sge.mp h0
  have h1' : (xA m c (ix2 r t)).toInt ≤ (999999#32 : BitVec 32).toInt := IntOp.cmpi_sle.mp h1
  rw [show (0#32 : BitVec 32).toInt = 0 from by decide] at h0'
  rw [show (999999#32 : BitVec 32).toInt = 999999 from by decide] at h1'
  exact ⟨h0', h1'⟩

/-- So under the precondition every index word's unsigned reading is at most 999999, and `rowOf` of it is that row. -/
theorem x_toNat_le (hpre : Cert.Pre_ReferenceIdeal (hPre_input_domain := Cert.Pre_input_domain.Gen.facts) m)
    (r : Fin 4096) (t : Fin 20) : (xA m c (ix2 r t)).toNat ≤ 999999 := by
  obtain ⟨h0, h1⟩ := x_range m c hpre r t
  have h2 : 2 * (xA m c (ix2 r t)).toNat < 2 ^ 32 := BitVec.toInt_pos_iff.mp h0
  rw [BitVec.toInt_eq_toNat_of_lt h2] at h1
  omega

set_option maxRecDepth 100000 in
set_option maxHeartbeats 1000000 in
/-- At the entry the input weights are the third argument, -/
theorem entry_w : rW (entryContents (preI (F := Ideal)) m c) = wA m c := by
  unfold rW
  simp only [entryContents, afterL_cons, afterL_nil]
  after_results_simp
  rfl
set_option maxRecDepth 100000 in
set_option maxHeartbeats 1000000 in
/-- the recurrent weights the fourth, -/
theorem entry_u : rU (entryContents (preI (F := Ideal)) m c) = uA m c := by
  unfold rU
  simp only [entryContents, afterL_cons, afterL_nil]
  after_results_simp
  rfl
set_option maxRecDepth 100000 in
set_option maxHeartbeats 1000000 in
/-- the bias the fifth, -/
theorem entry_b : rB (entryContents (preI (F := Ideal)) m c) = bA m c := by
  unfold rB
  simp only [entryContents, afterL_cons, afterL_nil]
  after_results_simp
  rfl
set_option maxRecDepth 100000 in
set_option maxHeartbeats 1000000 in
/-- and the carried h -/
theorem entry_h (i : S4096x64.Idx) : rH (entryContents (preI (F := Ideal)) m c) i = 0 := by
  unfold rH
  simp only [entryContents, afterL_cons, afterL_nil]
  after_results_simp
  exact Ideal.ofBits_zero_f32
set_option maxRecDepth 100000 in
set_option maxHeartbeats 1000000 in
/-- and c are zero. -/
theorem entry_c (i : S4096x64.Idx) : rC (entryContents (preI (F := Ideal)) m c) i = 0 := by
  unfold rC
  simp only [entryContents, afterL_cons, afterL_nil]
  after_results_simp
  exact Ideal.ofBits_zero_f32

/-- Input slice `i` as the recurrence reads it off the arguments: entry (r, k) is column k of the table's row x[r, i]
    (zero past the 20 slices). -/
def xsM (i : ℕ) (r : Fin 4096) (k : Fin 64) : EReal :=
  if h : i < 20 then eA m c (ix2 (rowOf (xA m c (ix2 r (⟨i, h⟩ : Fin 20)))) k) else 0

/-- Under the precondition the entry's input slices are those. -/
theorem xsOf_entry (hx : ∀ r t, 0 ≤ (xA m c (ix2 r t)).toInt ∧ (xA m c (ix2 r t)).toInt ≤ 999999) :
    xsOf (entryContents (preI (F := Ideal)) m c) = xsM m c := by
  funext i r k
  unfold xsOf xsM
  by_cases h : i < 20
  · rw [dif_pos h, dif_pos h]; exact entry_x m c hx ⟨i, h⟩ r k
  · rw [dif_neg h, dif_neg h]

/-- THE REFERENCE'S THREE RESULTS, under the precondition, entry by entry: the batch-major output at (r, t, j) is the
    recurrence's output of step t at (r, j); the second result is the output of the last step and the third its cell
    state — the recurrence run on the rows of the table that the index array names, from zeros. -/
theorem ref_value (hpre : Cert.Pre_ReferenceIdeal (hPre_input_domain := Cert.Pre_input_domain.Gen.facts) m) :
    (∀ (r : Fin 4096) (t : Fin 20) (j : Fin 64),
        RefFrame.res_v6 m c (ix3 r t j) = (state (wA m c) (uA m c) (bA m c) (xsM m c) t.val).h r j)
    ∧ (∀ (r : Fin 4096) (j : Fin 64),
        RefFrame.res_v5_5 m c (ix2 r j) = (state (wA m c) (uA m c) (bA m c) (xsM m c) 19).h r j)
    ∧ (∀ (r : Fin 4096) (j : Fin 64),
        RefFrame.res_v5_6 m c (ix2 r j) = (state (wA m c) (uA m c) (bA m c) (xsM m c) 19).c r j) := by
  have hx := x_range m c hpre
  have hctr := ctr_entry (F := Ideal) m c
  have hh : ∀ r j, rH (entryContents (preI (F := Ideal)) m c) (ix2 r j) = 0 := fun r j => entry_h m c _
  have hc : ∀ r j, rC (entryContents (preI (F := Ideal)) m c) (ix2 r j) = 0 := fun r j => entry_c m c _
  have e1 := entry_w m c
  have e2 := entry_u m c
  have e3 := entry_b m c
  have e4 := xsOf_entry m c hx
  refine ⟨fun r t j => ?_, fun r j => ?_, fun r j => ?_⟩
  · have h := final_out (entryContents (preI (F := Ideal)) m c) hctr hh hc r t j
    rw [e1, e2, e3, e4] at h
    exact h
  · have h := final_h (entryContents (preI (F := Ideal)) m c) hctr hh hc r j
    rw [e1, e2, e3, e4] at h
    exact h
  · have h := final_c (entryContents (preI (F := Ideal)) m c) hctr hh hc r j
    rw [e1, e2, e3, e4] at h
    exact h

end Entry

end Cert.ReferenceIdeal.RefValue

end
-- ==== Proof.TableValue.lean ====
/-
  The packed table after the first TensorCore call, read at an index. The call transposes the table E : f32[1000000, 64]
  block by block: grid point p (of 33) writes rows 16384 p .. 16384 p + 16383 of the packed table f32[540672, 128];
  columns 0..63 of row 16384 p + r are row 16384 p + r of E; columns 64..127 are, below point 32, row
  16384 min (p + 32, 60) + r of E (so row 16384 (p + 32) + r below point 29) and, at point 32, row 983616 + r (the
  table's last 16384 rows). The points' row blocks are disjoint, so the array after the call holds under point p's
  block exactly what point p wrote; what it wrote is the canon of the body's two stores, each a transposed input block;
  an input block read at an index is the transposed table (or its last columns) at the block's offset; and the host
  operations before the call make the transposed table the transpose of E. The second host stretch does not write the
  packed table.
-/
import proofs.«206902_g37847251812778_fold_wed_m_929_15_alg».proof.Proof.Regs
import Idealize.ShloMosaic.Lib.Pipeline.Value
import proofs.«206902_g37847251812778_fold_wed_m_929_15_alg».proof.Proof.IdxRange
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.SparseCore.Cfg (HIx)
open Idealize.ShloMosaic.ValueIdx

variable {F : FTy → Type} [FloatOps F]

section Table

variable (V : (c : Dev nD) → (b : Ref sig .tc) → Buf (Elt F) ((c : Thread nD τ).loc b))
variable (O : Dev nD → CellTallies nD τ sig (HIx 1)) (B : Set (SemLoc sig × HIx 1))

/-- The output window's index map sends distinct grid points to distinct blocks. -/
theorem idx_inj3 : ∀ t t' : Fin cfg0.N, win0_3.index t = win0_3.index t' → t = t' :=
  (by decide +kernel : ∀ t t' : Fin grid0.N, win0_3.index t = win0_3.index t' → t = t')

theorem disjoint3 : ∀ t t' : Fin cfg0.N, (cfg0.win 3).flush t = true → (cfg0.win 3).flush t' = true → t ≠ t' →
    Disjoint ((cfg0.win 3).blk t).view.set ((cfg0.win 3).blk t').view.set :=
  fun t t' _ _ hne => (cfg0.win 3).disjoint_blk fun h => hne (idx_inj3 t t' h)

theorem arr3_emb (c : Dev nD) (p : Fin cfg0.N) (y : S16384x128.Idx) :
    (dat0 V O B c).arrAt 3 cfg0.N (((cfg0.win 3).blk p).view.emb y) = (dat0 V O B c).after 3 p y :=
  (dat0 V O B c).arrAt_emb_eq_flushed 3 disjoint3 p (flush0_3 p) y

theorem index3 : ∀ t : Fin cfg0.N, win0_3.index t = ![t.val, 0] :=
  (by decide +kernel : ∀ t : Fin grid0.N, win0_3.index t = ![t.val, 0])

theorem emb3 (p : Fin cfg0.N) (r : Fin 16384) (col : Fin 128) (h : 16384 * p.val + r.val < 540672) :
    ((cfg0.win 3).blk p).view.emb (ix2 r col) = (ix2 ⟨16384 * p.val + r.val, h⟩ col : S540672x128.Idx) := by
  have key : ∀ a : Fin 2, ((win0_3.rect p).emb (ix2 r col) a : Nat) = ((ix2 ⟨16384 * p.val + r.val, h⟩ col : S540672x128.Idx) a : Nat) := by
    intro a
    rw [Window.rect_emb_val, index3 p]
    fin_cases a
    · show p.val * 16384 + r.val = 16384 * p.val + r.val; omega
    · show 0 * 128 + col.val = col.val; omega
  funext a
  exact Fin.ext (key a)

theorem arr3_at (c : Dev nD) (p : Fin cfg0.N) (r : Fin 16384) (col : Fin 128) (h : 16384 * p.val + r.val < 540672) :
    (dat0 V O B c).arrAt 3 cfg0.N (ix2 ⟨16384 * p.val + r.val, h⟩ col : S540672x128.Idx) = (dat0 V O B c).after 3 p (ix2 r col) := by
  rw [← emb3 p r col h]; exact arr3_emb V O B c p (ix2 r col)

/-! ## The body's output block at an index -/

theorem rIn_ld (x : Vec F S64x16384 .f32) : View.ld x rIn = x :=
  View.ld_unit_zero (by funext a; fin_cases a <;> rfl) _ x

theorem pay1_apply (x : Vec F S64x16384 .f32) (r : Fin 16384) (k : Fin 64) : k0_pay1 x (ix2 r k) = x (ix2 k r) := by
  unfold k0_pay1
  rw [shapeCast_self]
  exact transpose_ix2_apply _ _ r k
theorem pay2_apply (x : Vec F S64x16384 .f32) (r : Fin 16384) (k : Fin 64) : k0_pay2 x (ix2 r k) = x (ix2 k r) := by
  unfold k0_pay2
  rw [shapeCast_self]
  exact transpose_ix2_apply _ _ r k
theorem pay3_apply (x : Vec F S64x16384 .f32) (r : Fin 16384) (k : Fin 64) : k0_pay3 x (ix2 r k) = x (ix2 k r) := by
  unfold k0_pay3
  rw [shapeCast_self]
  exact transpose_ix2_apply _ _ r k

theorem rLo_emb (r : Fin 16384) (k : Fin 64) (hk : k.val < 128) :
    rLo.emb (ix2 r k) = (ix2 r ⟨k.val, hk⟩ : S16384x128.Idx) := by
  funext a; apply Fin.ext; rw [Rect.emb_apply]
  fin_cases a
  · show 0 + 1 * r.val = r.val; omega
  · show 0 + 1 * k.val = k.val; omega
theorem rHi_emb (r : Fin 16384) (k : Fin 64) (hk : 64 + k.val < 128) :
    rHi.emb (ix2 r k) = (ix2 r ⟨64 + k.val, hk⟩ : S16384x128.Idx) := by
  funext a; apply Fin.ext; rw [Rect.emb_apply]
  fin_cases a
  · show 0 + 1 * r.val = r.val; omega
  · show 64 + 1 * k.val = 64 + k.val; omega
theorem lo_not_mem_rHi (r : Fin 16384) (k : Fin 64) (hk : k.val < 128) :
    (ix2 r ⟨k.val, hk⟩ : S16384x128.Idx) ∉ rHi.set := by
  rw [Rect.mem_set_unit]
  intro hh
  have := (hh 1).1
  have hk' := k.isLt
  change 64 ≤ k.val at this
  omega

theorem canon_lo (p0 p1 : Vec F S16384x64 .f32) (r : Fin 16384) (k : Fin 64) (hk : k.val < 128) :
    View.canon ([⟨rHi, p0⟩, ⟨rLo, p1⟩] : List (View.Piece (Elt F) S16384x128 .f32)) (ix2 r ⟨k.val, hk⟩) = p1 (ix2 r k) := by
  rw [View.canon_cons_of_not_mem (⟨rHi, p0⟩ : View.Piece (Elt F) S16384x128 .f32) [⟨rLo, p1⟩] (lo_not_mem_rHi r k hk), ← rLo_emb r k hk]
  exact View.canon_cons_emb rLo p1 [] (ix2 r k)
theorem canon_hi (p0 p1 : Vec F S16384x64 .f32) (r : Fin 16384) (k : Fin 64) (hk : 64 + k.val < 128) :
    View.canon ([⟨rHi, p0⟩, ⟨rLo, p1⟩] : List (View.Piece (Elt F) S16384x128 .f32)) (ix2 r ⟨64 + k.val, hk⟩) = p0 (ix2 r k) := by
  rw [← rHi_emb r k hk]
  exact View.canon_cons_emb rHi p0 [⟨rLo, p1⟩] (ix2 r k)

theorem outA_lo (x0 x1 : Vec F S64x16384 .f32) (r : Fin 16384) (k : Fin 64) (hk : k.val < 128) :
    out0_A x0 x1 (ix2 r ⟨k.val, hk⟩) = x0 (ix2 k r) := by
  unfold out0_A; rw [canon_lo, rIn_ld, pay1_apply]
theorem outA_hi (x0 x1 : Vec F S64x16384 .f32) (r : Fin 16384) (k : Fin 64) (hk : 64 + k.val < 128) :
    out0_A x0 x1 (ix2 r ⟨64 + k.val, hk⟩) = x1 (ix2 k r) := by
  unfold out0_A; rw [canon_hi, rIn_ld, pay2_apply]
theorem outB_lo (x0 x2 : Vec F S64x16384 .f32) (r : Fin 16384) (k : Fin 64) (hk : k.val < 128) :
    out0_B x0 x2 (ix2 r ⟨k.val, hk⟩) = x0 (ix2 k r) := by
  unfold out0_B; rw [canon_lo, rIn_ld, pay1_apply]
theorem outB_hi (x0 x2 : Vec F S64x16384 .f32) (r : Fin 16384) (k : Fin 64) (hk : 64 + k.val < 128) :
    out0_B x0 x2 (ix2 r ⟨64 + k.val, hk⟩) = x2 (ix2 k r) := by
  unfold out0_B; rw [canon_hi, rIn_ld, pay3_apply]

/-! ## The input blocks at an index -/

theorem index0 : ∀ t : Fin cfg0.N, win0_0.index t = ![0, t.val] :=
  (by decide +kernel : ∀ t : Fin grid0.N, win0_0.index t = ![0, t.val])
theorem index1 : ∀ t : Fin cfg0.N, win0_1.index t = ![0, min (t.val + 32) 60] :=
  (by decide +kernel : ∀ t : Fin grid0.N, win0_1.index t = ![0, min (t.val + 32) 60])

theorem emb0 (t : Fin cfg0.N) (y : (win0_0.xblock (grid0.coords t)).Idx) (k : Fin 64) (n : Fin 1000000)
    (h0 : (y (⟨0, Nat.zero_lt_two⟩ : Fin 2)).val = k.val) (h1 : 16384 * t.val + (y (⟨1, Nat.one_lt_two⟩ : Fin 2)).val = n.val) :
    ((cfg0.win 0).blk t).view.emb y = (ix2 k n : S64x1000000.Idx) := by
  have key : ∀ a : Fin 2, ((win0_0.rect t).emb y a : Nat) = ((ix2 k n : S64x1000000.Idx) a : Nat) := by
    intro a
    rw [Window.rect_emb_val, index0 t]
    fin_cases a
    · show 0 * 64 + (y (⟨0, Nat.zero_lt_two⟩ : Fin 2)).val = k.val; omega
    · show t.val * 16384 + (y (⟨1, Nat.one_lt_two⟩ : Fin 2)).val = n.val; omega
  funext a
  exact Fin.ext (key a)

theorem emb1 (t : Fin cfg0.N) (y : (win0_1.xblock (grid0.coords t)).Idx) (k : Fin 64) (n : Fin 1000000)
    (h0 : (y (⟨0, Nat.zero_lt_two⟩ : Fin 2)).val = k.val) (h1 : 16384 * min (t.val + 32) 60 + (y (⟨1, Nat.one_lt_two⟩ : Fin 2)).val = n.val) :
    ((cfg0.win 1).blk t).view.emb y = (ix2 k n : S64x1000000.Idx) := by
  have key : ∀ a : Fin 2, ((win0_1.rect t).emb y a : Nat) = ((ix2 k n : S64x1000000.Idx) a : Nat) := by
    intro a
    rw [Window.rect_emb_val, index1 t]
    fin_cases a
    · show 0 * 64 + (y (⟨0, Nat.zero_lt_two⟩ : Fin 2)).val = k.val; omega
    · show min (t.val + 32) 60 * 16384 + (y (⟨1, Nat.one_lt_two⟩ : Fin 2)).val = n.val; omega
  funext a
  exact Fin.ext (key a)

theorem X0_apply (c : Dev nD) (t : Fin cfg0.N) (k : Fin 64) (r : Fin 16384) (h : 16384 * t.val + r.val < 1000000) :
    X0 V c t (ix2 k r) = V c main_v0 (ix2 k ⟨16384 * t.val + r.val, h⟩ : S64x1000000.Idx) := by
  have hm : win0_0.moved (grid0.coords t) (ix2 k r) = true :=
    (win0_0.moved_iff _ _).mpr fun a => by
      have := ((ix2 k r : S64x16384.Idx) a).isLt
      have hc : win0_0.clip (grid0.coords t) a = none := clip0_0 t a
      unfold Window.xsize; rw [hc]; exact this
  unfold X0 Window.fill
  rw [dif_pos hm]
  unfold iblk0
  rw [View.read_apply]
  show V c main_v0 _ = V c main_v0 _
  exact congrArg (V c main_v0) (emb0 t _ k ⟨_, h⟩ rfl rfl)

theorem X1_apply (c : Dev nD) (t : Fin cfg0.N) (k : Fin 64) (r : Fin 16384) (h : 16384 * min (t.val + 32) 60 + r.val < 1000000) :
    X1 V c t (ix2 k r) = V c main_v0 (ix2 k ⟨16384 * min (t.val + 32) 60 + r.val, h⟩ : S64x1000000.Idx) := by
  have hm : win0_1.moved (grid0.coords t) (ix2 k r) = true :=
    (win0_1.moved_iff _ _).mpr fun a => by
      have := ((ix2 k r : S64x16384.Idx) a).isLt
      have hc : win0_1.clip (grid0.coords t) a = none := clip0_1 t a
      unfold Window.xsize; rw [hc]; exact this
  unfold X1 Window.fill
  rw [dif_pos hm]
  unfold iblk0
  rw [View.read_apply]
  show V c main_v0 _ = V c main_v0 _
  exact congrArg (V c main_v0) (emb1 t _ k ⟨_, h⟩ rfl rfl)

theorem index2 : ∀ t : Fin cfg0.N, win0_2.index t = ![0, 0] :=
  (by decide +kernel : ∀ t : Fin grid0.N, win0_2.index t = ![0, 0])

theorem X2_apply (c : Dev nD) (t : Fin cfg0.N) (k : Fin 64) (r : Fin 16384) :
    X2 V c t (ix2 k r) = V c main_v1 (ix2 k r : S64x16384.Idx) := by
  unfold X2 iblk0
  rw [View.read_apply]
  show V c main_v1 _ = V c main_v1 _
  refine congrArg (V c main_v1) ?_
  have key : ∀ a : Fin 2, ((win0_2.rect t).emb (ix2 k r) a : Nat) = ((ix2 k r : S64x16384.Idx) a : Nat) := by
    intro a
    rw [Window.rect_emb_val, index2 t]
    fin_cases a
    · show 0 * 64 + k.val = k.val; omega
    · show 0 * 16384 + r.val = r.val; omega
  funext a
  exact Fin.ext (key a)

/-! ## The output array after the call, at an index, over the arrays at the call's entry -/

theorem arr3_lo (c : Dev nD) (p : Fin cfg0.N) (r : Fin 16384) (k : Fin 64) (h : 16384 * p.val + r.val < 540672) (hk : k.val < 128)
    (h' : 16384 * p.val + r.val < 1000000) :
    (dat0 V O B c).arrAt 3 cfg0.N (ix2 ⟨16384 * p.val + r.val, h⟩ ⟨k.val, hk⟩ : S540672x128.Idx)
      = V c main_v0 (ix2 k ⟨16384 * p.val + r.val, h'⟩ : S64x1000000.Idx) := by
  rw [arr3_at V O B c p r ⟨k.val, hk⟩ h, after0_3]
  split
  · rw [outA_lo, X0_apply]
  · rw [outB_lo, X0_apply]

theorem arr3_hi_A (c : Dev nD) (p : Fin cfg0.N) (hp : p.val < 32) (r : Fin 16384) (k : Fin 64) (h : 16384 * p.val + r.val < 540672)
    (hk : 64 + k.val < 128) (h' : 16384 * min (p.val + 32) 60 + r.val < 1000000) :
    (dat0 V O B c).arrAt 3 cfg0.N (ix2 ⟨16384 * p.val + r.val, h⟩ ⟨64 + k.val, hk⟩ : S540672x128.Idx)
      = V c main_v0 (ix2 k ⟨16384 * min (p.val + 32) 60 + r.val, h'⟩ : S64x1000000.Idx) := by
  rw [arr3_at V O B c p r ⟨64 + k.val, hk⟩ h, after0_3, if_pos hp, outA_hi, X1_apply]

theorem arr3_hi_B (c : Dev nD) (p : Fin cfg0.N) (hp : ¬ p.val < 32) (r : Fin 16384) (k : Fin 64) (h : 16384 * p.val + r.val < 540672)
    (hk : 64 + k.val < 128) :
    (dat0 V O B c).arrAt 3 cfg0.N (ix2 ⟨16384 * p.val + r.val, h⟩ ⟨64 + k.val, hk⟩ : S540672x128.Idx)
      = V c main_v1 (ix2 k r : S64x16384.Idx) := by
  rw [arr3_at V O B c p r ⟨64 + k.val, hk⟩ h, after0_3, if_neg hp, outB_hi, X2_apply]

end Table

section Final

variable (m : (ℓ : Loc nD τ sig) → Buf (Elt F) ℓ)

/-- The second host stretch leaves the packed table as the transposing call left it. -/
theorem W3_v2 (c : Dev nD) :
    W3 m c (Proc.devRef .tc main_v2) = (dat0 (V1 m) (O0 (F := F)) (B0 (F := F) c) c).arrAt 3 cfg0.N := by
  show StableHlo.after opsB (W2 m c) (Proc.devRef .tc main_v2) = _
  after_results
  unfold W2
  rw [Function.update_self]

/-- The transposed table at the call's entry, at an index. -/
theorem V1_v0_apply (c : Dev nD) (k : Fin 64) (n : Fin 1000000) :
    (V1 m c main_v0 : FVec F S64x1000000 .f32) (ix2 k n) = m ((c.tc : Thread nD τ).loc main_arg1) (ix2 n k) := by
  show StableHlo.after opsA (W0 m c) (Proc.devRef .tc main_v0) (ix2 k n) = _
  after_results
  exact transpose_ix2_apply _ _ k n

/-- Its last 16384 columns at the call's entry, at an index. -/
theorem V1_v1_apply (c : Dev nD) (k : Fin 64) (r : Fin 16384) (h : 983616 + r.val < 1000000) :
    (V1 m c main_v1 : FVec F S64x16384 .f32) (ix2 k r) = m ((c.tc : Thread nD τ).loc main_arg1) (ix2 ⟨983616 + r.val, h⟩ k) := by
  show StableHlo.after opsA (W0 m c) (Proc.devRef .tc main_v1) (ix2 k r) = _
  after_results
  refine (extractStridedSlice_apply _ _ _ (ix2 k r) (ix2 k ⟨983616 + r.val, h⟩) ?_).trans
    (transpose_ix2_apply _ _ k ⟨983616 + r.val, h⟩)
  intro a
  have key : ∀ a : Fin 2, ((ix2 k (⟨983616 + r.val, h⟩ : Fin 1000000) : S64x1000000.Idx) a : Nat)
      = (![0, 983616] : Fin 2 → Nat) a + ((ix2 k r : S64x16384.Idx) a : Nat) := by
    intro a
    fin_cases a
    · show k.val = 0 + k.val; omega
    · show 983616 + r.val = 983616 + r.val; rfl
  exact key a

/-! ## The packed table after the second host stretch, at an index -/

/-- Left half: row 16384 p + r of the packed table, column k < 64, is the table's row 16384 p + r. -/
theorem table_lo (c : Dev nD) (p : Fin cfg0.N) (r : Fin 16384) (k : Fin 64) (h : 16384 * p.val + r.val < 540672) (hk : k.val < 128)
    (h' : 16384 * p.val + r.val < 1000000) :
    (W3 m c (Proc.devRef .tc main_v2) : FVec F S540672x128 .f32) (ix2 ⟨16384 * p.val + r.val, h⟩ ⟨k.val, hk⟩)
      = m ((c.tc : Thread nD τ).loc main_arg1) (ix2 ⟨16384 * p.val + r.val, h'⟩ k) := by
  rw [W3_v2, arr3_lo (V1 m) _ _ c p r k h hk h']
  exact V1_v0_apply m c k _

/-- Right half below block 29: column 64 + k holds the table's row 16384 (p + 32) + r. -/
theorem table_hi (c : Dev nD) (p : Fin cfg0.N) (hp : p.val < 29) (r : Fin 16384) (k : Fin 64) (h : 16384 * p.val + r.val < 540672)
    (hk : 64 + k.val < 128) (h' : 16384 * (p.val + 32) + r.val < 1000000) :
    (W3 m c (Proc.devRef .tc main_v2) : FVec F S540672x128 .f32) (ix2 ⟨16384 * p.val + r.val, h⟩ ⟨64 + k.val, hk⟩)
      = m ((c.tc : Thread nD τ).loc main_arg1) (ix2 ⟨16384 * (p.val + 32) + r.val, h'⟩ k) := by
  have e : min (p.val + 32) 60 = p.val + 32 := by omega
  rw [W3_v2, arr3_hi_A (V1 m) _ _ c p (by omega) r k h hk (by rw [e]; exact h')]
  have e' : (⟨16384 * min (p.val + 32) 60 + r.val, by rw [e]; exact h'⟩ : Fin 1000000) = ⟨16384 * (p.val + 32) + r.val, h'⟩ :=
    Fin.ext (by show 16384 * min (p.val + 32) 60 + r.val = 16384 * (p.val + 32) + r.val; omega)
  rw [e']
  exact V1_v0_apply m c k _

/-- Right half of the last block: column 64 + k holds the table's row 983616 + r. -/
theorem table_hi32 (c : Dev nD) (p : Fin cfg0.N) (hp : p.val = 32) (r : Fin 16384) (k : Fin 64) (h : 16384 * p.val + r.val < 540672)
    (hk : 64 + k.val < 128) (h' : 983616 + r.val < 1000000) :
    (W3 m c (Proc.devRef .tc main_v2) : FVec F S540672x128 .f32) (ix2 ⟨16384 * p.val + r.val, h⟩ ⟨64 + k.val, hk⟩)
      = m ((c.tc : Thread nD τ).loc main_arg1) (ix2 ⟨983616 + r.val, h'⟩ k) := by
  rw [W3_v2, arr3_hi_B (V1 m) _ _ c p (by omega) r k h hk]
  exact V1_v1_apply m c k r h'

end Final

section Rows

variable (m : (ℓ : Loc nD τ sig) → Buf (Elt F) ℓ)

/-! ## The packed table at any row -/

/-- Left half at any row j: the table's row j. -/
theorem table_row_lo (c : Dev nD) (j : Fin 540672) (k : Fin 64) (hk : k.val < 128) (h' : j.val < 1000000) :
    (W3 m c (Proc.devRef .tc main_v2) : FVec F S540672x128 .f32) (ix2 j ⟨k.val, hk⟩)
      = m ((c.tc : Thread nD τ).loc main_arg1) (ix2 ⟨j.val, h'⟩ k) := by
  have hj := j.isLt
  have hp : j.val / 16384 < cfg0.N := by show j.val / 16384 < 33; omega
  have hq : 16384 * (j.val / 16384) + j.val % 16384 = j.val := by omega
  have e : j = ⟨16384 * (j.val / 16384) + j.val % 16384, by omega⟩ := Fin.ext hq.symm
  have e2 : (⟨16384 * (j.val / 16384) + j.val % 16384, by omega⟩ : Fin 1000000) = ⟨j.val, h'⟩ := Fin.ext hq
  exact (congrArg (fun z => (W3 m c (Proc.devRef .tc main_v2) : FVec F S540672x128 .f32) (ix2 z ⟨k.val, hk⟩)) e).trans
    ((table_lo m c ⟨j.val / 16384, hp⟩ ⟨j.val % 16384, Nat.mod_lt _ (by decide)⟩ k (by show 16384 * (j.val / 16384) + j.val % 16384 < 540672; omega) hk (by show 16384 * (j.val / 16384) + j.val % 16384 < 1000000; omega)).trans
      (congrArg (fun z => m ((c.tc : Thread nD τ).loc main_arg1) (ix2 z k)) e2))

/-- Right half at a row j below 475136 = 29 * 16384: the table's row j + 524288. -/
theorem table_row_hi (c : Dev nD) (j : Fin 540672) (hj : j.val < 475136) (k : Fin 64) (hk : 64 + k.val < 128)
    (h' : j.val + 524288 < 1000000) :
    (W3 m c (Proc.devRef .tc main_v2) : FVec F S540672x128 .f32) (ix2 j ⟨64 + k.val, hk⟩)
      = m ((c.tc : Thread nD τ).loc main_arg1) (ix2 ⟨j.val + 524288, h'⟩ k) := by
  have hp : j.val / 16384 < cfg0.N := by show j.val / 16384 < 33; omega
  have hq : 16384 * (j.val / 16384) + j.val % 16384 = j.val := by omega
  have e : j = ⟨16384 * (j.val / 16384) + j.val % 16384, by omega⟩ := Fin.ext hq.symm
  have e2 : (⟨16384 * (j.val / 16384 + 32) + j.val % 16384, by omega⟩ : Fin 1000000) = ⟨j.val + 524288, h'⟩ := Fin.ext (by show 16384 * (j.val / 16384 + 32) + j.val % 16384 = j.val + 524288; omega)
  exact (congrArg (fun z => (W3 m c (Proc.devRef .tc main_v2) : FVec F S540672x128 .f32) (ix2 z ⟨64 + k.val, hk⟩)) e).trans
    ((table_hi m c ⟨j.val / 16384, hp⟩ (by show j.val / 16384 < 29; omega) ⟨j.val % 16384, Nat.mod_lt _ (by decide)⟩ k (by show 16384 * (j.val / 16384) + j.val % 16384 < 540672; omega) hk (by show 16384 * (j.val / 16384 + 32) + j.val % 16384 < 1000000; omega)).trans
      (congrArg (fun z => m ((c.tc : Thread nD τ).loc main_arg1) (ix2 z k)) e2))

/-- Right half at a row j from 524288 = 32 * 16384 on: the table's row j + 459328 (its last 16384 rows). -/
theorem table_row_hi32 (c : Dev nD) (j : Fin 540672) (hj : 524288 ≤ j.val) (k : Fin 64) (hk : 64 + k.val < 128)
    (h' : j.val + 459328 < 1000000) :
    (W3 m c (Proc.devRef .tc main_v2) : FVec F S540672x128 .f32) (ix2 j ⟨64 + k.val, hk⟩)
      = m ((c.tc : Thread nD τ).loc main_arg1) (ix2 ⟨j.val + 459328, h'⟩ k) := by
  have hj' := j.isLt
  have hp : j.val / 16384 < cfg0.N := by show j.val / 16384 < 33; omega
  have hq : 16384 * (j.val / 16384) + j.val % 16384 = j.val := by omega
  have e : j = ⟨16384 * (j.val / 16384) + j.val % 16384, by omega⟩ := Fin.ext hq.symm
  have e2 : (⟨983616 + j.val % 16384, by omega⟩ : Fin 1000000) = ⟨j.val + 459328, h'⟩ := Fin.ext (by show 983616 + j.val % 16384 = j.val + 459328; omega)
  exact (congrArg (fun z => (W3 m c (Proc.devRef .tc main_v2) : FVec F S540672x128 .f32) (ix2 z ⟨64 + k.val, hk⟩)) e).trans
    ((table_hi32 m c ⟨j.val / 16384, hp⟩ (by show j.val / 16384 = 32; omega) ⟨j.val % 16384, Nat.mod_lt _ (by decide)⟩ k (by show 16384 * (j.val / 16384) + j.val % 16384 < 540672; omega) hk (by show 983616 + j.val % 16384 < 1000000; omega)).trans
      (congrArg (fun z => m ((c.tc : Thread nD τ).loc main_arg1) (ix2 z k)) e2))

end Rows

/-! ## The remap's three cases, and the packed table at a remapped row -/

theorem sel_ge (x c a b : BitVec 32) (h : c.toInt ≤ x.toInt) : Scalar.select (IntOp.cmpi .sge x c) a b = a := by
  rw [IntOp.cmpi_sge.2 h, select_one]
theorem sel_lt (x c a b : BitVec 32) (h : ¬ c.toInt ≤ x.toInt) : Scalar.select (IntOp.cmpi .sge x c) a b = b := by
  rw [eq_zero_of_ne_one (fun e => h (IntOp.cmpi_sge.1 e)), select_zero]

/-- Below 524288 the remap keeps the word. -/
theorem remap_toNat_lo (x : BitVec 32) (h0 : 0 ≤ x.toInt) (h : x.toInt < 524288) : (remap x).toNat = x.toNat := by
  have e := BitVec.toInt_eq_toNat_cond x
  have hx := x.isLt
  have k1 : (524288#32 : BitVec 32).toInt = 524288 := by decide
  have k2 : (999424#32 : BitVec 32).toInt = 999424 := by decide
  unfold remap
  rw [sel_lt x _ _ _ (by rw [k1]; omega), sel_lt x _ _ _ (by rw [k2]; omega)]
  show (x - 0#32 + 0#32).toNat = x.toNat
  rw [BitVec.toNat_add, BitVec.toNat_sub]; simp only [BitVec.toNat_ofNat]; omega

/-- From 524288 up to 999423 it takes 524288 off. -/
theorem remap_toNat_mid (x : BitVec 32) (h1 : 524288 ≤ x.toInt) (h2 : x.toInt < 999424) :
    (remap x).toNat = x.toNat - 524288 := by
  have e := BitVec.toInt_eq_toNat_cond x
  have hx := x.isLt
  have k1 : (524288#32 : BitVec 32).toInt = 524288 := by decide
  have k2 : (999424#32 : BitVec 32).toInt = 999424 := by decide
  unfold remap
  rw [sel_ge x _ _ _ (by rw [k1]; omega), sel_lt x _ _ _ (by rw [k2]; omega)]
  show (x - 524288#32 + 0#32).toNat = x.toNat - 524288
  rw [BitVec.toNat_add, BitVec.toNat_sub]; simp only [BitVec.toNat_ofNat]; omega

/-- From 999424 on (up to 999999) it takes 459328 off. -/
theorem remap_toNat_hi (x : BitVec 32) (h1 : 999424 ≤ x.toInt) (h2 : x.toInt ≤ 999999) :
    (remap x).toNat = x.toNat - 459328 := by
  have e := BitVec.toInt_eq_toNat_cond x
  have hx := x.isLt
  have k1 : (524288#32 : BitVec 32).toInt = 524288 := by decide
  have k2 : (999424#32 : BitVec 32).toInt = 999424 := by decide
  unfold remap
  rw [sel_ge x _ _ _ (by rw [k1]; omega), sel_ge x _ _ _ (by rw [k2]; omega)]
  show (x - 524288#32 + 64960#32).toNat = x.toNat - 459328
  rw [BitVec.toNat_add, BitVec.toNat_sub]; simp only [BitVec.toNat_ofNat]; omega

section Consumer

variable (m : (ℓ : Loc nD τ sig) → Buf (Elt F) ℓ)

/-- The packed table at the remapped row of a word x in [0, 999999], in the half the word selects (the right half
    from 524288 on), column k of that half: the table's row x, column k. -/
theorem table_remap (c : Dev nD) (x : BitVec 32) (h0 : 0 ≤ x.toInt) (h1 : x.toInt ≤ 999999) (k : Fin 64)
    (hr : (remap x).toNat < 540672) (hx : x.toNat < 1000000) (hk0 : k.val < 128) (hk1 : 64 + k.val < 128) :
    (W3 m c (Proc.devRef .tc main_v2) : FVec F S540672x128 .f32)
        (ix2 ⟨(remap x).toNat, hr⟩ (if (524288 : Int) ≤ x.toInt then ⟨64 + k.val, hk1⟩ else ⟨k.val, hk0⟩))
      = m ((c.tc : Thread nD τ).loc main_arg1) (ix2 ⟨x.toNat, hx⟩ k) := by
  have e := BitVec.toInt_eq_toNat_cond x
  have hxl := x.isLt
  by_cases c1 : (524288 : Int) ≤ x.toInt
  · rw [if_pos c1]
    by_cases c2 : (999424 : Int) ≤ x.toInt
    · have er := remap_toNat_hi x c2 h1
      refine (table_row_hi32 m c ⟨(remap x).toNat, hr⟩ (by show 524288 ≤ (remap x).toNat; omega) k hk1
        (by show (remap x).toNat + 459328 < 1000000; omega)).trans ?_
      exact congrArg (fun z => m ((c.tc : Thread nD τ).loc main_arg1) (ix2 z k))
        (Fin.ext (by show (remap x).toNat + 459328 = x.toNat; omega))
    · have er := remap_toNat_mid x c1 (by omega)
      refine (table_row_hi m c ⟨(remap x).toNat, hr⟩ (by show (remap x).toNat < 475136; omega) k hk1
        (by show (remap x).toNat + 524288 < 1000000; omega)).trans ?_
      exact congrArg (fun z => m ((c.tc : Thread nD τ).loc main_arg1) (ix2 z k))
        (Fin.ext (by show (remap x).toNat + 524288 = x.toNat; omega))
  · rw [if_neg c1]
    have er := remap_toNat_lo x h0 (by omega)
    refine (table_row_lo m c ⟨(remap x).toNat, hr⟩ k hk0 (by show (remap x).toNat < 1000000; omega)).trans ?_
    exact congrArg (fun z => m ((c.tc : Thread nD τ).loc main_arg1) (ix2 z k))
      (Fin.ext (by show (remap x).toNat = x.toNat; omega))

end Consumer

section ConsumerSle

variable (m : (ℓ : Loc nD τ sig) → Buf (Elt F) ℓ)

/-- A word in [0, 999999] signed is below 1000000 unsigned. -/
theorem toNat_lt_of_signed_range (w : BitVec 32) (h0 : 0 ≤ w.toInt) (h1 : w.toInt ≤ 999999) : w.toNat < 1000000 := by
  have e := BitVec.toInt_eq_toNat_cond w
  have hx := w.isLt
  omega

/-- The same with the half chosen by the comparison's own bit, 524288 ≤ w signed. -/
theorem table_remap_sle (c : Dev nD) (w : BitVec 32) (h0 : 0 ≤ w.toInt) (h1 : w.toInt ≤ 999999) (k : Fin 64) :
    (W3 m c (Proc.devRef .tc main_v2) : FVec F S540672x128 .f32)
        (ix2 ⟨(remap w).toNat, remap_lt w h0 h1⟩
          (if (524288#32).sle w then (⟨64 + k.val, by have := k.isLt; omega⟩ : Fin 128) else ⟨k.val, by have := k.isLt; omega⟩))
      = (m ((c.tc : Thread nD τ).loc main_arg1) : FVec F S1000000x64 .f32) (ix2 ⟨w.toNat, toNat_lt_of_signed_range w h0 h1⟩ k) := by
  have hs : ((524288#32).sle w = true) ↔ (524288 : Int) ≤ w.toInt := by
    rw [BitVec.sle_iff_toInt_le, show (524288#32 : BitVec 32).toInt = 524288 by decide]
  have key := table_remap m c w h0 h1 k (remap_lt w h0 h1) (toNat_lt_of_signed_range w h0 h1)
    (by have := k.isLt; omega) (by have := k.isLt; omega)
  by_cases c1 : (524288 : Int) ≤ w.toInt
  · rw [if_pos c1] at key
    rw [if_pos (hs.2 c1)]
    exact key
  · rw [if_neg c1] at key
    rw [if_neg (mt hs.1 c1)]
    exact key

end ConsumerSle

end Cert.KernelIdeal.Hand
end
-- ==== Proof.KernelInputs.lean ====
/-
  The LSTM call's inputs as functions of the program's arguments.

  Nothing before the LSTM call writes an argument, so the call finds the index argument, the two weight matrices and —
  reshaped to one row — the bias as launched. The packed rows it reads are the gathered array laid out time-major:
  row t·4096 + r of the gathered array is the packed table's row named by the remapped index word x[r, t], whose two
  halves are the embedding table's rows x and x + 524288 (rows past 999424 sit in the last block). So the half the body
  selects at (t, r) — the upper one exactly when x[r, t] ≥ 524288 — is the embedding table's row x[r, t].
-/
import proofs.«206902_g37847251812778_fold_wed_m_929_15_alg».proof.Proof.KernelResults
import proofs.«206902_g37847251812778_fold_wed_m_929_15_alg».proof.Proof.GatherSpec
import proofs.«206902_g37847251812778_fold_wed_m_929_15_alg».proof.Proof.IdxRange
import proofs.«206902_g37847251812778_fold_wed_m_929_15_alg».proof.Proof.RefValueEntry
import proofs.«206902_g37847251812778_fold_wed_m_929_15_alg».proof.Proof.TableValue

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.ValueIdx
open Lstm

section Inputs

variable (m : (ℓ : Loc nD τ sig) → Buf (Elt Ideal) ℓ)

/-! ## A word in the table's range -/

/-- A word that is a row number of the embedding table, signed, is one unsigned. -/
theorem toNat_lt_of_range (w : BitVec 32) (h0 : 0 ≤ w.toInt) (h1 : w.toInt ≤ 999999) : w.toNat < 1000000 := by
  have e := BitVec.toInt_eq_toNat_cond w
  have hw := w.isLt
  omega

/-! ## The contents between the gather and the LSTM call -/

variable (fo : (c : Dev nD) → Buf (Elt Ideal) ((c : Thread nD τ).loc main_v15))

/-- After the gather the gathered array is what the gather left; -/
theorem W4_v15 (c : Dev nD) : W4 m fo c (Proc.devRef .tc main_v15) = fo c := by
  unfold W4
  rw [Function.update_self]

/-- no stretch and no call before the LSTM call writes an argument. -/
theorem W4_arg0 (c : Dev nD) : W4 m fo c (Proc.devRef .tc main_arg0) = (m ((c.tc : Thread nD τ).loc main_arg0)) := by
  unfold W4
  rw [Function.update_of_ne (by decide)]
  show StableHlo.after opsB (W2 m c) (Proc.devRef .tc main_arg0) = _
  after_results
  exact W2_arg0 m c
theorem W4_arg2 (c : Dev nD) : W4 m fo c (Proc.devRef .tc main_arg2) = (m ((c.tc : Thread nD τ).loc main_arg2)) := by
  unfold W4
  rw [Function.update_of_ne (by decide)]
  show StableHlo.after opsB (W2 m c) (Proc.devRef .tc main_arg2) = _
  after_results
  unfold W2
  rw [Function.update_of_ne (by decide)]
  show StableHlo.after opsA (W0 m c) (Proc.devRef .tc main_arg2) = _
  after_results
theorem W4_arg3 (c : Dev nD) : W4 m fo c (Proc.devRef .tc main_arg3) = (m ((c.tc : Thread nD τ).loc main_arg3)) := by
  unfold W4
  rw [Function.update_of_ne (by decide)]
  show StableHlo.after opsB (W2 m c) (Proc.devRef .tc main_arg3) = _
  after_results
  unfold W2
  rw [Function.update_of_ne (by decide)]
  show StableHlo.after opsA (W0 m c) (Proc.devRef .tc main_arg3) = _
  after_results
theorem W4_arg4 (c : Dev nD) : W4 m fo c (Proc.devRef .tc main_arg4) = (m ((c.tc : Thread nD τ).loc main_arg4)) := by
  unfold W4
  rw [Function.update_of_ne (by decide)]
  show StableHlo.after opsB (W2 m c) (Proc.devRef .tc main_arg4) = _
  after_results
  unfold W2
  rw [Function.update_of_ne (by decide)]
  show StableHlo.after opsA (W0 m c) (Proc.devRef .tc main_arg4) = _
  after_results

/-! ## (a) The arguments the LSTM call reads as launched -/

theorem V5_arg0 (c : Dev nD) : V5 m fo c main_arg0 = (m ((c.tc : Thread nD τ).loc main_arg0)) := by
  show StableHlo.after opsC (W4 m fo c) (Proc.devRef .tc main_arg0) = _
  after_results
  exact W4_arg0 m fo c
theorem V5_arg2 (c : Dev nD) : V5 m fo c main_arg2 = (m ((c.tc : Thread nD τ).loc main_arg2)) := by
  show StableHlo.after opsC (W4 m fo c) (Proc.devRef .tc main_arg2) = _
  after_results
  exact W4_arg2 m fo c
theorem V5_arg3 (c : Dev nD) : V5 m fo c main_arg3 = (m ((c.tc : Thread nD τ).loc main_arg3)) := by
  show StableHlo.after opsC (W4 m fo c) (Proc.devRef .tc main_arg3) = _
  after_results
  exact W4_arg3 m fo c

/-! ## (b) The bias row -/

/-- The bias the call reads, at (0, n), is the bias argument at n. -/
theorem V5_v17_apply (c : Dev nD) (n : Fin 256) :
    (V5 m fo c main_v17 : FVec Ideal S1x256 .f32) (ix2 u0 n) = ((m ((c.tc : Thread nD τ).loc main_arg4)) : FVec Ideal S256 .f32) (ix1 n) := by
  show StableHlo.after opsC (W4 m fo c) (Proc.devRef .tc main_v17) (ix2 u0 n) = _
  after_results
  rw [W4_arg4]
  exact shapeCast_a_1a_apply _ _ u0 n

/-! ## (c) The packed rows, and the half the body selects -/

/-- The packed rows the call reads, at (t, r, k), are the gathered array at (t·4096 + r, k). -/
theorem V5_v16_apply (c : Dev nD) (t : Fin 20) (r : Fin 4096) (k : Fin 128) (h : t.val * 4096 + r.val < 81920) :
    (V5 m fo c main_v16 : FVec Ideal S20x4096x128 .f32) (ix3 t r k)
      = (fo c : FVec Ideal S81920x128 .f32) (ix2 ⟨t.val * 4096 + r.val, h⟩ k) := by
  show StableHlo.after opsC (W4 m fo c) (Proc.devRef .tc main_v16) (ix3 t r k) = _
  after_results
  rw [W4_v15]
  exact shapeCast_apply _ _ (ix3 t r k) (ix2 ⟨t.val * 4096 + r.val, h⟩ k) (by
    rw [Shape.rowMajor_val_three, Shape.rowMajor_val_two]; rfl)

/-- With the gather's specified result: the packed table's row named by the remapped index word x[r, t]. -/
theorem V5_v16_gspec (c : Dev nD)
    (hx0 : ∀ i : S4096x20.Idx, 0 ≤ ((m ((c.tc : Thread nD τ).loc main_arg0)) i).toInt ∧ ((m ((c.tc : Thread nD τ).loc main_arg0)) i).toInt ≤ 999999)
    (t : Fin 20) (r : Fin 4096) (k : Fin 128) :
    (V5 m (gspec m) c main_v16 : FVec Ideal S20x4096x128 .f32) (ix3 t r k)
      = (W3 m c (Proc.devRef .tc main_v2) : FVec Ideal S540672x128 .f32)
          (ix2 ⟨(remap ((m ((c.tc : Thread nD τ).loc main_arg0)) (ix2 r t))).toNat, remap_lt _ (hx0 (ix2 r t)).1 (hx0 (ix2 r t)).2⟩ k) := by
  have h : t.val * 4096 + r.val < 81920 := by have := t.isLt; have := r.isLt; omega
  rw [V5_v16_apply m (gspec m) c t r k h]
  show (W3 m c (Proc.devRef .tc main_v2) : FVec Ideal S540672x128 .f32)
      (ix2 (rowOfT ((W3 m c (Proc.devRef .tc main_v14) : IVec S81920 32) (ix1 ⟨t.val * 4096 + r.val, h⟩))) k) = _
  rw [W3_v14_at m c t r h]
  exact congrArg (fun q => (W3 m c (Proc.devRef .tc main_v2) : FVec Ideal S540672x128 .f32) (ix2 q k))
    (Fin.ext (rowOfT_val _ (remap_lt _ (hx0 (ix2 r t)).1 (hx0 (ix2 r t)).2)))

/-- THE SELECTION: the half of the packed row the body takes at (t, r) is the embedding table's row x[r, t] — given
    that a table row x and its partner x + 524288 sit in the two halves of the packed row the remap names. -/
theorem selected_row (c : Dev nD)
    (hx0 : ∀ i : S4096x20.Idx, 0 ≤ ((m ((c.tc : Thread nD τ).loc main_arg0)) i).toInt ∧ ((m ((c.tc : Thread nD τ).loc main_arg0)) i).toInt ≤ 999999)
    (htab : ∀ (w : BitVec 32) (h0 : 0 ≤ w.toInt) (h1 : w.toInt ≤ 999999) (k : Fin 64),
      (W3 m c (Proc.devRef .tc main_v2) : FVec Ideal S540672x128 .f32)
          (ix2 ⟨(remap w).toNat, remap_lt w h0 h1⟩ (if (524288#32).sle w then (⟨64 + k.val, by omega⟩ : Fin 128) else ⟨k.val, by omega⟩))
        = ((m ((c.tc : Thread nD τ).loc main_arg1)) : FVec Ideal S1000000x64 .f32) (ix2 ⟨w.toNat, toNat_lt_of_range w h0 h1⟩ k))
    (t : Fin 20) (r : Fin 4096) (k : Fin 64) :
    (if (524288#32).sle ((m ((c.tc : Thread nD τ).loc main_arg0)) (ix2 r t))
      then (V5 m (gspec m) c main_v16 : FVec Ideal S20x4096x128 .f32) (ix3 t r ⟨64 + k.val, by omega⟩)
      else (V5 m (gspec m) c main_v16 : FVec Ideal S20x4096x128 .f32) (ix3 t r ⟨k.val, by omega⟩))
      = ((m ((c.tc : Thread nD τ).loc main_arg1)) : FVec Ideal S1000000x64 .f32)
          (ix2 ⟨((m ((c.tc : Thread nD τ).loc main_arg0)) (ix2 r t)).toNat, toNat_lt_of_range _ (hx0 (ix2 r t)).1 (hx0 (ix2 r t)).2⟩ k) := by
  have ht := htab ((m ((c.tc : Thread nD τ).loc main_arg0)) (ix2 r t)) (hx0 (ix2 r t)).1 (hx0 (ix2 r t)).2 k
  rw [V5_v16_gspec m c hx0, V5_v16_gspec m c hx0]
  by_cases hs : (524288#32).sle ((m ((c.tc : Thread nD τ).loc main_arg0)) (ix2 r t)) = true
  · rw [if_pos hs]; rw [if_pos hs] at ht; exact ht
  · rw [if_neg hs]; rw [if_neg hs] at ht; exact ht

end Inputs

/-! ## (d) The kernel's results are the reference's -/

section Reference

variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-- The precondition is a statement about the five arguments: memories that agree on them satisfy it together. -/
theorem pre_reference (hpre : Cert.Pre_KernelIdeal (hPre_input_domain := Cert.Pre_input_domain.Gen.facts) m)
    (hargs : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)) :
    Cert.Pre_ReferenceIdeal (hPre_input_domain := Cert.Pre_input_domain.Gen.facts) m' := by
  intro c
  obtain ⟨a0, a1, a2, a3, a4⟩ := hargs c
  rw [a0, a1, a2, a3, a4]
  exact hpre c

/-- THE TWO PROGRAMS' RESULTS AGREE, element by element: with the gather leaving its specified result, the kernel
    program's batch-major stack and two final states are the reference's three results, from memories that agree on the
    five arguments under the precondition — given that a table row and its partner sit in the two halves of the packed
    row the remap names. -/
theorem kernel_eq_reference (hpre : Cert.Pre_KernelIdeal (hPre_input_domain := Cert.Pre_input_domain.Gen.facts) m)
    (hargs : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)) (c : Dev nD)
    (htab : ∀ (w : BitVec 32) (h0 : 0 ≤ w.toInt) (h1 : w.toInt ≤ 999999) (k : Fin 64),
      (W3 m c (Proc.devRef .tc main_v2) : FVec Ideal S540672x128 .f32)
          (ix2 ⟨(remap w).toNat, remap_lt w h0 h1⟩ (if (524288#32).sle w then (⟨64 + k.val, by omega⟩ : Fin 128) else ⟨k.val, by omega⟩))
        = ((m ((c.tc : Thread nD τ).loc main_arg1)) : FVec Ideal S1000000x64 .f32) (ix2 ⟨w.toNat, toNat_lt_of_range w h0 h1⟩ k)) :
    (∀ (r : Fin 4096) (t : Fin 20) (j : Fin 64),
        (W7 out2_5 out2_6 out2_7 m (gspec m) c (Proc.devRef .tc main_v19) : S4096x20x64.Idx → EReal) (ix3 r t j) = Cert.ReferenceIdeal.RefFrame.res_v6 m' c (ix3 r t j))
      ∧ (∀ (r : Fin 4096) (j : Fin 64),
        (W7 out2_5 out2_6 out2_7 m (gspec m) c (Proc.devRef .tc main_v18_1) : S4096x64.Idx → EReal) (ix2 r j) = Cert.ReferenceIdeal.RefFrame.res_v5_5 m' c (ix2 r j))
      ∧ (∀ (r : Fin 4096) (j : Fin 64),
        (W7 out2_5 out2_6 out2_7 m (gspec m) c (Proc.devRef .tc main_v18_2) : S4096x64.Idx → EReal) (ix2 r j) = Cert.ReferenceIdeal.RefFrame.res_v5_6 m' c (ix2 r j)) := by
  obtain ⟨a0, a1, a2, a3, a4⟩ := hargs c
  have hx0 := pre_range_ideal m hpre c
  obtain ⟨R1, R2, R3⟩ := Cert.ReferenceIdeal.RefValue.ref_value m' c (pre_reference m m' hpre hargs)
  have e0 : Cert.ReferenceIdeal.RefValue.xA m' c = (m ((c.tc : Thread nD τ).loc main_arg0)) := a0
  have e1 : Cert.ReferenceIdeal.RefValue.eA m' c = (m ((c.tc : Thread nD τ).loc main_arg1)) := a1
  have hW : (V5 (F := Ideal) m (gspec m) c main_arg2 : FVec Ideal S64x256 .f32) = Cert.ReferenceIdeal.RefValue.wA m' c := (V5_arg2 m (gspec m) c).trans a2.symm
  have hU : (V5 (F := Ideal) m (gspec m) c main_arg3 : FVec Ideal S64x256 .f32) = Cert.ReferenceIdeal.RefValue.uA m' c := (V5_arg3 m (gspec m) c).trans a3.symm
  have hb : ∀ n : Fin 256, (V5 (F := Ideal) m (gspec m) c main_v17 : FVec Ideal S1x256 .f32) (ix2 u0 n) = Cert.ReferenceIdeal.RefValue.bA m' c (ix1 n) := fun n =>
    (V5_v17_apply m (gspec m) c n).trans (congrFun a4.symm (ix1 n))
  have hx : ∀ (t : Fin 20) (r : Fin 4096) (k : Fin 64),
      (if (524288#32).sle ((V5 (F := Ideal) m (gspec m) c main_arg0 : IVec S4096x20 32) (ix2 r t))
        then (V5 (F := Ideal) m (gspec m) c main_v16 : FVec Ideal S20x4096x128 .f32) (ix3 t r ⟨64 + k.val, by omega⟩)
        else (V5 (F := Ideal) m (gspec m) c main_v16 : FVec Ideal S20x4096x128 .f32) (ix3 t r ⟨k.val, by omega⟩))
        = Cert.ReferenceIdeal.RefValue.xsM m' c t.val r k := by
    intro t r k
    rw [V5_arg0, selected_row m c hx0 htab t r k]
    unfold Cert.ReferenceIdeal.RefValue.xsM
    rw [dif_pos t.isLt, e0, e1]
    refine congrArg (fun q => ((m ((c.tc : Thread nD τ).loc main_arg1)) : FVec Ideal S1000000x64 .f32) (ix2 q k)) (Fin.ext ?_)
    have hlt := toNat_lt_of_range _ (hx0 (ix2 r t)).1 (hx0 (ix2 r t)).2
    exact (Cert.ReferenceIdeal.RefValue.rowOf_val _ (by omega)).symm
  obtain ⟨K1, K2, K3⟩ := kernel_results m (gspec m) c (Cert.ReferenceIdeal.RefValue.wA m' c) (Cert.ReferenceIdeal.RefValue.uA m' c) (Cert.ReferenceIdeal.RefValue.bA m' c) (Cert.ReferenceIdeal.RefValue.xsM m' c) hW hU hb hx
  exact ⟨fun r t j => (K1 r t j).trans (R1 r t j).symm, fun r j => (K2 r j).trans (R2 r j).symm, fun r j => (K3 r j).trans (R3 r j).symm⟩

/-- THE SAME WITH NOTHING LEFT OPEN: the packed table's two halves at a remapped row are the table's rows, so the
    kernel program's three results are the reference's, element by element. -/
theorem kernel_eq_reference_closed (hpre : Cert.Pre_KernelIdeal (hPre_input_domain := Cert.Pre_input_domain.Gen.facts) m)
    (hargs : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)) (c : Dev nD) :
    (∀ (r : Fin 4096) (t : Fin 20) (j : Fin 64),
        (W7 out2_5 out2_6 out2_7 m (gspec m) c (Proc.devRef .tc main_v19) : S4096x20x64.Idx → EReal) (ix3 r t j) = Cert.ReferenceIdeal.RefFrame.res_v6 m' c (ix3 r t j))
      ∧ (∀ (r : Fin 4096) (j : Fin 64),
        (W7 out2_5 out2_6 out2_7 m (gspec m) c (Proc.devRef .tc main_v18_1) : S4096x64.Idx → EReal) (ix2 r j) = Cert.ReferenceIdeal.RefFrame.res_v5_5 m' c (ix2 r j))
      ∧ (∀ (r : Fin 4096) (j : Fin 64),
        (W7 out2_5 out2_6 out2_7 m (gspec m) c (Proc.devRef .tc main_v18_2) : S4096x64.Idx → EReal) (ix2 r j) = Cert.ReferenceIdeal.RefFrame.res_v5_6 m' c (ix2 r j)) :=
  kernel_eq_reference m m' hpre hargs c fun w h0 h1 k => table_remap_sle m c w h0 h1 k

/-- As whole arrays: the kernel program's three results are the reference's three results. -/
theorem kernel_results_eq_reference (hpre : Cert.Pre_KernelIdeal (hPre_input_domain := Cert.Pre_input_domain.Gen.facts) m)
    (hargs : ∀ c : Dev nD,
      m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)) (c : Dev nD) :
    (W7 out2_5 out2_6 out2_7 m (gspec m) c (Proc.devRef .tc main_v19) : S4096x20x64.Idx → EReal) = Cert.ReferenceIdeal.RefFrame.res_v6 m' c
      ∧ (W7 out2_5 out2_6 out2_7 m (gspec m) c (Proc.devRef .tc main_v18_1) : S4096x64.Idx → EReal) = Cert.ReferenceIdeal.RefFrame.res_v5_5 m' c
      ∧ (W7 out2_5 out2_6 out2_7 m (gspec m) c (Proc.devRef .tc main_v18_2) : S4096x64.Idx → EReal) = Cert.ReferenceIdeal.RefFrame.res_v5_6 m' c := by
  obtain ⟨K1, K2, K3⟩ := kernel_eq_reference_closed m m' hpre hargs c
  refine ⟨funext fun i => ?_, funext fun i => ?_, funext fun i => ?_⟩
  · rw [eq_ix3 i]; exact K1 (i 0) (i 1) (i 2)
  · rw [eq_ix2 i]; exact K2 (i 0) (i 1)
  · rw [eq_ix2 i]; exact K3 (i 0) (i 1)

end Reference

end Cert.KernelIdeal.Hand

end
-- ==== Proof.Algebraic.lean ====
/-
  The two programs at the ideal values: from memories that agree on the five arguments, both run, end with equal
  results, and leave the arguments unchanged.

  The kernel program's run ends with every unscoped TensorCore buffer at the contents the boundary valuations name;
  read at the three result buffers those are, array for array, the reference's three results (the value chain), and
  read at the five arguments they are the arguments as launched: no host stretch writes an argument, the transposing
  call and the gather write other arrays, and the LSTM call only reads the three arguments it windows. The reference's
  run names its own results and keeps its arguments. So the results of the first run serve as the common witnesses.
-/
import proofs.«206902_g37847251812778_fold_wed_m_929_15_alg».proof.Proof.KernelInputs

set_option maxRecDepth 16384

noncomputable section

namespace Cert.KernelIdeal.Hand

open Cert.KernelIdeal Cert.KernelIdeal.Gen
open Idealize.ShloMosaic Idealize.ShloMosaic.TcCoe
open Idealize.SL Idealize.SL.Sem
open Idealize.ShloMosaic.Pipeline (Dat Cfg Window)
open Idealize.ShloMosaic.ValueIdx
open Lstm

section Kept

variable (m : (ℓ : Loc nD τ sig) → Buf (Elt Ideal) ℓ)
variable (fo : (c : Dev nD) → Buf (Elt Ideal) ((c : Thread nD τ).loc main_v15))

/-! ## The arguments at the LSTM call's entry (the two the call does not window) -/

theorem W4_arg1 (c : Dev nD) : W4 m fo c (Proc.devRef .tc main_arg1) = (m ((c.tc : Thread nD τ).loc main_arg1)) := by
  unfold W4
  rw [Function.update_of_ne (by decide)]
  show StableHlo.after opsB (W2 m c) (Proc.devRef .tc main_arg1) = _
  after_results
  unfold W2
  rw [Function.update_of_ne (by decide)]
  show StableHlo.after opsA (W0 m c) (Proc.devRef .tc main_arg1) = _
  after_results
theorem V5_arg1 (c : Dev nD) : V5 m fo c main_arg1 = (m ((c.tc : Thread nD τ).loc main_arg1)) := by
  show StableHlo.after opsC (W4 m fo c) (Proc.devRef .tc main_arg1) = _
  after_results
  exact W4_arg1 m fo c
theorem V5_arg4 (c : Dev nD) : V5 m fo c main_arg4 = (m ((c.tc : Thread nD τ).loc main_arg4)) := by
  show StableHlo.after opsC (W4 m fo c) (Proc.devRef .tc main_arg4) = _
  after_results
  exact W4_arg4 m fo c

/-! ## The last host stretch writes the transposed stack only -/

theorem W7_W6_arg0 (c : Dev nD) : W7 out2_5 out2_6 out2_7 m fo c (Proc.devRef .tc main_arg0) = W6 out2_5 out2_6 out2_7 m fo c (Proc.devRef .tc main_arg0) := by
  show StableHlo.after opsE (W6 out2_5 out2_6 out2_7 m fo c) (Proc.devRef .tc main_arg0) = _
  rw [StableHlo.after_cons, StableHlo.after_nil]
  exact StableHlo.unary_result_ne' (x := main_v18_0) (y := main_v19) (r := main_arg0) _ _ _ (W6 out2_5 out2_6 out2_7 m fo c) (by decide)
theorem W7_W6_arg1 (c : Dev nD) : W7 out2_5 out2_6 out2_7 m fo c (Proc.devRef .tc main_arg1) = W6 out2_5 out2_6 out2_7 m fo c (Proc.devRef .tc main_arg1) := by
  show StableHlo.after opsE (W6 out2_5 out2_6 out2_7 m fo c) (Proc.devRef .tc main_arg1) = _
  rw [StableHlo.after_cons, StableHlo.after_nil]
  exact StableHlo.unary_result_ne' (x := main_v18_0) (y := main_v19) (r := main_arg1) _ _ _ (W6 out2_5 out2_6 out2_7 m fo c) (by decide)
theorem W7_W6_arg2 (c : Dev nD) : W7 out2_5 out2_6 out2_7 m fo c (Proc.devRef .tc main_arg2) = W6 out2_5 out2_6 out2_7 m fo c (Proc.devRef .tc main_arg2) := by
  show StableHlo.after opsE (W6 out2_5 out2_6 out2_7 m fo c) (Proc.devRef .tc main_arg2) = _
  rw [StableHlo.after_cons, StableHlo.after_nil]
  exact StableHlo.unary_result_ne' (x := main_v18_0) (y := main_v19) (r := main_arg2) _ _ _ (W6 out2_5 out2_6 out2_7 m fo c) (by decide)
theorem W7_W6_arg3 (c : Dev nD) : W7 out2_5 out2_6 out2_7 m fo c (Proc.devRef .tc main_arg3) = W6 out2_5 out2_6 out2_7 m fo c (Proc.devRef .tc main_arg3) := by
  show StableHlo.after opsE (W6 out2_5 out2_6 out2_7 m fo c) (Proc.devRef .tc main_arg3) = _
  rw [StableHlo.after_cons, StableHlo.after_nil]
  exact StableHlo.unary_result_ne' (x := main_v18_0) (y := main_v19) (r := main_arg3) _ _ _ (W6 out2_5 out2_6 out2_7 m fo c) (by decide)
theorem W7_W6_arg4 (c : Dev nD) : W7 out2_5 out2_6 out2_7 m fo c (Proc.devRef .tc main_arg4) = W6 out2_5 out2_6 out2_7 m fo c (Proc.devRef .tc main_arg4) := by
  show StableHlo.after opsE (W6 out2_5 out2_6 out2_7 m fo c) (Proc.devRef .tc main_arg4) = _
  rw [StableHlo.after_cons, StableHlo.after_nil]
  exact StableHlo.unary_result_ne' (x := main_v18_0) (y := main_v19) (r := main_arg4) _ _ _ (W6 out2_5 out2_6 out2_7 m fo c) (by decide)

/-! ## The arguments after the whole program -/

/-- The index argument and the two weight matrices are arrays the LSTM call windows as inputs: never written back. -/
theorem W7_keeps_arg0 (c : Dev nD) : W7 out2_5 out2_6 out2_7 m fo c (Proc.devRef .tc main_arg0) = (m ((c.tc : Thread nD τ).loc main_arg0)) := by
  rw [W7_W6_arg0, show W6 out2_5 out2_6 out2_7 m fo c (Proc.devRef .tc main_arg0) = (dat2 out2_5 out2_6 out2_7 (V5 (F := Ideal) m fo) (B1 (F := Ideal) c) c).arrAt 1 cfg2.N from W6_arr out2_5 out2_6 out2_7 m fo c 1,
    (dat2 out2_5 out2_6 out2_7 (V5 (F := Ideal) m fo) (B1 (F := Ideal) c) c).arrAt_in 1 rfl, A_eq2]
  exact V5_arg0 m fo c
theorem W7_keeps_arg2 (c : Dev nD) : W7 out2_5 out2_6 out2_7 m fo c (Proc.devRef .tc main_arg2) = (m ((c.tc : Thread nD τ).loc main_arg2)) := by
  rw [W7_W6_arg2, show W6 out2_5 out2_6 out2_7 m fo c (Proc.devRef .tc main_arg2) = (dat2 out2_5 out2_6 out2_7 (V5 (F := Ideal) m fo) (B1 (F := Ideal) c) c).arrAt 2 cfg2.N from W6_arr out2_5 out2_6 out2_7 m fo c 2,
    (dat2 out2_5 out2_6 out2_7 (V5 (F := Ideal) m fo) (B1 (F := Ideal) c) c).arrAt_in 2 rfl, A_eq2]
  exact V5_arg2 m fo c
theorem W7_keeps_arg3 (c : Dev nD) : W7 out2_5 out2_6 out2_7 m fo c (Proc.devRef .tc main_arg3) = (m ((c.tc : Thread nD τ).loc main_arg3)) := by
  rw [W7_W6_arg3, show W6 out2_5 out2_6 out2_7 m fo c (Proc.devRef .tc main_arg3) = (dat2 out2_5 out2_6 out2_7 (V5 (F := Ideal) m fo) (B1 (F := Ideal) c) c).arrAt 3 cfg2.N from W6_arr out2_5 out2_6 out2_7 m fo c 3,
    (dat2 out2_5 out2_6 out2_7 (V5 (F := Ideal) m fo) (B1 (F := Ideal) c) c).arrAt_in 3 rfl, A_eq2]
  exact V5_arg3 m fo c
/-- The embedding table and the bias argument are no array of the LSTM call. -/
theorem W7_keeps_arg1 (c : Dev nD) : W7 out2_5 out2_6 out2_7 m fo c (Proc.devRef .tc main_arg1) = (m ((c.tc : Thread nD τ).loc main_arg1)) := by
  rw [W7_W6_arg1, W6_of_ne out2_5 out2_6 out2_7 m fo c main_arg1 (by decide)]
  exact V5_arg1 m fo c
theorem W7_keeps_arg4 (c : Dev nD) : W7 out2_5 out2_6 out2_7 m fo c (Proc.devRef .tc main_arg4) = (m ((c.tc : Thread nD τ).loc main_arg4)) := by
  rw [W7_W6_arg4, W6_of_ne out2_5 out2_6 out2_7 m fo c main_arg4 (by decide)]
  exact V5_arg4 m fo c

end Kept

/-! ## The algebraic conjunct, from the kernel program's run -/

/-- Given the kernel program's run to the boundary valuations — from any memory under the precondition, every weakly
    fair execution terminates with each unscoped TensorCore buffer at its final contents — the two programs at the
    ideal values, from memories that agree on the five arguments, both run, end with equal results and leave the
    arguments unchanged. -/
theorem algebraic_of_run
    (hrun : ∀ (m : (ℓ : Loc nD τ sig) → Buf (Elt Ideal) ℓ) (ρ : Dev nD → PrngReg),
      Cert.Pre_KernelIdeal (hPre_input_domain := Cert.Pre_input_domain.Gen.facts) m →
      θ_run (Cert.KernelIdeal.defs (F := Ideal)) (Cert.KernelIdeal.threads (F := Ideal)) ⟨m, fun _ => 0, ρ⟩
        (fun r => ∀ c, ∀ b ∈ Pipeline.ucRefs τ sig, r.2.mem ((c, b) : Loc nD τ sig) = W7 out2_5 out2_6 out2_7 m (gspec m) c b)) :
    Cert.algebraic_KernelIdeal_ReferenceIdeal (hKernelIdeal := Cert.KernelIdeal.Gen.facts)
      (hReferenceIdeal := Cert.ReferenceIdeal.Gen.facts) (hPre_input_domain := Cert.Pre_input_domain.Gen.facts) := by
  intro m g m' g' hpre hargs
  refine ⟨fun c => W7 out2_5 out2_6 out2_7 m (gspec m) c (Proc.devRef .tc main_v19),
    fun c => W7 out2_5 out2_6 out2_7 m (gspec m) c (Proc.devRef .tc main_v18_1),
    fun c => W7 out2_5 out2_6 out2_7 m (gspec m) c (Proc.devRef .tc main_v18_2), ?_, ?_⟩
  · refine (θ_run _ _ _).mono (fun r h c => ?_) (hrun m g hpre)
    have hm : ∀ b : Ref sig .tc, (Proc.devRef .tc b : DevRef τ sig) ∈ Pipeline.ucRefs τ sig →
        r.2.mem ((c.tc : Thread nD τ).loc b) = W7 out2_5 out2_6 out2_7 m (gspec m) c (Proc.devRef .tc b) := fun b hb => h c _ hb
    have hu : ∀ b : Ref sig .tc, (Proc.devRef .tc b : DevRef τ sig).isScoped = false → (Proc.devRef .tc b : DevRef τ sig) ∈ Pipeline.ucRefs τ sig :=
      fun b hb => Finset.mem_filter.mpr ⟨StableHlo.devRef_mem_tcRefs _, by rw [hb]; decide⟩
    exact ⟨hm main_v19 (hu _ rfl), hm main_v18_1 (hu _ rfl), hm main_v18_2 (hu _ rfl),
      (hm main_arg0 (hu _ rfl)).trans (W7_keeps_arg0 m (gspec m) c), (hm main_arg1 (hu _ rfl)).trans (W7_keeps_arg1 m (gspec m) c),
      (hm main_arg2 (hu _ rfl)).trans (W7_keeps_arg2 m (gspec m) c), (hm main_arg3 (hu _ rfl)).trans (W7_keeps_arg3 m (gspec m) c),
      (hm main_arg4 (hu _ rfl)).trans (W7_keeps_arg4 m (gspec m) c)⟩
  · refine (θ_run _ _ _).mono (fun r h c => ?_) (Cert.ReferenceIdeal.RefFrame.run_ri m' g')
    obtain ⟨E1, E2, E3⟩ := kernel_results_eq_reference m m' hpre hargs c
    obtain ⟨h1, h2, h3, h4⟩ := h c
    exact ⟨h1.trans E1.symm, h2.trans E2.symm, h3.trans E3.symm, h4⟩

end Cert.KernelIdeal.Hand

end
-- ==== Proof.FinalKI.lean ====
/-
  The idealized kernel program against the reference, at the extended reals: the launch's run, which leaves every
  unscoped buffer at the last boundary's contents, is what the comparison of the two programs' results starts from.
-/
import proofs.«206902_g37847251812778_fold_wed_m_929_15_alg».proof.Proof.LaunchKI
import proofs.«206902_g37847251812778_fold_wed_m_929_15_alg».proof.Proof.Algebraic

noncomputable section

namespace Cert.KernelIdeal.Hand

open Cert.KernelIdeal Cert.KernelIdeal.Gen
open Idealize.ShloMosaic Idealize.ShloMosaic.TcCoe Idealize.SL.Sem

/-- The two programs run, from memories that agree on the arguments, to equal results and unchanged arguments: the
    launch's run under the precondition, handed to the comparison of the results. -/
theorem algebraic_ki :
    Cert.algebraic_KernelIdeal_ReferenceIdeal (hKernelIdeal := Cert.KernelIdeal.Gen.facts)
      (hReferenceIdeal := Cert.ReferenceIdeal.Gen.facts) (hPre_input_domain := Cert.Pre_input_domain.Gen.facts) :=
  algebraic_of_run (fun m ρ hpre => run_full (F := Ideal) m ρ (pre_range_ideal m hpre))

end Cert.KernelIdeal.Hand

end
-- ==== Proof.Bits.Common.lean ====
/-
  The kernel program as the SparseCore launch theorem reads it: the one vector-subcore call (the row gather)
  on both SparseCores × sixteen tiles, the ghost state (the launch handshakes' rounds, the two TensorCore pipelines'
  rounds, the transfers' counters), and the arrays the gather touches.

  Tile (c, s) works on worker number w = 2·s + c: rows [2560·w, 2560·w + 2560) of the index array (its eight chunks of
  320 indices), all of the packed table (read only, one read share per tile), and rows [2560·w + 320·r, +320) of the
  gathered array for r = 0..7.
-/
import proofs.«206902_g37847251812778_fold_wed_m_929_15_alg».proof.Kernel
import proofs.«206902_g37847251812778_fold_wed_m_929_15_alg».proof.Proof.Gen.Kernel
import proofs.«206902_g37847251812778_fold_wed_m_929_15_alg».proof.Proof.Gen.Kernel.Skeleton
import Idealize.ShloMosaic.Lib.SparseCore.Launch
import Idealize.ShloMosaic.Lib.SparseCore.Stream
import Idealize.ShloMosaic.Lib.StableHlo.Run
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipelines' rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays of the gather -/

/-- The index array (`%14`), the packed table (`%2`) and the gathered rows (`%15`), as locations of device `d`. -/
abbrev iLoc (d : Dev nD) : Loc nD τ sig := (SparseCore.T d).loc main_v14
abbrev xLoc (d : Dev nD) : Loc nD τ sig := (SparseCore.T d).loc main_v2
abbrev oLoc (d : Dev nD) : Loc nD τ sig := (SparseCore.T d).loc main_v15

abbrev iV : Memref sig .scVector .hbm S81920 .i32 := Memref.whole main_v14_scv
abbrev xV : Memref sig .scVector .hbm S540672x128 .f32 := Memref.whole main_v2_scv
abbrev oV : Memref sig .scVector .hbm S81920x128 .f32 := Memref.whole main_v15_scv
/-- A tile's scratch: its 2560 indices, one chunk of 320 gathered rows. -/
abbrev sI : Memref sig .scVector .vmem S2560 .i32 := Memref.whole cc1_scratch0
abbrev sR : Memref sig .scVector .vmem S320x128 .f32 := Memref.whole cc1_scratch1

section Tile

variable (L : grid1.Coords)

abbrev cV (L : grid1.Coords) : Fin τ.nSC := (L 0).castLE hcore1
abbrev jV (L : grid1.Coords) : Fin τ.nSub := (L 1).castLE hsub1

/-- The tile's 2560 indices, as it slices them out of the index array. -/
abbrev iRowK (L : grid1.Coords) : Memref sig .scVector .hbm S2560 .i32 :=
  (iV).slice (Rect.unit (s := S81920) (k1_off1 L) S2560.size (k1_off1_inb L)) (fun _ => rfl)
/-- The whole table, as the tile slices it (the full rectangle). -/
abbrev xAllK : Memref sig .scVector .hbm S540672x128 .f32 :=
  (xV).slice (Rect.unit (s := S540672x128) ![0, 0] S540672x128.size inb_S540672x128_S540672x128_0_0) (fun _ => rfl)
/-- Chunk `r` of the tile's rows of the gathered array. -/
abbrev oCh0 (L : grid1.Coords) : Memref sig .scVector .hbm S320x128 .f32 := (oV).slice (Rect.unit (s := S81920x128) (k1_off2 L 0#32) S320x128.size (k1_off2_inb L 0)) (fun _ => rfl)
abbrev oCh1 (L : grid1.Coords) : Memref sig .scVector .hbm S320x128 .f32 := (oV).slice (Rect.unit (s := S81920x128) (k1_off2 L 320#32) S320x128.size (k1_off2_inb L 1)) (fun _ => rfl)
abbrev oCh2 (L : grid1.Coords) : Memref sig .scVector .hbm S320x128 .f32 := (oV).slice (Rect.unit (s := S81920x128) (k1_off2 L 640#32) S320x128.size (k1_off2_inb L 2)) (fun _ => rfl)
abbrev oCh3 (L : grid1.Coords) : Memref sig .scVector .hbm S320x128 .f32 := (oV).slice (Rect.unit (s := S81920x128) (k1_off2 L 960#32) S320x128.size (k1_off2_inb L 3)) (fun _ => rfl)
abbrev oCh4 (L : grid1.Coords) : Memref sig .scVector .hbm S320x128 .f32 := (oV).slice (Rect.unit (s := S81920x128) (k1_off2 L 1280#32) S320x128.size (k1_off2_inb L 4)) (fun _ => rfl)
abbrev oCh5 (L : grid1.Coords) : Memref sig .scVector .hbm S320x128 .f32 := (oV).slice (Rect.unit (s := S81920x128) (k1_off2 L 1600#32) S320x128.size (k1_off2_inb L 5)) (fun _ => rfl)
abbrev oCh6 (L : grid1.Coords) : Memref sig .scVector .hbm S320x128 .f32 := (oV).slice (Rect.unit (s := S81920x128) (k1_off2 L 1920#32) S320x128.size (k1_off2_inb L 6)) (fun _ => rfl)
abbrev oCh7 (L : grid1.Coords) : Memref sig .scVector .hbm S320x128 .f32 := (oV).slice (Rect.unit (s := S81920x128) (k1_off2 L 2240#32) S320x128.size (k1_off2_inb L 7)) (fun _ => rfl)

end Tile

end Cert.Kernel.Hand

end
-- ==== Proof.Bits.RegionsCommon.lean ====
/-
  What the two TensorCore pipelines of the program share inside the SparseCore launch: where their staging cells' ghost
  state lives in the launch's resource algebra, the (empty) prefetched tables, and the bound the TensorCore's recorded
  waits keep: a pipeline's waits are on its own staging semaphores at no call's index, the lowest level.
-/
import proofs.«206902_g37847251812778_fold_wed_m_929_15_alg».proof.Proof.Bits.Common
import proofs.«206902_g37847251812778_fold_wed_m_929_15_alg».proof.Proof.Gen.Kernel.Launch
import proofs.«206902_g37847251812778_fold_wed_m_929_15_alg».proof.Proof.Gen.Kernel.Points
import Idealize.ShloMosaic.Lib.Pipeline.FrameBody
import Idealize.ShloMosaic.Lib.Pipeline.Regions
import Idealize.ShloMosaic.Lib.Pipeline.RegionsLoop

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type}

local notation "𝕄" => MT nD τ sig (HIx 1) (Elt F) ℕ UU ℕ

/-- The pipelines' rounds library inside the launch's algebra `UH × (UP × Counters)`: the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

/-- The prefetched tables' admissible contents: no pallas_call has a table. -/
abbrev adm : (p : Fin 2) → (pcfgs (F := F) p).Adm := fun p => (cfgs p).toPCfg_adm

/-- The pairs (own semaphore, index) at or below level `b` for the TensorCore of `d`. -/
def belowSet (d : Dev nD) (b : ℕ) : Set (SemLoc sig × HIx 1) := {p | (K (F := F)).lev (SparseCore.T d, p.1) p.2 ≤ b}

end Cert.Kernel.Hand

end
-- ==== Proof.Bits.TransposeBody.lean ====
/-
  The transposing kernel's body at one grid point. It loads the 64 × 16384 block of the transposed table that its
  first window stages, transposes it and stores it as columns 0..63 of the 16384 × 128 output block; then, at grid
  points below 32, it does the same with the second window's block into columns 64..127, and at grid point 32 with
  the third window's block (the table's last 16384 columns) instead. The two stores tile the output block, so after
  the body the block is the canon of the two pieces.
-/
import proofs.«206902_g37847251812778_fold_wed_m_929_15_alg».proof.Proof.Bits.Common
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.SparseCore.Cfg (HIx)

variable {F : FTy → Type} [FloatOps F]

local notation "𝕄" => MT nD τ sig (HIx 1) (Elt F) ℕ UU ℕ

/-! ## The body's branch conditions -/

/-- "The grid coordinate is below 32", as the body computes it. -/
abbrev cond0_0 (i : grid0.Coords) : Prop := (Scalar.cmpi .ne (Scalar.extui (Scalar.cmpi .slt (BitVec.ofNat 32 (i 0).val) 32#32)) 0#32) = 1#1
/-- "The grid coordinate is 32", as the body computes it. -/
abbrev cond0_1 (i : grid0.Coords) : Prop := (Scalar.cmpi .ne (Scalar.extui (Scalar.cmpi .eq (BitVec.ofNat 32 (i 0).val) 32#32)) 0#32) = 1#1

theorem hcond0_0 : ∀ t : Fin cfg0.N, cond0_0 (grid0.coords t) ↔ t.val < 32 :=
  (by decide +kernel : ∀ t : Fin grid0.N, cond0_0 (grid0.coords t) ↔ t.val < 32)
theorem hcond0_1 : ∀ t : Fin cfg0.N, cond0_1 (grid0.coords t) ↔ t.val = 32 :=
  (by decide +kernel : ∀ t : Fin grid0.N, cond0_1 (grid0.coords t) ↔ t.val = 32)

/-! ## The body's accesses -/

abbrev rIn : Rect S64x16384 := Rect.unit (s := S64x16384) ![0, 0] S64x16384.size inb_S64x16384_S64x16384_0_0
abbrev rLo : Rect S16384x128 := Rect.unit (s := S16384x128) ![0, 0] S16384x64.size inb_S16384x128_S16384x64_0_0
abbrev rHi : Rect S16384x128 := Rect.unit (s := S16384x128) ![0, 64] S16384x64.size inb_S16384x128_S16384x64_0_64

/-! ## What the body leaves in the output block -/

/-- Below grid point 32: columns 0..63 from the first window's block, columns 64..127 from the second's (the later
    store first). -/
def out0_A (x0 x1 : Vec F S64x16384 .f32) : Vec F S16384x128 .f32 :=
  View.canon [⟨rHi, k0_pay2 (View.ld x1 rIn)⟩, ⟨rLo, k0_pay1 (View.ld x0 rIn)⟩]
/-- At grid point 32: columns 64..127 from the third window's block. -/
def out0_B (x0 x2 : Vec F S64x16384 .f32) : Vec F S16384x128 .f32 :=
  View.canon [⟨rHi, k0_pay3 (View.ld x2 rIn)⟩, ⟨rLo, k0_pay1 (View.ld x0 rIn)⟩]

/-- The two stores tile the block, so they cover it. -/
theorem cover0 (p0 p1 : Vec F S16384x64 .f32) (y : S16384x128.Idx) :
    ∃ pc ∈ ([⟨rHi, p0⟩, ⟨rLo, p1⟩] : List (View.Piece (Elt F) S16384x128 .f32)), y ∈ pc.1.set :=
  View.cover_of_tiled [⟨rHi, p0⟩, ⟨rLo, p1⟩] S16384x64.size (by rfl) y

/-! ## The body's triple, per case -/

set_option maxHeartbeats 1000000 in
/-- Below grid point 32. -/
theorem sound_kernel0_A (c : Dev nD) (E : Set ℕ) (i : grid0.Coords) (hc0 : cond0_0 i) (hc1 : ¬ cond0_1 i)
    (arg1 : Memref sig .tc .vmem S64x16384 .f32) (harg1 : arg1.IsWhole) (arg2 : Memref sig .tc .vmem S64x16384 .f32) (harg2 : arg2.IsWhole)
    (arg3 : Memref sig .tc .vmem S64x16384 .f32) (harg3 : arg3.IsWhole) (arg4 : Memref sig .tc .vmem S16384x128 .f32) (harg4 : arg4.IsWhole)
    (x0 x1 x2 : Vec F S64x16384 .f32) (Kp : PUnit → sProp 𝕄) :
    iprop((owns (c : Thread nD τ) arg1 fullShare x0 : sProp 𝕄) ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_A x0 x1)) -∗ Kp ⟨⟩))
      ⊢ wp frame (wpE (defs₀ (F := F)) 𝒱₀ (c : Thread nD τ) none) E (cc0_body i arg1 harg1 arg2 harg2 arg3 harg3 arg4 harg4) Kp := by
  rw [cc0_body_eq_skeleton]; unfold cc0_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _ _)

set_option maxHeartbeats 1000000 in
/-- At grid point 32. -/
theorem sound_kernel0_B (c : Dev nD) (E : Set ℕ) (i : grid0.Coords) (hc0 : ¬ cond0_0 i) (hc1 : cond0_1 i)
    (arg1 : Memref sig .tc .vmem S64x16384 .f32) (harg1 : arg1.IsWhole) (arg2 : Memref sig .tc .vmem S64x16384 .f32) (harg2 : arg2.IsWhole)
    (arg3 : Memref sig .tc .vmem S64x16384 .f32) (harg3 : arg3.IsWhole) (arg4 : Memref sig .tc .vmem S16384x128 .f32) (harg4 : arg4.IsWhole)
    (x0 x1 x2 : Vec F S64x16384 .f32) (Kp : PUnit → sProp 𝕄) :
    iprop((owns (c : Thread nD τ) arg1 fullShare x0 : sProp 𝕄) ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_B x0 x2)) -∗ Kp ⟨⟩))
      ⊢ wp frame (wpE (defs₀ (F := F)) 𝒱₀ (c : Thread nD τ) none) E (cc0_body i arg1 harg1 arg2 harg2 arg3 harg3 arg4 harg4) Kp := by
  rw [cc0_body_eq_skeleton]; unfold cc0_body_skel
  unfold owns
  iintro ⟨⟨%f0, %hf0, H0⟩, ⟨%f1, %hf1, H1⟩, ⟨%f2, %hf2, H2⟩, ⟨%d3, %f3, -, H3⟩, Hk⟩
  subst hf0 hf1 hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0 _ _)

end Cert.Kernel.Hand

end
-- ==== Proof.Bits.Region0.lean ====
/-
  The transposing pipeline (the program's first TensorCore call) as the pipeline rule takes it. Its first two windows
  stage 64 × 16384 blocks of ONE array, the transposed table (64 × 1000000: the last block of such a tiling would
  overhang, but the 33 grid points visit only blocks 0..32 and 32..60, all inside the array, so no fetch is cut);
  the third stages the table's last 16384 columns whole; the fourth is the output, 16384 rows per point. At every
  point the inputs' buffers hold their blocks and the output's holds the body's two transposed halves — the second
  half from the second window below point 32 and from the third window at point 32.

  The call runs before the program's one SparseCore call: the TensorCore owes the call's start signals (`O`) all
  through it; its recorded waits stay within a bound `B`.
-/
import proofs.«206902_g37847251812778_fold_wed_m_929_15_alg».proof.Proof.Bits.RegionsCommon
import proofs.«206902_g37847251812778_fold_wed_m_929_15_alg».proof.Proof.Bits.TransposeBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type} [FloatOps F]

local notation "𝕄" => MT nD τ sig (HIx 1) (Elt F) ℕ UU ℕ

/-! ## No fetch of the two block windows is cut -/

theorem clip0_0 : ∀ t : Fin cfg0.N, ∀ a, (cfg0.win 0).clip (cfg0.grid.coords t) a = none :=
  (by decide +kernel : ∀ t : Fin grid0.N, ∀ a, win0_0.clip (grid0.coords t) a = none)
theorem clip0_1 : ∀ t : Fin cfg0.N, ∀ a, (cfg0.win 1).clip (cfg0.grid.coords t) a = none :=
  (by decide +kernel : ∀ t : Fin grid0.N, ∀ a, win0_1.clip (grid0.coords t) a = none)

section Region0

-- the arrays as the region finds them
variable (V : (c : Dev nD) → (b : Ref sig .tc) → Buf (Elt F) ((c : Thread nD τ).loc b))
-- what the TensorCore owes throughout, and the bound on its recorded waits
variable (O : Dev nD → CellTallies nD τ sig (HIx 1)) (B : Set (SemLoc sig × HIx 1))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The first window's staging buffer when the body runs: its block (the whole buffer: the filler is nowhere read). -/
def X0 (c : Dev nD) (t : Fin cfg0.N) : Vec F S64x16384 .f32 :=
  win0_0.fill (grid0.coords t) (fun _ => Scalar.ofBits .f32 0#32) (iblk0 V c 0 t)
/-- The second window's. -/
def X1 (c : Dev nD) (t : Fin cfg0.N) : Vec F S64x16384 .f32 :=
  win0_1.fill (grid0.coords t) (fun _ => Scalar.ofBits .f32 0#32) (iblk0 V c 1 t)
/-- The third window's: the table's last 16384 columns. -/
def X2 (c : Dev nD) (t : Fin cfg0.N) : Vec F S64x16384 .f32 := iblk0 V c 2 t

/-- The region's invariant: the TensorCore's scoped buffers that are no staging buffer of this call, each at some
    contents, and its generator register at some state. -/
def Φ0 (c : Dev nD) : sProp 𝕄 :=
  iprop(Pipeline.scopedRest (Ix := HIx 1) (Name := ℕ) (U := UU) (Lvl := ℕ) (Val := Elt F) spec0 c ∗ ∃ r, prngReg c r)

/-! ## The pipeline's proof data -/

def dat0 (c : Dev nD) : Dat τ (Elt F) (HIx 1) ℕ UU ℕ cfg0 c where
  A w := V c (Pipeline.arrRef spec0 w)
  after w t := match w with
    | ⟨0, _⟩ => X0 V c t
    | ⟨1, _⟩ => X1 V c t
    | ⟨2, _⟩ => X2 V c t
    | ⟨3, _⟩ => if t.val < 32 then out0_A (X0 V c t) (X1 V c t) else out0_B (X0 V c t) (X2 V c t)
  Φ _ := Φ0 c
  q w := match w with
    | ⟨0, _⟩ => fullShare.left
    | ⟨1, _⟩ => fullShare.right
    | ⟨2, _⟩ => fullShare
    | ⟨3, _⟩ => fullShare
  owed _ := O c
  recorded _ := B

theorem A_eq0 (c : Dev nD) (w : Fin cfg0.W) : (dat0 V O B c).A w = V c (Pipeline.arrRef spec0 w) := by
  dsimp only [dat0]

theorem after0_0 (c : Dev nD) (t : Fin cfg0.N) : (dat0 V O B c).after 0 t = X0 V c t := by dsimp only [dat0]
theorem after0_1 (c : Dev nD) (t : Fin cfg0.N) : (dat0 V O B c).after 1 t = X1 V c t := by dsimp only [dat0]
theorem after0_2 (c : Dev nD) (t : Fin cfg0.N) : (dat0 V O B c).after 2 t = X2 V c t := by dsimp only [dat0]
theorem after0_3 (c : Dev nD) (t : Fin cfg0.N) : (dat0 V O B c).after 3 t
    = if t.val < 32 then out0_A (X0 V c t) (X1 V c t) else out0_B (X0 V c t) (X2 V c t) := by dsimp only [dat0]

/-- The first window's buffer holds its block at every point, whatever was there before the fetch. -/
theorem before0_0 (c : Dev nD) (t : Fin cfg0.N) (d) : (dat0 V O B c).before 0 t d = X0 V c t :=
  ((dat0 V O B c).before_in_eq_fetched 0 rfl (fun _ => rfl)
      (fun t t' _ => funext fun a => (clip0_0 t a).trans (clip0_0 t' a).symm)
      (fun t => by rw [after0_0]; unfold X0; rw [show (cfg0.win 0).cut (cfg0.grid.coords t) = win0_0.cut (grid0.coords t) from rfl, Window.cut_fill]; unfold Dat.blockOf iblk0; rw [A_eq0]; try rfl) t d).trans
    (((dat0 V O B c).fetched_of_clip_none 0 t (clip0_0 t) d (fun _ => Scalar.ofBits .f32 0#32)).trans
      (by unfold Dat.fetched Dat.blockOf X0 iblk0; rw [A_eq0]; try rfl))
/-- The second window's likewise (over its last points it is not refetched: its block index does not move). -/
theorem before0_1 (c : Dev nD) (t : Fin cfg0.N) (d) : (dat0 V O B c).before 1 t d = X1 V c t :=
  ((dat0 V O B c).before_in_eq_fetched 1 rfl (fun _ => rfl)
      (fun t t' _ => funext fun a => (clip0_1 t a).trans (clip0_1 t' a).symm)
      (fun t => by rw [after0_1]; unfold X1; rw [show (cfg0.win 1).cut (cfg0.grid.coords t) = win0_1.cut (grid0.coords t) from rfl, Window.cut_fill]; unfold Dat.blockOf iblk0; rw [A_eq0]; try rfl) t d).trans
    (((dat0 V O B c).fetched_of_clip_none 1 t (clip0_1 t) d (fun _ => Scalar.ofBits .f32 0#32)).trans
      (by unfold Dat.fetched Dat.blockOf X1 iblk0; rw [A_eq0]; try rfl))
/-- The third window's: fetched once, kept. -/
theorem before0_2 (c : Dev nD) (t : Fin cfg0.N) (d) : (dat0 V O B c).before 2 t d = X2 V c t :=
  ((dat0 V O B c).before_in_eq_fetched 2 rfl (fun _ => rfl) (fun _ _ _ => rfl)
      (fun t => by rw [after0_2]; unfold Dat.blockOf X2 iblk0; rw [A_eq0]; try rfl) t d).trans
    (by unfold Dat.fetched Dat.blockOf X2 iblk0; rw [A_eq0]; try rfl)

/-! ## The body obligation -/

set_option maxHeartbeats 1000000 in
/-- The library's (loose) body obligation at every point: the three inputs' buffers arrive holding their blocks
    (`before0_W`), the output's holding anything; by the case's triple the inputs leave as they came and the output
    holds the case's two transposed halves. For the two block windows the obligation asks only the part the
    transfers move, which here is all of the buffer. -/
theorem body_obligation0 (c : Dev nD) : BodyObligationLoose (dat0 (F := F) V O B c) (defs₀ (F := F)) 𝒱₀ none Set.univ := fun t => by
  rw [bigSep_W0, bigSep_W0]
  simp only
  rw [show (dat0 V O B c).Φ t.succ = (dat0 V O B c).Φ t.castSucc from rfl,
    show (dat0 V O B c).owesAt none t.succ = (dat0 V O B c).owesAt none t.castSucc from rfl]
  change _ ⊢ wp frame (wpE (defs₀ (F := F)) 𝒱₀ (c : Thread nD τ) none) Set.univ (bodyAt0 t) _
  unfold bodyAt0
  iintro ⟨HΦ, Ho, ⟨%d0, H0⟩, ⟨%d1, H1⟩, ⟨%d2, H2⟩, ⟨%d3, H3⟩⟩
  rw [before0_0 V O B c t d0, before0_1 V O B c t d1, before0_2 V O B c t d2]
  by_cases ht : t.val < 32
  · have hc0 : cond0_0 (grid0.coords t) := (hcond0_0 t).mpr ht
    have hc1 : ¬ cond0_1 (grid0.coords t) := fun h => by have := (hcond0_1 t).mp h; omega
    iapply (sound_kernel0_A (F := F) c Set.univ (grid0.coords t) hc0 hc1 _ _ _ _ _ _ _ _ (X0 V c t) (X1 V c t) (X2 V c t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]
    · iexists (fun _ => Scalar.ofBits .f32 0#32)
      rw [after0_0]; unfold X0; rw [Window.cut_fill]; iexact H0
    isplitl [H1]
    · iexists (fun _ => Scalar.ofBits .f32 0#32)
      rw [after0_1]; unfold X1; rw [Window.cut_fill]; iexact H1
    isplitl [H2]
    · rw [after0_2]; iexact H2
    · rw [after0_3, if_pos ht]; iexact H3
  · have ht' : t.val = 32 := by have h1 := t.isLt; have h2 : cfg0.N = 33 := N_0; omega
    have hc0 : ¬ cond0_0 (grid0.coords t) := fun h => ht ((hcond0_0 t).mp h)
    have hc1 : cond0_1 (grid0.coords t) := (hcond0_1 t).mpr ht'
    iapply (sound_kernel0_B (F := F) c Set.univ (grid0.coords t) hc0 hc1 _ _ _ _ _ _ _ _ (X0 V c t) (X1 V c t) (X2 V c t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]
    · iexists (fun _ => Scalar.ofBits .f32 0#32)
      rw [after0_0]; unfold X0; rw [Window.cut_fill]; iexact H0
    isplitl [H1]
    · iexists (fun _ => Scalar.ofBits .f32 0#32)
      rw [after0_1]; unfold X1; rw [Window.cut_fill]; iexact H1
    isplitl [H2]
    · rw [after0_2]; iexact H2
    · rw [after0_3, if_neg ht]; iexact H3

end Region0

end Cert.Kernel.Hand

end
-- ==== Proof.Bits.Region2.lean ====
/-
  The LSTM pipeline (the program's second TensorCore call) as the pipeline rule takes it: the proof data — at every
  grid point the five input windows' staging buffers hold their blocks and the three output windows' hold what the body
  computes from those blocks — and the body obligation, from the body's triple. The call runs after the program's one
  SparseCore call, when the TensorCore owes nothing; its recorded waits stay within a bound `B`.

  The body's three output functions and its triple are parameters here (they are proved in the body's own module).
-/
import proofs.«206902_g37847251812778_fold_wed_m_929_15_alg».proof.Proof.Bits.RegionsCommon

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type} [FloatOps F]

local notation "𝕄" => MT nD τ sig (HIx 1) (Elt F) ℕ UU ℕ

section Region2

-- what the body leaves in the three output windows' buffers, from the five input blocks
variable (o5 : Vec F S20x512x128 .f32 → Vec F S512x20 .i32 → Vec F S64x256 .f32 → Vec F S64x256 .f32 → Vec F S1x256 .f32 → Vec F S20x512x64 .f32)
  (o6 o7 : Vec F S20x512x128 .f32 → Vec F S512x20 .i32 → Vec F S64x256 .f32 → Vec F S64x256 .f32 → Vec F S1x256 .f32 → Vec F S512x64 .f32)

/-- The body's triple, as its module proves it. -/
def Sound2 : Prop :=
  ∀ (c : Dev nD) (E : Set ℕ) (i : grid2.Coords)
    (arg1 : Memref sig .tc .vmem S20x512x128 .f32) (harg1 : arg1.IsWhole) (arg2 : Memref sig .tc .vmem S512x20 .i32) (harg2 : arg2.IsWhole)
    (arg3 : Memref sig .tc .vmem S64x256 .f32) (harg3 : arg3.IsWhole) (arg4 : Memref sig .tc .vmem S64x256 .f32) (harg4 : arg4.IsWhole)
    (arg5 : Memref sig .tc .vmem S1x256 .f32) (harg5 : arg5.IsWhole) (arg6 : Memref sig .tc .vmem S20x512x64 .f32) (harg6 : arg6.IsWhole)
    (arg7 : Memref sig .tc .vmem S512x64 .f32) (harg7 : arg7.IsWhole) (arg8 : Memref sig .tc .vmem S512x64 .f32) (harg8 : arg8.IsWhole)
    (x0 : Vec F S20x512x128 .f32) (x1 : Vec F S512x20 .i32) (x2 : Vec F S64x256 .f32) (x3 : Vec F S64x256 .f32) (x4 : Vec F S1x256 .f32)
    (Kp : PUnit → sProp 𝕄),
    iprop((owns (c : Thread nD τ) arg1 fullShare x0 : sProp 𝕄) ∗ owns (c : Thread nD τ) arg2 fullShare x1 ∗ owns (c : Thread nD τ) arg3 fullShare x2
        ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (o5 x0 x1 x2 x3 x4) ∗ owns (c : Thread nD τ) arg7 fullShare (o6 x0 x1 x2 x3 x4)
            ∗ owns (c : Thread nD τ) arg8 fullShare (o7 x0 x1 x2 x3 x4)) -∗ Kp ⟨⟩))
      ⊢ wp frame (wpE (defs₀ (F := F)) 𝒱₀ (c : Thread nD τ) none) E
          (cc2_body i arg1 harg1 arg2 harg2 arg3 harg3 arg4 harg4 arg5 harg5 arg6 harg6 arg7 harg7 arg8 harg8) Kp

-- the arrays as the region finds them
variable (V : (c : Dev nD) → (b : Ref sig .tc) → Buf (Elt F) ((c : Thread nD τ).loc b))
-- the bound on the TensorCore's recorded waits
variable (B : Set (SemLoc sig × HIx 1))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) (HIx 1) ℕ UU ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) (HIx 1) ℕ UU ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) (HIx 1) ℕ UU ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) (HIx 1) ℕ UU ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) (HIx 1) ℕ UU ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The pipeline's proof data -/

/-- The region's invariant: the TensorCore's scoped buffers that are no staging buffer of this call, each at some
    contents, and its generator register at some state — nothing the body reads. -/
def Φ2 (c : Dev nD) : sProp 𝕄 :=
  iprop(Pipeline.scopedRest (Ix := HIx 1) (Name := ℕ) (U := UU) (Lvl := ℕ) (Val := Elt F) spec2 c ∗ ∃ r, prngReg c r)

/-- The proof data on core `c`: the arrays as the region finds them; after the body at point `t` each input's buffer at
    its block and each output's at the body's function of the input blocks; nothing owed; full shares. -/
def dat2 (c : Dev nD) : Dat τ (Elt F) (HIx 1) ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => o5 (iblk2 V c 0 t) (iblk2 V c 1 t) (iblk2 V c 2 t) (iblk2 V c 3 t) (iblk2 V c 4 t)
    | ⟨6, _⟩ => o6 (iblk2 V c 0 t) (iblk2 V c 1 t) (iblk2 V c 2 t) (iblk2 V c 3 t) (iblk2 V c 4 t)
    | ⟨7, _⟩ => o7 (iblk2 V c 0 t) (iblk2 V c 1 t) (iblk2 V c 2 t) (iblk2 V c 3 t) (iblk2 V c 4 t)
  Φ _ := Φ2 c
  q _ := fullShare
  owed _ := 0
  recorded _ := B

theorem A_eq2 (c : Dev nD) (w : Fin cfg2.W) : (dat2 o5 o6 o7 V B c).A w = V c (Pipeline.arrRef spec2 w) := by
  dsimp only [dat2]

theorem after2_0 (c : Dev nD) (t : Fin cfg2.N) : (dat2 o5 o6 o7 V B c).after 0 t = iblk2 V c 0 t := by dsimp only [dat2]
theorem after2_1 (c : Dev nD) (t : Fin cfg2.N) : (dat2 o5 o6 o7 V B c).after 1 t = iblk2 V c 1 t := by dsimp only [dat2]
theorem after2_2 (c : Dev nD) (t : Fin cfg2.N) : (dat2 o5 o6 o7 V B c).after 2 t = iblk2 V c 2 t := by dsimp only [dat2]
theorem after2_3 (c : Dev nD) (t : Fin cfg2.N) : (dat2 o5 o6 o7 V B c).after 3 t = iblk2 V c 3 t := by dsimp only [dat2]
theorem after2_4 (c : Dev nD) (t : Fin cfg2.N) : (dat2 o5 o6 o7 V B c).after 4 t = iblk2 V c 4 t := by dsimp only [dat2]
theorem after2_5 (c : Dev nD) (t : Fin cfg2.N) : (dat2 o5 o6 o7 V B c).after 5 t
    = o5 (iblk2 V c 0 t) (iblk2 V c 1 t) (iblk2 V c 2 t) (iblk2 V c 3 t) (iblk2 V c 4 t) := by dsimp only [dat2]
theorem after2_6 (c : Dev nD) (t : Fin cfg2.N) : (dat2 o5 o6 o7 V B c).after 6 t
    = o6 (iblk2 V c 0 t) (iblk2 V c 1 t) (iblk2 V c 2 t) (iblk2 V c 3 t) (iblk2 V c 4 t) := by dsimp only [dat2]
theorem after2_7 (c : Dev nD) (t : Fin cfg2.N) : (dat2 o5 o6 o7 V B c).after 7 t
    = o7 (iblk2 V c 0 t) (iblk2 V c 1 t) (iblk2 V c 2 t) (iblk2 V c 3 t) (iblk2 V c 4 t) := by dsimp only [dat2]

theorem before2_0 (c : Dev nD) (t : Fin cfg2.N) (d) : (dat2 o5 o6 o7 V B c).before 0 t d = iblk2 V c 0 t :=
  before2_0_of V (dat2 o5 o6 o7 V B c) (A_eq2 o5 o6 o7 V B c 0) (after2_0 o5 o6 o7 V B c) t d
theorem before2_1 (c : Dev nD) (t : Fin cfg2.N) (d) : (dat2 o5 o6 o7 V B c).before 1 t d = iblk2 V c 1 t :=
  before2_1_of V (dat2 o5 o6 o7 V B c) (A_eq2 o5 o6 o7 V B c 1) (after2_1 o5 o6 o7 V B c) t d
theorem before2_2 (c : Dev nD) (t : Fin cfg2.N) (d) : (dat2 o5 o6 o7 V B c).before 2 t d = iblk2 V c 2 t :=
  before2_2_of V (dat2 o5 o6 o7 V B c) (A_eq2 o5 o6 o7 V B c 2) (after2_2 o5 o6 o7 V B c) t d
theorem before2_3 (c : Dev nD) (t : Fin cfg2.N) (d) : (dat2 o5 o6 o7 V B c).before 3 t d = iblk2 V c 3 t :=
  before2_3_of V (dat2 o5 o6 o7 V B c) (A_eq2 o5 o6 o7 V B c 3) (after2_3 o5 o6 o7 V B c) t d
theorem before2_4 (c : Dev nD) (t : Fin cfg2.N) (d) : (dat2 o5 o6 o7 V B c).before 4 t d = iblk2 V c 4 t :=
  before2_4_of V (dat2 o5 o6 o7 V B c) (A_eq2 o5 o6 o7 V B c 4) (after2_4 o5 o6 o7 V B c) t d

/-! ## The body obligation, at a generic point -/

/-- What the body is called with at point `t`, the windows one by one, -/
def bodyPre2 (c : Dev nD) (t : Fin cfg2.N) : sProp 𝕄 :=
  iprop((dat2 o5 o6 o7 V B c).Φ t.castSucc ∗ (dat2 o5 o6 o7 V B c).owesAt none t.castSucc
    ∗ (∃ d, owns (c : Thread nD τ) (st2_0 t) fullShare ((dat2 o5 o6 o7 V B c).before 0 t d))
    ∗ (∃ d, owns (c : Thread nD τ) (st2_1 t) fullShare ((dat2 o5 o6 o7 V B c).before 1 t d))
    ∗ (∃ d, owns (c : Thread nD τ) (st2_2 t) fullShare ((dat2 o5 o6 o7 V B c).before 2 t d))
    ∗ (∃ d, owns (c : Thread nD τ) (st2_3 t) fullShare ((dat2 o5 o6 o7 V B c).before 3 t d))
    ∗ (∃ d, owns (c : Thread nD τ) (st2_4 t) fullShare ((dat2 o5 o6 o7 V B c).before 4 t d))
    ∗ (∃ d, owns (c : Thread nD τ) (st2_5 t) fullShare ((dat2 o5 o6 o7 V B c).before 5 t d))
    ∗ (∃ d, owns (c : Thread nD τ) (st2_6 t) fullShare ((dat2 o5 o6 o7 V B c).before 6 t d))
    ∗ (∃ d, owns (c : Thread nD τ) (st2_7 t) fullShare ((dat2 o5 o6 o7 V B c).before 7 t d)))

/-- and what it returns. -/
def bodyPost2 (c : Dev nD) (t : Fin cfg2.N) : sProp 𝕄 :=
  iprop((dat2 o5 o6 o7 V B c).Φ t.succ ∗ (dat2 o5 o6 o7 V B c).owesAt none t.succ
    ∗ owns (c : Thread nD τ) (st2_0 t) fullShare ((dat2 o5 o6 o7 V B c).after 0 t)
    ∗ owns (c : Thread nD τ) (st2_1 t) fullShare ((dat2 o5 o6 o7 V B c).after 1 t)
    ∗ owns (c : Thread nD τ) (st2_2 t) fullShare ((dat2 o5 o6 o7 V B c).after 2 t)
    ∗ owns (c : Thread nD τ) (st2_3 t) fullShare ((dat2 o5 o6 o7 V B c).after 3 t)
    ∗ owns (c : Thread nD τ) (st2_4 t) fullShare ((dat2 o5 o6 o7 V B c).after 4 t)
    ∗ owns (c : Thread nD τ) (st2_5 t) fullShare ((dat2 o5 o6 o7 V B c).after 5 t)
    ∗ owns (c : Thread nD τ) (st2_6 t) fullShare ((dat2 o5 o6 o7 V B c).after 6 t)
    ∗ owns (c : Thread nD τ) (st2_7 t) fullShare ((dat2 o5 o6 o7 V B c).after 7 t))

/-- The body at any point: the inputs' memrefs hold their blocks, so the triple applies; the invariant and the
    core's `owes` pass through unread. -/
theorem sound_body2 (hs : Sound2 o5 o6 o7) (c : Dev nD) (t : Fin cfg2.N) :
    bodyPre2 o5 o6 o7 V B c t ⊢ wp frame (wpE (defs₀ (F := F)) 𝒱₀ (c : Thread nD τ) none) Set.univ (bodyAt2 t) (fun _ => bodyPost2 o5 o6 o7 V B c t) := by
  unfold bodyPre2 bodyPost2 bodyAt2
  simp only [before2_0, before2_1, before2_2, before2_3, before2_4]
  rw [show (dat2 o5 o6 o7 V B c).Φ t.succ = (dat2 o5 o6 o7 V B c).Φ t.castSucc from rfl,
    show (dat2 o5 o6 o7 V B c).owesAt none t.succ = (dat2 o5 o6 o7 V B c).owesAt none t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (hs c Set.univ (grid2.coords t) _ _ _ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (hs : Sound2 o5 o6 o7) (c : Dev nD) :
    BodyObligation (dat2 (F := F) o5 o6 o7 V B c) (defs₀ (F := F)) 𝒱₀ none Set.univ := fun t => by
  rw [bigSep_W2, bigSep_W2]
  exact sound_body2 o5 o6 o7 V B hs c t

end Region2

end Cert.Kernel.Hand

end
-- ==== Proof.Bits.MainOps.lean ====
/-
  @main of the kernel program, cut at its three calls: the host operations before the transposing call (the
  table transposed, its last 16384 columns sliced off), between it and the gather (the indices laid out time-major
  and remapped into the packed table's rows), between the gather and the LSTM call (two reshapes), and after it (the
  outputs back to batch-major).
-/
import proofs.«206902_g37847251812778_fold_wed_m_929_15_alg».proof.Proof.Bits.Common

noncomputable section

namespace Cert.Kernel.Hand

open Cert.Kernel Cert.Kernel.Gen
open Idealize.ShloMosaic Idealize.ShloMosaic.TcCoe
open Idealize.SL Idealize.SL.Sem

variable {F : FTy → Type} [FloatOps F]

/-- Before the transposing call. -/
abbrev opsA : List (HloOp τ sig (Elt F)) :=
  [ StableHlo.unary main_arg1 main_v0 ((transpose S64x1000000 [1, 0] · transposes_S1000000x64_S64x1000000_1_0) : (⟨S1000000x64, .f32⟩ : BufTy).Contents (Elt F) → (⟨S64x1000000, .f32⟩ : BufTy).Contents (Elt F)),
    StableHlo.unary main_v0 main_v1 ((extractStridedSlice S64x16384 ![0, 983616] · slices_S64x1000000_S64x16384_0_983616) : (⟨S64x1000000, .f32⟩ : BufTy).Contents (Elt F) → (⟨S64x16384, .f32⟩ : BufTy).Contents (Elt F)) ]

/-- Between the transposing call and the gather: 22 operations. -/
abbrev opsB : List (HloOp τ sig (Elt F)) :=
  [ StableHlo.unary main_arg0 main_v3 ((transpose S20x4096 [1, 0] · transposes_S4096x20_S20x4096_1_0) : (⟨S4096x20, .i32⟩ : BufTy).Contents (Elt F) → (⟨S20x4096, .i32⟩ : BufTy).Contents (Elt F)),
    StableHlo.reshape main_v3 main_v4 rfl shapeCasts_S20x4096_S81920,
    StableHlo.nullary main_c (constantI S_ 32 524288#32),
    StableHlo.unary main_c main_v5 (broadcastInDim S81920 ![] bcast_S_S81920 : (⟨S_, .i32⟩ : BufTy).Contents (Elt F) → (⟨S81920, .i32⟩ : BufTy).Contents (Elt F)),
    StableHlo.binary main_v4 main_v5 main_v6 (cmpi .sge : (⟨S81920, .i32⟩ : BufTy).Contents (Elt F) → (⟨S81920, .i32⟩ : BufTy).Contents (Elt F) → (⟨S81920, .i1⟩ : BufTy).Contents (Elt F)),
    StableHlo.nullary main_c_0 (constantI S_ 32 524288#32),
    StableHlo.nullary main_c_1 (constantI S_ 32 0#32),
    StableHlo.TRef.unary (.of main_c_0 : StableHlo.TRef sig ⟨S_, .i32⟩) main_call0.v0 (broadcastInDim S81920 ![] bcast_S_S81920),
    StableHlo.TRef.unary (.of main_c_1 : StableHlo.TRef sig ⟨S_, .i32⟩) main_call0.v1 (broadcastInDim S81920 ![] bcast_S_S81920),
    StableHlo.TRef.ternary (.of main_v6 : StableHlo.TRef sig ⟨S81920, .i1⟩) main_call0.v0 main_call0.v1 main_call0.v2 select,
    StableHlo.unary main_v7 main_v8 (id : (⟨S81920, .i32⟩ : BufTy).Contents (Elt F) → (⟨S81920, .i32⟩ : BufTy).Contents (Elt F)),
    StableHlo.binary main_v4 main_v8 main_v9 (subi : (⟨S81920, .i32⟩ : BufTy).Contents (Elt F) → (⟨S81920, .i32⟩ : BufTy).Contents (Elt F) → (⟨S81920, .i32⟩ : BufTy).Contents (Elt F)),
    StableHlo.nullary main_c_2 (constantI S_ 32 999424#32),
    StableHlo.unary main_c_2 main_v10 (broadcastInDim S81920 ![] bcast_S_S81920 : (⟨S_, .i32⟩ : BufTy).Contents (Elt F) → (⟨S81920, .i32⟩ : BufTy).Contents (Elt F)),
    StableHlo.binary main_v4 main_v10 main_v11 (cmpi .sge : (⟨S81920, .i32⟩ : BufTy).Contents (Elt F) → (⟨S81920, .i32⟩ : BufTy).Contents (Elt F) → (⟨S81920, .i1⟩ : BufTy).Contents (Elt F)),
    StableHlo.nullary main_c_3 (constantI S_ 32 64960#32),
    StableHlo.nullary main_c_4 (constantI S_ 32 0#32),
    StableHlo.TRef.unary (.of main_c_3 : StableHlo.TRef sig ⟨S_, .i32⟩) main_call1.v0 (broadcastInDim S81920 ![] bcast_S_S81920),
    StableHlo.TRef.unary (.of main_c_4 : StableHlo.TRef sig ⟨S_, .i32⟩) main_call1.v1 (broadcastInDim S81920 ![] bcast_S_S81920),
    StableHlo.TRef.ternary (.of main_v11 : StableHlo.TRef sig ⟨S81920, .i1⟩) main_call1.v0 main_call1.v1 main_call1.v2 select,
    StableHlo.unary main_v12 main_v13 (id : (⟨S81920, .i32⟩ : BufTy).Contents (Elt F) → (⟨S81920, .i32⟩ : BufTy).Contents (Elt F)),
    StableHlo.binary main_v9 main_v13 main_v14 (addi : (⟨S81920, .i32⟩ : BufTy).Contents (Elt F) → (⟨S81920, .i32⟩ : BufTy).Contents (Elt F) → (⟨S81920, .i32⟩ : BufTy).Contents (Elt F)) ]

/-- Between the gather and the LSTM call. -/
abbrev opsC : List (HloOp τ sig (Elt F)) :=
  [ StableHlo.reshape main_v15 main_v16 rfl shapeCasts_S81920x128_S20x4096x128,
    StableHlo.reshape main_arg4 main_v17 rfl shapeCasts_S256_S1x256 ]

/-- After the LSTM call. -/
abbrev opsE : List (HloOp τ sig (Elt F)) :=
  [ StableHlo.unary main_v18_0 main_v19 ((transpose S4096x20x64 [1, 0, 2] · transposes_S20x4096x64_S4096x20x64_1_0_2) : (⟨S20x4096x64, .f32⟩ : BufTy).Contents (Elt F) → (⟨S4096x20x64, .f32⟩ : BufTy).Contents (Elt F)) ]

/-! ## Every operation of the stretches touches TensorCore references only, and none allocates -/

theorem opsA_sub : (opsA : List (HloOp τ sig (Elt F))).Forall fun op => op.bufs ⊆ StableHlo.tcRefs τ sig :=
  ⟨StableHlo.unary_bufs_sub .., StableHlo.unary_bufs_sub ..⟩
theorem opsA_fresh : (opsA : List (HloOp τ sig (Elt F))).Forall fun op => op.fresh = ∅ := by
  simp only [List.Forall]; repeat' constructor
theorem opsB_sub : (opsB : List (HloOp τ sig (Elt F))).Forall fun op => op.bufs ⊆ StableHlo.tcRefs τ sig :=
  ⟨StableHlo.unary_bufs_sub .., StableHlo.reshape_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.nullary_bufs_sub .., StableHlo.unary_bufs_sub .., StableHlo.unary_bufs_sub .., StableHlo.ternary_bufs_sub .., StableHlo.unary_bufs_sub .., StableHlo.binary_bufs_sub ..⟩
theorem opsB_fresh : (opsB : List (HloOp τ sig (Elt F))).Forall fun op => op.fresh = ∅ := by
  simp only [List.Forall]; repeat' constructor
theorem opsC_sub : (opsC : List (HloOp τ sig (Elt F))).Forall fun op => op.bufs ⊆ StableHlo.tcRefs τ sig :=
  ⟨StableHlo.reshape_bufs_sub .., StableHlo.reshape_bufs_sub ..⟩
theorem opsC_fresh : (opsC : List (HloOp τ sig (Elt F))).Forall fun op => op.fresh = ∅ := by
  simp only [List.Forall]; repeat' constructor
theorem opsE_sub : (opsE : List (HloOp τ sig (Elt F))).Forall fun op => op.bufs ⊆ StableHlo.tcRefs τ sig :=
  StableHlo.unary_bufs_sub ..
theorem opsE_fresh : (opsE : List (HloOp τ sig (Elt F))).Forall fun op => op.fresh = ∅ := by
  simp only [List.Forall]; repeat' constructor

set_option maxRecDepth 65536 in
/-- @main is these stretches and the three calls, in order. -/
theorem main_eq (d : Dev nD) : main (F := F) d =
    (StableHlo.seq opsA >>= fun _ => Prog.lift (.customCall (SparseCore.inner (Pipeline.entry 0)) ()) >>= fun _ =>
      StableHlo.seq opsB >>= fun _ => sc.run d 0 >>= fun _ => StableHlo.seq opsC >>= fun _ =>
      Prog.lift (.customCall (SparseCore.inner (Pipeline.entry 1)) ()) >>= fun _ => StableHlo.seq opsE >>= fun _ => pure ⟨⟩) := by
  rfl

end Cert.Kernel.Hand

end
-- ==== Proof.Bits.Regs.lean ====
/-
  @main's buffer contents at each boundary between its stretches and calls, the two pipelines' proof data as one family,
  and each TensorCore call as a region of the pipeline rule: entered from all the unscoped buffers at the boundary's
  contents (beside the generator register and the TensorCore's ledger of what it owes), left at the next boundary's.
-/
import proofs.«206902_g37847251812778_fold_wed_m_929_15_alg».proof.Proof.Bits.Region0
import proofs.«206902_g37847251812778_fold_wed_m_929_15_alg».proof.Proof.Bits.Region2
import proofs.«206902_g37847251812778_fold_wed_m_929_15_alg».proof.Proof.Bits.MainOps
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type} [FloatOps F]

local notation "𝕄" => MT nD τ sig (HIx 1) (Elt F) ℕ UU ℕ

/-- The TensorCore owes nothing at no call's index. -/
theorem Otc_none (d : Dev nD) (n : ℕ) (g : GSem nD τ sig) : (K (F := F)).Otc d n g none = 0 := by
  by_contra h
  have := SparseCore.Cfg.lev_of_Otc_pos (K := K (F := F)) (Nat.pos_of_ne_zero h); rw [SparseCore.Cfg.lev_none] at this; omega

section Regs

variable (o5 : Vec F S20x512x128 .f32 → Vec F S512x20 .i32 → Vec F S64x256 .f32 → Vec F S64x256 .f32 → Vec F S1x256 .f32 → Vec F S20x512x64 .f32)
  (o6 o7 : Vec F S20x512x128 .f32 → Vec F S512x20 .i32 → Vec F S64x256 .f32 → Vec F S64x256 .f32 → Vec F S1x256 .f32 → Vec F S512x64 .f32)
variable (m : (ℓ : Loc nD τ sig) → Buf (Elt F) ℓ)
-- what the gather leaves in the gathered array
variable (fo : (c : Dev nD) → Buf (Elt F) ((c : Thread nD τ).loc main_v15))

/-! ## The buffer contents at each boundary: a fold through @main -/

abbrev W0 (c : Dev nD) : Valuation τ sig (Elt F) := fun b => m (c, b)
/-- After the first host stretch (the transposing call's entry). -/
abbrev W1 (c : Dev nD) : Valuation τ sig (Elt F) := StableHlo.after opsA (W0 m c)
abbrev V1 : (c : Dev nD) → (b : Ref sig .tc) → Buf (Elt F) ((c : Thread nD τ).loc b) := fun c b => W1 m c b

/-- What the TensorCore owes before the one SparseCore call, and the bounds on its recorded waits before and after it. -/
abbrev O0 (c : Dev nD) : CellTallies nD τ sig (HIx 1) := (K (F := F)).Otc c 0
abbrev B0 (c : Dev nD) : Set (SemLoc sig × HIx 1) := belowSet (F := F) c 0
abbrev B1 (c : Dev nD) : Set (SemLoc sig × HIx 1) := belowSet (F := F) c 8

/-- At the transposing call's exit: the packed table at what the pipeline leaves, everything else as entered. -/
def W2 (c : Dev nD) : Valuation τ sig (Elt F) :=
  Function.update (W1 m c) (Proc.devRef .tc main_v2) ((dat0 (V1 m) (O0 (F := F)) (B0 (F := F) c) c).arrAt 3 cfg0.N)
/-- After the second host stretch (the gather's entry). -/
abbrev W3 (c : Dev nD) : Valuation τ sig (Elt F) := StableHlo.after opsB (W2 m c)
/-- After the gather: the gathered array at what the tiles left. -/
def W4 (c : Dev nD) : Valuation τ sig (Elt F) := Function.update (W3 m c) (Proc.devRef .tc main_v15) (fo c)
/-- After the third host stretch (the LSTM call's entry). -/
abbrev W5 (c : Dev nD) : Valuation τ sig (Elt F) := StableHlo.after opsC (W4 m fo c)
abbrev V5 : (c : Dev nD) → (b : Ref sig .tc) → Buf (Elt F) ((c : Thread nD τ).loc b) := fun c b => W5 m fo c b
/-- At the LSTM call's exit: its arrays at what the pipeline leaves. -/
def W6 (c : Dev nD) : Valuation τ sig (Elt F) :=
  Pipeline.withArrays spec2 c (W5 m fo c) fun w => (dat2 o5 o6 o7 (V5 m fo) (B1 (F := F) c) c).arrAt w cfg2.N
abbrev V6 : (c : Dev nD) → (b : Ref sig .tc) → Buf (Elt F) ((c : Thread nD τ).loc b) := fun c b => W6 o5 o6 o7 m fo c b
/-- After the last host stretch. -/
abbrev W7 (c : Dev nD) : Valuation τ sig (Elt F) := StableHlo.after opsE (W6 o5 o6 o7 m fo c)

theorem W6_arr (c : Dev nD) (w : Fin cfg2.W) :
    W6 o5 o6 o7 m fo c (Proc.devRef .tc (Pipeline.arrRef spec2 w)) = (dat2 o5 o6 o7 (V5 m fo) (B1 (F := F) c) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 o5 o6 o7 m fo c (Proc.devRef .tc b) = W5 m fo c (Proc.devRef .tc b) := by
  unfold W6; exact Pipeline.withArrays_of_ne spec2 c _ _ b hb
theorem hF2 (c : Dev nD) (w : Fin cfg2.W) :
    (dat2 o5 o6 o7 (V5 m fo) (B1 (F := F) c) c).arrAt w cfg2.N = V6 o5 o6 o7 m fo c (Pipeline.arrRef spec2 w) :=
  (W6_arr o5 o6 o7 m fo c w).symm
theorem hrest2 (c : Dev nD) : ∀ b, b ∉ Finset.univ.image (Pipeline.arrRef spec2) → V6 o5 o6 o7 m fo c b = V5 m fo c b :=
  fun b hb => W6_of_ne o5 o6 o7 m fo c b fun w e => hb (Finset.mem_image.mpr ⟨w, Finset.mem_univ _, e⟩)

/-! ## The proof data family and what rides beside the buffers -/

/-- Both pipelines' proof data, each at its call's entry contents — a literal `match`, so that the rule's pinned
    configuration at a numeral reduces to the printed one. -/
def pdats : (p : Fin 2) → (c : Dev nD) → Dat τ (Elt F) (HIx 1) ℕ UU ℕ (Pipeline.pin (pcfgs (F := F)) adm p) c
  | ⟨0, _⟩ => fun c => dat0 (V1 m) (O0 (F := F)) (B0 (F := F) c) c
  | ⟨1, _⟩ => fun c => dat2 o5 o6 o7 (V5 m fo) (B1 (F := F) c) c

abbrev LL : GSem nD τ sig → Finset (HIx 1) := (K (F := F)).L
abbrev lvv : GSem nD τ sig → HIx 1 → ℕ := (K (F := F)).lev

/-- The generator register at some state and the TensorCore's ledger: it owes `O`, its recorded waits within `B`. -/
abbrev Rr (O : CellTallies nD τ sig (HIx 1)) (B : Set (SemLoc sig × HIx 1)) (c : Dev nD) : sProp 𝕄 :=
  iprop((∃ r, prngReg c r) ∗ ∃ W : Waits sig (HIx 1), ⌜(↑W : Set (SemLoc sig × HIx 1)) ⊆ B⌝ ∗ owes (c : Thread nD τ) O W)

/-- A pipeline's waits are at no call's index, the lowest level: within any bound. -/
theorem waitPairs_sub (cfg : Pipeline.Cfg sig Λ₀) (c : Dev nD) (b : ℕ) : cfg.waitPairs (none : HIx 1) ⊆ belowSet (F := F) c b := by
  rintro p ⟨w, s, rfl⟩
  show (K (F := F)).lev _ none ≤ b
  rw [SparseCore.Cfg.lev_none]; exact Nat.zero_le _

end Regs

end Cert.Kernel.Hand

end
-- ==== Proof.Bits.RegionSegs.lean ====
/-
  The two TensorCore calls as regions of the pipeline rule (the records the rule's region step takes).
-/
import proofs.«206902_g37847251812778_fold_wed_m_929_15_alg».proof.Proof.Bits.Regs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx)

variable {F : FTy → Type} [FloatOps F]

local notation "𝕄" => MT nD τ sig (HIx 1) (Elt F) ℕ UU ℕ

section RegionSegs

variable (o5 : Vec F S20x512x128 .f32 → Vec F S512x20 .i32 → Vec F S64x256 .f32 → Vec F S64x256 .f32 → Vec F S1x256 .f32 → Vec F S20x512x64 .f32)
  (o6 o7 : Vec F S20x512x128 .f32 → Vec F S512x20 .i32 → Vec F S64x256 .f32 → Vec F S64x256 .f32 → Vec F S1x256 .f32 → Vec F S512x64 .f32)
variable (m : (ℓ : Loc nD τ sig) → Buf (Elt F) ℓ)
variable (fo : (c : Dev nD) → Buf (Elt F) ((c : Thread nD τ).loc main_v15))

-- a library lemma stated over the rule's pinned configuration unifies with the printed one only when unification may
-- unfold plain definitions in a metavariable's type
set_option backward.isDefEq.respectTransparency.types false in
/-- The LSTM call: entered from every unscoped buffer at the contents after the third host stretch, left with its three
    output arrays at what the pipeline leaves. Its arrays are split out of the unscoped buffers and put back; the
    generator register goes into the invariant and comes out; the TensorCore owes nothing; no semaphore of the kernel's own. -/
def reg2 (hs : Sound2 o5 o6 o7) :
    Pipeline.RegionSeg (pcfgs (F := F)) adm (pdats o5 o6 o7 m fo) (none : HIx 1) defs₀ 𝒱₀ (LL (F := F)) (lvv (F := F)) 1 where
  win := launch2.win.to₀
  block_pos := launch2.block_pos
  stage_whole := launch2.stage_whole
  K := PEmpty
  osem k := k.elim
  ho := Pipeline.OwnSemFacts.none _
  hbody c := (body_obligation2 o5 o6 o7 (V5 m fo) (B1 (F := F) c) hs c).loose
  hwaits := Pipeline.hwaits_of_owed_zero _ _ _ _ (LL (F := F)) (lvv (F := F)) 1 fun _ _ => rfl
  pre c := iprop(StableHlo.held (c : Thread nD τ) (Pipeline.ucRefs τ sig) (W5 m fo c) ∗ Rr (F := F) 0 (B1 (F := F) c) c)
  post c := iprop(StableHlo.held (c : Thread nD τ) (Pipeline.ucRefs τ sig) (W6 o5 o6 o7 m fo c) ∗ Rr (F := F) 0 (B1 (F := F) c) c)
  X c := iprop(∃ r, prngReg c r)
  Y c := iprop(∃ r, prngReg c r)
  Z c := Pipeline.unscopedRest (Ix := HIx 1) (Name := ℕ) (U := UU) (Lvl := ℕ) spec2 c (V5 m fo c)
  hentry c := by
    rw [Pipeline.ownSems0_none]
    have hsplit := Pipeline.arrays_of_unscopedBufs (p := 1) (pcfgs (F := F)) adm (pdats o5 o6 o7 m fo) launch2.win launch2.arr_whole c
      ((pdats o5 o6 o7 m fo 1 c).share_full fun _ => rfl) (V5 m fo c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitl [Hp]; · iexact Hp
    iexact Hrest
  hin c := by
    rw [show (pdats o5 o6 o7 m fo 1 c).Φ 0 = Φ2 c from rfl]; unfold Φ2
    iintro ⟨Hp, -, Hr⟩
    isplitl [Hr]; · iexact Hr
    iexact Hp
  hout c := by
    rw [Pipeline.ownSems0_none, show (pdats o5 o6 o7 m fo 1 c).Φ (Fin.last _) = Φ2 c from rfl]; unfold Φ2
    iintro ⟨Hr, Hp⟩
    isplitl [Hp]; · iexact Hp
    isplitr; · iempintro
    iexact Hr
  hexit c := by
    have hjoin := Pipeline.unscopedBufs_of_arrays (p := 1) (pcfgs (F := F)) adm (Ix := HIx 1) (Name := ℕ) (U := UU) (Lvl := ℕ)
      launch2.win launch2.arr_whole c (pdats o5 o6 o7 m fo) ((pdats o5 o6 o7 m fo 1 c).share_full fun _ => rfl)
      (V5 m fo c) (V6 o5 o6 o7 m fo c) ((pdats o5 o6 o7 m fo 1 c).arrAt · cfg2.N) (hF2 o5 o6 o7 m fo c) (hrest2 o5 o6 o7 m fo c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, %hW, HO⟩; iexists W; isplitr
    · ipureintro; exact fun p hp => (hW hp).elim id fun h => waitPairs_sub (F := F) _ c 8 h
    iexact HO

/-! ## The transposing call -/

/-- The transposing call's three arrays: the transposed table (staged by two windows), its last 16384 columns, the
    packed table. -/
abbrev T0 : Finset (DevRef τ sig) := {Proc.devRef .tc main_v0, Proc.devRef .tc main_v1, Proc.devRef .tc main_v2}

omit [FloatOps F] in
theorem T0_sub : T0 ⊆ Pipeline.ucRefs τ sig := by
  intro b hb
  simp only [T0, Finset.mem_insert, Finset.mem_singleton] at hb
  rcases hb with rfl | rfl | rfl <;> exact Finset.mem_filter.mpr ⟨StableHlo.devRef_mem_tcRefs _, by decide⟩

omit [FloatOps F] in
theorem held_T0 (c : Dev nD) (V : Valuation τ sig (Elt F)) :
    (StableHlo.held (c : Thread nD τ) T0 V : sProp 𝕄)
      = iprop((((c, Proc.devRef .tc main_v0) : Loc nD τ sig) ↦{fullShare} V (Proc.devRef .tc main_v0))
          ∗ (((c, Proc.devRef .tc main_v1) : Loc nD τ sig) ↦{fullShare} V (Proc.devRef .tc main_v1))
          ∗ (((c, Proc.devRef .tc main_v2) : Loc nD τ sig) ↦{fullShare} V (Proc.devRef .tc main_v2))) := by
  unfold StableHlo.held T0
  rw [SparseCore.bigSep_insert' (by decide), SparseCore.bigSep_insert' (by decide), bigSep_singleton]

/-- The transposing call's windowed arrays, one by one: the transposed table at the two halves of the full share. -/
theorem arrays0 (c : Dev nD) (A4 : (w : Fin cfg0.W) → Buf (Elt F) ((cfg0.win w).arr.view.loc (c : Thread nD τ))) :
    ((pdats o5 o6 o7 m fo 0 c).arrays A4 : sProp 𝕄)
      = iprop((((c, Proc.devRef .tc main_v0) : Loc nD τ sig) ↦{fullShare.left} A4 0)
          ∗ (((c, Proc.devRef .tc main_v0) : Loc nD τ sig) ↦{fullShare.right} A4 1)
          ∗ (((c, Proc.devRef .tc main_v1) : Loc nD τ sig) ↦{fullShare} A4 2)
          ∗ (((c, Proc.devRef .tc main_v2) : Loc nD τ sig) ↦{fullShare} A4 3)) := by
  unfold Pipeline.Dat.arrays
  refine (bigSep_congr (fun w _ => by rw [show ((Pipeline.pin (pcfgs (F := F)) adm 0).win w).arr.view.set = Finset.univ from (arr_whole0 w).set_eq_univ]; rfl) : _ = bigSep Finset.univ fun w : Fin 4 =>
    ((cfg0.win w).arr.view.loc (c : Thread nD τ) ↦{(pdats o5 o6 o7 m fo 0 c).share w} A4 w : sProp 𝕄)).trans ?_
  rw [bigSep_W0]
  rfl

/-- The unscoped buffers at the transposing call's exit: its arrays — the inputs as entered, the packed table as the
    pipeline leaves it — and the rest as entered. -/
theorem held_W2 (c : Dev nD) :
    (StableHlo.held (c : Thread nD τ) (Pipeline.ucRefs τ sig) (W2 m c) : sProp 𝕄)
      = iprop(((((c, Proc.devRef .tc main_v0) : Loc nD τ sig) ↦{fullShare} W1 m c (Proc.devRef .tc main_v0))
          ∗ (((c, Proc.devRef .tc main_v1) : Loc nD τ sig) ↦{fullShare} W1 m c (Proc.devRef .tc main_v1))
          ∗ (((c, Proc.devRef .tc main_v2) : Loc nD τ sig) ↦{fullShare} (dat0 (V1 m) (O0 (F := F)) (B0 (F := F) c) c).arrAt 3 cfg0.N))
          ∗ StableHlo.held (c : Thread nD τ) (Pipeline.ucRefs τ sig \ T0) (W1 m c)) := by
  rw [StableHlo.held_sub_split (c : Thread nD τ) T0_sub (W2 m c), held_T0,
    StableHlo.held_congr (c : Thread nD τ) (V := W2 m c) (V' := W1 m c) (S := Pipeline.ucRefs τ sig \ T0) fun b hb => by
      unfold W2
      exact Function.update_of_ne (fun e => (Finset.mem_sdiff.mp hb).2 (by rw [e]; simp [T0])) _ _]
  unfold W2
  rw [Function.update_of_ne (show (Proc.devRef .tc main_v0 : DevRef τ sig) ≠ Proc.devRef .tc main_v2 by decide),
    Function.update_of_ne (show (Proc.devRef .tc main_v1 : DevRef τ sig) ≠ Proc.devRef .tc main_v2 by decide), Function.update_self]

set_option backward.isDefEq.respectTransparency.types false in
/-- The transposing call: entered from every unscoped buffer at the contents after the first host stretch, left with
    the packed table at what the pipeline leaves. The TensorCore owes the coming call's start signals throughout; its
    waits on the staging semaphores are below them. -/
def reg0 : Pipeline.RegionSeg (pcfgs (F := F)) adm (pdats o5 o6 o7 m fo) (none : HIx 1) defs₀ 𝒱₀ (LL (F := F)) (lvv (F := F)) 0 where
  win := winFacts₀0
  block_pos := block_pos0
  stage_whole := stage_whole0
  K := PEmpty
  osem k := k.elim
  ho := Pipeline.OwnSemFacts.none _
  hbody c := body_obligation0 (V1 m) (O0 (F := F)) (B0 (F := F) c) c
  hwaits c := Pipeline.cellsWaits_intro (Pipeline.pin (pcfgs (F := F)) adm) (pdats o5 o6 o7 m fo) (none : HIx 1) 0 c
    fun w s t => (K (F := F)).mayWait_none _ (Otc_none (F := F) c 0)
  pre c := iprop(StableHlo.held (c : Thread nD τ) (Pipeline.ucRefs τ sig) (W1 m c) ∗ Rr (F := F) (O0 (F := F) c) (B0 (F := F) c) c)
  post c := iprop(StableHlo.held (c : Thread nD τ) (Pipeline.ucRefs τ sig) (W2 m c) ∗ Rr (F := F) (O0 (F := F) c) (B0 (F := F) c) c)
  X c := iprop(∃ r, prngReg c r)
  Y c := iprop(∃ r, prngReg c r)
  Z c := StableHlo.held (c : Thread nD τ) (Pipeline.ucRefs τ sig \ T0) (W1 m c)
  hentry c := by
    rw [Pipeline.ownSems0_none, StableHlo.held_sub_split (c : Thread nD τ) T0_sub (W1 m c), held_T0, arrays0]
    have hsp : ((((c, Proc.devRef .tc main_v0) : Loc nD τ sig) ↦{fullShare} W1 m c (Proc.devRef .tc main_v0)) : sProp 𝕄)
        ⊢ iprop((((c, Proc.devRef .tc main_v0) : Loc nD τ sig) ↦{fullShare.left} W1 m c (Proc.devRef .tc main_v0))
          ∗ (((c, Proc.devRef .tc main_v0) : Loc nD τ sig) ↦{fullShare.right} W1 m c (Proc.devRef .tc main_v0))) :=
      (pointsTo_share (PosShare.mem_left_op_right fullShare)).1
    iintro ⟨⟨⟨⟨H0, H1, H2⟩, Hrest⟩, Hp, HO⟩, -, -⟩
    ihave H0' := hsp $$ H0
    icases H0' with ⟨H0l, H0r⟩
    imodintro
    isplitl [H0l H0r H1 H2]
    · isplitl [H0l]; · iexact H0l
      isplitl [H0r]; · iexact H0r
      isplitl [H1]; · iexact H1
      iexact H2
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun _ h => Or.inl (hW h)
      iexact HO
    isplitl [Hp]; · iexact Hp
    iexact Hrest
  hin c := by
    rw [show (pdats o5 o6 o7 m fo 0 c).Φ 0 = Φ0 c from rfl]; unfold Φ0
    iintro ⟨Hp, -, Hr⟩
    isplitl [Hr]; · iexact Hr
    iexact Hp
  hout c := by
    rw [Pipeline.ownSems0_none, show (pdats o5 o6 o7 m fo 0 c).Φ (Fin.last _) = Φ0 c from rfl]; unfold Φ0
    iintro ⟨Hr, Hp⟩
    isplitl [Hp]; · iexact Hp
    isplitr; · iempintro
    iexact Hr
  hexit c := by
    rw [arrays0, held_W2, (pdats o5 o6 o7 m fo 0 c).arrAt_in 0 rfl, (pdats o5 o6 o7 m fo 0 c).arrAt_in 1 rfl,
      (pdats o5 o6 o7 m fo 0 c).arrAt_in 2 rfl]
    have hjn : iprop((((c, Proc.devRef .tc main_v0) : Loc nD τ sig) ↦{fullShare.left} W1 m c (Proc.devRef .tc main_v0))
          ∗ (((c, Proc.devRef .tc main_v0) : Loc nD τ sig) ↦{fullShare.right} W1 m c (Proc.devRef .tc main_v0)))
        ⊢ ((((c, Proc.devRef .tc main_v0) : Loc nD τ sig) ↦{fullShare} W1 m c (Proc.devRef .tc main_v0)) : sProp 𝕄) :=
      (pointsTo_share (PosShare.mem_left_op_right fullShare)).2
    iintro ⟨⟨H0l, H0r, H1, H2⟩, HO, HY, Hrest⟩
    ihave H0 := hjn $$ [H0l H0r]
    · isplitl [H0l]; · iexact H0l
      iexact H0r
    imodintro
    isplitl [H0 H1 H2 Hrest]
    · isplitl [H0 H1 H2]
      · isplitl [H0]; · iexact H0
        isplitl [H1]; · iexact H1
        iexact H2
      iexact Hrest
    isplitl [HY]; · iexact HY
    unfold Pipeline.Dat.owesAt Pipeline.owesWithin
    icases HO with ⟨%W, %hW, HO⟩; iexists W; isplitr
    · ipureintro; exact fun p hp => (hW hp).elim id fun h => waitPairs_sub (F := F) _ c 0 h
    iexact HO

end RegionSegs

end Cert.Kernel.Hand

end
-- ==== Proof.Bits.GSpec.lean ====
/-
  What the gather computes. Row `n` of the gathered array is the row of the packed table that word `n` of the index
  array names: gathered[n, k] = table[idx[n], k]. (Stated totally: a word past the table's end would name its last row;
  the program's words are all in range.)
-/
import proofs.«206902_g37847251812778_fold_wed_m_929_15_alg».proof.Proof.Bits.Common
import Idealize.ShloMosaic.Lib.ValueIdx

noncomputable section

namespace Cert.Kernel.Hand

open Cert.Kernel Cert.Kernel.Gen
open Idealize.ShloMosaic
open Idealize.ShloMosaic.ValueIdx

variable {F : FTy → Type}

/-- The row of the packed table a word names. -/
def rowOfT (w : BitVec 32) : Fin 540672 := ⟨min w.toNat 540671, by omega⟩

theorem rowOfT_val (w : BitVec 32) (h : w.toNat < 540672) : (rowOfT w).val = w.toNat := by
  unfold rowOfT; exact Nat.min_eq_left (by omega)

/-- The gathered array, from the index array's and the packed table's contents. -/
def gspecOf (d : Dev nD) (fi : Buf (Elt F) (iLoc d)) (ft : Buf (Elt F) (xLoc d)) : Buf (Elt F) (oLoc d) :=
  (fun y : S81920x128.Idx => (ft : S540672x128.Idx → Elt F .f32) (ix2 (rowOfT ((fi : S81920.Idx → Elt F .i32) (ix1 (y 0)))) (y 1)) :
    S81920x128.Idx → Elt F .f32)

/-- A tile's chunk `r` of the gathered array, by number: rows [320·r, 320·r + 320) of the tile's rows. -/
def oChN (L : grid1.Coords) (r : Fin 8) : Memref sig .scVector .hbm S320x128 .f32 :=
  (oV).slice (Rect.unit (s := S81920x128) (k1_off2 L (BitVec.ofNat 32 (320 * r.val))) S320x128.size (k1_off2_inb L r)) (fun _ => rfl)

theorem sIslN_inb (r : Fin 8) : ∀ a : Fin S2560.rank, (![320 * r.val] : Fin 1 → ℕ) a + S320.size a ≤ S2560.size a := by
  intro a
  have ha : a = 0 := Subsingleton.elim _ _
  subst ha
  show 320 * r.val + 320 ≤ 2560
  have := r.isLt; omega

/-- Slice `r` of a tile's index scratch, by number: words [320·r, 320·r + 320). -/
def sIslN (r : Fin 8) : Memref sig .scVector .vmem S320 .i32 :=
  (sI).slice (Rect.unit (s := S2560) ![320 * r.val] S320.size (sIslN_inb r)) (fun _ => rfl)

end Cert.Kernel.Hand

end
-- ==== Proof.Bits.Tile.lean ====
/-
  One tile's task of the row gather. Tile (c, s) fetches its 2560 indices into its index scratch, then eight times:
  gathers the 320 table rows its next 320 indices name into its row scratch (an indirect gather, waited for before
  anything else touches the scratch) and copies the scratch out to its next 320 rows of the gathered array (waited for
  before the scratch is gathered into again). Every copy has its own wait before the next copy on the same semaphore
  starts, and nothing reads or writes a copy's source or destination while it is pending.

  The indices are in range of the table (`hfi`), so every gather finds its rows.
-/
import proofs.«206902_g37847251812778_fold_wed_m_929_15_alg».proof.Proof.Bits.GSpec
import Idealize.ShloMosaic.Lib.SparseCore.Stream

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The thread of tile `L` on device `d`. -/
abbrev thrV (d : Dev nD) (L : grid1.Coords) : Thread nD τ := V d (cV L) (jV L)

/-- Whatever the index scratch held before, after the tile's index fetch every slice of it reads words of the index
    array, and those are in range of the table. -/
theorem idx_inb (d : Dev nD) (L : grid1.Coords) (fi : Buf (Elt F) (iLoc d)) (hfi : ∀ j, (fi j).toNat < 540672) :
    ∀ (fs : Buf (Elt F) ((sI).view.loc (thrV d L))) (r : Rect S2560) h (x : r.shape.Idx),
      BitVec.toNat (View.read (Elt F) (sI.slice r h).view
        (View.write (Elt F) sI.view fs (ReadAs.same.apply (View.read (Elt F) (iRowK L).view fi)) Finset.univ) x) < 540672 := by
  intro fs r h x
  have e : View.write (Elt F) sI.view fs (ReadAs.same.apply (View.read (Elt F) (iRowK L).view fi)) Finset.univ
      = View.read (Elt F) (iRowK L).view fi := View.write_whole_univ _ _ _
  rw [e]
  exact hfi _

omit [FloatOps F] in
/-- One more wait on a semaphore of the tile's own, recorded at no call's index, keeps the recorded waits within the
    given ones and those at no index. -/
theorem waits_insert {W W' : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

/-- What a tile's run leaves in its chunk `r` of the gathered array — the row scratch copied out, the row scratch holding
    the gather of the rows its slice `r` of the index scratch names — agrees, on the chunk, with the gather's specified
    result. (Proved in the chunk's own module; a hypothesis of the tile's run here.) -/
def ChunkVal (d : Dev nD) (L : grid1.Coords) (fi : Buf (Elt F) (iLoc d)) (ft : Buf (Elt F) (xLoc d)) : Prop :=
  ∀ (r : Fin 8) (fo : Buf (Elt F) ((oChN L r).view.loc (thrV d L))) (fsR : Buf (Elt F) ((sR).view.loc (thrV d L)))
    (fsI : Buf (Elt F) ((sI).view.loc (thrV d L))) (rest : List (View.Piece (Elt F) S320x128 .f32))
    (hn : S320.numel = S320x128.size gathers_S540672x128_S320x128.axis')
    (hin : ∀ x, (View.read (Elt F) (sIslN r).view (View.write (Elt F) sI.view fsI (ReadAs.same.apply (View.read (Elt F) (iRowK L).view fi)) Finset.univ) x).toNat
      < S540672x128.size gathers_S540672x128_S320x128.axis),
    ∀ i ∈ (oChN L r).view.set,
      (oChN L r).view.writes (Elt F) fo [⟨Rect.whole S320x128, ReadAs.same.apply (View.read (Elt F) sR.view (sR.view.writes (Elt F) fsR
        (⟨Rect.whole S320x128, SparseCore.gatherPayload gathers_S540672x128_S320x128 (View.read (Elt F) xAllK.view ft)
          (SparseCore.rows (View.read (Elt F) (sIslN r).view (View.write (Elt F) sI.view fsI (ReadAs.same.apply (View.read (Elt F) (iRowK L).view fi)) Finset.univ)) hn hin)⟩ :: rest)))⟩] i
      = gspecOf d fi ft i

/-- `ChunkVal` at each chunk, stated over the chunk and the index slice as the program spells them. -/
theorem ChunkVal.at0 {d : Dev nD} {L : grid1.Coords} {fi : Buf (Elt F) (iLoc d)} {ft : Buf (Elt F) (xLoc d)} (h : ChunkVal d L fi ft)
    (fo : Buf (Elt F) ((oCh0 L).view.loc (thrV d L))) (fsR : Buf (Elt F) ((sR).view.loc (thrV d L)))
    (fsI : Buf (Elt F) ((sI).view.loc (thrV d L))) (rest : List (View.Piece (Elt F) S320x128 .f32))
    (hn : S320.numel = S320x128.size gathers_S540672x128_S320x128.axis')
    (hin : ∀ x, (View.read (Elt F) (sI.slice (Rect.unit (s := S2560) ![0] S320.size inb_S2560_S320_0) (fun _ => rfl)).view (View.write (Elt F) sI.view fsI (ReadAs.same.apply (View.read (Elt F) (iRowK L).view fi)) Finset.univ) x).toNat
      < S540672x128.size gathers_S540672x128_S320x128.axis) :
    ∀ i ∈ (oCh0 L).view.set,
      (oCh0 L).view.writes (Elt F) fo [⟨Rect.whole S320x128, ReadAs.same.apply (View.read (Elt F) sR.view (sR.view.writes (Elt F) fsR
        (⟨Rect.whole S320x128, SparseCore.gatherPayload gathers_S540672x128_S320x128 (View.read (Elt F) xAllK.view ft)
          (SparseCore.rows (View.read (Elt F) (sI.slice (Rect.unit (s := S2560) ![0] S320.size inb_S2560_S320_0) (fun _ => rfl)).view (View.write (Elt F) sI.view fsI (ReadAs.same.apply (View.read (Elt F) (iRowK L).view fi)) Finset.univ)) hn hin)⟩ :: rest)))⟩] i
      = gspecOf d fi ft i :=
  h 0 fo fsR fsI rest hn hin

theorem ChunkVal.at1 {d : Dev nD} {L : grid1.Coords} {fi : Buf (Elt F) (iLoc d)} {ft : Buf (Elt F) (xLoc d)} (h : ChunkVal d L fi ft)
    (fo : Buf (Elt F) ((oCh1 L).view.loc (thrV d L))) (fsR : Buf (Elt F) ((sR).view.loc (thrV d L)))
    (fsI : Buf (Elt F) ((sI).view.loc (thrV d L))) (rest : List (View.Piece (Elt F) S320x128 .f32))
    (hn : S320.numel = S320x128.size gathers_S540672x128_S320x128.axis')
    (hin : ∀ x, (View.read (Elt F) (sI.slice (Rect.unit (s := S2560) ![320] S320.size inb_S2560_S320_320) (fun _ => rfl)).view (View.write (Elt F) sI.view fsI (ReadAs.same.apply (View.read (Elt F) (iRowK L).view fi)) Finset.univ) x).toNat
      < S540672x128.size gathers_S540672x128_S320x128.axis) :
    ∀ i ∈ (oCh1 L).view.set,
      (oCh1 L).view.writes (Elt F) fo [⟨Rect.whole S320x128, ReadAs.same.apply (View.read (Elt F) sR.view (sR.view.writes (Elt F) fsR
        (⟨Rect.whole S320x128, SparseCore.gatherPayload gathers_S540672x128_S320x128 (View.read (Elt F) xAllK.view ft)
          (SparseCore.rows (View.read (Elt F) (sI.slice (Rect.unit (s := S2560) ![320] S320.size inb_S2560_S320_320) (fun _ => rfl)).view (View.write (Elt F) sI.view fsI (ReadAs.same.apply (View.read (Elt F) (iRowK L).view fi)) Finset.univ)) hn hin)⟩ :: rest)))⟩] i
      = gspecOf d fi ft i :=
  h 1 fo fsR fsI rest hn hin

theorem ChunkVal.at2 {d : Dev nD} {L : grid1.Coords} {fi : Buf (Elt F) (iLoc d)} {ft : Buf (Elt F) (xLoc d)} (h : ChunkVal d L fi ft)
    (fo : Buf (Elt F) ((oCh2 L).view.loc (thrV d L))) (fsR : Buf (Elt F) ((sR).view.loc (thrV d L)))
    (fsI : Buf (Elt F) ((sI).view.loc (thrV d L))) (rest : List (View.Piece (Elt F) S320x128 .f32))
    (hn : S320.numel = S320x128.size gathers_S540672x128_S320x128.axis')
    (hin : ∀ x, (View.read (Elt F) (sI.slice (Rect.unit (s := S2560) ![640] S320.size inb_S2560_S320_640) (fun _ => rfl)).view (View.write (Elt F) sI.view fsI (ReadAs.same.apply (View.read (Elt F) (iRowK L).view fi)) Finset.univ) x).toNat
      < S540672x128.size gathers_S540672x128_S320x128.axis) :
    ∀ i ∈ (oCh2 L).view.set,
      (oCh2 L).view.writes (Elt F) fo [⟨Rect.whole S320x128, ReadAs.same.apply (View.read (Elt F) sR.view (sR.view.writes (Elt F) fsR
        (⟨Rect.whole S320x128, SparseCore.gatherPayload gathers_S540672x128_S320x128 (View.read (Elt F) xAllK.view ft)
          (SparseCore.rows (View.read (Elt F) (sI.slice (Rect.unit (s := S2560) ![640] S320.size inb_S2560_S320_640) (fun _ => rfl)).view (View.write (Elt F) sI.view fsI (ReadAs.same.apply (View.read (Elt F) (iRowK L).view fi)) Finset.univ)) hn hin)⟩ :: rest)))⟩] i
      = gspecOf d fi ft i :=
  h 2 fo fsR fsI rest hn hin

theorem ChunkVal.at3 {d : Dev nD} {L : grid1.Coords} {fi : Buf (Elt F) (iLoc d)} {ft : Buf (Elt F) (xLoc d)} (h : ChunkVal d L fi ft)
    (fo : Buf (Elt F) ((oCh3 L).view.loc (thrV d L))) (fsR : Buf (Elt F) ((sR).view.loc (thrV d L)))
    (fsI : Buf (Elt F) ((sI).view.loc (thrV d L))) (rest : List (View.Piece (Elt F) S320x128 .f32))
    (hn : S320.numel = S320x128.size gathers_S540672x128_S320x128.axis')
    (hin : ∀ x, (View.read (Elt F) (sI.slice (Rect.unit (s := S2560) ![960] S320.size inb_S2560_S320_960) (fun _ => rfl)).view (View.write (Elt F) sI.view fsI (ReadAs.same.apply (View.read (Elt F) (iRowK L).view fi)) Finset.univ) x).toNat
      < S540672x128.size gathers_S540672x128_S320x128.axis) :
    ∀ i ∈ (oCh3 L).view.set,
      (oCh3 L).view.writes (Elt F) fo [⟨Rect.whole S320x128, ReadAs.same.apply (View.read (Elt F) sR.view (sR.view.writes (Elt F) fsR
        (⟨Rect.whole S320x128, SparseCore.gatherPayload gathers_S540672x128_S320x128 (View.read (Elt F) xAllK.view ft)
          (SparseCore.rows (View.read (Elt F) (sI.slice (Rect.unit (s := S2560) ![960] S320.size inb_S2560_S320_960) (fun _ => rfl)).view (View.write (Elt F) sI.view fsI (ReadAs.same.apply (View.read (Elt F) (iRowK L).view fi)) Finset.univ)) hn hin)⟩ :: rest)))⟩] i
      = gspecOf d fi ft i :=
  h 3 fo fsR fsI rest hn hin

theorem ChunkVal.at4 {d : Dev nD} {L : grid1.Coords} {fi : Buf (Elt F) (iLoc d)} {ft : Buf (Elt F) (xLoc d)} (h : ChunkVal d L fi ft)
    (fo : Buf (Elt F) ((oCh4 L).view.loc (thrV d L))) (fsR : Buf (Elt F) ((sR).view.loc (thrV d L)))
    (fsI : Buf (Elt F) ((sI).view.loc (thrV d L))) (rest : List (View.Piece (Elt F) S320x128 .f32))
    (hn : S320.numel = S320x128.size gathers_S540672x128_S320x128.axis')
    (hin : ∀ x, (View.read (Elt F) (sI.slice (Rect.unit (s := S2560) ![1280] S320.size inb_S2560_S320_1280) (fun _ => rfl)).view (View.write (Elt F) sI.view fsI (ReadAs.same.apply (View.read (Elt F) (iRowK L).view fi)) Finset.univ) x).toNat
      < S540672x128.size gathers_S540672x128_S320x128.axis) :
    ∀ i ∈ (oCh4 L).view.set,
      (oCh4 L).view.writes (Elt F) fo [⟨Rect.whole S320x128, ReadAs.same.apply (View.read (Elt F) sR.view (sR.view.writes (Elt F) fsR
        (⟨Rect.whole S320x128, SparseCore.gatherPayload gathers_S540672x128_S320x128 (View.read (Elt F) xAllK.view ft)
          (SparseCore.rows (View.read (Elt F) (sI.slice (Rect.unit (s := S2560) ![1280] S320.size inb_S2560_S320_1280) (fun _ => rfl)).view (View.write (Elt F) sI.view fsI (ReadAs.same.apply (View.read (Elt F) (iRowK L).view fi)) Finset.univ)) hn hin)⟩ :: rest)))⟩] i
      = gspecOf d fi ft i :=
  h 4 fo fsR fsI rest hn hin

theorem ChunkVal.at5 {d : Dev nD} {L : grid1.Coords} {fi : Buf (Elt F) (iLoc d)} {ft : Buf (Elt F) (xLoc d)} (h : ChunkVal d L fi ft)
    (fo : Buf (Elt F) ((oCh5 L).view.loc (thrV d L))) (fsR : Buf (Elt F) ((sR).view.loc (thrV d L)))
    (fsI : Buf (Elt F) ((sI).view.loc (thrV d L))) (rest : List (View.Piece (Elt F) S320x128 .f32))
    (hn : S320.numel = S320x128.size gathers_S540672x128_S320x128.axis')
    (hin : ∀ x, (View.read (Elt F) (sI.slice (Rect.unit (s := S2560) ![1600] S320.size inb_S2560_S320_1600) (fun _ => rfl)).view (View.write (Elt F) sI.view fsI (ReadAs.same.apply (View.read (Elt F) (iRowK L).view fi)) Finset.univ) x).toNat
      < S540672x128.size gathers_S540672x128_S320x128.axis) :
    ∀ i ∈ (oCh5 L).view.set,
      (oCh5 L).view.writes (Elt F) fo [⟨Rect.whole S320x128, ReadAs.same.apply (View.read (Elt F) sR.view (sR.view.writes (Elt F) fsR
        (⟨Rect.whole S320x128, SparseCore.gatherPayload gathers_S540672x128_S320x128 (View.read (Elt F) xAllK.view ft)
          (SparseCore.rows (View.read (Elt F) (sI.slice (Rect.unit (s := S2560) ![1600] S320.size inb_S2560_S320_1600) (fun _ => rfl)).view (View.write (Elt F) sI.view fsI (ReadAs.same.apply (View.read (Elt F) (iRowK L).view fi)) Finset.univ)) hn hin)⟩ :: rest)))⟩] i
      = gspecOf d fi ft i :=
  h 5 fo fsR fsI rest hn hin

theorem ChunkVal.at6 {d : Dev nD} {L : grid1.Coords} {fi : Buf (Elt F) (iLoc d)} {ft : Buf (Elt F) (xLoc d)} (h : ChunkVal d L fi ft)
    (fo : Buf (Elt F) ((oCh6 L).view.loc (thrV d L))) (fsR : Buf (Elt F) ((sR).view.loc (thrV d L)))
    (fsI : Buf (Elt F) ((sI).view.loc (thrV d L))) (rest : List (View.Piece (Elt F) S320x128 .f32))
    (hn : S320.numel = S320x128.size gathers_S540672x128_S320x128.axis')
    (hin : ∀ x, (View.read (Elt F) (sI.slice (Rect.unit (s := S2560) ![1920] S320.size inb_S2560_S320_1920) (fun _ => rfl)).view (View.write (Elt F) sI.view fsI (ReadAs.same.apply (View.read (Elt F) (iRowK L).view fi)) Finset.univ) x).toNat
      < S540672x128.size gathers_S540672x128_S320x128.axis) :
    ∀ i ∈ (oCh6 L).view.set,
      (oCh6 L).view.writes (Elt F) fo [⟨Rect.whole S320x128, ReadAs.same.apply (View.read (Elt F) sR.view (sR.view.writes (Elt F) fsR
        (⟨Rect.whole S320x128, SparseCore.gatherPayload gathers_S540672x128_S320x128 (View.read (Elt F) xAllK.view ft)
          (SparseCore.rows (View.read (Elt F) (sI.slice (Rect.unit (s := S2560) ![1920] S320.size inb_S2560_S320_1920) (fun _ => rfl)).view (View.write (Elt F) sI.view fsI (ReadAs.same.apply (View.read (Elt F) (iRowK L).view fi)) Finset.univ)) hn hin)⟩ :: rest)))⟩] i
      = gspecOf d fi ft i :=
  h 6 fo fsR fsI rest hn hin

theorem ChunkVal.at7 {d : Dev nD} {L : grid1.Coords} {fi : Buf (Elt F) (iLoc d)} {ft : Buf (Elt F) (xLoc d)} (h : ChunkVal d L fi ft)
    (fo : Buf (Elt F) ((oCh7 L).view.loc (thrV d L))) (fsR : Buf (Elt F) ((sR).view.loc (thrV d L)))
    (fsI : Buf (Elt F) ((sI).view.loc (thrV d L))) (rest : List (View.Piece (Elt F) S320x128 .f32))
    (hn : S320.numel = S320x128.size gathers_S540672x128_S320x128.axis')
    (hin : ∀ x, (View.read (Elt F) (sI.slice (Rect.unit (s := S2560) ![2240] S320.size inb_S2560_S320_2240) (fun _ => rfl)).view (View.write (Elt F) sI.view fsI (ReadAs.same.apply (View.read (Elt F) (iRowK L).view fi)) Finset.univ) x).toNat
      < S540672x128.size gathers_S540672x128_S320x128.axis) :
    ∀ i ∈ (oCh7 L).view.set,
      (oCh7 L).view.writes (Elt F) fo [⟨Rect.whole S320x128, ReadAs.same.apply (View.read (Elt F) sR.view (sR.view.writes (Elt F) fsR
        (⟨Rect.whole S320x128, SparseCore.gatherPayload gathers_S540672x128_S320x128 (View.read (Elt F) xAllK.view ft)
          (SparseCore.rows (View.read (Elt F) (sI.slice (Rect.unit (s := S2560) ![2240] S320.size inb_S2560_S320_2240) (fun _ => rfl)).view (View.write (Elt F) sI.view fsI (ReadAs.same.apply (View.read (Elt F) (iRowK L).view fi)) Finset.univ)) hn hin)⟩ :: rest)))⟩] i
      = gspecOf d fi ft i :=
  h 7 fo fsR fsI rest hn hin

/-- A tile's eight chunks of the gathered array, all at contents `g`. -/
def outChunksV (d : Dev nD) (L : grid1.Coords) (g : Buf (Elt F) (oLoc d)) : sProp 𝕄 :=
  iprop(((oCh0 L).view.loc (thrV d L) ↦[(oCh0 L).view.set]{fullShare} g)
    ∗ ((oCh1 L).view.loc (thrV d L) ↦[(oCh1 L).view.set]{fullShare} g)
    ∗ ((oCh2 L).view.loc (thrV d L) ↦[(oCh2 L).view.set]{fullShare} g)
    ∗ ((oCh3 L).view.loc (thrV d L) ↦[(oCh3 L).view.set]{fullShare} g)
    ∗ ((oCh4 L).view.loc (thrV d L) ↦[(oCh4 L).view.set]{fullShare} g)
    ∗ ((oCh5 L).view.loc (thrV d L) ↦[(oCh5 L).view.set]{fullShare} g)
    ∗ ((oCh6 L).view.loc (thrV d L) ↦[(oCh6 L).view.set]{fullShare} g)
    ∗ ((oCh7 L).view.loc (thrV d L) ↦[(oCh7 L).view.set]{fullShare} g))

/-- A tile's eight chunks of the gathered array, each at some contents. -/
def outChunks (d : Dev nD) (L : grid1.Coords) : sProp 𝕄 :=
  iprop((∃ f, (oCh0 L).view.loc (thrV d L) ↦[(oCh0 L).view.set]{fullShare} f)
    ∗ (∃ f, (oCh1 L).view.loc (thrV d L) ↦[(oCh1 L).view.set]{fullShare} f)
    ∗ (∃ f, (oCh2 L).view.loc (thrV d L) ↦[(oCh2 L).view.set]{fullShare} f)
    ∗ (∃ f, (oCh3 L).view.loc (thrV d L) ↦[(oCh3 L).view.set]{fullShare} f)
    ∗ (∃ f, (oCh4 L).view.loc (thrV d L) ↦[(oCh4 L).view.set]{fullShare} f)
    ∗ (∃ f, (oCh5 L).view.loc (thrV d L) ↦[(oCh5 L).view.set]{fullShare} f)
    ∗ (∃ f, (oCh6 L).view.loc (thrV d L) ↦[(oCh6 L).view.set]{fullShare} f)
    ∗ (∃ f, (oCh7 L).view.loc (thrV d L) ↦[(oCh7 L).view.set]{fullShare} f))

/-- The tile's own scratch and semaphores, idle: both scratch buffers at some contents, the ten DMA semaphores at zero. -/
def tileIdle (d : Dev nD) (L : grid1.Coords) : sProp 𝕄 :=
  iprop((∃ f, (sI).view.loc (thrV d L) ↦{fullShare} f)
    ∗ (∃ f, (sR).view.loc (thrV d L) ↦{fullShare} f)
    ∗ semVal (thrV d L, SemLoc.dma cc1_scratch2.sem) 0
    ∗ semVal (thrV d L, SemLoc.dma cc1_scoped0.sem) 0
    ∗ semVal (thrV d L, SemLoc.dma cc1_scoped1.sem) 0
    ∗ semVal (thrV d L, SemLoc.dma cc1_scoped2.sem) 0
    ∗ semVal (thrV d L, SemLoc.dma cc1_scoped3.sem) 0
    ∗ semVal (thrV d L, SemLoc.dma cc1_scoped4.sem) 0
    ∗ semVal (thrV d L, SemLoc.dma cc1_scoped5.sem) 0
    ∗ semVal (thrV d L, SemLoc.dma cc1_scoped6.sem) 0
    ∗ semVal (thrV d L, SemLoc.dma cc1_scoped7.sem) 0
    ∗ semVal (thrV d L, SemLoc.dma cc1_scoped8.sem) 0)

/-- The task on tile `L` of device `d`: from its 2560 indices (in range), a read share of the table, its eight chunks
    of the gathered array and its idle scratch and semaphores, it runs to its end and gives all of them back, the
    semaphores at zero again, having recorded only waits on its own semaphores. -/
theorem tile_run (d : Dev nD) (L : grid1.Coords) (q : PosShare TreeShare)
    (fi : Buf (Elt F) (iLoc d)) (ft : Buf (Elt F) (xLoc d)) (hfi : ∀ j, (fi j).toNat < 540672) (hcv : ChunkVal d L fi ft)
    (O : CellTallies nD τ sig (HIx 1)) (W : Waits sig (HIx 1)) (hO : ∀ g, O g none = 0) :
    iprop((levAts (K (F := F)).L (K (F := F)).lev : sProp 𝕄)
        ∗ ((iRowK L).view.loc (thrV d L) ↦[(iRowK L).view.set]{fullShare} fi)
        ∗ ((xV).view.loc (thrV d L) ↦{q} ft)
        ∗ outChunks d L ∗ tileIdle d L ∗ owes (thrV d L) O W)
      ⊢ wp frame (wpE (defs₀ (F := F)) 𝒱₀ (thrV d L) none) Set.univ
          (cc1_gather_kernel L iV (Memref.isWhole_whole _) xV (Memref.isWhole_whole _) oV (Memref.isWhole_whole _) sI (Memref.isWhole_whole _) sR (Memref.isWhole_whole _)
            cc1_scratch2 cc1_scoped0 cc1_scoped1 cc1_scoped2 cc1_scoped3 cc1_scoped4 cc1_scoped5 cc1_scoped6 cc1_scoped7 cc1_scoped8)
          fun _ => iprop(((iRowK L).view.loc (thrV d L) ↦[(iRowK L).view.set]{fullShare} fi)
            ∗ ((xV).view.loc (thrV d L) ↦{q} ft)
            ∗ outChunksV d L (gspecOf d fi ft) ∗ tileIdle d L
            ∗ ∃ W', ⌜∀ p ∈ W', p ∈ W ∨ p.2 = none⌝ ∗ owes (thrV d L) O W') := by
  rw [cc1_gather_kernel_eq_skeleton]; unfold cc1_gather_kernel_skel
  unfold outChunks outChunksV tileIdle
  iintro ⟨#Hlv, Hi, Hx, ⟨⟨%f0, Ho0⟩, ⟨%f1, Ho1⟩, ⟨%f2, Ho2⟩, ⟨%f3, Ho3⟩, ⟨%f4, Ho4⟩, ⟨%f5, Ho5⟩, ⟨%f6, Ho6⟩, ⟨%f7, Ho7⟩⟩,
    ⟨⟨%fsI, HsI⟩, ⟨%fsR, HsR⟩, Hsem, Hs0, Hs1, Hs2, Hs3, Hs4, Hs5, Hs6, Hs7, Hs8⟩, HO⟩
  ihave Hmw := ((K (F := F)).mayWaits_none (thr := thrV d L) hO) $$ Hlv
  have hin := idx_inb d L fi hfi
  sl_exec
  sl_step
  sl_unfold_run_names
  isplitl [Hi]; · iexact Hi
  isplitl [Hx]; · iexact Hx
  isplitl [Ho0 Ho1 Ho2 Ho3 Ho4 Ho5 Ho6 Ho7]
  · -- each chunk holds the gather's specified result on its rows
    isplitl [Ho0]
    · refine BI.Entails.trans ?main0 (Entails.of_eq (pointsTo_congr (ℓ := (oCh0 L).view.loc (thrV d L)) (q := fullShare) (f := ?f0) (g := gspecOf d fi ft) ?h0))
      case main0 => show (_ : sProp 𝕄) ⊢ _; iintro ⟨-, H⟩; iexact H
      case h0 => exact hcv.at0 _ _ _ _ _ _
    isplitl [Ho1]
    · refine BI.Entails.trans ?main1 (Entails.of_eq (pointsTo_congr (ℓ := (oCh1 L).view.loc (thrV d L)) (q := fullShare) (f := ?f1) (g := gspecOf d fi ft) ?h1))
      case main1 => show (_ : sProp 𝕄) ⊢ _; iintro ⟨-, H⟩; iexact H
      case h1 => exact hcv.at1 _ _ _ _ _ _
    isplitl [Ho2]
    · refine BI.Entails.trans ?main2 (Entails.of_eq (pointsTo_congr (ℓ := (oCh2 L).view.loc (thrV d L)) (q := fullShare) (f := ?f2) (g := gspecOf d fi ft) ?h2))
      case main2 => show (_ : sProp 𝕄) ⊢ _; iintro ⟨-, H⟩; iexact H
      case h2 => exact hcv.at2 _ _ _ _ _ _
    isplitl [Ho3]
    · refine BI.Entails.trans ?main3 (Entails.of_eq (pointsTo_congr (ℓ := (oCh3 L).view.loc (thrV d L)) (q := fullShare) (f := ?f3) (g := gspecOf d fi ft) ?h3))
      case main3 => show (_ : sProp 𝕄) ⊢ _; iintro ⟨-, H⟩; iexact H
      case h3 => exact hcv.at3 _ _ _ _ _ _
    isplitl [Ho4]
    · refine BI.Entails.trans ?main4 (Entails.of_eq (pointsTo_congr (ℓ := (oCh4 L).view.loc (thrV d L)) (q := fullShare) (f := ?f4) (g := gspecOf d fi ft) ?h4))
      case main4 => show (_ : sProp 𝕄) ⊢ _; iintro ⟨-, H⟩; iexact H
      case h4 => exact hcv.at4 _ _ _ _ _ _
    isplitl [Ho5]
    · refine BI.Entails.trans ?main5 (Entails.of_eq (pointsTo_congr (ℓ := (oCh5 L).view.loc (thrV d L)) (q := fullShare) (f := ?f5) (g := gspecOf d fi ft) ?h5))
      case main5 => show (_ : sProp 𝕄) ⊢ _; iintro ⟨-, H⟩; iexact H
      case h5 => exact hcv.at5 _ _ _ _ _ _
    isplitl [Ho6]
    · refine BI.Entails.trans ?main6 (Entails.of_eq (pointsTo_congr (ℓ := (oCh6 L).view.loc (thrV d L)) (q := fullShare) (f := ?f6) (g := gspecOf d fi ft) ?h6))
      case main6 => show (_ : sProp 𝕄) ⊢ _; iintro ⟨-, H⟩; iexact H
      case h6 => exact hcv.at6 _ _ _ _ _ _
    refine BI.Entails.trans ?main7 (Entails.of_eq (pointsTo_congr (ℓ := (oCh7 L).view.loc (thrV d L)) (q := fullShare) (f := ?f7) (g := gspecOf d fi ft) ?h7))
    case main7 => show (_ : sProp 𝕄) ⊢ _; iintro ⟨-, H⟩; iexact H
    case h7 => exact hcv.at7 _ _ _ _ _ _
  isplitl [HsI HsR Hsem Hs0 Hs1 Hs2 Hs3 Hs4 Hs5 Hs6 Hs7 Hs8]
  · isplitl [HsI]; · iexists _; iexact HsI
    isplitl [HsR]; · iexists _; iexact HsR
    isplitl [Hsem]; · iexact Hsem
    isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    iexact Hs8
  iexists _; isplitr
  rotate_left
  · iexact HO
  · ipureintro
    repeat' apply waits_insert
    exact fun p hp => .inl hp

end Cert.Kernel.Hand

end
-- ==== Proof.Bits.TileObl.lean ====
/-
  The gather's call as the launch theorem takes it: what the call hands each SparseCore and each tile and takes back
  (the payloads), the tile's obligation (its task from its scoped storage, `tile_run`), and the split of a SparseCore's
  operands among its sixteen tiles.

  The call hands SparseCore `c` one read share of the table and, per tile, the tile's 2560 indices and its eight chunks
  of the gathered array; a tile gets a sixteenth read share of its SparseCore's; every share comes back. The index and gathered arrays are cut
  into the tiles' pieces by the TensorCore before the call, so a SparseCore's payload is the product over its tiles.
-/
import proofs.«206902_g37847251812778_fold_wed_m_929_15_alg».proof.Proof.Bits.Tile

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## A listed part of a product -/

/-- The factors of a product over a set at the members a duplicate-free list names, as a chain, and the rest. -/
theorem bigSep_take {M : Type} [URA M] {α : Type} [DecidableEq α] (s : Finset α) (l : List α) (hl : l.Nodup) (hs : l.toFinset ⊆ s)
    (Φ : α → sProp M) : bigSep s Φ = iprop(bigSepL l Φ ∗ bigSep (s \ l.toFinset) Φ) := by
  conv_lhs => rw [← Finset.union_sdiff_of_subset hs]
  rw [bigSep_union Finset.disjoint_sdiff, bigSep_eq_bigSepL l hl]
  rfl

/-! ## The tile's own storage -/

/-- The tile kernel's ten DMA semaphores: the gather's, and one per copy (the index fetch, the eight copies out). -/
abbrev tileSems : List (DmaSem sig) :=
  [cc1_scratch2.sem, cc1_scoped0.sem, cc1_scoped1.sem, cc1_scoped2.sem, cc1_scoped3.sem, cc1_scoped4.sem, cc1_scoped5.sem,
    cc1_scoped6.sem, cc1_scoped7.sem, cc1_scoped8.sem]
theorem tileSems_nodup : tileSems.Nodup := by decide
theorem tileSems_scoped : ∀ sm ∈ tileSems, (SemLoc.dma sm : SemLoc sig).isScoped .scVector = true := by decide

abbrev tileCells (thr : Thread nD τ) : List (GSem nD τ sig) := tileSems.map fun sm => (thr, SemLoc.dma sm)
theorem tileCells_nodup (thr : Thread nD τ) : (tileCells thr).Nodup :=
  tileSems_nodup.map fun _ _ e => SemLoc.dma.inj (Prod.mk.inj e).2

theorem tileCells_sub (d : Dev nD) (L : grid1.Coords) : (tileCells (thrV d L)).toFinset ⊆ ownCells (thrV d L) := by
  intro g hg
  obtain ⟨sm, hsm, rfl⟩ := List.mem_map.mp (List.mem_toFinset.mp hg)
  exact mem_ownCells.mpr ⟨rfl, tileSems_scoped sm hsm⟩

/-- The tile's scoped semaphores at zero: the kernel's ten, one by one, and the rest. -/
theorem ownSems0_tile (d : Dev nD) (L : grid1.Coords) :
    (ownSems0 (thrV d L) : sProp 𝕄)
      = iprop(bigSepL (tileCells (thrV d L)) (fun g => semVal g 0)
          ∗ bigSep (ownCells (thrV d L) \ (tileCells (thrV d L)).toFinset) fun g => semVal g 0) := by
  unfold SparseCore.Cfg.ownSems0
  exact bigSep_take _ _ (tileCells_nodup _) (tileCells_sub d L) _

/-- The tile's two scratch buffers. -/
abbrev tileRefs (L : grid1.Coords) : List (DevRef τ sig) :=
  [(Proc.scVector (cV L) (jV L)).devRef cc1_scratch0, (Proc.scVector (cV L) (jV L)).devRef cc1_scratch1]
theorem tileRefs_nodup (L : grid1.Coords) : (tileRefs L).Nodup :=
  List.nodup_cons.mpr ⟨fun h => absurd (Proc.devRef_injective _ (List.mem_singleton.mp h)) (show (cc1_scratch0 : Ref sig .scVector) ≠ cc1_scratch1 by decide),
    List.nodup_singleton _⟩
theorem tileRefs_sub (L : grid1.Coords) : (tileRefs L).toFinset ⊆ ownRefs (τ := τ) (sig := sig) (.scVector (cV L) (jV L)) := by
  intro b hb
  rcases List.mem_toFinset.mp hb with _ | ⟨_, hb⟩
  · exact SparseCore.Cfg.mem_ownRefs_of_owner rfl
  · rcases hb with _ | ⟨_, hb⟩
    · exact SparseCore.Cfg.mem_ownRefs_of_owner rfl
    · cases hb

/-- The tile's scoped buffers: the two scratch buffers, each at some contents, and the rest. -/
theorem ownBufs_tile (d : Dev nD) (L : grid1.Coords) :
    (ownBufs (thrV d L) : sProp 𝕄)
      = iprop(bigSepL (tileRefs L) (fun b => iprop(∃ f, ((d, b) : Loc nD τ sig) ↦{fullShare} f))
          ∗ bigSep (ownRefs (τ := τ) (sig := sig) (.scVector (cV L) (jV L)) \ (tileRefs L).toFinset) fun b => iprop(∃ f, ((d, b) : Loc nD τ sig) ↦{fullShare} f)) := by
  unfold SparseCore.Cfg.ownBufs
  exact bigSep_take _ _ (tileRefs_nodup L) (tileRefs_sub L) _

/-! ## What the handshakes carry -/

variable (fi : (d : Dev nD) → Buf (Elt F) (iLoc d)) (ft : (d : Dev nD) → Buf (Elt F) (xLoc d))

def coordsV (c : Fin (grid1.bound 0)) (s : Fin (grid1.bound 1)) : grid1.Coords :=
  fun | 0 => c | 1 => s | ⟨_ + 2, h⟩ => absurd h (Nat.not_lt.2 (Nat.le_add_left _ _))

theorem bound0 : grid1.bound 0 = 2 := rfl
theorem bound1 : grid1.bound 1 = 16 := rfl
/-- The coordinates of tile `i` of SparseCore `c`. -/
abbrev coordsP (c : Fin 2) (i : Fin 16) : grid1.Coords := coordsV (Fin.cast bound0.symm c) (Fin.cast bound1.symm i)

/-- SparseCore `c`'s read share of the table, and tile `i`'s of it. -/
abbrev coreShare (c : Fin 2) : PosShare TreeShare := Transfers.shareTok fullShare 2 c
abbrev tileShare (c : Fin 2) (i : Fin 16) : PosShare TreeShare := Transfers.shareTok (coreShare c) 16 i

/-- A tile's eight chunks of the gathered array, each at some contents, as the TensorCore names the array. -/
def outChunksT (d : Dev nD) (L : grid1.Coords) : sProp 𝕄 :=
  iprop((∃ f : Buf (Elt F) (oLoc d), oLoc d ↦[(oCh0 L).view.set]{fullShare} f)
    ∗ (∃ f : Buf (Elt F) (oLoc d), oLoc d ↦[(oCh1 L).view.set]{fullShare} f)
    ∗ (∃ f : Buf (Elt F) (oLoc d), oLoc d ↦[(oCh2 L).view.set]{fullShare} f)
    ∗ (∃ f : Buf (Elt F) (oLoc d), oLoc d ↦[(oCh3 L).view.set]{fullShare} f)
    ∗ (∃ f : Buf (Elt F) (oLoc d), oLoc d ↦[(oCh4 L).view.set]{fullShare} f)
    ∗ (∃ f : Buf (Elt F) (oLoc d), oLoc d ↦[(oCh5 L).view.set]{fullShare} f)
    ∗ (∃ f : Buf (Elt F) (oLoc d), oLoc d ↦[(oCh6 L).view.set]{fullShare} f)
    ∗ (∃ f : Buf (Elt F) (oLoc d), oLoc d ↦[(oCh7 L).view.set]{fullShare} f))

omit [FloatOps F] in
/-- The tile addresses the same chunks through its own memrefs. -/
theorem outChunksT_eq (d : Dev nD) (L : grid1.Coords) : (outChunksT d L : sProp 𝕄) = outChunks d L := rfl

/-- A tile's eight chunks of the gathered array, all at contents `f`, as the TensorCore names the array. -/
def outChunksAt (d : Dev nD) (L : grid1.Coords) (f : Buf (Elt F) (oLoc d)) : sProp 𝕄 :=
  iprop((oLoc d ↦[(oCh0 L).view.set]{fullShare} f)
    ∗ (oLoc d ↦[(oCh1 L).view.set]{fullShare} f)
    ∗ (oLoc d ↦[(oCh2 L).view.set]{fullShare} f)
    ∗ (oLoc d ↦[(oCh3 L).view.set]{fullShare} f)
    ∗ (oLoc d ↦[(oCh4 L).view.set]{fullShare} f)
    ∗ (oLoc d ↦[(oCh5 L).view.set]{fullShare} f)
    ∗ (oLoc d ↦[(oCh6 L).view.set]{fullShare} f)
    ∗ (oLoc d ↦[(oCh7 L).view.set]{fullShare} f))

omit [FloatOps F] in
/-- The tile addresses the same chunks through its own memrefs. -/
theorem outChunksAt_eq (d : Dev nD) (L : grid1.Coords) (f : Buf (Elt F) (oLoc d)) : (outChunksAt d L f : sProp 𝕄) = outChunksV d L f := rfl

/-- Tile `L`'s pieces of the index array (at its launch-time contents `fi`) and of the gathered array (at any). -/
def tilePieces (d : Dev nD) (L : grid1.Coords) : sProp 𝕄 :=
  iprop((iLoc d ↦[(iRowK L).view.set]{fullShare} fi d) ∗ outChunksT d L)

/-- What tile `L` hands back: its index piece as it was, its chunks of the gathered array at the gather's specified result. -/
def tileDone (d : Dev nD) (L : grid1.Coords) : sProp 𝕄 :=
  iprop((iLoc d ↦[(iRowK L).view.set]{fullShare} fi d) ∗ outChunksAt d L (gspecOf d (fi d) (ft d)))

def P : (K (F := F)).Pay (nD := nD) (Val := Elt F) (Name := ℕ) (U := UU) where
  st := fun q d c => match q with
    | 0 => iprop((xLoc d ↦{coreShare (Fin.cast nCore_zero c)} ft d) ∗ bigSep Finset.univ fun i : Fin 16 => tilePieces fi d (coordsP (Fin.cast nCore_zero c) i))
  dn := fun q d c => match q with
    | 0 => iprop((xLoc d ↦{coreShare (Fin.cast nCore_zero c)} ft d) ∗ bigSep Finset.univ fun i : Fin 16 => tileDone fi ft d (coordsP (Fin.cast nCore_zero c) i))
  go := fun q d c i => match q with
    | 0 => iprop((xLoc d ↦{tileShare (Fin.cast nCore_zero c) (Fin.cast nSub_zero i)} ft d) ∗ tilePieces fi d (coordsP (Fin.cast nCore_zero c) (Fin.cast nSub_zero i)))
  td := fun q d c i => match q with
    | 0 => iprop((xLoc d ↦{tileShare (Fin.cast nCore_zero c) (Fin.cast nSub_zero i)} ft d) ∗ tileDone fi ft d (coordsP (Fin.cast nCore_zero c) (Fin.cast nSub_zero i)))
  x := fun _ _ => iprop(emp)

omit [FloatOps F] in
set_option synthInstance.maxHeartbeats 400000 in
instance outChunksT_storable (d : Dev nD) (L : grid1.Coords) : BI.Storable (upEmb : UEmb _ 𝕄) (outChunksT (F := F) d L) := by
  unfold outChunksT; infer_instance

omit [FloatOps F] in
set_option synthInstance.maxHeartbeats 400000 in
instance tilePieces_storable (d : Dev nD) (L : grid1.Coords) : BI.Storable (upEmb : UEmb _ 𝕄) (tilePieces fi d L) := by
  unfold tilePieces; infer_instance

omit [FloatOps F] in
set_option synthInstance.maxHeartbeats 400000 in
instance outChunksAt_storable (d : Dev nD) (L : grid1.Coords) (f : Buf (Elt F) (oLoc d)) : BI.Storable (upEmb : UEmb _ 𝕄) (outChunksAt (F := F) d L f) := by
  unfold outChunksAt; infer_instance

omit [FloatOps F] in
set_option synthInstance.maxHeartbeats 400000 in
instance tileDone_storable (d : Dev nD) (L : grid1.Coords) : BI.Storable (upEmb : UEmb _ 𝕄) (tileDone fi ft d L) := by
  unfold tileDone; infer_instance

set_option synthInstance.maxHeartbeats 400000 in
instance P_storable : (P (F := F) fi ft).IsStorable where
  st q d c := match q with | 0 => by unfold P; dsimp only; infer_instance
  dn q d c := match q with | 0 => by unfold P; dsimp only; infer_instance
  go q d c i := match q with | 0 => by unfold P; dsimp only; infer_instance
  td q d c i := match q with | 0 => by unfold P; dsimp only; infer_instance

end Cert.Kernel.Hand

end
-- ==== Proof.Bits.GatherCall.lean ====
/-
  The gather's call, proved: a tile's obligation from its scoped storage as the launch hands it over, and the split of
  a SparseCore's payload among its tiles (its read share of the table cut in sixteen).
-/
import proofs.«206902_g37847251812778_fold_wed_m_929_15_alg».proof.Proof.Bits.TileObl

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (fi : (d : Dev nD) → Buf (Elt F) (iLoc d)) (ft : (d : Dev nD) → Buf (Elt F) (xLoc d))

/-- The tile's scoped buffers with the two scratch buffers spelt as the tile addresses them. -/
theorem ownBufs_tile' (d : Dev nD) (L : grid1.Coords) :
    (ownBufs (thrV d L) : sProp 𝕄)
      = iprop(((∃ f, (sI).view.loc (thrV d L) ↦{fullShare} f) ∗ (∃ f, (sR).view.loc (thrV d L) ↦{fullShare} f))
          ∗ bigSep (ownRefs (τ := τ) (sig := sig) (.scVector (cV L) (jV L)) \ (tileRefs L).toFinset) fun b => iprop(∃ f, ((d, b) : Loc nD τ sig) ↦{fullShare} f)) :=
  ownBufs_tile d L

/-- The tile's scoped semaphores at zero with the kernel's ten written out. -/
theorem ownSems0_tile' (d : Dev nD) (L : grid1.Coords) :
    (ownSems0 (thrV d L) : sProp 𝕄)
      = iprop((semVal (thrV d L, SemLoc.dma cc1_scratch2.sem) 0
            ∗ semVal (thrV d L, SemLoc.dma cc1_scoped0.sem) 0
            ∗ semVal (thrV d L, SemLoc.dma cc1_scoped1.sem) 0
            ∗ semVal (thrV d L, SemLoc.dma cc1_scoped2.sem) 0
            ∗ semVal (thrV d L, SemLoc.dma cc1_scoped3.sem) 0
            ∗ semVal (thrV d L, SemLoc.dma cc1_scoped4.sem) 0
            ∗ semVal (thrV d L, SemLoc.dma cc1_scoped5.sem) 0
            ∗ semVal (thrV d L, SemLoc.dma cc1_scoped6.sem) 0
            ∗ semVal (thrV d L, SemLoc.dma cc1_scoped7.sem) 0
            ∗ semVal (thrV d L, SemLoc.dma cc1_scoped8.sem) 0)
          ∗ bigSep (ownCells (thrV d L) \ (tileCells (thrV d L)).toFinset) fun g => semVal g 0) :=
  ownSems0_tile d L

/-- The task of tile `L` from what the launch hands it: its read share of the table, its pieces of the index and
    gathered arrays, its scoped storage. -/
theorem tile_body (hF : (K (F := F)).Facts) (d : Dev nD) (L : grid1.Coords) (q : PosShare TreeShare)
    (hfi : ∀ j, (fi d j).toNat < 540672) (hcv : ChunkVal d L (fi d) (ft d))
    (O : CellTallies nD τ sig (HIx 1)) (W : Waits sig (HIx 1)) (hO : ∀ g, O g none = 0) :
    iprop((levAts (K (F := F)).L (K (F := F)).lev : sProp 𝕄) ∗ emp
        ∗ ((xLoc d ↦{q} ft d) ∗ tilePieces fi d L)
        ∗ scopedBufs (thrV d L) ∗ scopedSems0 (thrV d L) ∗ owes (thrV d L) O W)
      ⊢ wp frame (wpE (defs₀ (F := F)) 𝒱₀ (thrV d L) none) Set.univ
          (cc1_gather_kernel L iV (Memref.isWhole_whole _) xV (Memref.isWhole_whole _) oV (Memref.isWhole_whole _) sI (Memref.isWhole_whole _) sR (Memref.isWhole_whole _)
            cc1_scratch2 cc1_scoped0 cc1_scoped1 cc1_scoped2 cc1_scoped3 cc1_scoped4 cc1_scoped5 cc1_scoped6 cc1_scoped7 cc1_scoped8)
          fun _ => iprop(((xLoc d ↦{q} ft d) ∗ tileDone fi ft d L) ∗ scopedBufs (thrV d L) ∗ scopedSems0 (thrV d L)
            ∗ ∃ W', ⌜∀ p ∈ W', p ∈ W ∨ p.2 = none⌝ ∗ owes (thrV d L) O W') := by
  rw [(K (F := F)).scopedBufs_V hF d (cV L) (jV L), SparseCore.Cfg.scopedSems0_V (Val := Elt F) d (cV L) (jV L), ownSems0_tile', ownBufs_tile']
  unfold tilePieces tileDone
  rw [outChunksT_eq, outChunksAt_eq]
  iintro ⟨#Hlv, -, ⟨Hx, Hi, Hoc⟩, ⟨⟨Hb0, Hb1⟩, Hbrest⟩, ⟨Hs, Hsrest⟩, HO⟩
  iapply (wp_wand_r frame _ _)
  isplitl [Hx Hi Hoc Hb0 Hb1 Hs HO]
  · iapply (tile_run d L q (fi d) (ft d) hfi hcv O W hO)
    isplitr; · iexact Hlv
    isplitl [Hi]; · iexact Hi
    isplitl [Hx]; · iexact Hx
    isplitl [Hoc]; · iexact Hoc
    isplitl [Hb0 Hb1 Hs]
    · unfold tileIdle
      isplitl [Hb0]; · iexact Hb0
      isplitl [Hb1]; · iexact Hb1
      iexact Hs
    iexact HO
  · iintro %_ ⟨Hi, Hx, Hoc, Hidle, HW⟩
    unfold tileIdle
    icases Hidle with ⟨Hb0, Hb1, Hs⟩
    isplitl [Hx Hi Hoc]
    · isplitl [Hx]; · iexact Hx
      isplitl [Hi]; · iexact Hi
      iexact Hoc
    isplitl [Hb0 Hb1 Hbrest]
    · isplitl [Hb0 Hb1]
      · isplitl [Hb0]; · iexact Hb0
        iexact Hb1
      iexact Hbrest
    isplitl [Hs Hsrest]
    · isplitl [Hs]; · iexact Hs
      iexact Hsrest
    iexact HW

/-! ## The launch theorem's obligations -/

theorem defs₀_vector (c : Fin τ.nSC) (s : Fin τ.nSub) :
    defs₀ (F := F) (.scVector c s) 1 ()
      = SparseCore.onTile hcore1 hsub1 (fun c s => cc1_gather_kernel (coordsV c s)
          iV (Memref.isWhole_whole _) xV (Memref.isWhole_whole _) oV (Memref.isWhole_whole _) sI (Memref.isWhole_whole _) sR (Memref.isWhole_whole _)
          cc1_scratch2 cc1_scoped0 cc1_scoped1 cc1_scoped2 cc1_scoped3 cc1_scoped4 cc1_scoped5 cc1_scoped6 cc1_scoped7 cc1_scoped8) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hfi : ∀ d j, (fi d j).toNat < 540672) (hcv : ∀ d L, ChunkVal d L (fi d) (ft d)) :
    (K (F := F)).TileObl (D (F := F)) 𝒱 (P fi ft) v₀ 0 := by
  intro d c i O W hO _ _
  -- this kernel owes nothing for a protocol of its own
  simp only [show (P fi ft).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]; simp only [SparseCore.onTile, hc, and_self, ↓reduceDIte]
  exact (tile_body fi ft hF d (coordsV ⟨_, hc.1⟩ ⟨_, hc.2⟩) _ (hfi d) (hcv d _) O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore's payload among its tiles: its read share of the table cut in sixteen (what is left of it kept aside),
    the tiles' pieces as they are; back, the sixteen shares rejoined with what was kept, and what the tiles finished with. -/
theorem vecSplit : (K (F := F)).VecSplit' (P fi ft) 0 := by
  intro d c
  show iprop((xLoc d ↦{coreShare (Fin.cast nCore_zero c)} ft d) ∗ bigSep Finset.univ fun i : Fin 16 => tilePieces fi d (coordsP (Fin.cast nCore_zero c) i))
    ⊢ |={Set.univ}=> iprop(
      (bigSep Finset.univ fun i : Fin ((K (F := F)).nSub 0) =>
        iprop((xLoc d ↦{tileShare (Fin.cast nCore_zero c) (Fin.cast nSub_zero i)} ft d) ∗ tilePieces fi d (coordsP (Fin.cast nCore_zero c) (Fin.cast nSub_zero i))))
      ∗ ((bigSep Finset.univ fun i : Fin ((K (F := F)).nSub 0) =>
            iprop((xLoc d ↦{tileShare (Fin.cast nCore_zero c) (Fin.cast nSub_zero i)} ft d) ∗ tileDone fi ft d (coordsP (Fin.cast nCore_zero c) (Fin.cast nSub_zero i))))
          -∗ iprop((xLoc d ↦{coreShare (Fin.cast nCore_zero c)} ft d) ∗ bigSep Finset.univ fun i : Fin 16 => tileDone fi ft d (coordsP (Fin.cast nCore_zero c) i))))
  rw [bigSep_tasks (F := F) (fun i => iprop((xLoc d ↦{tileShare (Fin.cast nCore_zero c) i} ft d) ∗ tilePieces fi d (coordsP (Fin.cast nCore_zero c) i))), bigSep_sep',
    bigSep_tasks (F := F) (fun i => iprop((xLoc d ↦{tileShare (Fin.cast nCore_zero c) i} ft d) ∗ tileDone fi ft d (coordsP (Fin.cast nCore_zero c) i))), bigSep_sep']
  iintro ⟨Hx, Hp⟩
  ihave Hx' := (Transfers.pointsTo_toks_split (coreShare (Fin.cast nCore_zero c)) 16) $$ Hx
  icases Hx' with ⟨Hd, Hx⟩
  imodintro
  isplitl [Hx Hp]
  · isplitl [Hx]; · iexact Hx
    iexact Hp
  · iintro ⟨Hx, Hp⟩
    isplitl [Hd Hx]
    · iapply (Transfers.pointsTo_toks_join (coreShare (Fin.cast nCore_zero c)) 16)
      isplitl [Hd]; · iexact Hd
      iexact Hx
    iexact Hp

end Cert.Kernel.Hand

end
-- ==== Proof.Bits.GatherSpec.lean ====
/-
  The gather's operands and specified result as functions of the launch memory: the index array and the packed table
  as the gather finds them (the contents after the second host stretch), and the gathered array it must leave.
-/
import proofs.«206902_g37847251812778_fold_wed_m_929_15_alg».proof.Proof.Bits.Regs
import proofs.«206902_g37847251812778_fold_wed_m_929_15_alg».proof.Proof.Bits.GSpec

noncomputable section

namespace Cert.Kernel.Hand

open Cert.Kernel Cert.Kernel.Gen
open Idealize.ShloMosaic Idealize.ShloMosaic.TcCoe

variable {F : FTy → Type} [FloatOps F]

variable (m : (ℓ : Loc nD τ sig) → Buf (Elt F) ℓ)

/-- The index array and the packed table as the gather finds them: the contents after the second host stretch. -/
abbrev fiOf (c : Dev nD) : Buf (Elt F) (iLoc c) := W3 m c (Proc.devRef .tc main_v14)
abbrev ftOf (c : Dev nD) : Buf (Elt F) (xLoc c) := W3 m c (Proc.devRef .tc main_v2)

/-- The gathered array the gather must leave. -/
def gspec (c : Dev nD) : Buf (Elt F) ((c : Thread nD τ).loc main_v15) := gspecOf c (fiOf m c) (ftOf m c)

end Cert.Kernel.Hand

end
-- ==== Proof.Bits.GatherRun.lean ====
/-
  The gather as @main's TensorCore sees it. Before the call the TensorCore cuts the index array and the gathered array
  into the tiles' pieces and the packed table into one read share per SparseCore (keeping what is left of it); the call
  hands them out and takes them back; after it the index array is whole again at its contents, the table whole at
  its contents, and the gathered array whole at what the tiles left.

  The facts of how the two arrays are cut (`hidx`, `hos`, `hoj`) are taken as hypotheses here.
-/
import proofs.«206902_g37847251812778_fold_wed_m_929_15_alg».proof.Proof.Bits.RegionSegs
import proofs.«206902_g37847251812778_fold_wed_m_929_15_alg».proof.Proof.Bits.GatherCall
import proofs.«206902_g37847251812778_fold_wed_m_929_15_alg».proof.Proof.Bits.GatherSpec

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx Pay)

variable {F : FTy → Type} [FloatOps F]

local notation "𝕄" => MT nD τ sig (HIx 1) (Elt F) ℕ UU ℕ

section GatherRun

variable (m : (ℓ : Loc nD τ sig) → Buf (Elt F) ℓ)

/-- The gather's payloads at the index array and the packed table as it finds them. -/
abbrev PP : (K (F := F)).Pay (nD := nD) (Val := Elt F) (Name := ℕ) (U := UU) := P (F := F) (fiOf m) (ftOf m)

/-- How the index array is cut among the tiles. -/
def IdxSplit : Prop := ∀ (d : Dev nD) (f : Buf (Elt F) (iLoc d)),
  (iLoc d ↦{fullShare} f : sProp 𝕄) = bigSep Finset.univ fun c : Fin 2 => bigSep Finset.univ fun i : Fin 16 => (iLoc d ↦[(iRowK (coordsP c i)).view.set]{fullShare} f : sProp 𝕄)
/-- How the gathered array is cut among the tiles, and joined again. -/
def OutSplit : Prop := ∀ (d : Dev nD) (f : Buf (Elt F) (oLoc d)),
  (oLoc d ↦{fullShare} f : sProp 𝕄) ⊢ bigSep Finset.univ fun c : Fin 2 => bigSep Finset.univ fun i : Fin 16 => outChunksT (F := F) d (coordsP c i)
def OutJoin : Prop := ∀ (d : Dev nD) (f : Buf (Elt F) (oLoc d)),
  (oLoc d ↦{fullShare} f : sProp 𝕄) = bigSep Finset.univ fun c : Fin 2 => bigSep Finset.univ fun i : Fin 16 => outChunksAt (F := F) d (coordsP c i) f

/-- The gather's three arrays. -/
abbrev T1 : Finset (DevRef τ sig) := {Proc.devRef .tc main_v14, Proc.devRef .tc main_v2, Proc.devRef .tc main_v15}

omit [FloatOps F] in
theorem T1_sub : T1 ⊆ Pipeline.ucRefs τ sig := by
  intro b hb
  simp only [T1, Finset.mem_insert, Finset.mem_singleton] at hb
  rcases hb with rfl | rfl | rfl <;> exact Finset.mem_filter.mpr ⟨StableHlo.devRef_mem_tcRefs _, by decide⟩

omit [FloatOps F] in
theorem held_T1 (c : Dev nD) (V : Valuation τ sig (Elt F)) :
    (StableHlo.held (c : Thread nD τ) T1 V : sProp 𝕄)
      = iprop((iLoc c ↦{fullShare} V (Proc.devRef .tc main_v14)) ∗ (xLoc c ↦{fullShare} V (Proc.devRef .tc main_v2))
          ∗ (oLoc c ↦{fullShare} V (Proc.devRef .tc main_v15))) := by
  unfold StableHlo.held T1
  rw [SparseCore.bigSep_insert' (by decide), SparseCore.bigSep_insert' (by decide), bigSep_singleton]

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- What the call hands the SparseCores, as three products: the table's read shares, the tiles' index pieces, the
    tiles' chunks of the gathered array. -/
theorem st_eq (d : Dev nD) :
    (bigSep Finset.univ fun c : Fin ((K (F := F)).nCore 0) => (PP m).st 0 d c)
      = iprop((bigSep Finset.univ fun c : Fin 2 => (xLoc d ↦{coreShare c} ftOf m d : sProp 𝕄))
          ∗ (bigSep Finset.univ fun c : Fin 2 => bigSep Finset.univ fun i : Fin 16 => (iLoc d ↦[(iRowK (coordsP c i)).view.set]{fullShare} fiOf m d : sProp 𝕄))
          ∗ (bigSep Finset.univ fun c : Fin 2 => bigSep Finset.univ fun i : Fin 16 => outChunksT (F := F) d (coordsP c i))) := by
  show (bigSep Finset.univ fun c : Fin ((K (F := F)).nCore 0) =>
      iprop((xLoc d ↦{coreShare (Fin.cast nCore_zero c)} ftOf m d)
        ∗ bigSep Finset.univ fun i : Fin 16 => tilePieces (fiOf m) d (coordsP (Fin.cast nCore_zero c) i))) = _
  rw [bigSep_cores (F := F) (fun c => iprop((xLoc d ↦{coreShare c} ftOf m d) ∗ bigSep Finset.univ fun i : Fin 16 => tilePieces (fiOf m) d (coordsP c i))),
    bigSep_sep']
  congr 1
  unfold tilePieces
  rw [← bigSep_sep']
  exact bigSep_congr fun c _ => bigSep_sep' _ _ _

/-- What the call takes back: the shares, the index pieces as they were, the chunks at the gather's specified result. -/
theorem dn_eq (d : Dev nD) :
    (bigSep Finset.univ fun c : Fin ((K (F := F)).nCore 0) => (PP m).dn 0 d c)
      = iprop((bigSep Finset.univ fun c : Fin 2 => (xLoc d ↦{coreShare c} ftOf m d : sProp 𝕄))
          ∗ (bigSep Finset.univ fun c : Fin 2 => bigSep Finset.univ fun i : Fin 16 => (iLoc d ↦[(iRowK (coordsP c i)).view.set]{fullShare} fiOf m d : sProp 𝕄))
          ∗ (bigSep Finset.univ fun c : Fin 2 => bigSep Finset.univ fun i : Fin 16 => outChunksAt (F := F) d (coordsP c i) (gspec m d))) := by
  show (bigSep Finset.univ fun c : Fin ((K (F := F)).nCore 0) =>
      iprop((xLoc d ↦{coreShare (Fin.cast nCore_zero c)} ftOf m d)
        ∗ bigSep Finset.univ fun i : Fin 16 => tileDone (fiOf m) (ftOf m) d (coordsP (Fin.cast nCore_zero c) i))) = _
  rw [bigSep_cores (F := F) (fun c => iprop((xLoc d ↦{coreShare c} ftOf m d) ∗ bigSep Finset.univ fun i : Fin 16 => tileDone (fiOf m) (ftOf m) d (coordsP c i))),
    bigSep_sep']
  congr 1
  unfold tileDone
  rw [← bigSep_sep']
  exact bigSep_congr fun c _ => bigSep_sep' _ _ _

/-- The gather: from the call's handshake state and every unscoped buffer at the contents after the second host
    stretch, the call runs; after it the handshake state is the next call's and the unscoped buffers are as before but
    for the gathered array, at some contents. -/
theorem run_gather (hidx : IdxSplit (F := F)) (hos : OutSplit (F := F)) (hoj : OutJoin (F := F))
    (κ : GSem nD τ sig → ℕ) (d : Dev nD) (Φ : PUnit → sProp 𝕄) :
    iprop((K (F := F)).ctx EH (PP m) κ ∗ (K (F := F)).tcSt EH d 0 ∗ StableHlo.held (d : Thread nD τ) (Pipeline.ucRefs τ sig) (W3 m d)
        ∗ (iprop((K (F := F)).tcSt EH d 1
              ∗ StableHlo.held (d : Thread nD τ) (Pipeline.ucRefs τ sig) (W4 m (gspec m) d)) -∗ Φ ⟨⟩))
      ⊢ wp frame (wpE ((K (F := F)).defs (D (F := F))) 𝒱 (SparseCore.T d) none) Set.univ (sc.run d 0) Φ := by
  rw [StableHlo.held_sub_split (d : Thread nD τ) T1_sub (W3 m d), held_T1]
  iintro ⟨#Hctx, Hst, ⟨⟨Hi, Hx, Ho⟩, Hrest⟩, Hk⟩
  ihave Hi' := (Entails.of_eq (hidx d (fiOf m d))) $$ Hi
  ihave Ho' := (hos d _) $$ Ho
  ihave Hx' := (Transfers.pointsTo_toks_split (ℓ := xLoc d) (f := ftOf m d) fullShare 2) $$ Hx
  icases Hx' with ⟨Hxd, Hxs⟩
  iapply ((K (F := F)).wp_run (D (F := F)) 𝒱 (EH := EH) (P := PP m) κ d 0) $$ [Hst Hi' Ho' Hxs Hxd Hrest Hk]
  isplitr; · iexact Hctx
  isplitl [Hst]; · iexact Hst
  isplitl [Hi' Ho' Hxs]
  · rw [st_eq]
    isplitl [Hxs]; · iexact Hxs
    isplitl [Hi']; · iexact Hi'
    iexact Ho'
  rw [dn_eq]
  iintro ⟨Hst, Hxs, Hi', Ho'⟩
  ihave Hi := (Entails.of_eq (hidx d (fiOf m d)).symm) $$ Hi'
  ihave Ho := (Entails.of_eq (hoj d (gspec m d)).symm) $$ Ho'
  ihave Hx := (Transfers.pointsTo_toks_join (ℓ := xLoc d) (f := ftOf m d) fullShare 2) $$ [Hxd Hxs]
  · isplitl [Hxd]; · iexact Hxd
    iexact Hxs
  iapply Hk
  isplitl [Hst]; · iexact Hst
  rw [StableHlo.held_sub_split (d : Thread nD τ) T1_sub (W4 m _ d), held_T1,
    StableHlo.held_congr (d : Thread nD τ) (V := W4 m _ d) (V' := W3 m d) (S := Pipeline.ucRefs τ sig \ T1) fun b hb => by
      unfold W4
      exact Function.update_of_ne (fun e => (Finset.mem_sdiff.mp hb).2 (by rw [e]; simp [T1])) _ _]
  isplitl [Hi Hx Ho]
  · unfold W4
    rw [Function.update_of_ne (show (Proc.devRef .tc main_v14 : DevRef τ sig) ≠ Proc.devRef .tc main_v15 by decide),
      Function.update_of_ne (show (Proc.devRef .tc main_v2 : DevRef τ sig) ≠ Proc.devRef .tc main_v15 by decide), Function.update_self]
    isplitl [Hi]; · iexact Hi
    isplitl [Hx]; · iexact Hx
    iexact Ho
  iexact Hrest

end GatherRun

end Cert.Kernel.Hand

end
-- ==== Proof.Bits.Main.lean ====
/-
  @main on the TensorCore inside the SparseCore launch: the host stretches by the straight-line rule over the held
  unscoped buffers, the two TensorCore calls by the pipeline rule's region step (entered through the lifting of the
  pipelines' programs into the launch's body table), the gather by the launch's call rule.
-/
import proofs.«206902_g37847251812778_fold_wed_m_929_15_alg».proof.Proof.Bits.GatherRun

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx Pay)
open Idealize.ShloMosaic.StableHlo (held)

variable {F : FTy → Type} [FloatOps F]

local notation "𝕄" => MT nD τ sig (HIx 1) (Elt F) ℕ UU ℕ

section Main

variable (o5 : Vec F S20x512x128 .f32 → Vec F S512x20 .i32 → Vec F S64x256 .f32 → Vec F S64x256 .f32 → Vec F S1x256 .f32 → Vec F S20x512x64 .f32)
  (o6 o7 : Vec F S20x512x128 .f32 → Vec F S512x20 .i32 → Vec F S64x256 .f32 → Vec F S64x256 .f32 → Vec F S1x256 .f32 → Vec F S512x64 .f32)
variable (m : (ℓ : Loc nD τ sig) → Buf (Elt F) ℓ) (ρ : Dev nD → PrngReg)

/-- The two pipelines' launch ghost state on device `d`: their staging cells' and duty tokens. -/
def G0 (d : Dev nD) : sProp 𝕄 :=
  iprop(Pipeline.cellsGhost (Pipeline.pin (pcfgs (F := F)) adm) EP 0 d ∗ Pipeline.toksInit (Pipeline.pin (pcfgs (F := F)) adm) EP 0 d
    ∗ Pipeline.cellsGhost (Pipeline.pin (pcfgs (F := F)) adm) EP 1 d ∗ Pipeline.toksInit (Pipeline.pin (pcfgs (F := F)) adm) EP 1 d)

/-- What @main leaves: every unscoped buffer at the last boundary's contents, the gathered array having held the
    gather's specified result. -/
def FIN (d : Dev nD) : sProp 𝕄 :=
  StableHlo.held (d : Thread nD τ) (Pipeline.ucRefs τ sig) (W7 o5 o6 o7 m (gspec m) d)

section Proj
variable (fo : (c : Dev nD) → Buf (Elt F) ((c : Thread nD τ).loc main_v15))

theorem reg0_pre (c : Dev nD) : (reg0 o5 o6 o7 m fo).pre c
    = iprop(StableHlo.held (c : Thread nD τ) (Pipeline.ucRefs τ sig) (W1 m c) ∗ Rr (F := F) (O0 (F := F) c) (B0 (F := F) c) c) := rfl
theorem reg0_post (c : Dev nD) : (reg0 o5 o6 o7 m fo).post c
    = iprop(StableHlo.held (c : Thread nD τ) (Pipeline.ucRefs τ sig) (W2 m c) ∗ Rr (F := F) (O0 (F := F) c) (B0 (F := F) c) c) := rfl
theorem reg2_pre (hs : Sound2 o5 o6 o7) (c : Dev nD) : (reg2 o5 o6 o7 m fo hs).pre c
    = iprop(StableHlo.held (c : Thread nD τ) (Pipeline.ucRefs τ sig) (W5 m fo c) ∗ Rr (F := F) 0 (B1 (F := F) c) c) := rfl
theorem reg2_post (hs : Sound2 o5 o6 o7) (c : Dev nD) : (reg2 o5 o6 o7 m fo hs).post c
    = iprop(StableHlo.held (c : Thread nD τ) (Pipeline.ucRefs τ sig) (W6 o5 o6 o7 m fo c) ∗ Rr (F := F) 0 (B1 (F := F) c) c) := rfl
end Proj

/-- @main on the TensorCore of `d`: from the launch's context, its handshake state before the one SparseCore call, what
    the launch deals it and the pipelines' ghost state, it runs to its end with the handshake state after the call and
    every unscoped buffer at the last boundary's contents. -/
theorem hmain (hs : Sound2 o5 o6 o7) (hidx : IdxSplit (F := F)) (hos : OutSplit (F := F)) (hoj : OutJoin (F := F))
    (κ : GSem nD τ sig → ℕ) (d : Dev nD) :
    iprop((K (F := F)).ctx EH (PP m) κ ∗ (K (F := F)).tcSt EH d 0 ∗ (K (F := F)).tcRes m ρ d ∗ G0 (F := F) d)
      ⊢ wp frame (wpE ((K (F := F)).defs (D (F := F))) 𝒱 (SparseCore.T d) none) Set.univ (main d)
          fun _ => iprop((K (F := F)).tcSt EH d 1 ∗ FIN o5 o6 o7 m d) := by
  rw [main_eq]
  unfold SparseCore.Cfg.tcRes G0
  rw [show (unscopedBufs d (fun b => m ((SparseCore.T d).loc b)) : sProp 𝕄)
      = StableHlo.held (d : Thread nD τ) (Pipeline.ucRefs τ sig) (W0 m d) from Pipeline.unscopedBufs_held d (W0 m d)]
  unfold SparseCore.Cfg.tcSt
  iintro ⟨#Hctx, ⟨⟨%W0', %hW0, HO⟩, Hst2⟩, ⟨Hb, Hheld, Hsems, Hprng⟩, ⟨Hg0, Ht0, Hg1, Ht1⟩⟩
  ihave #Hlev := ((K (F := F)).ctx_levAts (EH := EH) (P := PP m) κ) $$ Hctx
  iapply (StableHlo.wp_seq 𝒱 none Set.univ d (Pipeline.ucRefs τ sig) _ opsA
      (fun op h => Pipeline.sub_ucRefs op ((List.forall_iff_forall_mem.mp opsA_sub) op h))
      (fun op h => (List.forall_iff_forall_mem.mp opsA_fresh) op h) (W0 m d)) $$ [Hb Hheld]
  · isplitl [Hb]; · iexact Hb
    iexact Hheld
  iintro ⟨Hb, Hheld⟩
  -- the transposing call
  rw [wp_bind]
  iapply ((K (F := F)).wp_liftProg (D (F := F)) 𝒱 (SparseCore.T d) Set.univ none (Prog.lift (.customCall (Pipeline.entry (0 : Fin 2)) ())) _)
  iapply (Pipeline.RegionSeg.wp (pcfgs (F := F)) adm (pdats o5 o6 o7 m (fun c => m ((c : Thread nD τ).loc main_v15))) (none : HIx 1) cellOf_inj EP defs₀ 𝒱₀
      (LL (F := F)) (lvv (F := F)) (reg0 o5 o6 o7 m (fun c => m ((c : Thread nD τ).loc main_v15))) d none (fun u hu => nomatch hu) (fun x => .ret x) _) $$ [Hb Hheld Hprng HO Hg0 Ht0 Hst2 Hsems Hg1 Ht1]
  isplitr [Hb Hheld Hprng HO Hg0 Ht0]
  rotate_left
  · isplitl [Hb]; · iexact Hb
    isplitl [Hheld Hprng HO]
    · rw [reg0_pre]
      isplitl [Hheld]; · iexact Hheld
      isplitl [Hprng]; · iexists _; iexact Hprng
      iexists W0'; isplitr
      · ipureintro; exact fun p hp => hW0 p (Finset.mem_coe.mp hp)
      · iexact HO
    isplitr; · iexact Hlev
    isplitl [Hg0]; · iexact Hg0
    iexact Ht0
  rw [reg0_post]
  iintro ⟨Hb, ⟨Hheld, ⟨%r1, Hprng⟩, %W1', %hW1, HO⟩⟩
  rw [wp_ret]; imodintro
  -- the second host stretch
  iapply (StableHlo.wp_seq 𝒱 none Set.univ d (Pipeline.ucRefs τ sig) _ opsB
      (fun op h => Pipeline.sub_ucRefs op ((List.forall_iff_forall_mem.mp opsB_sub) op h))
      (fun op h => (List.forall_iff_forall_mem.mp opsB_fresh) op h) (W2 m d)) $$ [Hb Hheld]
  · isplitl [Hb]; · iexact Hb
    iexact Hheld
  iintro ⟨Hb, Hheld⟩
  -- the gather
  rw [wp_bind]
  iapply (run_gather m hidx hos hoj κ d _) $$ [Hst2 HO Hheld Hb Hsems Hg1 Ht1 Hprng]
  isplitr; · iexact Hctx
  isplitl [Hst2 HO]
  · unfold SparseCore.Cfg.tcSt
    isplitl [HO]
    · iexists W1'; isplitr
      · ipureintro; exact fun p hp => hW1 (Finset.mem_coe.mpr hp)
      · iexact HO
    iexact Hst2
  isplitl [Hheld]; · iexact Hheld
  iintro ⟨Hst, Hheld⟩
  -- the third host stretch
  iapply (StableHlo.wp_seq 𝒱 none Set.univ d (Pipeline.ucRefs τ sig) _ opsC
      (fun op h => Pipeline.sub_ucRefs op ((List.forall_iff_forall_mem.mp opsC_sub) op h))
      (fun op h => (List.forall_iff_forall_mem.mp opsC_fresh) op h) (W4 m (gspec m) d)) $$ [Hb Hheld]
  · isplitl [Hb]; · iexact Hb
    iexact Hheld
  iintro ⟨Hb, Hheld⟩
  -- the LSTM call
  unfold SparseCore.Cfg.tcSt
  icases Hst with ⟨⟨%W2', %hW2, HO⟩, Hst2⟩
  rw [wp_bind]
  iapply ((K (F := F)).wp_liftProg (D (F := F)) 𝒱 (SparseCore.T d) Set.univ none (Prog.lift (.customCall (Pipeline.entry (1 : Fin 2)) ())) _)
  iapply (Pipeline.RegionSeg.wp (pcfgs (F := F)) adm (pdats o5 o6 o7 m (gspec m)) (none : HIx 1) cellOf_inj EP defs₀ 𝒱₀
      (LL (F := F)) (lvv (F := F)) (reg2 o5 o6 o7 m (gspec m) hs) d none (fun u hu => nomatch hu) (fun x => .ret x) _) $$ [Hb Hheld Hprng HO Hg1 Ht1 Hst2 Hsems]
  isplitr [Hb Hheld Hprng HO Hg1 Ht1]
  rotate_left
  · isplitl [Hb]; · iexact Hb
    isplitl [Hheld Hprng HO]
    · rw [reg2_pre]
      isplitl [Hheld]; · iexact Hheld
      isplitl [Hprng]; · iexists _; iexact Hprng
      iexists W2'; isplitr
      · ipureintro; exact fun p hp => hW2 p (Finset.mem_coe.mp hp)
      · have hO1 : (K (F := F)).Otc d 1 = 0 := by
          unfold SparseCore.Cfg.Otc; simp
        rw [hO1]; iexact HO
    isplitr; · iexact Hlev
    isplitl [Hg1]; · iexact Hg1
    iexact Ht1
  rw [reg2_post]
  iintro ⟨Hb, ⟨Hheld, ⟨%r2, Hprng⟩, %W3', %hW3, HO⟩⟩
  rw [wp_ret]; imodintro
  -- the last host stretch
  iapply (StableHlo.wp_seq 𝒱 none Set.univ d (Pipeline.ucRefs τ sig) _ opsE
      (fun op h => Pipeline.sub_ucRefs op ((List.forall_iff_forall_mem.mp opsE_sub) op h))
      (fun op h => (List.forall_iff_forall_mem.mp opsE_fresh) op h) (W6 o5 o6 o7 m (gspec m) d)) $$ [Hb Hheld]
  · isplitl [Hb]; · iexact Hb
    iexact Hheld
  iintro ⟨Hb, Hheld⟩
  -- the return
  rw [wp_pure]
  imodintro
  isplitl [HO Hst2]
  · isplitl [HO]
    · iexists W3'; isplitr
      · ipureintro; exact fun p hp => hW3 (Finset.mem_coe.mpr hp)
      · have hO1 : (K (F := F)).Otc d 1 = 0 := by
          unfold SparseCore.Cfg.Otc; simp
        rw [hO1]; iexact HO
    iexact Hst2
  unfold FIN
  iexact Hheld

end Main

end Cert.Kernel.Hand

end
-- ==== Proof.Bits.LstmBody.lean ====
/-
  The LSTM body of the kernel program at one grid point, as a triple over its eight staging buffers.

  The body reads the input weights W (64×256), the recurrent weights U (64×256) and the bias row b (1×256), starts from
  h = c = 0 (512×64), and runs twenty unrolled steps: at step t it reads slab t of the packed rows (512×128) and
  column t of the selector words (512×1), takes per row the upper or the lower half of the slab row according to
  whether the selector word is at least 524288, forms z = xt·W + h·U + b, splits z into the four gates, updates
  c = f*c + i*g and h = o*tanh c, and stores h into slab t of the hidden-state output. At the end it stores h and c
  whole into the two state outputs. So the five input buffers are only read, the twenty slab stores tile the
  hidden-state output, and each state output gets one whole store.

  This module names the values the body threads from step to step (`Lstm.vN`), states what each output buffer holds
  after the body as a function of the five input blocks (`out2_5`, `out2_6`, `out2_7`: the canonical contents of the
  stores' pieces), and proves the body's triple (`sound_kernel2`) by running the skeleton of memory operations.
-/
import proofs.«206902_g37847251812778_fold_wed_m_929_15_alg».proof.Proof.Bits.Common
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

namespace Lstm

/-! ## The body's accesses -/

/-- The whole of a weight matrix, of the bias row, and of a state block. -/
abbrev rW : Rect S64x256 := Rect.unit (s := S64x256) ![0, 0] S64x256.size inb_S64x256_S64x256_0_0
abbrev rB : Rect S1x256 := Rect.unit (s := S1x256) ![0, 0] S1x256.size inb_S1x256_S1x256_0_0
abbrev rH : Rect S512x64 := Rect.unit (s := S512x64) ![0, 0] S512x64.size inb_S512x64_S512x64_0_0
/-- Step `t`'s slab of the packed rows, its column of the selector words, and its slab of the hidden-state output. -/
abbrev rX0 : Rect S20x512x128 := Rect.unit (s := S20x512x128) ![0, 0, 0] S1x512x128.size inb_S20x512x128_S1x512x128_0_0_0
abbrev rX1 : Rect S20x512x128 := Rect.unit (s := S20x512x128) ![1, 0, 0] S1x512x128.size inb_S20x512x128_S1x512x128_1_0_0
abbrev rX2 : Rect S20x512x128 := Rect.unit (s := S20x512x128) ![2, 0, 0] S1x512x128.size inb_S20x512x128_S1x512x128_2_0_0
abbrev rX3 : Rect S20x512x128 := Rect.unit (s := S20x512x128) ![3, 0, 0] S1x512x128.size inb_S20x512x128_S1x512x128_3_0_0
abbrev rX4 : Rect S20x512x128 := Rect.unit (s := S20x512x128) ![4, 0, 0] S1x512x128.size inb_S20x512x128_S1x512x128_4_0_0
abbrev rX5 : Rect S20x512x128 := Rect.unit (s := S20x512x128) ![5, 0, 0] S1x512x128.size inb_S20x512x128_S1x512x128_5_0_0
abbrev rX6 : Rect S20x512x128 := Rect.unit (s := S20x512x128) ![6, 0, 0] S1x512x128.size inb_S20x512x128_S1x512x128_6_0_0
abbrev rX7 : Rect S20x512x128 := Rect.unit (s := S20x512x128) ![7, 0, 0] S1x512x128.size inb_S20x512x128_S1x512x128_7_0_0
abbrev rX8 : Rect S20x512x128 := Rect.unit (s := S20x512x128) ![8, 0, 0] S1x512x128.size inb_S20x512x128_S1x512x128_8_0_0
abbrev rX9 : Rect S20x512x128 := Rect.unit (s := S20x512x128) ![9, 0, 0] S1x512x128.size inb_S20x512x128_S1x512x128_9_0_0
abbrev rX10 : Rect S20x512x128 := Rect.unit (s := S20x512x128) ![10, 0, 0] S1x512x128.size inb_S20x512x128_S1x512x128_10_0_0
abbrev rX11 : Rect S20x512x128 := Rect.unit (s := S20x512x128) ![11, 0, 0] S1x512x128.size inb_S20x512x128_S1x512x128_11_0_0
abbrev rX12 : Rect S20x512x128 := Rect.unit (s := S20x512x128) ![12, 0, 0] S1x512x128.size inb_S20x512x128_S1x512x128_12_0_0
abbrev rX13 : Rect S20x512x128 := Rect.unit (s := S20x512x128) ![13, 0, 0] S1x512x128.size inb_S20x512x128_S1x512x128_13_0_0
abbrev rX14 : Rect S20x512x128 := Rect.unit (s := S20x512x128) ![14, 0, 0] S1x512x128.size inb_S20x512x128_S1x512x128_14_0_0
abbrev rX15 : Rect S20x512x128 := Rect.unit (s := S20x512x128) ![15, 0, 0] S1x512x128.size inb_S20x512x128_S1x512x128_15_0_0
abbrev rX16 : Rect S20x512x128 := Rect.unit (s := S20x512x128) ![16, 0, 0] S1x512x128.size inb_S20x512x128_S1x512x128_16_0_0
abbrev rX17 : Rect S20x512x128 := Rect.unit (s := S20x512x128) ![17, 0, 0] S1x512x128.size inb_S20x512x128_S1x512x128_17_0_0
abbrev rX18 : Rect S20x512x128 := Rect.unit (s := S20x512x128) ![18, 0, 0] S1x512x128.size inb_S20x512x128_S1x512x128_18_0_0
abbrev rX19 : Rect S20x512x128 := Rect.unit (s := S20x512x128) ![19, 0, 0] S1x512x128.size inb_S20x512x128_S1x512x128_19_0_0
abbrev rP0 : Rect S512x20 := Rect.unit (s := S512x20) ![0, 0] S512x1.size inb_S512x20_S512x1_0_0
abbrev rP1 : Rect S512x20 := Rect.unit (s := S512x20) ![0, 1] S512x1.size inb_S512x20_S512x1_0_1
abbrev rP2 : Rect S512x20 := Rect.unit (s := S512x20) ![0, 2] S512x1.size inb_S512x20_S512x1_0_2
abbrev rP3 : Rect S512x20 := Rect.unit (s := S512x20) ![0, 3] S512x1.size inb_S512x20_S512x1_0_3
abbrev rP4 : Rect S512x20 := Rect.unit (s := S512x20) ![0, 4] S512x1.size inb_S512x20_S512x1_0_4
abbrev rP5 : Rect S512x20 := Rect.unit (s := S512x20) ![0, 5] S512x1.size inb_S512x20_S512x1_0_5
abbrev rP6 : Rect S512x20 := Rect.unit (s := S512x20) ![0, 6] S512x1.size inb_S512x20_S512x1_0_6
abbrev rP7 : Rect S512x20 := Rect.unit (s := S512x20) ![0, 7] S512x1.size inb_S512x20_S512x1_0_7
abbrev rP8 : Rect S512x20 := Rect.unit (s := S512x20) ![0, 8] S512x1.size inb_S512x20_S512x1_0_8
abbrev rP9 : Rect S512x20 := Rect.unit (s := S512x20) ![0, 9] S512x1.size inb_S512x20_S512x1_0_9
abbrev rP10 : Rect S512x20 := Rect.unit (s := S512x20) ![0, 10] S512x1.size inb_S512x20_S512x1_0_10
abbrev rP11 : Rect S512x20 := Rect.unit (s := S512x20) ![0, 11] S512x1.size inb_S512x20_S512x1_0_11
abbrev rP12 : Rect S512x20 := Rect.unit (s := S512x20) ![0, 12] S512x1.size inb_S512x20_S512x1_0_12
abbrev rP13 : Rect S512x20 := Rect.unit (s := S512x20) ![0, 13] S512x1.size inb_S512x20_S512x1_0_13
abbrev rP14 : Rect S512x20 := Rect.unit (s := S512x20) ![0, 14] S512x1.size inb_S512x20_S512x1_0_14
abbrev rP15 : Rect S512x20 := Rect.unit (s := S512x20) ![0, 15] S512x1.size inb_S512x20_S512x1_0_15
abbrev rP16 : Rect S512x20 := Rect.unit (s := S512x20) ![0, 16] S512x1.size inb_S512x20_S512x1_0_16
abbrev rP17 : Rect S512x20 := Rect.unit (s := S512x20) ![0, 17] S512x1.size inb_S512x20_S512x1_0_17
abbrev rP18 : Rect S512x20 := Rect.unit (s := S512x20) ![0, 18] S512x1.size inb_S512x20_S512x1_0_18
abbrev rP19 : Rect S512x20 := Rect.unit (s := S512x20) ![0, 19] S512x1.size inb_S512x20_S512x1_0_19
abbrev rO0 : Rect S20x512x64 := Rect.unit (s := S20x512x64) ![0, 0, 0] S1x512x64.size inb_S20x512x64_S1x512x64_0_0_0
abbrev rO1 : Rect S20x512x64 := Rect.unit (s := S20x512x64) ![1, 0, 0] S1x512x64.size inb_S20x512x64_S1x512x64_1_0_0
abbrev rO2 : Rect S20x512x64 := Rect.unit (s := S20x512x64) ![2, 0, 0] S1x512x64.size inb_S20x512x64_S1x512x64_2_0_0
abbrev rO3 : Rect S20x512x64 := Rect.unit (s := S20x512x64) ![3, 0, 0] S1x512x64.size inb_S20x512x64_S1x512x64_3_0_0
abbrev rO4 : Rect S20x512x64 := Rect.unit (s := S20x512x64) ![4, 0, 0] S1x512x64.size inb_S20x512x64_S1x512x64_4_0_0
abbrev rO5 : Rect S20x512x64 := Rect.unit (s := S20x512x64) ![5, 0, 0] S1x512x64.size inb_S20x512x64_S1x512x64_5_0_0
abbrev rO6 : Rect S20x512x64 := Rect.unit (s := S20x512x64) ![6, 0, 0] S1x512x64.size inb_S20x512x64_S1x512x64_6_0_0
abbrev rO7 : Rect S20x512x64 := Rect.unit (s := S20x512x64) ![7, 0, 0] S1x512x64.size inb_S20x512x64_S1x512x64_7_0_0
abbrev rO8 : Rect S20x512x64 := Rect.unit (s := S20x512x64) ![8, 0, 0] S1x512x64.size inb_S20x512x64_S1x512x64_8_0_0
abbrev rO9 : Rect S20x512x64 := Rect.unit (s := S20x512x64) ![9, 0, 0] S1x512x64.size inb_S20x512x64_S1x512x64_9_0_0
abbrev rO10 : Rect S20x512x64 := Rect.unit (s := S20x512x64) ![10, 0, 0] S1x512x64.size inb_S20x512x64_S1x512x64_10_0_0
abbrev rO11 : Rect S20x512x64 := Rect.unit (s := S20x512x64) ![11, 0, 0] S1x512x64.size inb_S20x512x64_S1x512x64_11_0_0
abbrev rO12 : Rect S20x512x64 := Rect.unit (s := S20x512x64) ![12, 0, 0] S1x512x64.size inb_S20x512x64_S1x512x64_12_0_0
abbrev rO13 : Rect S20x512x64 := Rect.unit (s := S20x512x64) ![13, 0, 0] S1x512x64.size inb_S20x512x64_S1x512x64_13_0_0
abbrev rO14 : Rect S20x512x64 := Rect.unit (s := S20x512x64) ![14, 0, 0] S1x512x64.size inb_S20x512x64_S1x512x64_14_0_0
abbrev rO15 : Rect S20x512x64 := Rect.unit (s := S20x512x64) ![15, 0, 0] S1x512x64.size inb_S20x512x64_S1x512x64_15_0_0
abbrev rO16 : Rect S20x512x64 := Rect.unit (s := S20x512x64) ![16, 0, 0] S1x512x64.size inb_S20x512x64_S1x512x64_16_0_0
abbrev rO17 : Rect S20x512x64 := Rect.unit (s := S20x512x64) ![17, 0, 0] S1x512x64.size inb_S20x512x64_S1x512x64_17_0_0
abbrev rO18 : Rect S20x512x64 := Rect.unit (s := S20x512x64) ![18, 0, 0] S1x512x64.size inb_S20x512x64_S1x512x64_18_0_0
abbrev rO19 : Rect S20x512x64 := Rect.unit (s := S20x512x64) ![19, 0, 0] S1x512x64.size inb_S20x512x64_S1x512x64_19_0_0

/-! ## The values the body threads from step to step

The body is twenty unrolled steps of one recurrence, printed as fourteen consecutive windows of statements; a window
hands the next the values still live at the cut. `vN` below is the value of `%N` of the printed body as a function of
the five input blocks: the payload the skeleton names for it, at the earlier values and at what the body loads of the
inputs (the whole of `x2`, `x3`, `x4`; slab `t` of `x0` and column `t` of `x1` at step `t`). -/

/-- `%0`: the input weights, as loaded. -/
def v0 (x0 : Vec F S20x512x128 .f32) (x1 : Vec F S512x20 .i32) (x2 : Vec F S64x256 .f32) (x3 : Vec F S64x256 .f32) (x4 : Vec F S1x256 .f32) : Vec F S64x256 .f32 := View.ld x2 rW
/-- `%1`: the recurrent weights, as loaded. -/
def v1 (x0 : Vec F S20x512x128 .f32) (x1 : Vec F S512x20 .i32) (x2 : Vec F S64x256 .f32) (x3 : Vec F S64x256 .f32) (x4 : Vec F S1x256 .f32) : Vec F S64x256 .f32 := View.ld x3 rW
def v3 (x0 : Vec F S20x512x128 .f32) (x1 : Vec F S512x20 .i32) (x2 : Vec F S64x256 .f32) (x3 : Vec F S64x256 .f32) (x4 : Vec F S1x256 .f32) : FVec F S1x256 .f32 :=
  k2_pay5 (View.ld x4 rB)
def v31 (x0 : Vec F S20x512x128 .f32) (x1 : Vec F S512x20 .i32) (x2 : Vec F S64x256 .f32) (x3 : Vec F S64x256 .f32) (x4 : Vec F S1x256 .f32) : FVec F S512x64 .f32 :=
  k2_pay7 (View.ld x2 rW) (View.ld x3 rW) (View.ld x4 rB) (View.ld x0 rX0) (View.ld x1 rP0)
def v33 (x0 : Vec F S20x512x128 .f32) (x1 : Vec F S512x20 .i32) (x2 : Vec F S64x256 .f32) (x3 : Vec F S64x256 .f32) (x4 : Vec F S1x256 .f32) : FVec F S512x64 .f32 :=
  k2_pay8 (View.ld x2 rW) (View.ld x3 rW) (View.ld x4 rB) (View.ld x0 rX0) (View.ld x1 rP0)
def v62 (x0 : Vec F S20x512x128 .f32) (x1 : Vec F S512x20 .i32) (x2 : Vec F S64x256 .f32) (x3 : Vec F S64x256 .f32) (x4 : Vec F S1x256 .f32) : FVec F S512x64 .f32 :=
  k2_pay11 (v0 x0 x1 x2 x3 x4) (v1 x0 x1 x2 x3 x4) (v3 x0 x1 x2 x3 x4) (v31 x0 x1 x2 x3 x4) (v33 x0 x1 x2 x3 x4) (View.ld x0 rX1) (View.ld x1 rP1)
def v64 (x0 : Vec F S20x512x128 .f32) (x1 : Vec F S512x20 .i32) (x2 : Vec F S64x256 .f32) (x3 : Vec F S64x256 .f32) (x4 : Vec F S1x256 .f32) : FVec F S512x64 .f32 :=
  k2_pay12 (v0 x0 x1 x2 x3 x4) (v1 x0 x1 x2 x3 x4) (v3 x0 x1 x2 x3 x4) (v31 x0 x1 x2 x3 x4) (v33 x0 x1 x2 x3 x4) (View.ld x0 rX1) (View.ld x1 rP1)
def v78 (x0 : Vec F S20x512x128 .f32) (x1 : Vec F S512x20 .i32) (x2 : Vec F S64x256 .f32) (x3 : Vec F S64x256 .f32) (x4 : Vec F S1x256 .f32) : FVec F S512x256 .f32 :=
  k2_pay14 (v0 x0 x1 x2 x3 x4) (View.ld x0 rX2) (View.ld x1 rP2)
def v124 (x0 : Vec F S20x512x128 .f32) (x1 : Vec F S512x20 .i32) (x2 : Vec F S64x256 .f32) (x3 : Vec F S64x256 .f32) (x4 : Vec F S1x256 .f32) : FVec F S512x64 .f32 :=
  k2_pay20 (v0 x0 x1 x2 x3 x4) (v1 x0 x1 x2 x3 x4) (v3 x0 x1 x2 x3 x4) (v62 x0 x1 x2 x3 x4) (v64 x0 x1 x2 x3 x4) (v78 x0 x1 x2 x3 x4) (constant S512x256 .f32 0x00000000#32) (View.ld x0 rX3) (View.ld x1 rP3)
def v126 (x0 : Vec F S20x512x128 .f32) (x1 : Vec F S512x20 .i32) (x2 : Vec F S64x256 .f32) (x3 : Vec F S64x256 .f32) (x4 : Vec F S1x256 .f32) : FVec F S512x64 .f32 :=
  k2_pay21 (v0 x0 x1 x2 x3 x4) (v1 x0 x1 x2 x3 x4) (v3 x0 x1 x2 x3 x4) (v62 x0 x1 x2 x3 x4) (v64 x0 x1 x2 x3 x4) (v78 x0 x1 x2 x3 x4) (constant S512x256 .f32 0x00000000#32) (View.ld x0 rX3) (View.ld x1 rP3)
def v155 (x0 : Vec F S20x512x128 .f32) (x1 : Vec F S512x20 .i32) (x2 : Vec F S64x256 .f32) (x3 : Vec F S64x256 .f32) (x4 : Vec F S1x256 .f32) : FVec F S512x64 .f32 :=
  k2_pay24 (v0 x0 x1 x2 x3 x4) (v1 x0 x1 x2 x3 x4) (v3 x0 x1 x2 x3 x4) (v124 x0 x1 x2 x3 x4) (v126 x0 x1 x2 x3 x4) (View.ld x0 rX4) (View.ld x1 rP4)
def v157 (x0 : Vec F S20x512x128 .f32) (x1 : Vec F S512x20 .i32) (x2 : Vec F S64x256 .f32) (x3 : Vec F S64x256 .f32) (x4 : Vec F S1x256 .f32) : FVec F S512x64 .f32 :=
  k2_pay25 (v0 x0 x1 x2 x3 x4) (v1 x0 x1 x2 x3 x4) (v3 x0 x1 x2 x3 x4) (v124 x0 x1 x2 x3 x4) (v126 x0 x1 x2 x3 x4) (View.ld x0 rX4) (View.ld x1 rP4)
def v162 (x0 : Vec F S20x512x128 .f32) (x1 : Vec F S512x20 .i32) (x2 : Vec F S64x256 .f32) (x3 : Vec F S64x256 .f32) (x4 : Vec F S1x256 .f32) : FVec F S512x128 .f32 :=
  k2_pay27 (View.ld x0 rX5)
/-- `%163`: step 5's selector words, as loaded. -/
def v163 (x0 : Vec F S20x512x128 .f32) (x1 : Vec F S512x20 .i32) (x2 : Vec F S64x256 .f32) (x3 : Vec F S64x256 .f32) (x4 : Vec F S1x256 .f32) : Vec F S512x1 .i32 := View.ld x1 rP5
def v186 (x0 : Vec F S20x512x128 .f32) (x1 : Vec F S512x20 .i32) (x2 : Vec F S64x256 .f32) (x3 : Vec F S64x256 .f32) (x4 : Vec F S1x256 .f32) : FVec F S512x64 .f32 :=
  k2_pay30 (v0 x0 x1 x2 x3 x4) (v1 x0 x1 x2 x3 x4) (v3 x0 x1 x2 x3 x4) (v155 x0 x1 x2 x3 x4) (v157 x0 x1 x2 x3 x4) (v162 x0 x1 x2 x3 x4) (v163 x0 x1 x2 x3 x4) k2_pay28
def v206 (x0 : Vec F S20x512x128 .f32) (x1 : Vec F S512x20 .i32) (x2 : Vec F S64x256 .f32) (x3 : Vec F S64x256 .f32) (x4 : Vec F S1x256 .f32) : FVec F S512x256 .f32 :=
  k2_pay33 (v0 x0 x1 x2 x3 x4) (v1 x0 x1 x2 x3 x4) (v3 x0 x1 x2 x3 x4) (v155 x0 x1 x2 x3 x4) (v157 x0 x1 x2 x3 x4) (v162 x0 x1 x2 x3 x4) (v163 x0 x1 x2 x3 x4) k2_pay28 (View.ld x0 rX6) (View.ld x1 rP6)
def v208 (x0 : Vec F S20x512x128 .f32) (x1 : Vec F S512x20 .i32) (x2 : Vec F S64x256 .f32) (x3 : Vec F S64x256 .f32) (x4 : Vec F S1x256 .f32) : FVec F S512x64 .f32 :=
  k2_pay34 (v0 x0 x1 x2 x3 x4) (v1 x0 x1 x2 x3 x4) (v3 x0 x1 x2 x3 x4) (v155 x0 x1 x2 x3 x4) (v157 x0 x1 x2 x3 x4) (v162 x0 x1 x2 x3 x4) (v163 x0 x1 x2 x3 x4) k2_pay28 (View.ld x0 rX6) (View.ld x1 rP6)
def v210 (x0 : Vec F S20x512x128 .f32) (x1 : Vec F S512x20 .i32) (x2 : Vec F S64x256 .f32) (x3 : Vec F S64x256 .f32) (x4 : Vec F S1x256 .f32) : FVec F S512x64 .f32 :=
  k2_pay35 (v0 x0 x1 x2 x3 x4) (v1 x0 x1 x2 x3 x4) (v3 x0 x1 x2 x3 x4) (v155 x0 x1 x2 x3 x4) (v157 x0 x1 x2 x3 x4) (v162 x0 x1 x2 x3 x4) (v163 x0 x1 x2 x3 x4) k2_pay28 (View.ld x0 rX6) (View.ld x1 rP6)
def v248 (x0 : Vec F S20x512x128 .f32) (x1 : Vec F S512x20 .i32) (x2 : Vec F S64x256 .f32) (x3 : Vec F S64x256 .f32) (x4 : Vec F S1x256 .f32) : FVec F S512x64 .f32 :=
  k2_pay40 (v0 x0 x1 x2 x3 x4) (v1 x0 x1 x2 x3 x4) (v3 x0 x1 x2 x3 x4) (v186 x0 x1 x2 x3 x4) (v206 x0 x1 x2 x3 x4) (v208 x0 x1 x2 x3 x4) (v210 x0 x1 x2 x3 x4) (View.ld x0 rX7) (View.ld x1 rP7)
def v250 (x0 : Vec F S20x512x128 .f32) (x1 : Vec F S512x20 .i32) (x2 : Vec F S64x256 .f32) (x3 : Vec F S64x256 .f32) (x4 : Vec F S1x256 .f32) : FVec F S512x64 .f32 :=
  k2_pay41 (v0 x0 x1 x2 x3 x4) (v1 x0 x1 x2 x3 x4) (v3 x0 x1 x2 x3 x4) (v186 x0 x1 x2 x3 x4) (v206 x0 x1 x2 x3 x4) (v208 x0 x1 x2 x3 x4) (v210 x0 x1 x2 x3 x4) (View.ld x0 rX7) (View.ld x1 rP7)
def v279 (x0 : Vec F S20x512x128 .f32) (x1 : Vec F S512x20 .i32) (x2 : Vec F S64x256 .f32) (x3 : Vec F S64x256 .f32) (x4 : Vec F S1x256 .f32) : FVec F S512x64 .f32 :=
  k2_pay44 (v0 x0 x1 x2 x3 x4) (v1 x0 x1 x2 x3 x4) (v3 x0 x1 x2 x3 x4) (v248 x0 x1 x2 x3 x4) (v250 x0 x1 x2 x3 x4) (View.ld x0 rX8) (View.ld x1 rP8)
def v281 (x0 : Vec F S20x512x128 .f32) (x1 : Vec F S512x20 .i32) (x2 : Vec F S64x256 .f32) (x3 : Vec F S64x256 .f32) (x4 : Vec F S1x256 .f32) : FVec F S512x64 .f32 :=
  k2_pay45 (v0 x0 x1 x2 x3 x4) (v1 x0 x1 x2 x3 x4) (v3 x0 x1 x2 x3 x4) (v248 x0 x1 x2 x3 x4) (v250 x0 x1 x2 x3 x4) (View.ld x0 rX8) (View.ld x1 rP8)
def v295 (x0 : Vec F S20x512x128 .f32) (x1 : Vec F S512x20 .i32) (x2 : Vec F S64x256 .f32) (x3 : Vec F S64x256 .f32) (x4 : Vec F S1x256 .f32) : FVec F S512x256 .f32 :=
  k2_pay47 (v0 x0 x1 x2 x3 x4) (View.ld x0 rX9) (View.ld x1 rP9)
def v338 (x0 : Vec F S20x512x128 .f32) (x1 : Vec F S512x20 .i32) (x2 : Vec F S64x256 .f32) (x3 : Vec F S64x256 .f32) (x4 : Vec F S1x256 .f32) : FVec F S512x64 .f32 :=
  k2_pay53 (v0 x0 x1 x2 x3 x4) (v1 x0 x1 x2 x3 x4) (v3 x0 x1 x2 x3 x4) (v279 x0 x1 x2 x3 x4) (v281 x0 x1 x2 x3 x4) (v295 x0 x1 x2 x3 x4) (View.ld x0 rX10) (View.ld x1 rP10)
def v341 (x0 : Vec F S20x512x128 .f32) (x1 : Vec F S512x20 .i32) (x2 : Vec F S64x256 .f32) (x3 : Vec F S64x256 .f32) (x4 : Vec F S1x256 .f32) : FVec F S512x64 .f32 :=
  k2_pay54 (v0 x0 x1 x2 x3 x4) (v1 x0 x1 x2 x3 x4) (v3 x0 x1 x2 x3 x4) (v279 x0 x1 x2 x3 x4) (v281 x0 x1 x2 x3 x4) (v295 x0 x1 x2 x3 x4) (View.ld x0 rX10) (View.ld x1 rP10)
def v342 (x0 : Vec F S20x512x128 .f32) (x1 : Vec F S512x20 .i32) (x2 : Vec F S64x256 .f32) (x3 : Vec F S64x256 .f32) (x4 : Vec F S1x256 .f32) : FVec F S512x64 .f32 :=
  k2_pay55 (v0 x0 x1 x2 x3 x4) (v1 x0 x1 x2 x3 x4) (v3 x0 x1 x2 x3 x4) (v279 x0 x1 x2 x3 x4) (v281 x0 x1 x2 x3 x4) (v295 x0 x1 x2 x3 x4) (View.ld x0 rX10) (View.ld x1 rP10)
def v372 (x0 : Vec F S20x512x128 .f32) (x1 : Vec F S512x20 .i32) (x2 : Vec F S64x256 .f32) (x3 : Vec F S64x256 .f32) (x4 : Vec F S1x256 .f32) : FVec F S512x64 .f32 :=
  k2_pay59 (v0 x0 x1 x2 x3 x4) (v1 x0 x1 x2 x3 x4) (v3 x0 x1 x2 x3 x4) (v338 x0 x1 x2 x3 x4) (v341 x0 x1 x2 x3 x4) (v342 x0 x1 x2 x3 x4) (View.ld x0 rX11) (View.ld x1 rP11)
def v374 (x0 : Vec F S20x512x128 .f32) (x1 : Vec F S512x20 .i32) (x2 : Vec F S64x256 .f32) (x3 : Vec F S64x256 .f32) (x4 : Vec F S1x256 .f32) : FVec F S512x64 .f32 :=
  k2_pay60 (v0 x0 x1 x2 x3 x4) (v1 x0 x1 x2 x3 x4) (v3 x0 x1 x2 x3 x4) (v338 x0 x1 x2 x3 x4) (v341 x0 x1 x2 x3 x4) (v342 x0 x1 x2 x3 x4) (View.ld x0 rX11) (View.ld x1 rP11)
def v379 (x0 : Vec F S20x512x128 .f32) (x1 : Vec F S512x20 .i32) (x2 : Vec F S64x256 .f32) (x3 : Vec F S64x256 .f32) (x4 : Vec F S1x256 .f32) : FVec F S512x128 .f32 :=
  k2_pay62 (View.ld x0 rX12)
/-- `%380`: step 12's selector words, as loaded. -/
def v380 (x0 : Vec F S20x512x128 .f32) (x1 : Vec F S512x20 .i32) (x2 : Vec F S64x256 .f32) (x3 : Vec F S64x256 .f32) (x4 : Vec F S1x256 .f32) : Vec F S512x1 .i32 := View.ld x1 rP12
def v403 (x0 : Vec F S20x512x128 .f32) (x1 : Vec F S512x20 .i32) (x2 : Vec F S64x256 .f32) (x3 : Vec F S64x256 .f32) (x4 : Vec F S1x256 .f32) : FVec F S512x64 .f32 :=
  k2_pay64 (v0 x0 x1 x2 x3 x4) (v1 x0 x1 x2 x3 x4) (v3 x0 x1 x2 x3 x4) (v372 x0 x1 x2 x3 x4) (v374 x0 x1 x2 x3 x4) (v379 x0 x1 x2 x3 x4) (v380 x0 x1 x2 x3 x4) 524288#32
def v423 (x0 : Vec F S20x512x128 .f32) (x1 : Vec F S512x20 .i32) (x2 : Vec F S64x256 .f32) (x3 : Vec F S64x256 .f32) (x4 : Vec F S1x256 .f32) : FVec F S512x256 .f32 :=
  k2_pay67 (v0 x0 x1 x2 x3 x4) (v1 x0 x1 x2 x3 x4) (v3 x0 x1 x2 x3 x4) (v372 x0 x1 x2 x3 x4) (v374 x0 x1 x2 x3 x4) (v379 x0 x1 x2 x3 x4) (v380 x0 x1 x2 x3 x4) 524288#32 (View.ld x0 rX13) (View.ld x1 rP13)
def v425 (x0 : Vec F S20x512x128 .f32) (x1 : Vec F S512x20 .i32) (x2 : Vec F S64x256 .f32) (x3 : Vec F S64x256 .f32) (x4 : Vec F S1x256 .f32) : FVec F S512x64 .f32 :=
  k2_pay68 (v0 x0 x1 x2 x3 x4) (v1 x0 x1 x2 x3 x4) (v3 x0 x1 x2 x3 x4) (v372 x0 x1 x2 x3 x4) (v374 x0 x1 x2 x3 x4) (v379 x0 x1 x2 x3 x4) (v380 x0 x1 x2 x3 x4) 524288#32 (View.ld x0 rX13) (View.ld x1 rP13)
def v426 (x0 : Vec F S20x512x128 .f32) (x1 : Vec F S512x20 .i32) (x2 : Vec F S64x256 .f32) (x3 : Vec F S64x256 .f32) (x4 : Vec F S1x256 .f32) : FVec F S512x64 .f32 :=
  k2_pay69 (v0 x0 x1 x2 x3 x4) (v1 x0 x1 x2 x3 x4) (v3 x0 x1 x2 x3 x4) (v372 x0 x1 x2 x3 x4) (v374 x0 x1 x2 x3 x4) (v379 x0 x1 x2 x3 x4) (v380 x0 x1 x2 x3 x4) 524288#32 (View.ld x0 rX13) (View.ld x1 rP13)
def v465 (x0 : Vec F S20x512x128 .f32) (x1 : Vec F S512x20 .i32) (x2 : Vec F S64x256 .f32) (x3 : Vec F S64x256 .f32) (x4 : Vec F S1x256 .f32) : FVec F S512x64 .f32 :=
  k2_pay74 (v0 x0 x1 x2 x3 x4) (v1 x0 x1 x2 x3 x4) (v3 x0 x1 x2 x3 x4) (v403 x0 x1 x2 x3 x4) (v423 x0 x1 x2 x3 x4) (v425 x0 x1 x2 x3 x4) (v426 x0 x1 x2 x3 x4) (View.ld x0 rX14) (View.ld x1 rP14)
def v467 (x0 : Vec F S20x512x128 .f32) (x1 : Vec F S512x20 .i32) (x2 : Vec F S64x256 .f32) (x3 : Vec F S64x256 .f32) (x4 : Vec F S1x256 .f32) : FVec F S512x64 .f32 :=
  k2_pay75 (v0 x0 x1 x2 x3 x4) (v1 x0 x1 x2 x3 x4) (v3 x0 x1 x2 x3 x4) (v403 x0 x1 x2 x3 x4) (v423 x0 x1 x2 x3 x4) (v425 x0 x1 x2 x3 x4) (v426 x0 x1 x2 x3 x4) (View.ld x0 rX14) (View.ld x1 rP14)
def v496 (x0 : Vec F S20x512x128 .f32) (x1 : Vec F S512x20 .i32) (x2 : Vec F S64x256 .f32) (x3 : Vec F S64x256 .f32) (x4 : Vec F S1x256 .f32) : FVec F S512x64 .f32 :=
  k2_pay78 (v0 x0 x1 x2 x3 x4) (v1 x0 x1 x2 x3 x4) (v3 x0 x1 x2 x3 x4) (v465 x0 x1 x2 x3 x4) (v467 x0 x1 x2 x3 x4) (View.ld x0 rX15) (View.ld x1 rP15)
def v498 (x0 : Vec F S20x512x128 .f32) (x1 : Vec F S512x20 .i32) (x2 : Vec F S64x256 .f32) (x3 : Vec F S64x256 .f32) (x4 : Vec F S1x256 .f32) : FVec F S512x64 .f32 :=
  k2_pay79 (v0 x0 x1 x2 x3 x4) (v1 x0 x1 x2 x3 x4) (v3 x0 x1 x2 x3 x4) (v465 x0 x1 x2 x3 x4) (v467 x0 x1 x2 x3 x4) (View.ld x0 rX15) (View.ld x1 rP15)
def v511 (x0 : Vec F S20x512x128 .f32) (x1 : Vec F S512x20 .i32) (x2 : Vec F S64x256 .f32) (x3 : Vec F S64x256 .f32) (x4 : Vec F S1x256 .f32) : FVec F S512x64 .f32 :=
  k2_pay81 (View.ld x0 rX16) (View.ld x1 rP16)
def v555 (x0 : Vec F S20x512x128 .f32) (x1 : Vec F S512x20 .i32) (x2 : Vec F S64x256 .f32) (x3 : Vec F S64x256 .f32) (x4 : Vec F S1x256 .f32) : FVec F S512x64 .f32 :=
  k2_pay87 (v0 x0 x1 x2 x3 x4) (v1 x0 x1 x2 x3 x4) (v3 x0 x1 x2 x3 x4) (v496 x0 x1 x2 x3 x4) (v498 x0 x1 x2 x3 x4) (v511 x0 x1 x2 x3 x4) (constant S512x256 .f32 0x00000000#32) (View.ld x0 rX17) (View.ld x1 rP17)
def v558 (x0 : Vec F S20x512x128 .f32) (x1 : Vec F S512x20 .i32) (x2 : Vec F S64x256 .f32) (x3 : Vec F S64x256 .f32) (x4 : Vec F S1x256 .f32) : FVec F S512x64 .f32 :=
  k2_pay88 (v0 x0 x1 x2 x3 x4) (v1 x0 x1 x2 x3 x4) (v3 x0 x1 x2 x3 x4) (v496 x0 x1 x2 x3 x4) (v498 x0 x1 x2 x3 x4) (v511 x0 x1 x2 x3 x4) (constant S512x256 .f32 0x00000000#32) (View.ld x0 rX17) (View.ld x1 rP17)
def v589 (x0 : Vec F S20x512x128 .f32) (x1 : Vec F S512x20 .i32) (x2 : Vec F S64x256 .f32) (x3 : Vec F S64x256 .f32) (x4 : Vec F S1x256 .f32) : FVec F S512x64 .f32 :=
  k2_pay92 (v0 x0 x1 x2 x3 x4) (v1 x0 x1 x2 x3 x4) (v3 x0 x1 x2 x3 x4) (v555 x0 x1 x2 x3 x4) (v558 x0 x1 x2 x3 x4) (View.ld x0 rX18) (View.ld x1 rP18)
def v591 (x0 : Vec F S20x512x128 .f32) (x1 : Vec F S512x20 .i32) (x2 : Vec F S64x256 .f32) (x3 : Vec F S64x256 .f32) (x4 : Vec F S1x256 .f32) : FVec F S512x64 .f32 :=
  k2_pay93 (v0 x0 x1 x2 x3 x4) (v1 x0 x1 x2 x3 x4) (v3 x0 x1 x2 x3 x4) (v555 x0 x1 x2 x3 x4) (v558 x0 x1 x2 x3 x4) (View.ld x0 rX18) (View.ld x1 rP18)
def v596 (x0 : Vec F S20x512x128 .f32) (x1 : Vec F S512x20 .i32) (x2 : Vec F S64x256 .f32) (x3 : Vec F S64x256 .f32) (x4 : Vec F S1x256 .f32) : FVec F S512x128 .f32 :=
  k2_pay95 (View.ld x0 rX19)
/-- `%597`: step 19's selector words, as loaded. -/
def v597 (x0 : Vec F S20x512x128 .f32) (x1 : Vec F S512x20 .i32) (x2 : Vec F S64x256 .f32) (x3 : Vec F S64x256 .f32) (x4 : Vec F S1x256 .f32) : Vec F S512x1 .i32 := View.ld x1 rP19

end Lstm

open Lstm

/-! ## What the body leaves in each output window's buffer -/

/-- The hidden-state output's buffer after the body, from the input blocks: its twenty slab stores as pieces, last
    first — slab `t` holds step `t`'s hidden state. -/
def out2_5 (x0 : Vec F S20x512x128 .f32) (x1 : Vec F S512x20 .i32) (x2 : Vec F S64x256 .f32) (x3 : Vec F S64x256 .f32) (x4 : Vec F S1x256 .f32) : Vec F S20x512x64 .f32 :=
  View.canon [
    ⟨rO19, k2_pay4 (v0 x0 x1 x2 x3 x4) (v1 x0 x1 x2 x3 x4) (v3 x0 x1 x2 x3 x4) (v589 x0 x1 x2 x3 x4) (v591 x0 x1 x2 x3 x4) (v596 x0 x1 x2 x3 x4) (v597 x0 x1 x2 x3 x4)⟩,
    ⟨rO18, k2_pay94 (v0 x0 x1 x2 x3 x4) (v1 x0 x1 x2 x3 x4) (v3 x0 x1 x2 x3 x4) (v555 x0 x1 x2 x3 x4) (v558 x0 x1 x2 x3 x4) (View.ld x0 rX18) (View.ld x1 rP18)⟩,
    ⟨rO17, k2_pay90 (v555 x0 x1 x2 x3 x4) (v558 x0 x1 x2 x3 x4)⟩,
    ⟨rO16, k2_pay85 (v0 x0 x1 x2 x3 x4) (v1 x0 x1 x2 x3 x4) (v3 x0 x1 x2 x3 x4) (v496 x0 x1 x2 x3 x4) (v498 x0 x1 x2 x3 x4) (v511 x0 x1 x2 x3 x4) (constant S512x256 .f32 0x00000000#32)⟩,
    ⟨rO15, k2_pay80 (v0 x0 x1 x2 x3 x4) (v1 x0 x1 x2 x3 x4) (v3 x0 x1 x2 x3 x4) (v465 x0 x1 x2 x3 x4) (v467 x0 x1 x2 x3 x4) (View.ld x0 rX15) (View.ld x1 rP15)⟩,
    ⟨rO14, k2_pay76 (v0 x0 x1 x2 x3 x4) (v1 x0 x1 x2 x3 x4) (v3 x0 x1 x2 x3 x4) (v403 x0 x1 x2 x3 x4) (v423 x0 x1 x2 x3 x4) (v425 x0 x1 x2 x3 x4) (v426 x0 x1 x2 x3 x4) (View.ld x0 rX14) (View.ld x1 rP14)⟩,
    ⟨rO13, k2_pay72 (v403 x0 x1 x2 x3 x4) (v423 x0 x1 x2 x3 x4) (v425 x0 x1 x2 x3 x4) (v426 x0 x1 x2 x3 x4)⟩,
    ⟨rO12, k2_pay66 (v0 x0 x1 x2 x3 x4) (v1 x0 x1 x2 x3 x4) (v3 x0 x1 x2 x3 x4) (v372 x0 x1 x2 x3 x4) (v374 x0 x1 x2 x3 x4) (v379 x0 x1 x2 x3 x4) (v380 x0 x1 x2 x3 x4) 524288#32⟩,
    ⟨rO11, k2_pay61 (v0 x0 x1 x2 x3 x4) (v1 x0 x1 x2 x3 x4) (v3 x0 x1 x2 x3 x4) (v338 x0 x1 x2 x3 x4) (v341 x0 x1 x2 x3 x4) (v342 x0 x1 x2 x3 x4) (View.ld x0 rX11) (View.ld x1 rP11)⟩,
    ⟨rO10, k2_pay57 (v338 x0 x1 x2 x3 x4) (v342 x0 x1 x2 x3 x4)⟩,
    ⟨rO9, k2_pay51 (v1 x0 x1 x2 x3 x4) (v3 x0 x1 x2 x3 x4) (v279 x0 x1 x2 x3 x4) (v281 x0 x1 x2 x3 x4) (v295 x0 x1 x2 x3 x4)⟩,
    ⟨rO8, k2_pay46 (v0 x0 x1 x2 x3 x4) (v1 x0 x1 x2 x3 x4) (v3 x0 x1 x2 x3 x4) (v248 x0 x1 x2 x3 x4) (v250 x0 x1 x2 x3 x4) (View.ld x0 rX8) (View.ld x1 rP8)⟩,
    ⟨rO7, k2_pay42 (v0 x0 x1 x2 x3 x4) (v1 x0 x1 x2 x3 x4) (v3 x0 x1 x2 x3 x4) (v186 x0 x1 x2 x3 x4) (v206 x0 x1 x2 x3 x4) (v208 x0 x1 x2 x3 x4) (v210 x0 x1 x2 x3 x4) (View.ld x0 rX7) (View.ld x1 rP7)⟩,
    ⟨rO6, k2_pay38 (v186 x0 x1 x2 x3 x4) (v206 x0 x1 x2 x3 x4) (v208 x0 x1 x2 x3 x4) (v210 x0 x1 x2 x3 x4)⟩,
    ⟨rO5, k2_pay32 (v0 x0 x1 x2 x3 x4) (v1 x0 x1 x2 x3 x4) (v3 x0 x1 x2 x3 x4) (v155 x0 x1 x2 x3 x4) (v157 x0 x1 x2 x3 x4) (v162 x0 x1 x2 x3 x4) (v163 x0 x1 x2 x3 x4) k2_pay28⟩,
    ⟨rO4, k2_pay26 (v0 x0 x1 x2 x3 x4) (v1 x0 x1 x2 x3 x4) (v3 x0 x1 x2 x3 x4) (v124 x0 x1 x2 x3 x4) (v126 x0 x1 x2 x3 x4) (View.ld x0 rX4) (View.ld x1 rP4)⟩,
    ⟨rO3, k2_pay22 (v126 x0 x1 x2 x3 x4)⟩,
    ⟨rO2, k2_pay18 (v1 x0 x1 x2 x3 x4) (v3 x0 x1 x2 x3 x4) (v62 x0 x1 x2 x3 x4) (v64 x0 x1 x2 x3 x4) (v78 x0 x1 x2 x3 x4) (constant S512x256 .f32 0x00000000#32)⟩,
    ⟨rO1, k2_pay13 (v0 x0 x1 x2 x3 x4) (v1 x0 x1 x2 x3 x4) (v3 x0 x1 x2 x3 x4) (v31 x0 x1 x2 x3 x4) (v33 x0 x1 x2 x3 x4) (View.ld x0 rX1) (View.ld x1 rP1)⟩,
    ⟨rO0, k2_pay9 (View.ld x2 rW) (View.ld x3 rW) (View.ld x4 rB) (View.ld x0 rX0) (View.ld x1 rP0)⟩]

/-- The final hidden state's buffer after the body: its one whole store. -/
def out2_6 (x0 : Vec F S20x512x128 .f32) (x1 : Vec F S512x20 .i32) (x2 : Vec F S64x256 .f32) (x3 : Vec F S64x256 .f32) (x4 : Vec F S1x256 .f32) : Vec F S512x64 .f32 :=
  View.canon [⟨rH, k2_pay3 (v0 x0 x1 x2 x3 x4) (v1 x0 x1 x2 x3 x4) (v3 x0 x1 x2 x3 x4) (v589 x0 x1 x2 x3 x4) (v591 x0 x1 x2 x3 x4) (v596 x0 x1 x2 x3 x4) (v597 x0 x1 x2 x3 x4)⟩]

/-- The final cell state's buffer after the body: its one whole store. -/
def out2_7 (x0 : Vec F S20x512x128 .f32) (x1 : Vec F S512x20 .i32) (x2 : Vec F S64x256 .f32) (x3 : Vec F S64x256 .f32) (x4 : Vec F S1x256 .f32) : Vec F S512x64 .f32 :=
  View.canon [⟨rH, k2_pay2 (v0 x0 x1 x2 x3 x4) (v1 x0 x1 x2 x3 x4) (v3 x0 x1 x2 x3 x4) (v589 x0 x1 x2 x3 x4) (v591 x0 x1 x2 x3 x4) (v596 x0 x1 x2 x3 x4) (v597 x0 x1 x2 x3 x4)⟩]

/-- The twenty slab stores tile the hidden-state buffer (checked by evaluation), so they cover it. -/
theorem cover2_5 (p19 : Vec F S1x512x64 .f32) (p18 : Vec F S1x512x64 .f32) (p17 : Vec F S1x512x64 .f32) (p16 : Vec F S1x512x64 .f32) (p15 : Vec F S1x512x64 .f32) (p14 : Vec F S1x512x64 .f32) (p13 : Vec F S1x512x64 .f32) (p12 : Vec F S1x512x64 .f32) (p11 : Vec F S1x512x64 .f32) (p10 : Vec F S1x512x64 .f32) (p9 : Vec F S1x512x64 .f32) (p8 : Vec F S1x512x64 .f32) (p7 : Vec F S1x512x64 .f32) (p6 : Vec F S1x512x64 .f32) (p5 : Vec F S1x512x64 .f32) (p4 : Vec F S1x512x64 .f32) (p3 : Vec F S1x512x64 .f32) (p2 : Vec F S1x512x64 .f32) (p1 : Vec F S1x512x64 .f32) (p0 : Vec F S1x512x64 .f32) (y : S20x512x64.Idx) :
    ∃ pc ∈ ([⟨rO19, p19⟩, ⟨rO18, p18⟩, ⟨rO17, p17⟩, ⟨rO16, p16⟩, ⟨rO15, p15⟩, ⟨rO14, p14⟩, ⟨rO13, p13⟩, ⟨rO12, p12⟩, ⟨rO11, p11⟩, ⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] : List (View.Piece (Elt F) S20x512x64 .f32)), y ∈ pc.1.set :=
  View.cover_of_tiled [⟨rO19, p19⟩, ⟨rO18, p18⟩, ⟨rO17, p17⟩, ⟨rO16, p16⟩, ⟨rO15, p15⟩, ⟨rO14, p14⟩, ⟨rO13, p13⟩, ⟨rO12, p12⟩, ⟨rO11, p11⟩, ⟨rO10, p10⟩, ⟨rO9, p9⟩, ⟨rO8, p8⟩, ⟨rO7, p7⟩, ⟨rO6, p6⟩, ⟨rO5, p5⟩, ⟨rO4, p4⟩, ⟨rO3, p3⟩, ⟨rO2, p2⟩, ⟨rO1, p1⟩, ⟨rO0, p0⟩] S1x512x64.size (by rfl) y

/-- A whole store covers a state buffer. -/
theorem cover2_6 (p0 : Vec F S512x64 .f32) (y : S512x64.Idx) :
    ∃ pc ∈ ([⟨rH, p0⟩] : List (View.Piece (Elt F) S512x64 .f32)), y ∈ pc.1.set :=
  View.cover_of_tiled [⟨rH, p0⟩] S512x64.size (by rfl) y

/-! ## The body's triple -/

set_option maxHeartbeats 4000000 in
/-- The body on whole staging memrefs, the inputs' at read contents `xW` and the outputs' at anything, runs to the
    continuation holding the inputs' as they were and each output's at `out2_W` of the inputs': the printed functions
    are their skeletons of memory operations, run through every part call; each output's stores cover its buffer, so
    what it reads afterwards is the canonical contents of its pieces, and the values the run threads are `Lstm.vN` by
    unfolding. -/
theorem sound_kernel2 (c : Dev nD) (E : Set ℕ) (i : grid2.Coords) (arg1 : Memref sig .tc .vmem S20x512x128 .f32) (harg1 : arg1.IsWhole) (arg2 : Memref sig .tc .vmem S512x20 .i32) (harg2 : arg2.IsWhole) (arg3 : Memref sig .tc .vmem S64x256 .f32) (harg3 : arg3.IsWhole) (arg4 : Memref sig .tc .vmem S64x256 .f32) (harg4 : arg4.IsWhole) (arg5 : Memref sig .tc .vmem S1x256 .f32) (harg5 : arg5.IsWhole) (arg6 : Memref sig .tc .vmem S20x512x64 .f32) (harg6 : arg6.IsWhole) (arg7 : Memref sig .tc .vmem S512x64 .f32) (harg7 : arg7.IsWhole) (arg8 : Memref sig .tc .vmem S512x64 .f32) (harg8 : arg8.IsWhole) (x0 : Vec F S20x512x128 .f32) (x1 : Vec F S512x20 .i32) (x2 : Vec F S64x256 .f32) (x3 : Vec F S64x256 .f32) (x4 : Vec F S1x256 .f32) (Kp : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out2_5 x0 x1 x2 x3 x4) ∗ owns (c : Thread nD τ) arg7 fullShare (out2_6 x0 x1 x2 x3 x4) ∗ owns (c : Thread nD τ) arg8 fullShare (out2_7 x0 x1 x2 x3 x4)) -∗ Kp ⟨⟩))
      ⊢ wp frame (wpE (defs₀ (F := F)) 𝒱₀ (c : Thread nD τ) none) E (cc2_body i arg1 harg1 arg2 harg2 arg3 harg3 arg4 harg4 arg5 harg5 arg6 harg6 arg7 harg7 arg8 harg8) Kp := by
  rw [cc2_body_eq_skeleton]; unfold cc2_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover2_5 _ _ _ _ _ _ _ _ _ _ _ _ _ _ _ _ _ _ _ _)
  isplitl [H6]
  · iexists _; isplitr
    swap; · iexact H6
    ipureintro
    exact View.read_writes_eq_canon _ _ _ (cover2_6 _)
  iexists _; isplitr
  swap; · iexact H7
  ipureintro
  exact View.read_writes_eq_canon _ _ _ (cover2_6 _)

end Cert.Kernel.Hand

end
-- ==== Proof.Bits.IdxRange.lean ====
/-
  The gather's indices stay inside the packed table. The second host stretch lays the index argument x : i32[4096, 20]
  out time-major and flat (entry t * 4096 + b is x[b, t]) and remaps every word w to
  w - (if w ≥ 524288 then 524288 else 0) + (if w ≥ 999424 then 64960 else 0), signed comparisons and wrapping 32-bit
  arithmetic. For 0 ≤ w ≤ 999999 the result is below 540672: w itself below 524288; w - 524288 ≤ 475135 from there
  up to 999423; w - 459328, between 540096 and 540671, from 999424 on. The precondition's last conjunct says every
  entry of x lies in [0, 999999].
-/
import proofs.«206902_g37847251812778_fold_wed_m_929_15_alg».proof.Proof.Bits.Regs
import Idealize.ShloMosaic.Lib.WordArith
import Idealize.ShloMosaic.Lib.ValueLayout
import Idealize.ShloMosaic.Lib.IdealHost
import Idealize.ShloMosaic.Lib.ReduceAll
import proofs.«206902_g37847251812778_fold_wed_m_929_15_alg».proof.Defs
import proofs.«206902_g37847251812778_fold_wed_m_929_15_alg».proof.Proof.Gen.Pre_input_domain

set_option maxRecDepth 16384

noncomputable section

namespace Cert.Kernel.Hand

open Cert.Kernel Cert.Kernel.Gen
open Idealize.ShloMosaic Idealize.ShloMosaic.TcCoe
open Idealize.SL Idealize.SL.Sem
open Idealize.ShloMosaic.ValueIdx

variable {F : FTy → Type} [FloatOps F]

/-- The remap on one word. -/
def remap (x : BitVec 32) : BitVec 32 :=
  IntOp.addi (IntOp.subi x (Scalar.select (IntOp.cmpi .sge x 524288#32) 524288#32 0#32))
    (Scalar.select (IntOp.cmpi .sge x 999424#32) 64960#32 0#32)

theorem remap_lt (x : BitVec 32) (h0 : 0 ≤ x.toInt) (h1 : x.toInt ≤ 999999) : (remap x).toNat < 540672 := by
  have e := BitVec.toInt_eq_toNat_cond x
  have hx := x.isLt
  have hlt : x.toNat ≤ 999999 := by omega
  have hxi : x.toInt = (x.toNat : Int) := by omega
  have k1 : (524288#32 : BitVec 32).toInt = 524288 := by decide
  have k2 : (999424#32 : BitVec 32).toInt = 999424 := by decide
  unfold remap
  by_cases c1 : (524288 : Int) ≤ x.toInt
  · have s1 : IntOp.cmpi .sge x 524288#32 = 1#1 := IntOp.cmpi_sge.2 (by rw [k1]; exact c1)
    rw [s1, select_one]
    by_cases c2 : (999424 : Int) ≤ x.toInt
    · have s2 : IntOp.cmpi .sge x 999424#32 = 1#1 := IntOp.cmpi_sge.2 (by rw [k2]; exact c2)
      rw [s2, select_one]
      show (x - 524288#32 + 64960#32).toNat < 540672
      rw [BitVec.toNat_add, BitVec.toNat_sub]; simp only [BitVec.toNat_ofNat]; omega
    · have s2 : IntOp.cmpi .sge x 999424#32 = 0#1 :=
        eq_zero_of_ne_one fun h => c2 (by have := IntOp.cmpi_sge.1 h; rwa [k2] at this)
      rw [s2, select_zero]
      show (x - 524288#32 + 0#32).toNat < 540672
      rw [BitVec.toNat_add, BitVec.toNat_sub]; simp only [BitVec.toNat_ofNat]; omega
  · have s1 : IntOp.cmpi .sge x 524288#32 = 0#1 :=
      eq_zero_of_ne_one fun h => c1 (by have := IntOp.cmpi_sge.1 h; rwa [k1] at this)
    have c2 : ¬ (999424 : Int) ≤ x.toInt := by omega
    have s2 : IntOp.cmpi .sge x 999424#32 = 0#1 :=
      eq_zero_of_ne_one fun h => c2 (by have := IntOp.cmpi_sge.1 h; rwa [k2] at this)
    rw [s1, s2, select_zero, select_zero]
    show (x - 0#32 + 0#32).toNat < 540672
    rw [BitVec.toNat_add, BitVec.toNat_sub]; simp only [BitVec.toNat_ofNat]; omega

variable (m : (ℓ : Loc nD τ sig) → Buf (Elt F) ℓ)

/-- The indices as the second host stretch reads them: the argument itself. -/
theorem W2_arg0 (c : Dev nD) : W2 m c (Proc.devRef .tc main_arg0) = m ((c.tc : Thread nD τ).loc main_arg0) := by
  unfold W2
  rw [Function.update_of_ne (by decide)]
  show StableHlo.after opsA (W0 m c) (Proc.devRef .tc main_arg0) = _
  after_results

/-- The remapped index array read at a position: the remap of some entry of the index argument. -/
theorem W3_v14_apply (c : Dev nD) (j : S81920.Idx) :
    ∃ i : S4096x20.Idx, (W3 m c (Proc.devRef .tc main_v14) : IVec S81920 32) j = remap (m ((c.tc : Thread nD τ).loc main_arg0) i) := by
  show ∃ i : S4096x20.Idx, StableHlo.after opsB (W2 m c) (Proc.devRef .tc main_v14) j = _
  after_results
  dsimp only [StableHlo.TRef.toBuf, StableHlo.TRef.ofBuf, StableHlo.TRef.of, cast_eq, id_eq]
  rw [W2_arg0]
  simp only [addi, subi, select, cmpi, broadcastInDim_scalar_apply, constantI_apply]
  exact ⟨_, rfl⟩

theorem idx_in_range
    (hx : ∀ (c : Dev nD) (i : S4096x20.Idx), 0 ≤ (m ((c.tc : Thread nD τ).loc main_arg0) i).toInt ∧ (m ((c.tc : Thread nD τ).loc main_arg0) i).toInt ≤ 999999)
    (c : Dev nD) (j : S81920.Idx) : (W3 m c (Proc.devRef .tc main_v14) j).toNat < 540672 := by
  obtain ⟨i, e⟩ := W3_v14_apply m c j
  show ((W3 m c (Proc.devRef .tc main_v14) : IVec S81920 32) j).toNat < 540672
  rw [e]
  exact remap_lt _ (hx c i).1 (hx c i).2

/-! ## The remapped index array at a position, explicitly -/

/-- The time-major flat layout of the index argument: position t * 4096 + b holds x[b, t]. -/
theorem idxTm_apply (x : IVec S4096x20 32) (t : Fin 20) (b : Fin 4096) (h : t.val * 4096 + b.val < 81920) :
    shapeCast S81920 (transpose S20x4096 [1, 0] x transposes_S4096x20_S20x4096_1_0) shapeCasts_S20x4096_S81920
      (ix1 ⟨t.val * 4096 + b.val, h⟩) = x (ix2 b t) := by
  rw [shapeCast_apply _ _ _ (ix2 t b) (by rw [Shape.rowMajor_val_two, Shape.rowMajor_val_one]; rfl)]
  exact transpose_ix2_apply _ _ t b

/-- The remapped index array at position t * 4096 + b: the remap of x[b, t]. -/
theorem W3_v14_at (c : Dev nD) (t : Fin 20) (b : Fin 4096) (h : t.val * 4096 + b.val < 81920) :
    (W3 m c (Proc.devRef .tc main_v14) : IVec S81920 32) (ix1 ⟨t.val * 4096 + b.val, h⟩)
      = remap (m ((c.tc : Thread nD τ).loc main_arg0) (ix2 b t)) := by
  show StableHlo.after opsB (W2 m c) (Proc.devRef .tc main_v14) _ = _
  after_results
  dsimp only [StableHlo.TRef.toBuf, StableHlo.TRef.ofBuf, StableHlo.TRef.of, cast_eq, id_eq]
  rw [W2_arg0]
  show remap (shapeCast S81920 (transpose S20x4096 [1, 0] (m ((c.tc : Thread nD τ).loc main_arg0)) transposes_S4096x20_S20x4096_1_0)
    shapeCasts_S20x4096_S81920 (ix1 ⟨t.val * 4096 + b.val, h⟩)) = _
  rw [idxTm_apply]

/-- The remapped index array at any position j: the remap of x[j mod 4096, j div 4096]. -/
theorem W3_v14_idx (c : Dev nD) (j : S81920.Idx) (hb : (j 0).val % 4096 < 4096) (ht : (j 0).val / 4096 < 20) :
    (W3 m c (Proc.devRef .tc main_v14) : IVec S81920 32) j
      = remap (m ((c.tc : Thread nD τ).loc main_arg0) (ix2 (⟨(j 0).val % 4096, hb⟩ : Fin 4096) (⟨(j 0).val / 4096, ht⟩ : Fin 20))) := by
  have hj : (j 0).val < 81920 := (j 0).isLt
  have e : j = ix1 (⟨(⟨(j 0).val / 4096, ht⟩ : Fin 20).val * 4096 + (⟨(j 0).val % 4096, hb⟩ : Fin 4096).val, by
      show (j 0).val / 4096 * 4096 + (j 0).val % 4096 < 81920; omega⟩ : Fin 81920) := by
    refine (eq_ix1 j).trans (congrArg ix1 (Fin.ext ?_))
    show (j 0).val = (j 0).val / 4096 * 4096 + (j 0).val % 4096
    omega
  exact (congrArg (W3 m c (Proc.devRef .tc main_v14) : IVec S81920 32) e).trans
    (W3_v14_at m c ⟨(j 0).val / 4096, ht⟩ ⟨(j 0).val % 4096, hb⟩ _)

/-! ## The precondition's last conjunct, decoded -/

/-- Every entry of the index argument lies in [0, 999999], signed: the last conjunct of the precondition, an
    all-reduction of the two comparisons' conjunction that came out 1. -/
theorem pre_range_fn (x : IVec Cert.Pre_input_domain.S4096x20 32) (E : FVec F Cert.Pre_input_domain.S1000000x64 .f32)
    (W U : FVec F Cert.Pre_input_domain.S64x256 .f32) (b : FVec F Cert.Pre_input_domain.S256 .f32)
    (h : Cert.Pre_input_domain.fn (F := F) x E W U b = fun _ => 1#1) (i : Cert.Pre_input_domain.S4096x20.Idx) :
    0 ≤ (x i).toInt ∧ (x i).toInt ≤ 999999 := by
  haveI : Subsingleton Cert.Pre_input_domain.S_.Idx := ⟨fun a b => funext fun d => d.elim0⟩
  have h0 : Cert.Pre_input_domain.fn (F := F) x E W U b ix0 = 1#1 := congrFun h ix0
  dsimp only [Cert.Pre_input_domain.fn, Cert.Pre_input_domain.fn_part1, andi] at h0
  have h24 := (IntOp.andi_eq_one.1 h0).2
  have hi := Host.reduce_andi_all _ _ _ _ _ h24 i
  obtain ⟨hge, hle⟩ := IntOp.andi_eq_one.1 hi
  exact ⟨IntOp.cmpi_sge.1 hge, IntOp.cmpi_sle.1 hle⟩

/-- The same of the launch memory, on every device, from the precondition as the claim states it (at any float
    instance). -/
theorem pre_range (m : (ℓ : Loc nD τ sig) → Buf (Elt F) ℓ)
    (hpre : ∀ c : Dev nD, Cert.Pre_input_domain.fn (F := F) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4)) = fun _ => 1#1)
    (c : Dev nD) (i : S4096x20.Idx) :
    0 ≤ (m ((c.tc : Thread nD τ).loc main_arg0) i).toInt ∧ (m ((c.tc : Thread nD τ).loc main_arg0) i).toInt ≤ 999999 :=
  pre_range_fn _ _ _ _ _ (hpre c) i

/-- At the bit-level floats: from the certificate's precondition. -/
theorem pre_range_ideal (m : (ℓ : Loc nD τ sig) → Buf (Elt Bits) ℓ) (hpre : Cert.Pre_Kernel m)
    (c : Dev nD) (i : S4096x20.Idx) :
    0 ≤ (m ((c.tc : Thread nD τ).loc main_arg0) i).toInt ∧ (m ((c.tc : Thread nD τ).loc main_arg0) i).toInt ≤ 999999 :=
  pre_range m hpre c i

/-- The gather's indices are rows of the packed table, under the certificate's precondition. -/
theorem idx_in_range_of_pre (m : (ℓ : Loc nD τ sig) → Buf (Elt Bits) ℓ) (hpre : Cert.Pre_Kernel m)
    (c : Dev nD) (j : S81920.Idx) : (W3 m c (Proc.devRef .tc main_v14) j).toNat < 540672 :=
  idx_in_range m (pre_range_ideal m hpre) c j

end Cert.Kernel.Hand
end
-- ==== Proof.Bits.Chunks.lean ====
/-
  How the index array and the gathered array are cut into the tiles' pieces. Tile i of SparseCore c owns rows
  [5120·i + 2560·c, +2560) of the 81920 indices, and, of the gathered array's 81920 rows of 128 columns, the eight
  chunks of rows [5120·i + 2560·c + 320·r, +320), r = 0..7, all columns. The 32 index pieces partition the index
  array; the 256 chunks partition the gathered array. So a points-to assertion over a whole array is the product of
  the pieces'.
-/
import proofs.«206902_g37847251812778_fold_wed_m_929_15_alg».proof.Proof.Bits.TileObl

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The index array -/

omit [FloatOps F] in
/-- The set of tile `L`'s index piece is its rectangle's. -/
theorem set_iRowK (L : grid1.Coords) :
    (iRowK L).view.set = (Rect.unit (s := S81920) (k1_off1 L) S2560.size (k1_off1_inb L)).set := by
  show ((View.whole (main_v14_scv : Ref sig .scVector)).slice _).set = _
  rw [View.set_slice]; exact Finset.map_refl

omit [FloatOps F] in
/-- Tile i of SparseCore c owns the indices at rows [5120·i + 2560·c, +2560). -/
theorem mem_iSet (c : Fin 2) (i : Fin 16) (x : S81920.Idx) :
    x ∈ (iRowK (coordsP c i)).view.set
      ↔ 5120 * i.val + 2560 * c.val ≤ (x 0).val ∧ (x 0).val < 5120 * i.val + 2560 * c.val + 2560 := by
  rw [set_iRowK, Rect.mem_set_unit, k1_off1_eq]
  exact Fin.forall_fin_one

/-- The index piece of tile `p.2` of SparseCore `p.1`. -/
abbrev iSet (p : Fin 2 × Fin 16) : Finset S81920.Idx := (iRowK (coordsP p.1 p.2)).view.set

omit [FloatOps F] in
/-- Different tiles' index pieces are disjoint: their row intervals are. -/
theorem iSet_disjoint : ∀ p ∈ (Finset.univ : Finset (Fin 2 × Fin 16)), ∀ p' ∈ (Finset.univ : Finset (Fin 2 × Fin 16)),
    p ≠ p' → Disjoint (iSet p) (iSet p') := by
  rintro ⟨c, i⟩ - ⟨c', i'⟩ - h
  rw [Finset.disjoint_left]
  intro x hx hx'
  have h1 := (mem_iSet c i x).mp hx
  have h2 := (mem_iSet c' i' x).mp hx'
  have hc := c.isLt
  have hc' := c'.isLt
  have e : i.val = i'.val ∧ c.val = c'.val := by omega
  exact h (Prod.ext (Fin.ext e.2) (Fin.ext e.1))

omit [FloatOps F] in
/-- The index pieces cover the index array: row x lies in the piece of tile x / 5120 of SparseCore (x mod 5120) / 2560. -/
theorem iSet_cover : (Finset.univ : Finset (Fin 2 × Fin 16)).biUnion iSet = Finset.univ := by
  ext x
  simp only [Finset.mem_biUnion, Finset.mem_univ, true_and, iff_true]
  have hx : (x 0).val < 81920 := (x 0).isLt
  refine ⟨(⟨(x 0).val % 5120 / 2560, by omega⟩, ⟨(x 0).val / 5120, by omega⟩), (mem_iSet _ _ x).mpr ?_⟩
  show 5120 * ((x 0).val / 5120) + 2560 * ((x 0).val % 5120 / 2560) ≤ (x 0).val
    ∧ (x 0).val < 5120 * ((x 0).val / 5120) + 2560 * ((x 0).val % 5120 / 2560) + 2560
  omega

omit [FloatOps F] in
/-- The index array at contents `f` is the product of the thirty-two tiles' pieces at `f`. -/
theorem idx_split (d : Dev nD) (f : Buf (Elt F) (iLoc d)) :
    (iLoc d ↦{fullShare} f : sProp 𝕄)
      = bigSep Finset.univ fun c : Fin 2 => bigSep Finset.univ fun i : Fin 16 =>
          (iLoc d ↦[(iRowK (coordsP c i)).view.set]{fullShare} f : sProp 𝕄) :=
  calc (iLoc d ↦{fullShare} f : sProp 𝕄)
      = (iLoc d ↦[(Finset.univ : Finset (Fin 2 × Fin 16)).biUnion iSet]{fullShare} f) := by rw [iSet_cover]
    _ = bigSep Finset.univ fun p : Fin 2 × Fin 16 => (iLoc d ↦[iSet p]{fullShare} f : sProp 𝕄) :=
        pointsTo_biUnion Finset.univ (ℓ := iLoc d) iSet iSet_disjoint
    _ = _ := bigSep_univ_prod _

/-! ## The gathered array -/

/-- Chunk `r` of tile `L`'s rows of the gathered array, as a rectangle. -/
abbrev oRect (L : grid1.Coords) (r : Fin 8) : Rect S81920x128 :=
  Rect.unit (s := S81920x128) (k1_off2 L (BitVec.ofNat 32 (320 * r.val))) S320x128.size (k1_off2_inb L r)

omit [FloatOps F] in
/-- The set of a slice of the whole gathered array is the rectangle's. -/
theorem set_oSlice (r : Rect S81920x128) (h) : ((oV).slice r h).view.set = r.set := by
  show ((View.whole (main_v15_scv : Ref sig .scVector)).slice _).set = _
  rw [View.set_slice]; exact Finset.map_refl

omit [FloatOps F] in
theorem set_oCh0 (L : grid1.Coords) : (oCh0 L).view.set = (oRect L 0).set := set_oSlice _ _
omit [FloatOps F] in
theorem set_oCh1 (L : grid1.Coords) : (oCh1 L).view.set = (oRect L 1).set := set_oSlice _ _
omit [FloatOps F] in
theorem set_oCh2 (L : grid1.Coords) : (oCh2 L).view.set = (oRect L 2).set := set_oSlice _ _
omit [FloatOps F] in
theorem set_oCh3 (L : grid1.Coords) : (oCh3 L).view.set = (oRect L 3).set := set_oSlice _ _
omit [FloatOps F] in
theorem set_oCh4 (L : grid1.Coords) : (oCh4 L).view.set = (oRect L 4).set := set_oSlice _ _
omit [FloatOps F] in
theorem set_oCh5 (L : grid1.Coords) : (oCh5 L).view.set = (oRect L 5).set := set_oSlice _ _
omit [FloatOps F] in
theorem set_oCh6 (L : grid1.Coords) : (oCh6 L).view.set = (oRect L 6).set := set_oSlice _ _
omit [FloatOps F] in
theorem set_oCh7 (L : grid1.Coords) : (oCh7 L).view.set = (oRect L 7).set := set_oSlice _ _

omit [FloatOps F] in
/-- Chunk r of tile i of SparseCore c is rows [5120·i + 2560·c + 320·r, +320), all columns. -/
theorem mem_oRect (c : Fin 2) (i : Fin 16) (r : Fin 8) (x : S81920x128.Idx) :
    x ∈ (oRect (coordsP c i) r).set
      ↔ 5120 * i.val + 2560 * c.val + 320 * r.val ≤ (x 0).val ∧ (x 0).val < 5120 * i.val + 2560 * c.val + 320 * r.val + 320 := by
  rw [Rect.mem_set_unit, k1_off2_eq, Fin.forall_fin_two]
  have h1 : (x 1).val < 128 := (x 1).isLt
  constructor
  · intro h; exact h.1
  · intro h; exact ⟨h, Nat.zero_le _, by show (x 1).val < 0 + 128; omega⟩

/-- Chunk `p.2.2` of tile `p.2.1` of SparseCore `p.1`. -/
abbrev oSet (p : Fin 2 × Fin 16 × Fin 8) : Finset S81920x128.Idx := (oRect (coordsP p.1 p.2.1) p.2.2).set

omit [FloatOps F] in
/-- Different chunks are disjoint: their row intervals are. -/
theorem oSet_disjoint : ∀ p ∈ (Finset.univ : Finset (Fin 2 × Fin 16 × Fin 8)), ∀ p' ∈ (Finset.univ : Finset (Fin 2 × Fin 16 × Fin 8)),
    p ≠ p' → Disjoint (oSet p) (oSet p') := by
  rintro ⟨c, i, r⟩ - ⟨c', i', r'⟩ - h
  rw [Finset.disjoint_left]
  intro x hx hx'
  have h1 := (mem_oRect c i r x).mp hx
  have h2 := (mem_oRect c' i' r' x).mp hx'
  have hc := c.isLt
  have hc' := c'.isLt
  have hr := r.isLt
  have hr' := r'.isLt
  have e : i.val = i'.val ∧ c.val = c'.val ∧ r.val = r'.val := by omega
  exact h (Prod.ext (Fin.ext e.2.1) (Prod.ext (Fin.ext e.1) (Fin.ext e.2.2)))

omit [FloatOps F] in
/-- The chunks cover the gathered array: row x lies in chunk (x mod 2560) / 320 of tile x / 5120 of SparseCore
    (x mod 5120) / 2560. -/
theorem oSet_cover : (Finset.univ : Finset (Fin 2 × Fin 16 × Fin 8)).biUnion oSet = Finset.univ := by
  ext x
  simp only [Finset.mem_biUnion, Finset.mem_univ, true_and, iff_true]
  have hx : (x 0).val < 81920 := (x 0).isLt
  refine ⟨(⟨(x 0).val % 5120 / 2560, by omega⟩, ⟨(x 0).val / 5120, by omega⟩, ⟨(x 0).val % 2560 / 320, by omega⟩),
    (mem_oRect _ _ _ x).mpr ?_⟩
  show 5120 * ((x 0).val / 5120) + 2560 * ((x 0).val % 5120 / 2560) + 320 * ((x 0).val % 2560 / 320) ≤ (x 0).val
    ∧ (x 0).val < 5120 * ((x 0).val / 5120) + 2560 * ((x 0).val % 5120 / 2560) + 320 * ((x 0).val % 2560 / 320) + 320
  omega

omit [FloatOps F] in
/-- The gathered array at contents `f` is the product of the 256 chunks at `f`, grouped by SparseCore, tile, chunk. -/
theorem out_split_big (d : Dev nD) (f : Buf (Elt F) (oLoc d)) :
    (oLoc d ↦{fullShare} f : sProp 𝕄)
      = bigSep Finset.univ fun c : Fin 2 => bigSep Finset.univ fun i : Fin 16 => bigSep Finset.univ fun r : Fin 8 =>
          (oLoc d ↦[(oRect (coordsP c i) r).set]{fullShare} f : sProp 𝕄) :=
  calc (oLoc d ↦{fullShare} f : sProp 𝕄)
      = (oLoc d ↦[(Finset.univ : Finset (Fin 2 × Fin 16 × Fin 8)).biUnion oSet]{fullShare} f) := by rw [oSet_cover]
    _ = bigSep Finset.univ fun p : Fin 2 × Fin 16 × Fin 8 => (oLoc d ↦[oSet p]{fullShare} f : sProp 𝕄) :=
        pointsTo_biUnion Finset.univ (ℓ := oLoc d) oSet oSet_disjoint
    _ = bigSep Finset.univ fun c : Fin 2 => bigSep Finset.univ fun q : Fin 16 × Fin 8 =>
          (oLoc d ↦[oSet (c, q)]{fullShare} f : sProp 𝕄) := bigSep_univ_prod _
    _ = _ := bigSep_congr fun c _ => bigSep_univ_prod (fun q : Fin 16 × Fin 8 => (oLoc d ↦[oSet (c, q)]{fullShare} f : sProp 𝕄))

/-- A tile's eight chunks, each at some contents, as a product over the chunk number. -/
theorem outChunksT_eq_big (d : Dev nD) (L : grid1.Coords) :
    (outChunksT d L : sProp 𝕄)
      = bigSep Finset.univ fun r : Fin 8 => iprop(∃ f : Buf (Elt F) (oLoc d), oLoc d ↦[(oRect L r).set]{fullShare} f) := by
  rw [bigSep_univ_eq_bigSepL [0, 1, 2, 3, 4, 5, 6, 7] (by decide) (by decide)]
  unfold outChunksT
  rw [set_oCh0, set_oCh1, set_oCh2, set_oCh3, set_oCh4, set_oCh5, set_oCh6, set_oCh7]
  rfl

omit [FloatOps F] in
/-- A piece of the gathered array at contents `f` is that piece at some contents. -/
theorem oPts_exists (d : Dev nD) (I : Finset S81920x128.Idx) (f : Buf (Elt F) (oLoc d)) :
    (oLoc d ↦[I]{fullShare} f : sProp 𝕄) ⊢ iprop(∃ f : Buf (Elt F) (oLoc d), oLoc d ↦[I]{fullShare} f) := by
  iintro H; iexists f; iexact H

/-- The gathered array at contents `f` gives every tile its eight chunks, each at some contents. -/
theorem out_split (d : Dev nD) (f : Buf (Elt F) (oLoc d)) :
    (oLoc d ↦{fullShare} f : sProp 𝕄)
      ⊢ bigSep Finset.univ fun c : Fin 2 => bigSep Finset.univ fun i : Fin 16 => outChunksT (F := F) d (coordsP c i) := by
  rw [out_split_big]
  refine bigSep_mono fun c _ => bigSep_mono fun i _ => ?_
  rw [outChunksT_eq_big]
  exact bigSep_mono fun r _ => oPts_exists d _ f

/-- All the tiles' chunks, each at some contents, as one product over the 256 chunks. -/
theorem outChunksT_all (d : Dev nD) :
    (bigSep Finset.univ fun c : Fin 2 => bigSep Finset.univ fun i : Fin 16 => outChunksT (F := F) d (coordsP c i))
      = bigSep Finset.univ fun p : Fin 2 × Fin 16 × Fin 8 =>
          (iprop(∃ f : Buf (Elt F) (oLoc d), oLoc d ↦[oSet p]{fullShare} f) : sProp 𝕄) :=
  Eq.symm <|
  calc (bigSep Finset.univ fun p : Fin 2 × Fin 16 × Fin 8 =>
          (iprop(∃ f : Buf (Elt F) (oLoc d), oLoc d ↦[oSet p]{fullShare} f) : sProp 𝕄))
      = bigSep Finset.univ fun c : Fin 2 => bigSep Finset.univ fun q : Fin 16 × Fin 8 =>
          (iprop(∃ f : Buf (Elt F) (oLoc d), oLoc d ↦[oSet (c, q)]{fullShare} f) : sProp 𝕄) := bigSep_univ_prod _
    _ = bigSep Finset.univ fun c : Fin 2 => bigSep Finset.univ fun i : Fin 16 => bigSep Finset.univ fun r : Fin 8 =>
          (iprop(∃ f : Buf (Elt F) (oLoc d), oLoc d ↦[oSet (c, i, r)]{fullShare} f) : sProp 𝕄) :=
        bigSep_congr fun c _ => bigSep_univ_prod
          (fun q : Fin 16 × Fin 8 => (iprop(∃ f : Buf (Elt F) (oLoc d), oLoc d ↦[oSet (c, q)]{fullShare} f) : sProp 𝕄))
    _ = _ := bigSep_congr fun c _ => bigSep_congr fun i _ => (outChunksT_eq_big d (coordsP c i)).symm

/-- All the tiles' chunks, each at some contents, join to the gathered array at some contents. -/
theorem out_join (d : Dev nD) :
    (bigSep Finset.univ fun c : Fin 2 => bigSep Finset.univ fun i : Fin 16 => outChunksT (F := F) d (coordsP c i))
      ⊢ (iprop(∃ f, oLoc d ↦{fullShare} f) : sProp 𝕄) := by
  rw [outChunksT_all]
  refine (bigSep_exists_pi Finset.univ
    (fun (p : Fin 2 × Fin 16 × Fin 8) (f : Buf (Elt F) (oLoc d)) => (oLoc d ↦[oSet p]{fullShare} f : sProp 𝕄))).trans ?_
  iintro ⟨%fs, H⟩
  ihave H' := (pointsTo_biUnion_join Finset.univ oSet fs (fs (0, 0, 0)) oSet_disjoint) $$ H
  icases H' with ⟨%g, -, Hg⟩
  rw [oSet_cover]
  iexists g; iexact Hg

/-! ## The tiles' chunks at one common contents -/

omit [FloatOps F] in
/-- A tile's eight chunks at one contents, as a product over the chunk number. -/
theorem outChunksAt_eq_big (d : Dev nD) (L : grid1.Coords) (f : Buf (Elt F) (oLoc d)) :
    (outChunksAt d L f : sProp 𝕄) = bigSep Finset.univ fun r : Fin 8 => (oLoc d ↦[(oRect L r).set]{fullShare} f : sProp 𝕄) := by
  rw [bigSep_univ_eq_bigSepL [0, 1, 2, 3, 4, 5, 6, 7] (by decide) (by decide)]
  unfold outChunksAt
  rw [set_oCh0, set_oCh1, set_oCh2, set_oCh3, set_oCh4, set_oCh5, set_oCh6, set_oCh7]
  rfl

omit [FloatOps F] in
/-- The gathered array at contents `f` is the product of the tiles' eight chunks at `f`. -/
theorem out_split_eq (d : Dev nD) (f : Buf (Elt F) (oLoc d)) :
    (oLoc d ↦{fullShare} f : sProp 𝕄)
      = bigSep Finset.univ fun c : Fin 2 => bigSep Finset.univ fun i : Fin 16 => outChunksAt (F := F) d (coordsP c i) f :=
  (out_split_big d f).trans (bigSep_congr fun c _ => bigSep_congr fun i _ => (outChunksAt_eq_big d (coordsP c i) f).symm)

omit [FloatOps F] in
/-- The tile's chunks at one contents are, in particular, its chunks each at some contents. -/
theorem outChunksAt_T (d : Dev nD) (L : grid1.Coords) (f : Buf (Elt F) (oLoc d)) :
    (outChunksAt d L f : sProp 𝕄) ⊢ outChunksT d L := by
  unfold outChunksAt outChunksT
  iintro ⟨H0, H1, H2, H3, H4, H5, H6, H7⟩
  isplitl [H0]; · iexists f; iexact H0
  isplitl [H1]; · iexists f; iexact H1
  isplitl [H2]; · iexists f; iexact H2
  isplitl [H3]; · iexists f; iexact H3
  isplitl [H4]; · iexists f; iexact H4
  isplitl [H5]; · iexists f; iexact H5
  isplitl [H6]; · iexists f; iexact H6
  iexists f; iexact H7

end Cert.Kernel.Hand

end
-- ==== Proof.Bits.ChunkValue.lean ====
/-
  What a tile's chunk of the gathered array holds after its gather and copy-out.

  Chunk `r` of tile (c, s) (worker w = 2·s + c) is rows [2560·w + 320·r, +320) of the gathered array. The copy-out
  writes the whole row scratch over it; the row scratch was last written, whole, by the indirect gather of the table
  rows that words [320·r, +320) of the index scratch name; and the index scratch holds words [2560·w, +2560) of the
  index array. So element (k, c) of the chunk is the table's element (idx[2560·w + 320·r + k], c) — the specification's
  value at row 2560·w + 320·r + k, column c (the words being in range of the table, the specification's clamp is the
  identity). What the chunk, the row scratch and the index scratch held before, and what the earlier gathers wrote to
  the row scratch, does not matter.

  The proof chases one index through the views; no contents term is unfolded.
-/
import proofs.«206902_g37847251812778_fold_wed_m_929_15_alg».proof.Proof.Bits.Tile
import Idealize.ShloMosaic.Lib.SparseCore.Stream

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

/-! ## Indices by their coordinates, contents by what a view reads -/

/-- Two contents that read the same through a view at an index agree at the element under it. -/
theorem apply_emb_eq_of_read_eq {sig : RefSig} {κ : Kind} {sp : Space} {s : Shape} {e : EltTy} {Val : EltTy → Type}
    (v : View sig κ sp s e) {f g : v.ty.Contents Val} {y : s.Idx}
    (h : v.read Val f y = v.read Val g y) : f (v.emb y) = g (v.emb y) := by
  rw [View.read_apply, View.read_apply] at h
  exact (cast_inj _).mp h

/-- A rank-one index is the one with its coordinate. -/
theorem ix1_of_val {n : Nat} (j : (⟨1, ![n]⟩ : Shape).Idx) (p : Fin n) (h : (j 0).val = p.val) : j = ix1 p := by
  rw [eq_ix1 j]; exact congrArg ix1 (Fin.ext h)

/-- A rank-two index is the one with its coordinates. -/
theorem ix2_of_val {n0 n1 : Nat} (j : (⟨2, ![n0, n1]⟩ : Shape).Idx) (p : Fin n0) (q : Fin n1)
    (h0 : (j 0).val = p.val) (h1 : (j 1).val = q.val) : j = ix2 p q := by
  obtain rfl : j 0 = p := Fin.ext h0
  obtain rfl : j 1 = q := Fin.ext h1
  exact eq_ix2 j

/-! ## Reading through the tile's views: the element under the index -/

theorem oChN_read (L : grid1.Coords) (r : Fin 8) (g : (oChN L r).view.ty.Contents (Elt F)) (y : S320x128.Idx) :
    (oChN L r).view.read (Elt F) g y = g ((oChN L r).view.emb y) := rfl
theorem xAllK_read (g : (xAllK).view.ty.Contents (Elt F)) (z : S540672x128.Idx) :
    (xAllK).view.read (Elt F) g z = g ((xAllK).view.emb z) := rfl
theorem sIslN_read (r : Fin 8) (g : (sIslN r).view.ty.Contents (Elt F)) (x : S320.Idx) :
    (sIslN r).view.read (Elt F) g x = g ((sIslN r).view.emb x) := rfl
theorem iRowK_read (L : grid1.Coords) (g : (iRowK L).view.ty.Contents (Elt F)) (x : S2560.Idx) :
    (iRowK L).view.read (Elt F) g x = g ((iRowK L).view.emb x) := rfl

/-! ## Where the tile's views place their indices -/

theorem oChN_emb_val (L : grid1.Coords) (r : Fin 8) (y : S320x128.Idx) (a : Fin 2) :
    (((oChN L r).view.emb y : S81920x128.Idx) a).val = k1_off2 L (BitVec.ofNat 32 (320 * r.val)) a + 1 * (y a).val := rfl
theorem xAllK_emb (z : S540672x128.Idx) : ((xAllK).view.emb z : S540672x128.Idx) = z := by
  funext a; apply Fin.ext
  show (![0, 0] : Fin 2 → Nat) a + 1 * (z a).val = (z a).val
  match a with
  | ⟨0, _⟩ => show 0 + 1 * _ = _; omega
  | ⟨1, _⟩ => show 0 + 1 * _ = _; omega
theorem sIslN_emb_val (r : Fin 8) (x : S320.Idx) :
    (((sIslN r).view.emb x : S2560.Idx) (0 : Fin 1)).val = 320 * r.val + 1 * (x 0).val := rfl
theorem iRowK_emb_val (L : grid1.Coords) (x : S2560.Idx) :
    (((iRowK L).view.emb x : S81920.Idx) (0 : Fin 1)).val = k1_off1 L 0 + 1 * (x 0).val := rfl

/-! ## The chunk's contents -/

/-- After the tile's run, chunk `r` of its rows of the gathered array holds the specification's values: whatever the
    chunk (`fo`), the row scratch (`fsR`) and the index scratch (`fsI`) held before and whatever the earlier gathers
    left in the row scratch (`rest`), the copy-out of the row scratch, gathered whole from the table at the words of
    slice `r` of the index scratch (the tile's words of the index array), agrees on the chunk with
    gathered[n, c] = table[idx[n], c]. -/
theorem chunk_val (d : Dev nD) (L : grid1.Coords) (fi : Buf (Elt F) (iLoc d)) (ft : Buf (Elt F) (xLoc d))
    (hfi : ∀ j, (fi j).toNat < 540672) : ChunkVal d L fi ft := by
  unfold ChunkVal
  intro r fo fsR fsI rest hn hin i hi
  obtain ⟨y, -, rfl⟩ := Finset.mem_map.mp hi
  apply apply_emb_eq_of_read_eq
  -- the chunk holds the copy's payload, which is the row scratch's contents, which is the gather's payload
  refine Eq.trans (Eq.trans (congrArg _ (Rect.emb_whole_apply S320x128 y).symm)
    (View.read_writes_cons_emb (oChN L r).view fo (Rect.whole S320x128) _ [] y)) ?_
  rw [ReadAs.apply_same]
  refine Eq.trans (Eq.trans (congrArg _ (Rect.emb_whole_apply S320x128 y).symm)
    (View.read_writes_cons_emb sR.view fsR (Rect.whole S320x128) _ rest y)) ?_
  refine Eq.trans ?_ (oChN_read L r (gspecOf d fi ft) y).symm
  -- the index scratch holds the tile's words of the index array
  have e : View.write (Elt F) sI.view fsI (ReadAs.same.apply (View.read (Elt F) (iRowK L).view fi)) Finset.univ
      = View.read (Elt F) (iRowK L).view fi := View.write_whole_univ _ _ _
  -- the gather's payload at `y`: the table at the row the scratch's word names, at `y`'s column
  unfold SparseCore.gatherPayload
  rw [xAllK_read, xAllK_emb]
  unfold gspecOf
  generalize hidx : View.read (Elt F) (sIslN r).view
    (View.write (Elt F) sI.view fsI (ReadAs.same.apply (View.read (Elt F) (iRowK L).view fi)) Finset.univ) = idxf at hin ⊢
  rw [e] at hidx
  -- the word at entry `k` of the scratch's slice is the index array's word at the chunk's row `k`
  have hword : ∀ k : Fin 320, idxf (S320.rowMajor.symm (k.cast hn.symm))
      = fi (ix1 ⟨5120 * (L 1).val + 2560 * (L 0).val + 320 * r.val + k.val, by
        have h1 : (L 1).val < 16 := (L 1).isLt
        have h0 : (L 0).val < 2 := (L 0).isLt
        have := r.isLt; omega⟩) := by
    intro k
    have hx : ((S320.rowMajor.symm (k.cast hn.symm)) 0).val = k.val := by
      have h := Shape.rowMajor_val_one (S320.rowMajor.symm (k.cast hn.symm))
      rw [Equiv.apply_symm_apply] at h
      exact h.symm
    rw [← hidx]
    refine Eq.trans (sIslN_read r _ _) (Eq.trans (iRowK_read L fi _) ?_)
    refine congrArg fi (ix1_of_val _ _ ?_)
    refine Eq.trans (iRowK_emb_val L _) ?_
    refine Eq.trans (congrArg (fun t => k1_off1 L 0 + 1 * t) (Eq.trans (sIslN_emb_val r _) (congrArg (fun t => 320 * r.val + 1 * t) hx))) ?_
    rw [congrFun (k1_off1_eq L) 0]
    show 5120 * (L 1).val + 2560 * (L 0).val + 1 * (320 * r.val + 1 * k.val) = 5120 * (L 1).val + 2560 * (L 0).val + 320 * r.val + k.val
    omega
  refine congrArg _ (ix2_of_val _ _ _ ?_ ?_)
  · -- the row: the word's value, which is in range of the table
    rw [rowOfT_val _ (hfi _)]
    refine Eq.trans (congrArg Fin.val (Shape.Gathers.idx_axis gathers_S540672x128_S320x128 (SparseCore.rows idxf hn hin) y)) ?_
    show (idxf (S320.rowMajor.symm ((y 0).cast hn.symm))).toNat = _
    refine Eq.trans (congrArg BitVec.toNat (hword (y 0))) ?_
    refine congrArg (fun j => (fi j).toNat) (congrArg ix1 (Fin.ext ?_))
    refine Eq.trans ?_ (oChN_emb_val L r y 0).symm
    rw [congrFun (k1_off2_eq L r) 0]
    show 5120 * (L 1).val + 2560 * (L 0).val + 320 * r.val + (y 0).val = 5120 * (L 1).val + 2560 * (L 0).val + 320 * r.val + 1 * (y 0).val
    omega
  · -- the column: the chunk's own
    refine Eq.trans (Shape.Gathers.idx_of_ne gathers_S540672x128_S320x128 (SparseCore.rows idxf hn hin) y 1 (by decide)) ?_
    refine Eq.trans ?_ (oChN_emb_val L r y 1).symm
    rw [congrFun (k1_off2_eq L r) 1]
    show (y 1).val = _
    show _ = 0 + 1 * (y 1).val
    omega

end Cert.Kernel.Hand

end
-- ==== Proof.Bits.LaunchKI.lean ====
/-
  The launch of the kernel program, assembled: what the launch theorem asks beside @main's run.
  The launch element is the handshakes' rounds at their launch state beside the two TensorCore pipelines' rounds at
  theirs (no transfer counted); split along the product it funds, per device, the ghost state each pipeline's region is
  later entered with. At the end every unscoped buffer is held at the last boundary's contents; read against the final
  memory, the five argument buffers hold what the launch gave them: no host stretch writes one, none is the packed table
  or the gathered array, and the LSTM call's pipeline has three of them (the index array and the two weight matrices) as
  input windows, whose arrays are never written, and the other two not at all.
  Assembled (`run_full`): the launch theorem at the one vector-subcore call — the tiles' obligation, the call's split of
  its payloads, @main's run on the TensorCore, the launch element, the final read-off — gives that every weakly fair
  execution terminates, nothing faulting, with every unscoped buffer at the last boundary's contents, the gathered
  array having held the gather's specified result. The frame (`run_main`, `frame_ki`) is that at the five argument
  buffers. How the index array and the gathered array are cut among the tiles, and that each tile's chunk holds the
  specified rows, are the facts of their own modules; the indices are rows of the packed table under the precondition.
-/
import proofs.«206902_g37847251812778_fold_wed_m_929_15_alg».proof.Proof.Bits.Main
import proofs.«206902_g37847251812778_fold_wed_m_929_15_alg».proof.Proof.Bits.LstmBody
import proofs.«206902_g37847251812778_fold_wed_m_929_15_alg».proof.Proof.Bits.IdxRange
import proofs.«206902_g37847251812778_fold_wed_m_929_15_alg».proof.Proof.Bits.Chunks
import proofs.«206902_g37847251812778_fold_wed_m_929_15_alg».proof.Proof.Bits.ChunkValue
import proofs.«206902_g37847251812778_fold_wed_m_929_15_alg».proof.Proof.Gen.Kernel.Launch
import proofs.«206902_g37847251812778_fold_wed_m_929_15_alg».proof.Proof.Gen.Pre_input_domain
import Idealize.ShloMosaic.Lib.Pipeline.Sound
import Idealize.ShloMosaic.Lib.Pipeline.Launch

set_option maxRecDepth 16384

noncomputable section

namespace Cert.Kernel.Hand

open Cert.Kernel Cert.Kernel.Gen
open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.SparseCore.Cfg (HIx Pay)
open Idealize.ShloMosaic.StableHlo (held devRef_ne_of_ne after_of_forall_not_mem)

variable {F : FTy → Type} [FloatOps F]

local notation "𝕄" => MT nD τ sig (HIx 1) (Elt F) ℕ UU ℕ

/-! ## The launch element -/

/-- The two pipelines' launch ghost state on device `d`: their staging cells' and duty tokens (pipeline 0's, then
    pipeline 1's). -/
def G0u (d : Dev nD) : sProp 𝕄 :=
  iprop(Pipeline.cellsGhost (Pipeline.pin (pcfgs (F := F)) adm) EP 0 d ∗ Pipeline.toksInit (Pipeline.pin (pcfgs (F := F)) adm) EP 0 d
    ∗ Pipeline.cellsGhost (Pipeline.pin (pcfgs (F := F)) adm) EP 1 d ∗ Pipeline.toksInit (Pipeline.pin (pcfgs (F := F)) adm) EP 1 d)

/-- The launch element: the handshakes' rounds at their launch state, the two pipelines' rounds at theirs, no transfer
    counted. -/
def u₀ : UU :=
  (initOf (K (F := F)).hsCells (K (F := F)).hsToks,
    (initOf (Pipeline.cells (Pipeline.pin (pcfgs (F := F)) adm) cellOf_inj) (Pipeline.launchToks (Pipeline.pin (pcfgs (F := F)) adm) cellOf_inj), 1))

/-- The pipelines' ghost state, dealt per device: each device's two pipelines' cells and tokens. -/
theorem ghost_regroup :
    iprop((bigSep Finset.univ fun c : Dev nD => bigSep Finset.univ fun p : Fin 2 => Pipeline.cellsGhost (Pipeline.pin (pcfgs (F := F)) adm) EP p c)
        ∗ (bigSep Finset.univ fun c : Dev nD => bigSep Finset.univ fun p : Fin 2 =>
            (Pipeline.toksInit (Pipeline.pin (pcfgs (F := F)) adm) EP p c : sProp 𝕄)))
      ⊢ bigSep Finset.univ (G0u (F := F)) := by
  rw [← bigSep_sep']
  refine bigSep_mono fun c _ => ?_
  show iprop((bigSep Finset.univ fun p : Fin 2 => Pipeline.cellsGhost (Pipeline.pin (pcfgs (F := F)) adm) EP p c)
      ∗ (bigSep Finset.univ fun p : Fin 2 => (Pipeline.toksInit (Pipeline.pin (pcfgs (F := F)) adm) EP p c : sProp 𝕄)))
    ⊢ G0u (F := F) c
  rw [bigSep_univ_two, bigSep_univ_two]
  unfold G0u
  iintro ⟨⟨Hc0, Hc1⟩, Ht0, Ht1⟩
  isplitl [Hc0]; · iexact Hc0
  isplitl [Ht0]; · iexact Ht0
  isplitl [Hc1]; · iexact Hc1
  iexact Ht1

/-- The launch element split between the handshakes' library and the pipelines': a pair owned is each half owned
    through its embedding, and the counters' half is dropped. -/
theorem own_u₀ : (ownU (u₀ (F := F)) : sProp 𝕄)
    ⊢ iprop(BI.own (EH (initOf (K (F := F)).hsCells (K (F := F)).hsToks))
        ∗ BI.own (EP (initOf (Pipeline.cells (Pipeline.pin (pcfgs (F := F)) adm) cellOf_inj)
            (Pipeline.launchToks (Pipeline.pin (pcfgs (F := F)) adm) cellOf_inj)))) := by
  have h1 := ownU_pair (nD := nD) (τ := τ) (sig := sig) (Ix := HIx 1) (Val := Elt F) (Name := ℕ) (Lvl := ℕ)
    (initOf (K (F := F)).hsCells (K (F := F)).hsToks : UH)
    ((initOf (Pipeline.cells (Pipeline.pin (pcfgs (F := F)) adm) cellOf_inj)
        (Pipeline.launchToks (Pipeline.pin (pcfgs (F := F)) adm) cellOf_inj), 1) : UP × Counters)
  have h2 := own_pair_emb (embR : Emb (UP × Counters) 𝕄)
    (initOf (Pipeline.cells (Pipeline.pin (pcfgs (F := F)) adm) cellOf_inj)
        (Pipeline.launchToks (Pipeline.pin (pcfgs (F := F)) adm) cellOf_inj) : UP) (1 : Counters)
  exact h1.trans (sep_mono .rfl (h2.trans sep_elim_left))

/-- THE LAUNCH ELEMENT'S GHOST HALF, dealt: the handshakes' rounds, and each device's two pipelines' cells and tokens. -/
theorem hu₀_ghost : (ownU (u₀ (F := F)) : sProp 𝕄)
    ⊢ |={Set.univ}=> iprop(BI.own (EH (initOf (K (F := F)).hsCells (K (F := F)).hsToks)) ∗ bigSep Finset.univ (G0u (F := F))) := by
  iintro Hu
  ihave H := own_u₀ $$ Hu
  icases H with ⟨HH, HP⟩
  imod (Pipeline.fund_ghost (Pipeline.pin (pcfgs (F := F)) adm) EP cellOf_inj) $$ HP with ⟨Hg, Ht⟩
  ihave HG := ghost_regroup $$ [Hg Ht]
  · isplitl [Hg] <;> iassumption
  imodintro
  isplitl [HH]; · iexact HH
  iexact HG

/-! ## The five argument buffers reach the last boundary unchanged -/

/-- The five argument buffers. -/
abbrev argRefs : List (Ref sig .tc) := [main_arg0, main_arg1, main_arg2, main_arg3, main_arg4]

/-- No host stretch of @main writes an argument buffer. -/
theorem keepA : ∀ b ∈ argRefs, ∀ op ∈ (opsA : List (HloOp τ sig (Elt F))), Proc.devRef .tc b ∉ op.writes := by
  intro b hb op hop
  fin_cases hb <;> fin_cases hop <;> exact fun h => devRef_ne_of_ne (by decide) (Finset.mem_singleton.mp h)
theorem keepB : ∀ b ∈ argRefs, ∀ op ∈ (opsB : List (HloOp τ sig (Elt F))), Proc.devRef .tc b ∉ op.writes := by
  intro b hb op hop
  fin_cases hb <;> fin_cases hop <;> exact fun h => devRef_ne_of_ne (by decide) (Finset.mem_singleton.mp h)
theorem keepC : ∀ b ∈ argRefs, ∀ op ∈ (opsC : List (HloOp τ sig (Elt F))), Proc.devRef .tc b ∉ op.writes := by
  intro b hb op hop
  fin_cases hb <;> fin_cases hop <;> exact fun h => devRef_ne_of_ne (by decide) (Finset.mem_singleton.mp h)
theorem keepE : ∀ b ∈ argRefs, ∀ op ∈ (opsE : List (HloOp τ sig (Elt F))), Proc.devRef .tc b ∉ op.writes := by
  intro b hb op hop
  fin_cases hb <;> fin_cases hop <;> exact fun h => devRef_ne_of_ne (by decide) (Finset.mem_singleton.mp h)

section
variable (o5 : Vec F S20x512x128 .f32 → Vec F S512x20 .i32 → Vec F S64x256 .f32 → Vec F S64x256 .f32 → Vec F S1x256 .f32 → Vec F S20x512x64 .f32)
  (o6 o7 : Vec F S20x512x128 .f32 → Vec F S512x20 .i32 → Vec F S64x256 .f32 → Vec F S64x256 .f32 → Vec F S1x256 .f32 → Vec F S512x64 .f32)
variable (m : (ℓ : Loc nD τ sig) → Buf (Elt F) ℓ)
variable (fo : (c : Dev nD) → Buf (Elt F) ((c : Thread nD τ).loc main_v15))

/-- Up to the LSTM call's entry an argument buffer holds what the launch gave it: the stretches do not write it, and it
    is neither the packed table nor the gathered array. -/
theorem W5_arg (b : Ref sig .tc) (hb : b ∈ argRefs) (c : Dev nD) :
    W5 m fo c (Proc.devRef .tc b) = m ((c : Thread nD τ).loc b) := by
  have h15 : (Proc.devRef .tc b : DevRef τ sig) ≠ Proc.devRef .tc main_v15 := by
    fin_cases hb <;> exact devRef_ne_of_ne (by decide)
  have h2 : (Proc.devRef .tc b : DevRef τ sig) ≠ Proc.devRef .tc main_v2 := by
    fin_cases hb <;> exact devRef_ne_of_ne (by decide)
  show StableHlo.after opsC (W4 m fo c) (Proc.devRef .tc b) = _
  rw [after_of_forall_not_mem _ _ (keepC b hb)]
  unfold W4
  rw [Function.update_of_ne h15]
  show StableHlo.after opsB (W2 m c) (Proc.devRef .tc b) = _
  rw [after_of_forall_not_mem _ _ (keepB b hb)]
  unfold W2
  rw [Function.update_of_ne h2]
  show StableHlo.after opsA (W0 m c) (Proc.devRef .tc b) = _
  rw [after_of_forall_not_mem _ _ (keepA b hb)]

/-- The LSTM call leaves an argument buffer as it found it: the index array and the two weight matrices are input
    windows of its pipeline, whose arrays are never written; the other two arguments are not among its arrays. -/
theorem W6_arg (b : Ref sig .tc) (hb : b ∈ argRefs) (c : Dev nD) :
    W6 o5 o6 o7 m fo c (Proc.devRef .tc b) = W5 m fo c (Proc.devRef .tc b) := by
  have hin : ∀ w : Fin cfg2.W, (cfg2.win w).isOut = false →
      W6 o5 o6 o7 m fo c (Proc.devRef .tc (Pipeline.arrRef spec2 w)) = W5 m fo c (Proc.devRef .tc (Pipeline.arrRef spec2 w)) := fun w hw => by
    rw [W6_arr, Pipeline.Dat.arrAt_in _ w hw, A_eq2]
  fin_cases hb
  · exact hin 1 rfl
  · exact W6_of_ne o5 o6 o7 m fo c _ (by decide)
  · exact hin 2 rfl
  · exact hin 3 rfl
  · exact W6_of_ne o5 o6 o7 m fo c _ (by decide)

/-- AT THE LAST BOUNDARY every argument buffer holds what the launch gave it, whatever the gather left. -/
theorem W7_arg (b : Ref sig .tc) (hb : b ∈ argRefs) (c : Dev nD) :
    W7 o5 o6 o7 m fo c (Proc.devRef .tc b) = m ((c : Thread nD τ).loc b) := by
  show StableHlo.after opsE (W6 o5 o6 o7 m fo c) (Proc.devRef .tc b) = _
  rw [after_of_forall_not_mem _ _ (keepE b hb), W6_arg o5 o6 o7 m fo b hb c, W5_arg m fo b hb c]

/-- What the frame asks of the final memory of device `d`: each argument buffer holds what the launch gave it. -/
def fq (d : Dev nD) (s' : Phys nD τ sig (Elt F)) : Prop :=
  ∀ b ∈ argRefs, s'.mem.mem ((d : Thread nD τ).loc b) = m ((d : Thread nD τ).loc b)

/-- Every unscoped buffer held at the last boundary's contents, read against the final memory: the argument buffers
    hold what the launch gave them — whatever the gather left. -/
theorem held_args (d : Dev nD) (s' : Phys nD τ sig (Elt F)) :
    iprop(StableHlo.held (d : Thread nD τ) (Pipeline.ucRefs τ sig) (W7 o5 o6 o7 m fo d) ∗ SI s') ⊢ (⌜fq m d s'⌝ : sProp 𝕄) := by
  unfold StableHlo.held
  iintro ⟨Hh, HSI⟩
  ihave Hr := (pointsTo_read_all (Pipeline.ucRefs τ sig) (fun b => ((d : Thread nD τ).1, b)) (W7 o5 o6 o7 m fo d) s') $$ [Hh HSI]
  · isplitl [Hh] <;> iassumption
  icases Hr with ⟨%h, -⟩
  ipureintro
  intro b hb
  refine (h (Proc.devRef .tc b) (Finset.mem_filter.mpr ⟨StableHlo.devRef_mem_tcRefs b, ?_⟩)).trans (W7_arg o5 o6 o7 m fo b hb d)
  fin_cases hb <;> decide

/-- Every unscoped buffer held at the last boundary's contents, read against the final memory: the memory holds those
    contents, buffer by buffer — whatever the gather left. -/
theorem held_all (d : Dev nD) (s' : Phys nD τ sig (Elt F)) :
    iprop(StableHlo.held (d : Thread nD τ) (Pipeline.ucRefs τ sig) (W7 o5 o6 o7 m fo d) ∗ SI s')
      ⊢ (⌜∀ b ∈ Pipeline.ucRefs τ sig, s'.mem.mem (((d : Thread nD τ).1, b) : Loc nD τ sig) = W7 o5 o6 o7 m fo d b⌝ : sProp 𝕄) := by
  unfold StableHlo.held
  iintro ⟨Hh, HSI⟩
  ihave Hr := (pointsTo_read_all (Pipeline.ucRefs τ sig) (fun b => ((d : Thread nD τ).1, b)) (W7 o5 o6 o7 m fo d) s') $$ [Hh HSI]
  · isplitl [Hh] <;> iassumption
  icases Hr with ⟨%h, -⟩
  ipureintro
  exact h

/-- From a memory that holds the last boundary's contents on every unscoped buffer: the argument buffers hold what the
    launch gave them. -/
theorem args_of_all (d : Dev nD) (mem : (ℓ : Loc nD τ sig) → Buf (Elt F) ℓ)
    (h : ∀ b ∈ Pipeline.ucRefs τ sig, mem (((d : Thread nD τ).1, b) : Loc nD τ sig) = W7 o5 o6 o7 m fo d b) :
    ∀ b ∈ argRefs, mem ((d : Thread nD τ).loc b) = m ((d : Thread nD τ).loc b) := by
  intro b hb
  refine (h (Proc.devRef .tc b) (Finset.mem_filter.mpr ⟨StableHlo.devRef_mem_tcRefs b, ?_⟩)).trans (W7_arg o5 o6 o7 m fo b hb d)
  fin_cases hb <;> decide

end

/-! ## The launch, assembled -/

section Assemble
variable (m : (ℓ : Loc nD τ sig) → Buf (Elt F) ℓ) (ρ : Dev nD → PrngReg)

omit [FloatOps F] in
theorem bigSep_emp' {I : Type} (s : Finset I) : (bigSep s fun _ => iprop(emp)) = (iprop(emp) : sProp 𝕄) := bigSep_emp_const s

/-- The gather's payloads keep nothing of their own beside the call's. -/
theorem x_emp : (bigSep Finset.univ fun thr : Thread nD τ => bigSep Finset.univ fun q : Fin 1 => (PP m).x q thr) = (iprop(emp) : sProp 𝕄) := by
  show (bigSep Finset.univ fun _ : Thread nD τ => bigSep Finset.univ fun _ : Fin 1 => (iprop(emp) : sProp 𝕄)) = _
  rw [bigSep_congr fun _ _ => bigSep_emp' _, bigSep_emp']

/-- THE LAUNCH ELEMENT, dealt: the handshakes' rounds, each device's pipelines' ghost state, nothing for the payloads. -/
theorem hu₀ : iprop((ownU (u₀ (F := F)) : sProp 𝕄) ∗ (PP m).oxCred ∗ (K (F := F)).freeSems0)
    ⊢ |={Set.univ}=> iprop(BI.own (EH (initOf (K (F := F)).hsCells (K (F := F)).hsToks)) ∗ bigSep Finset.univ (G0 (F := F))
        ∗ bigSep Finset.univ fun thr : Thread nD τ => bigSep Finset.univ fun q : Fin 1 => (PP m).x q thr) := by
  iintro ⟨Hu, -, -⟩
  imod hu₀_ghost $$ Hu with ⟨HH, HG⟩
  imodintro
  isplitl [HH]; · iexact HH
  isplitl [HG]; · iexact HG
  rw [x_emp]
  iempintro

/-- What the run leaves in the final memory of device `d`: every unscoped buffer at the last boundary's contents, the
    gathered array having held the gather's specified result. -/
def fqAll (d : Dev nD) (s' : Phys nD τ sig (Elt F)) : Prop :=
  ∀ b ∈ Pipeline.ucRefs τ sig, s'.mem.mem ((d, b) : Loc nD τ sig) = W7 out2_5 out2_6 out2_7 m (gspec m) d b

/-- At @main's end the final memory holds the last boundary's contents on every unscoped buffer. -/
theorem hfin (d : Dev nD) (s' : Phys nD τ sig (Elt F)) :
    iprop(FIN out2_5 out2_6 out2_7 m d ∗ SI s') ⊢ (⌜fqAll m d s'⌝ : sProp 𝕄) := by
  unfold FIN
  exact held_all out2_5 out2_6 out2_7 m (gspec m) d s'

/-- The run's conclusion: on every device every unscoped buffer at the last boundary's contents. -/
def QF : PUnit × MemSt nD τ sig (Elt F) → Prop := fun r => ∀ c : Dev nD, ∀ b ∈ Pipeline.ucRefs τ sig,
  r.2.mem ((c, b) : Loc nD τ sig) = W7 out2_5 out2_6 out2_7 m (gspec m) c b

/-- The frame's conclusion: on every device the five argument arrays as the launch gave them. -/
def QC : PUnit × MemSt nD τ sig (Elt F) → Prop := fun r => ∀ c : Dev nD,
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)

/-- THE PROGRAM'S RUN, from a launch whose indices are in range: every weakly fair execution of the device's threads
    terminates, nothing faulting, with every unscoped buffer at the last boundary's contents — the launch theorem at the
    one vector-subcore call. -/
theorem run_full [∀ e, Nonempty (Elt F e)]
    (hx : ∀ (c : Dev nD) (i : S4096x20.Idx), 0 ≤ (m ((c.tc : Thread nD τ).loc main_arg0) i).toInt ∧ (m ((c.tc : Thread nD τ).loc main_arg0) i).toInt ≤ 999999) :
    θ_run (Cert.Kernel.defs (F := F)) (Cert.Kernel.threads (F := F)) ⟨m, fun _ => 0, ρ⟩ (QF m) :=
  SparseCore.Cfg.θ_run_sc (K := K (F := F)) (D := D (F := F)) (𝒱 := 𝒱) (EH := EH) (P := PP m) facts v₀
    (fun q hq => match q with | 0 => nomatch hq)
    (fun q _ => match q with
      | 0 => tileObl (fiOf m) (ftOf m) facts (fun d j => idx_in_range m hx d j)
          (fun d L => chunk_val d L (fiOf m d) (ftOf m d) (fun j => idx_in_range m hx d j)))
    (fun q _ => match q with | 0 => SparseCore.Cfg.VecSplit.of_plain (vecSplit (fiOf m) (ftOf m)))
    m ρ main (G0 (F := F)) (FIN out2_5 out2_6 out2_7 m) (u₀ (F := F)) (hu₀ m)
    (hmain out2_5 out2_6 out2_7 m ρ
      (fun c E i a1 h1 a2 h2 a3 h3 a4 h4 a5 h5 a6 h6 a7 h7 a8 h8 x0 x1 x2 x3 x4 Kp =>
        sound_kernel2 c E i a1 h1 a2 h2 a3 h3 a4 h4 a5 h5 a6 h6 a7 h7 a8 h8 x0 x1 x2 x3 x4 Kp)
      (fun d f => idx_split d f) (fun d f => out_split d f) (fun d f => out_split_eq d f))
    (fqAll m) (hfin m) (QF m) (fun s' h c => h c)

/-- The frame's run: the same, read at the five argument buffers. -/
theorem run_main [∀ e, Nonempty (Elt F e)]
    (hx : ∀ (c : Dev nD) (i : S4096x20.Idx), 0 ≤ (m ((c.tc : Thread nD τ).loc main_arg0) i).toInt ∧ (m ((c.tc : Thread nD τ).loc main_arg0) i).toInt ≤ 999999) :
    θ_run (Cert.Kernel.defs (F := F)) (Cert.Kernel.threads (F := F)) ⟨m, fun _ => 0, ρ⟩ (QC m) :=
  (θ_run (Cert.Kernel.defs (F := F)) _ _).mono (fun r h c => by
    have ha := args_of_all out2_5 out2_6 out2_7 m (gspec m) c r.2.mem (h c)
    exact ⟨ha main_arg0 (by simp [argRefs]), ha main_arg1 (by simp [argRefs]), ha main_arg2 (by simp [argRefs]),
      ha main_arg3 (by simp [argRefs]), ha main_arg4 (by simp [argRefs])⟩) (run_full m ρ hx)

end Assemble

/-- The kernel program runs and its five argument arrays end unchanged, under the certificate's
    precondition (which bounds the indices, so that every gathered row is a row of the packed table). -/
theorem frame_ki :
    Cert.frame_Kernel (hKernel := Cert.Kernel.Gen.facts) (hPre_input_domain := Cert.Pre_input_domain.Gen.facts) :=
  fun m ρ hpre => (θ_run Cert.Kernel.defs _ _).mono (fun _ h c => h c) (run_main (F := Bits) m ρ (pre_range_ideal m hpre))

end Cert.Kernel.Hand

end
-- ==== Proof.lean ====
/- The proof of `Cert.Claim` (proofs.«206902_g37847251812778_fold_wed_m_929_15_alg».proof.Defs) — frame_Kernel ∧ frame_KernelIdeal ∧ frame_ReferenceIdeal ∧ preserves_Kernel_KernelIdeal ∧ algebraic_KernelIdeal_ReferenceIdeal —: hand-written, untrusted.
   It must end in `theorem Cert.Proof.claim : Cert.Claim`; how it gets there is its own business
   (idealize/tests/proofs/02_vector_ops proves a bit-exact claim, 04_loops a frame). The witnesses of
   the programs' stated facts come first: the instances the generated Proof/Gen/ modules prove.
   Its author proves each claim OR witnesses that one is false. If a `holds`, `bitexact`, or `algebraic` claim
   fails at some input, do not weaken the claim until it holds: in `test_<name>.py` state
   `proofs.disproves(claim, *arrays)` in its place, with that input as `arrays`; run
   `python test_<name>.py regen`; and prove the disproof here (this file is not rewritten, and the claim to
   prove changes: a disproof adds no frame). A `frame` or `preserves` claim has no disproof.
   idealize/tests/proofs/README.md, "A value claim that is FALSE", says how; 02_vector_ops
   `Proof/Disproof.lean` and 10_ideal_fields `Proof/Widths.lean` are worked examples. -/
import proofs.«206902_g37847251812778_fold_wed_m_929_15_alg».proof.Defs
import proofs.«206902_g37847251812778_fold_wed_m_929_15_alg».proof.Proof.Gen.Kernel
import proofs.«206902_g37847251812778_fold_wed_m_929_15_alg».proof.Proof.Gen.Kernel.Skeleton
import proofs.«206902_g37847251812778_fold_wed_m_929_15_alg».proof.Proof.Gen.Kernel.Launch
import proofs.«206902_g37847251812778_fold_wed_m_929_15_alg».proof.Proof.Gen.Kernel.Regions
import proofs.«206902_g37847251812778_fold_wed_m_929_15_alg».proof.Proof.Gen.Kernel.Points
import proofs.«206902_g37847251812778_fold_wed_m_929_15_alg».proof.Proof.Gen.KernelIdeal
import proofs.«206902_g37847251812778_fold_wed_m_929_15_alg».proof.Proof.Gen.KernelIdeal.Skeleton
import proofs.«206902_g37847251812778_fold_wed_m_929_15_alg».proof.Proof.Gen.KernelIdeal.Launch
import proofs.«206902_g37847251812778_fold_wed_m_929_15_alg».proof.Proof.Gen.KernelIdeal.Regions
import proofs.«206902_g37847251812778_fold_wed_m_929_15_alg».proof.Proof.Gen.KernelIdeal.Points
import proofs.«206902_g37847251812778_fold_wed_m_929_15_alg».proof.Proof.Gen.ReferenceIdeal
import proofs.«206902_g37847251812778_fold_wed_m_929_15_alg».proof.Proof.Gen.Pre_input_domain
import proofs.«206902_g37847251812778_fold_wed_m_929_15_alg».proof.Proof.FinalKI
import proofs.«206902_g37847251812778_fold_wed_m_929_15_alg».proof.Proof.Bits.LaunchKI
import Idealize.ShloMosaic.Adequacy
import Idealize.ShloMosaic.Init

noncomputable section

namespace Cert.Proof

open Idealize.ShloMosaic Idealize.SL.Sem Cert.Kernel

/-- The five claims: both instances of the kernel program run to their end with their arguments unchanged (the SparseCore
    launch over @main's two TensorCore pipelines and its one gather), so does the reference (its generated run); no
    rewrite was applied, so nothing is to preserve; and at the ideal instance the kernel's three results are the
    reference's: the LSTM recurrence over the rows the indices name, row by row. -/
theorem claim : Cert.Claim := ⟨Cert.Kernel.Gen.facts, Cert.KernelIdeal.Gen.facts, Cert.ReferenceIdeal.Gen.facts, Cert.Pre_input_domain.Gen.facts,
  Cert.Kernel.Hand.frame_ki, Cert.KernelIdeal.Hand.frame_ki, Cert.ReferenceIdeal.RefFrame.frame_ri, trivial, Cert.KernelIdeal.Hand.algebraic_ki⟩

end Cert.Proof

end
